-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v415) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3 : Shape := ⟨2, ![4096, 3]⟩
abbrev S4096x22 : Shape := ⟨2, ![4096, 22]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096x22 : S_.BroadcastsInDim S4096x22 (![] : Fin 0 → Fin S4096x22.rank)
  reducesTo_S4096x22_S_d0_1 : S4096x22.ReducesTo [0, 1] S_

variable [Facts]

def fn {F : FTy → Type} [FloatOps F] (main_arg0 : FVec F S4096x3 .f32) (main_arg1 : FVec F S4096x22 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x22 .f32 := Host.absf main_arg1
  let main_cst_0 : FVec F S_ .f32 := constant S_ .f32 0x7F800000#32
  let main_v5 : FVec F S4096x22 .f32 := broadcastInDim S4096x22 ![] bcast_S_S4096x22 main_cst_0
  let main_v6 : IVec S4096x22 1 := cmpf .olt main_v4 main_v5
  let main_c_1 : IVec S_ 1 := constantI S_ 1 1#1
  let main_v7 : IVec S_ 1 := (fun x v => Host.reduce IntOp.andi x v reducesTo_S4096x22_S_d0_1 h_S_) main_v6 main_c_1
  let main_v8 : IVec S_ 1 := andi main_v3 main_v7
  main_v8
-- ==== Kernel.lean ====
abbrev S4096x3 : Shape := ⟨2, ![4096, 3]⟩
abbrev S4096x22 : Shape := ⟨2, ![4096, 22]⟩
abbrev S3x4096 : Shape := ⟨2, ![3, 4096]⟩
abbrev S22x4096 : Shape := ⟨2, ![22, 4096]⟩
abbrev S4096x1 : Shape := ⟨2, ![4096, 1]⟩
abbrev S256x3 : Shape := ⟨2, ![256, 3]⟩
abbrev S3x256 : Shape := ⟨2, ![3, 256]⟩
abbrev S256x22 : Shape := ⟨2, ![256, 22]⟩
abbrev S22x256 : Shape := ⟨2, ![22, 256]⟩
abbrev S256x1 : Shape := ⟨2, ![256, 1]⟩
abbrev S1x256 : Shape := ⟨2, ![1, 256]⟩
abbrev S256x256 : Shape := ⟨2, ![256, 256]⟩
abbrev S256 : Shape := ⟨1, ![256]⟩
abbrev S4096 : Shape := ⟨1, ![4096]⟩
abbrev S_ : Shape := ⟨0, ![]⟩

abbrev nBuf : Space → Nat
  | .hbm => 81
  | .vmem => 12
  | .smem => 0
  | _ => 0

abbrev bufTy : (tb : Table) → Fin (tcTables nBuf tb) → BufTy
  | .hbm, ⟨0, _⟩ => ⟨S4096x3, .f32⟩
  | .hbm, ⟨1, _⟩ => ⟨S4096x22, .f32⟩
  | .hbm, ⟨2, _⟩ => ⟨S3x4096, .f32⟩
  | .hbm, ⟨3, _⟩ => ⟨S22x4096, .f32⟩
  | .hbm, ⟨4, _⟩ => ⟨S4096x1, .f32⟩
  | .hbm, ⟨5, _⟩ => ⟨S4096x1, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4096x1, .f32⟩
  | .hbm, ⟨13, _⟩ => ⟨S4096, .f32⟩
  | .hbm, ⟨14, _⟩ => ⟨S4096x1, .f32⟩
  | .hbm, ⟨15, _⟩ => ⟨S4096, .f32⟩
  | .hbm, ⟨16, _⟩ => ⟨S4096x1, .f32⟩
  | .hbm, ⟨17, _⟩ => ⟨S4096, .f32⟩
  | .hbm, ⟨18, _⟩ => ⟨S4096x1, .f32⟩
  | .hbm, ⟨19, _⟩ => ⟨S4096, .f32⟩
  | .hbm, ⟨20, _⟩ => ⟨S4096x1, .f32⟩
  | .hbm, ⟨21, _⟩ => ⟨S4096, .f32⟩
  | .hbm, ⟨22, _⟩ => ⟨S4096x1, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S4096, .f32⟩
  | .hbm, ⟨30, _⟩ => ⟨S4096x1, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096x1, .f32⟩
  | .hbm, ⟨35, _⟩ => ⟨S4096, .f32⟩
  | .hbm, ⟨36, _⟩ => ⟨S4096, .f32⟩
  | .hbm, ⟨37, _⟩ => ⟨S4096, .f32⟩
  | .hbm, ⟨38, _⟩ => ⟨S4096, .f32⟩
  | .hbm, ⟨39, _⟩ => ⟨S4096x1, .f32⟩
  | .hbm, ⟨40, _⟩ => ⟨S4096, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1, .f32⟩
  | .hbm, ⟨50, _⟩ => ⟨S4096, .f32⟩
  | .hbm, ⟨51, _⟩ => ⟨S4096x1, .f32⟩
  | .hbm, ⟨52, _⟩ => ⟨S4096, .f32⟩
  | .hbm, ⟨53, _⟩ => ⟨S4096, .f32⟩
  | .hbm, ⟨54, _⟩ => ⟨S4096, .f32⟩
  | .hbm, ⟨55, _⟩ => ⟨S4096x1, .f32⟩
  | .hbm, ⟨56, _⟩ => ⟨S4096, .f32⟩
  | .hbm, ⟨57, _⟩ => ⟨S4096, .f32⟩
  | .hbm, ⟨58, _⟩ => ⟨S4096, .f32⟩
  | .hbm, ⟨59, _⟩ => ⟨S4096, .f32⟩
  | .hbm, ⟨60, _⟩ => ⟨S4096x1, .f32⟩
  | .hbm, ⟨61, _⟩ => ⟨S4096, .f32⟩
  | .hbm, ⟨62, _⟩ => ⟨S4096, .f32⟩
  | .hbm, ⟨63, _⟩ => ⟨S4096, .f32⟩
  | .hbm, ⟨64, _⟩ => ⟨S4096, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S4096, .f32⟩
  | .hbm, ⟨74, _⟩ => ⟨S4096, .i1⟩
  | .hbm, ⟨75, _⟩ => ⟨S4096, .i1⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S256x3, .f32⟩
  | .local _ .vmem, ⟨1, _⟩ => ⟨S256x3, .f32⟩
  | .local _ .vmem, ⟨2, _⟩ => ⟨S3x256, .f32⟩
  | .local _ .vmem, ⟨3, _⟩ => ⟨S3x256, .f32⟩
  | .local _ .vmem, ⟨4, _⟩ => ⟨S256x22, .f32⟩
  | .local _ .vmem, ⟨5, _⟩ => ⟨S256x22, .f32⟩
  | .local _ .vmem, ⟨6, _⟩ => ⟨S22x256, .f32⟩
  | .local _ .vmem, ⟨7, _⟩ => ⟨S22x256, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x1, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_2 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_cst_3 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_cst_4 : Ref sig .tc := ⟨.hbm, 78, rfl⟩
abbrev main_v70 : Ref sig .tc := ⟨.hbm, 79, rfl⟩
abbrev main_v71 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x22 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S22x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4096x3_S3x4096_1_0 : S4096x3.Transposes [1, 0] S3x4096
  transposes_S4096x22_S22x4096_1_0 : S4096x22.Transposes [1, 0] S22x4096
  inb_S256x1_S256x1_0_0 : ∀ a, (![0, 0] : Fin 2 → Nat) a + S256x1.size a ≤ S256x1.size a
  h_S256x1 : 0 < S256x1.numel
  inb_S256x3_S256x3_0_0 : ∀ a, (![0, 0] : Fin 2 → Nat) a + S256x3.size a ≤ S256x3.size a
  h_S256x3 : 0 < S256x3.numel
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S256x3_o0_0_S256x1 : S256x3.Slices ![0, 0] S256x1
  slices_S3x256_o0_0_S1x256 : S3x256.Slices ![0, 0] S1x256
  broadcasts_S256x1_S256x256 : S256x1.Broadcasts S256x256
  broadcasts_S1x256_S256x256 : S1x256.Broadcasts S256x256
  slices_S256x3_o0_1_S256x1 : S256x3.Slices ![0, 1] S256x1
  slices_S3x256_o1_0_S1x256 : S3x256.Slices ![1, 0] S1x256
  slices_S256x3_o0_2_S256x1 : S256x3.Slices ![0, 2] S256x1
  slices_S3x256_o2_0_S1x256 : S3x256.Slices ![2, 0] S1x256
  inb_S256x22_S256x22_0_0 : ∀ a, (![0, 0] : Fin 2 → Nat) a + S256x22.size a ≤ S256x22.size a
  h_S256x22 : 0 < S256x22.numel
  inb_S22x256_S22x256_0_0 : ∀ a, (![0, 0] : Fin 2 → Nat) a + S22x256.size a ≤ S22x256.size a
  h_S22x256 : 0 < S22x256.numel
  shapeCasts_S22x256_S22x256 : S22x256.ShapeCasts S22x256
  slices_S256x22_o0_0_S256x1 : S256x22.Slices ![0, 0] S256x1
  slices_S256x22_o0_1_S256x1 : S256x22.Slices ![0, 1] S256x1
  slices_S256x22_o0_4_S256x1 : S256x22.Slices ![0, 4] S256x1
  slices_S256x22_o0_5_S256x1 : S256x22.Slices ![0, 5] S256x1
  slices_S256x22_o0_6_S256x1 : S256x22.Slices ![0, 6] S256x1
  slices_S256x22_o0_7_S256x1 : S256x22.Slices ![0, 7] S256x1
  slices_S256x22_o0_8_S256x1 : S256x22.Slices ![0, 8] S256x1
  slices_S256x22_o0_9_S256x1 : S256x22.Slices ![0, 9] S256x1
  slices_S22x256_o0_0_S1x256 : S22x256.Slices ![0, 0] S1x256
  slices_S22x256_o1_0_S1x256 : S22x256.Slices ![1, 0] S1x256
  slices_S22x256_o4_0_S1x256 : S22x256.Slices ![4, 0] S1x256
  slices_S22x256_o5_0_S1x256 : S22x256.Slices ![5, 0] S1x256
  slices_S22x256_o6_0_S1x256 : S22x256.Slices ![6, 0] S1x256
  slices_S22x256_o7_0_S1x256 : S22x256.Slices ![7, 0] S1x256
  slices_S22x256_o8_0_S1x256 : S22x256.Slices ![8, 0] S1x256
  slices_S22x256_o9_0_S1x256 : S22x256.Slices ![9, 0] S1x256
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  shapeCasts_S256x1_S256x1 : S256x1.ShapeCasts S256x1
  shapeCasts_S4096x1_S4096 : S4096x1.ShapeCasts S4096
  reducesTo_S4096_S_d0 : S4096.ReducesTo [0] S_
  h_S_ : 0 < S_.numel
  slices_S4096x22_S4096x1_0_2 : S4096x22.Slices ![0, 2] S4096x1
  slices_S4096x22_S4096x1_0_3 : S4096x22.Slices ![0, 3] S4096x1
  slices_S4096x22_S4096x1_0_18 : S4096x22.Slices ![0, 18] S4096x1
  slices_S4096x22_S4096x1_0_19 : S4096x22.Slices ![0, 19] S4096x1
  slices_S4096x22_S4096x1_0_20 : S4096x22.Slices ![0, 20] S4096x1
  slices_S4096x22_S4096x1_0_21 : S4096x22.Slices ![0, 21] S4096x1
  bcast_S_S4096 : S_.BroadcastsInDim S4096 (![] : Fin 0 → Fin S4096.rank)
  slices_S4096x22_S4096x1_0_10 : S4096x22.Slices ![0, 10] S4096x1
  slices_S4096x22_S4096x1_0_11 : S4096x22.Slices ![0, 11] S4096x1
  slices_S4096x22_S4096x1_0_12 : S4096x22.Slices ![0, 12] S4096x1
  slices_S4096x22_S4096x1_0_13 : S4096x22.Slices ![0, 13] S4096x1
  slices_S4096x22_S4096x1_0_14 : S4096x22.Slices ![0, 14] S4096x1
  slices_S4096x22_S4096x1_0_15 : S4096x22.Slices ![0, 15] S4096x1
  slices_S4096x22_S4096x1_0_16 : S4096x22.Slices ![0, 16] S4096x1
  slices_S4096x22_S4096x1_0_17 : S4096x22.Slices ![0, 17] S4096x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3.size a ≤ S4096x3.size a
  hwx0_0 : ∀ i : grid0.Coords, EltTy.bits .f32 = 32 ∨ (Rect.block (s := S4096x3) S256x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x4096.size a
  hwx0_1 : ∀ i : grid0.Coords, EltTy.bits .f32 = 32 ∨ (Rect.block (s := S3x4096) S3x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x22.size a ≤ S4096x22.size a
  hwx0_2 : ∀ i : grid0.Coords, EltTy.bits .f32 = 32 ∨ (Rect.block (s := S4096x22) S256x22.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S22x256.size a ≤ S22x4096.size a
  hwx0_3 : ∀ i : grid0.Coords, EltTy.bits .f32 = 32 ∨ (Rect.block (s := S22x4096) S22x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)

variable [Facts₀]

abbrev win0_0 : Pipeline.Window sig grid0 :=
  Pipeline.Window.ofSpec (Memref.whole main_arg0) S256x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x22.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S22x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x3 : Shape := ⟨2, ![4096, 3]⟩
abbrev S4096x22 : Shape := ⟨2, ![4096, 22]⟩
abbrev S4096x1 : Shape := ⟨2, ![4096, 1]⟩
abbrev S4096 : Shape := ⟨1, ![4096]⟩
abbrev S1x4096x3 : Shape := ⟨3, ![1, 4096, 3]⟩
abbrev S4096x1x3 : Shape := ⟨3, ![4096, 1, 3]⟩
abbrev S4096x4096x3 : Shape := ⟨3, ![4096, 4096, 3]⟩
abbrev S_ : Shape := ⟨0, ![]⟩
abbrev S4096x4096 : Shape := ⟨2, ![4096, 4096]⟩
abbrev S16777216 : Shape := ⟨1, ![16777216]⟩
abbrev S8386560 : Shape := ⟨1, ![8386560]⟩
abbrev S16777216x1 : Shape := ⟨2, ![16777216, 1]⟩
abbrev S8386560x1 : Shape := ⟨2, ![8386560, 1]⟩
abbrev S8386560x2 : Shape := ⟨2, ![8386560, 2]⟩
abbrev S1x4096 : Shape := ⟨2, ![1, 4096]⟩

abbrev nBuf : Space → Nat
  | .hbm => 599
  | .vmem => 0
  | .smem => 0
  | _ => 0

abbrev hbmTy0_0 (i : Nat) : BufTy := match i % 128 with
  | 0 => ⟨S4096x3, .f32⟩
  | 1 => ⟨S4096x22, .f32⟩
  | 2 => ⟨S4096x1, .f32⟩
  | 3 => ⟨S4096, .f32⟩
  | 4 => ⟨S4096x1, .f32⟩
  | 5 => ⟨S4096, .f32⟩
  | 6 => ⟨S4096x1, .f32⟩
  | 7 => ⟨S4096, .f32⟩
  | 8 => ⟨S4096x1, .f32⟩
  | 9 => ⟨S4096, .f32⟩
  | 10 => ⟨S4096x1, .f32⟩
  | 11 => ⟨S4096, .f32⟩
  | 12 => ⟨S4096x1, .f32⟩
  | 13 => ⟨S4096, .f32⟩
  | 14 => ⟨S4096x1, .f32⟩
  | 15 => ⟨S4096, .f32⟩
  | 16 => ⟨S4096x1, .f32⟩
  | 17 => ⟨S4096, .f32⟩
  | 18 => ⟨S4096x1, .f32⟩
  | 19 => ⟨S4096, .f32⟩
  | 20 => ⟨S4096x1, .f32⟩
  | 21 => ⟨S4096, .f32⟩
  | 22 => ⟨S4096x1, .f32⟩
  | 23 => ⟨S4096, .f32⟩
  | 24 => ⟨S4096x1, .f32⟩
  | 25 => ⟨S4096, .f32⟩
  | 26 => ⟨S4096x1, .f32⟩
  | 27 => ⟨S4096, .f32⟩
  | 28 => ⟨S4096x1, .f32⟩
  | 29 => ⟨S4096, .f32⟩
  | 30 => ⟨S1x4096x3, .f32⟩
  | 31 => ⟨S4096x1x3, .f32⟩
  | 32 => ⟨S4096x4096x3, .f32⟩
  | 33 => ⟨S4096x4096x3, .f32⟩
  | 34 => ⟨S4096x4096x3, .f32⟩
  | 35 => ⟨S4096x4096x3, .f32⟩
  | 36 => ⟨S_, .f32⟩
  | 37 => ⟨S4096x4096, .f32⟩
  | 38 => ⟨S4096x4096, .i32⟩
  | 39 => ⟨S4096x4096, .i32⟩
  | 40 => ⟨S_, .i32⟩
  | 41 => ⟨S4096x4096, .i32⟩
  | 42 => ⟨S4096x4096, .i32⟩
  | 43 => ⟨S4096x4096, .i1⟩
  | 44 => ⟨S_, .f32⟩
  | 45 => ⟨S_, .f32⟩
  | 46 => ⟨S4096x4096, .f32⟩
  | 47 => ⟨S4096x4096, .f32⟩
  | 48 => ⟨S4096x4096, .f32⟩
  | 49 => ⟨S_, .f32⟩
  | 50 => ⟨S4096x4096, .f32⟩
  | 51 => ⟨S4096x4096, .i32⟩
  | 52 => ⟨S_, .i32⟩
  | 53 => ⟨S4096x4096, .i32⟩
  | 54 => ⟨S4096x4096, .i32⟩
  | 55 => ⟨S4096x4096, .i32⟩
  | 56 => ⟨S4096x4096, .i1⟩
  | 57 => ⟨S_, .f32⟩
  | 58 => ⟨S4096x4096, .f32⟩
  | 59 => ⟨S4096x4096, .f32⟩
  | 60 => ⟨S_, .f32⟩
  | 61 => ⟨S4096x4096, .f32⟩
  | 62 => ⟨S4096x4096, .i1⟩
  | 63 => ⟨S16777216, .i1⟩
  | 64 => ⟨S16777216, .i32⟩
  | 65 => ⟨S_, .i32⟩
  | 66 => ⟨S_, .i32⟩
  | 67 => ⟨S16777216, .i32⟩
  | 68 => ⟨S_, .i32⟩
  | 69 => ⟨S8386560, .i32⟩
  | 70 => ⟨S_, .i32⟩
  | 71 => ⟨S_, .i32⟩
  | 72 => ⟨S16777216, .i32⟩
  | 73 => ⟨S16777216, .i32⟩
  | 74 => ⟨S_, .i32⟩
  | 75 => ⟨S16777216, .i32⟩
  | 76 => ⟨S16777216, .i1⟩
  | 77 => ⟨S_, .i32⟩
  | 78 => ⟨S16777216, .i32⟩
  | 79 => ⟨S16777216, .i32⟩
  | 80 => ⟨S16777216, .i32⟩
  | 81 => ⟨S16777216x1, .i32⟩
  | 82 => ⟨S_, .i32⟩
  | 83 => ⟨S16777216, .i32⟩
  | 84 => ⟨S8386560, .i32⟩
  | 85 => ⟨S_, .i32⟩
  | 86 => ⟨S_, .i32⟩
  | 87 => ⟨S8386560, .i32⟩
  | 88 => ⟨S_, .i32⟩
  | 89 => ⟨S8386560, .i32⟩
  | 90 => ⟨S8386560, .i32⟩
  | 91 => ⟨S8386560, .i32⟩
  | 92 => ⟨S_, .i32⟩
  | 93 => ⟨S8386560, .i32⟩
  | 94 => ⟨S8386560, .i1⟩
  | 95 => ⟨S8386560, .i32⟩
  | 96 => ⟨S8386560, .i32⟩
  | 97 => ⟨S_, .i32⟩
  | 98 => ⟨S8386560, .i32⟩
  | 99 => ⟨S8386560, .i1⟩
  | 100 => ⟨S8386560, .i1⟩
  | 101 => ⟨S_, .i32⟩
  | 102 => ⟨S8386560, .i32⟩
  | 103 => ⟨S8386560, .i32⟩
  | 104 => ⟨S8386560, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S8386560, .i32⟩
  | 112 => ⟨S8386560, .i32⟩
  | 113 => ⟨S_, .i32⟩
  | 114 => ⟨S8386560, .i32⟩
  | 115 => ⟨S8386560, .i1⟩
  | 116 => ⟨S_, .i32⟩
  | 117 => ⟨S8386560, .i32⟩
  | 118 => ⟨S8386560, .i1⟩
  | 119 => ⟨S_, .i32⟩
  | 120 => ⟨S_, .i1⟩
  | 121 => ⟨S8386560, .i1⟩
  | 122 => ⟨S8386560, .i1⟩
  | 123 => ⟨S8386560, .i1⟩
  | 124 => ⟨S8386560, .i32⟩
  | 125 => ⟨S8386560, .i32⟩
  | 126 => ⟨S8386560, .i32⟩
  | 127 => ⟨S_, .i32⟩
  | _ => ⟨S4096x3, .f32⟩

abbrev hbmTy0_1 (i : Nat) : BufTy := match i % 128 with
  | 0 => ⟨S8386560, .i32⟩
  | 1 => ⟨S8386560, .i32⟩
  | 2 => ⟨S8386560, .i32⟩
  | 3 => ⟨S_, .i32⟩
  | 4 => ⟨S8386560, .i32⟩
  | 5 => ⟨S8386560, .i1⟩
  | 6 => ⟨S8386560, .i32⟩
  | 7 => ⟨S8386560, .i32⟩
  | 8 => ⟨S_, .i32⟩
  | 9 => ⟨S8386560, .i32⟩
  | 10 => ⟨S8386560, .i1⟩
  | 11 => ⟨S8386560, .i1⟩
  | 12 => ⟨S_, .i32⟩
  | 13 => ⟨S8386560, .i32⟩
  | 14 => ⟨S8386560, .i32⟩
  | 15 => ⟨S8386560, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S8386560, .i32⟩
  | 23 => ⟨S8386560, .i32⟩
  | 24 => ⟨S_, .i32⟩
  | 25 => ⟨S8386560, .i32⟩
  | 26 => ⟨S8386560, .i1⟩
  | 27 => ⟨S_, .i32⟩
  | 28 => ⟨S8386560, .i32⟩
  | 29 => ⟨S8386560, .i1⟩
  | 30 => ⟨S_, .i32⟩
  | 31 => ⟨S_, .i1⟩
  | 32 => ⟨S8386560, .i1⟩
  | 33 => ⟨S8386560, .i1⟩
  | 34 => ⟨S8386560, .i1⟩
  | 35 => ⟨S8386560, .i32⟩
  | 36 => ⟨S8386560, .i32⟩
  | 37 => ⟨S8386560, .i32⟩
  | 38 => ⟨S_, .i32⟩
  | 39 => ⟨S8386560, .i32⟩
  | 40 => ⟨S8386560, .i1⟩
  | 41 => ⟨S_, .i32⟩
  | 42 => ⟨S8386560, .i32⟩
  | 43 => ⟨S8386560, .i32⟩
  | 44 => ⟨S8386560, .i32⟩
  | 45 => ⟨S_, .i32⟩
  | 46 => ⟨S8386560, .i32⟩
  | 47 => ⟨S8386560, .i1⟩
  | 48 => ⟨S_, .i32⟩
  | 49 => ⟨S8386560, .i32⟩
  | 50 => ⟨S8386560, .i32⟩
  | 51 => ⟨S8386560, .i32⟩
  | 52 => ⟨S8386560x1, .i32⟩
  | 53 => ⟨S8386560x1, .i32⟩
  | 54 => ⟨S8386560x2, .i32⟩
  | 55 => ⟨S8386560, .f32⟩
  | 56 => ⟨S_, .f32⟩
  | 57 => ⟨S8386560, .f32⟩
  | 58 => ⟨S8386560, .i1⟩
  | 59 => ⟨S_, .f32⟩
  | 60 => ⟨S_, .f32⟩
  | 61 => ⟨S8386560, .f32⟩
  | 62 => ⟨S8386560, .f32⟩
  | 63 => ⟨S_, .i32⟩
  | 64 => ⟨S8386560, .i32⟩
  | 65 => ⟨S8386560, .i1⟩
  | 66 => ⟨S_, .i32⟩
  | 67 => ⟨S8386560, .i32⟩
  | 68 => ⟨S8386560, .i32⟩
  | 69 => ⟨S8386560, .i32⟩
  | 70 => ⟨S8386560x1, .i32⟩
  | 71 => ⟨S8386560, .f32⟩
  | 72 => ⟨S_, .i32⟩
  | 73 => ⟨S8386560, .i32⟩
  | 74 => ⟨S8386560, .i1⟩
  | 75 => ⟨S_, .i32⟩
  | 76 => ⟨S8386560, .i32⟩
  | 77 => ⟨S8386560, .i32⟩
  | 78 => ⟨S8386560, .i32⟩
  | 79 => ⟨S8386560x1, .i32⟩
  | 80 => ⟨S8386560, .f32⟩
  | 81 => ⟨S_, .i32⟩
  | 82 => ⟨S8386560, .i32⟩
  | 83 => ⟨S8386560, .i1⟩
  | 84 => ⟨S_, .i32⟩
  | 85 => ⟨S8386560, .i32⟩
  | 86 => ⟨S8386560, .i32⟩
  | 87 => ⟨S8386560, .i32⟩
  | 88 => ⟨S8386560x1, .i32⟩
  | 89 => ⟨S8386560, .f32⟩
  | 90 => ⟨S_, .i32⟩
  | 91 => ⟨S8386560, .i32⟩
  | 92 => ⟨S8386560, .i1⟩
  | 93 => ⟨S_, .i32⟩
  | 94 => ⟨S8386560, .i32⟩
  | 95 => ⟨S8386560, .i32⟩
  | 96 => ⟨S8386560, .i32⟩
  | 97 => ⟨S8386560x1, .i32⟩
  | 98 => ⟨S8386560, .f32⟩
  | 99 => ⟨S8386560, .f32⟩
  | 100 => ⟨S8386560, .f32⟩
  | 101 => ⟨S_, .f32⟩
  | 102 => ⟨S8386560, .f32⟩
  | 103 => ⟨S8386560, .f32⟩
  | 104 => ⟨S8386560, .f32⟩
  | 105 => ⟨S8386560, .f32⟩
  | 106 => ⟨S8386560, .f32⟩
  | 107 => ⟨S8386560, .f32⟩
  | 108 => ⟨S8386560, .f32⟩
  | 109 => ⟨S8386560, .f32⟩
  | 110 => ⟨S8386560, .f32⟩
  | 111 => ⟨S8386560, .f32⟩
  | 112 => ⟨S8386560, .f32⟩
  | 113 => ⟨S_, .f32⟩
  | 114 => ⟨S8386560, .f32⟩
  | 115 => ⟨S8386560, .f32⟩
  | 116 => ⟨S8386560, .f32⟩
  | 117 => ⟨S_, .i32⟩
  | 118 => ⟨S8386560, .i32⟩
  | 119 => ⟨S8386560, .i1⟩
  | 120 => ⟨S_, .i32⟩
  | 121 => ⟨S8386560, .i32⟩
  | 122 => ⟨S8386560, .i32⟩
  | 123 => ⟨S8386560, .i32⟩
  | 124 => ⟨S8386560x1, .i32⟩
  | 125 => ⟨S8386560, .f32⟩
  | 126 => ⟨S_, .i32⟩
  | 127 => ⟨S8386560, .i32⟩
  | _ => ⟨S4096x3, .f32⟩

abbrev hbmTy0_2 (i : Nat) : BufTy := match i % 128 with
  | 0 => ⟨S8386560, .i1⟩
  | 1 => ⟨S_, .i32⟩
  | 2 => ⟨S8386560, .i32⟩
  | 3 => ⟨S8386560, .i32⟩
  | 4 => ⟨S8386560, .i32⟩
  | 5 => ⟨S8386560x1, .i32⟩
  | 6 => ⟨S8386560, .f32⟩
  | 7 => ⟨S_, .i32⟩
  | 8 => ⟨S8386560, .i32⟩
  | 9 => ⟨S8386560, .i1⟩
  | 10 => ⟨S_, .i32⟩
  | 11 => ⟨S8386560, .i32⟩
  | 12 => ⟨S8386560, .i32⟩
  | 13 => ⟨S8386560, .i32⟩
  | 14 => ⟨S8386560x1, .i32⟩
  | 15 => ⟨S8386560, .f32⟩
  | 16 => ⟨S_, .i32⟩
  | 17 => ⟨S8386560, .i32⟩
  | 18 => ⟨S8386560, .i1⟩
  | 19 => ⟨S_, .i32⟩
  | 20 => ⟨S8386560, .i32⟩
  | 21 => ⟨S8386560, .i32⟩
  | 22 => ⟨S8386560, .i32⟩
  | 23 => ⟨S8386560x1, .i32⟩
  | 24 => ⟨S8386560, .f32⟩
  | 25 => ⟨S8386560, .f32⟩
  | 26 => ⟨S8386560, .f32⟩
  | 27 => ⟨S_, .f32⟩
  | 28 => ⟨S8386560, .f32⟩
  | 29 => ⟨S8386560, .f32⟩
  | 30 => ⟨S8386560, .f32⟩
  | 31 => ⟨S8386560, .f32⟩
  | 32 => ⟨S8386560, .f32⟩
  | 33 => ⟨S8386560, .f32⟩
  | 34 => ⟨S8386560, .f32⟩
  | 35 => ⟨S8386560, .f32⟩
  | 36 => ⟨S8386560, .f32⟩
  | 37 => ⟨S8386560, .f32⟩
  | 38 => ⟨S8386560, .f32⟩
  | 39 => ⟨S_, .f32⟩
  | 40 => ⟨S8386560, .f32⟩
  | 41 => ⟨S8386560, .f32⟩
  | 42 => ⟨S8386560, .f32⟩
  | 43 => ⟨S_, .i32⟩
  | 44 => ⟨S8386560, .i32⟩
  | 45 => ⟨S8386560, .i1⟩
  | 46 => ⟨S_, .i32⟩
  | 47 => ⟨S8386560, .i32⟩
  | 48 => ⟨S8386560, .i32⟩
  | 49 => ⟨S8386560, .i32⟩
  | 50 => ⟨S8386560x1, .i32⟩
  | 51 => ⟨S8386560, .f32⟩
  | 52 => ⟨S_, .i32⟩
  | 53 => ⟨S8386560, .i32⟩
  | 54 => ⟨S8386560, .i1⟩
  | 55 => ⟨S_, .i32⟩
  | 56 => ⟨S8386560, .i32⟩
  | 57 => ⟨S8386560, .i32⟩
  | 58 => ⟨S8386560, .i32⟩
  | 59 => ⟨S8386560x1, .i32⟩
  | 60 => ⟨S8386560, .f32⟩
  | 61 => ⟨S_, .i32⟩
  | 62 => ⟨S8386560, .i32⟩
  | 63 => ⟨S8386560, .i1⟩
  | 64 => ⟨S_, .i32⟩
  | 65 => ⟨S8386560, .i32⟩
  | 66 => ⟨S8386560, .i32⟩
  | 67 => ⟨S8386560, .i32⟩
  | 68 => ⟨S8386560x1, .i32⟩
  | 69 => ⟨S8386560, .f32⟩
  | 70 => ⟨S_, .i32⟩
  | 71 => ⟨S8386560, .i32⟩
  | 72 => ⟨S8386560, .i1⟩
  | 73 => ⟨S_, .i32⟩
  | 74 => ⟨S8386560, .i32⟩
  | 75 => ⟨S8386560, .i32⟩
  | 76 => ⟨S8386560, .i32⟩
  | 77 => ⟨S8386560x1, .i32⟩
  | 78 => ⟨S8386560, .f32⟩
  | 79 => ⟨S_, .i32⟩
  | 80 => ⟨S8386560, .i32⟩
  | 81 => ⟨S8386560, .i1⟩
  | 82 => ⟨S_, .i32⟩
  | 83 => ⟨S8386560, .i32⟩
  | 84 => ⟨S8386560, .i32⟩
  | 85 => ⟨S8386560, .i32⟩
  | 86 => ⟨S8386560x1, .i32⟩
  | 87 => ⟨S8386560, .f32⟩
  | 88 => ⟨S_, .i32⟩
  | 89 => ⟨S8386560, .i32⟩
  | 90 => ⟨S8386560, .i1⟩
  | 91 => ⟨S_, .i32⟩
  | 92 => ⟨S8386560, .i32⟩
  | 93 => ⟨S8386560, .i32⟩
  | 94 => ⟨S8386560, .i32⟩
  | 95 => ⟨S8386560x1, .i32⟩
  | 96 => ⟨S8386560, .f32⟩
  | 97 => ⟨S_, .i32⟩
  | 98 => ⟨S8386560, .i32⟩
  | 99 => ⟨S8386560, .i1⟩
  | 100 => ⟨S_, .i32⟩
  | 101 => ⟨S8386560, .i32⟩
  | 102 => ⟨S8386560, .i32⟩
  | 103 => ⟨S8386560, .i32⟩
  | 104 => ⟨S8386560x1, .i32⟩
  | 105 => ⟨S8386560, .f32⟩
  | 106 => ⟨S8386560, .f32⟩
  | 107 => ⟨S8386560, .f32⟩
  | 108 => ⟨S_, .f32⟩
  | 109 => ⟨S8386560, .f32⟩
  | 110 => ⟨S8386560, .f32⟩
  | 111 => ⟨S8386560, .f32⟩
  | 112 => ⟨S8386560, .f32⟩
  | 113 => ⟨S8386560, .f32⟩
  | 114 => ⟨S8386560, .f32⟩
  | 115 => ⟨S8386560, .f32⟩
  | 116 => ⟨S8386560, .f32⟩
  | 117 => ⟨S8386560, .f32⟩
  | 118 => ⟨S8386560, .f32⟩
  | 119 => ⟨S8386560, .f32⟩
  | 120 => ⟨S_, .f32⟩
  | 121 => ⟨S8386560, .f32⟩
  | 122 => ⟨S8386560, .f32⟩
  | 123 => ⟨S8386560, .f32⟩
  | 124 => ⟨S8386560, .f32⟩
  | 125 => ⟨S_, .f32⟩
  | 126 => ⟨S8386560, .f32⟩
  | 127 => ⟨S8386560, .f32⟩
  | _ => ⟨S4096x3, .f32⟩

abbrev hbmTy0_3 (i : Nat) : BufTy := match i % 128 with
  | 0 => ⟨S8386560, .f32⟩
  | 1 => ⟨S8386560, .f32⟩
  | 2 => ⟨S8386560, .f32⟩
  | 3 => ⟨S8386560, .f32⟩
  | 4 => ⟨S8386560, .f32⟩
  | 5 => ⟨S8386560, .f32⟩
  | 6 => ⟨S8386560, .f32⟩
  | 7 => ⟨S8386560, .f32⟩
  | 8 => ⟨S8386560, .f32⟩
  | 9 => ⟨S_, .f32⟩
  | 10 => ⟨S8386560, .f32⟩
  | 11 => ⟨S8386560, .f32⟩
  | 12 => ⟨S8386560, .f32⟩
  | 13 => ⟨S8386560, .f32⟩
  | 14 => ⟨S_, .i32⟩
  | 15 => ⟨S8386560, .i32⟩
  | 16 => ⟨S8386560, .i1⟩
  | 17 => ⟨S_, .i32⟩
  | 18 => ⟨S8386560, .i32⟩
  | 19 => ⟨S8386560, .i32⟩
  | 20 => ⟨S8386560, .i32⟩
  | 21 => ⟨S8386560x1, .i32⟩
  | 22 => ⟨S8386560, .f32⟩
  | 23 => ⟨S_, .i32⟩
  | 24 => ⟨S8386560, .i32⟩
  | 25 => ⟨S8386560, .i1⟩
  | 26 => ⟨S_, .i32⟩
  | 27 => ⟨S8386560, .i32⟩
  | 28 => ⟨S8386560, .i32⟩
  | 29 => ⟨S8386560, .i32⟩
  | 30 => ⟨S8386560x1, .i32⟩
  | 31 => ⟨S8386560, .f32⟩
  | 32 => ⟨S_, .i32⟩
  | 33 => ⟨S8386560, .i32⟩
  | 34 => ⟨S8386560, .i1⟩
  | 35 => ⟨S_, .i32⟩
  | 36 => ⟨S8386560, .i32⟩
  | 37 => ⟨S8386560, .i32⟩
  | 38 => ⟨S8386560, .i32⟩
  | 39 => ⟨S8386560x1, .i32⟩
  | 40 => ⟨S8386560, .f32⟩
  | 41 => ⟨S_, .i32⟩
  | 42 => ⟨S8386560, .i32⟩
  | 43 => ⟨S8386560, .i1⟩
  | 44 => ⟨S_, .i32⟩
  | 45 => ⟨S8386560, .i32⟩
  | 46 => ⟨S8386560, .i32⟩
  | 47 => ⟨S8386560, .i32⟩
  | 48 => ⟨S8386560x1, .i32⟩
  | 49 => ⟨S8386560, .f32⟩
  | 50 => ⟨S_, .i32⟩
  | 51 => ⟨S8386560, .i32⟩
  | 52 => ⟨S8386560, .i1⟩
  | 53 => ⟨S_, .i32⟩
  | 54 => ⟨S8386560, .i32⟩
  | 55 => ⟨S8386560, .i32⟩
  | 56 => ⟨S8386560, .i32⟩
  | 57 => ⟨S8386560x1, .i32⟩
  | 58 => ⟨S8386560, .f32⟩
  | 59 => ⟨S_, .i32⟩
  | 60 => ⟨S8386560, .i32⟩
  | 61 => ⟨S8386560, .i1⟩
  | 62 => ⟨S_, .i32⟩
  | 63 => ⟨S8386560, .i32⟩
  | 64 => ⟨S8386560, .i32⟩
  | 65 => ⟨S8386560, .i32⟩
  | 66 => ⟨S8386560x1, .i32⟩
  | 67 => ⟨S8386560, .f32⟩
  | 68 => ⟨S_, .i32⟩
  | 69 => ⟨S8386560, .i32⟩
  | 70 => ⟨S8386560, .i1⟩
  | 71 => ⟨S_, .i32⟩
  | 72 => ⟨S8386560, .i32⟩
  | 73 => ⟨S8386560, .i32⟩
  | 74 => ⟨S8386560, .i32⟩
  | 75 => ⟨S8386560x1, .i32⟩
  | 76 => ⟨S8386560, .f32⟩
  | 77 => ⟨S8386560, .f32⟩
  | 78 => ⟨S8386560, .f32⟩
  | 79 => ⟨S_, .f32⟩
  | 80 => ⟨S8386560, .f32⟩
  | 81 => ⟨S8386560, .f32⟩
  | 82 => ⟨S8386560, .f32⟩
  | 83 => ⟨S8386560, .f32⟩
  | 84 => ⟨S8386560, .f32⟩
  | 85 => ⟨S8386560, .f32⟩
  | 86 => ⟨S8386560, .f32⟩
  | 87 => ⟨S8386560, .f32⟩
  | 88 => ⟨S8386560, .f32⟩
  | 89 => ⟨S8386560, .f32⟩
  | 90 => ⟨S8386560, .f32⟩
  | 91 => ⟨S_, .f32⟩
  | 92 => ⟨S8386560, .f32⟩
  | 93 => ⟨S8386560, .f32⟩
  | 94 => ⟨S8386560, .f32⟩
  | 95 => ⟨S8386560, .f32⟩
  | 96 => ⟨S_, .f32⟩
  | 97 => ⟨S8386560, .f32⟩
  | 98 => ⟨S8386560, .f32⟩
  | 99 => ⟨S8386560, .f32⟩
  | 100 => ⟨S8386560, .f32⟩
  | 101 => ⟨S8386560, .f32⟩
  | 102 => ⟨S8386560, .f32⟩
  | 103 => ⟨S8386560, .f32⟩
  | 104 => ⟨S8386560, .f32⟩
  | 105 => ⟨S8386560, .f32⟩
  | 106 => ⟨S8386560, .f32⟩
  | 107 => ⟨S8386560, .f32⟩
  | 108 => ⟨S_, .f32⟩
  | 109 => ⟨S8386560, .f32⟩
  | 110 => ⟨S8386560, .f32⟩
  | 111 => ⟨S8386560, .f32⟩
  | 112 => ⟨S8386560, .f32⟩
  | 113 => ⟨S8386560, .f32⟩
  | 114 => ⟨S8386560, .f32⟩
  | 115 => ⟨S8386560, .f32⟩
  | 116 => ⟨S8386560, .f32⟩
  | 117 => ⟨S8386560, .f32⟩
  | 118 => ⟨S_, .f32⟩
  | 119 => ⟨S_, .f32⟩
  | 120 => ⟨S8386560, .f32⟩
  | 121 => ⟨S8386560, .f32⟩
  | 122 => ⟨S_, .f32⟩
  | 123 => ⟨S_, .f32⟩
  | 124 => ⟨S_, .f32⟩
  | 125 => ⟨S_, .f32⟩
  | 126 => ⟨S1x4096, .f32⟩
  | 127 => ⟨S1x4096, .f32⟩
  | _ => ⟨S4096x3, .f32⟩

abbrev hbmTy0_4 (i : Nat) : BufTy := match i % 128 with
  | 0 => ⟨S1x4096, .f32⟩
  | 1 => ⟨S1x4096, .f32⟩
  | 2 => ⟨S4096x4096, .f32⟩
  | 3 => ⟨S4096x4096, .f32⟩
  | 4 => ⟨S1x4096, .f32⟩
  | 5 => ⟨S_, .f32⟩
  | 6 => ⟨S4096x4096, .f32⟩
  | 7 => ⟨S4096x4096, .f32⟩
  | 8 => ⟨S4096x4096, .f32⟩
  | 9 => ⟨S4096x4096, .f32⟩
  | 10 => ⟨S4096x4096, .f32⟩
  | 11 => ⟨S4096x4096, .f32⟩
  | 12 => ⟨S4096x4096, .f32⟩
  | 13 => ⟨S4096x4096, .f32⟩
  | 14 => ⟨S4096x4096, .f32⟩
  | 15 => ⟨S4096x4096, .f32⟩
  | 16 => ⟨S4096x4096, .f32⟩
  | 17 => ⟨S4096x4096, .f32⟩
  | 18 => ⟨S4096x4096, .f32⟩
  | 19 => ⟨S4096x4096, .f32⟩
  | 20 => ⟨S_, .f32⟩
  | 21 => ⟨S4096x4096, .f32⟩
  | 22 => ⟨S4096x4096, .f32⟩
  | 23 => ⟨S4096x4096, .f32⟩
  | 24 => ⟨S_, .f32⟩
  | 25 => ⟨S_, .f32⟩
  | 26 => ⟨S4096x4096, .f32⟩
  | 27 => ⟨S4096x4096, .f32⟩
  | 28 => ⟨S_, .f32⟩
  | 29 => ⟨S4096, .f32⟩
  | 30 => ⟨S4096, .f32⟩
  | 31 => ⟨S_, .f32⟩
  | 32 => ⟨S4096, .f32⟩
  | 33 => ⟨S4096, .f32⟩
  | 34 => ⟨S4096x1, .f32⟩
  | 35 => ⟨S4096, .f32⟩
  | 36 => ⟨S4096x1, .f32⟩
  | 37 => ⟨S4096, .f32⟩
  | 38 => ⟨S4096, .f32⟩
  | 39 => ⟨S4096, .f32⟩
  | 40 => ⟨S4096x1, .f32⟩
  | 41 => ⟨S4096, .f32⟩
  | 42 => ⟨S4096, .f32⟩
  | 43 => ⟨S4096, .f32⟩
  | 44 => ⟨S4096, .f32⟩
  | 45 => ⟨S4096x1, .f32⟩
  | 46 => ⟨S4096, .f32⟩
  | 47 => ⟨S4096, .f32⟩
  | 48 => ⟨S4096, .f32⟩
  | 49 => ⟨S4096, .f32⟩
  | 50 => ⟨S4096, .f32⟩
  | 51 => ⟨S4096, .f32⟩
  | 52 => ⟨S_, .f32⟩
  | 53 => ⟨S4096, .f32⟩
  | 54 => ⟨S4096, .f32⟩
  | 55 => ⟨S4096x1, .f32⟩
  | 56 => ⟨S4096, .f32⟩
  | 57 => ⟨S4096x1, .f32⟩
  | 58 => ⟨S4096, .f32⟩
  | 59 => ⟨S4096, .f32⟩
  | 60 => ⟨S4096, .f32⟩
  | 61 => ⟨S4096x1, .f32⟩
  | 62 => ⟨S4096, .f32⟩
  | 63 => ⟨S4096, .f32⟩
  | 64 => ⟨S4096, .f32⟩
  | 65 => ⟨S4096, .f32⟩
  | 66 => ⟨S4096x1, .f32⟩
  | 67 => ⟨S4096, .f32⟩
  | 68 => ⟨S4096, .f32⟩
  | 69 => ⟨S4096, .f32⟩
  | 70 => ⟨S4096, .f32⟩
  | 71 => ⟨S4096, .f32⟩
  | 72 => ⟨S4096, .f32⟩
  | 73 => ⟨S4096, .f32⟩
  | 74 => ⟨S4096, .f32⟩
  | 75 => ⟨S_, .f32⟩
  | 76 => ⟨S4096, .f32⟩
  | 77 => ⟨S4096, .f32⟩
  | 78 => ⟨S4096, .f32⟩
  | 79 => ⟨S4096, .f32⟩
  | 80 => ⟨S4096, .i1⟩
  | 81 => ⟨S4096, .i1⟩
  | 82 => ⟨S4096, .f32⟩
  | 83 => ⟨S4096, .f32⟩
  | 84 => ⟨S_, .f32⟩
  | 85 => ⟨S_, .f32⟩
  | 86 => ⟨S_, .f32⟩
  | _ => ⟨S4096x3, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x3, .f32⟩

abbrev bufTy : (tb : Table) → Fin (tcTables nBuf tb) → BufTy
  | .hbm, ⟨i, _⟩ => hbmTy i
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_cst : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_c : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_cst_0 : Ref sig .tc := ⟨.hbm, 44, rfl⟩
abbrev main_call0_v0 : Ref sig .tc := ⟨.hbm, 45, rfl⟩
abbrev main_call0_v1 : Ref sig .tc := ⟨.hbm, 46, rfl⟩
abbrev main_v40 : Ref sig .tc := ⟨.hbm, 47, rfl⟩
abbrev main_v41 : Ref sig .tc := ⟨.hbm, 48, rfl⟩
abbrev main_cst_1 : Ref sig .tc := ⟨.hbm, 49, rfl⟩
abbrev main_v42 : Ref sig .tc := ⟨.hbm, 50, rfl⟩
abbrev main_call1_v0 : Ref sig .tc := ⟨.hbm, 51, rfl⟩
abbrev main_call1_c : Ref sig .tc := ⟨.hbm, 52, rfl⟩
abbrev main_call1_v1 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_cst : Ref sig .tc := ⟨.hbm, 57, rfl⟩
abbrev main_call1_v5 : Ref sig .tc := ⟨.hbm, 58, rfl⟩
abbrev main_v43 : Ref sig .tc := ⟨.hbm, 59, rfl⟩
abbrev main_cst_2 : Ref sig .tc := ⟨.hbm, 60, rfl⟩
abbrev main_v44 : Ref sig .tc := ⟨.hbm, 61, rfl⟩
abbrev main_v45 : Ref sig .tc := ⟨.hbm, 62, rfl⟩
abbrev main_call2_v0 : Ref sig .tc := ⟨.hbm, 63, rfl⟩
abbrev main_call2_v1 : Ref sig .tc := ⟨.hbm, 64, rfl⟩
abbrev main_call2_call0_c : Ref sig .tc := ⟨.hbm, 65, rfl⟩
abbrev main_call2_call0_v0 : Ref sig .tc := ⟨.hbm, 66, rfl⟩
abbrev main_v46 : Ref sig .tc := ⟨.hbm, 67, rfl⟩
abbrev main_c_3 : Ref sig .tc := ⟨.hbm, 68, rfl⟩
abbrev main_v47 : Ref sig .tc := ⟨.hbm, 69, rfl⟩
abbrev main_c_4 : Ref sig .tc := ⟨.hbm, 70, rfl⟩
abbrev main_call3_v0 : Ref sig .tc := ⟨.hbm, 71, rfl⟩
abbrev main_call3_v1 : Ref sig .tc := ⟨.hbm, 72, rfl⟩
abbrev main_v48 : Ref sig .tc := ⟨.hbm, 73, rfl⟩
abbrev main_c_5 : Ref sig .tc := ⟨.hbm, 74, rfl⟩
abbrev main_v49 : Ref sig .tc := ⟨.hbm, 75, rfl⟩
abbrev main_v50 : Ref sig .tc := ⟨.hbm, 76, rfl⟩
abbrev main_c_6 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_7 : Ref sig .tc := ⟨.hbm, 82, rfl⟩
abbrev main_v55 : Ref sig .tc := ⟨.hbm, 83, rfl⟩
abbrev main_v56 : Ref sig .tc := ⟨.hbm, 84, rfl⟩
abbrev main_call4_call0_c : Ref sig .tc := ⟨.hbm, 85, rfl⟩
abbrev main_call4_call0_v0 : Ref sig .tc := ⟨.hbm, 86, rfl⟩
abbrev main_v57 : Ref sig .tc := ⟨.hbm, 87, rfl⟩
abbrev main_c_8 : Ref sig .tc := ⟨.hbm, 88, rfl⟩
abbrev main_call5_v0 : Ref sig .tc := ⟨.hbm, 89, rfl⟩
abbrev main_call5_v1 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_v6 : Ref sig .tc := ⟨.hbm, 95, rfl⟩
abbrev main_call5_v7 : Ref sig .tc := ⟨.hbm, 96, rfl⟩
abbrev main_call5_c : Ref sig .tc := ⟨.hbm, 97, rfl⟩
abbrev main_call5_v8 : Ref sig .tc := ⟨.hbm, 98, rfl⟩
abbrev main_call5_v9 : Ref sig .tc := ⟨.hbm, 99, rfl⟩
abbrev main_call5_v10 : Ref sig .tc := ⟨.hbm, 100, rfl⟩
abbrev main_call5_c_0 : Ref sig .tc := ⟨.hbm, 101, rfl⟩
abbrev main_call5_v11 : Ref sig .tc := ⟨.hbm, 102, rfl⟩
abbrev main_call5_v12 : Ref sig .tc := ⟨.hbm, 103, rfl⟩
abbrev main_v58 : Ref sig .tc := ⟨.hbm, 104, rfl⟩
abbrev main_c_9 : Ref sig .tc := ⟨.hbm, 105, rfl⟩
abbrev main_call6_v0 : Ref sig .tc := ⟨.hbm, 106, rfl⟩
abbrev main_call6_c : Ref sig .tc := ⟨.hbm, 107, rfl⟩
abbrev main_call6_v1 : Ref sig .tc := ⟨.hbm, 108, rfl⟩
abbrev main_call6_c_0 : Ref sig .tc := ⟨.hbm, 109, rfl⟩
abbrev main_call6_v2 : Ref sig .tc := ⟨.hbm, 110, rfl⟩
abbrev main_call6_v3 : Ref sig .tc := ⟨.hbm, 111, rfl⟩
abbrev main_call6_v4 : Ref sig .tc := ⟨.hbm, 112, rfl⟩
abbrev main_call6_c_1 : Ref sig .tc := ⟨.hbm, 113, rfl⟩
abbrev main_call6_v5 : Ref sig .tc := ⟨.hbm, 114, rfl⟩
abbrev main_call6_v6 : Ref sig .tc := ⟨.hbm, 115, rfl⟩
abbrev main_call6_c_2 : Ref sig .tc := ⟨.hbm, 116, rfl⟩
abbrev main_call6_v7 : Ref sig .tc := ⟨.hbm, 117, rfl⟩
abbrev main_call6_v8 : Ref sig .tc := ⟨.hbm, 118, rfl⟩
abbrev main_call6_c_3 : Ref sig .tc := ⟨.hbm, 119, rfl⟩
abbrev main_call6_v9 : Ref sig .tc := ⟨.hbm, 120, rfl⟩
abbrev main_call6_v10 : Ref sig .tc := ⟨.hbm, 121, rfl⟩
abbrev main_call6_v11 : Ref sig .tc := ⟨.hbm, 122, rfl⟩
abbrev main_call6_v12 : Ref sig .tc := ⟨.hbm, 123, rfl⟩
abbrev main_call6_v13 : Ref sig .tc := ⟨.hbm, 124, rfl⟩
abbrev main_call6_v14 : Ref sig .tc := ⟨.hbm, 125, rfl⟩
abbrev main_v59 : Ref sig .tc := ⟨.hbm, 126, rfl⟩
abbrev main_c_10 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_v5 : Ref sig .tc := ⟨.hbm, 133, rfl⟩
abbrev main_call7_v6 : Ref sig .tc := ⟨.hbm, 134, rfl⟩
abbrev main_call7_v7 : Ref sig .tc := ⟨.hbm, 135, rfl⟩
abbrev main_call7_c : Ref sig .tc := ⟨.hbm, 136, rfl⟩
abbrev main_call7_v8 : Ref sig .tc := ⟨.hbm, 137, rfl⟩
abbrev main_call7_v9 : Ref sig .tc := ⟨.hbm, 138, rfl⟩
abbrev main_call7_v10 : Ref sig .tc := ⟨.hbm, 139, rfl⟩
abbrev main_call7_c_0 : Ref sig .tc := ⟨.hbm, 140, rfl⟩
abbrev main_call7_v11 : Ref sig .tc := ⟨.hbm, 141, rfl⟩
abbrev main_call7_v12 : Ref sig .tc := ⟨.hbm, 142, rfl⟩
abbrev main_v60 : Ref sig .tc := ⟨.hbm, 143, rfl⟩
abbrev main_c_11 : Ref sig .tc := ⟨.hbm, 144, rfl⟩
abbrev main_call8_v0 : Ref sig .tc := ⟨.hbm, 145, rfl⟩
abbrev main_call8_c : Ref sig .tc := ⟨.hbm, 146, rfl⟩
abbrev main_call8_v1 : Ref sig .tc := ⟨.hbm, 147, rfl⟩
abbrev main_call8_c_0 : Ref sig .tc := ⟨.hbm, 148, rfl⟩
abbrev main_call8_v2 : Ref sig .tc := ⟨.hbm, 149, rfl⟩
abbrev main_call8_v3 : Ref sig .tc := ⟨.hbm, 150, rfl⟩
abbrev main_call8_v4 : Ref sig .tc := ⟨.hbm, 151, rfl⟩
abbrev main_call8_c_1 : Ref sig .tc := ⟨.hbm, 152, rfl⟩
abbrev main_call8_v5 : Ref sig .tc := ⟨.hbm, 153, rfl⟩
abbrev main_call8_v6 : Ref sig .tc := ⟨.hbm, 154, rfl⟩
abbrev main_call8_c_2 : Ref sig .tc := ⟨.hbm, 155, rfl⟩
abbrev main_call8_v7 : Ref sig .tc := ⟨.hbm, 156, rfl⟩
abbrev main_call8_v8 : Ref sig .tc := ⟨.hbm, 157, rfl⟩
abbrev main_call8_c_3 : Ref sig .tc := ⟨.hbm, 158, rfl⟩
abbrev main_call8_v9 : Ref sig .tc := ⟨.hbm, 159, rfl⟩
abbrev main_call8_v10 : Ref sig .tc := ⟨.hbm, 160, rfl⟩
abbrev main_call8_v11 : Ref sig .tc := ⟨.hbm, 161, rfl⟩
abbrev main_call8_v12 : Ref sig .tc := ⟨.hbm, 162, rfl⟩
abbrev main_call8_v13 : Ref sig .tc := ⟨.hbm, 163, rfl⟩
abbrev main_call8_v14 : Ref sig .tc := ⟨.hbm, 164, rfl⟩
abbrev main_v61 : Ref sig .tc := ⟨.hbm, 165, rfl⟩
abbrev main_c_12 : Ref sig .tc := ⟨.hbm, 166, rfl⟩
abbrev main_v62 : Ref sig .tc := ⟨.hbm, 167, rfl⟩
abbrev main_v63 : Ref sig .tc := ⟨.hbm, 168, rfl⟩
abbrev main_c_13 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_c_14 : Ref sig .tc := ⟨.hbm, 173, rfl⟩
abbrev main_v67 : Ref sig .tc := ⟨.hbm, 174, rfl⟩
abbrev main_v68 : Ref sig .tc := ⟨.hbm, 175, rfl⟩
abbrev main_c_15 : Ref sig .tc := ⟨.hbm, 176, rfl⟩
abbrev main_v69 : Ref sig .tc := ⟨.hbm, 177, rfl⟩
abbrev main_v70 : Ref sig .tc := ⟨.hbm, 178, rfl⟩
abbrev main_v71 : Ref sig .tc := ⟨.hbm, 179, rfl⟩
abbrev main_v72 : Ref sig .tc := ⟨.hbm, 180, rfl⟩
abbrev main_v73 : Ref sig .tc := ⟨.hbm, 181, rfl⟩
abbrev main_v74 : Ref sig .tc := ⟨.hbm, 182, rfl⟩
abbrev main_v75 : Ref sig .tc := ⟨.hbm, 183, rfl⟩
abbrev main_cst_16 : Ref sig .tc := ⟨.hbm, 184, rfl⟩
abbrev main_v76 : Ref sig .tc := ⟨.hbm, 185, rfl⟩
abbrev main_v77 : Ref sig .tc := ⟨.hbm, 186, rfl⟩
abbrev main_cst_17 : Ref sig .tc := ⟨.hbm, 187, rfl⟩
abbrev main_call9_v0 : Ref sig .tc := ⟨.hbm, 188, rfl⟩
abbrev main_call9_v1 : Ref sig .tc := ⟨.hbm, 189, rfl⟩
abbrev main_v78 : Ref sig .tc := ⟨.hbm, 190, rfl⟩
abbrev main_c_18 : Ref sig .tc := ⟨.hbm, 191, rfl⟩
abbrev main_v79 : Ref sig .tc := ⟨.hbm, 192, rfl⟩
abbrev main_v80 : Ref sig .tc := ⟨.hbm, 193, rfl⟩
abbrev main_c_19 : Ref sig .tc := ⟨.hbm, 194, rfl⟩
abbrev main_v81 : Ref sig .tc := ⟨.hbm, 195, rfl⟩
abbrev main_v82 : Ref sig .tc := ⟨.hbm, 196, rfl⟩
abbrev main_v83 : Ref sig .tc := ⟨.hbm, 197, rfl⟩
abbrev main_v84 : Ref sig .tc := ⟨.hbm, 198, rfl⟩
abbrev main_v85 : Ref sig .tc := ⟨.hbm, 199, rfl⟩
abbrev main_c_20 : Ref sig .tc := ⟨.hbm, 200, rfl⟩
abbrev main_v86 : Ref sig .tc := ⟨.hbm, 201, rfl⟩
abbrev main_v87 : Ref sig .tc := ⟨.hbm, 202, rfl⟩
abbrev main_c_21 : Ref sig .tc := ⟨.hbm, 203, rfl⟩
abbrev main_v88 : Ref sig .tc := ⟨.hbm, 204, rfl⟩
abbrev main_v89 : Ref sig .tc := ⟨.hbm, 205, rfl⟩
abbrev main_v90 : Ref sig .tc := ⟨.hbm, 206, rfl⟩
abbrev main_v91 : Ref sig .tc := ⟨.hbm, 207, rfl⟩
abbrev main_v92 : Ref sig .tc := ⟨.hbm, 208, rfl⟩
abbrev main_c_22 : Ref sig .tc := ⟨.hbm, 209, rfl⟩
abbrev main_v93 : Ref sig .tc := ⟨.hbm, 210, rfl⟩
abbrev main_v94 : Ref sig .tc := ⟨.hbm, 211, rfl⟩
abbrev main_c_23 : Ref sig .tc := ⟨.hbm, 212, rfl⟩
abbrev main_v95 : Ref sig .tc := ⟨.hbm, 213, rfl⟩
abbrev main_v96 : Ref sig .tc := ⟨.hbm, 214, rfl⟩
abbrev main_v97 : Ref sig .tc := ⟨.hbm, 215, rfl⟩
abbrev main_v98 : Ref sig .tc := ⟨.hbm, 216, rfl⟩
abbrev main_v99 : Ref sig .tc := ⟨.hbm, 217, rfl⟩
abbrev main_c_24 : Ref sig .tc := ⟨.hbm, 218, rfl⟩
abbrev main_v100 : Ref sig .tc := ⟨.hbm, 219, rfl⟩
abbrev main_v101 : Ref sig .tc := ⟨.hbm, 220, rfl⟩
abbrev main_c_25 : Ref sig .tc := ⟨.hbm, 221, rfl⟩
abbrev main_v102 : Ref sig .tc := ⟨.hbm, 222, rfl⟩
abbrev main_v103 : Ref sig .tc := ⟨.hbm, 223, rfl⟩
abbrev main_v104 : Ref sig .tc := ⟨.hbm, 224, rfl⟩
abbrev main_v105 : Ref sig .tc := ⟨.hbm, 225, rfl⟩
abbrev main_v106 : Ref sig .tc := ⟨.hbm, 226, rfl⟩
abbrev main_v107 : Ref sig .tc := ⟨.hbm, 227, rfl⟩
abbrev main_v108 : Ref sig .tc := ⟨.hbm, 228, rfl⟩
abbrev main_cst_26 : Ref sig .tc := ⟨.hbm, 229, rfl⟩
abbrev main_v109 : Ref sig .tc := ⟨.hbm, 230, rfl⟩
abbrev main_v110 : Ref sig .tc := ⟨.hbm, 231, rfl⟩
abbrev main_v111 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_v115 : Ref sig .tc := ⟨.hbm, 236, rfl⟩
abbrev main_v116 : Ref sig .tc := ⟨.hbm, 237, rfl⟩
abbrev main_v117 : Ref sig .tc := ⟨.hbm, 238, rfl⟩
abbrev main_v118 : Ref sig .tc := ⟨.hbm, 239, rfl⟩
abbrev main_v119 : Ref sig .tc := ⟨.hbm, 240, rfl⟩
abbrev main_cst_27 : Ref sig .tc := ⟨.hbm, 241, rfl⟩
abbrev main_v120 : Ref sig .tc := ⟨.hbm, 242, rfl⟩
abbrev main_v121 : Ref sig .tc := ⟨.hbm, 243, rfl⟩
abbrev main_v122 : Ref sig .tc := ⟨.hbm, 244, rfl⟩
abbrev main_c_28 : Ref sig .tc := ⟨.hbm, 245, rfl⟩
abbrev main_v123 : Ref sig .tc := ⟨.hbm, 246, rfl⟩
abbrev main_v124 : Ref sig .tc := ⟨.hbm, 247, rfl⟩
abbrev main_c_29 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_c_30 : Ref sig .tc := ⟨.hbm, 254, rfl⟩
abbrev main_v130 : Ref sig .tc := ⟨.hbm, 255, rfl⟩
abbrev main_v131 : Ref sig .tc := ⟨.hbm, 256, rfl⟩
abbrev main_c_31 : Ref sig .tc := ⟨.hbm, 257, rfl⟩
abbrev main_v132 : Ref sig .tc := ⟨.hbm, 258, rfl⟩
abbrev main_v133 : Ref sig .tc := ⟨.hbm, 259, rfl⟩
abbrev main_v134 : Ref sig .tc := ⟨.hbm, 260, rfl⟩
abbrev main_v135 : Ref sig .tc := ⟨.hbm, 261, rfl⟩
abbrev main_v136 : Ref sig .tc := ⟨.hbm, 262, rfl⟩
abbrev main_c_32 : Ref sig .tc := ⟨.hbm, 263, rfl⟩
abbrev main_v137 : Ref sig .tc := ⟨.hbm, 264, rfl⟩
abbrev main_v138 : Ref sig .tc := ⟨.hbm, 265, rfl⟩
abbrev main_c_33 : Ref sig .tc := ⟨.hbm, 266, rfl⟩
abbrev main_v139 : Ref sig .tc := ⟨.hbm, 267, rfl⟩
abbrev main_v140 : Ref sig .tc := ⟨.hbm, 268, rfl⟩
abbrev main_v141 : Ref sig .tc := ⟨.hbm, 269, rfl⟩
abbrev main_v142 : Ref sig .tc := ⟨.hbm, 270, rfl⟩
abbrev main_v143 : Ref sig .tc := ⟨.hbm, 271, rfl⟩
abbrev main_c_34 : Ref sig .tc := ⟨.hbm, 272, rfl⟩
abbrev main_v144 : Ref sig .tc := ⟨.hbm, 273, rfl⟩
abbrev main_v145 : Ref sig .tc := ⟨.hbm, 274, rfl⟩
abbrev main_c_35 : Ref sig .tc := ⟨.hbm, 275, rfl⟩
abbrev main_v146 : Ref sig .tc := ⟨.hbm, 276, rfl⟩
abbrev main_v147 : Ref sig .tc := ⟨.hbm, 277, rfl⟩
abbrev main_v148 : Ref sig .tc := ⟨.hbm, 278, rfl⟩
abbrev main_v149 : Ref sig .tc := ⟨.hbm, 279, rfl⟩
abbrev main_v150 : Ref sig .tc := ⟨.hbm, 280, rfl⟩
abbrev main_v151 : Ref sig .tc := ⟨.hbm, 281, rfl⟩
abbrev main_v152 : Ref sig .tc := ⟨.hbm, 282, rfl⟩
abbrev main_cst_36 : Ref sig .tc := ⟨.hbm, 283, rfl⟩
abbrev main_v153 : Ref sig .tc := ⟨.hbm, 284, rfl⟩
abbrev main_v154 : Ref sig .tc := ⟨.hbm, 285, rfl⟩
abbrev main_v155 : Ref sig .tc := ⟨.hbm, 286, rfl⟩
abbrev main_v156 : Ref sig .tc := ⟨.hbm, 287, rfl⟩
abbrev main_v157 : Ref sig .tc := ⟨.hbm, 288, rfl⟩
abbrev main_v158 : Ref sig .tc := ⟨.hbm, 289, rfl⟩
abbrev main_v159 : Ref sig .tc := ⟨.hbm, 290, rfl⟩
abbrev main_v160 : Ref sig .tc := ⟨.hbm, 291, rfl⟩
abbrev main_v161 : Ref sig .tc := ⟨.hbm, 292, rfl⟩
abbrev main_v162 : Ref sig .tc := ⟨.hbm, 293, rfl⟩
abbrev main_v163 : Ref sig .tc := ⟨.hbm, 294, rfl⟩
abbrev main_cst_37 : Ref sig .tc := ⟨.hbm, 295, rfl⟩
abbrev main_v164 : Ref sig .tc := ⟨.hbm, 296, rfl⟩
abbrev main_v165 : Ref sig .tc := ⟨.hbm, 297, rfl⟩
abbrev main_v166 : Ref sig .tc := ⟨.hbm, 298, rfl⟩
abbrev main_c_38 : Ref sig .tc := ⟨.hbm, 299, rfl⟩
abbrev main_v167 : Ref sig .tc := ⟨.hbm, 300, rfl⟩
abbrev main_v168 : Ref sig .tc := ⟨.hbm, 301, rfl⟩
abbrev main_c_39 : Ref sig .tc := ⟨.hbm, 302, rfl⟩
abbrev main_v169 : Ref sig .tc := ⟨.hbm, 303, rfl⟩
abbrev main_v170 : Ref sig .tc := ⟨.hbm, 304, rfl⟩
abbrev main_v171 : Ref sig .tc := ⟨.hbm, 305, rfl⟩
abbrev main_v172 : Ref sig .tc := ⟨.hbm, 306, rfl⟩
abbrev main_v173 : Ref sig .tc := ⟨.hbm, 307, rfl⟩
abbrev main_c_40 : Ref sig .tc := ⟨.hbm, 308, rfl⟩
abbrev main_v174 : Ref sig .tc := ⟨.hbm, 309, rfl⟩
abbrev main_v175 : Ref sig .tc := ⟨.hbm, 310, rfl⟩
abbrev main_c_41 : Ref sig .tc := ⟨.hbm, 311, rfl⟩
abbrev main_v176 : Ref sig .tc := ⟨.hbm, 312, rfl⟩
abbrev main_v177 : Ref sig .tc := ⟨.hbm, 313, rfl⟩
abbrev main_v178 : Ref sig .tc := ⟨.hbm, 314, rfl⟩
abbrev main_v179 : Ref sig .tc := ⟨.hbm, 315, rfl⟩
abbrev main_v180 : Ref sig .tc := ⟨.hbm, 316, rfl⟩
abbrev main_c_42 : Ref sig .tc := ⟨.hbm, 317, rfl⟩
abbrev main_v181 : Ref sig .tc := ⟨.hbm, 318, rfl⟩
abbrev main_v182 : Ref sig .tc := ⟨.hbm, 319, rfl⟩
abbrev main_c_43 : Ref sig .tc := ⟨.hbm, 320, rfl⟩
abbrev main_v183 : Ref sig .tc := ⟨.hbm, 321, rfl⟩
abbrev main_v184 : Ref sig .tc := ⟨.hbm, 322, rfl⟩
abbrev main_v185 : Ref sig .tc := ⟨.hbm, 323, rfl⟩
abbrev main_v186 : Ref sig .tc := ⟨.hbm, 324, rfl⟩
abbrev main_v187 : Ref sig .tc := ⟨.hbm, 325, rfl⟩
abbrev main_c_44 : Ref sig .tc := ⟨.hbm, 326, rfl⟩
abbrev main_v188 : Ref sig .tc := ⟨.hbm, 327, rfl⟩
abbrev main_v189 : Ref sig .tc := ⟨.hbm, 328, rfl⟩
abbrev main_c_45 : Ref sig .tc := ⟨.hbm, 329, rfl⟩
abbrev main_v190 : Ref sig .tc := ⟨.hbm, 330, rfl⟩
abbrev main_v191 : Ref sig .tc := ⟨.hbm, 331, rfl⟩
abbrev main_v192 : Ref sig .tc := ⟨.hbm, 332, rfl⟩
abbrev main_v193 : Ref sig .tc := ⟨.hbm, 333, rfl⟩
abbrev main_v194 : Ref sig .tc := ⟨.hbm, 334, rfl⟩
abbrev main_c_46 : Ref sig .tc := ⟨.hbm, 335, rfl⟩
abbrev main_v195 : Ref sig .tc := ⟨.hbm, 336, rfl⟩
abbrev main_v196 : Ref sig .tc := ⟨.hbm, 337, rfl⟩
abbrev main_c_47 : Ref sig .tc := ⟨.hbm, 338, rfl⟩
abbrev main_v197 : Ref sig .tc := ⟨.hbm, 339, rfl⟩
abbrev main_v198 : Ref sig .tc := ⟨.hbm, 340, rfl⟩
abbrev main_v199 : Ref sig .tc := ⟨.hbm, 341, rfl⟩
abbrev main_v200 : Ref sig .tc := ⟨.hbm, 342, rfl⟩
abbrev main_v201 : Ref sig .tc := ⟨.hbm, 343, rfl⟩
abbrev main_c_48 : Ref sig .tc := ⟨.hbm, 344, rfl⟩
abbrev main_v202 : Ref sig .tc := ⟨.hbm, 345, rfl⟩
abbrev main_v203 : Ref sig .tc := ⟨.hbm, 346, rfl⟩
abbrev main_c_49 : Ref sig .tc := ⟨.hbm, 347, rfl⟩
abbrev main_v204 : Ref sig .tc := ⟨.hbm, 348, rfl⟩
abbrev main_v205 : Ref sig .tc := ⟨.hbm, 349, rfl⟩
abbrev main_v206 : Ref sig .tc := ⟨.hbm, 350, rfl⟩
abbrev main_v207 : Ref sig .tc := ⟨.hbm, 351, rfl⟩
abbrev main_v208 : Ref sig .tc := ⟨.hbm, 352, rfl⟩
abbrev main_c_50 : Ref sig .tc := ⟨.hbm, 353, rfl⟩
abbrev main_v209 : Ref sig .tc := ⟨.hbm, 354, rfl⟩
abbrev main_v210 : Ref sig .tc := ⟨.hbm, 355, rfl⟩
abbrev main_c_51 : Ref sig .tc := ⟨.hbm, 356, rfl⟩
abbrev main_v211 : Ref sig .tc := ⟨.hbm, 357, rfl⟩
abbrev main_v212 : Ref sig .tc := ⟨.hbm, 358, rfl⟩
abbrev main_v213 : Ref sig .tc := ⟨.hbm, 359, rfl⟩
abbrev main_v214 : Ref sig .tc := ⟨.hbm, 360, rfl⟩
abbrev main_v215 : Ref sig .tc := ⟨.hbm, 361, rfl⟩
abbrev main_v216 : Ref sig .tc := ⟨.hbm, 362, rfl⟩
abbrev main_v217 : Ref sig .tc := ⟨.hbm, 363, rfl⟩
abbrev main_cst_52 : Ref sig .tc := ⟨.hbm, 364, rfl⟩
abbrev main_v218 : Ref sig .tc := ⟨.hbm, 365, rfl⟩
abbrev main_v219 : Ref sig .tc := ⟨.hbm, 366, rfl⟩
abbrev main_v220 : Ref sig .tc := ⟨.hbm, 367, rfl⟩
abbrev main_v221 : Ref sig .tc := ⟨.hbm, 368, rfl⟩
abbrev main_v222 : Ref sig .tc := ⟨.hbm, 369, rfl⟩
abbrev main_v223 : Ref sig .tc := ⟨.hbm, 370, rfl⟩
abbrev main_v224 : Ref sig .tc := ⟨.hbm, 371, rfl⟩
abbrev main_v225 : Ref sig .tc := ⟨.hbm, 372, rfl⟩
abbrev main_v226 : Ref sig .tc := ⟨.hbm, 373, rfl⟩
abbrev main_v227 : Ref sig .tc := ⟨.hbm, 374, rfl⟩
abbrev main_v228 : Ref sig .tc := ⟨.hbm, 375, rfl⟩
abbrev main_cst_53 : Ref sig .tc := ⟨.hbm, 376, rfl⟩
abbrev main_v229 : Ref sig .tc := ⟨.hbm, 377, rfl⟩
abbrev main_v230 : Ref sig .tc := ⟨.hbm, 378, rfl⟩
abbrev main_v231 : Ref sig .tc := ⟨.hbm, 379, rfl⟩
abbrev main_v232 : Ref sig .tc := ⟨.hbm, 380, rfl⟩
abbrev main_cst_54 : Ref sig .tc := ⟨.hbm, 381, rfl⟩
abbrev main_v233 : Ref sig .tc := ⟨.hbm, 382, rfl⟩
abbrev main_v234 : Ref sig .tc := ⟨.hbm, 383, rfl⟩
abbrev main_v235 : Ref sig .tc := ⟨.hbm, 384, rfl⟩
abbrev main_v236 : Ref sig .tc := ⟨.hbm, 385, rfl⟩
abbrev main_v237 : Ref sig .tc := ⟨.hbm, 386, rfl⟩
abbrev main_v238 : Ref sig .tc := ⟨.hbm, 387, rfl⟩
abbrev main_v239 : Ref sig .tc := ⟨.hbm, 388, rfl⟩
abbrev main_v240 : Ref sig .tc := ⟨.hbm, 389, rfl⟩
abbrev main_v241 : Ref sig .tc := ⟨.hbm, 390, rfl⟩
abbrev main_v242 : Ref sig .tc := ⟨.hbm, 391, rfl⟩
abbrev main_v243 : Ref sig .tc := ⟨.hbm, 392, rfl⟩
abbrev main_cst_55 : Ref sig .tc := ⟨.hbm, 393, rfl⟩
abbrev main_v244 : Ref sig .tc := ⟨.hbm, 394, rfl⟩
abbrev main_v245 : Ref sig .tc := ⟨.hbm, 395, rfl⟩
abbrev main_v246 : Ref sig .tc := ⟨.hbm, 396, rfl⟩
abbrev main_v247 : Ref sig .tc := ⟨.hbm, 397, rfl⟩
abbrev main_c_56 : Ref sig .tc := ⟨.hbm, 398, rfl⟩
abbrev main_v248 : Ref sig .tc := ⟨.hbm, 399, rfl⟩
abbrev main_v249 : Ref sig .tc := ⟨.hbm, 400, rfl⟩
abbrev main_c_57 : Ref sig .tc := ⟨.hbm, 401, rfl⟩
abbrev main_v250 : Ref sig .tc := ⟨.hbm, 402, rfl⟩
abbrev main_v251 : Ref sig .tc := ⟨.hbm, 403, rfl⟩
abbrev main_v252 : Ref sig .tc := ⟨.hbm, 404, rfl⟩
abbrev main_v253 : Ref sig .tc := ⟨.hbm, 405, rfl⟩
abbrev main_v254 : Ref sig .tc := ⟨.hbm, 406, rfl⟩
abbrev main_c_58 : Ref sig .tc := ⟨.hbm, 407, rfl⟩
abbrev main_v255 : Ref sig .tc := ⟨.hbm, 408, rfl⟩
abbrev main_v256 : Ref sig .tc := ⟨.hbm, 409, rfl⟩
abbrev main_c_59 : Ref sig .tc := ⟨.hbm, 410, rfl⟩
abbrev main_v257 : Ref sig .tc := ⟨.hbm, 411, rfl⟩
abbrev main_v258 : Ref sig .tc := ⟨.hbm, 412, rfl⟩
abbrev main_v259 : Ref sig .tc := ⟨.hbm, 413, rfl⟩
abbrev main_v260 : Ref sig .tc := ⟨.hbm, 414, rfl⟩
abbrev main_v261 : Ref sig .tc := ⟨.hbm, 415, rfl⟩
abbrev main_c_60 : Ref sig .tc := ⟨.hbm, 416, rfl⟩
abbrev main_v262 : Ref sig .tc := ⟨.hbm, 417, rfl⟩
abbrev main_v263 : Ref sig .tc := ⟨.hbm, 418, rfl⟩
abbrev main_c_61 : Ref sig .tc := ⟨.hbm, 419, rfl⟩
abbrev main_v264 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_v268 : Ref sig .tc := ⟨.hbm, 424, rfl⟩
abbrev main_c_62 : Ref sig .tc := ⟨.hbm, 425, rfl⟩
abbrev main_v269 : Ref sig .tc := ⟨.hbm, 426, rfl⟩
abbrev main_v270 : Ref sig .tc := ⟨.hbm, 427, rfl⟩
abbrev main_c_63 : Ref sig .tc := ⟨.hbm, 428, rfl⟩
abbrev main_v271 : Ref sig .tc := ⟨.hbm, 429, rfl⟩
abbrev main_v272 : Ref sig .tc := ⟨.hbm, 430, rfl⟩
abbrev main_v273 : Ref sig .tc := ⟨.hbm, 431, rfl⟩
abbrev main_v274 : Ref sig .tc := ⟨.hbm, 432, rfl⟩
abbrev main_v275 : Ref sig .tc := ⟨.hbm, 433, rfl⟩
abbrev main_c_64 : Ref sig .tc := ⟨.hbm, 434, rfl⟩
abbrev main_v276 : Ref sig .tc := ⟨.hbm, 435, rfl⟩
abbrev main_v277 : Ref sig .tc := ⟨.hbm, 436, rfl⟩
abbrev main_c_65 : Ref sig .tc := ⟨.hbm, 437, rfl⟩
abbrev main_v278 : Ref sig .tc := ⟨.hbm, 438, rfl⟩
abbrev main_v279 : Ref sig .tc := ⟨.hbm, 439, rfl⟩
abbrev main_v280 : Ref sig .tc := ⟨.hbm, 440, rfl⟩
abbrev main_v281 : Ref sig .tc := ⟨.hbm, 441, rfl⟩
abbrev main_v282 : Ref sig .tc := ⟨.hbm, 442, rfl⟩
abbrev main_c_66 : Ref sig .tc := ⟨.hbm, 443, rfl⟩
abbrev main_v283 : Ref sig .tc := ⟨.hbm, 444, rfl⟩
abbrev main_v284 : Ref sig .tc := ⟨.hbm, 445, rfl⟩
abbrev main_c_67 : Ref sig .tc := ⟨.hbm, 446, rfl⟩
abbrev main_v285 : Ref sig .tc := ⟨.hbm, 447, rfl⟩
abbrev main_v286 : Ref sig .tc := ⟨.hbm, 448, rfl⟩
abbrev main_v287 : Ref sig .tc := ⟨.hbm, 449, rfl⟩
abbrev main_v288 : Ref sig .tc := ⟨.hbm, 450, rfl⟩
abbrev main_v289 : Ref sig .tc := ⟨.hbm, 451, rfl⟩
abbrev main_c_68 : Ref sig .tc := ⟨.hbm, 452, rfl⟩
abbrev main_v290 : Ref sig .tc := ⟨.hbm, 453, rfl⟩
abbrev main_v291 : Ref sig .tc := ⟨.hbm, 454, rfl⟩
abbrev main_c_69 : Ref sig .tc := ⟨.hbm, 455, rfl⟩
abbrev main_v292 : Ref sig .tc := ⟨.hbm, 456, rfl⟩
abbrev main_v293 : Ref sig .tc := ⟨.hbm, 457, rfl⟩
abbrev main_v294 : Ref sig .tc := ⟨.hbm, 458, rfl⟩
abbrev main_v295 : Ref sig .tc := ⟨.hbm, 459, rfl⟩
abbrev main_v296 : Ref sig .tc := ⟨.hbm, 460, rfl⟩
abbrev main_v297 : Ref sig .tc := ⟨.hbm, 461, rfl⟩
abbrev main_v298 : Ref sig .tc := ⟨.hbm, 462, rfl⟩
abbrev main_cst_70 : Ref sig .tc := ⟨.hbm, 463, rfl⟩
abbrev main_v299 : Ref sig .tc := ⟨.hbm, 464, rfl⟩
abbrev main_v300 : Ref sig .tc := ⟨.hbm, 465, rfl⟩
abbrev main_v301 : Ref sig .tc := ⟨.hbm, 466, rfl⟩
abbrev main_v302 : Ref sig .tc := ⟨.hbm, 467, rfl⟩
abbrev main_v303 : Ref sig .tc := ⟨.hbm, 468, rfl⟩
abbrev main_v304 : Ref sig .tc := ⟨.hbm, 469, rfl⟩
abbrev main_v305 : Ref sig .tc := ⟨.hbm, 470, rfl⟩
abbrev main_v306 : Ref sig .tc := ⟨.hbm, 471, rfl⟩
abbrev main_v307 : Ref sig .tc := ⟨.hbm, 472, rfl⟩
abbrev main_v308 : Ref sig .tc := ⟨.hbm, 473, rfl⟩
abbrev main_v309 : Ref sig .tc := ⟨.hbm, 474, rfl⟩
abbrev main_cst_71 : Ref sig .tc := ⟨.hbm, 475, rfl⟩
abbrev main_v310 : Ref sig .tc := ⟨.hbm, 476, rfl⟩
abbrev main_v311 : Ref sig .tc := ⟨.hbm, 477, rfl⟩
abbrev main_v312 : Ref sig .tc := ⟨.hbm, 478, rfl⟩
abbrev main_v313 : Ref sig .tc := ⟨.hbm, 479, rfl⟩
abbrev main_cst_72 : Ref sig .tc := ⟨.hbm, 480, rfl⟩
abbrev main_v314 : Ref sig .tc := ⟨.hbm, 481, rfl⟩
abbrev main_v315 : Ref sig .tc := ⟨.hbm, 482, rfl⟩
abbrev main_v316 : Ref sig .tc := ⟨.hbm, 483, rfl⟩
abbrev main_v317 : Ref sig .tc := ⟨.hbm, 484, rfl⟩
abbrev main_v318 : Ref sig .tc := ⟨.hbm, 485, rfl⟩
abbrev main_v319 : Ref sig .tc := ⟨.hbm, 486, rfl⟩
abbrev main_v320 : Ref sig .tc := ⟨.hbm, 487, rfl⟩
abbrev main_v321 : Ref sig .tc := ⟨.hbm, 488, rfl⟩
abbrev main_v322 : Ref sig .tc := ⟨.hbm, 489, rfl⟩
abbrev main_v323 : Ref sig .tc := ⟨.hbm, 490, rfl⟩
abbrev main_v324 : Ref sig .tc := ⟨.hbm, 491, rfl⟩
abbrev main_cst_73 : Ref sig .tc := ⟨.hbm, 492, rfl⟩
abbrev main_v325 : Ref sig .tc := ⟨.hbm, 493, rfl⟩
abbrev main_v326 : Ref sig .tc := ⟨.hbm, 494, rfl⟩
abbrev main_v327 : Ref sig .tc := ⟨.hbm, 495, rfl⟩
abbrev main_v328 : Ref sig .tc := ⟨.hbm, 496, rfl⟩
abbrev main_v329 : Ref sig .tc := ⟨.hbm, 497, rfl⟩
abbrev main_v330 : Ref sig .tc := ⟨.hbm, 498, rfl⟩
abbrev main_v331 : Ref sig .tc := ⟨.hbm, 499, rfl⟩
abbrev main_v332 : Ref sig .tc := ⟨.hbm, 500, rfl⟩
abbrev main_v333 : Ref sig .tc := ⟨.hbm, 501, rfl⟩
abbrev main_cst_74 : Ref sig .tc := ⟨.hbm, 502, rfl⟩
abbrev main_call10_v0 : Ref sig .tc := ⟨.hbm, 503, rfl⟩
abbrev main_call10_v1 : Ref sig .tc := ⟨.hbm, 504, rfl⟩
abbrev main_v334 : Ref sig .tc := ⟨.hbm, 505, rfl⟩
abbrev main_cst_75 : Ref sig .tc := ⟨.hbm, 506, rfl⟩
abbrev main_v335 : Ref sig .tc := ⟨.hbm, 507, rfl⟩
abbrev main_cst_76 : Ref sig .tc := ⟨.hbm, 508, rfl⟩
abbrev main_v336 : Ref sig .tc := ⟨.hbm, 509, rfl⟩
abbrev main_v337 : Ref sig .tc := ⟨.hbm, 510, rfl⟩
abbrev main_v338 : Ref sig .tc := ⟨.hbm, 511, rfl⟩
abbrev main_v339 : Ref sig .tc := ⟨.hbm, 512, rfl⟩
abbrev main_v340 : Ref sig .tc := ⟨.hbm, 513, rfl⟩
abbrev main_v341 : Ref sig .tc := ⟨.hbm, 514, rfl⟩
abbrev main_v342 : Ref sig .tc := ⟨.hbm, 515, rfl⟩
abbrev main_v343 : Ref sig .tc := ⟨.hbm, 516, rfl⟩
abbrev main_cst_77 : Ref sig .tc := ⟨.hbm, 517, rfl⟩
abbrev main_v344 : Ref sig .tc := ⟨.hbm, 518, rfl⟩
abbrev main_v345 : Ref sig .tc := ⟨.hbm, 519, rfl⟩
abbrev main_v346 : Ref sig .tc := ⟨.hbm, 520, rfl⟩
abbrev main_v347 : Ref sig .tc := ⟨.hbm, 521, rfl⟩
abbrev main_v348 : Ref sig .tc := ⟨.hbm, 522, rfl⟩
abbrev main_v349 : Ref sig .tc := ⟨.hbm, 523, rfl⟩
abbrev main_v350 : Ref sig .tc := ⟨.hbm, 524, rfl⟩
abbrev main_v351 : Ref sig .tc := ⟨.hbm, 525, rfl⟩
abbrev main_v352 : Ref sig .tc := ⟨.hbm, 526, rfl⟩
abbrev main_v353 : Ref sig .tc := ⟨.hbm, 527, rfl⟩
abbrev main_v354 : Ref sig .tc := ⟨.hbm, 528, rfl⟩
abbrev main_v355 : Ref sig .tc := ⟨.hbm, 529, rfl⟩
abbrev main_v356 : Ref sig .tc := ⟨.hbm, 530, rfl⟩
abbrev main_v357 : Ref sig .tc := ⟨.hbm, 531, rfl⟩
abbrev main_cst_78 : Ref sig .tc := ⟨.hbm, 532, rfl⟩
abbrev main_v358 : Ref sig .tc := ⟨.hbm, 533, rfl⟩
abbrev main_v359 : Ref sig .tc := ⟨.hbm, 534, rfl⟩
abbrev main_v360 : Ref sig .tc := ⟨.hbm, 535, rfl⟩
abbrev main_cst_79 : Ref sig .tc := ⟨.hbm, 536, rfl⟩
abbrev main_call11_v0 : Ref sig .tc := ⟨.hbm, 537, rfl⟩
abbrev main_call11_v1 : Ref sig .tc := ⟨.hbm, 538, rfl⟩
abbrev main_v361 : Ref sig .tc := ⟨.hbm, 539, rfl⟩
abbrev main_cst_80 : Ref sig .tc := ⟨.hbm, 540, rfl⟩
abbrev main_v362 : Ref sig .tc := ⟨.hbm, 541, rfl⟩
abbrev main_v363 : Ref sig .tc := ⟨.hbm, 542, rfl⟩
abbrev main_cst_81 : Ref sig .tc := ⟨.hbm, 543, rfl⟩
abbrev main_v364 : Ref sig .tc := ⟨.hbm, 544, rfl⟩
abbrev main_v365 : Ref sig .tc := ⟨.hbm, 545, rfl⟩
abbrev main_v366 : Ref sig .tc := ⟨.hbm, 546, rfl⟩
abbrev main_v367 : Ref sig .tc := ⟨.hbm, 547, rfl⟩
abbrev main_v368 : Ref sig .tc := ⟨.hbm, 548, rfl⟩
abbrev main_v369 : Ref sig .tc := ⟨.hbm, 549, rfl⟩
abbrev main_v370 : Ref sig .tc := ⟨.hbm, 550, rfl⟩
abbrev main_v371 : Ref sig .tc := ⟨.hbm, 551, rfl⟩
abbrev main_v372 : Ref sig .tc := ⟨.hbm, 552, rfl⟩
abbrev main_v373 : Ref sig .tc := ⟨.hbm, 553, rfl⟩
abbrev main_v374 : Ref sig .tc := ⟨.hbm, 554, rfl⟩
abbrev main_v375 : Ref sig .tc := ⟨.hbm, 555, rfl⟩
abbrev main_v376 : Ref sig .tc := ⟨.hbm, 556, rfl⟩
abbrev main_v377 : Ref sig .tc := ⟨.hbm, 557, rfl⟩
abbrev main_v378 : Ref sig .tc := ⟨.hbm, 558, rfl⟩
abbrev main_v379 : Ref sig .tc := ⟨.hbm, 559, rfl⟩
abbrev main_v380 : Ref sig .tc := ⟨.hbm, 560, rfl⟩
abbrev main_v381 : Ref sig .tc := ⟨.hbm, 561, rfl⟩
abbrev main_v382 : Ref sig .tc := ⟨.hbm, 562, rfl⟩
abbrev main_v383 : Ref sig .tc := ⟨.hbm, 563, rfl⟩
abbrev main_cst_82 : Ref sig .tc := ⟨.hbm, 564, rfl⟩
abbrev main_v384 : Ref sig .tc := ⟨.hbm, 565, rfl⟩
abbrev main_v385 : Ref sig .tc := ⟨.hbm, 566, rfl⟩
abbrev main_v386 : Ref sig .tc := ⟨.hbm, 567, rfl⟩
abbrev main_v387 : Ref sig .tc := ⟨.hbm, 568, rfl⟩
abbrev main_v388 : Ref sig .tc := ⟨.hbm, 569, rfl⟩
abbrev main_v389 : Ref sig .tc := ⟨.hbm, 570, rfl⟩
abbrev main_v390 : Ref sig .tc := ⟨.hbm, 571, rfl⟩
abbrev main_v391 : Ref sig .tc := ⟨.hbm, 572, rfl⟩
abbrev main_v392 : Ref sig .tc := ⟨.hbm, 573, rfl⟩
abbrev main_v393 : Ref sig .tc := ⟨.hbm, 574, rfl⟩
abbrev main_v394 : Ref sig .tc := ⟨.hbm, 575, rfl⟩
abbrev main_v395 : Ref sig .tc := ⟨.hbm, 576, rfl⟩
abbrev main_v396 : Ref sig .tc := ⟨.hbm, 577, rfl⟩
abbrev main_v397 : Ref sig .tc := ⟨.hbm, 578, rfl⟩
abbrev main_v398 : Ref sig .tc := ⟨.hbm, 579, rfl⟩
abbrev main_v399 : Ref sig .tc := ⟨.hbm, 580, rfl⟩
abbrev main_v400 : Ref sig .tc := ⟨.hbm, 581, rfl⟩
abbrev main_v401 : Ref sig .tc := ⟨.hbm, 582, rfl⟩
abbrev main_v402 : Ref sig .tc := ⟨.hbm, 583, rfl⟩
abbrev main_v403 : Ref sig .tc := ⟨.hbm, 584, rfl⟩
abbrev main_v404 : Ref sig .tc := ⟨.hbm, 585, rfl⟩
abbrev main_v405 : Ref sig .tc := ⟨.hbm, 586, rfl⟩
abbrev main_cst_83 : Ref sig .tc := ⟨.hbm, 587, rfl⟩
abbrev main_v406 : Ref sig .tc := ⟨.hbm, 588, rfl⟩
abbrev main_v407 : Ref sig .tc := ⟨.hbm, 589, rfl⟩
abbrev main_v408 : Ref sig .tc := ⟨.hbm, 590, rfl⟩
abbrev main_v409 : Ref sig .tc := ⟨.hbm, 591, rfl⟩
abbrev main_v410 : Ref sig .tc := ⟨.hbm, 592, rfl⟩
abbrev main_v411 : Ref sig .tc := ⟨.hbm, 593, rfl⟩
abbrev main_v412 : Ref sig .tc := ⟨.hbm, 594, rfl⟩
abbrev main_v413 : Ref sig .tc := ⟨.hbm, 595, rfl⟩
abbrev main_cst_84 : Ref sig .tc := ⟨.hbm, 596, rfl⟩
abbrev main_v414 : Ref sig .tc := ⟨.hbm, 597, rfl⟩
abbrev main_v415 : Ref sig .tc := ⟨.hbm, 598, rfl⟩

abbrev nD : Nat := 1
abbrev τ : Topo := Topo.v7x

variable {F : FTy → Type} [FloatOps F]

class Facts₀ : Prop where
  slices_S4096x22_S4096x1_0_0 : S4096x22.Slices ![0, 0] S4096x1
  shapeCasts_S4096x1_S4096 : S4096x1.ShapeCasts S4096
  slices_S4096x22_S4096x1_0_1 : S4096x22.Slices ![0, 1] S4096x1
  slices_S4096x22_S4096x1_0_2 : S4096x22.Slices ![0, 2] S4096x1
  slices_S4096x22_S4096x1_0_3 : S4096x22.Slices ![0, 3] S4096x1
  slices_S4096x22_S4096x1_0_4 : S4096x22.Slices ![0, 4] S4096x1
  slices_S4096x22_S4096x1_0_5 : S4096x22.Slices ![0, 5] S4096x1
  slices_S4096x22_S4096x1_0_6 : S4096x22.Slices ![0, 6] S4096x1
  slices_S4096x22_S4096x1_0_7 : S4096x22.Slices ![0, 7] S4096x1
  slices_S4096x22_S4096x1_0_8 : S4096x22.Slices ![0, 8] S4096x1
  slices_S4096x22_S4096x1_0_9 : S4096x22.Slices ![0, 9] S4096x1
  slices_S4096x22_S4096x1_0_18 : S4096x22.Slices ![0, 18] S4096x1
  slices_S4096x22_S4096x1_0_19 : S4096x22.Slices ![0, 19] S4096x1
  slices_S4096x22_S4096x1_0_20 : S4096x22.Slices ![0, 20] S4096x1
  slices_S4096x22_S4096x1_0_21 : S4096x22.Slices ![0, 21] S4096x1
  bcast_S4096x3_S1x4096x3_1_2 : S4096x3.BroadcastsInDim S1x4096x3 (![1, 2] : Fin 2 → Fin S1x4096x3.rank)
  bcast_S4096x3_S4096x1x3_0_2 : S4096x3.BroadcastsInDim S4096x1x3 (![0, 2] : Fin 2 → Fin S4096x1x3.rank)
  bcast_S1x4096x3_S4096x4096x3_0_1_2 : S1x4096x3.BroadcastsInDim S4096x4096x3 (![0, 1, 2] : Fin 3 → Fin S4096x4096x3.rank)
  bcast_S4096x1x3_S4096x4096x3_0_1_2 : S4096x1x3.BroadcastsInDim S4096x4096x3 (![0, 1, 2] : Fin 3 → Fin S4096x4096x3.rank)
  reducesTo_S4096x4096x3_S4096x4096_d2 : S4096x4096x3.ReducesTo [2] S4096x4096
  h_S_ : 0 < S_.numel
  bcast_S_S4096x4096 : S_.BroadcastsInDim S4096x4096 (![] : Fin 0 → Fin S4096x4096.rank)
  shapeCasts_S4096x4096_S16777216 : S4096x4096.ShapeCasts S16777216
  natLt_1_32 : 1 < 32
  bcast_S_S_ : S_.BroadcastsInDim S_ (![] : Fin 0 → Fin S_.rank)
  reduceWindows_S16777216_S16777216_w16777216s1p16777215_0 : S16777216.ReduceWindows (![16777216] : Fin 1 → Nat) ![1] ![16777215] ![0] S16777216
  bcast_S_S8386560 : S_.BroadcastsInDim S8386560 (![] : Fin 0 → Fin S8386560.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  reduceWindows_S8386560_S8386560_w8386560s1p8386559_0 : S8386560.ReduceWindows (![8386560] : Fin 1 → Nat) ![1] ![8386559] ![0] S8386560
  bcast_S8386560_S8386560x1_0 : S8386560.BroadcastsInDim S8386560x1 (![0] : Fin 1 → Fin S8386560x1.rank)
  concatenates_S8386560x1_S8386560x1_S8386560x2_d1 : Shape.Concatenates [S8386560x1, S8386560x1] S8386560x2 1
  reducesTo_S8386560_S_d0 : S8386560.ReducesTo [0] S_
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S_S4096 : S_.BroadcastsInDim S4096 (![] : Fin 0 → Fin S4096.rank)
  slices_S4096x22_S4096x1_0_10 : S4096x22.Slices ![0, 10] S4096x1
  slices_S4096x22_S4096x1_0_11 : S4096x22.Slices ![0, 11] S4096x1
  slices_S4096x22_S4096x1_0_12 : S4096x22.Slices ![0, 12] S4096x1
  slices_S4096x22_S4096x1_0_13 : S4096x22.Slices ![0, 13] S4096x1
  slices_S4096x22_S4096x1_0_14 : S4096x22.Slices ![0, 14] S4096x1
  slices_S4096x22_S4096x1_0_15 : S4096x22.Slices ![0, 15] S4096x1
  slices_S4096x22_S4096x1_0_16 : S4096x22.Slices ![0, 16] S4096x1
  slices_S4096x22_S4096x1_0_17 : S4096x22.Slices ![0, 17] S4096x1
  reducesTo_S4096_S_d0 : S4096.ReducesTo [0] S_
  scatter_S8386560_S16777216x1_S16777216_n_0_0_1_wf : ScatterDims.WF S8386560 S16777216x1 S16777216 [] [0] [0] 1
  gather_S4096x4096_S8386560x2_S8386560_n_01_n_n_01_1_11_wf : GatherDims.WF S4096x4096 S8386560x2 S8386560 [] [0, 1] [] [0, 1] [] 1 ![1, 1]
  gather_S4096_S8386560x1_S8386560_n_0_n_n_0_1_1_wf : GatherDims.WF S4096 S8386560x1 S8386560 [] [0] [] [0] [] 1 ![1]

variable [Facts₀]

def scatter_S8386560_S16777216x1_S16777216_n_0_0_1 : ScatterDims S8386560 S16777216x1 S16777216 where
  updateWindowDims := []
  insertedWindowDims := [0]
  scatterDimsToOperandDims := [0]
  indexVectorDim := 1
  wf := scatter_S8386560_S16777216x1_S16777216_n_0_0_1_wf
def gather_S4096x4096_S8386560x2_S8386560_n_01_n_n_01_1_11 : GatherDims S4096x4096 S8386560x2 S8386560 where
  offsetDims := []
  collapsedSliceDims := [0, 1]
  operandBatchingDims := []
  startIndicesBatchingDims := []
  startIndexMap := [0, 1]
  indexVectorDim := 1
  sliceSizes := ![1, 1]
  wf := gather_S4096x4096_S8386560x2_S8386560_n_01_n_n_01_1_11_wf
def gather_S4096_S8386560x1_S8386560_n_0_n_n_0_1_1 : GatherDims S4096 S8386560x1 S8386560 where
  offsetDims := []
  collapsedSliceDims := [0]
  operandBatchingDims := []
  startIndicesBatchingDims := []
  startIndexMap := [0]
  indexVectorDim := 1
  sliceSizes := ![1]
  wf := gather_S4096_S8386560x1_S8386560_n_0_n_n_0_1_1_wf

class Facts : Prop extends Facts₀ where

variable [Facts]
-- ==== Proof.KBodyBitsDat.lean ====
/-
  The pairwise-potential kernel's pipeline, as data.

  The grid is 16 × 16; point t = 16·i + j pairs row block i (256 atoms) with column block j.
  Windows 0–3 are inputs: the row block of the coordinates [256,3], the column block of the
  transposed coordinates [3,256], the row block of the parameters [256,22] and the column block of
  the transposed parameters [22,256].  Windows 4 and 5 are the two [256,1] accumulators of row
  block i: the density ρ and the row energy.  Both are set to zero when j = 0, receive one
  row-sum per column block, and are written back to their [4096,1] arrays after j = 15.

  This file names what the two accumulators hold after each grid point, by recursion on the point:
  one step (`stepAt`) applied to the zero pair at j = 0 and to what the point before left otherwise.
-/
import proofs.«121872_j23974507446662_1_alg».proof.Proof.Gen.Kernel.Launch
import proofs.«121872_j23974507446662_1_alg».proof.Proof.Gen.Kernel.Skeleton
import proofs.«121872_j23974507446662_1_alg».proof.Proof.Gen.Kernel.Points
import Idealize.ShloMosaic.Lib.Pipeline.FrameBody
import Idealize.ShloMosaic.Lib.Pipeline.FrameSuffix

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The arrays as the region finds them -/

/-- The buffers of core `c` after the two transposes that precede the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid point, as a function of the four input blocks and the accumulators -/

/-- The 256 × 256 distances between the atoms of a row block `x0` and of a column block `x1`. -/
def dist (x0 : Vec F S256x3 .f32) (x1 : Vec F S3x256 .f32) : FVec F S256x256 .f32 := k0_pay4 x0 x1

/-- The density function at those distances with the COLUMN atoms' parameters (`x3`). -/
def fCol (x0 : Vec F S256x3 .f32) (x1 : Vec F S3x256 .f32) (x3 : Vec F S22x256 .f32) : FVec F S256x256 .f32 :=
  k0_pay24 (dist x0 x1) (k0_pay14 x3) (k0_pay15 x3) (k0_pay17 x3) (k0_pay21 x3)

/-- The density function at those distances with the ROW atoms' parameters (`x2`). -/
def fRow (x0 : Vec F S256x3 .f32) (x1 : Vec F S3x256 .f32) (x2 : Vec F S256x22 .f32) : FVec F S256x256 .f32 :=
  k0_pay23 (dist x0 x1) (k0_pay7 x2) (k0_pay9 x2) (k0_pay13 x2) (k0_pay22 x2)

/-- The density accumulator after the point with coordinates `i`: `acc` plus, per row, the sum over the
    column block of the column-side density function, the diagonal pair left out. -/
def rhoStep (i : grid0.Coords) (x0 : Vec F S256x3 .f32) (x1 : Vec F S3x256 .f32) (x3 : Vec F S22x256 .f32)
    (acc : Vec F S256x1 .f32) : Vec F S256x1 .f32 :=
  k0_pay33 (BitVec.ofNat 32 (i 0).val) (BitVec.ofNat 32 (i 1).val) (fCol x0 x1 x3) acc

/-- The row energy of the point with coordinates `i`: per row, the sum over the column block of the
    symmetric pair term, over the pairs off the diagonal and within the cutoff. -/
def erowPart (i : grid0.Coords) (x0 : Vec F S256x3 .f32) (x1 : Vec F S3x256 .f32) (x2 : Vec F S256x22 .f32)
    (x3 : Vec F S22x256 .f32) : FVec F S256x1 .f32 :=
  k0_pay32 (BitVec.ofNat 32 (i 0).val) (BitVec.ofNat 32 (i 1).val) (dist x0 x1) (k0_pay17 x3) (k0_pay19 x3) (k0_pay21 x3)
    (fRow x0 x1 x2) (fCol x0 x1 x3)
    (k0_pay27 (k0_pay9 x2) (k0_pay11 x2) (k0_pay12 x2) (k0_pay13 x2) (k0_pay25 (dist x0 x1) (k0_pay6 x2))
      (k0_pay26 (dist x0 x1) (k0_pay6 x2) (k0_pay8 x2) (k0_pay10 x2)))
    (k0_pay28 (dist x0 x1) (k0_pay14 x3))
    (k0_pay29 (dist x0 x1) (k0_pay14 x3) (k0_pay16 x3) (k0_pay18 x3) (k0_pay20 x3))
    (k0_pay30 (F := F))

/-- The row-energy accumulator after that point: `acc` plus the point's row energy. -/
def erowStep (i : grid0.Coords) (x0 : Vec F S256x3 .f32) (x1 : Vec F S3x256 .f32) (x2 : Vec F S256x22 .f32)
    (x3 : Vec F S22x256 .f32) (acc : Vec F S256x1 .f32) : Vec F S256x1 .f32 :=
  k0_pay1 (erowPart i x0 x1 x2 x3) acc

/-- The pair of zero blocks both accumulators start a row block from. -/
def zeros : Vec F S256x1 .f32 × Vec F S256x1 .f32 := (k0_pay2 (F := F), k0_pay3 (F := F))

/-- One grid point on the pair (density, row energy), the input blocks read off the arrays. -/
def stepAt (c : Dev nD) (t : Fin cfg0.N) (acc : Vec F S256x1 .f32 × Vec F S256x1 .f32) :
    Vec F S256x1 .f32 × Vec F S256x1 .f32 :=
  (rhoStep (grid0.coords t) (iblk m c 0 t) (iblk m c 1 t) (iblk m c 3 t) acc.1,
   erowStep (grid0.coords t) (iblk m c 0 t) (iblk m c 1 t) (iblk m c 2 t) (iblk m c 3 t) acc.2)

/-! ## What the accumulators hold after each point -/

/-- The pair (density, row energy) after point `n`: one step from the zero pair where a row block begins
    (`n ≡ 0 mod 16`), one step from what point `n - 1` left otherwise. -/
def outsAt (c : Dev nD) : (n : ℕ) → n < cfg0.N → Vec F S256x1 .f32 × Vec F S256x1 .f32
  | 0, hn => stepAt m c ⟨0, hn⟩ zeros
  | n + 1, hn => stepAt m c ⟨n + 1, hn⟩ (if (n + 1) % 16 = 0 then zeros else outsAt c n (Nat.lt_of_succ_lt hn))

/-- At the first column block of a row block: one step from zero. -/
theorem outsAt_reset (c : Dev nD) (t : Fin cfg0.N) (h0 : t.val % 16 = 0) :
    outsAt m c t.val t.isLt = stepAt m c t zeros := by
  obtain ⟨n, hn⟩ := t
  cases n with
  | zero => rfl
  | succ n => exact congrArg (stepAt m c ⟨n + 1, hn⟩) (if_pos h0)

/-- At a later column block: one step from what the point before left. -/
theorem outsAt_acc (c : Dev nD) (t : Fin cfg0.N) (h0 : ¬t.val % 16 = 0) :
    outsAt m c t.val t.isLt = stepAt m c t (outsAt m c (t.val - 1) (Nat.lt_of_le_of_lt (Nat.sub_le _ _) t.isLt)) := by
  obtain ⟨n, hn⟩ := t
  cases n with
  | zero => exact absurd (Nat.zero_mod _) h0
  | succ n => exact congrArg (stepAt m c ⟨n + 1, hn⟩) (if_neg h0)

/-! ## The proof data -/

/-- The arrays at entry; after the body each input's buffer at its block, the two accumulators at `outsAt`;
    nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]
theorem after_5 (c : Dev nD) (t : Fin cfg0.N) : (dats m 0 c).after 5 t = (outsAt m c t.val t.isLt).2 := by dsimp only [dats]

end Cert.Kernel.Hand

end
-- ==== Proof.KBodyBitsAcc.lean ====
/-
  The kernel body at a grid point that continues a row block (second coordinate j ≠ 0): the zeroing
  branch is skipped, the four input blocks are read, and each accumulator is read and stored back
  with the point's row-sum added.  On whole buffers holding the input blocks `x0 … x3` and the
  accumulators `a4`, `a5`, the body ends with the inputs untouched and the accumulators at
  `rhoStep i x0 x1 x3 a4` and `erowStep i x0 x1 x2 x3 a5`.
-/
import proofs.«121872_j23974507446662_1_alg».proof.Proof.KBodyBitsDat
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's branch condition, from the grid coordinates: the second coordinate is zero. -/
abbrev cond (i : grid0.Coords) : Prop :=
  (Scalar.cmpi .ne (Scalar.extui (Scalar.cmpi .eq (BitVec.ofNat 32 (i 1).val) 0#32)) 0#32) = 1#1

/-- Over the 256 points it holds exactly where a row block begins. -/
theorem hcond : ∀ t : Fin cfg0.N, cond (grid0.coords t) ↔ t.val % 16 = 0 :=
  (by decide +kernel : ∀ t : Fin grid0.N, cond (grid0.coords t) ↔ t.val % 16 = 0)

theorem hz2 : (![0, 0] : Fin 2 → Nat) = fun _ => 0 := funext fun a => by fin_cases a <;> rfl

set_option maxHeartbeats 2000000 in
/-- The body where the accumulators continue. -/
theorem run_acc (c : Dev nD) (i : grid0.Coords)
    (arg2 : Memref sig .tc .vmem S256x3 .f32) (harg2 : arg2.IsWhole) (arg3 : Memref sig .tc .vmem S3x256 .f32) (harg3 : arg3.IsWhole)
    (arg4 : Memref sig .tc .vmem S256x22 .f32) (harg4 : arg4.IsWhole) (arg5 : Memref sig .tc .vmem S22x256 .f32) (harg5 : arg5.IsWhole)
    (arg6 : Memref sig .tc .vmem S256x1 .f32) (harg6 : arg6.IsWhole) (arg7 : Memref sig .tc .vmem S256x1 .f32) (harg7 : arg7.IsWhole)
    (hc : ¬cond i)
    (x0 : Vec F S256x3 .f32) (x1 : Vec F S3x256 .f32) (x2 : Vec F S256x22 .f32) (x3 : Vec F S22x256 .f32)
    (a4 a5 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a4 ∗ owns (c : Thread nD τ) arg7 fullShare a5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (rhoStep i x0 x1 x3 a4)
            ∗ owns (c : Thread nD τ) arg7 fullShare (erowStep i x0 x1 x2 x3 a5)) -∗ K ⟨⟩))
      ⊢ wp frame (wpE (defs₀ (F := F)) Variants.none c none) E (cc0__pair_kernel i arg2 harg2 arg3 harg3 arg4 harg4 arg5 harg5 arg6 harg6 arg7 harg7) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero hz2 inb_S256x1_S256x1_0_0 y⟩),
      View.canon_unit_zero hz2]
    sl_unfold_words
    simp only [View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl
  · iexists _; isplitr
    swap; · iexact H5
    ipureintro
    rw [View.read_writes_eq_canon _ _ _ (fun y => ⟨_, List.mem_singleton_self _, View.mem_set_unit_zero hz2 inb_S256x1_S256x1_0_0 y⟩),
      View.canon_unit_zero hz2]
    sl_unfold_words
    simp only [View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl

end Cert.Kernel.Hand

end
-- ==== Proof.KBodyBitsReset.lean ====
/-
  The kernel body at a grid point that begins a row block (second coordinate j = 0): both
  accumulators are first overwritten with zeros, whatever they held, then read back and stored with
  the point's row-sum added.  On whole buffers holding the input blocks `x0 … x3` the body ends with
  the inputs untouched and the accumulators at one step from the zero pair.
-/
import proofs.«121872_j23974507446662_1_alg».proof.Proof.KBodyBitsAcc
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body where the accumulators restart. -/
theorem run_reset (c : Dev nD) (i : grid0.Coords)
    (arg2 : Memref sig .tc .vmem S256x3 .f32) (harg2 : arg2.IsWhole) (arg3 : Memref sig .tc .vmem S3x256 .f32) (harg3 : arg3.IsWhole)
    (arg4 : Memref sig .tc .vmem S256x22 .f32) (harg4 : arg4.IsWhole) (arg5 : Memref sig .tc .vmem S22x256 .f32) (harg5 : arg5.IsWhole)
    (arg6 : Memref sig .tc .vmem S256x1 .f32) (harg6 : arg6.IsWhole) (arg7 : Memref sig .tc .vmem S256x1 .f32) (harg7 : arg7.IsWhole)
    (hc : cond i)
    (x0 : Vec F S256x3 .f32) (x1 : Vec F S3x256 .f32) (x2 : Vec F S256x22 .f32) (x3 : Vec F S22x256 .f32)
    (a4 a5 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a4 ∗ owns (c : Thread nD τ) arg7 fullShare a5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (rhoStep i x0 x1 x3 (k0_pay2 (F := F)))
            ∗ owns (c : Thread nD τ) arg7 fullShare (erowStep i x0 x1 x2 x3 (k0_pay3 (F := F)))) -∗ K ⟨⟩))
      ⊢ wp frame (wpE (defs₀ (F := F)) Variants.none c none) E (cc0__pair_kernel i arg2 harg2 arg3 harg3 arg4 harg4 arg5 harg5 arg6 harg6 arg7 harg7) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_cons.mpr (Or.inl rfl), View.mem_set_unit_zero hz2 inb_S256x1_S256x1_0_0 y⟩),
      View.canon_cons_unit_zero (S := S256x1) hz2]
    sl_unfold_words
    simp only [View.readCov_unit_zero (S := S256x1) _ hz2, View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl
  · iexists _; isplitr
    swap; · iexact H5
    ipureintro
    rw [View.read_writes_eq_canon _ _ _ (fun y => ⟨_, List.mem_cons.mpr (Or.inl rfl), View.mem_set_unit_zero hz2 inb_S256x1_S256x1_0_0 y⟩),
      View.canon_cons_unit_zero (S := S256x1) hz2]
    sl_unfold_words
    simp only [View.readCov_unit_zero (S := S256x1) _ hz2, View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl

end Cert.Kernel.Hand

end
-- ==== Proof.KBodyBits.lean ====
/-
  The body obligation of the pipeline: at every grid point, from each window's current buffer at
  what the schedule says it holds, the body runs to each buffer at what the proof data names.

  An input's buffer holds its block at every point, fetched there or kept from the point before
  (its block index then did not move).  An accumulator's buffer is fresh where a row block begins
  (the first point, or the point after a write-back), and otherwise holds what the point before left.
-/
import proofs.«121872_j23974507446662_1_alg».proof.Proof.KBodyBitsReset
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds -/

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- Where a row block begins the density buffer is fresh: the first point, or the point after a write-back. -/
theorem before_4_reset (c : Dev nD) (t : Fin cfg0.N) (h0 : t.val % 16 = 0) (d) : (dats m 0 c).before 4 t d = d :=
  Dat.before_out_reset _ 4 rfl t (by
    by_cases hz : t.val = 0
    · exact .inl hz
    · exact .inr ⟨hz, (flush0_4 _).mpr (by dsimp only; omega)⟩) d

theorem before_5_reset (c : Dev nD) (t : Fin cfg0.N) (h0 : t.val % 16 = 0) (d) : (dats m 0 c).before 5 t d = d :=
  Dat.before_out_reset _ 5 rfl t (by
    by_cases hz : t.val = 0
    · exact .inl hz
    · exact .inr ⟨hz, (flush0_5 _).mpr (by dsimp only; omega)⟩) d

/-- Elsewhere it holds what the point before left: no write-back came between. -/
theorem before_4_acc (c : Dev nD) (t : Fin cfg0.N) (h0 : ¬t.val % 16 = 0) (d) :
    (dats m 0 c).before 4 t d = (outsAt m c (t.val - 1) (Nat.lt_of_le_of_lt (Nat.sub_le _ _) t.isLt)).1 := by
  rw [Dat.before_out_kept _ 4 rfl t (by omega) (Bool.eq_false_iff.mpr fun h => by have := (flush0_4 _).mp h; dsimp only at this; omega)
    (fun _ => rfl) (fun _ _ => rfl)]
  dsimp only [dats]

theorem before_5_acc (c : Dev nD) (t : Fin cfg0.N) (h0 : ¬t.val % 16 = 0) (d) :
    (dats m 0 c).before 5 t d = (outsAt m c (t.val - 1) (Nat.lt_of_le_of_lt (Nat.sub_le _ _) t.isLt)).2 := by
  rw [Dat.before_out_kept _ 5 rfl t (by omega) (Bool.eq_false_iff.mpr fun h => by have := (flush0_5 _).mp h; dsimp only at this; omega)
    (fun _ => rfl) (fun _ _ => rfl)]
  dsimp only [dats]

/-! ## The obligation at a generic point -/

/-- Each window's current staging memref at point `t`, and its wholeness. -/
abbrev ms_0 (t : Fin cfg0.N) : Memref sig .tc .vmem S256x3 .f32 := win0_0.stage (cfg0.slots t 0)
abbrev ms_1 (t : Fin cfg0.N) : Memref sig .tc .vmem S3x256 .f32 := win0_1.stage (cfg0.slots t 1)
abbrev ms_2 (t : Fin cfg0.N) : Memref sig .tc .vmem S256x22 .f32 := win0_2.stage (cfg0.slots t 2)
abbrev ms_3 (t : Fin cfg0.N) : Memref sig .tc .vmem S22x256 .f32 := win0_3.stage (cfg0.slots t 3)
abbrev ms_4 (t : Fin cfg0.N) : Memref sig .tc .vmem S256x1 .f32 := win0_4.stage (cfg0.slots t 4)
abbrev ms_5 (t : Fin cfg0.N) : Memref sig .tc .vmem S256x1 .f32 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t))

set_option maxHeartbeats 1600000 in
/-- The body at any point: the inputs' buffers hold their blocks; the point's position in its row block says which
    of the two runs applies, and what the accumulators' buffers hold going in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 16 = 0
  · rw [outsAt_reset m c t h0]
    simp only [before_4_reset m c t h0, before_5_reset m c t h0]
    dsimp only [stepAt, zeros]
    iintro ⟨HΦ, Ho, ⟨%d0, H0⟩, ⟨%d1, H1⟩, ⟨%d2, H2⟩, ⟨%d3, H3⟩, ⟨%d4, H4⟩, ⟨%d5, H5⟩⟩
    iapply (run_reset c (grid0.coords t) _ _ _ _ _ _ _ _ _ _ _ _ ((hcond t).mpr h0)
      (iblk m c 0 t) (iblk m c 1 t) (iblk m c 2 t) (iblk m c 3 t) d4 d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt_acc m c t h0]
    simp only [before_4_acc m c t h0, before_5_acc m c t h0]
    dsimp only [stepAt]
    iintro ⟨HΦ, Ho, ⟨%d0, H0⟩, ⟨%d1, H1⟩, ⟨%d2, H2⟩, ⟨%d3, H3⟩, ⟨%d4, H4⟩, ⟨%d5, H5⟩⟩
    iapply (run_acc c (grid0.coords t) _ _ _ _ _ _ _ _ _ _ _ _ (fun h => h0 ((hcond t).mp h))
      (iblk m c 0 t) (iblk m c 1 t) (iblk m c 2 t) (iblk m c 3 t)
      (outsAt m c (t.val - 1) (Nat.lt_of_le_of_lt (Nat.sub_le _ _) t.isLt)).1
      (outsAt m c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KFrameBitsTail.lean ====
/-
  The host lines around the region.  Before it: two transposes.  After it: the lines that reshape the
  two accumulated columns to vectors, sum the row energies, evaluate the embedding function of the
  density atom by atom (three branches selected by two comparisons), and add the two sums.

  What the launch needs of the later lines is bookkeeping only: each touches unscoped buffers of the
  core, allocates nothing, and writes only its own result buffer — never one of the six arrays the
  region's windows cut their blocks from.
-/
import proofs.«121872_j23974507446662_1_alg».proof.Proof.KBodyBitsDat
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region, stretch by stretch. -/
abbrev tailOps : List (List (HloOp τ sig (Elt F))) := [hostOps1, hostOps1_1, hostOps1_2, hostOps1_3]

/-! ## No line allocates -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-! ## No line writes an array of the windows -/

set_option maxHeartbeats 8000000 in
theorem hostOps1_keeps : (hostOps1 : List (HloOp τ sig (Elt F))).Forall fun op =>
    ∀ w : Fin 6, Proc.devRef .tc (Pipeline.arrRef spec0 w) ∉ op.writes := by
  simp only [List.Forall]
  repeat' apply And.intro
  all_goals
    intro w
    simp only [StableHlo.nullary_writes, StableHlo.unary_writes, StableHlo.binary_writes, StableHlo.ternary_writes,
      StableHlo.reshape_writes, Finset.mem_singleton]
    exact StableHlo.devRef_ne_of_ne (by revert w; decide)

theorem hostOps1_1_keeps : (hostOps1_1 : List (HloOp τ sig (Elt F))).Forall fun op =>
    ∀ w : Fin 6, Proc.devRef .tc (Pipeline.arrRef spec0 w) ∉ op.writes := by
  simp only [List.Forall]
  intro w
  simp only [StableHlo.ternary_writes, Finset.mem_singleton]
  exact StableHlo.devRef_ne_of_ne (by revert w; decide)

theorem hostOps1_2_keeps : (hostOps1_2 : List (HloOp τ sig (Elt F))).Forall fun op =>
    ∀ w : Fin 6, Proc.devRef .tc (Pipeline.arrRef spec0 w) ∉ op.writes := by
  simp only [List.Forall]
  intro w
  simp only [StableHlo.ternary_writes, Finset.mem_singleton]
  exact StableHlo.devRef_ne_of_ne (by revert w; decide)

theorem hostOps1_3_keeps : (hostOps1_3 : List (HloOp τ sig (Elt F))).Forall fun op =>
    ∀ w : Fin 6, Proc.devRef .tc (Pipeline.arrRef spec0 w) ∉ op.writes := by
  simp only [List.Forall]
  repeat' apply And.intro
  all_goals
    intro w
    simp only [StableHlo.nullary_writes, StableHlo.binary_writes, Finset.mem_singleton]
    exact StableHlo.devRef_ne_of_ne (by revert w; decide)

/-! ## The three facts over all the later lines -/

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-! ## @main around the region -/

/-- @main is the two transposes, the region, then the later lines: it reduces to the region continued by them,
    at the contents after the transposes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

end Cert.Kernel.Hand

end
-- ==== Proof.KFrameBits.lean ====
/-
  The run of @main: two transposes, the 256-point pipeline, the later lines.

  Every weakly fair execution terminates without a fault.  At the end the result buffer holds the later
  lines applied to the buffers as the region leaves them — the six arrays of the windows at what the
  pipeline wrote back (the two [4096,1] outputs: block i of each is the accumulator after point 16·i + 15),
  every other buffer as the region found it — and the two arguments are unchanged: the transposes and
  the later lines write other buffers, and the pipeline only reads them.
-/
import proofs.«121872_j23974507446662_1_alg».proof.Proof.KBodyBits
import proofs.«121872_j23974507446662_1_alg».proof.Proof.KFrameBitsTail
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every array of the windows at what the pipeline computes and every other unscoped buffer as the
    later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The transposes write their own result buffers: the arguments are as launched when the region is entered. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results

theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-- The run, read at the result and at the arguments. -/
theorem run_value : θ_run defs (onTc (τ := τ) (main (F := F))) ⟨m, fun _ => 0, ρ⟩ (fun r => ∀ c : Dev nD,
      r.2.mem ((c.tc : Thread nD τ).loc main_v71) = Pipeline.afterTail₀ cfgs (dats m) 0 (V0 m) tailOps c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v71 (Pipeline.mem_restRefs_of main_v71 rfl (by decide)),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Hand

end
-- ==== Proof.KDat.lean ====
/-
  The pairwise-potential kernel's pipeline, as data.

  The grid is 16 × 16; point t = 16·i + j pairs row block i (256 atoms) with column block j.
  Windows 0–3 are inputs: the row block of the coordinates [256,3], the column block of the
  transposed coordinates [3,256], the row block of the parameters [256,22] and the column block of
  the transposed parameters [22,256].  Windows 4 and 5 are the two [256,1] accumulators of row
  block i: the density ρ and the row energy.  Both are set to zero when j = 0, receive one
  row-sum per column block, and are written back to their [4096,1] arrays after j = 15.

  This file names what the two accumulators hold after each grid point, by recursion on the point:
  one step (`stepAt`) applied to the zero pair at j = 0 and to what the point before left otherwise.
-/
import proofs.«121872_j23974507446662_1_alg».proof.Proof.Gen.KernelIdeal.Launch
import proofs.«121872_j23974507446662_1_alg».proof.Proof.Gen.KernelIdeal.Skeleton
import proofs.«121872_j23974507446662_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The arrays as the region finds them -/

/-- The buffers of core `c` after the two transposes that precede the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- Window `w`'s block at point `t`, cut out of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## One grid point, as a function of the four input blocks and the accumulators -/

/-- The 256 × 256 distances between the atoms of a row block `x0` and of a column block `x1`. -/
def dist (x0 : Vec F S256x3 .f32) (x1 : Vec F S3x256 .f32) : FVec F S256x256 .f32 := k0_pay4 x0 x1

/-- The density function at those distances with the COLUMN atoms' parameters (`x3`). -/
def fCol (x0 : Vec F S256x3 .f32) (x1 : Vec F S3x256 .f32) (x3 : Vec F S22x256 .f32) : FVec F S256x256 .f32 :=
  k0_pay24 (dist x0 x1) (k0_pay14 x3) (k0_pay15 x3) (k0_pay17 x3) (k0_pay21 x3)

/-- The density function at those distances with the ROW atoms' parameters (`x2`). -/
def fRow (x0 : Vec F S256x3 .f32) (x1 : Vec F S3x256 .f32) (x2 : Vec F S256x22 .f32) : FVec F S256x256 .f32 :=
  k0_pay23 (dist x0 x1) (k0_pay7 x2) (k0_pay9 x2) (k0_pay13 x2) (k0_pay22 x2)

/-- The density accumulator after the point with coordinates `i`: `acc` plus, per row, the sum over the
    column block of the column-side density function, the diagonal pair left out. -/
def rhoStep (i : grid0.Coords) (x0 : Vec F S256x3 .f32) (x1 : Vec F S3x256 .f32) (x3 : Vec F S22x256 .f32)
    (acc : Vec F S256x1 .f32) : Vec F S256x1 .f32 :=
  k0_pay33 (BitVec.ofNat 32 (i 0).val) (BitVec.ofNat 32 (i 1).val) (fCol x0 x1 x3) acc

/-- The row energy of the point with coordinates `i`: per row, the sum over the column block of the
    symmetric pair term, over the pairs off the diagonal and within the cutoff. -/
def erowPart (i : grid0.Coords) (x0 : Vec F S256x3 .f32) (x1 : Vec F S3x256 .f32) (x2 : Vec F S256x22 .f32)
    (x3 : Vec F S22x256 .f32) : FVec F S256x1 .f32 :=
  k0_pay32 (BitVec.ofNat 32 (i 0).val) (BitVec.ofNat 32 (i 1).val) (dist x0 x1) (k0_pay17 x3) (k0_pay19 x3) (k0_pay21 x3)
    (fRow x0 x1 x2) (fCol x0 x1 x3)
    (k0_pay27 (k0_pay9 x2) (k0_pay11 x2) (k0_pay12 x2) (k0_pay13 x2) (k0_pay25 (dist x0 x1) (k0_pay6 x2))
      (k0_pay26 (dist x0 x1) (k0_pay6 x2) (k0_pay8 x2) (k0_pay10 x2)))
    (k0_pay28 (dist x0 x1) (k0_pay14 x3))
    (k0_pay29 (dist x0 x1) (k0_pay14 x3) (k0_pay16 x3) (k0_pay18 x3) (k0_pay20 x3))
    (k0_pay30 (F := F))

/-- The row-energy accumulator after that point: `acc` plus the point's row energy. -/
def erowStep (i : grid0.Coords) (x0 : Vec F S256x3 .f32) (x1 : Vec F S3x256 .f32) (x2 : Vec F S256x22 .f32)
    (x3 : Vec F S22x256 .f32) (acc : Vec F S256x1 .f32) : Vec F S256x1 .f32 :=
  k0_pay1 (erowPart i x0 x1 x2 x3) acc

/-- The pair of zero blocks both accumulators start a row block from. -/
def zeros : Vec F S256x1 .f32 × Vec F S256x1 .f32 := (k0_pay2 (F := F), k0_pay3 (F := F))

/-- One grid point on the pair (density, row energy), the input blocks read off the arrays. -/
def stepAt (c : Dev nD) (t : Fin cfg0.N) (acc : Vec F S256x1 .f32 × Vec F S256x1 .f32) :
    Vec F S256x1 .f32 × Vec F S256x1 .f32 :=
  (rhoStep (grid0.coords t) (iblk m c 0 t) (iblk m c 1 t) (iblk m c 3 t) acc.1,
   erowStep (grid0.coords t) (iblk m c 0 t) (iblk m c 1 t) (iblk m c 2 t) (iblk m c 3 t) acc.2)

/-! ## What the accumulators hold after each point -/

/-- The pair (density, row energy) after point `n`: one step from the zero pair where a row block begins
    (`n ≡ 0 mod 16`), one step from what point `n - 1` left otherwise. -/
def outsAt (c : Dev nD) : (n : ℕ) → n < cfg0.N → Vec F S256x1 .f32 × Vec F S256x1 .f32
  | 0, hn => stepAt m c ⟨0, hn⟩ zeros
  | n + 1, hn => stepAt m c ⟨n + 1, hn⟩ (if (n + 1) % 16 = 0 then zeros else outsAt c n (Nat.lt_of_succ_lt hn))

/-- At the first column block of a row block: one step from zero. -/
theorem outsAt_reset (c : Dev nD) (t : Fin cfg0.N) (h0 : t.val % 16 = 0) :
    outsAt m c t.val t.isLt = stepAt m c t zeros := by
  obtain ⟨n, hn⟩ := t
  cases n with
  | zero => rfl
  | succ n => exact congrArg (stepAt m c ⟨n + 1, hn⟩) (if_pos h0)

/-- At a later column block: one step from what the point before left. -/
theorem outsAt_acc (c : Dev nD) (t : Fin cfg0.N) (h0 : ¬t.val % 16 = 0) :
    outsAt m c t.val t.isLt = stepAt m c t (outsAt m c (t.val - 1) (Nat.lt_of_le_of_lt (Nat.sub_le _ _) t.isLt)) := by
  obtain ⟨n, hn⟩ := t
  cases n with
  | zero => exact absurd (Nat.zero_mod _) h0
  | succ n => exact congrArg (stepAt m c ⟨n + 1, hn⟩) (if_neg h0)

/-! ## The proof data -/

/-- The arrays at entry; after the body each input's buffer at its block, the two accumulators at `outsAt`;
    nothing else is kept between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt m c t.val t.isLt).1
    | ⟨5, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = (outsAt m c t.val t.isLt).1 := by dsimp only [dats]
theorem after_5 (c : Dev nD) (t : Fin cfg0.N) : (dats m 0 c).after 5 t = (outsAt m c t.val t.isLt).2 := by dsimp only [dats]

end Cert.KernelIdeal.Hand

end
-- ==== Proof.KBodyAcc.lean ====
/-
  The kernel body at a grid point that continues a row block (second coordinate j ≠ 0): the zeroing
  branch is skipped, the four input blocks are read, and each accumulator is read and stored back
  with the point's row-sum added.  On whole buffers holding the input blocks `x0 … x3` and the
  accumulators `a4`, `a5`, the body ends with the inputs untouched and the accumulators at
  `rhoStep i x0 x1 x3 a4` and `erowStep i x0 x1 x2 x3 a5`.
-/
import proofs.«121872_j23974507446662_1_alg».proof.Proof.KDat
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's branch condition, from the grid coordinates: the second coordinate is zero. -/
abbrev cond (i : grid0.Coords) : Prop :=
  (Scalar.cmpi .ne (Scalar.extui (Scalar.cmpi .eq (BitVec.ofNat 32 (i 1).val) 0#32)) 0#32) = 1#1

/-- Over the 256 points it holds exactly where a row block begins. -/
theorem hcond : ∀ t : Fin cfg0.N, cond (grid0.coords t) ↔ t.val % 16 = 0 :=
  (by decide +kernel : ∀ t : Fin grid0.N, cond (grid0.coords t) ↔ t.val % 16 = 0)

theorem hz2 : (![0, 0] : Fin 2 → Nat) = fun _ => 0 := funext fun a => by fin_cases a <;> rfl

set_option maxHeartbeats 2000000 in
/-- The body where the accumulators continue. -/
theorem run_acc (c : Dev nD) (i : grid0.Coords)
    (arg2 : Memref sig .tc .vmem S256x3 .f32) (harg2 : arg2.IsWhole) (arg3 : Memref sig .tc .vmem S3x256 .f32) (harg3 : arg3.IsWhole)
    (arg4 : Memref sig .tc .vmem S256x22 .f32) (harg4 : arg4.IsWhole) (arg5 : Memref sig .tc .vmem S22x256 .f32) (harg5 : arg5.IsWhole)
    (arg6 : Memref sig .tc .vmem S256x1 .f32) (harg6 : arg6.IsWhole) (arg7 : Memref sig .tc .vmem S256x1 .f32) (harg7 : arg7.IsWhole)
    (hc : ¬cond i)
    (x0 : Vec F S256x3 .f32) (x1 : Vec F S3x256 .f32) (x2 : Vec F S256x22 .f32) (x3 : Vec F S22x256 .f32)
    (a4 a5 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a4 ∗ owns (c : Thread nD τ) arg7 fullShare a5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (rhoStep i x0 x1 x3 a4)
            ∗ owns (c : Thread nD τ) arg7 fullShare (erowStep i x0 x1 x2 x3 a5)) -∗ K ⟨⟩))
      ⊢ wp frame (wpE (defs₀ (F := F)) Variants.none c none) E (cc0__pair_kernel i arg2 harg2 arg3 harg3 arg4 harg4 arg5 harg5 arg6 harg6 arg7 harg7) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_singleton_self _, View.mem_set_unit_zero hz2 inb_S256x1_S256x1_0_0 y⟩),
      View.canon_unit_zero hz2]
    sl_unfold_words
    simp only [View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl
  · iexists _; isplitr
    swap; · iexact H5
    ipureintro
    rw [View.read_writes_eq_canon _ _ _ (fun y => ⟨_, List.mem_singleton_self _, View.mem_set_unit_zero hz2 inb_S256x1_S256x1_0_0 y⟩),
      View.canon_unit_zero hz2]
    sl_unfold_words
    simp only [View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl

end Cert.KernelIdeal.Hand

end
-- ==== Proof.KBodyReset.lean ====
/-
  The kernel body at a grid point that begins a row block (second coordinate j = 0): both
  accumulators are first overwritten with zeros, whatever they held, then read back and stored with
  the point's row-sum added.  On whole buffers holding the input blocks `x0 … x3` the body ends with
  the inputs untouched and the accumulators at one step from the zero pair.
-/
import proofs.«121872_j23974507446662_1_alg».proof.Proof.KBodyAcc
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body where the accumulators restart. -/
theorem run_reset (c : Dev nD) (i : grid0.Coords)
    (arg2 : Memref sig .tc .vmem S256x3 .f32) (harg2 : arg2.IsWhole) (arg3 : Memref sig .tc .vmem S3x256 .f32) (harg3 : arg3.IsWhole)
    (arg4 : Memref sig .tc .vmem S256x22 .f32) (harg4 : arg4.IsWhole) (arg5 : Memref sig .tc .vmem S22x256 .f32) (harg5 : arg5.IsWhole)
    (arg6 : Memref sig .tc .vmem S256x1 .f32) (harg6 : arg6.IsWhole) (arg7 : Memref sig .tc .vmem S256x1 .f32) (harg7 : arg7.IsWhole)
    (hc : cond i)
    (x0 : Vec F S256x3 .f32) (x1 : Vec F S3x256 .f32) (x2 : Vec F S256x22 .f32) (x3 : Vec F S22x256 .f32)
    (a4 a5 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare a4 ∗ owns (c : Thread nD τ) arg7 fullShare a5
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (rhoStep i x0 x1 x3 (k0_pay2 (F := F)))
            ∗ owns (c : Thread nD τ) arg7 fullShare (erowStep i x0 x1 x2 x3 (k0_pay3 (F := F)))) -∗ K ⟨⟩))
      ⊢ wp frame (wpE (defs₀ (F := F)) Variants.none c none) E (cc0__pair_kernel i arg2 harg2 arg3 harg3 arg4 harg4 arg5 harg5 arg6 harg6 arg7 harg7) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    rw [View.read_writes_eq_canon _ _ _ (fun y => ⟨_, List.mem_cons.mpr (Or.inl rfl), View.mem_set_unit_zero hz2 inb_S256x1_S256x1_0_0 y⟩),
      View.canon_cons_unit_zero (S := S256x1) hz2]
    sl_unfold_words
    simp only [View.readCov_unit_zero (S := S256x1) _ hz2, View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl
  · iexists _; isplitr
    swap; · iexact H5
    ipureintro
    rw [View.read_writes_eq_canon _ _ _ (fun y => ⟨_, List.mem_cons.mpr (Or.inl rfl), View.mem_set_unit_zero hz2 inb_S256x1_S256x1_0_0 y⟩),
      View.canon_cons_unit_zero (S := S256x1) hz2]
    sl_unfold_words
    simp only [View.readCov_unit_zero (S := S256x1) _ hz2, View.readAt_eq_ld, harg2.read_unread, harg3.read_unread, harg4.read_unread, harg5.read_unread,
      harg6.read_unread, harg7.read_unread, View.ld_unit_zero (S := S256x3) hz2, View.ld_unit_zero (S := S3x256) hz2,
      View.ld_unit_zero (S := S256x22) hz2, View.ld_unit_zero (S := S22x256) hz2, View.ld_unit_zero (S := S256x1) hz2]
    rfl

end Cert.KernelIdeal.Hand

end
-- ==== Proof.KBody.lean ====
/-
  The body obligation of the pipeline: at every grid point, from each window's current buffer at
  what the schedule says it holds, the body runs to each buffer at what the proof data names.

  An input's buffer holds its block at every point, fetched there or kept from the point before
  (its block index then did not move).  An accumulator's buffer is fresh where a row block begins
  (the first point, or the point after a write-back), and otherwise holds what the point before left.
-/
import proofs.«121872_j23974507446662_1_alg».proof.Proof.KBodyReset
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds -/

theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)

theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)

/-- Where a row block begins the density buffer is fresh: the first point, or the point after a write-back. -/
theorem before_4_reset (c : Dev nD) (t : Fin cfg0.N) (h0 : t.val % 16 = 0) (d) : (dats m 0 c).before 4 t d = d :=
  Dat.before_out_reset _ 4 rfl t (by
    by_cases hz : t.val = 0
    · exact .inl hz
    · exact .inr ⟨hz, (flush0_4 _).mpr (by dsimp only; omega)⟩) d

theorem before_5_reset (c : Dev nD) (t : Fin cfg0.N) (h0 : t.val % 16 = 0) (d) : (dats m 0 c).before 5 t d = d :=
  Dat.before_out_reset _ 5 rfl t (by
    by_cases hz : t.val = 0
    · exact .inl hz
    · exact .inr ⟨hz, (flush0_5 _).mpr (by dsimp only; omega)⟩) d

/-- Elsewhere it holds what the point before left: no write-back came between. -/
theorem before_4_acc (c : Dev nD) (t : Fin cfg0.N) (h0 : ¬t.val % 16 = 0) (d) :
    (dats m 0 c).before 4 t d = (outsAt m c (t.val - 1) (Nat.lt_of_le_of_lt (Nat.sub_le _ _) t.isLt)).1 := by
  rw [Dat.before_out_kept _ 4 rfl t (by omega) (Bool.eq_false_iff.mpr fun h => by have := (flush0_4 _).mp h; dsimp only at this; omega)
    (fun _ => rfl) (fun _ _ => rfl)]
  dsimp only [dats]

theorem before_5_acc (c : Dev nD) (t : Fin cfg0.N) (h0 : ¬t.val % 16 = 0) (d) :
    (dats m 0 c).before 5 t d = (outsAt m c (t.val - 1) (Nat.lt_of_le_of_lt (Nat.sub_le _ _) t.isLt)).2 := by
  rw [Dat.before_out_kept _ 5 rfl t (by omega) (Bool.eq_false_iff.mpr fun h => by have := (flush0_5 _).mp h; dsimp only at this; omega)
    (fun _ => rfl) (fun _ _ => rfl)]
  dsimp only [dats]

/-! ## The obligation at a generic point -/

/-- Each window's current staging memref at point `t`, and its wholeness. -/
abbrev ms_0 (t : Fin cfg0.N) : Memref sig .tc .vmem S256x3 .f32 := win0_0.stage (cfg0.slots t 0)
abbrev ms_1 (t : Fin cfg0.N) : Memref sig .tc .vmem S3x256 .f32 := win0_1.stage (cfg0.slots t 1)
abbrev ms_2 (t : Fin cfg0.N) : Memref sig .tc .vmem S256x22 .f32 := win0_2.stage (cfg0.slots t 2)
abbrev ms_3 (t : Fin cfg0.N) : Memref sig .tc .vmem S22x256 .f32 := win0_3.stage (cfg0.slots t 3)
abbrev ms_4 (t : Fin cfg0.N) : Memref sig .tc .vmem S256x1 .f32 := win0_4.stage (cfg0.slots t 4)
abbrev ms_5 (t : Fin cfg0.N) : Memref sig .tc .vmem S256x1 .f32 := win0_5.stage (cfg0.slots t 5)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t))

set_option maxHeartbeats 1600000 in
/-- The body at any point: the inputs' buffers hold their blocks; the point's position in its row block says which
    of the two runs applies, and what the accumulators' buffers hold going in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  by_cases h0 : t.val % 16 = 0
  · rw [outsAt_reset m c t h0]
    simp only [before_4_reset m c t h0, before_5_reset m c t h0]
    dsimp only [stepAt, zeros]
    iintro ⟨HΦ, Ho, ⟨%d0, H0⟩, ⟨%d1, H1⟩, ⟨%d2, H2⟩, ⟨%d3, H3⟩, ⟨%d4, H4⟩, ⟨%d5, H5⟩⟩
    iapply (run_reset c (grid0.coords t) _ _ _ _ _ _ _ _ _ _ _ _ ((hcond t).mpr h0)
      (iblk m c 0 t) (iblk m c 1 t) (iblk m c 2 t) (iblk m c 3 t) d4 d5 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [outsAt_acc m c t h0]
    simp only [before_4_acc m c t h0, before_5_acc m c t h0]
    dsimp only [stepAt]
    iintro ⟨HΦ, Ho, ⟨%d0, H0⟩, ⟨%d1, H1⟩, ⟨%d2, H2⟩, ⟨%d3, H3⟩, ⟨%d4, H4⟩, ⟨%d5, H5⟩⟩
    iapply (run_acc c (grid0.coords t) _ _ _ _ _ _ _ _ _ _ _ _ (fun h => h0 ((hcond t).mp h))
      (iblk m c 0 t) (iblk m c 1 t) (iblk m c 2 t) (iblk m c 3 t)
      (outsAt m c (t.val - 1) (Nat.lt_of_le_of_lt (Nat.sub_le _ _) t.isLt)).1
      (outsAt m c (t.val - 1) (Nat.lt_of_le_of_lt (Nat.sub_le _ _) t.isLt)).2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KFrameTail.lean ====
/-
  The host lines around the region.  Before it: two transposes.  After it: the lines that reshape the
  two accumulated columns to vectors, sum the row energies, evaluate the embedding function of the
  density atom by atom (three branches selected by two comparisons), and add the two sums.

  What the launch needs of the later lines is bookkeeping only: each touches unscoped buffers of the
  core, allocates nothing, and writes only its own result buffer — never one of the six arrays the
  region's windows cut their blocks from.
-/
import proofs.«121872_j23974507446662_1_alg».proof.Proof.KDat
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The lines after the region, stretch by stretch. -/
abbrev tailOps : List (List (HloOp τ sig (Elt F))) := [hostOps1, hostOps1_1, hostOps1_2, hostOps1_3]

/-! ## No line allocates -/

theorem hostOps0_fresh : (hostOps0 : List (HloOp τ sig (Elt F))).Forall fun op => op.fresh = ∅ := by
  simp only [List.Forall]; repeat' constructor
set_option maxHeartbeats 4000000 in
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

/-! ## No line writes an array of the windows -/

set_option maxHeartbeats 8000000 in
theorem hostOps1_keeps : (hostOps1 : List (HloOp τ sig (Elt F))).Forall fun op =>
    ∀ w : Fin 6, Proc.devRef .tc (Pipeline.arrRef spec0 w) ∉ op.writes := by
  simp only [List.Forall]
  repeat' apply And.intro
  all_goals
    intro w
    simp only [StableHlo.nullary_writes, StableHlo.unary_writes, StableHlo.binary_writes, StableHlo.ternary_writes,
      StableHlo.reshape_writes, Finset.mem_singleton]
    exact StableHlo.devRef_ne_of_ne (by revert w; decide)

theorem hostOps1_1_keeps : (hostOps1_1 : List (HloOp τ sig (Elt F))).Forall fun op =>
    ∀ w : Fin 6, Proc.devRef .tc (Pipeline.arrRef spec0 w) ∉ op.writes := by
  simp only [List.Forall]
  intro w
  simp only [StableHlo.ternary_writes, Finset.mem_singleton]
  exact StableHlo.devRef_ne_of_ne (by revert w; decide)

theorem hostOps1_2_keeps : (hostOps1_2 : List (HloOp τ sig (Elt F))).Forall fun op =>
    ∀ w : Fin 6, Proc.devRef .tc (Pipeline.arrRef spec0 w) ∉ op.writes := by
  simp only [List.Forall]
  intro w
  simp only [StableHlo.ternary_writes, Finset.mem_singleton]
  exact StableHlo.devRef_ne_of_ne (by revert w; decide)

theorem hostOps1_3_keeps : (hostOps1_3 : List (HloOp τ sig (Elt F))).Forall fun op =>
    ∀ w : Fin 6, Proc.devRef .tc (Pipeline.arrRef spec0 w) ∉ op.writes := by
  simp only [List.Forall]
  repeat' apply And.intro
  all_goals
    intro w
    simp only [StableHlo.nullary_writes, StableHlo.binary_writes, Finset.mem_singleton]
    exact StableHlo.devRef_ne_of_ne (by revert w; decide)

/-! ## The three facts over all the later lines -/

theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-! ## @main around the region -/

/-- @main is the two transposes, the region, then the later lines: it reduces to the region continued by them,
    at the contents after the transposes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

end Cert.KernelIdeal.Hand

end
-- ==== Proof.KFrame.lean ====
/-
  The run of @main: two transposes, the 256-point pipeline, the later lines.

  Every weakly fair execution terminates without a fault.  At the end the result buffer holds the later
  lines applied to the buffers as the region leaves them — the six arrays of the windows at what the
  pipeline wrote back (the two [4096,1] outputs: block i of each is the accumulator after point 16·i + 15),
  every other buffer as the region found it — and the two arguments are unchanged: the transposes and
  the later lines write other buffers, and the pipeline only reads them.
-/
import proofs.«121872_j23974507446662_1_alg».proof.Proof.KBody
import proofs.«121872_j23974507446662_1_alg».proof.Proof.KFrameTail
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with every array of the windows at what the pipeline computes and every other unscoped buffer as the
    later lines leave it. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The transposes write their own result buffers: the arguments are as launched when the region is entered. -/
theorem V_main_arg0 (c : Dev nD) : V m c main_arg0 = m ((c : Thread nD τ).loc main_arg0) := by
  show StableHlo.after (List.flatten [hostOps0]) (fun b => m (c, b)) (Proc.devRef .tc main_arg0) = _
  simp only [hostOps0, List.flatten_cons, List.flatten_nil, List.append_nil]
  after_results

theorem V_main_arg1 (c : Dev nD) : V m c main_arg1 = m ((c : Thread nD τ).loc main_arg1) := by
  show StableHlo.after (List.flatten [hostOps0]) (fun b => m (c, b)) (Proc.devRef .tc main_arg1) = _
  simp only [hostOps0, List.flatten_cons, List.flatten_nil, List.append_nil]
  after_results

/-- The run, read at the result and at the arguments. -/
theorem run_value : θ_run defs (onTc (τ := τ) (main (F := F))) ⟨m, fun _ => 0, ρ⟩ (fun r => ∀ c : Dev nD,
      r.2.mem ((c.tc : Thread nD τ).loc main_v71) = Pipeline.afterTail₀ cfgs (dats m) 0 (V0 m) tailOps c main_v71
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v71 (Pipeline.mem_restRefs_of main_v71 rfl (by decide)),
     ((h c).1 0).trans (((dats m 0 c).arrAt_in 0 rfl _).trans ((A_eq m c 0).trans (V_main_arg0 m c))),
     ((h c).1 2).trans (((dats m 0 c).arrAt_in 2 rfl _).trans ((A_eq m c 2).trans (V_main_arg1 m c)))⟩) (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Hand

end
-- ==== Proof.Spec.lean ====
/-
  The mathematics both programs compute, as closed forms over the extended reals, for 4096 atoms with coordinates
  `c i k` (k < 3) and 22 parameters `p i ·` each.
  For a pair at distance `r` an atom `a` contributes the density term
    f_a(r) = fe · exp(−β (r/re − 1)) / (1 + (r/re − λ)^20)
  and the pair term
    φ_a(r) = A · exp(−α (r/re − 1)) / (1 + (r/re − κ)^20) − B · exp(−β (r/re − 1)) / (1 + (r/re − λ)^20),
  the pair energy of `(i, j)` is (f_j/f_i) φ_i + (f_i/f_j) φ_j within the cutoff 5, the density of atom `i` sums f_j over
  j ≠ i, and the embedding energy is a piecewise function of the density. One program adds the pair energy over all
  ordered pairs i ≠ j and takes a quarter, negates by subtracting from zero and multiplies the twentieth power as
  d¹⁶ · d⁴; the other adds it over the pairs i < j and takes a half, negates, and multiplies d⁴ · d¹⁶; their squared
  distances subtract the coordinates in opposite orders. The two spellings are kept apart here (suffix K / R).
-/
import Idealize.ShloMosaic.PureOps.Ideal
import Idealize.ShloMosaic.Lib.ValueIdx

noncomputable section

open scoped BigOperators

namespace Cert.Spec

open Idealize.ShloMosaic

/-- The float words the programs splat, read at the extended reals. -/
abbrev zero : EReal := Ideal.ofBits .f32 0x00000000#32
abbrev one : EReal := Ideal.ofBits .f32 0x3F800000#32
abbrev five : EReal := Ideal.ofBits .f32 0x40A00000#32
abbrev quarter : EReal := Ideal.ofBits .f32 0x3E800000#32
abbrev half : EReal := Ideal.ofBits .f32 0x3F000000#32

/-- d^20 by repeated squaring, multiplied as d¹⁶ · d⁴ (K) and as d⁴ · d¹⁶ (R). -/
def pow20K (d : EReal) : EReal := (((d * d) * (d * d)) * ((d * d) * (d * d))) * (((d * d) * (d * d)) * ((d * d) * (d * d))) * ((d * d) * (d * d))
def pow20R (d : EReal) : EReal := ((d * d) * (d * d)) * ((((d * d) * (d * d)) * ((d * d) * (d * d))) * (((d * d) * (d * d)) * ((d * d) * (d * d))))

/-- amp · exp(−rate (r/re − 1)) / (1 + (r/re − shift)^20): the one damped-exponential term every potential is made of. -/
def termK (r re amp rate shift : EReal) : EReal :=
  Ideal.div (amp * Ideal.exp ((zero - rate) * (Ideal.div r re - one))) (one + pow20K (Ideal.div r re - shift))
def termR (r re amp rate shift : EReal) : EReal :=
  Ideal.div (amp * Ideal.exp ((-rate) * (Ideal.div r re - one))) (one + pow20R (Ideal.div r re - shift))

/-- Atom `a`'s density term and pair term at distance `r` (columns: re 0, fe 1, α 4, β 5, A 6, B 7, κ 8, λ 9). -/
def fK (q : Fin 22 → EReal) (r : EReal) : EReal := termK r (q 0) (q 1) (q 5) (q 9)
def fR (q : Fin 22 → EReal) (r : EReal) : EReal := termR r (q 0) (q 1) (q 5) (q 9)
def phiK (q : Fin 22 → EReal) (r : EReal) : EReal := termK r (q 0) (q 6) (q 4) (q 8) - termK r (q 0) (q 7) (q 5) (q 9)
def phiR (q : Fin 22 → EReal) (r : EReal) : EReal := termR r (q 0) (q 6) (q 4) (q 8) - termR r (q 0) (q 7) (q 5) (q 9)

/-- The pair energy of a row atom `a` and a column atom `b` at distance `r`. -/
def pairK (qa qb : Fin 22 → EReal) (r : EReal) : EReal :=
  Ideal.div (fK qb r) (fK qa r) * phiK qa r + Ideal.div (fK qa r) (fK qb r) * phiK qb r
def pairR (qa qb : Fin 22 → EReal) (r : EReal) : EReal :=
  Ideal.div (fR qb r) (fR qa r) * phiR qa r + Ideal.div (fR qa r) (fR qb r) * phiR qb r

variable (c : Fin 4096 → Fin 3 → EReal) (p : Fin 4096 → Fin 22 → EReal)

/-- Squared distances: row minus column, three terms added left to right (K); column minus row, summed over the axis (R). -/
def r2K (i j : Fin 4096) : EReal :=
  ((c i 0 - c j 0) * (c i 0 - c j 0) + (c i 1 - c j 1) * (c i 1 - c j 1)) + (c i 2 - c j 2) * (c i 2 - c j 2)
def r2R (i j : Fin 4096) : EReal := ∑ k : Fin 3, (c j k - c i k) * (c j k - c i k)

def rK (i j : Fin 4096) : EReal := Ideal.sqrt (r2K c i j)
/-- The reference's distance matrix: the diagonal's squared distance replaced by one before the root. -/
def rmatR (i j : Fin 4096) : EReal := Ideal.sqrt (if i = j then one else r2R c i j)

/-- Density of atom `i`: the column atoms' density terms over j ≠ i. -/
def rhoK (i : Fin 4096) : EReal := ∑ j : Fin 4096, if i = j then 0 else fK (p j) (rK c i j)
def rhoR (i : Fin 4096) : EReal := ∑ j : Fin 4096, if i = j then 0 else fR (p j) (rmatR c i j)

/-- Row `i` of the masked pair energies over all columns j ≠ i within the cutoff (K). -/
def erowK (i : Fin 4096) : EReal :=
  ∑ j : Fin 4096, if i = j then 0 else Scalar.select (Ideal.cmp .ole (rK c i j) five) (pairK (p i) (p j) (rK c i j)) 0

/-- The pair energy over the pairs i < j, evaluated at distance one where the pair is beyond the cutoff and masked (R). -/
def pairTermR (i j : Fin 4096) : EReal :=
  Scalar.select (Ideal.cmp .ole (rmatR c i j) five)
    (pairR (p i) (p j) (Scalar.select (Ideal.cmp .ole (rmatR c i j) five) (rmatR c i j) one)) 0

/-- The embedding energy of an atom with density `rho` and parameters `q` (columns: ρe 2, ρs 3, fn 10–13, f 14–17, η 18,
    fe2 19, ρn 20, ρ0 21): a cubic in ρ/ρn − 1 below ρn, a cubic in ρ/ρe − 1 below ρ0, a power-law tail above. -/
def emb (rho : EReal) (q : Fin 22 → EReal) : EReal :=
  let xn := Ideal.div rho (q 20) - one
  let polyn := ((q 10 + q 11 * xn) + q 12 * (xn * xn)) + q 13 * ((xn * xn) * xn)
  let xe := Ideal.div rho (q 2) - one
  let poly0 := ((q 14 + q 15 * xe) + q 16 * (xe * xe)) + q 17 * ((xe * xe) * xe)
  let t := Ideal.pow (Ideal.div rho (q 3)) (q 18)
  let tail := (q 19 * (one - Ideal.log t)) * t
  Scalar.select (Ideal.cmp .olt rho (q 20)) polyn (Scalar.select (Ideal.cmp .olt rho (q 21)) poly0 tail)

/-- The kernel program's result. -/
def totalK : EReal := quarter * (∑ i : Fin 4096, erowK c p i) + ∑ i : Fin 4096, emb (rhoK c p i) (p i)

/-- The reference program's result. -/
def totalR : EReal :=
  half * (∑ ij ∈ (Finset.univ : Finset (Fin 4096 × Fin 4096)).filter (fun ij => ij.1 < ij.2), pairTermR c p ij.1 ij.2)
    + ∑ i : Fin 4096, emb (rhoR c p i) (p i)

end Cert.Spec
-- ==== Proof.LibKeepdims.lean ====
/-
  Layout operations of a `keepdims` reduction, read at an index given by coordinates, and a rank-2 float sum along one
  axis read at the extended reals.

  A vector of `a` entries viewed as an `a × 1` column holds entry `i` at `(i, 0)`; an `a × 1` column broadcast to
  `a × b` holds, at `(p, c)`, the column's entry `(p, 0)`; the sum of an `a × b` array along its second axis is, at
  row `r`, the sum over the `b` columns of the entries of that row, and along its first axis, at column `c`, the sum
  over the `a` rows of the entries of that column.  Indices are written with the literal-size constructors
  `ix1`, `ix2`, so that each lemma applies to a printed operation by unification.
-/
import Idealize.ShloMosaic.Lib.Pipeline.Value
import Idealize.ShloMosaic.Lib.ValueIdx
import Idealize.ShloMosaic.PureOps.Ideal.Laws

open scoped BigOperators

namespace Cert.LibKeepdims

open Idealize.ShloMosaic Idealize.ShloMosaic.ValueIdx

variable {α : Type}

/-- A vector cast to a column, `[a] → [a, 1]`, reads entry `i` at `(i, 0)`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its unit axis, `[a, 1] → [a, b]`, reads at `(p, c)` the column's entry `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- ROW SUMS. At the extended reals the float sum of an `a × b` array along its second axis is, at row `r`, the sum
    over the columns `c` of the entries `(r, c)`. -/
theorem multiReduction_add_rows {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) := by
  refine (Ideal.multiReduction_add_single src acc h hφ hacc (ix1 r)).trans ?_
  refine Finset.sum_congr rfl fun c _ => congrArg src (funext fun ax => Fin.ext ?_)
  rw [h.lift_val]
  unfold Shape.Reduces.liftVal
  match ax with
  | ⟨0, _⟩ => rfl
  | ⟨1, _⟩ => rfl

/-- COLUMN SUMS. Along its first axis the sum is, at column `c`, the sum over the rows `r` of the entries `(r, c)`. -/
theorem multiReduction_add_cols {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ r : Fin a, src (ix2 r c) := by
  refine (Ideal.multiReduction_add_single src acc h hφ hacc (ix1 c)).trans ?_
  refine Finset.sum_congr rfl fun r _ => congrArg src (funext fun ax => Fin.ext ?_)
  rw [h.lift_val]
  unfold Shape.Reduces.liftVal
  match ax with
  | ⟨0, _⟩ => rfl
  | ⟨1, _⟩ => rfl

end Cert.LibKeepdims
-- ==== Proof.KPay.lean ====
/-
  The pairwise kernel's stored values, read at one entry.

  A grid point pairs a block of 256 row atoms with a block of 256 column atoms.  From the row atoms' coordinates
  `x0 (a, ·)` and parameters `x2 (a, ·)` and the column atoms' coordinates `x1 (·, b)` and parameters `x3 (·, b)` the
  body forms, entry by entry, the distance of the pair (a, b), the damped-exponential terms of both atoms at that
  distance and the symmetric pair energy; it masks the diagonal pair (and, for the energy, the pairs beyond the cutoff),
  sums each row over the 256 columns and adds the row sums to the two accumulators.  Every operation acts entry by
  entry except the broadcasts of a column `[256,1]` or a row `[1,256]` over the block, the cuts of one parameter column
  or row, and the two row sums; read at the entry (a, b) each intermediate is the closed form of `Spec` at the
  distance of the pair.
-/
import proofs.«121872_j23974507446662_1_alg».proof.Proof.Gen.KernelIdeal.Skeleton
import proofs.«121872_j23974507446662_1_alg».proof.Proof.Spec
import proofs.«121872_j23974507446662_1_alg».proof.Proof.LibKeepdims
import Idealize.ShloMosaic.Lib.ValueLayout
import Idealize.ShloMosaic.Lib.Affine
import Idealize.ShloMosaic.PureOps.Ideal.Laws

noncomputable section

open scoped BigOperators

namespace Cert.KernelIdeal.HandValue

open Idealize.ShloMosaic Idealize.ShloMosaic.ValueIdx

/-- An exponential at an index is the exponential of the entry. -/
theorem exp_apply {s : Shape} {φ : FTy} (x : FVec Ideal s φ) (i : s.Idx) : exp x i = Ideal.exp (x i) := rfl
/-- A square root at an index is the square root of the entry. -/
theorem sqrt_apply {s : Shape} {φ : FTy} (x : FVec Ideal s φ) (i : s.Idx) : sqrt x i = Ideal.sqrt (x i) := rfl

/-! ## The distance -/

/-- The distance of row atom `a` and column atom `b`: the root of the three squared coordinate differences, row minus
    column, added left to right. -/
theorem pay4_apply (x0 : Vec Ideal S256x3 .f32) (x1 : Vec Ideal S3x256 .f32) (a b : Fin 256) :
    Gen.k0_pay4 x0 x1 (ix2 a b)
      = Ideal.sqrt (((x0 (ix2 a 0) - x1 (ix2 0 b)) * (x0 (ix2 a 0) - x1 (ix2 0 b))
          + (x0 (ix2 a 1) - x1 (ix2 1 b)) * (x0 (ix2 a 1) - x1 (ix2 1 b)))
          + (x0 (ix2 a 2) - x1 (ix2 2 b)) * (x0 (ix2 a 2) - x1 (ix2 2 b))) := by
  unfold Gen.k0_pay4
  simp only [sqrt_apply, addf_apply, mulf_apply, subf_apply, LibKeepdims.broadcastTo_a1_ab_apply, broadcastTo_1b_ab_apply,
    shapeCast_self, slice2_axis1_eq, slice2_axis0_eq]
  rfl

/-! ## One parameter column of the row atoms, one parameter row of the column atoms -/

section Cuts
variable (x2 : Vec Ideal S256x22 .f32) (x3 : Vec Ideal S22x256 .f32) (a b : Fin 256)

theorem pay6_apply : Gen.k0_pay6 x2 (ix2 a 0) = x2 (ix2 a 0) := by
  unfold Gen.k0_pay6; simp only [slice2_axis1_eq]; rfl
theorem pay7_apply : Gen.k0_pay7 x2 (ix2 a 0) = x2 (ix2 a 1) := by
  unfold Gen.k0_pay7; simp only [slice2_axis1_eq]; rfl
theorem pay8_apply : Gen.k0_pay8 x2 (ix2 a 0) = x2 (ix2 a 4) := by
  unfold Gen.k0_pay8; simp only [slice2_axis1_eq]; rfl
theorem pay9_apply : Gen.k0_pay9 x2 (ix2 a 0) = x2 (ix2 a 5) := by
  unfold Gen.k0_pay9; simp only [slice2_axis1_eq]; rfl
theorem pay10_apply : Gen.k0_pay10 x2 (ix2 a 0) = x2 (ix2 a 6) := by
  unfold Gen.k0_pay10; simp only [slice2_axis1_eq]; rfl
theorem pay11_apply : Gen.k0_pay11 x2 (ix2 a 0) = x2 (ix2 a 7) := by
  unfold Gen.k0_pay11; simp only [slice2_axis1_eq]; rfl
theorem pay12_apply : Gen.k0_pay12 x2 (ix2 a 0) = x2 (ix2 a 8) := by
  unfold Gen.k0_pay12; simp only [slice2_axis1_eq]; rfl
theorem pay13_apply : Gen.k0_pay13 x2 (ix2 a 0) = x2 (ix2 a 9) := by
  unfold Gen.k0_pay13; simp only [slice2_axis1_eq]; rfl

theorem pay14_apply : Gen.k0_pay14 x3 (ix2 0 b) = x3 (ix2 0 b) := by
  unfold Gen.k0_pay14 Gen.k0_pay5; simp only [slice2_axis0_eq, shapeCast_self]; rfl
theorem pay15_apply : Gen.k0_pay15 x3 (ix2 0 b) = x3 (ix2 1 b) := by
  unfold Gen.k0_pay15 Gen.k0_pay5; simp only [slice2_axis0_eq, shapeCast_self]; rfl
theorem pay16_apply : Gen.k0_pay16 x3 (ix2 0 b) = x3 (ix2 4 b) := by
  unfold Gen.k0_pay16 Gen.k0_pay5; simp only [slice2_axis0_eq, shapeCast_self]; rfl
theorem pay17_apply : Gen.k0_pay17 x3 (ix2 0 b) = x3 (ix2 5 b) := by
  unfold Gen.k0_pay17 Gen.k0_pay5; simp only [slice2_axis0_eq, shapeCast_self]; rfl
theorem pay18_apply : Gen.k0_pay18 x3 (ix2 0 b) = x3 (ix2 6 b) := by
  unfold Gen.k0_pay18 Gen.k0_pay5; simp only [slice2_axis0_eq, shapeCast_self]; rfl
theorem pay19_apply : Gen.k0_pay19 x3 (ix2 0 b) = x3 (ix2 7 b) := by
  unfold Gen.k0_pay19 Gen.k0_pay5; simp only [slice2_axis0_eq, shapeCast_self]; rfl
theorem pay20_apply : Gen.k0_pay20 x3 (ix2 0 b) = x3 (ix2 8 b) := by
  unfold Gen.k0_pay20 Gen.k0_pay5; simp only [slice2_axis0_eq, shapeCast_self]; rfl
theorem pay21_apply : Gen.k0_pay21 x3 (ix2 0 b) = x3 (ix2 9 b) := by
  unfold Gen.k0_pay21 Gen.k0_pay5; simp only [slice2_axis0_eq, shapeCast_self]; rfl

/-- The row atoms' equilibrium spacing, spread over the block. -/
theorem pay22_apply : Gen.k0_pay22 x2 (ix2 a b) = x2 (ix2 a 0) := by
  unfold Gen.k0_pay22; simp only [LibKeepdims.broadcastTo_a1_ab_apply, pay6_apply]

end Cuts

/-! ## The damped-exponential terms -/

section Terms
variable (v26 : FVec Ideal S256x256 .f32) (a b : Fin 256)

/-- The row atom's density term: amplitude, rate and shift from the row atom's columns, the spacing already spread. -/
theorem pay23_apply (v31 v33 v37 : FVec Ideal S256x1 .f32) (v46 : FVec Ideal S256x256 .f32) :
    Gen.k0_pay23 v26 v31 v33 v37 v46 (ix2 a b)
      = Spec.termK (v26 (ix2 a b)) (v46 (ix2 a b)) (v31 (ix2 a 0)) (v33 (ix2 a 0)) (v37 (ix2 a 0)) := by
  unfold Gen.k0_pay23
  simp only [divf_apply, addf_apply, mulf_apply, subf_apply, exp_apply, broadcast_apply, LibKeepdims.broadcastTo_a1_ab_apply]
  rfl

/-- The column atom's density term. -/
theorem pay24_apply (v38 v39 v41 v45 : FVec Ideal S1x256 .f32) :
    Gen.k0_pay24 v26 v38 v39 v41 v45 (ix2 a b)
      = Spec.termK (v26 (ix2 a b)) (v38 (ix2 0 b)) (v39 (ix2 0 b)) (v41 (ix2 0 b)) (v45 (ix2 0 b)) := by
  unfold Gen.k0_pay24
  simp only [divf_apply, addf_apply, mulf_apply, subf_apply, exp_apply, broadcast_apply, broadcastTo_1b_ab_apply]
  rfl

/-- The row atom's pair term: its repulsive term less its attractive term, both at the distance over the row atom's spacing. -/
theorem pay27_apply (v30 v32 v33 v34 v35 v36 v37 : FVec Ideal S256x1 .f32) :
    Gen.k0_pay27 v33 v35 v36 v37 (Gen.k0_pay25 v26 v30) (Gen.k0_pay26 v26 v30 v32 v34) (ix2 a b)
      = Spec.termK (v26 (ix2 a b)) (v30 (ix2 a 0)) (v34 (ix2 a 0)) (v32 (ix2 a 0)) (v36 (ix2 a 0))
        - Spec.termK (v26 (ix2 a b)) (v30 (ix2 a 0)) (v35 (ix2 a 0)) (v33 (ix2 a 0)) (v37 (ix2 a 0)) := by
  unfold Gen.k0_pay27 Gen.k0_pay26 Gen.k0_pay25
  simp only [divf_apply, addf_apply, mulf_apply, subf_apply, exp_apply, broadcast_apply, LibKeepdims.broadcastTo_a1_ab_apply]
  rfl

/-- The distance over the column atom's spacing. -/
theorem pay28_apply (v38 : FVec Ideal S1x256 .f32) :
    Gen.k0_pay28 v26 v38 (ix2 a b) = Ideal.div (v26 (ix2 a b)) (v38 (ix2 0 b)) := by
  unfold Gen.k0_pay28
  simp only [divf_apply, broadcastTo_1b_ab_apply]

/-- The column atom's repulsive term. -/
theorem pay29_apply (v38 v40 v42 v44 : FVec Ideal S1x256 .f32) :
    Gen.k0_pay29 v26 v38 v40 v42 v44 (ix2 a b)
      = Spec.termK (v26 (ix2 a b)) (v38 (ix2 0 b)) (v42 (ix2 0 b)) (v40 (ix2 0 b)) (v44 (ix2 0 b)) := by
  unfold Gen.k0_pay29 Gen.k0_pay28
  simp only [divf_apply, addf_apply, mulf_apply, subf_apply, exp_apply, broadcast_apply, broadcastTo_1b_ab_apply]
  rfl

end Terms

/-! ## The diagonal mask -/

/-- A one-bit conjunction at an index is the conjunction of the entries. -/
theorem andi_apply {s : Shape} {w : ℕ} (x y : IVec s w) (i : s.Idx) : andi x y i = IntOp.andi (x i) (y i) := rfl

/-- Row atom `a` of row block `ib` and column atom `b` of column block `jb` are different atoms exactly when the
    numbers `256·ib + a` and `256·jb + b` differ; both are below 4096, so the 32-bit arithmetic that forms them is
    exact and the comparison of the words is the comparison of the numbers. -/
theorem pay31_apply (ib jb : ℕ) (hib : ib < 16) (hjb : jb < 16) (a b : Fin 256) :
    Gen.k0_pay31 (BitVec.ofNat 32 ib) (BitVec.ofNat 32 jb) (ix2 a b)
      = if ib * 256 + a.val = jb * 256 + b.val then 0#1 else 1#1 := by
  have ha := a.isLt
  have hb := b.isLt
  have hrow : Affine.IsInt (Scalar.addi (Scalar.muli (BitVec.ofNat 32 ib) 256#32) (BitVec.ofNat 32 a.val))
      ((ib : ℤ) * 256 + (a.val : ℤ)) :=
    Affine.addi (Affine.muli (e := (ib : ℤ) * 256) (Affine.ofNat ib (e := (ib : ℤ)) ⟨rfl, by omega⟩)
      (Affine.ofNat 256 (e := 256) ⟨rfl, by omega⟩) ⟨rfl, by omega, by omega⟩)
      (Affine.ofNat a.val (e := (a.val : ℤ)) ⟨rfl, by omega⟩) ⟨rfl, by omega, by omega⟩
  have hcol : Affine.IsInt (Scalar.addi (Scalar.muli (BitVec.ofNat 32 jb) 256#32) (BitVec.ofNat 32 b.val))
      ((jb : ℤ) * 256 + (b.val : ℤ)) :=
    Affine.addi (Affine.muli (e := (jb : ℤ) * 256) (Affine.ofNat jb (e := (jb : ℤ)) ⟨rfl, by omega⟩)
      (Affine.ofNat 256 (e := 256) ⟨rfl, by omega⟩) ⟨rfl, by omega, by omega⟩)
      (Affine.ofNat b.val (e := (b.val : ℤ)) ⟨rfl, by omega⟩) ⟨rfl, by omega, by omega⟩
  have e : Gen.k0_pay31 (BitVec.ofNat 32 ib) (BitVec.ofNat 32 jb) (ix2 a b)
      = Scalar.cmpi .ne (Scalar.addi (Scalar.muli (BitVec.ofNat 32 ib) 256#32) (BitVec.ofNat 32 a.val))
          (Scalar.addi (Scalar.muli (BitVec.ofNat 32 jb) 256#32) (BitVec.ofNat 32 b.val)) := by
    unfold Gen.k0_pay31
    show IntOp.cmpi .ne (IntOp.addi _ (iota .tc S256x256 32 [0] Gen.iota_S256x256_d0_w32 (ix2 a b)))
      (IntOp.addi _ (iota .tc S256x256 32 [1] Gen.iota_S256x256_d1_w32 (ix2 a b))) = _
    rw [iota_single_apply, iota_single_apply]
    rfl
  rw [e]
  split
  · next h => exact eq_zero_of_ne_one (Affine.ne_fails hrow hcol (by omega))
  · next h => exact Affine.ne_holds hrow hcol (by omega)

/-! ## The two row sums -/

/-- The density accumulator after a point: what it held plus, per row, the sum over the 256 columns of the column
    atoms' density terms, the diagonal pair contributing zero. -/
theorem pay33_apply (arg0 arg1 : BitVec 32) (v87 : FVec Ideal S256x256 .f32) (v195 : Vec Ideal S256x1 .f32) (a : Fin 256) :
    Gen.k0_pay33 arg0 arg1 v87 v195 (ix2 a 0)
      = v195 (ix2 a 0) + ∑ b : Fin 256, Scalar.select (Gen.k0_pay31 arg0 arg1 (ix2 a b)) (v87 (ix2 a b)) Spec.zero := by
  unfold Gen.k0_pay33
  simp only [addf_apply, shapeCast_self]
  refine congrArg (v195 (ix2 a 0) + ·) ?_
  refine (LibKeepdims.shapeCast_a_a1_apply _ Gen.shapeCasts_S256_S256x1 a 0).trans ?_
  refine (LibKeepdims.multiReduction_add_rows _ _ Gen.reduces_S256x256_S256 (.inl rfl) rfl a).trans ?_
  rfl

/-- The energy of a point, per row: the sum over the 256 columns of the symmetric pair energy — the column atom's
    density term over the row atom's times the row atom's pair term, plus the same with the atoms exchanged — over
    the pairs off the diagonal and within the cutoff. -/
theorem pay32_apply (arg0 arg1 : BitVec 32) (v26 : FVec Ideal S256x256 .f32) (v38 v41 v43 v45 : FVec Ideal S1x256 .f32)
    (v66 v87 v128 v149 : FVec Ideal S256x256 .f32) (a : Fin 256) :
    Gen.k0_pay32 arg0 arg1 v26 v41 v43 v45 v66 v87 v128 (Gen.k0_pay28 v26 v38) v149 Gen.k0_pay30 (ix2 a 0)
      = ∑ b : Fin 256, Scalar.select
          (IntOp.andi (Gen.k0_pay31 arg0 arg1 (ix2 a b)) (Ideal.cmp .ole (v26 (ix2 a b)) Spec.five))
          (Ideal.div (v87 (ix2 a b)) (v66 (ix2 a b)) * v128 (ix2 a b)
            + Ideal.div (v66 (ix2 a b)) (v87 (ix2 a b))
              * (v149 (ix2 a b)
                  - Spec.termK (v26 (ix2 a b)) (v38 (ix2 0 b)) (v43 (ix2 0 b)) (v41 (ix2 0 b)) (v45 (ix2 0 b))))
          Spec.zero := by
  unfold Gen.k0_pay32 Gen.k0_pay30 Gen.k0_pay28
  refine (LibKeepdims.shapeCast_a_a1_apply _ Gen.shapeCasts_S256_S256x1 a 0).trans ?_
  refine (LibKeepdims.multiReduction_add_rows _ _ Gen.reduces_S256x256_S256 (.inl rfl) rfl a).trans ?_
  refine Finset.sum_congr rfl fun b _ => ?_
  simp only [select_apply, andi_apply, cmpf_apply, divf_apply, addf_apply, mulf_apply, subf_apply, exp_apply, broadcast_apply,
    broadcastTo_1b_ab_apply]
  rfl

/-- The energy accumulator after a point: what it held plus the point's row energies. -/
theorem pay1_apply (v190 : FVec Ideal S256x1 .f32) (v199 : Vec Ideal S256x1 .f32) (a : Fin 256) :
    Gen.k0_pay1 v190 v199 (ix2 a 0) = v199 (ix2 a 0) + v190 (ix2 a 0) := by
  unfold Gen.k0_pay1
  simp only [addf_apply, shapeCast_self]

/-- Both accumulators start a row block at zero. -/
theorem pay2_apply (a : Fin 256) : Gen.k0_pay2 (F := Ideal) (ix2 a 0) = 0 := Ideal.ofBits_zero_f32
theorem pay3_apply (a : Fin 256) : Gen.k0_pay3 (F := Ideal) (ix2 a 0) = 0 := Ideal.ofBits_zero_f32

end Cert.KernelIdeal.HandValue

end
-- ==== Proof.KPayStep.lean ====
/-
  One grid point on the two accumulators, in closed form.

  When the four input blocks of a grid point hold the coordinates and parameters of the row atoms `row a` and of the
  column atoms `col b`, the point adds to the density accumulator of row `a` the density terms of the 256 column
  atoms at their distances from `row a`, and to the energy accumulator the pair energies with them within the cutoff
  — the pair of an atom with itself left out of both.
-/
import proofs.«121872_j23974507446662_1_alg».proof.Proof.KPay
import proofs.«121872_j23974507446662_1_alg».proof.Proof.KDat

noncomputable section

open scoped BigOperators

namespace Cert.KernelIdeal.HandValue

open Idealize.ShloMosaic Idealize.ShloMosaic.ValueIdx

section Step
variable (i : grid0.Coords) (x0 : Vec Ideal S256x3 .f32) (x1 : Vec Ideal S3x256 .f32) (x2 : Vec Ideal S256x22 .f32)
  (x3 : Vec Ideal S22x256 .f32) (acc : Vec Ideal S256x1 .f32)
  (c : Fin 4096 → Fin 3 → EReal) (p : Fin 4096 → Fin 22 → EReal) (row col : Fin 256 → Fin 4096)
  (hrow : ∀ a : Fin 256, (row a).val = (i 0).val * 256 + a.val) (hcol : ∀ b : Fin 256, (col b).val = (i 1).val * 256 + b.val)
  (h0 : ∀ (a : Fin 256) (k : Fin 3), x0 (ix2 a k) = c (row a) k) (h1 : ∀ (k : Fin 3) (b : Fin 256), x1 (ix2 k b) = c (col b) k)
  (h2 : ∀ (a : Fin 256) (k : Fin 22), x2 (ix2 a k) = p (row a) k) (h3 : ∀ (k : Fin 22) (b : Fin 256), x3 (ix2 k b) = p (col b) k)

include hrow hcol in
/-- The mask bit of the pair (a, b) is off exactly when the two atoms are one. -/
theorem mask_eq (a b : Fin 256) :
    Gen.k0_pay31 (BitVec.ofNat 32 (i 0).val) (BitVec.ofNat 32 (i 1).val) (ix2 a b) = if row a = col b then 0#1 else 1#1 := by
  rw [pay31_apply (i 0).val (i 1).val (i 0).isLt (i 1).isLt a b]
  by_cases h : row a = col b
  · rw [if_pos h, if_pos (by rw [← hrow, ← hcol, h])]
  · rw [if_neg h, if_neg (fun e => h (Fin.ext (by rw [hrow, hcol, e])))]

include h0 h1 in
/-- The distance entry is the distance of the two atoms. -/
theorem dist_eq (a b : Fin 256) : Hand.dist x0 x1 (ix2 a b) = Spec.rK c (row a) (col b) := by
  unfold Hand.dist
  rw [pay4_apply, h0, h0, h0, h1, h1, h1]
  rfl

include h0 h1 h3 in
/-- The column atom's density term at that distance. -/
theorem fCol_eq (a b : Fin 256) : Hand.fCol x0 x1 x3 (ix2 a b) = Spec.fK (p (col b)) (Spec.rK c (row a) (col b)) := by
  unfold Hand.fCol
  rw [pay24_apply, pay14_apply, pay15_apply, pay17_apply, pay21_apply, dist_eq x0 x1 c row col h0 h1, h3, h3, h3, h3]
  rfl

include h0 h1 h2 in
/-- The row atom's density term at that distance. -/
theorem fRow_eq (a b : Fin 256) : Hand.fRow x0 x1 x2 (ix2 a b) = Spec.fK (p (row a)) (Spec.rK c (row a) (col b)) := by
  unfold Hand.fRow
  rw [pay23_apply, pay22_apply, pay7_apply, pay9_apply, pay13_apply, dist_eq x0 x1 c row col h0 h1, h2, h2, h2, h2]
  rfl

include hrow hcol h0 h1 h3 in
/-- THE DENSITY STEP. -/
theorem rhoStep_apply (a : Fin 256) :
    Hand.rhoStep i x0 x1 x3 acc (ix2 a 0)
      = acc (ix2 a 0) + ∑ b : Fin 256, if row a = col b then 0 else Spec.fK (p (col b)) (Spec.rK c (row a) (col b)) := by
  unfold Hand.rhoStep
  rw [pay33_apply]
  refine congrArg (acc (ix2 a 0) + ·) (Finset.sum_congr rfl fun b _ => ?_)
  rw [mask_eq i row col hrow hcol a b, fCol_eq x0 x1 x3 c p row col h0 h1 h3 a b]
  by_cases h : row a = col b
  · rw [if_pos h, if_pos h, select_zero]; exact Ideal.ofBits_zero_f32
  · rw [if_neg h, if_neg h, select_one]

include hrow hcol h0 h1 h2 h3 in
/-- THE ENERGY STEP. -/
theorem erowStep_apply (a : Fin 256) :
    Hand.erowStep i x0 x1 x2 x3 acc (ix2 a 0)
      = acc (ix2 a 0) + ∑ b : Fin 256, if row a = col b then 0 else
          Scalar.select (Ideal.cmp .ole (Spec.rK c (row a) (col b)) Spec.five)
            (Spec.pairK (p (row a)) (p (col b)) (Spec.rK c (row a) (col b))) 0 := by
  unfold Hand.erowStep Hand.erowPart
  rw [pay1_apply, pay32_apply]
  refine congrArg (acc (ix2 a 0) + ·) (Finset.sum_congr rfl fun b _ => ?_)
  rw [mask_eq i row col hrow hcol a b, fCol_eq x0 x1 x3 c p row col h0 h1 h3 a b, fRow_eq x0 x1 x2 c p row col h0 h1 h2 a b,
    pay27_apply, pay29_apply, dist_eq x0 x1 c row col h0 h1 a b,
    pay6_apply, pay8_apply, pay9_apply, pay10_apply, pay11_apply, pay12_apply, pay13_apply,
    pay14_apply, pay16_apply, pay17_apply, pay18_apply, pay19_apply, pay20_apply, pay21_apply]
  simp only [h2, h3]
  by_cases h : row a = col b
  · rw [if_pos h, if_pos h]
    show Scalar.select (IntOp.andi 0#1 _) _ _ = 0
    rw [show ∀ x : BitVec 1, IntOp.andi 0#1 x = 0#1 from by decide, select_zero]; exact Ideal.ofBits_zero_f32
  · rw [if_neg h, if_neg h]
    rw [show ∀ x : BitVec 1, IntOp.andi 1#1 x = x from by decide]
    refine congrArg₂ (Scalar.select _) rfl Ideal.ofBits_zero_f32

end Step

end Cert.KernelIdeal.HandValue

end
-- ==== Proof.LibSumSplit.lean ====
/-
  Two ways of regrouping a finite sum in a commutative monoid.

  A sum over the first `2·n` naturals that keeps only the even ones (or only the odd ones), each contributing a term
  that depends on its half, is the sum of those terms over the first `n` naturals.  A sum over the first `a·b`
  naturals is the sum over `a` consecutive runs of length `b`.  Both use only associativity and commutativity of the
  addition, so they hold on the extended reals with no finiteness assumption.
-/
import Mathlib.Algebra.BigOperators.Fin
import Mathlib.Algebra.BigOperators.Intervals

open scoped BigOperators

namespace Cert.LibSumSplit

variable {M : Type*} [AddCommMonoid M]

/-- Keeping the even naturals below `2·n`, the one `2·i` contributing `f i`: the sum of `f` over `i < n`. -/
theorem sum_range_even (f : ℕ → M) (n : ℕ) :
    ∑ s ∈ Finset.range (2 * n), (if s % 2 = 0 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : (2 * n) % 2 = 0 := by omega
    have h1 : ¬(2 * n + 1) % 2 = 0 := by omega
    have h2 : (2 * n) / 2 = n := by omega
    rw [if_pos h0, if_neg h1, h2, add_zero]

/-- Keeping the odd naturals below `2·n`, the one `2·i + 1` contributing `f i`: the sum of `f` over `i < n`. -/
theorem sum_range_odd (f : ℕ → M) (n : ℕ) :
    ∑ s ∈ Finset.range (2 * n), (if s % 2 = 1 then f (s / 2) else 0) = ∑ i ∈ Finset.range n, f i := by
  induction n with
  | zero => simp
  | succ n ih =>
    have e : 2 * (n + 1) = 2 * n + 1 + 1 := by omega
    rw [e, Finset.sum_range_succ, Finset.sum_range_succ, ih, Finset.sum_range_succ]
    have h0 : ¬(2 * n) % 2 = 1 := by omega
    have h1 : (2 * n + 1) % 2 = 1 := by omega
    have h2 : (2 * n + 1) / 2 = n := by omega
    rw [if_neg h0, if_pos h1, h2, add_zero]

/-- The first `a·b` naturals are `a` consecutive runs of `b`. -/
theorem sum_range_mul (g : ℕ → M) (a b : ℕ) :
    ∑ k ∈ Finset.range (a * b), g k = ∑ i ∈ Finset.range a, ∑ j ∈ Finset.range b, g (i * b + j) := by
  induction a with
  | zero => simp
  | succ a ih =>
    rw [Finset.sum_range_succ, ← ih, Nat.succ_mul, Finset.sum_range_add]

end Cert.LibSumSplit
-- ==== Proof.KSum.lean ====
/-
  Sixteen runs of 256 columns make the 4096 columns.

  An accumulator that starts at zero and receives, run after run, the sum of a function over the 256 columns of the
  run holds after `n` runs the sum over the first `256·n` columns, and after all sixteen the sum over every column.
  Only associativity and commutativity of the addition are used, so this holds on the extended reals as it stands.
-/
import proofs.«121872_j23974507446662_1_alg».proof.Proof.LibSumSplit
import Mathlib.Algebra.BigOperators.Fin

open scoped BigOperators

namespace Cert.KernelIdeal.HandValue

variable {M : Type*} [AddCommMonoid M]

/-- A function of the 4096 columns read at a natural number, zero past the last column. -/
def atNat (g : Fin 4096 → M) (n : ℕ) : M := if h : n < 4096 then g ⟨n, h⟩ else 0

/-- At the number of a column it is the function at that column. -/
theorem atNat_eq (g : Fin 4096 → M) (n : ℕ) (j : Fin 4096) (h : j.val = n) : atNat g n = g j := by
  subst h
  exact dif_pos j.isLt

/-- The sum of `g` over the columns of the first `n` runs of 256. -/
def blocksSum (g : Fin 4096 → M) (n : ℕ) : M := ∑ j ∈ Finset.range n, ∑ b : Fin 256, atNat g (j * 256 + b.val)

theorem blocksSum_zero (g : Fin 4096 → M) : blocksSum g 0 = 0 := Finset.sum_range_zero _

/-- One more run adds the sum over its 256 columns. -/
theorem blocksSum_succ (g : Fin 4096 → M) (n : ℕ) :
    blocksSum g (n + 1) = blocksSum g n + ∑ b : Fin 256, atNat g (n * 256 + b.val) := Finset.sum_range_succ _ _

/-- Sixteen runs are all the columns. -/
theorem blocksSum_all (g : Fin 4096 → M) : blocksSum g 16 = ∑ j : Fin 4096, g j := by
  unfold blocksSum
  have h1 : ∀ j : ℕ, ∑ b : Fin 256, atNat g (j * 256 + b.val) = ∑ b ∈ Finset.range 256, atNat g (j * 256 + b) :=
    fun j => Fin.sum_univ_eq_sum_range (fun b => atNat g (j * 256 + b)) 256
  simp only [h1]
  rw [← LibSumSplit.sum_range_mul (atNat g) 16 256, show 16 * 256 = 4096 from rfl, ← Fin.sum_univ_eq_sum_range (atNat g) 4096]
  exact Finset.sum_congr rfl fun j _ => dif_pos j.isLt

end Cert.KernelIdeal.HandValue
-- ==== Proof.KValueBlocks.lean ====
/-
  The input blocks of a grid point, read off the arrays.

  Point t of the 16 × 16 grid is the pair (t / 16, t % 16) of a row block and a column block.  Entry (a, k) of the row
  blocks of the coordinates and parameters is entry (256·(t / 16) + a, k) of the argument arrays; entry (k, b) of the
  column blocks is entry (k, 256·(t % 16) + b) of the transposed arrays, which is entry (256·(t % 16) + b, k) of the
  arguments.
-/
import proofs.«121872_j23974507446662_1_alg».proof.Proof.KDat
import Idealize.ShloMosaic.Lib.Pipeline.Value
import Idealize.ShloMosaic.Lib.StableHlo.Run
import Idealize.ShloMosaic.Lib.ValueLayout

noncomputable section

namespace Cert.KernelIdeal.HandValue

open Idealize.ShloMosaic Idealize.ShloMosaic.ValueIdx Idealize.ShloMosaic.TcCoe Idealize.SL.Sem

variable {F : FTy → Type} [FloatOps F]
variable (m : (ℓ : Loc nD τ sig) → Buf (Elt F) ℓ)

/-- The grid's coordinates and the windows' block indices at point `t`, decided over the 256 points. -/
theorem idx_facts : ∀ t : Fin cfg0.N,
    ((grid0.coords t) 0).val = t.val / 16 ∧ ((grid0.coords t) 1).val = t.val % 16
    ∧ win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = t.val / 16 ∧ win0_5.index t (1 : Fin 2) = 0 :=
  (by decide +kernel : ∀ t : Fin grid0.N, _)

/-! ## The arrays as the region finds them -/

theorem V_arg0 (c : Dev nD) : Hand.V m c main_arg0 = m ((c.tc : Thread nD τ).loc main_arg0) := by
  show StableHlo.after Gen.hostOps0 (fun b => m (c, b)) (Proc.devRef .tc main_arg0) = _
  after_results

theorem V_arg1 (c : Dev nD) : Hand.V m c main_arg1 = m ((c.tc : Thread nD τ).loc main_arg1) := by
  show StableHlo.after Gen.hostOps0 (fun b => m (c, b)) (Proc.devRef .tc main_arg1) = _
  after_results

theorem V_v0 (c : Dev nD) : Hand.V m c main_v0
    = transpose S3x4096 [1, 0] (m ((c.tc : Thread nD τ).loc main_arg0)) Gen.transposes_S4096x3_S3x4096_1_0 := by
  show StableHlo.after Gen.hostOps0 (fun b => m (c, b)) (Proc.devRef .tc main_v0) = _
  after_results

theorem V_v1 (c : Dev nD) : Hand.V m c main_v1
    = transpose S22x4096 [1, 0] (m ((c.tc : Thread nD τ).loc main_arg1)) Gen.transposes_S4096x22_S22x4096_1_0 := by
  show StableHlo.after Gen.hostOps0 (fun b => m (c, b)) (Proc.devRef .tc main_v1) = _
  after_results

/-! ## The blocks -/

/-- Row block of the coordinates. -/
theorem iblk0_apply (c : Dev nD) (t : Fin cfg0.N) (a : Fin 256) (k : Fin 3) (r : Fin 4096) (hr : r.val = t.val / 16 * 256 + a.val) :
    Hand.iblk m c 0 t (ix2 a k) = m ((c.tc : Thread nD τ).loc main_arg0) (ix2 r k) := by
  obtain ⟨-, -, e0, e1, -⟩ := idx_facts t
  show Hand.V m c main_arg0 (((cfg0.win 0).blk t).view.emb (ix2 a k)) = _
  rw [V_arg0]
  refine congrArg _ (funext fun ax => Fin.ext ?_)
  match ax with
  | ⟨0, _⟩ => show win0_0.index t (0 : Fin 2) * 256 + 1 * a.val = r.val; rw [e0, hr]; omega
  | ⟨1, _⟩ => show win0_0.index t (1 : Fin 2) * 3 + 1 * k.val = k.val; rw [e1]; omega

/-- Column block of the transposed coordinates. -/
theorem iblk1_apply (c : Dev nD) (t : Fin cfg0.N) (k : Fin 3) (b : Fin 256) (r : Fin 4096) (hr : r.val = t.val % 16 * 256 + b.val) :
    Hand.iblk m c 1 t (ix2 k b) = m ((c.tc : Thread nD τ).loc main_arg0) (ix2 r k) := by
  obtain ⟨-, -, -, -, e0, e1, -⟩ := idx_facts t
  show Hand.V m c main_v0 (((cfg0.win 1).blk t).view.emb (ix2 k b)) = _
  rw [V_v0]
  have he : ((cfg0.win 1).blk t).view.emb (ix2 k b) = ix2 k r := funext fun ax => Fin.ext (by
    match ax with
    | ⟨0, _⟩ => show win0_1.index t (0 : Fin 2) * 3 + 1 * k.val = k.val; rw [e0]; omega
    | ⟨1, _⟩ => show win0_1.index t (1 : Fin 2) * 256 + 1 * b.val = r.val; rw [e1, hr]; omega)
  exact (congrArg _ he).trans (transpose_ix2_apply _ _ k r)

/-- Row block of the parameters. -/
theorem iblk2_apply (c : Dev nD) (t : Fin cfg0.N) (a : Fin 256) (k : Fin 22) (r : Fin 4096) (hr : r.val = t.val / 16 * 256 + a.val) :
    Hand.iblk m c 2 t (ix2 a k) = m ((c.tc : Thread nD τ).loc main_arg1) (ix2 r k) := by
  obtain ⟨-, -, -, -, -, -, e0, e1, -⟩ := idx_facts t
  show Hand.V m c main_arg1 (((cfg0.win 2).blk t).view.emb (ix2 a k)) = _
  rw [V_arg1]
  refine congrArg _ (funext fun ax => Fin.ext ?_)
  match ax with
  | ⟨0, _⟩ => show win0_2.index t (0 : Fin 2) * 256 + 1 * a.val = r.val; rw [e0, hr]; omega
  | ⟨1, _⟩ => show win0_2.index t (1 : Fin 2) * 22 + 1 * k.val = k.val; rw [e1]; omega

/-- Column block of the transposed parameters. -/
theorem iblk3_apply (c : Dev nD) (t : Fin cfg0.N) (k : Fin 22) (b : Fin 256) (r : Fin 4096) (hr : r.val = t.val % 16 * 256 + b.val) :
    Hand.iblk m c 3 t (ix2 k b) = m ((c.tc : Thread nD τ).loc main_arg1) (ix2 r k) := by
  obtain ⟨-, -, -, -, -, -, -, -, e0, e1, -⟩ := idx_facts t
  show Hand.V m c main_v1 (((cfg0.win 3).blk t).view.emb (ix2 k b)) = _
  rw [V_v1]
  have he : ((cfg0.win 3).blk t).view.emb (ix2 k b) = ix2 k r := funext fun ax => Fin.ext (by
    match ax with
    | ⟨0, _⟩ => show win0_3.index t (0 : Fin 2) * 22 + 1 * k.val = k.val; rw [e0]; omega
    | ⟨1, _⟩ => show win0_3.index t (1 : Fin 2) * 256 + 1 * b.val = r.val; rw [e1, hr]; omega)
  exact (congrArg _ he).trans (transpose_ix2_apply _ _ k r)

end Cert.KernelIdeal.HandValue

end
-- ==== Proof.KValue.lean ====
/-
  The two arrays the region leaves.

  After the grid point (i, j) the density accumulator of row block i holds, at row a, the sum over the columns of the
  first j + 1 column blocks of the density terms of atom 256·i + a against each column atom (the atom itself left
  out), and the energy accumulator the like sum of the pair energies within the cutoff: zero plus one block at
  j = 0, one block more at every later j.  At j = 15 that is the sum over all 4096 columns, and that is when the block
  is written back; the sixteen written blocks tile the two [4096,1] arrays, which therefore end holding, at (r, 0),
  the density and the row energy of atom r.
-/
import proofs.«121872_j23974507446662_1_alg».proof.Proof.KPayStep
import proofs.«121872_j23974507446662_1_alg».proof.Proof.KSum
import proofs.«121872_j23974507446662_1_alg».proof.Proof.KValueBlocks

noncomputable section

open scoped BigOperators

namespace Cert.KernelIdeal.HandValue

open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- The coordinates and the parameters of the 4096 atoms on device `c`. -/
def cOf (c : Dev nD) (i : Fin 4096) (k : Fin 3) : EReal := m ((c.tc : Thread nD τ).loc main_arg0) (ix2 i k)
def pOf (c : Dev nD) (i : Fin 4096) (k : Fin 22) : EReal := m ((c.tc : Thread nD τ).loc main_arg1) (ix2 i k)

/-- What column atom `j` contributes to the density and to the row energy of atom `i`. -/
def rhoTerm (c : Dev nD) (i j : Fin 4096) : EReal :=
  if i = j then 0 else Spec.fK (pOf m c j) (Spec.rK (cOf m c) i j)
def erowTerm (c : Dev nD) (i j : Fin 4096) : EReal :=
  if i = j then 0 else Scalar.select (Ideal.cmp .ole (Spec.rK (cOf m c) i j) Spec.five)
    (Spec.pairK (pOf m c i) (pOf m c j) (Spec.rK (cOf m c) i j)) 0

theorem rhoK_eq (c : Dev nD) (i : Fin 4096) : Spec.rhoK (cOf m c) (pOf m c) i = ∑ j : Fin 4096, rhoTerm m c i j := rfl
theorem erowK_eq (c : Dev nD) (i : Fin 4096) : Spec.erowK (cOf m c) (pOf m c) i = ∑ j : Fin 4096, erowTerm m c i j := rfl

/-- The row atom `a` and the column atom `b` of grid point `n`. -/
def rowAt (n : ℕ) (a : Fin 256) : Fin 4096 := ⟨n / 16 % 16 * 256 + a.val, by have := a.isLt; omega⟩
def colAt (n : ℕ) (b : Fin 256) : Fin 4096 := ⟨n % 16 * 256 + b.val, by have := b.isLt; omega⟩

/-- One column block's share of a sum over the columns. -/
theorem block_share {M : Type*} [AddCommMonoid M] (g : Fin 4096 → M) (n : ℕ) :
    ∑ b : Fin 256, atNat g (n % 16 * 256 + b.val) = ∑ b : Fin 256, g (colAt n b) :=
  Finset.sum_congr rfl fun b _ => atNat_eq g _ (colAt n b) rfl

/-- ONE GRID POINT on the pair of accumulators, at row `a`. -/
theorem stepAt_apply (c : Dev nD) (t : Fin cfg0.N) (acc : Vec Ideal S256x1 .f32 × Vec Ideal S256x1 .f32) (a : Fin 256) :
    (Hand.stepAt m c t acc).1 (ix2 a 0) = acc.1 (ix2 a 0) + ∑ b : Fin 256, rhoTerm m c (rowAt t.val a) (colAt t.val b)
    ∧ (Hand.stepAt m c t acc).2 (ix2 a 0) = acc.2 (ix2 a 0) + ∑ b : Fin 256, erowTerm m c (rowAt t.val a) (colAt t.val b) := by
  have hN : cfg0.N = 256 := Gen.N_0
  have ht : t.val < 256 := hN ▸ t.isLt
  obtain ⟨g0, g1, -⟩ := idx_facts t
  have hrow : ∀ a : Fin 256, (rowAt t.val a).val = ((grid0.coords t) 0).val * 256 + a.val := fun a => by
    rw [g0]; show t.val / 16 % 16 * 256 + a.val = _; omega
  have hcol : ∀ b : Fin 256, (colAt t.val b).val = ((grid0.coords t) 1).val * 256 + b.val := fun b => by
    rw [g1]; rfl
  have hr : ∀ a : Fin 256, (rowAt t.val a).val = t.val / 16 * 256 + a.val := fun a => by
    show t.val / 16 % 16 * 256 + a.val = _; omega
  have h0 : ∀ (a : Fin 256) (k : Fin 3), Hand.iblk m c 0 t (ix2 a k) = cOf m c (rowAt t.val a) k :=
    fun a k => iblk0_apply m c t a k (rowAt t.val a) (hr a)
  have h1 : ∀ (k : Fin 3) (b : Fin 256), Hand.iblk m c 1 t (ix2 k b) = cOf m c (colAt t.val b) k :=
    fun k b => iblk1_apply m c t k b (colAt t.val b) rfl
  have h2 : ∀ (a : Fin 256) (k : Fin 22), Hand.iblk m c 2 t (ix2 a k) = pOf m c (rowAt t.val a) k :=
    fun a k => iblk2_apply m c t a k (rowAt t.val a) (hr a)
  have h3 : ∀ (k : Fin 22) (b : Fin 256), Hand.iblk m c 3 t (ix2 k b) = pOf m c (colAt t.val b) k :=
    fun k b => iblk3_apply m c t k b (colAt t.val b) rfl
  exact ⟨rhoStep_apply (grid0.coords t) (Hand.iblk m c 0 t) (Hand.iblk m c 1 t) (Hand.iblk m c 3 t) acc.1
      (cOf m c) (pOf m c) (rowAt t.val) (colAt t.val) hrow hcol h0 h1 h3 a,
    erowStep_apply (grid0.coords t) (Hand.iblk m c 0 t) (Hand.iblk m c 1 t) (Hand.iblk m c 2 t) (Hand.iblk m c 3 t) acc.2
      (cOf m c) (pOf m c) (rowAt t.val) (colAt t.val) hrow hcol h0 h1 h2 h3 a⟩

/-- THE ACCUMULATORS AFTER POINT `n`: the sums over the first `n % 16 + 1` column blocks. -/
theorem outsAt_apply (c : Dev nD) : ∀ (n : ℕ) (hn : n < cfg0.N) (a : Fin 256),
    (Hand.outsAt m c n hn).1 (ix2 a 0) = blocksSum (rhoTerm m c (rowAt n a)) (n % 16 + 1)
    ∧ (Hand.outsAt m c n hn).2 (ix2 a 0) = blocksSum (erowTerm m c (rowAt n a)) (n % 16 + 1) := by
  intro n
  induction n with
  | zero =>
    intro hn a
    obtain ⟨s1, s2⟩ := stepAt_apply m c ⟨0, hn⟩ Hand.zeros a
    refine ⟨?_, ?_⟩
    · show (Hand.stepAt m c ⟨0, hn⟩ Hand.zeros).1 (ix2 a 0) = _
      rw [s1, blocksSum_succ, blocksSum_zero, block_share]
      exact congrArg (· + _) (pay2_apply a)
    · show (Hand.stepAt m c ⟨0, hn⟩ Hand.zeros).2 (ix2 a 0) = _
      rw [s2, blocksSum_succ, blocksSum_zero, block_share]
      exact congrArg (· + _) (pay3_apply a)
  | succ k ih =>
    intro hn a
    have hN : cfg0.N = 256 := Gen.N_0
    have hk : k + 1 < 256 := hN ▸ hn
    by_cases h0 : (k + 1) % 16 = 0
    · have e := Hand.outsAt_reset m c ⟨k + 1, hn⟩ h0
      obtain ⟨s1, s2⟩ := stepAt_apply m c ⟨k + 1, hn⟩ Hand.zeros a
      refine ⟨?_, ?_⟩
      · rw [show Hand.outsAt m c (k + 1) hn = Hand.stepAt m c ⟨k + 1, hn⟩ Hand.zeros from e, s1, blocksSum_succ,
          block_share, h0, blocksSum_zero]
        exact congrArg (· + _) (pay2_apply a)
      · rw [show Hand.outsAt m c (k + 1) hn = Hand.stepAt m c ⟨k + 1, hn⟩ Hand.zeros from e, s2, blocksSum_succ,
          block_share, h0, blocksSum_zero]
        exact congrArg (· + _) (pay3_apply a)
    · have e := Hand.outsAt_acc m c ⟨k + 1, hn⟩ h0
      obtain ⟨i1, i2⟩ := ih (Nat.lt_of_succ_lt hn) a
      obtain ⟨s1, s2⟩ := stepAt_apply m c ⟨k + 1, hn⟩ (Hand.outsAt m c k (Nat.lt_of_succ_lt hn)) a
      have hrow : rowAt k a = rowAt (k + 1) a := Fin.ext (by show k / 16 % 16 * 256 + a.val = (k + 1) / 16 % 16 * 256 + a.val; omega)
      have hmod : (k + 1) % 16 = k % 16 + 1 := by omega
      refine ⟨?_, ?_⟩
      · rw [show Hand.outsAt m c (k + 1) hn = Hand.stepAt m c ⟨k + 1, hn⟩ (Hand.outsAt m c k (Nat.lt_of_succ_lt hn)) from e,
          s1, i1, hrow, blocksSum_succ _ ((k + 1) % 16), block_share, hmod]
      · rw [show Hand.outsAt m c (k + 1) hn = Hand.stepAt m c ⟨k + 1, hn⟩ (Hand.outsAt m c k (Nat.lt_of_succ_lt hn)) from e,
          s2, i2, hrow, blocksSum_succ _ ((k + 1) % 16), block_share, hmod]

end Cert.KernelIdeal.HandValue

end
-- ==== Proof.KValueArr.lean ====
/-
  The two [4096,1] arrays after the region.

  The accumulators of a row block are written back once, after its sixteenth column block, when they hold the sums over
  all 4096 columns; the sixteen written blocks of 256 rows tile the 4096 rows.  So the density array ends holding at
  (r, 0) the density of atom r, and the row-energy array its row energy.
-/
import proofs.«121872_j23974507446662_1_alg».proof.Proof.KValue

noncomputable section

open scoped BigOperators

namespace Cert.KernelIdeal.HandValue

open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

/-- Two columns of 256 entries that agree at every row are equal. -/
theorem ext_col {α : Type} (f g : (⟨2, ![256, 1]⟩ : Shape).Idx → α) (h : ∀ a : Fin 256, f (ix2 a 0) = g (ix2 a 0)) : f = g :=
  funext fun y => by
    have e : y = ix2 (⟨(y 0).val, idx2_lt0 y⟩ : Fin 256) (0 : Fin 1) := by
      funext ax
      match ax with
      | ⟨0, _⟩ => rfl
      | ⟨1, _⟩ => exact Fin.ext (by have := idx2_lt1 y; show (y 1).val = 0; omega)
    rw [e]
    exact h _

/-- The density column and the row-energy column of the 4096 atoms. -/
def rhoArr (c : Dev nD) : S4096x1.Idx → EReal := fun i => Spec.rhoK (cOf m c) (pOf m c) ⟨(i 0).val, idx2_lt0 i⟩
def erowArr (c : Dev nD) : S4096x1.Idx → EReal := fun i => Spec.erowK (cOf m c) (pOf m c) ⟨(i 0).val, idx2_lt0 i⟩

/-- What point `t` writes back of window 4 is block `t` of the whole-array function. -/
theorem flushed4_eq (c : Dev nD) (t : Fin cfg0.N) (hf : (cfg0.win 4).flush t = true) :
    (Hand.dats m 0 c).flushed 4 t = ((cfg0.win 4).blk t).view.read (Elt Ideal) (rhoArr m c) := by
  have h15 : t.val % 16 = 15 := (Gen.flush0_4 t).mp hf
  have hN : cfg0.N = 256 := Gen.N_0
  have ht : t.val < 256 := hN ▸ t.isLt
  have e0 : win0_4.index t (0 : Fin 2) = t.val / 16 := (idx_facts t).2.2.2.2.2.2.2.2.2.2.1
  show (cfg0.win 4).cut (grid0.coords t) ((Hand.dats m 0 c).after 4 t) = _
  rw [Hand.after_4]
  refine ext_col (α := EReal) ((cfg0.win 4).cut (grid0.coords t) (Hand.outsAt m c t.val t.isLt).1)
    (((cfg0.win 4).blk t).view.read (Elt Ideal) (rhoArr m c)) fun a => ?_
  show (Hand.outsAt m c t.val t.isLt).1 (ix2 a 0) = rhoArr m c (((cfg0.win 4).blk t).view.emb (ix2 a 0))
  have h16 : t.val % 16 + 1 = 16 := by omega
  rw [(outsAt_apply m c t.val t.isLt a).1, h16, blocksSum_all]
  show _ = Spec.rhoK (cOf m c) (pOf m c) _
  rw [rhoK_eq]
  refine congrArg (fun i => ∑ j : Fin 4096, rhoTerm m c i j) (Fin.ext ?_)
  show t.val / 16 % 16 * 256 + a.val = win0_4.index t (0 : Fin 2) * 256 + 1 * a.val
  rw [e0]; omega

/-- Membership in a block of window 4, by coordinates. -/
theorem mem_blk4 (t : Fin cfg0.N) (i : S4096x1.Idx) :
    i ∈ ((cfg0.win 4).blk t).view.set ↔ ∀ a : Fin 2, win0_4.index t a * S256x1.size a ≤ (i a).val
      ∧ (i a).val < win0_4.index t a * S256x1.size a + S256x1.size a := by
  show i ∈ ((View.whole main_v2_0).slice (win0_4.rect t)).set ↔ _
  rw [View.set_slice_whole, Rect.mem_set_unit]
  exact Iff.rfl

/-- Row `r` is written back by the last point of its row block. -/
theorem cover4 (i : S4096x1.Idx) : ∃ t : Fin cfg0.N, (cfg0.win 4).flush t = true ∧ i ∈ ((cfg0.win 4).blk t).view.set := by
  have hN : cfg0.N = 256 := Gen.N_0
  have hi0 : (i 0).val < 4096 := idx2_lt0 i
  have hi1 : (i 1).val < 1 := idx2_lt1 i
  have hlt : (i 0).val / 256 * 16 + 15 < cfg0.N := by rw [hN]; omega
  refine ⟨⟨(i 0).val / 256 * 16 + 15, hlt⟩, (Gen.flush0_4 _).mpr (by show ((i 0).val / 256 * 16 + 15) % 16 = 15; omega), ?_⟩
  have e0 : win0_4.index ⟨(i 0).val / 256 * 16 + 15, hlt⟩ (0 : Fin 2) = ((i 0).val / 256 * 16 + 15) / 16 :=
    (idx_facts ⟨(i 0).val / 256 * 16 + 15, hlt⟩).2.2.2.2.2.2.2.2.2.2.1
  have e1 : win0_4.index ⟨(i 0).val / 256 * 16 + 15, hlt⟩ (1 : Fin 2) = 0 :=
    (idx_facts ⟨(i 0).val / 256 * 16 + 15, hlt⟩).2.2.2.2.2.2.2.2.2.2.2.1
  rw [mem_blk4]
  intro a
  match a with
  | ⟨0, _⟩ =>
    show win0_4.index ⟨(i 0).val / 256 * 16 + 15, hlt⟩ (0 : Fin 2) * 256 ≤ (i 0).val
      ∧ (i 0).val < win0_4.index ⟨(i 0).val / 256 * 16 + 15, hlt⟩ (0 : Fin 2) * 256 + 256
    rw [e0]; omega
  | ⟨1, _⟩ =>
    show win0_4.index ⟨(i 0).val / 256 * 16 + 15, hlt⟩ (1 : Fin 2) * 1 ≤ (i 1).val
      ∧ (i 1).val < win0_4.index ⟨(i 0).val / 256 * 16 + 15, hlt⟩ (1 : Fin 2) * 1 + 1
    rw [e1]; omega

/-- THE ARRAY of window 4 after the region. -/
theorem final4 (c : Dev nD) : (Hand.dats m 0 c).arrAt 4 cfg0.N = rhoArr m c :=
  (Hand.dats m 0 c).arrAt_eq_of_cover 4 (rhoArr m c) (flushed4_eq m c) cover4

/-- What point `t` writes back of window 5 is block `t` of the whole-array function. -/
theorem flushed5_eq (c : Dev nD) (t : Fin cfg0.N) (hf : (cfg0.win 5).flush t = true) :
    (Hand.dats m 0 c).flushed 5 t = ((cfg0.win 5).blk t).view.read (Elt Ideal) (erowArr m c) := by
  have h15 : t.val % 16 = 15 := (Gen.flush0_5 t).mp hf
  have hN : cfg0.N = 256 := Gen.N_0
  have ht : t.val < 256 := hN ▸ t.isLt
  have e0 : win0_5.index t (0 : Fin 2) = t.val / 16 := (idx_facts t).2.2.2.2.2.2.2.2.2.2.2.2.1
  show (cfg0.win 5).cut (grid0.coords t) ((Hand.dats m 0 c).after 5 t) = _
  rw [Hand.after_5]
  refine ext_col (α := EReal) ((cfg0.win 5).cut (grid0.coords t) (Hand.outsAt m c t.val t.isLt).2)
    (((cfg0.win 5).blk t).view.read (Elt Ideal) (erowArr m c)) fun a => ?_
  show (Hand.outsAt m c t.val t.isLt).2 (ix2 a 0) = erowArr m c (((cfg0.win 5).blk t).view.emb (ix2 a 0))
  have h16 : t.val % 16 + 1 = 16 := by omega
  rw [(outsAt_apply m c t.val t.isLt a).2, h16, blocksSum_all]
  show _ = Spec.erowK (cOf m c) (pOf m c) _
  rw [erowK_eq]
  refine congrArg (fun i => ∑ j : Fin 4096, erowTerm m c i j) (Fin.ext ?_)
  show t.val / 16 % 16 * 256 + a.val = win0_5.index t (0 : Fin 2) * 256 + 1 * a.val
  rw [e0]; omega

/-- Membership in a block of window 5, by coordinates. -/
theorem mem_blk5 (t : Fin cfg0.N) (i : S4096x1.Idx) :
    i ∈ ((cfg0.win 5).blk t).view.set ↔ ∀ a : Fin 2, win0_5.index t a * S256x1.size a ≤ (i a).val
      ∧ (i a).val < win0_5.index t a * S256x1.size a + S256x1.size a := by
  show i ∈ ((View.whole main_v2_1).slice (win0_5.rect t)).set ↔ _
  rw [View.set_slice_whole, Rect.mem_set_unit]
  exact Iff.rfl

/-- Row `r` is written back by the last point of its row block. -/
theorem cover5 (i : S4096x1.Idx) : ∃ t : Fin cfg0.N, (cfg0.win 5).flush t = true ∧ i ∈ ((cfg0.win 5).blk t).view.set := by
  have hN : cfg0.N = 256 := Gen.N_0
  have hi0 : (i 0).val < 4096 := idx2_lt0 i
  have hi1 : (i 1).val < 1 := idx2_lt1 i
  have hlt : (i 0).val / 256 * 16 + 15 < cfg0.N := by rw [hN]; omega
  refine ⟨⟨(i 0).val / 256 * 16 + 15, hlt⟩, (Gen.flush0_5 _).mpr (by show ((i 0).val / 256 * 16 + 15) % 16 = 15; omega), ?_⟩
  have e0 : win0_5.index ⟨(i 0).val / 256 * 16 + 15, hlt⟩ (0 : Fin 2) = ((i 0).val / 256 * 16 + 15) / 16 :=
    (idx_facts ⟨(i 0).val / 256 * 16 + 15, hlt⟩).2.2.2.2.2.2.2.2.2.2.2.2.1
  have e1 : win0_5.index ⟨(i 0).val / 256 * 16 + 15, hlt⟩ (1 : Fin 2) = 0 :=
    (idx_facts ⟨(i 0).val / 256 * 16 + 15, hlt⟩).2.2.2.2.2.2.2.2.2.2.2.2.2
  rw [mem_blk5]
  intro a
  match a with
  | ⟨0, _⟩ =>
    show win0_5.index ⟨(i 0).val / 256 * 16 + 15, hlt⟩ (0 : Fin 2) * 256 ≤ (i 0).val
      ∧ (i 0).val < win0_5.index ⟨(i 0).val / 256 * 16 + 15, hlt⟩ (0 : Fin 2) * 256 + 256
    rw [e0]; omega
  | ⟨1, _⟩ =>
    show win0_5.index ⟨(i 0).val / 256 * 16 + 15, hlt⟩ (1 : Fin 2) * 1 ≤ (i 1).val
      ∧ (i 1).val < win0_5.index ⟨(i 0).val / 256 * 16 + 15, hlt⟩ (1 : Fin 2) * 1 + 1
    rw [e1]; omega

/-- THE ARRAY of window 5 after the region. -/
theorem final5 (c : Dev nD) : (Hand.dats m 0 c).arrAt 5 cfg0.N = erowArr m c :=
  (Hand.dats m 0 c).arrAt_eq_of_cover 5 (erowArr m c) (flushed5_eq m c) cover5

end Cert.KernelIdeal.HandValue

end
-- ==== Proof.KValueTail.lean ====
/-
  The lines after the region.

  They reshape the two [4096,1] columns to vectors, sum the row energies and take a quarter, evaluate the embedding
  energy of each atom from its density and its parameters — two cubics and a power-law tail, chosen by two comparisons
  of the density —, sum it over the atoms and add the two sums.  Read at the extended reals the result is a quarter of
  the sum of the row-energy column plus the sum over the atoms of `Spec.emb` at the density column's entry and the
  atom's parameters.
-/
import proofs.«121872_j23974507446662_1_alg».proof.Proof.Gen.KernelIdeal.Launch
import proofs.«121872_j23974507446662_1_alg».proof.Proof.Spec
import Idealize.ShloMosaic.Lib.StableHlo.Run
import Idealize.ShloMosaic.Lib.Pipeline.Value
import Idealize.ShloMosaic.Lib.ValueLayout
import Idealize.ShloMosaic.PureOps.Ideal.Laws

noncomputable section

open scoped BigOperators

namespace Cert.KernelIdeal.HandValue

open Idealize.ShloMosaic Idealize.ShloMosaic.ValueIdx Idealize.ShloMosaic.TcCoe Idealize.SL.Sem

/-- A column cast to a vector, `[a, 1] → [a]`, reads at `i` the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A sum over the indices of a vector is the sum over its one coordinate. -/
theorem sum_idx1 {M : Type*} [AddCommMonoid M] {n : ℕ} (f : (⟨1, ![n]⟩ : Shape).Idx → M) :
    ∑ i, f i = ∑ k : Fin n, f (ix1 k) :=
  (Fintype.sum_equiv (⟨fun k => ix1 k, fun i => (i 0 : Fin n), fun _ => rfl, fun i => (eq_ix1 i).symm⟩ :
    Fin n ≃ (⟨1, ![n]⟩ : Shape).Idx) (fun k => f (ix1 k)) f (fun _ => rfl)).symm

/-- The host's sum of a vector of 4096 entries: the initial value plus the sum of the entries. -/
theorem hostSum_apply (x : FVec Ideal S4096 .f32) (init : S_.Idx → EReal) (h' : S4096.ReducesTo [0] S_) (hu : 0 < S_.numel)
    (j : S_.Idx) : Host.reduceAdd (F := Ideal) x init h' hu j = init ix0 + ∑ k : Fin 4096, x (ix1 k) := by
  unfold Host.reduceAdd
  refine (Ideal.hostReduceAdd_total h' (fun b => b.elim0) x _ j).trans ?_
  exact congrArg₂ (· + ·) (congrArg init (eq_ix0 _)) (sum_idx1 x)

/-- The host's quotient, power and logarithm at an index are the extended reals'. -/
theorem hostDivf_apply {s : Shape} {φ : FTy} (x y : FVec Ideal s φ) (i : s.Idx) : Host.divf x y i = Ideal.div (x i) (y i) := rfl
theorem hostPowf_apply {s : Shape} {φ : FTy} (x y : FVec Ideal s φ) (i : s.Idx) : Host.powf x y i = Ideal.pow (x i) (y i) := rfl
theorem hostLog_apply {s : Shape} {φ : FTy} (x : FVec Ideal s φ) (i : s.Idx) : Host.log x i = Ideal.log (x i) := rfl
/-- A scalar constant spread over the 4096 atoms reads its value everywhere. -/
theorem bcastConst_apply (b : BitVec 32) (i : S4096.Idx) :
    broadcastInDim S4096 ![] Gen.bcast_S_S4096 (constant (F := Ideal) S_ .f32 b) i = Ideal.ofBits .f32 b := rfl

/-- The reshaped buffers are vectors of 4096 entries. -/
theorem ty_v3 : main_v3.ty.shape = S4096 := rfl
theorem ty_v4 : main_v4.ty.shape = S4096 := rfl
theorem ty_v8 : main_v8.ty.shape = S4096 := rfl
theorem ty_v10 : main_v10.ty.shape = S4096 := rfl
theorem ty_v12 : main_v12.ty.shape = S4096 := rfl
theorem ty_v14 : main_v14.ty.shape = S4096 := rfl
theorem ty_v16 : main_v16.ty.shape = S4096 := rfl
theorem ty_v18 : main_v18.ty.shape = S4096 := rfl
theorem ty_v23 : main_v23.ty.shape = S4096 := rfl
theorem ty_v25 : main_v25.ty.shape = S4096 := rfl
theorem ty_v29 : main_v29.ty.shape = S4096 := rfl
theorem ty_v34 : main_v34.ty.shape = S4096 := rfl
theorem ty_v43 : main_v43.ty.shape = S4096 := rfl
theorem ty_v45 : main_v45.ty.shape = S4096 := rfl
theorem ty_v49 : main_v49.ty.shape = S4096 := rfl
theorem ty_v54 : main_v54.ty.shape = S4096 := rfl

set_option maxHeartbeats 4000000 in
/-- THE TAIL'S RESULT, from any contents `W` of the buffers: in terms of the two columns the region wrote and of the
    parameter array. -/
theorem tail_value (W : Valuation τ sig (Elt Ideal)) (rho erow : S4096x1.Idx → EReal) (P : S4096x22.Idx → EReal)
    (h1 : W (Proc.devRef .tc main_v2_0) = rho) (h2 : W (Proc.devRef .tc main_v2_1) = erow) (h3 : W (Proc.devRef .tc main_arg1) = P) :
    StableHlo.after (List.flatten [Gen.hostOps1, Gen.hostOps1_1, Gen.hostOps1_2, Gen.hostOps1_3]) W (Proc.devRef .tc main_v71)
      = fun _ => Spec.quarter * (∑ i : Fin 4096, erow (ix2 i 0)) + ∑ i : Fin 4096, Spec.emb (rho (ix2 i 0)) (fun k => P (ix2 i k)) := by
  simp only [Gen.hostOps1, Gen.hostOps1_1, Gen.hostOps1_2, Gen.hostOps1_3, List.flatten_cons, List.flatten_nil, List.append_nil,
    List.cons_append, List.nil_append]
  after_results_simp
  simp only [h1, h2, h3]
  funext j
  simp only [addf_apply, mulf_apply, hostSum_apply]
  dsimp only [ty_v3, ty_v4, ty_v8, ty_v10, ty_v12, ty_v14, ty_v16, ty_v18, ty_v23, ty_v25, ty_v29, ty_v34, ty_v43, ty_v45, ty_v49, ty_v54]
  refine congrArg₂ (· + ·) (congrArg (Spec.quarter * ·) ?_) ?_
  · refine (congrArg (· + _) Ideal.ofBits_zero_f32).trans ((zero_add _).trans (Finset.sum_congr rfl fun k _ => ?_))
    exact shapeCast_a1_a_apply erow _ k
  · refine (congrArg (· + _) Ideal.ofBits_zero_f32).trans ((zero_add _).trans (Finset.sum_congr rfl fun k _ => ?_))
    simp only [StableHlo.TRef.ofBuf, StableHlo.TRef.toBuf, cast_eq, select_apply, cmpf_apply, addf_apply, mulf_apply, subf_apply,
      hostDivf_apply, hostPowf_apply, hostLog_apply, bcastConst_apply, shapeCast_a1_a_apply, slice2_axis1_eq]
    rfl

end Cert.KernelIdeal.HandValue

end
-- ==== Proof.KValueRun.lean ====
/-
  The value of the kernel program.

  The run of @main ends with the result buffer at the later lines applied to what the region leaves.  The region
  leaves the density and row-energy columns of the 4096 atoms and does not touch the parameters; the later lines make
  of them a quarter of the sum of the row energies plus the sum of the embedding energies: the closed form
  `Spec.totalK` of the coordinates and parameters the program was launched with.
-/
import proofs.«121872_j23974507446662_1_alg».proof.Proof.KFrame
import proofs.«121872_j23974507446662_1_alg».proof.Proof.KValueArr
import proofs.«121872_j23974507446662_1_alg».proof.Proof.KValueTail

noncomputable section

open scoped BigOperators

namespace Cert.KernelIdeal.HandValue

open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The later lines' result, from the arrays the region leaves, is the closed form. -/
theorem tail_total (c : Dev nD) :
    Pipeline.afterTail₀ cfgs (Hand.dats m) 0 (Hand.V0 m) Hand.tailOps c main_v71 = fun _ => Spec.totalK (cOf m c) (pOf m c) := by
  unfold Pipeline.afterTail₀
  refine (tail_value _ (rhoArr m c) (erowArr m c) (m ((c.tc : Thread nD τ).loc main_arg1)) ?_ ?_ ?_).trans ?_
  · exact (Pipeline.withArrays_arr spec0 Gen.launch0.win.arr_inj c _ _ 4).trans (final4 m c)
  · exact (Pipeline.withArrays_arr spec0 Gen.launch0.win.arr_inj c _ _ 5).trans (final5 m c)
  · exact (Pipeline.withArrays_arr spec0 Gen.launch0.win.arr_inj c _ _ 2).trans
      (((Hand.dats m 0 c).arrAt_in 2 rfl _).trans ((Hand.A_eq m c 2).trans (V_arg1 m c)))
  · rfl

/-- THE RUN: the program terminates without a fault, its result is `Spec.totalK` of its arguments, and the arguments
    are unchanged. -/
theorem run : θ_run (defs (F := Ideal)) (onTc (τ := τ) (main (F := Ideal))) ⟨m, fun _ => 0, ρ⟩ (fun r => ∀ c : Dev nD,
      r.2.mem ((c.tc : Thread nD τ).loc main_v71) = (fun _ => Spec.totalK (cOf m c) (pOf m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (tail_total m c), (h c).2⟩) (Hand.run_value m ρ)

end Cert.KernelIdeal.HandValue

end
-- ==== Proof.RRun.lean ====
/-
  The reference program's @main as the list of its host operations, in order, every called function's body standing
  where it is called with the call's own buffers, and the run of that list: every weakly fair execution terminates,
  faults nowhere, and leaves each buffer at the operations' results folded over the launch contents.
-/
import proofs.«121872_j23974507446662_1_alg».proof.Proof.Gen.ReferenceIdeal
import Idealize.ShloMosaic.Lib.StableHlo.Run
import Idealize.ShloMosaic.Lib.Pipeline.Regions

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- 43 operations (@main). -/
abbrev it0 : List (HloOp τ sig (Elt F)) :=
  [ StableHlo.unary main_arg1 main_v0 ((extractStridedSlice S4096x1 ![0, 0] · slices_S4096x22_S4096x1_0_0) : (⟨S4096x22, .f32⟩ : BufTy).Contents (Elt F) → (⟨S4096x1, .f32⟩ : BufTy).Contents (Elt F)),
    StableHlo.reshape main_v0 main_v1 rfl shapeCasts_S4096x1_S4096,
    StableHlo.unary main_arg1 main_v2 ((extractStridedSlice S4096x1 ![0, 1] · slices_S4096x22_S4096x1_0_1) : (⟨S4096x22, .f32⟩ : BufTy).Contents (Elt F) → (⟨S4096x1, .f32⟩ : BufTy).Contents (Elt F)),
    StableHlo.reshape main_v2 main_v3 rfl shapeCasts_S4096x1_S4096,
    StableHlo.unary main_arg1 main_v4 ((extractStridedSlice S4096x1 ![0, 2] · slices_S4096x22_S4096x1_0_2) : (⟨S4096x22, .f32⟩ : BufTy).Contents (Elt F) → (⟨S4096x1, .f32⟩ : BufTy).Contents (Elt F)),
    StableHlo.reshape main_v4 main_v5 rfl shapeCasts_S4096x1_S4096,
    StableHlo.unary main_arg1 main_v6 ((extractStridedSlice S4096x1 ![0, 3] · slices_S4096x22_S4096x1_0_3) : (⟨S4096x22, .f32⟩ : BufTy).Contents (Elt F) → (⟨S4096x1, .f32⟩ : BufTy).Contents (Elt F)),
    StableHlo.reshape main_v6 main_v7 rfl shapeCasts_S4096x1_S4096,
    StableHlo.unary main_arg1 main_v8 ((extractStridedSlice S4096x1 ![0, 4] · slices_S4096x22_S4096x1_0_4) : (⟨S4096x22, .f32⟩ : BufTy).Contents (Elt F) → (⟨S4096x1, .f32⟩ : BufTy).Contents (Elt F)),
    StableHlo.reshape main_v8 main_v9 rfl shapeCasts_S4096x1_S4096,
    StableHlo.unary main_arg1 main_v10 ((extractStridedSlice S4096x1 ![0, 5] · slices_S4096x22_S4096x1_0_5) : (⟨S4096x22, .f32⟩ : BufTy).Contents (Elt F) → (⟨S4096x1, .f32⟩ : BufTy).Contents (Elt F)),
    StableHlo.reshape main_v10 main_v11 rfl shapeCasts_S4096x1_S4096,
    StableHlo.unary main_arg1 main_v12 ((extractStridedSlice S4096x1 ![0, 6] · slices_S4096x22_S4096x1_0_6) : (⟨S4096x22, .f32⟩ : BufTy).Contents (Elt F) → (⟨S4096x1, .f32⟩ : BufTy).Contents (Elt F)),
    StableHlo.reshape main_v12 main_v13 rfl shapeCasts_S4096x1_S4096,
    StableHlo.unary main_arg1 main_v14 ((extractStridedSlice S4096x1 ![0, 7] · slices_S4096x22_S4096x1_0_7) : (⟨S4096x22, .f32⟩ : BufTy).Contents (Elt F) → (⟨S4096x1, .f32⟩ : BufTy).Contents (Elt F)),
    StableHlo.reshape main_v14 main_v15 rfl shapeCasts_S4096x1_S4096,
    StableHlo.unary main_arg1 main_v16 ((extractStridedSlice S4096x1 ![0, 8] · slices_S4096x22_S4096x1_0_8) : (⟨S4096x22, .f32⟩ : BufTy).Contents (Elt F) → (⟨S4096x1, .f32⟩ : BufTy).Contents (Elt F)),
    StableHlo.reshape main_v16 main_v17 rfl shapeCasts_S4096x1_S4096,
    StableHlo.unary main_arg1 main_v18 ((extractStridedSlice S4096x1 ![0, 9] · slices_S4096x22_S4096x1_0_9) : (⟨S4096x22, .f32⟩ : BufTy).Contents (Elt F) → (⟨S4096x1, .f32⟩ : BufTy).Contents (Elt F)),
    StableHlo.reshape main_v18 main_v19 rfl shapeCasts_S4096x1_S4096,
    StableHlo.unary main_arg1 main_v20 ((extractStridedSlice S4096x1 ![0, 18] · slices_S4096x22_S4096x1_0_18) : (⟨S4096x22, .f32⟩ : BufTy).Contents (Elt F) → (⟨S4096x1, .f32⟩ : BufTy).Contents (Elt F)),
    StableHlo.reshape main_v20 main_v21 rfl shapeCasts_S4096x1_S4096,
    StableHlo.unary main_arg1 main_v22 ((extractStridedSlice S4096x1 ![0, 19] · slices_S4096x22_S4096x1_0_19) : (⟨S4096x22, .f32⟩ : BufTy).Contents (Elt F) → (⟨S4096x1, .f32⟩ : BufTy).Contents (Elt F)),
    StableHlo.reshape main_v22 main_v23 rfl shapeCasts_S4096x1_S4096,
    StableHlo.unary main_arg1 main_v24 ((extractStridedSlice S4096x1 ![0, 20] · slices_S4096x22_S4096x1_0_20) : (⟨S4096x22, .f32⟩ : BufTy).Contents (Elt F) → (⟨S4096x1, .f32⟩ : BufTy).Contents (Elt F)),
    StableHlo.reshape main_v24 main_v25 rfl shapeCasts_S4096x1_S4096,
    StableHlo.unary main_arg1 main_v26 ((extractStridedSlice S4096x1 ![0, 21] · slices_S4096x22_S4096x1_0_21) : (⟨S4096x22, .f32⟩ : BufTy).Contents (Elt F) → (⟨S4096x1, .f32⟩ : BufTy).Contents (Elt F)),
    StableHlo.reshape main_v26 main_v27 rfl shapeCasts_S4096x1_S4096,
    StableHlo.unary main_arg0 main_v28 (broadcastInDim S1x4096x3 ![1, 2] bcast_S4096x3_S1x4096x3_1_2 : (⟨S4096x3, .f32⟩ : BufTy).Contents (Elt F) → (⟨S1x4096x3, .f32⟩ : BufTy).Contents (Elt F)),
    StableHlo.unary main_arg0 main_v29 (broadcastInDim S4096x1x3 ![0, 2] bcast_S4096x3_S4096x1x3_0_2 : (⟨S4096x3, .f32⟩ : BufTy).Contents (Elt F) → (⟨S4096x1x3, .f32⟩ : BufTy).Contents (Elt F)),
    StableHlo.unary main_v28 main_v30 (broadcastInDim S4096x4096x3 ![0, 1, 2] bcast_S1x4096x3_S4096x4096x3_0_1_2 : (⟨S1x4096x3, .f32⟩ : BufTy).Contents (Elt F) → (⟨S4096x4096x3, .f32⟩ : BufTy).Contents (Elt F)),
    StableHlo.unary main_v29 main_v31 (broadcastInDim S4096x4096x3 ![0, 1, 2] bcast_S4096x1x3_S4096x4096x3_0_1_2 : (⟨S4096x1x3, .f32⟩ : BufTy).Contents (Elt F) → (⟨S4096x4096x3, .f32⟩ : BufTy).Contents (Elt F)),
    StableHlo.binary main_v30 main_v31 main_v32 (subf : (⟨S4096x4096x3, .f32⟩ : BufTy).Contents (Elt F) → (⟨S4096x4096x3, .f32⟩ : BufTy).Contents (Elt F) → (⟨S4096x4096x3, .f32⟩ : BufTy).Contents (Elt F)),
    StableHlo.binary main_v32 main_v32 main_v33 (mulf : (⟨S4096x4096x3, .f32⟩ : BufTy).Contents (Elt F) → (⟨S4096x4096x3, .f32⟩ : BufTy).Contents (Elt F) → (⟨S4096x4096x3, .f32⟩ : BufTy).Contents (Elt F)),
    StableHlo.nullary main_cst (constant S_ .f32 0x00000000#32),
    StableHlo.binary main_v33 main_cst main_v34 ((fun x v => Host.reduceAdd x v reducesTo_S4096x4096x3_S4096x4096_d2 h_S_) : (⟨S4096x4096x3, .f32⟩ : BufTy).Contents (Elt F) → (⟨S_, .f32⟩ : BufTy).Contents (Elt F) → (⟨S4096x4096, .f32⟩ : BufTy).Contents (Elt F)),
    StableHlo.nullary main_v35 (iotaInDim S4096x4096 32 0),
    StableHlo.nullary main_v36 (iotaInDim S4096x4096 32 1),
    StableHlo.nullary main_c (constantI S_ 32 0#32),
    StableHlo.unary main_c main_v37 (broadcastInDim S4096x4096 ![] bcast_S_S4096x4096 : (⟨S_, .i32⟩ : BufTy).Contents (Elt F) → (⟨S4096x4096, .i32⟩ : BufTy).Contents (Elt F)),
    StableHlo.binary main_v35 main_v37 main_v38 (addi : (⟨S4096x4096, .i32⟩ : BufTy).Contents (Elt F) → (⟨S4096x4096, .i32⟩ : BufTy).Contents (Elt F) → (⟨S4096x4096, .i32⟩ : BufTy).Contents (Elt F)),
    StableHlo.binary main_v38 main_v36 main_v39 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_cst_0 (constant S_ .f32 0x3F800000#32) ]
set_option maxHeartbeats 40000000 in
theorem it0_sub : (it0 : List (HloOp τ sig (Elt F))).Forall fun op => op.bufs ⊆ tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.nullary_bufs_sub ..⟩
set_option maxHeartbeats 40000000 in
theorem it0_fresh : ∀ op ∈ (it0 : List (HloOp τ sig (Elt F))), op.fresh = ∅ := by
  intro _ h; (repeat (cases h with | head => rfl | tail _ h => ?_)); exact nomatch h

set_option maxHeartbeats 40000000 in
/-- 3 operations (@main fn_where[main_call0]). -/
abbrev it1 : List (HloOp τ sig (Elt F)) :=
  [ StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4096x4096, .f32⟩) (broadcastInDim S4096x4096 ![] bcast_S_S4096x4096),
    StableHlo.TRef.ternary (.of main_v39 : StableHlo.TRef sig ⟨S4096x4096, .i1⟩) (.of main_call0_v1 : StableHlo.TRef sig ⟨S4096x4096, .f32⟩) (.of main_v34 : StableHlo.TRef sig ⟨S4096x4096, .f32⟩) (.of main_v40 : StableHlo.TRef sig ⟨S4096x4096, .f32⟩) select ]
set_option maxHeartbeats 40000000 in
theorem it1_sub : (it1 : List (HloOp τ sig (Elt F))).Forall fun op => op.bufs ⊆ tcRefs τ sig :=
  ⟨StableHlo.unary_bufs_sub .., StableHlo.unary_bufs_sub .., StableHlo.ternary_bufs_sub ..⟩
set_option maxHeartbeats 40000000 in
theorem it1_fresh : ∀ op ∈ (it1 : List (HloOp τ sig (Elt F))), op.fresh = ∅ := by
  intro _ h; (repeat (cases h with | head => rfl | tail _ h => ?_)); exact nomatch h

set_option maxHeartbeats 40000000 in
/-- 3 operations (@main). -/
abbrev it2 : List (HloOp τ sig (Elt F)) :=
  [ StableHlo.unary main_v40 main_v41 (Host.sqrt : (⟨S4096x4096, .f32⟩ : BufTy).Contents (Elt F) → (⟨S4096x4096, .f32⟩ : BufTy).Contents (Elt F)),
    StableHlo.nullary main_cst_1 (constant S_ .f32 0x3F800000#32),
    StableHlo.unary main_cst_1 main_v42 (broadcastInDim S4096x4096 ![] bcast_S_S4096x4096 : (⟨S_, .f32⟩ : BufTy).Contents (Elt F) → (⟨S4096x4096, .f32⟩ : BufTy).Contents (Elt F)) ]
set_option maxHeartbeats 40000000 in
theorem it2_sub : (it2 : List (HloOp τ sig (Elt F))).Forall fun op => op.bufs ⊆ tcRefs τ sig :=
  ⟨StableHlo.unary_bufs_sub .., StableHlo.nullary_bufs_sub .., StableHlo.unary_bufs_sub ..⟩
set_option maxHeartbeats 40000000 in
theorem it2_fresh : ∀ op ∈ (it2 : List (HloOp τ sig (Elt F))), op.fresh = ∅ := by
  intro _ h; (repeat (cases h with | head => rfl | tail _ h => ?_)); exact nomatch h

set_option maxHeartbeats 40000000 in
/-- 9 operations (@main fn_triu[main_call1]). -/
abbrev it3 : List (HloOp τ sig (Elt F)) :=
  [ StableHlo.TRef.nullary (.of main_call1_v0 : StableHlo.TRef sig ⟨S4096x4096, .i32⟩) (iotaInDim S4096x4096 32 0),
    StableHlo.TRef.nullary (.of main_call1_c : StableHlo.TRef sig ⟨S_, .i32⟩) (constantI S_ 32 0#32),
    StableHlo.TRef.unary (.of main_call1_c : StableHlo.TRef sig ⟨S_, .i32⟩) (.of main_call1_v1 : StableHlo.TRef sig ⟨S4096x4096, .i32⟩) (broadcastInDim S4096x4096 ![] bcast_S_S4096x4096),
    StableHlo.TRef.binary (.of main_call1_v0 : StableHlo.TRef sig ⟨S4096x4096, .i32⟩) (.of main_call1_v1 : StableHlo.TRef sig ⟨S4096x4096, .i32⟩) (.of main_call1_v2 : StableHlo.TRef sig ⟨S4096x4096, .i32⟩) addi,
    StableHlo.TRef.nullary (.of main_call1_v3 : StableHlo.TRef sig ⟨S4096x4096, .i32⟩) (iotaInDim S4096x4096 32 1),
    StableHlo.TRef.binary (.of main_call1_v2 : StableHlo.TRef sig ⟨S4096x4096, .i32⟩) (.of main_call1_v3 : StableHlo.TRef sig ⟨S4096x4096, .i32⟩) (.of main_call1_v4 : StableHlo.TRef sig ⟨S4096x4096, .i1⟩) (cmpi .sge),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v5 : StableHlo.TRef sig ⟨S4096x4096, .f32⟩) (broadcastInDim S4096x4096 ![] bcast_S_S4096x4096),
    StableHlo.TRef.ternary (.of main_call1_v4 : StableHlo.TRef sig ⟨S4096x4096, .i1⟩) (.of main_call1_v5 : StableHlo.TRef sig ⟨S4096x4096, .f32⟩) (.of main_v42 : StableHlo.TRef sig ⟨S4096x4096, .f32⟩) (.of main_v43 : StableHlo.TRef sig ⟨S4096x4096, .f32⟩) select ]
set_option maxHeartbeats 40000000 in
theorem it3_sub : (it3 : List (HloOp τ sig (Elt F))).Forall fun op => op.bufs ⊆ tcRefs τ sig :=
  ⟨StableHlo.nullary_bufs_sub .., StableHlo.nullary_bufs_sub .., StableHlo.unary_bufs_sub .., StableHlo.binary_bufs_sub .., StableHlo.nullary_bufs_sub .., StableHlo.binary_bufs_sub .., StableHlo.nullary_bufs_sub .., StableHlo.unary_bufs_sub .., StableHlo.ternary_bufs_sub ..⟩
set_option maxHeartbeats 40000000 in
theorem it3_fresh : ∀ op ∈ (it3 : List (HloOp τ sig (Elt F))), op.fresh = ∅ := by
  intro _ h; (repeat (cases h with | head => rfl | tail _ h => ?_)); exact nomatch h

set_option maxHeartbeats 40000000 in
/-- 3 operations (@main). -/
abbrev it4 : List (HloOp τ sig (Elt F)) :=
  [ StableHlo.nullary main_cst_2 (constant S_ .f32 0x00000000#32),
    StableHlo.unary main_cst_2 main_v44 (broadcastInDim S4096x4096 ![] bcast_S_S4096x4096 : (⟨S_, .f32⟩ : BufTy).Contents (Elt F) → (⟨S4096x4096, .f32⟩ : BufTy).Contents (Elt F)),
    StableHlo.binary main_v43 main_v44 main_v45 (cmpf .une : (⟨S4096x4096, .f32⟩ : BufTy).Contents (Elt F) → (⟨S4096x4096, .f32⟩ : BufTy).Contents (Elt F) → (⟨S4096x4096, .i1⟩ : BufTy).Contents (Elt F)) ]
set_option maxHeartbeats 40000000 in
theorem it4_sub : (it4 : List (HloOp τ sig (Elt F))).Forall fun op => op.bufs ⊆ tcRefs τ sig :=
  ⟨StableHlo.nullary_bufs_sub .., StableHlo.unary_bufs_sub .., StableHlo.binary_bufs_sub ..⟩
set_option maxHeartbeats 40000000 in
theorem it4_fresh : ∀ op ∈ (it4 : List (HloOp τ sig (Elt F))), op.fresh = ∅ := by
  intro _ h; (repeat (cases h with | head => rfl | tail _ h => ?_)); exact nomatch h

set_option maxHeartbeats 40000000 in
/-- 2 operations (@main fn_cumsum[main_call2]). -/
abbrev it5 : List (HloOp τ sig (Elt F)) :=
  [ StableHlo.TRef.reshape (.of main_v45 : StableHlo.TRef sig ⟨S4096x4096, .i1⟩) (.of main_call2_v0 : StableHlo.TRef sig ⟨S16777216, .i1⟩) rfl shapeCasts_S4096x4096_S16777216,
    StableHlo.TRef.unary (.of main_call2_v0 : StableHlo.TRef sig ⟨S16777216, .i1⟩) (.of main_call2_v1 : StableHlo.TRef sig ⟨S16777216, .i32⟩) (extui 32 · natLt_1_32) ]
set_option maxHeartbeats 40000000 in
theorem it5_sub : (it5 : List (HloOp τ sig (Elt F))).Forall fun op => op.bufs ⊆ tcRefs τ sig :=
  ⟨StableHlo.reshape_bufs_sub .., StableHlo.unary_bufs_sub ..⟩
set_option maxHeartbeats 40000000 in
theorem it5_fresh : ∀ op ∈ (it5 : List (HloOp τ sig (Elt F))), op.fresh = ∅ := by
  intro _ h; (repeat (cases h with | head => rfl | tail _ h => ?_)); exact nomatch h

set_option maxHeartbeats 40000000 in
/-- 3 operations (@main fn_cumsum[main_call2]/fn_cumsum_0[main_call2_call0]). -/
abbrev it6 : List (HloOp τ sig (Elt F)) :=
  [ StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_call2_v1 : StableHlo.TRef sig ⟨S16777216, .i32⟩) (.of main_call2_call0_v0 : StableHlo.TRef sig ⟨S_, .i32⟩) (.of main_v46 : StableHlo.TRef sig ⟨S16777216, .i32⟩) (fun x v => Host.reduceWindow IntOp.addi ![16777216] ![1] ![16777215] ![0] x v reduceWindows_S16777216_S16777216_w16777216s1p16777215_0 h_S_) ]
set_option maxHeartbeats 40000000 in
theorem it6_sub : (it6 : List (HloOp τ sig (Elt F))).Forall fun op => op.bufs ⊆ tcRefs τ sig :=
  ⟨StableHlo.nullary_bufs_sub .., StableHlo.unary_bufs_sub .., StableHlo.binary_bufs_sub ..⟩
set_option maxHeartbeats 40000000 in
theorem it6_fresh : ∀ op ∈ (it6 : List (HloOp τ sig (Elt F))), op.fresh = ∅ := by
  intro _ h; (repeat (cases h with | head => rfl | tail _ h => ?_)); exact nomatch h

set_option maxHeartbeats 40000000 in
/-- 3 operations (@main). -/
abbrev it7 : List (HloOp τ sig (Elt F)) :=
  [ StableHlo.nullary main_c_3 (constantI S_ 32 0#32),
    StableHlo.unary main_c_3 main_v47 (broadcastInDim S8386560 ![] bcast_S_S8386560 : (⟨S_, .i32⟩ : BufTy).Contents (Elt F) → (⟨S8386560, .i32⟩ : BufTy).Contents (Elt F)),
    StableHlo.nullary main_c_4 (constantI S_ 32 0#32) ]
set_option maxHeartbeats 40000000 in
theorem it7_sub : (it7 : List (HloOp τ sig (Elt F))).Forall fun op => op.bufs ⊆ tcRefs τ sig :=
  ⟨StableHlo.nullary_bufs_sub .., StableHlo.unary_bufs_sub .., StableHlo.nullary_bufs_sub ..⟩
set_option maxHeartbeats 40000000 in
theorem it7_fresh : ∀ op ∈ (it7 : List (HloOp τ sig (Elt F))), op.fresh = ∅ := by
  intro _ h; (repeat (cases h with | head => rfl | tail _ h => ?_)); exact nomatch h

set_option maxHeartbeats 40000000 in
/-- 3 operations (@main fn_clip[main_call3]). -/
abbrev it8 : List (HloOp τ sig (Elt F)) :=
  [ StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16777216, .i32⟩) (broadcastInDim S16777216 ![] bcast_S_S16777216),
    StableHlo.TRef.binary (.of main_call3_v1 : StableHlo.TRef sig ⟨S16777216, .i32⟩) (.of main_v46 : StableHlo.TRef sig ⟨S16777216, .i32⟩) (.of main_v48 : StableHlo.TRef sig ⟨S16777216, .i32⟩) maxsi ]
set_option maxHeartbeats 40000000 in
theorem it8_sub : (it8 : List (HloOp τ sig (Elt F))).Forall fun op => op.bufs ⊆ tcRefs τ sig :=
  ⟨StableHlo.unary_bufs_sub .., StableHlo.unary_bufs_sub .., StableHlo.binary_bufs_sub ..⟩
set_option maxHeartbeats 40000000 in
theorem it8_fresh : ∀ op ∈ (it8 : List (HloOp τ sig (Elt F))), op.fresh = ∅ := by
  intro _ h; (repeat (cases h with | head => rfl | tail _ h => ?_)); exact nomatch h

set_option maxHeartbeats 40000000 in
/-- 4 operations (@main). -/
abbrev it9 : List (HloOp τ sig (Elt F)) :=
  [ StableHlo.nullary main_c_5 (constantI S_ 32 0#32),
    StableHlo.unary main_c_5 main_v49 (broadcastInDim S16777216 ![] bcast_S_S16777216 : (⟨S_, .i32⟩ : BufTy).Contents (Elt F) → (⟨S16777216, .i32⟩ : BufTy).Contents (Elt F)),
    StableHlo.binary main_v48 main_v49 main_v50 (cmpi .slt : (⟨S16777216, .i32⟩ : BufTy).Contents (Elt F) → (⟨S16777216, .i32⟩ : BufTy).Contents (Elt F) → (⟨S16777216, .i1⟩ : BufTy).Contents (Elt F)),
    StableHlo.nullary main_c_6 (constantI S_ 32 8386560#32) ]
set_option maxHeartbeats 40000000 in
theorem it9_sub : (it9 : List (HloOp τ sig (Elt F))).Forall fun op => op.bufs ⊆ tcRefs τ sig :=
  ⟨StableHlo.nullary_bufs_sub .., StableHlo.unary_bufs_sub .., StableHlo.binary_bufs_sub .., StableHlo.nullary_bufs_sub ..⟩
set_option maxHeartbeats 40000000 in
theorem it9_fresh : ∀ op ∈ (it9 : List (HloOp τ sig (Elt F))), op.fresh = ∅ := by
  intro _ h; (repeat (cases h with | head => rfl | tail _ h => ?_)); exact nomatch h

set_option maxHeartbeats 40000000 in
/-- 7 operations (@main). -/
abbrev it10 : List (HloOp τ sig (Elt F)) :=
  [ StableHlo.unary main_c_6 main_v51 (broadcastInDim S16777216 ![] bcast_S_S16777216 : (⟨S_, .i32⟩ : BufTy).Contents (Elt F) → (⟨S16777216, .i32⟩ : BufTy).Contents (Elt F)),
    StableHlo.binary main_v48 main_v51 main_v52 (addi : (⟨S16777216, .i32⟩ : BufTy).Contents (Elt F) → (⟨S16777216, .i32⟩ : BufTy).Contents (Elt F) → (⟨S16777216, .i32⟩ : BufTy).Contents (Elt F)),
    StableHlo.ternary main_v50 main_v52 main_v48 main_v53 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v53 main_v54 (broadcastInDim S16777216x1 ![0] bcast_S16777216_S16777216x1_0 : (⟨S16777216, .i32⟩ : BufTy).Contents (Elt F) → (⟨S16777216x1, .i32⟩ : BufTy).Contents (Elt F)),
    StableHlo.nullary main_c_7 (constantI S_ 32 1#32),
    StableHlo.unary main_c_7 main_v55 (broadcastInDim S16777216 ![] bcast_S_S16777216 : (⟨S_, .i32⟩ : BufTy).Contents (Elt F) → (⟨S16777216, .i32⟩ : BufTy).Contents (Elt F)),
    StableHlo.ternary main_v47 main_v54 main_v55 main_v56 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) ]
set_option maxHeartbeats 40000000 in
theorem it10_sub : (it10 : List (HloOp τ sig (Elt F))).Forall fun op => op.bufs ⊆ tcRefs τ sig :=
  ⟨StableHlo.unary_bufs_sub .., StableHlo.binary_bufs_sub .., StableHlo.ternary_bufs_sub .., StableHlo.unary_bufs_sub .., StableHlo.nullary_bufs_sub .., StableHlo.unary_bufs_sub .., StableHlo.ternary_bufs_sub ..⟩
set_option maxHeartbeats 40000000 in
theorem it10_fresh : ∀ op ∈ (it10 : List (HloOp τ sig (Elt F))), op.fresh = ∅ := by
  intro _ h; (repeat (cases h with | head => rfl | tail _ h => ?_)); exact nomatch h

set_option maxHeartbeats 40000000 in
/-- 3 operations (@main fn_cumsum_1[main_call4]/fn_cumsum_2[main_call4_call0]). -/
abbrev it11 : List (HloOp τ sig (Elt F)) :=
  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v56 : StableHlo.TRef sig ⟨S8386560, .i32⟩) (.of main_call4_call0_v0 : StableHlo.TRef sig ⟨S_, .i32⟩) (.of main_v57 : StableHlo.TRef sig ⟨S8386560, .i32⟩) (fun x v => Host.reduceWindow IntOp.addi ![8386560] ![1] ![8386559] ![0] x v reduceWindows_S8386560_S8386560_w8386560s1p8386559_0 h_S_) ]
set_option maxHeartbeats 40000000 in
theorem it11_sub : (it11 : List (HloOp τ sig (Elt F))).Forall fun op => op.bufs ⊆ tcRefs τ sig :=
  ⟨StableHlo.nullary_bufs_sub .., StableHlo.unary_bufs_sub .., StableHlo.binary_bufs_sub ..⟩
set_option maxHeartbeats 40000000 in
theorem it11_fresh : ∀ op ∈ (it11 : List (HloOp τ sig (Elt F))), op.fresh = ∅ := by
  intro _ h; (repeat (cases h with | head => rfl | tail _ h => ?_)); exact nomatch h

set_option maxHeartbeats 40000000 in
/-- 1 operation (@main). -/
abbrev it12 : List (HloOp τ sig (Elt F)) :=
  [ StableHlo.nullary main_c_8 (constantI S_ 32 4096#32) ]
set_option maxHeartbeats 40000000 in
theorem it12_sub : (it12 : List (HloOp τ sig (Elt F))).Forall fun op => op.bufs ⊆ tcRefs τ sig :=
  StableHlo.nullary_bufs_sub ..
set_option maxHeartbeats 40000000 in
theorem it12_fresh : ∀ op ∈ (it12 : List (HloOp τ sig (Elt F))), op.fresh = ∅ := by
  intro _ h; (repeat (cases h with | head => rfl | tail _ h => ?_)); exact nomatch h

set_option maxHeartbeats 40000000 in
/-- 15 operations (@main fn_floor_divide[main_call5]). -/
abbrev it13 : List (HloOp τ sig (Elt F)) :=
  [ StableHlo.TRef.unary (.of main_c_8 : StableHlo.TRef sig ⟨S_, .i32⟩) (.of main_call5_v0 : StableHlo.TRef sig ⟨S8386560, .i32⟩) (broadcastInDim S8386560 ![] bcast_S_S8386560),
    StableHlo.TRef.binary (.of main_v57 : StableHlo.TRef sig ⟨S8386560, .i32⟩) (.of main_call5_v0 : StableHlo.TRef sig ⟨S8386560, .i32⟩) (.of main_call5_v1 : StableHlo.TRef sig ⟨S8386560, .i32⟩) Host.divsi,
    StableHlo.TRef.unary (.of main_v57 : StableHlo.TRef sig ⟨S8386560, .i32⟩) (.of main_call5_v2 : StableHlo.TRef sig ⟨S8386560, .i32⟩) signi,
    StableHlo.TRef.unary (.of main_c_8 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S8386560, .i32⟩) (broadcastInDim S8386560 ![] bcast_S_S8386560),
    StableHlo.TRef.binary (.of main_call5_v2 : StableHlo.TRef sig ⟨S8386560, .i32⟩) (.of main_call5_v4 : StableHlo.TRef sig ⟨S8386560, .i32⟩) (.of main_call5_v5 : StableHlo.TRef sig ⟨S8386560, .i1⟩) (cmpi .ne),
    StableHlo.TRef.unary (.of main_c_8 : StableHlo.TRef sig ⟨S_, .i32⟩) (.of main_call5_v6 : StableHlo.TRef sig ⟨S8386560, .i32⟩) (broadcastInDim S8386560 ![] bcast_S_S8386560),
    StableHlo.TRef.binary (.of main_v57 : StableHlo.TRef sig ⟨S8386560, .i32⟩) (.of main_call5_v6 : StableHlo.TRef sig ⟨S8386560, .i32⟩) (.of main_call5_v7 : StableHlo.TRef sig ⟨S8386560, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S8386560, .i32⟩) (broadcastInDim S8386560 ![] bcast_S_S8386560),
    StableHlo.TRef.binary (.of main_call5_v7 : StableHlo.TRef sig ⟨S8386560, .i32⟩) (.of main_call5_v8 : StableHlo.TRef sig ⟨S8386560, .i32⟩) (.of main_call5_v9 : StableHlo.TRef sig ⟨S8386560, .i1⟩) (cmpi .ne),
    StableHlo.TRef.binary (.of main_call5_v5 : StableHlo.TRef sig ⟨S8386560, .i1⟩) (.of main_call5_v9 : StableHlo.TRef sig ⟨S8386560, .i1⟩) (.of main_call5_v10 : StableHlo.TRef sig ⟨S8386560, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S8386560, .i32⟩) (broadcastInDim S8386560 ![] bcast_S_S8386560),
    StableHlo.TRef.binary (.of main_call5_v1 : StableHlo.TRef sig ⟨S8386560, .i32⟩) (.of main_call5_v11 : StableHlo.TRef sig ⟨S8386560, .i32⟩) (.of main_call5_v12 : StableHlo.TRef sig ⟨S8386560, .i32⟩) subi ]
set_option maxHeartbeats 40000000 in
theorem it13_sub : (it13 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
set_option maxHeartbeats 40000000 in
theorem it13_fresh : ∀ op ∈ (it13 : List (HloOp τ sig (Elt F))), op.fresh = ∅ := by
  intro _ h; (repeat (cases h with | head => rfl | tail _ h => ?_)); exact nomatch h

set_option maxHeartbeats 40000000 in
/-- 1 operation (@main fn_floor_divide[main_call5]/fn_where_3[main_call5_call0]). -/
abbrev it14 : List (HloOp τ sig (Elt F)) :=
  [ StableHlo.TRef.ternary (.of main_call5_v10 : StableHlo.TRef sig ⟨S8386560, .i1⟩) (.of main_call5_v12 : StableHlo.TRef sig ⟨S8386560, .i32⟩) (.of main_call5_v1 : StableHlo.TRef sig ⟨S8386560, .i32⟩) (.of main_v58 : StableHlo.TRef sig ⟨S8386560, .i32⟩) select ]
set_option maxHeartbeats 40000000 in
theorem it14_sub : (it14 : List (HloOp τ sig (Elt F))).Forall fun op => op.bufs ⊆ tcRefs τ sig :=
  StableHlo.ternary_bufs_sub ..
set_option maxHeartbeats 40000000 in
theorem it14_fresh : ∀ op ∈ (it14 : List (HloOp τ sig (Elt F))), op.fresh = ∅ := by
  intro _ h; (repeat (cases h with | head => rfl | tail _ h => ?_)); exact nomatch h

set_option maxHeartbeats 40000000 in
/-- 1 operation (@main). -/
abbrev it15 : List (HloOp τ sig (Elt F)) :=
  [ StableHlo.nullary main_c_9 (constantI S_ 32 4096#32) ]
set_option maxHeartbeats 40000000 in
theorem it15_sub : (it15 : List (HloOp τ sig (Elt F))).Forall fun op => op.bufs ⊆ tcRefs τ sig :=
  StableHlo.nullary_bufs_sub ..
set_option maxHeartbeats 40000000 in
theorem it15_fresh : ∀ op ∈ (it15 : List (HloOp τ sig (Elt F))), op.fresh = ∅ := by
  intro _ h; (repeat (cases h with | head => rfl | tail _ h => ?_)); exact nomatch h

set_option maxHeartbeats 40000000 in
/-- 4 operations (@main fn_remainder[main_call6]). -/
abbrev it16 : List (HloOp τ sig (Elt F)) :=
  [ StableHlo.TRef.unary (.of main_c_9 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32) ]
set_option maxHeartbeats 40000000 in
theorem it16_sub : (it16 : List (HloOp τ sig (Elt F))).Forall fun op => op.bufs ⊆ tcRefs τ sig :=
  ⟨StableHlo.unary_bufs_sub .., StableHlo.nullary_bufs_sub .., StableHlo.binary_bufs_sub .., StableHlo.nullary_bufs_sub ..⟩
set_option maxHeartbeats 40000000 in
theorem it16_fresh : ∀ op ∈ (it16 : List (HloOp τ sig (Elt F))), op.fresh = ∅ := by
  intro _ h; (repeat (cases h with | head => rfl | tail _ h => ?_)); exact nomatch h

set_option maxHeartbeats 40000000 in
/-- 1 operation (@main fn_remainder[main_call6]/fn_where_4[main_call6_call0]). -/
abbrev it17 : List (HloOp τ sig (Elt F)) :=
  [ StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select ]
set_option maxHeartbeats 40000000 in
theorem it17_sub : (it17 : List (HloOp τ sig (Elt F))).Forall fun op => op.bufs ⊆ tcRefs τ sig :=
  StableHlo.ternary_bufs_sub ..
set_option maxHeartbeats 40000000 in
theorem it17_fresh : ∀ op ∈ (it17 : List (HloOp τ sig (Elt F))), op.fresh = ∅ := by
  intro _ h; (repeat (cases h with | head => rfl | tail _ h => ?_)); exact nomatch h

set_option maxHeartbeats 40000000 in
/-- 16 operations (@main fn_remainder[main_call6]). -/
abbrev it18 : List (HloOp τ sig (Elt F)) :=
  [ StableHlo.TRef.unary main_call6_call0.v0 (.of main_call6_v3 : StableHlo.TRef sig ⟨S8386560, .i32⟩) (broadcastInDim S8386560 ![] bcast_S_S8386560),
    StableHlo.TRef.binary (.of main_v58 : StableHlo.TRef sig ⟨S8386560, .i32⟩) (.of main_call6_v3 : StableHlo.TRef sig ⟨S8386560, .i32⟩) (.of main_call6_v4 : StableHlo.TRef sig ⟨S8386560, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S8386560, .i32⟩) (broadcastInDim S8386560 ![] bcast_S_S8386560),
    StableHlo.TRef.binary (.of main_call6_v4 : StableHlo.TRef sig ⟨S8386560, .i32⟩) (.of main_call6_v5 : StableHlo.TRef sig ⟨S8386560, .i32⟩) (.of main_call6_v6 : StableHlo.TRef sig ⟨S8386560, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S8386560, .i32⟩) (broadcastInDim S8386560 ![] bcast_S_S8386560),
    StableHlo.TRef.binary (.of main_call6_v4 : StableHlo.TRef sig ⟨S8386560, .i32⟩) (.of main_call6_v7 : StableHlo.TRef sig ⟨S8386560, .i32⟩) (.of main_call6_v8 : StableHlo.TRef sig ⟨S8386560, .i1⟩) (cmpi .slt),
    StableHlo.TRef.nullary (.of main_call6_c_3 : StableHlo.TRef sig ⟨S_, .i32⟩) (constantI S_ 32 0#32),
    StableHlo.TRef.binary main_call6_call0.v0 (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S8386560, .i1⟩) (broadcastInDim S8386560 ![] bcast_S_S8386560),
    StableHlo.TRef.binary (.of main_call6_v8 : StableHlo.TRef sig ⟨S8386560, .i1⟩) (.of main_call6_v10 : StableHlo.TRef sig ⟨S8386560, .i1⟩) (.of main_call6_v11 : StableHlo.TRef sig ⟨S8386560, .i1⟩) (cmpi .ne),
    StableHlo.TRef.binary (.of main_call6_v11 : StableHlo.TRef sig ⟨S8386560, .i1⟩) (.of main_call6_v6 : StableHlo.TRef sig ⟨S8386560, .i1⟩) (.of main_call6_v12 : StableHlo.TRef sig ⟨S8386560, .i1⟩) andi,
    StableHlo.TRef.unary main_call6_call0.v0 (.of main_call6_v13 : StableHlo.TRef sig ⟨S8386560, .i32⟩) (broadcastInDim S8386560 ![] bcast_S_S8386560),
    StableHlo.TRef.binary (.of main_call6_v4 : StableHlo.TRef sig ⟨S8386560, .i32⟩) (.of main_call6_v13 : StableHlo.TRef sig ⟨S8386560, .i32⟩) (.of main_call6_v14 : StableHlo.TRef sig ⟨S8386560, .i32⟩) addi,
    StableHlo.TRef.ternary (.of main_call6_v12 : StableHlo.TRef sig ⟨S8386560, .i1⟩) (.of main_call6_v14 : StableHlo.TRef sig ⟨S8386560, .i32⟩) (.of main_call6_v4 : StableHlo.TRef sig ⟨S8386560, .i32⟩) (.of main_v59 : StableHlo.TRef sig ⟨S8386560, .i32⟩) select ]
set_option maxHeartbeats 40000000 in
theorem it18_sub : (it18 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in
theorem it18_fresh : ∀ op ∈ (it18 : List (HloOp τ sig (Elt F))), op.fresh = ∅ := by
  intro _ h; (repeat (cases h with | head => rfl | tail _ h => ?_)); exact nomatch h

set_option maxHeartbeats 40000000 in
/-- 1 operation (@main). -/
abbrev it19 : List (HloOp τ sig (Elt F)) :=
  [ StableHlo.nullary main_c_10 (constantI S_ 32 1#32) ]
set_option maxHeartbeats 40000000 in
theorem it19_sub : (it19 : List (HloOp τ sig (Elt F))).Forall fun op => op.bufs ⊆ tcRefs τ sig :=
  StableHlo.nullary_bufs_sub ..
set_option maxHeartbeats 40000000 in
theorem it19_fresh : ∀ op ∈ (it19 : List (HloOp τ sig (Elt F))), op.fresh = ∅ := by
  intro _ h; (repeat (cases h with | head => rfl | tail _ h => ?_)); exact nomatch h

set_option maxHeartbeats 40000000 in
/-- 15 operations (@main fn_floor_divide[main_call7]). -/
abbrev it20 : List (HloOp τ sig (Elt F)) :=
  [ StableHlo.TRef.unary (.of main_c_10 : StableHlo.TRef sig ⟨S_, .i32⟩) (.of main_call7_v0 : StableHlo.TRef sig ⟨S8386560, .i32⟩) (broadcastInDim S8386560 ![] bcast_S_S8386560),
    StableHlo.TRef.binary (.of main_v57 : StableHlo.TRef sig ⟨S8386560, .i32⟩) (.of main_call7_v0 : StableHlo.TRef sig ⟨S8386560, .i32⟩) (.of main_call7_v1 : StableHlo.TRef sig ⟨S8386560, .i32⟩) Host.divsi,
    StableHlo.TRef.unary (.of main_v57 : StableHlo.TRef sig ⟨S8386560, .i32⟩) (.of main_call7_v2 : StableHlo.TRef sig ⟨S8386560, .i32⟩) signi,
    StableHlo.TRef.unary (.of main_c_10 : StableHlo.TRef sig ⟨S_, .i32⟩) (.of main_call7_v3 : StableHlo.TRef sig ⟨S_, .i32⟩) signi,
    StableHlo.TRef.unary (.of main_call7_v3 : StableHlo.TRef sig ⟨S_, .i32⟩) (.of main_call7_v4 : StableHlo.TRef sig ⟨S8386560, .i32⟩) (broadcastInDim S8386560 ![] bcast_S_S8386560),
    StableHlo.TRef.binary (.of main_call7_v2 : StableHlo.TRef sig ⟨S8386560, .i32⟩) (.of main_call7_v4 : StableHlo.TRef sig ⟨S8386560, .i32⟩) (.of main_call7_v5 : StableHlo.TRef sig ⟨S8386560, .i1⟩) (cmpi .ne),
    StableHlo.TRef.unary (.of main_c_10 : StableHlo.TRef sig ⟨S_, .i32⟩) (.of main_call7_v6 : StableHlo.TRef sig ⟨S8386560, .i32⟩) (broadcastInDim S8386560 ![] bcast_S_S8386560),
    StableHlo.TRef.binary (.of main_v57 : StableHlo.TRef sig ⟨S8386560, .i32⟩) (.of main_call7_v6 : StableHlo.TRef sig ⟨S8386560, .i32⟩) (.of main_call7_v7 : StableHlo.TRef sig ⟨S8386560, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v8 : StableHlo.TRef sig ⟨S8386560, .i32⟩) (broadcastInDim S8386560 ![] bcast_S_S8386560),
    StableHlo.TRef.binary (.of main_call7_v7 : StableHlo.TRef sig ⟨S8386560, .i32⟩) (.of main_call7_v8 : StableHlo.TRef sig ⟨S8386560, .i32⟩) (.of main_call7_v9 : StableHlo.TRef sig ⟨S8386560, .i1⟩) (cmpi .ne),
    StableHlo.TRef.binary (.of main_call7_v5 : StableHlo.TRef sig ⟨S8386560, .i1⟩) (.of main_call7_v9 : StableHlo.TRef sig ⟨S8386560, .i1⟩) (.of main_call7_v10 : StableHlo.TRef sig ⟨S8386560, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v11 : StableHlo.TRef sig ⟨S8386560, .i32⟩) (broadcastInDim S8386560 ![] bcast_S_S8386560),
    StableHlo.TRef.binary (.of main_call7_v1 : StableHlo.TRef sig ⟨S8386560, .i32⟩) (.of main_call7_v11 : StableHlo.TRef sig ⟨S8386560, .i32⟩) (.of main_call7_v12 : StableHlo.TRef sig ⟨S8386560, .i32⟩) subi ]
set_option maxHeartbeats 40000000 in
theorem it20_sub : (it20 : List (HloOp τ sig (Elt F))).Forall fun op => op.bufs ⊆ tcRefs τ sig :=
  ⟨StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub ..⟩
set_option maxHeartbeats 40000000 in
theorem it20_fresh : ∀ op ∈ (it20 : List (HloOp τ sig (Elt F))), op.fresh = ∅ := by
  intro _ h; (repeat (cases h with | head => rfl | tail _ h => ?_)); exact nomatch h

set_option maxHeartbeats 40000000 in
/-- 1 operation (@main fn_floor_divide[main_call7]/fn_where_3[main_call7_call0]). -/
abbrev it21 : List (HloOp τ sig (Elt F)) :=
  [ StableHlo.TRef.ternary (.of main_call7_v10 : StableHlo.TRef sig ⟨S8386560, .i1⟩) (.of main_call7_v12 : StableHlo.TRef sig ⟨S8386560, .i32⟩) (.of main_call7_v1 : StableHlo.TRef sig ⟨S8386560, .i32⟩) (.of main_v60 : StableHlo.TRef sig ⟨S8386560, .i32⟩) select ]
set_option maxHeartbeats 40000000 in
theorem it21_sub : (it21 : List (HloOp τ sig (Elt F))).Forall fun op => op.bufs ⊆ tcRefs τ sig :=
  StableHlo.ternary_bufs_sub ..
set_option maxHeartbeats 40000000 in
theorem it21_fresh : ∀ op ∈ (it21 : List (HloOp τ sig (Elt F))), op.fresh = ∅ := by
  intro _ h; (repeat (cases h with | head => rfl | tail _ h => ?_)); exact nomatch h

set_option maxHeartbeats 40000000 in
/-- 1 operation (@main). -/
abbrev it22 : List (HloOp τ sig (Elt F)) :=
  [ StableHlo.nullary main_c_11 (constantI S_ 32 4096#32) ]
set_option maxHeartbeats 40000000 in
theorem it22_sub : (it22 : List (HloOp τ sig (Elt F))).Forall fun op => op.bufs ⊆ tcRefs τ sig :=
  StableHlo.nullary_bufs_sub ..
set_option maxHeartbeats 40000000 in
theorem it22_fresh : ∀ op ∈ (it22 : List (HloOp τ sig (Elt F))), op.fresh = ∅ := by
  intro _ h; (repeat (cases h with | head => rfl | tail _ h => ?_)); exact nomatch h

set_option maxHeartbeats 40000000 in
/-- 4 operations (@main fn_remainder[main_call8]). -/
abbrev it23 : List (HloOp τ sig (Elt F)) :=
  [ StableHlo.TRef.unary (.of main_c_11 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32) ]
set_option maxHeartbeats 40000000 in
theorem it23_sub : (it23 : List (HloOp τ sig (Elt F))).Forall fun op => op.bufs ⊆ tcRefs τ sig :=
  ⟨StableHlo.unary_bufs_sub .., StableHlo.nullary_bufs_sub .., StableHlo.binary_bufs_sub .., StableHlo.nullary_bufs_sub ..⟩
set_option maxHeartbeats 40000000 in
theorem it23_fresh : ∀ op ∈ (it23 : List (HloOp τ sig (Elt F))), op.fresh = ∅ := by
  intro _ h; (repeat (cases h with | head => rfl | tail _ h => ?_)); exact nomatch h

set_option maxHeartbeats 40000000 in
/-- 1 operation (@main fn_remainder[main_call8]/fn_where_4[main_call8_call0]). -/
abbrev it24 : List (HloOp τ sig (Elt F)) :=
  [ StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select ]
set_option maxHeartbeats 40000000 in
theorem it24_sub : (it24 : List (HloOp τ sig (Elt F))).Forall fun op => op.bufs ⊆ tcRefs τ sig :=
  StableHlo.ternary_bufs_sub ..
set_option maxHeartbeats 40000000 in
theorem it24_fresh : ∀ op ∈ (it24 : List (HloOp τ sig (Elt F))), op.fresh = ∅ := by
  intro _ h; (repeat (cases h with | head => rfl | tail _ h => ?_)); exact nomatch h

set_option maxHeartbeats 40000000 in
/-- 16 operations (@main fn_remainder[main_call8]). -/
abbrev it25 : List (HloOp τ sig (Elt F)) :=
  [ StableHlo.TRef.unary main_call8_call0.v0 (.of main_call8_v3 : StableHlo.TRef sig ⟨S8386560, .i32⟩) (broadcastInDim S8386560 ![] bcast_S_S8386560),
    StableHlo.TRef.binary (.of main_v60 : StableHlo.TRef sig ⟨S8386560, .i32⟩) (.of main_call8_v3 : StableHlo.TRef sig ⟨S8386560, .i32⟩) (.of main_call8_v4 : StableHlo.TRef sig ⟨S8386560, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S8386560, .i32⟩) (broadcastInDim S8386560 ![] bcast_S_S8386560),
    StableHlo.TRef.binary (.of main_call8_v4 : StableHlo.TRef sig ⟨S8386560, .i32⟩) (.of main_call8_v5 : StableHlo.TRef sig ⟨S8386560, .i32⟩) (.of main_call8_v6 : StableHlo.TRef sig ⟨S8386560, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S8386560, .i32⟩) (broadcastInDim S8386560 ![] bcast_S_S8386560),
    StableHlo.TRef.binary (.of main_call8_v4 : StableHlo.TRef sig ⟨S8386560, .i32⟩) (.of main_call8_v7 : StableHlo.TRef sig ⟨S8386560, .i32⟩) (.of main_call8_v8 : StableHlo.TRef sig ⟨S8386560, .i1⟩) (cmpi .slt),
    StableHlo.TRef.nullary (.of main_call8_c_3 : StableHlo.TRef sig ⟨S_, .i32⟩) (constantI S_ 32 0#32),
    StableHlo.TRef.binary main_call8_call0.v0 (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S8386560, .i1⟩) (broadcastInDim S8386560 ![] bcast_S_S8386560),
    StableHlo.TRef.binary (.of main_call8_v8 : StableHlo.TRef sig ⟨S8386560, .i1⟩) (.of main_call8_v10 : StableHlo.TRef sig ⟨S8386560, .i1⟩) (.of main_call8_v11 : StableHlo.TRef sig ⟨S8386560, .i1⟩) (cmpi .ne),
    StableHlo.TRef.binary (.of main_call8_v11 : StableHlo.TRef sig ⟨S8386560, .i1⟩) (.of main_call8_v6 : StableHlo.TRef sig ⟨S8386560, .i1⟩) (.of main_call8_v12 : StableHlo.TRef sig ⟨S8386560, .i1⟩) andi,
    StableHlo.TRef.unary main_call8_call0.v0 (.of main_call8_v13 : StableHlo.TRef sig ⟨S8386560, .i32⟩) (broadcastInDim S8386560 ![] bcast_S_S8386560),
    StableHlo.TRef.binary (.of main_call8_v4 : StableHlo.TRef sig ⟨S8386560, .i32⟩) (.of main_call8_v13 : StableHlo.TRef sig ⟨S8386560, .i32⟩) (.of main_call8_v14 : StableHlo.TRef sig ⟨S8386560, .i32⟩) addi,
    StableHlo.TRef.ternary (.of main_call8_v12 : StableHlo.TRef sig ⟨S8386560, .i1⟩) (.of main_call8_v14 : StableHlo.TRef sig ⟨S8386560, .i32⟩) (.of main_call8_v4 : StableHlo.TRef sig ⟨S8386560, .i32⟩) (.of main_v61 : StableHlo.TRef sig ⟨S8386560, .i32⟩) select ]
set_option maxHeartbeats 40000000 in
theorem it25_sub : (it25 : List (HloOp τ sig (Elt F))).Forall fun op => op.bufs ⊆ tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in
theorem it25_fresh : ∀ op ∈ (it25 : List (HloOp τ sig (Elt F))), op.fresh = ∅ := by
  intro _ h; (repeat (cases h with | head => rfl | tail _ h => ?_)); exact nomatch h

set_option maxHeartbeats 40000000 in
/-- 22 operations (@main). -/
abbrev it26 : List (HloOp τ sig (Elt F)) :=
  [ StableHlo.nullary main_c_12 (constantI S_ 32 0#32),
    StableHlo.unary main_c_12 main_v62 (broadcastInDim S8386560 ![] bcast_S_S8386560 : (⟨S_, .i32⟩ : BufTy).Contents (Elt F) → (⟨S8386560, .i32⟩ : BufTy).Contents (Elt F)),
    StableHlo.binary main_v59 main_v62 main_v63 (cmpi .slt : (⟨S8386560, .i32⟩ : BufTy).Contents (Elt F) → (⟨S8386560, .i32⟩ : BufTy).Contents (Elt F) → (⟨S8386560, .i1⟩ : BufTy).Contents (Elt F)),
    StableHlo.nullary main_c_13 (constantI S_ 32 4096#32),
    StableHlo.unary main_c_13 main_v64 (broadcastInDim S8386560 ![] bcast_S_S8386560 : (⟨S_, .i32⟩ : BufTy).Contents (Elt F) → (⟨S8386560, .i32⟩ : BufTy).Contents (Elt F)),
    StableHlo.binary main_v59 main_v64 main_v65 (addi : (⟨S8386560, .i32⟩ : BufTy).Contents (Elt F) → (⟨S8386560, .i32⟩ : BufTy).Contents (Elt F) → (⟨S8386560, .i32⟩ : BufTy).Contents (Elt F)),
    StableHlo.ternary main_v63 main_v65 main_v59 main_v66 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_14 (constantI S_ 32 0#32),
    StableHlo.unary main_c_14 main_v67 (broadcastInDim S8386560 ![] bcast_S_S8386560 : (⟨S_, .i32⟩ : BufTy).Contents (Elt F) → (⟨S8386560, .i32⟩ : BufTy).Contents (Elt F)),
    StableHlo.binary main_v61 main_v67 main_v68 (cmpi .slt : (⟨S8386560, .i32⟩ : BufTy).Contents (Elt F) → (⟨S8386560, .i32⟩ : BufTy).Contents (Elt F) → (⟨S8386560, .i1⟩ : BufTy).Contents (Elt F)),
    StableHlo.nullary main_c_15 (constantI S_ 32 4096#32),
    StableHlo.unary main_c_15 main_v69 (broadcastInDim S8386560 ![] bcast_S_S8386560 : (⟨S_, .i32⟩ : BufTy).Contents (Elt F) → (⟨S8386560, .i32⟩ : BufTy).Contents (Elt F)),
    StableHlo.binary main_v61 main_v69 main_v70 (addi : (⟨S8386560, .i32⟩ : BufTy).Contents (Elt F) → (⟨S8386560, .i32⟩ : BufTy).Contents (Elt F) → (⟨S8386560, .i32⟩ : BufTy).Contents (Elt F)),
    StableHlo.ternary main_v68 main_v70 main_v61 main_v71 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v66 main_v72 (broadcastInDim S8386560x1 ![0] bcast_S8386560_S8386560x1_0 : (⟨S8386560, .i32⟩ : BufTy).Contents (Elt F) → (⟨S8386560x1, .i32⟩ : BufTy).Contents (Elt F)),
    StableHlo.unary main_v71 main_v73 (broadcastInDim S8386560x1 ![0] bcast_S8386560_S8386560x1_0 : (⟨S8386560, .i32⟩ : BufTy).Contents (Elt F) → (⟨S8386560x1, .i32⟩ : BufTy).Contents (Elt F)),
    StableHlo.binary main_v72 main_v73 main_v74 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)),
    StableHlo.binary main_v41 main_v74 main_v75 ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)),
    StableHlo.nullary main_cst_16 (constant S_ .f32 0x40A00000#32),
    StableHlo.unary main_cst_16 main_v76 (broadcastInDim S8386560 ![] bcast_S_S8386560 : (⟨S_, .f32⟩ : BufTy).Contents (Elt F) → (⟨S8386560, .f32⟩ : BufTy).Contents (Elt F)),
    StableHlo.binary main_v75 main_v76 main_v77 (cmpf .ole : (⟨S8386560, .f32⟩ : BufTy).Contents (Elt F) → (⟨S8386560, .f32⟩ : BufTy).Contents (Elt F) → (⟨S8386560, .i1⟩ : BufTy).Contents (Elt F)),
    StableHlo.nullary main_cst_17 (constant S_ .f32 0x3F800000#32) ]
set_option maxHeartbeats 40000000 in
theorem it26_sub : (it26 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub ..⟩
set_option maxHeartbeats 40000000 in
theorem it26_fresh : ∀ op ∈ (it26 : List (HloOp τ sig (Elt F))), op.fresh = ∅ := by
  intro _ h; (repeat (cases h with | head => rfl | tail _ h => ?_)); exact nomatch h

set_option maxHeartbeats 40000000 in
/-- 3 operations (@main fn_where_5[main_call9]). -/
abbrev it27 : List (HloOp τ sig (Elt F)) :=
  [ StableHlo.TRef.unary (.of main_cst_17 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S8386560, .f32⟩) (broadcastInDim S8386560 ![] bcast_S_S8386560),
    StableHlo.TRef.ternary (.of main_v77 : StableHlo.TRef sig ⟨S8386560, .i1⟩) (.of main_v75 : StableHlo.TRef sig ⟨S8386560, .f32⟩) (.of main_call9_v1 : StableHlo.TRef sig ⟨S8386560, .f32⟩) (.of main_v78 : StableHlo.TRef sig ⟨S8386560, .f32⟩) select ]
set_option maxHeartbeats 40000000 in
theorem it27_sub : (it27 : List (HloOp τ sig (Elt F))).Forall fun op => op.bufs ⊆ tcRefs τ sig :=
  ⟨StableHlo.unary_bufs_sub .., StableHlo.unary_bufs_sub .., StableHlo.ternary_bufs_sub ..⟩
set_option maxHeartbeats 40000000 in
theorem it27_fresh : ∀ op ∈ (it27 : List (HloOp τ sig (Elt F))), op.fresh = ∅ := by
  intro _ h; (repeat (cases h with | head => rfl | tail _ h => ?_)); exact nomatch h

set_option maxHeartbeats 40000000 in
/-- 21 operations (@main). -/
abbrev it28 : List (HloOp τ sig (Elt F)) :=
  [ StableHlo.nullary main_c_18 (constantI S_ 32 0#32),
    StableHlo.unary main_c_18 main_v79 (broadcastInDim S8386560 ![] bcast_S_S8386560 : (⟨S_, .i32⟩ : BufTy).Contents (Elt F) → (⟨S8386560, .i32⟩ : BufTy).Contents (Elt F)),
    StableHlo.binary main_v59 main_v79 main_v80 (cmpi .slt : (⟨S8386560, .i32⟩ : BufTy).Contents (Elt F) → (⟨S8386560, .i32⟩ : BufTy).Contents (Elt F) → (⟨S8386560, .i1⟩ : BufTy).Contents (Elt F)),
    StableHlo.nullary main_c_19 (constantI S_ 32 4096#32),
    StableHlo.unary main_c_19 main_v81 (broadcastInDim S8386560 ![] bcast_S_S8386560 : (⟨S_, .i32⟩ : BufTy).Contents (Elt F) → (⟨S8386560, .i32⟩ : BufTy).Contents (Elt F)),
    StableHlo.binary main_v59 main_v81 main_v82 (addi : (⟨S8386560, .i32⟩ : BufTy).Contents (Elt F) → (⟨S8386560, .i32⟩ : BufTy).Contents (Elt F) → (⟨S8386560, .i32⟩ : BufTy).Contents (Elt F)),
    StableHlo.ternary main_v80 main_v82 main_v59 main_v83 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v83 main_v84 (broadcastInDim S8386560x1 ![0] bcast_S8386560_S8386560x1_0 : (⟨S8386560, .i32⟩ : BufTy).Contents (Elt F) → (⟨S8386560x1, .i32⟩ : BufTy).Contents (Elt F)),
    StableHlo.binary main_v3 main_v84 main_v85 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_20 (constantI S_ 32 0#32),
    StableHlo.unary main_c_20 main_v86 (broadcastInDim S8386560 ![] bcast_S_S8386560 : (⟨S_, .i32⟩ : BufTy).Contents (Elt F) → (⟨S8386560, .i32⟩ : BufTy).Contents (Elt F)),
    StableHlo.binary main_v59 main_v86 main_v87 (cmpi .slt : (⟨S8386560, .i32⟩ : BufTy).Contents (Elt F) → (⟨S8386560, .i32⟩ : BufTy).Contents (Elt F) → (⟨S8386560, .i1⟩ : BufTy).Contents (Elt F)),
    StableHlo.nullary main_c_21 (constantI S_ 32 4096#32),
    StableHlo.unary main_c_21 main_v88 (broadcastInDim S8386560 ![] bcast_S_S8386560 : (⟨S_, .i32⟩ : BufTy).Contents (Elt F) → (⟨S8386560, .i32⟩ : BufTy).Contents (Elt F)),
    StableHlo.binary main_v59 main_v88 main_v89 (addi : (⟨S8386560, .i32⟩ : BufTy).Contents (Elt F) → (⟨S8386560, .i32⟩ : BufTy).Contents (Elt F) → (⟨S8386560, .i32⟩ : BufTy).Contents (Elt F)),
    StableHlo.ternary main_v87 main_v89 main_v59 main_v90 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v90 main_v91 (broadcastInDim S8386560x1 ![0] bcast_S8386560_S8386560x1_0 : (⟨S8386560, .i32⟩ : BufTy).Contents (Elt F) → (⟨S8386560x1, .i32⟩ : BufTy).Contents (Elt F)),
    StableHlo.binary main_v11 main_v91 main_v92 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_22 (constantI S_ 32 0#32),
    StableHlo.unary main_c_22 main_v93 (broadcastInDim S8386560 ![] bcast_S_S8386560 : (⟨S_, .i32⟩ : BufTy).Contents (Elt F) → (⟨S8386560, .i32⟩ : BufTy).Contents (Elt F)),
    StableHlo.binary main_v59 main_v93 main_v94 (cmpi .slt : (⟨S8386560, .i32⟩ : BufTy).Contents (Elt F) → (⟨S8386560, .i32⟩ : BufTy).Contents (Elt F) → (⟨S8386560, .i1⟩ : BufTy).Contents (Elt F)) ]
set_option maxHeartbeats 40000000 in
theorem it28_sub : (it28 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub ..⟩
set_option maxHeartbeats 40000000 in
theorem it28_fresh : ∀ op ∈ (it28 : List (HloOp τ sig (Elt F))), op.fresh = ∅ := by
  intro _ h; (repeat (cases h with | head => rfl | tail _ h => ?_)); exact nomatch h

set_option maxHeartbeats 40000000 in
/-- 60 operations (@main). -/
abbrev it29 : List (HloOp τ sig (Elt F)) :=
  [ StableHlo.nullary main_c_23 (constantI S_ 32 4096#32),
    StableHlo.unary main_c_23 main_v95 (broadcastInDim S8386560 ![] bcast_S_S8386560 : (⟨S_, .i32⟩ : BufTy).Contents (Elt F) → (⟨S8386560, .i32⟩ : BufTy).Contents (Elt F)),
    StableHlo.binary main_v59 main_v95 main_v96 (addi : (⟨S8386560, .i32⟩ : BufTy).Contents (Elt F) → (⟨S8386560, .i32⟩ : BufTy).Contents (Elt F) → (⟨S8386560, .i32⟩ : BufTy).Contents (Elt F)),
    StableHlo.ternary main_v94 main_v96 main_v59 main_v97 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v97 main_v98 (broadcastInDim S8386560x1 ![0] bcast_S8386560_S8386560x1_0 : (⟨S8386560, .i32⟩ : BufTy).Contents (Elt F) → (⟨S8386560x1, .i32⟩ : BufTy).Contents (Elt F)),
    StableHlo.binary main_v1 main_v98 main_v99 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_24 (constantI S_ 32 0#32),
    StableHlo.unary main_c_24 main_v100 (broadcastInDim S8386560 ![] bcast_S_S8386560 : (⟨S_, .i32⟩ : BufTy).Contents (Elt F) → (⟨S8386560, .i32⟩ : BufTy).Contents (Elt F)),
    StableHlo.binary main_v59 main_v100 main_v101 (cmpi .slt : (⟨S8386560, .i32⟩ : BufTy).Contents (Elt F) → (⟨S8386560, .i32⟩ : BufTy).Contents (Elt F) → (⟨S8386560, .i1⟩ : BufTy).Contents (Elt F)),
    StableHlo.nullary main_c_25 (constantI S_ 32 4096#32),
    StableHlo.unary main_c_25 main_v102 (broadcastInDim S8386560 ![] bcast_S_S8386560 : (⟨S_, .i32⟩ : BufTy).Contents (Elt F) → (⟨S8386560, .i32⟩ : BufTy).Contents (Elt F)),
    StableHlo.binary main_v59 main_v102 main_v103 (addi : (⟨S8386560, .i32⟩ : BufTy).Contents (Elt F) → (⟨S8386560, .i32⟩ : BufTy).Contents (Elt F) → (⟨S8386560, .i32⟩ : BufTy).Contents (Elt F)),
    StableHlo.ternary main_v101 main_v103 main_v59 main_v104 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v104 main_v105 (broadcastInDim S8386560x1 ![0] bcast_S8386560_S8386560x1_0 : (⟨S8386560, .i32⟩ : BufTy).Contents (Elt F) → (⟨S8386560x1, .i32⟩ : BufTy).Contents (Elt F)),
    StableHlo.binary main_v19 main_v105 main_v106 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v99 main_v107 (Host.divf : (⟨S8386560, .f32⟩ : BufTy).Contents (Elt F) → (⟨S8386560, .f32⟩ : BufTy).Contents (Elt F) → (⟨S8386560, .f32⟩ : BufTy).Contents (Elt F)),
    StableHlo.unary main_v92 main_v108 (Host.negf : (⟨S8386560, .f32⟩ : BufTy).Contents (Elt F) → (⟨S8386560, .f32⟩ : BufTy).Contents (Elt F)),
    StableHlo.nullary main_cst_26 (constant S_ .f32 0x3F800000#32),
    StableHlo.unary main_cst_26 main_v109 (broadcastInDim S8386560 ![] bcast_S_S8386560 : (⟨S_, .f32⟩ : BufTy).Contents (Elt F) → (⟨S8386560, .f32⟩ : BufTy).Contents (Elt F)),
    StableHlo.binary main_v107 main_v109 main_v110 (subf : (⟨S8386560, .f32⟩ : BufTy).Contents (Elt F) → (⟨S8386560, .f32⟩ : BufTy).Contents (Elt F) → (⟨S8386560, .f32⟩ : BufTy).Contents (Elt F)),
    StableHlo.binary main_v108 main_v110 main_v111 (mulf : (⟨S8386560, .f32⟩ : BufTy).Contents (Elt F) → (⟨S8386560, .f32⟩ : BufTy).Contents (Elt F) → (⟨S8386560, .f32⟩ : BufTy).Contents (Elt F)),
    StableHlo.unary main_v111 main_v112 (Host.exp : (⟨S8386560, .f32⟩ : BufTy).Contents (Elt F) → (⟨S8386560, .f32⟩ : BufTy).Contents (Elt F)),
    StableHlo.binary main_v85 main_v112 main_v113 (mulf : (⟨S8386560, .f32⟩ : BufTy).Contents (Elt F) → (⟨S8386560, .f32⟩ : BufTy).Contents (Elt F) → (⟨S8386560, .f32⟩ : BufTy).Contents (Elt F)),
    StableHlo.binary main_v107 main_v106 main_v114 (subf : (⟨S8386560, .f32⟩ : BufTy).Contents (Elt F) → (⟨S8386560, .f32⟩ : BufTy).Contents (Elt F) → (⟨S8386560, .f32⟩ : BufTy).Contents (Elt F)),
    StableHlo.binary main_v114 main_v114 main_v115 (mulf : (⟨S8386560, .f32⟩ : BufTy).Contents (Elt F) → (⟨S8386560, .f32⟩ : BufTy).Contents (Elt F) → (⟨S8386560, .f32⟩ : BufTy).Contents (Elt F)),
    StableHlo.binary main_v115 main_v115 main_v116 (mulf : (⟨S8386560, .f32⟩ : BufTy).Contents (Elt F) → (⟨S8386560, .f32⟩ : BufTy).Contents (Elt F) → (⟨S8386560, .f32⟩ : BufTy).Contents (Elt F)),
    StableHlo.binary main_v116 main_v116 main_v117 (mulf : (⟨S8386560, .f32⟩ : BufTy).Contents (Elt F) → (⟨S8386560, .f32⟩ : BufTy).Contents (Elt F) → (⟨S8386560, .f32⟩ : BufTy).Contents (Elt F)),
    StableHlo.binary main_v117 main_v117 main_v118 (mulf : (⟨S8386560, .f32⟩ : BufTy).Contents (Elt F) → (⟨S8386560, .f32⟩ : BufTy).Contents (Elt F) → (⟨S8386560, .f32⟩ : BufTy).Contents (Elt F)),
    StableHlo.binary main_v116 main_v118 main_v119 (mulf : (⟨S8386560, .f32⟩ : BufTy).Contents (Elt F) → (⟨S8386560, .f32⟩ : BufTy).Contents (Elt F) → (⟨S8386560, .f32⟩ : BufTy).Contents (Elt F)),
    StableHlo.nullary main_cst_27 (constant S_ .f32 0x3F800000#32),
    StableHlo.unary main_cst_27 main_v120 (broadcastInDim S8386560 ![] bcast_S_S8386560 : (⟨S_, .f32⟩ : BufTy).Contents (Elt F) → (⟨S8386560, .f32⟩ : BufTy).Contents (Elt F)),
    StableHlo.binary main_v120 main_v119 main_v121 (addf : (⟨S8386560, .f32⟩ : BufTy).Contents (Elt F) → (⟨S8386560, .f32⟩ : BufTy).Contents (Elt F) → (⟨S8386560, .f32⟩ : BufTy).Contents (Elt F)),
    StableHlo.binary main_v113 main_v121 main_v122 (Host.divf : (⟨S8386560, .f32⟩ : BufTy).Contents (Elt F) → (⟨S8386560, .f32⟩ : BufTy).Contents (Elt F) → (⟨S8386560, .f32⟩ : BufTy).Contents (Elt F)),
    StableHlo.nullary main_c_28 (constantI S_ 32 0#32),
    StableHlo.unary main_c_28 main_v123 (broadcastInDim S8386560 ![] bcast_S_S8386560 : (⟨S_, .i32⟩ : BufTy).Contents (Elt F) → (⟨S8386560, .i32⟩ : BufTy).Contents (Elt F)),
    StableHlo.binary main_v61 main_v123 main_v124 (cmpi .slt : (⟨S8386560, .i32⟩ : BufTy).Contents (Elt F) → (⟨S8386560, .i32⟩ : BufTy).Contents (Elt F) → (⟨S8386560, .i1⟩ : BufTy).Contents (Elt F)),
    StableHlo.nullary main_c_29 (constantI S_ 32 4096#32),
    StableHlo.unary main_c_29 main_v125 (broadcastInDim S8386560 ![] bcast_S_S8386560 : (⟨S_, .i32⟩ : BufTy).Contents (Elt F) → (⟨S8386560, .i32⟩ : BufTy).Contents (Elt F)),
    StableHlo.binary main_v61 main_v125 main_v126 (addi : (⟨S8386560, .i32⟩ : BufTy).Contents (Elt F) → (⟨S8386560, .i32⟩ : BufTy).Contents (Elt F) → (⟨S8386560, .i32⟩ : BufTy).Contents (Elt F)),
    StableHlo.ternary main_v124 main_v126 main_v61 main_v127 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v127 main_v128 (broadcastInDim S8386560x1 ![0] bcast_S8386560_S8386560x1_0 : (⟨S8386560, .i32⟩ : BufTy).Contents (Elt F) → (⟨S8386560x1, .i32⟩ : BufTy).Contents (Elt F)),
    StableHlo.binary main_v3 main_v128 main_v129 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_30 (constantI S_ 32 0#32),
    StableHlo.unary main_c_30 main_v130 (broadcastInDim S8386560 ![] bcast_S_S8386560 : (⟨S_, .i32⟩ : BufTy).Contents (Elt F) → (⟨S8386560, .i32⟩ : BufTy).Contents (Elt F)),
    StableHlo.binary main_v61 main_v130 main_v131 (cmpi .slt : (⟨S8386560, .i32⟩ : BufTy).Contents (Elt F) → (⟨S8386560, .i32⟩ : BufTy).Contents (Elt F) → (⟨S8386560, .i1⟩ : BufTy).Contents (Elt F)),
    StableHlo.nullary main_c_31 (constantI S_ 32 4096#32),
    StableHlo.unary main_c_31 main_v132 (broadcastInDim S8386560 ![] bcast_S_S8386560 : (⟨S_, .i32⟩ : BufTy).Contents (Elt F) → (⟨S8386560, .i32⟩ : BufTy).Contents (Elt F)),
    StableHlo.binary main_v61 main_v132 main_v133 (addi : (⟨S8386560, .i32⟩ : BufTy).Contents (Elt F) → (⟨S8386560, .i32⟩ : BufTy).Contents (Elt F) → (⟨S8386560, .i32⟩ : BufTy).Contents (Elt F)),
    StableHlo.ternary main_v131 main_v133 main_v61 main_v134 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v134 main_v135 (broadcastInDim S8386560x1 ![0] bcast_S8386560_S8386560x1_0 : (⟨S8386560, .i32⟩ : BufTy).Contents (Elt F) → (⟨S8386560x1, .i32⟩ : BufTy).Contents (Elt F)),
    StableHlo.binary main_v11 main_v135 main_v136 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_32 (constantI S_ 32 0#32),
    StableHlo.unary main_c_32 main_v137 (broadcastInDim S8386560 ![] bcast_S_S8386560 : (⟨S_, .i32⟩ : BufTy).Contents (Elt F) → (⟨S8386560, .i32⟩ : BufTy).Contents (Elt F)),
    StableHlo.binary main_v61 main_v137 main_v138 (cmpi .slt : (⟨S8386560, .i32⟩ : BufTy).Contents (Elt F) → (⟨S8386560, .i32⟩ : BufTy).Contents (Elt F) → (⟨S8386560, .i1⟩ : BufTy).Contents (Elt F)),
    StableHlo.nullary main_c_33 (constantI S_ 32 4096#32),
    StableHlo.unary main_c_33 main_v139 (broadcastInDim S8386560 ![] bcast_S_S8386560 : (⟨S_, .i32⟩ : BufTy).Contents (Elt F) → (⟨S8386560, .i32⟩ : BufTy).Contents (Elt F)),
    StableHlo.binary main_v61 main_v139 main_v140 (addi : (⟨S8386560, .i32⟩ : BufTy).Contents (Elt F) → (⟨S8386560, .i32⟩ : BufTy).Contents (Elt F) → (⟨S8386560, .i32⟩ : BufTy).Contents (Elt F)),
    StableHlo.ternary main_v138 main_v140 main_v61 main_v141 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v141 main_v142 (broadcastInDim S8386560x1 ![0] bcast_S8386560_S8386560x1_0 : (⟨S8386560, .i32⟩ : BufTy).Contents (Elt F) → (⟨S8386560x1, .i32⟩ : BufTy).Contents (Elt F)),
    StableHlo.binary main_v1 main_v142 main_v143 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) ]
set_option maxHeartbeats 40000000 in
theorem it29_sub : (it29 : List (HloOp τ sig (Elt F))).Forall fun op => op.bufs ⊆ tcRefs τ sig :=
  ⟨StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
set_option maxHeartbeats 40000000 in
theorem it29_fresh : ∀ op ∈ (it29 : List (HloOp τ sig (Elt F))), op.fresh = ∅ := by
  intro _ h; (repeat (cases h with | head => rfl | tail _ h => ?_)); exact nomatch h

set_option maxHeartbeats 40000000 in
/-- 60 operations (@main). -/
abbrev it30 : List (HloOp τ sig (Elt F)) :=
  [ StableHlo.nullary main_c_34 (constantI S_ 32 0#32),
    StableHlo.unary main_c_34 main_v144 (broadcastInDim S8386560 ![] bcast_S_S8386560 : (⟨S_, .i32⟩ : BufTy).Contents (Elt F) → (⟨S8386560, .i32⟩ : BufTy).Contents (Elt F)),
    StableHlo.binary main_v61 main_v144 main_v145 (cmpi .slt : (⟨S8386560, .i32⟩ : BufTy).Contents (Elt F) → (⟨S8386560, .i32⟩ : BufTy).Contents (Elt F) → (⟨S8386560, .i1⟩ : BufTy).Contents (Elt F)),
    StableHlo.nullary main_c_35 (constantI S_ 32 4096#32),
    StableHlo.unary main_c_35 main_v146 (broadcastInDim S8386560 ![] bcast_S_S8386560 : (⟨S_, .i32⟩ : BufTy).Contents (Elt F) → (⟨S8386560, .i32⟩ : BufTy).Contents (Elt F)),
    StableHlo.binary main_v61 main_v146 main_v147 (addi : (⟨S8386560, .i32⟩ : BufTy).Contents (Elt F) → (⟨S8386560, .i32⟩ : BufTy).Contents (Elt F) → (⟨S8386560, .i32⟩ : BufTy).Contents (Elt F)),
    StableHlo.ternary main_v145 main_v147 main_v61 main_v148 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v148 main_v149 (broadcastInDim S8386560x1 ![0] bcast_S8386560_S8386560x1_0 : (⟨S8386560, .i32⟩ : BufTy).Contents (Elt F) → (⟨S8386560x1, .i32⟩ : BufTy).Contents (Elt F)),
    StableHlo.binary main_v19 main_v149 main_v150 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v143 main_v151 (Host.divf : (⟨S8386560, .f32⟩ : BufTy).Contents (Elt F) → (⟨S8386560, .f32⟩ : BufTy).Contents (Elt F) → (⟨S8386560, .f32⟩ : BufTy).Contents (Elt F)),
    StableHlo.unary main_v136 main_v152 (Host.negf : (⟨S8386560, .f32⟩ : BufTy).Contents (Elt F) → (⟨S8386560, .f32⟩ : BufTy).Contents (Elt F)),
    StableHlo.nullary main_cst_36 (constant S_ .f32 0x3F800000#32),
    StableHlo.unary main_cst_36 main_v153 (broadcastInDim S8386560 ![] bcast_S_S8386560 : (⟨S_, .f32⟩ : BufTy).Contents (Elt F) → (⟨S8386560, .f32⟩ : BufTy).Contents (Elt F)),
    StableHlo.binary main_v151 main_v153 main_v154 (subf : (⟨S8386560, .f32⟩ : BufTy).Contents (Elt F) → (⟨S8386560, .f32⟩ : BufTy).Contents (Elt F) → (⟨S8386560, .f32⟩ : BufTy).Contents (Elt F)),
    StableHlo.binary main_v152 main_v154 main_v155 (mulf : (⟨S8386560, .f32⟩ : BufTy).Contents (Elt F) → (⟨S8386560, .f32⟩ : BufTy).Contents (Elt F) → (⟨S8386560, .f32⟩ : BufTy).Contents (Elt F)),
    StableHlo.unary main_v155 main_v156 (Host.exp : (⟨S8386560, .f32⟩ : BufTy).Contents (Elt F) → (⟨S8386560, .f32⟩ : BufTy).Contents (Elt F)),
    StableHlo.binary main_v129 main_v156 main_v157 (mulf : (⟨S8386560, .f32⟩ : BufTy).Contents (Elt F) → (⟨S8386560, .f32⟩ : BufTy).Contents (Elt F) → (⟨S8386560, .f32⟩ : BufTy).Contents (Elt F)),
    StableHlo.binary main_v151 main_v150 main_v158 (subf : (⟨S8386560, .f32⟩ : BufTy).Contents (Elt F) → (⟨S8386560, .f32⟩ : BufTy).Contents (Elt F) → (⟨S8386560, .f32⟩ : BufTy).Contents (Elt F)),
    StableHlo.binary main_v158 main_v158 main_v159 (mulf : (⟨S8386560, .f32⟩ : BufTy).Contents (Elt F) → (⟨S8386560, .f32⟩ : BufTy).Contents (Elt F) → (⟨S8386560, .f32⟩ : BufTy).Contents (Elt F)),
    StableHlo.binary main_v159 main_v159 main_v160 (mulf : (⟨S8386560, .f32⟩ : BufTy).Contents (Elt F) → (⟨S8386560, .f32⟩ : BufTy).Contents (Elt F) → (⟨S8386560, .f32⟩ : BufTy).Contents (Elt F)),
    StableHlo.binary main_v160 main_v160 main_v161 (mulf : (⟨S8386560, .f32⟩ : BufTy).Contents (Elt F) → (⟨S8386560, .f32⟩ : BufTy).Contents (Elt F) → (⟨S8386560, .f32⟩ : BufTy).Contents (Elt F)),
    StableHlo.binary main_v161 main_v161 main_v162 (mulf : (⟨S8386560, .f32⟩ : BufTy).Contents (Elt F) → (⟨S8386560, .f32⟩ : BufTy).Contents (Elt F) → (⟨S8386560, .f32⟩ : BufTy).Contents (Elt F)),
    StableHlo.binary main_v160 main_v162 main_v163 (mulf : (⟨S8386560, .f32⟩ : BufTy).Contents (Elt F) → (⟨S8386560, .f32⟩ : BufTy).Contents (Elt F) → (⟨S8386560, .f32⟩ : BufTy).Contents (Elt F)),
    StableHlo.nullary main_cst_37 (constant S_ .f32 0x3F800000#32),
    StableHlo.unary main_cst_37 main_v164 (broadcastInDim S8386560 ![] bcast_S_S8386560 : (⟨S_, .f32⟩ : BufTy).Contents (Elt F) → (⟨S8386560, .f32⟩ : BufTy).Contents (Elt F)),
    StableHlo.binary main_v164 main_v163 main_v165 (addf : (⟨S8386560, .f32⟩ : BufTy).Contents (Elt F) → (⟨S8386560, .f32⟩ : BufTy).Contents (Elt F) → (⟨S8386560, .f32⟩ : BufTy).Contents (Elt F)),
    StableHlo.binary main_v157 main_v165 main_v166 (Host.divf : (⟨S8386560, .f32⟩ : BufTy).Contents (Elt F) → (⟨S8386560, .f32⟩ : BufTy).Contents (Elt F) → (⟨S8386560, .f32⟩ : BufTy).Contents (Elt F)),
    StableHlo.nullary main_c_38 (constantI S_ 32 0#32),
    StableHlo.unary main_c_38 main_v167 (broadcastInDim S8386560 ![] bcast_S_S8386560 : (⟨S_, .i32⟩ : BufTy).Contents (Elt F) → (⟨S8386560, .i32⟩ : BufTy).Contents (Elt F)),
    StableHlo.binary main_v59 main_v167 main_v168 (cmpi .slt : (⟨S8386560, .i32⟩ : BufTy).Contents (Elt F) → (⟨S8386560, .i32⟩ : BufTy).Contents (Elt F) → (⟨S8386560, .i1⟩ : BufTy).Contents (Elt F)),
    StableHlo.nullary main_c_39 (constantI S_ 32 4096#32),
    StableHlo.unary main_c_39 main_v169 (broadcastInDim S8386560 ![] bcast_S_S8386560 : (⟨S_, .i32⟩ : BufTy).Contents (Elt F) → (⟨S8386560, .i32⟩ : BufTy).Contents (Elt F)),
    StableHlo.binary main_v59 main_v169 main_v170 (addi : (⟨S8386560, .i32⟩ : BufTy).Contents (Elt F) → (⟨S8386560, .i32⟩ : BufTy).Contents (Elt F) → (⟨S8386560, .i32⟩ : BufTy).Contents (Elt F)),
    StableHlo.ternary main_v168 main_v170 main_v59 main_v171 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v171 main_v172 (broadcastInDim S8386560x1 ![0] bcast_S8386560_S8386560x1_0 : (⟨S8386560, .i32⟩ : BufTy).Contents (Elt F) → (⟨S8386560x1, .i32⟩ : BufTy).Contents (Elt F)),
    StableHlo.binary main_v13 main_v172 main_v173 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_40 (constantI S_ 32 0#32),
    StableHlo.unary main_c_40 main_v174 (broadcastInDim S8386560 ![] bcast_S_S8386560 : (⟨S_, .i32⟩ : BufTy).Contents (Elt F) → (⟨S8386560, .i32⟩ : BufTy).Contents (Elt F)),
    StableHlo.binary main_v59 main_v174 main_v175 (cmpi .slt : (⟨S8386560, .i32⟩ : BufTy).Contents (Elt F) → (⟨S8386560, .i32⟩ : BufTy).Contents (Elt F) → (⟨S8386560, .i1⟩ : BufTy).Contents (Elt F)),
    StableHlo.nullary main_c_41 (constantI S_ 32 4096#32),
    StableHlo.unary main_c_41 main_v176 (broadcastInDim S8386560 ![] bcast_S_S8386560 : (⟨S_, .i32⟩ : BufTy).Contents (Elt F) → (⟨S8386560, .i32⟩ : BufTy).Contents (Elt F)),
    StableHlo.binary main_v59 main_v176 main_v177 (addi : (⟨S8386560, .i32⟩ : BufTy).Contents (Elt F) → (⟨S8386560, .i32⟩ : BufTy).Contents (Elt F) → (⟨S8386560, .i32⟩ : BufTy).Contents (Elt F)),
    StableHlo.ternary main_v175 main_v177 main_v59 main_v178 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v178 main_v179 (broadcastInDim S8386560x1 ![0] bcast_S8386560_S8386560x1_0 : (⟨S8386560, .i32⟩ : BufTy).Contents (Elt F) → (⟨S8386560x1, .i32⟩ : BufTy).Contents (Elt F)),
    StableHlo.binary main_v15 main_v179 main_v180 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_42 (constantI S_ 32 0#32),
    StableHlo.unary main_c_42 main_v181 (broadcastInDim S8386560 ![] bcast_S_S8386560 : (⟨S_, .i32⟩ : BufTy).Contents (Elt F) → (⟨S8386560, .i32⟩ : BufTy).Contents (Elt F)),
    StableHlo.binary main_v59 main_v181 main_v182 (cmpi .slt : (⟨S8386560, .i32⟩ : BufTy).Contents (Elt F) → (⟨S8386560, .i32⟩ : BufTy).Contents (Elt F) → (⟨S8386560, .i1⟩ : BufTy).Contents (Elt F)),
    StableHlo.nullary main_c_43 (constantI S_ 32 4096#32),
    StableHlo.unary main_c_43 main_v183 (broadcastInDim S8386560 ![] bcast_S_S8386560 : (⟨S_, .i32⟩ : BufTy).Contents (Elt F) → (⟨S8386560, .i32⟩ : BufTy).Contents (Elt F)),
    StableHlo.binary main_v59 main_v183 main_v184 (addi : (⟨S8386560, .i32⟩ : BufTy).Contents (Elt F) → (⟨S8386560, .i32⟩ : BufTy).Contents (Elt F) → (⟨S8386560, .i32⟩ : BufTy).Contents (Elt F)),
    StableHlo.ternary main_v182 main_v184 main_v59 main_v185 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v185 main_v186 (broadcastInDim S8386560x1 ![0] bcast_S8386560_S8386560x1_0 : (⟨S8386560, .i32⟩ : BufTy).Contents (Elt F) → (⟨S8386560x1, .i32⟩ : BufTy).Contents (Elt F)),
    StableHlo.binary main_v1 main_v186 main_v187 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_44 (constantI S_ 32 0#32),
    StableHlo.unary main_c_44 main_v188 (broadcastInDim S8386560 ![] bcast_S_S8386560 : (⟨S_, .i32⟩ : BufTy).Contents (Elt F) → (⟨S8386560, .i32⟩ : BufTy).Contents (Elt F)),
    StableHlo.binary main_v59 main_v188 main_v189 (cmpi .slt : (⟨S8386560, .i32⟩ : BufTy).Contents (Elt F) → (⟨S8386560, .i32⟩ : BufTy).Contents (Elt F) → (⟨S8386560, .i1⟩ : BufTy).Contents (Elt F)),
    StableHlo.nullary main_c_45 (constantI S_ 32 4096#32),
    StableHlo.unary main_c_45 main_v190 (broadcastInDim S8386560 ![] bcast_S_S8386560 : (⟨S_, .i32⟩ : BufTy).Contents (Elt F) → (⟨S8386560, .i32⟩ : BufTy).Contents (Elt F)),
    StableHlo.binary main_v59 main_v190 main_v191 (addi : (⟨S8386560, .i32⟩ : BufTy).Contents (Elt F) → (⟨S8386560, .i32⟩ : BufTy).Contents (Elt F) → (⟨S8386560, .i32⟩ : BufTy).Contents (Elt F)) ]
set_option maxHeartbeats 40000000 in
theorem it30_sub : (it30 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub ..⟩
set_option maxHeartbeats 40000000 in
theorem it30_fresh : ∀ op ∈ (it30 : List (HloOp τ sig (Elt F))), op.fresh = ∅ := by
  intro _ h; (repeat (cases h with | head => rfl | tail _ h => ?_)); exact nomatch h

set_option maxHeartbeats 40000000 in
/-- 60 operations (@main). -/
abbrev it31 : List (HloOp τ sig (Elt F)) :=
  [ StableHlo.ternary main_v189 main_v191 main_v59 main_v192 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v192 main_v193 (broadcastInDim S8386560x1 ![0] bcast_S8386560_S8386560x1_0 : (⟨S8386560, .i32⟩ : BufTy).Contents (Elt F) → (⟨S8386560x1, .i32⟩ : BufTy).Contents (Elt F)),
    StableHlo.binary main_v9 main_v193 main_v194 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_46 (constantI S_ 32 0#32),
    StableHlo.unary main_c_46 main_v195 (broadcastInDim S8386560 ![] bcast_S_S8386560 : (⟨S_, .i32⟩ : BufTy).Contents (Elt F) → (⟨S8386560, .i32⟩ : BufTy).Contents (Elt F)),
    StableHlo.binary main_v59 main_v195 main_v196 (cmpi .slt : (⟨S8386560, .i32⟩ : BufTy).Contents (Elt F) → (⟨S8386560, .i32⟩ : BufTy).Contents (Elt F) → (⟨S8386560, .i1⟩ : BufTy).Contents (Elt F)),
    StableHlo.nullary main_c_47 (constantI S_ 32 4096#32),
    StableHlo.unary main_c_47 main_v197 (broadcastInDim S8386560 ![] bcast_S_S8386560 : (⟨S_, .i32⟩ : BufTy).Contents (Elt F) → (⟨S8386560, .i32⟩ : BufTy).Contents (Elt F)),
    StableHlo.binary main_v59 main_v197 main_v198 (addi : (⟨S8386560, .i32⟩ : BufTy).Contents (Elt F) → (⟨S8386560, .i32⟩ : BufTy).Contents (Elt F) → (⟨S8386560, .i32⟩ : BufTy).Contents (Elt F)),
    StableHlo.ternary main_v196 main_v198 main_v59 main_v199 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v199 main_v200 (broadcastInDim S8386560x1 ![0] bcast_S8386560_S8386560x1_0 : (⟨S8386560, .i32⟩ : BufTy).Contents (Elt F) → (⟨S8386560x1, .i32⟩ : BufTy).Contents (Elt F)),
    StableHlo.binary main_v11 main_v200 main_v201 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_48 (constantI S_ 32 0#32),
    StableHlo.unary main_c_48 main_v202 (broadcastInDim S8386560 ![] bcast_S_S8386560 : (⟨S_, .i32⟩ : BufTy).Contents (Elt F) → (⟨S8386560, .i32⟩ : BufTy).Contents (Elt F)),
    StableHlo.binary main_v59 main_v202 main_v203 (cmpi .slt : (⟨S8386560, .i32⟩ : BufTy).Contents (Elt F) → (⟨S8386560, .i32⟩ : BufTy).Contents (Elt F) → (⟨S8386560, .i1⟩ : BufTy).Contents (Elt F)),
    StableHlo.nullary main_c_49 (constantI S_ 32 4096#32),
    StableHlo.unary main_c_49 main_v204 (broadcastInDim S8386560 ![] bcast_S_S8386560 : (⟨S_, .i32⟩ : BufTy).Contents (Elt F) → (⟨S8386560, .i32⟩ : BufTy).Contents (Elt F)),
    StableHlo.binary main_v59 main_v204 main_v205 (addi : (⟨S8386560, .i32⟩ : BufTy).Contents (Elt F) → (⟨S8386560, .i32⟩ : BufTy).Contents (Elt F) → (⟨S8386560, .i32⟩ : BufTy).Contents (Elt F)),
    StableHlo.ternary main_v203 main_v205 main_v59 main_v206 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v206 main_v207 (broadcastInDim S8386560x1 ![0] bcast_S8386560_S8386560x1_0 : (⟨S8386560, .i32⟩ : BufTy).Contents (Elt F) → (⟨S8386560x1, .i32⟩ : BufTy).Contents (Elt F)),
    StableHlo.binary main_v17 main_v207 main_v208 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_50 (constantI S_ 32 0#32),
    StableHlo.unary main_c_50 main_v209 (broadcastInDim S8386560 ![] bcast_S_S8386560 : (⟨S_, .i32⟩ : BufTy).Contents (Elt F) → (⟨S8386560, .i32⟩ : BufTy).Contents (Elt F)),
    StableHlo.binary main_v59 main_v209 main_v210 (cmpi .slt : (⟨S8386560, .i32⟩ : BufTy).Contents (Elt F) → (⟨S8386560, .i32⟩ : BufTy).Contents (Elt F) → (⟨S8386560, .i1⟩ : BufTy).Contents (Elt F)),
    StableHlo.nullary main_c_51 (constantI S_ 32 4096#32),
    StableHlo.unary main_c_51 main_v211 (broadcastInDim S8386560 ![] bcast_S_S8386560 : (⟨S_, .i32⟩ : BufTy).Contents (Elt F) → (⟨S8386560, .i32⟩ : BufTy).Contents (Elt F)),
    StableHlo.binary main_v59 main_v211 main_v212 (addi : (⟨S8386560, .i32⟩ : BufTy).Contents (Elt F) → (⟨S8386560, .i32⟩ : BufTy).Contents (Elt F) → (⟨S8386560, .i32⟩ : BufTy).Contents (Elt F)),
    StableHlo.ternary main_v210 main_v212 main_v59 main_v213 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v213 main_v214 (broadcastInDim S8386560x1 ![0] bcast_S8386560_S8386560x1_0 : (⟨S8386560, .i32⟩ : BufTy).Contents (Elt F) → (⟨S8386560x1, .i32⟩ : BufTy).Contents (Elt F)),
    StableHlo.binary main_v19 main_v214 main_v215 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v187 main_v216 (Host.divf : (⟨S8386560, .f32⟩ : BufTy).Contents (Elt F) → (⟨S8386560, .f32⟩ : BufTy).Contents (Elt F) → (⟨S8386560, .f32⟩ : BufTy).Contents (Elt F)),
    StableHlo.unary main_v194 main_v217 (Host.negf : (⟨S8386560, .f32⟩ : BufTy).Contents (Elt F) → (⟨S8386560, .f32⟩ : BufTy).Contents (Elt F)),
    StableHlo.nullary main_cst_52 (constant S_ .f32 0x3F800000#32),
    StableHlo.unary main_cst_52 main_v218 (broadcastInDim S8386560 ![] bcast_S_S8386560 : (⟨S_, .f32⟩ : BufTy).Contents (Elt F) → (⟨S8386560, .f32⟩ : BufTy).Contents (Elt F)),
    StableHlo.binary main_v216 main_v218 main_v219 (subf : (⟨S8386560, .f32⟩ : BufTy).Contents (Elt F) → (⟨S8386560, .f32⟩ : BufTy).Contents (Elt F) → (⟨S8386560, .f32⟩ : BufTy).Contents (Elt F)),
    StableHlo.binary main_v217 main_v219 main_v220 (mulf : (⟨S8386560, .f32⟩ : BufTy).Contents (Elt F) → (⟨S8386560, .f32⟩ : BufTy).Contents (Elt F) → (⟨S8386560, .f32⟩ : BufTy).Contents (Elt F)),
    StableHlo.unary main_v220 main_v221 (Host.exp : (⟨S8386560, .f32⟩ : BufTy).Contents (Elt F) → (⟨S8386560, .f32⟩ : BufTy).Contents (Elt F)),
    StableHlo.binary main_v173 main_v221 main_v222 (mulf : (⟨S8386560, .f32⟩ : BufTy).Contents (Elt F) → (⟨S8386560, .f32⟩ : BufTy).Contents (Elt F) → (⟨S8386560, .f32⟩ : BufTy).Contents (Elt F)),
    StableHlo.binary main_v216 main_v208 main_v223 (subf : (⟨S8386560, .f32⟩ : BufTy).Contents (Elt F) → (⟨S8386560, .f32⟩ : BufTy).Contents (Elt F) → (⟨S8386560, .f32⟩ : BufTy).Contents (Elt F)),
    StableHlo.binary main_v223 main_v223 main_v224 (mulf : (⟨S8386560, .f32⟩ : BufTy).Contents (Elt F) → (⟨S8386560, .f32⟩ : BufTy).Contents (Elt F) → (⟨S8386560, .f32⟩ : BufTy).Contents (Elt F)),
    StableHlo.binary main_v224 main_v224 main_v225 (mulf : (⟨S8386560, .f32⟩ : BufTy).Contents (Elt F) → (⟨S8386560, .f32⟩ : BufTy).Contents (Elt F) → (⟨S8386560, .f32⟩ : BufTy).Contents (Elt F)),
    StableHlo.binary main_v225 main_v225 main_v226 (mulf : (⟨S8386560, .f32⟩ : BufTy).Contents (Elt F) → (⟨S8386560, .f32⟩ : BufTy).Contents (Elt F) → (⟨S8386560, .f32⟩ : BufTy).Contents (Elt F)),
    StableHlo.binary main_v226 main_v226 main_v227 (mulf : (⟨S8386560, .f32⟩ : BufTy).Contents (Elt F) → (⟨S8386560, .f32⟩ : BufTy).Contents (Elt F) → (⟨S8386560, .f32⟩ : BufTy).Contents (Elt F)),
    StableHlo.binary main_v225 main_v227 main_v228 (mulf : (⟨S8386560, .f32⟩ : BufTy).Contents (Elt F) → (⟨S8386560, .f32⟩ : BufTy).Contents (Elt F) → (⟨S8386560, .f32⟩ : BufTy).Contents (Elt F)),
    StableHlo.nullary main_cst_53 (constant S_ .f32 0x3F800000#32),
    StableHlo.unary main_cst_53 main_v229 (broadcastInDim S8386560 ![] bcast_S_S8386560 : (⟨S_, .f32⟩ : BufTy).Contents (Elt F) → (⟨S8386560, .f32⟩ : BufTy).Contents (Elt F)),
    StableHlo.binary main_v229 main_v228 main_v230 (addf : (⟨S8386560, .f32⟩ : BufTy).Contents (Elt F) → (⟨S8386560, .f32⟩ : BufTy).Contents (Elt F) → (⟨S8386560, .f32⟩ : BufTy).Contents (Elt F)),
    StableHlo.binary main_v222 main_v230 main_v231 (Host.divf : (⟨S8386560, .f32⟩ : BufTy).Contents (Elt F) → (⟨S8386560, .f32⟩ : BufTy).Contents (Elt F) → (⟨S8386560, .f32⟩ : BufTy).Contents (Elt F)),
    StableHlo.unary main_v201 main_v232 (Host.negf : (⟨S8386560, .f32⟩ : BufTy).Contents (Elt F) → (⟨S8386560, .f32⟩ : BufTy).Contents (Elt F)),
    StableHlo.nullary main_cst_54 (constant S_ .f32 0x3F800000#32),
    StableHlo.unary main_cst_54 main_v233 (broadcastInDim S8386560 ![] bcast_S_S8386560 : (⟨S_, .f32⟩ : BufTy).Contents (Elt F) → (⟨S8386560, .f32⟩ : BufTy).Contents (Elt F)),
    StableHlo.binary main_v216 main_v233 main_v234 (subf : (⟨S8386560, .f32⟩ : BufTy).Contents (Elt F) → (⟨S8386560, .f32⟩ : BufTy).Contents (Elt F) → (⟨S8386560, .f32⟩ : BufTy).Contents (Elt F)),
    StableHlo.binary main_v232 main_v234 main_v235 (mulf : (⟨S8386560, .f32⟩ : BufTy).Contents (Elt F) → (⟨S8386560, .f32⟩ : BufTy).Contents (Elt F) → (⟨S8386560, .f32⟩ : BufTy).Contents (Elt F)),
    StableHlo.unary main_v235 main_v236 (Host.exp : (⟨S8386560, .f32⟩ : BufTy).Contents (Elt F) → (⟨S8386560, .f32⟩ : BufTy).Contents (Elt F)),
    StableHlo.binary main_v180 main_v236 main_v237 (mulf : (⟨S8386560, .f32⟩ : BufTy).Contents (Elt F) → (⟨S8386560, .f32⟩ : BufTy).Contents (Elt F) → (⟨S8386560, .f32⟩ : BufTy).Contents (Elt F)),
    StableHlo.binary main_v216 main_v215 main_v238 (subf : (⟨S8386560, .f32⟩ : BufTy).Contents (Elt F) → (⟨S8386560, .f32⟩ : BufTy).Contents (Elt F) → (⟨S8386560, .f32⟩ : BufTy).Contents (Elt F)),
    StableHlo.binary main_v238 main_v238 main_v239 (mulf : (⟨S8386560, .f32⟩ : BufTy).Contents (Elt F) → (⟨S8386560, .f32⟩ : BufTy).Contents (Elt F) → (⟨S8386560, .f32⟩ : BufTy).Contents (Elt F)),
    StableHlo.binary main_v239 main_v239 main_v240 (mulf : (⟨S8386560, .f32⟩ : BufTy).Contents (Elt F) → (⟨S8386560, .f32⟩ : BufTy).Contents (Elt F) → (⟨S8386560, .f32⟩ : BufTy).Contents (Elt F)),
    StableHlo.binary main_v240 main_v240 main_v241 (mulf : (⟨S8386560, .f32⟩ : BufTy).Contents (Elt F) → (⟨S8386560, .f32⟩ : BufTy).Contents (Elt F) → (⟨S8386560, .f32⟩ : BufTy).Contents (Elt F)),
    StableHlo.binary main_v241 main_v241 main_v242 (mulf : (⟨S8386560, .f32⟩ : BufTy).Contents (Elt F) → (⟨S8386560, .f32⟩ : BufTy).Contents (Elt F) → (⟨S8386560, .f32⟩ : BufTy).Contents (Elt F)) ]
set_option maxHeartbeats 40000000 in
theorem it31_sub : (it31 : List (HloOp τ sig (Elt F))).Forall fun op => op.bufs ⊆ tcRefs τ sig :=
  ⟨StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub ..⟩
set_option maxHeartbeats 40000000 in
theorem it31_fresh : ∀ op ∈ (it31 : List (HloOp τ sig (Elt F))), op.fresh = ∅ := by
  intro _ h; (repeat (cases h with | head => rfl | tail _ h => ?_)); exact nomatch h

set_option maxHeartbeats 40000000 in
/-- 60 operations (@main). -/
abbrev it32 : List (HloOp τ sig (Elt F)) :=
  [ StableHlo.binary main_v240 main_v242 main_v243 (mulf : (⟨S8386560, .f32⟩ : BufTy).Contents (Elt F) → (⟨S8386560, .f32⟩ : BufTy).Contents (Elt F) → (⟨S8386560, .f32⟩ : BufTy).Contents (Elt F)),
    StableHlo.nullary main_cst_55 (constant S_ .f32 0x3F800000#32),
    StableHlo.unary main_cst_55 main_v244 (broadcastInDim S8386560 ![] bcast_S_S8386560 : (⟨S_, .f32⟩ : BufTy).Contents (Elt F) → (⟨S8386560, .f32⟩ : BufTy).Contents (Elt F)),
    StableHlo.binary main_v244 main_v243 main_v245 (addf : (⟨S8386560, .f32⟩ : BufTy).Contents (Elt F) → (⟨S8386560, .f32⟩ : BufTy).Contents (Elt F) → (⟨S8386560, .f32⟩ : BufTy).Contents (Elt F)),
    StableHlo.binary main_v237 main_v245 main_v246 (Host.divf : (⟨S8386560, .f32⟩ : BufTy).Contents (Elt F) → (⟨S8386560, .f32⟩ : BufTy).Contents (Elt F) → (⟨S8386560, .f32⟩ : BufTy).Contents (Elt F)),
    StableHlo.binary main_v231 main_v246 main_v247 (subf : (⟨S8386560, .f32⟩ : BufTy).Contents (Elt F) → (⟨S8386560, .f32⟩ : BufTy).Contents (Elt F) → (⟨S8386560, .f32⟩ : BufTy).Contents (Elt F)),
    StableHlo.nullary main_c_56 (constantI S_ 32 0#32),
    StableHlo.unary main_c_56 main_v248 (broadcastInDim S8386560 ![] bcast_S_S8386560 : (⟨S_, .i32⟩ : BufTy).Contents (Elt F) → (⟨S8386560, .i32⟩ : BufTy).Contents (Elt F)),
    StableHlo.binary main_v61 main_v248 main_v249 (cmpi .slt : (⟨S8386560, .i32⟩ : BufTy).Contents (Elt F) → (⟨S8386560, .i32⟩ : BufTy).Contents (Elt F) → (⟨S8386560, .i1⟩ : BufTy).Contents (Elt F)),
    StableHlo.nullary main_c_57 (constantI S_ 32 4096#32),
    StableHlo.unary main_c_57 main_v250 (broadcastInDim S8386560 ![] bcast_S_S8386560 : (⟨S_, .i32⟩ : BufTy).Contents (Elt F) → (⟨S8386560, .i32⟩ : BufTy).Contents (Elt F)),
    StableHlo.binary main_v61 main_v250 main_v251 (addi : (⟨S8386560, .i32⟩ : BufTy).Contents (Elt F) → (⟨S8386560, .i32⟩ : BufTy).Contents (Elt F) → (⟨S8386560, .i32⟩ : BufTy).Contents (Elt F)),
    StableHlo.ternary main_v249 main_v251 main_v61 main_v252 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v252 main_v253 (broadcastInDim S8386560x1 ![0] bcast_S8386560_S8386560x1_0 : (⟨S8386560, .i32⟩ : BufTy).Contents (Elt F) → (⟨S8386560x1, .i32⟩ : BufTy).Contents (Elt F)),
    StableHlo.binary main_v13 main_v253 main_v254 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_58 (constantI S_ 32 0#32),
    StableHlo.unary main_c_58 main_v255 (broadcastInDim S8386560 ![] bcast_S_S8386560 : (⟨S_, .i32⟩ : BufTy).Contents (Elt F) → (⟨S8386560, .i32⟩ : BufTy).Contents (Elt F)),
    StableHlo.binary main_v61 main_v255 main_v256 (cmpi .slt : (⟨S8386560, .i32⟩ : BufTy).Contents (Elt F) → (⟨S8386560, .i32⟩ : BufTy).Contents (Elt F) → (⟨S8386560, .i1⟩ : BufTy).Contents (Elt F)),
    StableHlo.nullary main_c_59 (constantI S_ 32 4096#32),
    StableHlo.unary main_c_59 main_v257 (broadcastInDim S8386560 ![] bcast_S_S8386560 : (⟨S_, .i32⟩ : BufTy).Contents (Elt F) → (⟨S8386560, .i32⟩ : BufTy).Contents (Elt F)),
    StableHlo.binary main_v61 main_v257 main_v258 (addi : (⟨S8386560, .i32⟩ : BufTy).Contents (Elt F) → (⟨S8386560, .i32⟩ : BufTy).Contents (Elt F) → (⟨S8386560, .i32⟩ : BufTy).Contents (Elt F)),
    StableHlo.ternary main_v256 main_v258 main_v61 main_v259 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v259 main_v260 (broadcastInDim S8386560x1 ![0] bcast_S8386560_S8386560x1_0 : (⟨S8386560, .i32⟩ : BufTy).Contents (Elt F) → (⟨S8386560x1, .i32⟩ : BufTy).Contents (Elt F)),
    StableHlo.binary main_v15 main_v260 main_v261 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_60 (constantI S_ 32 0#32),
    StableHlo.unary main_c_60 main_v262 (broadcastInDim S8386560 ![] bcast_S_S8386560 : (⟨S_, .i32⟩ : BufTy).Contents (Elt F) → (⟨S8386560, .i32⟩ : BufTy).Contents (Elt F)),
    StableHlo.binary main_v61 main_v262 main_v263 (cmpi .slt : (⟨S8386560, .i32⟩ : BufTy).Contents (Elt F) → (⟨S8386560, .i32⟩ : BufTy).Contents (Elt F) → (⟨S8386560, .i1⟩ : BufTy).Contents (Elt F)),
    StableHlo.nullary main_c_61 (constantI S_ 32 4096#32),
    StableHlo.unary main_c_61 main_v264 (broadcastInDim S8386560 ![] bcast_S_S8386560 : (⟨S_, .i32⟩ : BufTy).Contents (Elt F) → (⟨S8386560, .i32⟩ : BufTy).Contents (Elt F)),
    StableHlo.binary main_v61 main_v264 main_v265 (addi : (⟨S8386560, .i32⟩ : BufTy).Contents (Elt F) → (⟨S8386560, .i32⟩ : BufTy).Contents (Elt F) → (⟨S8386560, .i32⟩ : BufTy).Contents (Elt F)),
    StableHlo.ternary main_v263 main_v265 main_v61 main_v266 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v266 main_v267 (broadcastInDim S8386560x1 ![0] bcast_S8386560_S8386560x1_0 : (⟨S8386560, .i32⟩ : BufTy).Contents (Elt F) → (⟨S8386560x1, .i32⟩ : BufTy).Contents (Elt F)),
    StableHlo.binary main_v1 main_v267 main_v268 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_62 (constantI S_ 32 0#32),
    StableHlo.unary main_c_62 main_v269 (broadcastInDim S8386560 ![] bcast_S_S8386560 : (⟨S_, .i32⟩ : BufTy).Contents (Elt F) → (⟨S8386560, .i32⟩ : BufTy).Contents (Elt F)),
    StableHlo.binary main_v61 main_v269 main_v270 (cmpi .slt : (⟨S8386560, .i32⟩ : BufTy).Contents (Elt F) → (⟨S8386560, .i32⟩ : BufTy).Contents (Elt F) → (⟨S8386560, .i1⟩ : BufTy).Contents (Elt F)),
    StableHlo.nullary main_c_63 (constantI S_ 32 4096#32),
    StableHlo.unary main_c_63 main_v271 (broadcastInDim S8386560 ![] bcast_S_S8386560 : (⟨S_, .i32⟩ : BufTy).Contents (Elt F) → (⟨S8386560, .i32⟩ : BufTy).Contents (Elt F)),
    StableHlo.binary main_v61 main_v271 main_v272 (addi : (⟨S8386560, .i32⟩ : BufTy).Contents (Elt F) → (⟨S8386560, .i32⟩ : BufTy).Contents (Elt F) → (⟨S8386560, .i32⟩ : BufTy).Contents (Elt F)),
    StableHlo.ternary main_v270 main_v272 main_v61 main_v273 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v273 main_v274 (broadcastInDim S8386560x1 ![0] bcast_S8386560_S8386560x1_0 : (⟨S8386560, .i32⟩ : BufTy).Contents (Elt F) → (⟨S8386560x1, .i32⟩ : BufTy).Contents (Elt F)),
    StableHlo.binary main_v9 main_v274 main_v275 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_64 (constantI S_ 32 0#32),
    StableHlo.unary main_c_64 main_v276 (broadcastInDim S8386560 ![] bcast_S_S8386560 : (⟨S_, .i32⟩ : BufTy).Contents (Elt F) → (⟨S8386560, .i32⟩ : BufTy).Contents (Elt F)),
    StableHlo.binary main_v61 main_v276 main_v277 (cmpi .slt : (⟨S8386560, .i32⟩ : BufTy).Contents (Elt F) → (⟨S8386560, .i32⟩ : BufTy).Contents (Elt F) → (⟨S8386560, .i1⟩ : BufTy).Contents (Elt F)),
    StableHlo.nullary main_c_65 (constantI S_ 32 4096#32),
    StableHlo.unary main_c_65 main_v278 (broadcastInDim S8386560 ![] bcast_S_S8386560 : (⟨S_, .i32⟩ : BufTy).Contents (Elt F) → (⟨S8386560, .i32⟩ : BufTy).Contents (Elt F)),
    StableHlo.binary main_v61 main_v278 main_v279 (addi : (⟨S8386560, .i32⟩ : BufTy).Contents (Elt F) → (⟨S8386560, .i32⟩ : BufTy).Contents (Elt F) → (⟨S8386560, .i32⟩ : BufTy).Contents (Elt F)),
    StableHlo.ternary main_v277 main_v279 main_v61 main_v280 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v280 main_v281 (broadcastInDim S8386560x1 ![0] bcast_S8386560_S8386560x1_0 : (⟨S8386560, .i32⟩ : BufTy).Contents (Elt F) → (⟨S8386560x1, .i32⟩ : BufTy).Contents (Elt F)),
    StableHlo.binary main_v11 main_v281 main_v282 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_66 (constantI S_ 32 0#32),
    StableHlo.unary main_c_66 main_v283 (broadcastInDim S8386560 ![] bcast_S_S8386560 : (⟨S_, .i32⟩ : BufTy).Contents (Elt F) → (⟨S8386560, .i32⟩ : BufTy).Contents (Elt F)),
    StableHlo.binary main_v61 main_v283 main_v284 (cmpi .slt : (⟨S8386560, .i32⟩ : BufTy).Contents (Elt F) → (⟨S8386560, .i32⟩ : BufTy).Contents (Elt F) → (⟨S8386560, .i1⟩ : BufTy).Contents (Elt F)),
    StableHlo.nullary main_c_67 (constantI S_ 32 4096#32),
    StableHlo.unary main_c_67 main_v285 (broadcastInDim S8386560 ![] bcast_S_S8386560 : (⟨S_, .i32⟩ : BufTy).Contents (Elt F) → (⟨S8386560, .i32⟩ : BufTy).Contents (Elt F)),
    StableHlo.binary main_v61 main_v285 main_v286 (addi : (⟨S8386560, .i32⟩ : BufTy).Contents (Elt F) → (⟨S8386560, .i32⟩ : BufTy).Contents (Elt F) → (⟨S8386560, .i32⟩ : BufTy).Contents (Elt F)),
    StableHlo.ternary main_v284 main_v286 main_v61 main_v287 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v287 main_v288 (broadcastInDim S8386560x1 ![0] bcast_S8386560_S8386560x1_0 : (⟨S8386560, .i32⟩ : BufTy).Contents (Elt F) → (⟨S8386560x1, .i32⟩ : BufTy).Contents (Elt F)),
    StableHlo.binary main_v17 main_v288 main_v289 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) ]
set_option maxHeartbeats 40000000 in
theorem it32_sub : (it32 : List (HloOp τ sig (Elt F))).Forall fun op => op.bufs ⊆ tcRefs τ sig :=
  ⟨StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub ..⟩
set_option maxHeartbeats 40000000 in
theorem it32_fresh : ∀ op ∈ (it32 : List (HloOp τ sig (Elt F))), op.fresh = ∅ := by
  intro _ h; (repeat (cases h with | head => rfl | tail _ h => ?_)); exact nomatch h

set_option maxHeartbeats 40000000 in
/-- 51 operations (@main). -/
abbrev it33 : List (HloOp τ sig (Elt F)) :=
  [ StableHlo.nullary main_c_68 (constantI S_ 32 0#32),
    StableHlo.unary main_c_68 main_v290 (broadcastInDim S8386560 ![] bcast_S_S8386560 : (⟨S_, .i32⟩ : BufTy).Contents (Elt F) → (⟨S8386560, .i32⟩ : BufTy).Contents (Elt F)),
    StableHlo.binary main_v61 main_v290 main_v291 (cmpi .slt : (⟨S8386560, .i32⟩ : BufTy).Contents (Elt F) → (⟨S8386560, .i32⟩ : BufTy).Contents (Elt F) → (⟨S8386560, .i1⟩ : BufTy).Contents (Elt F)),
    StableHlo.nullary main_c_69 (constantI S_ 32 4096#32),
    StableHlo.unary main_c_69 main_v292 (broadcastInDim S8386560 ![] bcast_S_S8386560 : (⟨S_, .i32⟩ : BufTy).Contents (Elt F) → (⟨S8386560, .i32⟩ : BufTy).Contents (Elt F)),
    StableHlo.binary main_v61 main_v292 main_v293 (addi : (⟨S8386560, .i32⟩ : BufTy).Contents (Elt F) → (⟨S8386560, .i32⟩ : BufTy).Contents (Elt F) → (⟨S8386560, .i32⟩ : BufTy).Contents (Elt F)),
    StableHlo.ternary main_v291 main_v293 main_v61 main_v294 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v294 main_v295 (broadcastInDim S8386560x1 ![0] bcast_S8386560_S8386560x1_0 : (⟨S8386560, .i32⟩ : BufTy).Contents (Elt F) → (⟨S8386560x1, .i32⟩ : BufTy).Contents (Elt F)),
    StableHlo.binary main_v19 main_v295 main_v296 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v268 main_v297 (Host.divf : (⟨S8386560, .f32⟩ : BufTy).Contents (Elt F) → (⟨S8386560, .f32⟩ : BufTy).Contents (Elt F) → (⟨S8386560, .f32⟩ : BufTy).Contents (Elt F)),
    StableHlo.unary main_v275 main_v298 (Host.negf : (⟨S8386560, .f32⟩ : BufTy).Contents (Elt F) → (⟨S8386560, .f32⟩ : BufTy).Contents (Elt F)),
    StableHlo.nullary main_cst_70 (constant S_ .f32 0x3F800000#32),
    StableHlo.unary main_cst_70 main_v299 (broadcastInDim S8386560 ![] bcast_S_S8386560 : (⟨S_, .f32⟩ : BufTy).Contents (Elt F) → (⟨S8386560, .f32⟩ : BufTy).Contents (Elt F)),
    StableHlo.binary main_v297 main_v299 main_v300 (subf : (⟨S8386560, .f32⟩ : BufTy).Contents (Elt F) → (⟨S8386560, .f32⟩ : BufTy).Contents (Elt F) → (⟨S8386560, .f32⟩ : BufTy).Contents (Elt F)),
    StableHlo.binary main_v298 main_v300 main_v301 (mulf : (⟨S8386560, .f32⟩ : BufTy).Contents (Elt F) → (⟨S8386560, .f32⟩ : BufTy).Contents (Elt F) → (⟨S8386560, .f32⟩ : BufTy).Contents (Elt F)),
    StableHlo.unary main_v301 main_v302 (Host.exp : (⟨S8386560, .f32⟩ : BufTy).Contents (Elt F) → (⟨S8386560, .f32⟩ : BufTy).Contents (Elt F)),
    StableHlo.binary main_v254 main_v302 main_v303 (mulf : (⟨S8386560, .f32⟩ : BufTy).Contents (Elt F) → (⟨S8386560, .f32⟩ : BufTy).Contents (Elt F) → (⟨S8386560, .f32⟩ : BufTy).Contents (Elt F)),
    StableHlo.binary main_v297 main_v289 main_v304 (subf : (⟨S8386560, .f32⟩ : BufTy).Contents (Elt F) → (⟨S8386560, .f32⟩ : BufTy).Contents (Elt F) → (⟨S8386560, .f32⟩ : BufTy).Contents (Elt F)),
    StableHlo.binary main_v304 main_v304 main_v305 (mulf : (⟨S8386560, .f32⟩ : BufTy).Contents (Elt F) → (⟨S8386560, .f32⟩ : BufTy).Contents (Elt F) → (⟨S8386560, .f32⟩ : BufTy).Contents (Elt F)),
    StableHlo.binary main_v305 main_v305 main_v306 (mulf : (⟨S8386560, .f32⟩ : BufTy).Contents (Elt F) → (⟨S8386560, .f32⟩ : BufTy).Contents (Elt F) → (⟨S8386560, .f32⟩ : BufTy).Contents (Elt F)),
    StableHlo.binary main_v306 main_v306 main_v307 (mulf : (⟨S8386560, .f32⟩ : BufTy).Contents (Elt F) → (⟨S8386560, .f32⟩ : BufTy).Contents (Elt F) → (⟨S8386560, .f32⟩ : BufTy).Contents (Elt F)),
    StableHlo.binary main_v307 main_v307 main_v308 (mulf : (⟨S8386560, .f32⟩ : BufTy).Contents (Elt F) → (⟨S8386560, .f32⟩ : BufTy).Contents (Elt F) → (⟨S8386560, .f32⟩ : BufTy).Contents (Elt F)),
    StableHlo.binary main_v306 main_v308 main_v309 (mulf : (⟨S8386560, .f32⟩ : BufTy).Contents (Elt F) → (⟨S8386560, .f32⟩ : BufTy).Contents (Elt F) → (⟨S8386560, .f32⟩ : BufTy).Contents (Elt F)),
    StableHlo.nullary main_cst_71 (constant S_ .f32 0x3F800000#32),
    StableHlo.unary main_cst_71 main_v310 (broadcastInDim S8386560 ![] bcast_S_S8386560 : (⟨S_, .f32⟩ : BufTy).Contents (Elt F) → (⟨S8386560, .f32⟩ : BufTy).Contents (Elt F)),
    StableHlo.binary main_v310 main_v309 main_v311 (addf : (⟨S8386560, .f32⟩ : BufTy).Contents (Elt F) → (⟨S8386560, .f32⟩ : BufTy).Contents (Elt F) → (⟨S8386560, .f32⟩ : BufTy).Contents (Elt F)),
    StableHlo.binary main_v303 main_v311 main_v312 (Host.divf : (⟨S8386560, .f32⟩ : BufTy).Contents (Elt F) → (⟨S8386560, .f32⟩ : BufTy).Contents (Elt F) → (⟨S8386560, .f32⟩ : BufTy).Contents (Elt F)),
    StableHlo.unary main_v282 main_v313 (Host.negf : (⟨S8386560, .f32⟩ : BufTy).Contents (Elt F) → (⟨S8386560, .f32⟩ : BufTy).Contents (Elt F)),
    StableHlo.nullary main_cst_72 (constant S_ .f32 0x3F800000#32),
    StableHlo.unary main_cst_72 main_v314 (broadcastInDim S8386560 ![] bcast_S_S8386560 : (⟨S_, .f32⟩ : BufTy).Contents (Elt F) → (⟨S8386560, .f32⟩ : BufTy).Contents (Elt F)),
    StableHlo.binary main_v297 main_v314 main_v315 (subf : (⟨S8386560, .f32⟩ : BufTy).Contents (Elt F) → (⟨S8386560, .f32⟩ : BufTy).Contents (Elt F) → (⟨S8386560, .f32⟩ : BufTy).Contents (Elt F)),
    StableHlo.binary main_v313 main_v315 main_v316 (mulf : (⟨S8386560, .f32⟩ : BufTy).Contents (Elt F) → (⟨S8386560, .f32⟩ : BufTy).Contents (Elt F) → (⟨S8386560, .f32⟩ : BufTy).Contents (Elt F)),
    StableHlo.unary main_v316 main_v317 (Host.exp : (⟨S8386560, .f32⟩ : BufTy).Contents (Elt F) → (⟨S8386560, .f32⟩ : BufTy).Contents (Elt F)),
    StableHlo.binary main_v261 main_v317 main_v318 (mulf : (⟨S8386560, .f32⟩ : BufTy).Contents (Elt F) → (⟨S8386560, .f32⟩ : BufTy).Contents (Elt F) → (⟨S8386560, .f32⟩ : BufTy).Contents (Elt F)),
    StableHlo.binary main_v297 main_v296 main_v319 (subf : (⟨S8386560, .f32⟩ : BufTy).Contents (Elt F) → (⟨S8386560, .f32⟩ : BufTy).Contents (Elt F) → (⟨S8386560, .f32⟩ : BufTy).Contents (Elt F)),
    StableHlo.binary main_v319 main_v319 main_v320 (mulf : (⟨S8386560, .f32⟩ : BufTy).Contents (Elt F) → (⟨S8386560, .f32⟩ : BufTy).Contents (Elt F) → (⟨S8386560, .f32⟩ : BufTy).Contents (Elt F)),
    StableHlo.binary main_v320 main_v320 main_v321 (mulf : (⟨S8386560, .f32⟩ : BufTy).Contents (Elt F) → (⟨S8386560, .f32⟩ : BufTy).Contents (Elt F) → (⟨S8386560, .f32⟩ : BufTy).Contents (Elt F)),
    StableHlo.binary main_v321 main_v321 main_v322 (mulf : (⟨S8386560, .f32⟩ : BufTy).Contents (Elt F) → (⟨S8386560, .f32⟩ : BufTy).Contents (Elt F) → (⟨S8386560, .f32⟩ : BufTy).Contents (Elt F)),
    StableHlo.binary main_v322 main_v322 main_v323 (mulf : (⟨S8386560, .f32⟩ : BufTy).Contents (Elt F) → (⟨S8386560, .f32⟩ : BufTy).Contents (Elt F) → (⟨S8386560, .f32⟩ : BufTy).Contents (Elt F)),
    StableHlo.binary main_v321 main_v323 main_v324 (mulf : (⟨S8386560, .f32⟩ : BufTy).Contents (Elt F) → (⟨S8386560, .f32⟩ : BufTy).Contents (Elt F) → (⟨S8386560, .f32⟩ : BufTy).Contents (Elt F)),
    StableHlo.nullary main_cst_73 (constant S_ .f32 0x3F800000#32),
    StableHlo.unary main_cst_73 main_v325 (broadcastInDim S8386560 ![] bcast_S_S8386560 : (⟨S_, .f32⟩ : BufTy).Contents (Elt F) → (⟨S8386560, .f32⟩ : BufTy).Contents (Elt F)),
    StableHlo.binary main_v325 main_v324 main_v326 (addf : (⟨S8386560, .f32⟩ : BufTy).Contents (Elt F) → (⟨S8386560, .f32⟩ : BufTy).Contents (Elt F) → (⟨S8386560, .f32⟩ : BufTy).Contents (Elt F)),
    StableHlo.binary main_v318 main_v326 main_v327 (Host.divf : (⟨S8386560, .f32⟩ : BufTy).Contents (Elt F) → (⟨S8386560, .f32⟩ : BufTy).Contents (Elt F) → (⟨S8386560, .f32⟩ : BufTy).Contents (Elt F)),
    StableHlo.binary main_v312 main_v327 main_v328 (subf : (⟨S8386560, .f32⟩ : BufTy).Contents (Elt F) → (⟨S8386560, .f32⟩ : BufTy).Contents (Elt F) → (⟨S8386560, .f32⟩ : BufTy).Contents (Elt F)),
    StableHlo.binary main_v166 main_v122 main_v329 (Host.divf : (⟨S8386560, .f32⟩ : BufTy).Contents (Elt F) → (⟨S8386560, .f32⟩ : BufTy).Contents (Elt F) → (⟨S8386560, .f32⟩ : BufTy).Contents (Elt F)),
    StableHlo.binary main_v329 main_v247 main_v330 (mulf : (⟨S8386560, .f32⟩ : BufTy).Contents (Elt F) → (⟨S8386560, .f32⟩ : BufTy).Contents (Elt F) → (⟨S8386560, .f32⟩ : BufTy).Contents (Elt F)),
    StableHlo.binary main_v122 main_v166 main_v331 (Host.divf : (⟨S8386560, .f32⟩ : BufTy).Contents (Elt F) → (⟨S8386560, .f32⟩ : BufTy).Contents (Elt F) → (⟨S8386560, .f32⟩ : BufTy).Contents (Elt F)),
    StableHlo.binary main_v331 main_v328 main_v332 (mulf : (⟨S8386560, .f32⟩ : BufTy).Contents (Elt F) → (⟨S8386560, .f32⟩ : BufTy).Contents (Elt F) → (⟨S8386560, .f32⟩ : BufTy).Contents (Elt F)),
    StableHlo.binary main_v330 main_v332 main_v333 (addf : (⟨S8386560, .f32⟩ : BufTy).Contents (Elt F) → (⟨S8386560, .f32⟩ : BufTy).Contents (Elt F) → (⟨S8386560, .f32⟩ : BufTy).Contents (Elt F)),
    StableHlo.nullary main_cst_74 (constant S_ .f32 0x00000000#32) ]
set_option maxHeartbeats 40000000 in
theorem it33_sub : (it33 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub ..⟩
set_option maxHeartbeats 40000000 in
theorem it33_fresh : ∀ op ∈ (it33 : List (HloOp τ sig (Elt F))), op.fresh = ∅ := by
  intro _ h; (repeat (cases h with | head => rfl | tail _ h => ?_)); exact nomatch h

set_option maxHeartbeats 40000000 in
/-- 3 operations (@main fn_where_5[main_call10]). -/
abbrev it34 : List (HloOp τ sig (Elt F)) :=
  [ StableHlo.TRef.unary (.of main_cst_74 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S8386560, .f32⟩) (broadcastInDim S8386560 ![] bcast_S_S8386560),
    StableHlo.TRef.ternary (.of main_v77 : StableHlo.TRef sig ⟨S8386560, .i1⟩) (.of main_v333 : StableHlo.TRef sig ⟨S8386560, .f32⟩) (.of main_call10_v1 : StableHlo.TRef sig ⟨S8386560, .f32⟩) (.of main_v334 : StableHlo.TRef sig ⟨S8386560, .f32⟩) select ]
set_option maxHeartbeats 40000000 in
theorem it34_sub : (it34 : List (HloOp τ sig (Elt F))).Forall fun op => op.bufs ⊆ tcRefs τ sig :=
  ⟨StableHlo.unary_bufs_sub .., StableHlo.unary_bufs_sub .., StableHlo.ternary_bufs_sub ..⟩
set_option maxHeartbeats 40000000 in
theorem it34_fresh : ∀ op ∈ (it34 : List (HloOp τ sig (Elt F))), op.fresh = ∅ := by
  intro _ h; (repeat (cases h with | head => rfl | tail _ h => ?_)); exact nomatch h

set_option maxHeartbeats 40000000 in
/-- 8 operations (@main). -/
abbrev it35 : List (HloOp τ sig (Elt F)) :=
  [ StableHlo.nullary main_cst_75 (constant S_ .f32 0x00000000#32),
    StableHlo.binary main_v334 main_cst_75 main_v335 ((fun x v => Host.reduceAdd x v reducesTo_S8386560_S_d0 h_S_) : (⟨S8386560, .f32⟩ : BufTy).Contents (Elt F) → (⟨S_, .f32⟩ : BufTy).Contents (Elt F) → (⟨S_, .f32⟩ : BufTy).Contents (Elt F)),
    StableHlo.nullary main_cst_76 (constant S_ .f32 0x3F000000#32),
    StableHlo.binary main_cst_76 main_v335 main_v336 (mulf : (⟨S_, .f32⟩ : BufTy).Contents (Elt F) → (⟨S_, .f32⟩ : BufTy).Contents (Elt F) → (⟨S_, .f32⟩ : BufTy).Contents (Elt F)),
    StableHlo.unary main_v3 main_v337 (broadcastInDim S1x4096 ![1] bcast_S4096_S1x4096_1 : (⟨S4096, .f32⟩ : BufTy).Contents (Elt F) → (⟨S1x4096, .f32⟩ : BufTy).Contents (Elt F)),
    StableHlo.unary main_v11 main_v338 (broadcastInDim S1x4096 ![1] bcast_S4096_S1x4096_1 : (⟨S4096, .f32⟩ : BufTy).Contents (Elt F) → (⟨S1x4096, .f32⟩ : BufTy).Contents (Elt F)),
    StableHlo.unary main_v1 main_v339 (broadcastInDim S1x4096 ![1] bcast_S4096_S1x4096_1 : (⟨S4096, .f32⟩ : BufTy).Contents (Elt F) → (⟨S1x4096, .f32⟩ : BufTy).Contents (Elt F)),
    StableHlo.unary main_v19 main_v340 (broadcastInDim S1x4096 ![1] bcast_S4096_S1x4096_1 : (⟨S4096, .f32⟩ : BufTy).Contents (Elt F) → (⟨S1x4096, .f32⟩ : BufTy).Contents (Elt F)) ]
set_option maxHeartbeats 40000000 in
theorem it35_sub : (it35 : List (HloOp τ sig (Elt F))).Forall fun op => op.bufs ⊆ tcRefs τ sig :=
  ⟨StableHlo.nullary_bufs_sub .., StableHlo.binary_bufs_sub .., StableHlo.nullary_bufs_sub .., StableHlo.binary_bufs_sub .., StableHlo.unary_bufs_sub .., StableHlo.unary_bufs_sub .., StableHlo.unary_bufs_sub .., StableHlo.unary_bufs_sub ..⟩
set_option maxHeartbeats 40000000 in
theorem it35_fresh : ∀ op ∈ (it35 : List (HloOp τ sig (Elt F))), op.fresh = ∅ := by
  intro _ h; (repeat (cases h with | head => rfl | tail _ h => ?_)); exact nomatch h

set_option maxHeartbeats 40000000 in
/-- 23 operations (@main). -/
abbrev it36 : List (HloOp τ sig (Elt F)) :=
  [ StableHlo.unary main_v339 main_v341 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v41 main_v341 main_v342 (Host.divf : (⟨S4096x4096, .f32⟩ : BufTy).Contents (Elt F) → (⟨S4096x4096, .f32⟩ : BufTy).Contents (Elt F) → (⟨S4096x4096, .f32⟩ : BufTy).Contents (Elt F)),
    StableHlo.unary main_v338 main_v343 (Host.negf : (⟨S1x4096, .f32⟩ : BufTy).Contents (Elt F) → (⟨S1x4096, .f32⟩ : BufTy).Contents (Elt F)),
    StableHlo.nullary main_cst_77 (constant S_ .f32 0x3F800000#32),
    StableHlo.unary main_cst_77 main_v344 (broadcastInDim S4096x4096 ![] bcast_S_S4096x4096 : (⟨S_, .f32⟩ : BufTy).Contents (Elt F) → (⟨S4096x4096, .f32⟩ : BufTy).Contents (Elt F)),
    StableHlo.binary main_v342 main_v344 main_v345 (subf : (⟨S4096x4096, .f32⟩ : BufTy).Contents (Elt F) → (⟨S4096x4096, .f32⟩ : BufTy).Contents (Elt F) → (⟨S4096x4096, .f32⟩ : BufTy).Contents (Elt F)),
    StableHlo.unary main_v343 main_v346 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v346 main_v345 main_v347 (mulf : (⟨S4096x4096, .f32⟩ : BufTy).Contents (Elt F) → (⟨S4096x4096, .f32⟩ : BufTy).Contents (Elt F) → (⟨S4096x4096, .f32⟩ : BufTy).Contents (Elt F)),
    StableHlo.unary main_v347 main_v348 (Host.exp : (⟨S4096x4096, .f32⟩ : BufTy).Contents (Elt F) → (⟨S4096x4096, .f32⟩ : BufTy).Contents (Elt F)),
    StableHlo.unary main_v337 main_v349 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v349 main_v348 main_v350 (mulf : (⟨S4096x4096, .f32⟩ : BufTy).Contents (Elt F) → (⟨S4096x4096, .f32⟩ : BufTy).Contents (Elt F) → (⟨S4096x4096, .f32⟩ : BufTy).Contents (Elt F)),
    StableHlo.unary main_v340 main_v351 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v342 main_v351 main_v352 (subf : (⟨S4096x4096, .f32⟩ : BufTy).Contents (Elt F) → (⟨S4096x4096, .f32⟩ : BufTy).Contents (Elt F) → (⟨S4096x4096, .f32⟩ : BufTy).Contents (Elt F)),
    StableHlo.binary main_v352 main_v352 main_v353 (mulf : (⟨S4096x4096, .f32⟩ : BufTy).Contents (Elt F) → (⟨S4096x4096, .f32⟩ : BufTy).Contents (Elt F) → (⟨S4096x4096, .f32⟩ : BufTy).Contents (Elt F)),
    StableHlo.binary main_v353 main_v353 main_v354 (mulf : (⟨S4096x4096, .f32⟩ : BufTy).Contents (Elt F) → (⟨S4096x4096, .f32⟩ : BufTy).Contents (Elt F) → (⟨S4096x4096, .f32⟩ : BufTy).Contents (Elt F)),
    StableHlo.binary main_v354 main_v354 main_v355 (mulf : (⟨S4096x4096, .f32⟩ : BufTy).Contents (Elt F) → (⟨S4096x4096, .f32⟩ : BufTy).Contents (Elt F) → (⟨S4096x4096, .f32⟩ : BufTy).Contents (Elt F)),
    StableHlo.binary main_v355 main_v355 main_v356 (mulf : (⟨S4096x4096, .f32⟩ : BufTy).Contents (Elt F) → (⟨S4096x4096, .f32⟩ : BufTy).Contents (Elt F) → (⟨S4096x4096, .f32⟩ : BufTy).Contents (Elt F)),
    StableHlo.binary main_v354 main_v356 main_v357 (mulf : (⟨S4096x4096, .f32⟩ : BufTy).Contents (Elt F) → (⟨S4096x4096, .f32⟩ : BufTy).Contents (Elt F) → (⟨S4096x4096, .f32⟩ : BufTy).Contents (Elt F)),
    StableHlo.nullary main_cst_78 (constant S_ .f32 0x3F800000#32),
    StableHlo.unary main_cst_78 main_v358 (broadcastInDim S4096x4096 ![] bcast_S_S4096x4096 : (⟨S_, .f32⟩ : BufTy).Contents (Elt F) → (⟨S4096x4096, .f32⟩ : BufTy).Contents (Elt F)),
    StableHlo.binary main_v358 main_v357 main_v359 (addf : (⟨S4096x4096, .f32⟩ : BufTy).Contents (Elt F) → (⟨S4096x4096, .f32⟩ : BufTy).Contents (Elt F) → (⟨S4096x4096, .f32⟩ : BufTy).Contents (Elt F)),
    StableHlo.binary main_v350 main_v359 main_v360 (Host.divf : (⟨S4096x4096, .f32⟩ : BufTy).Contents (Elt F) → (⟨S4096x4096, .f32⟩ : BufTy).Contents (Elt F) → (⟨S4096x4096, .f32⟩ : BufTy).Contents (Elt F)),
    StableHlo.nullary main_cst_79 (constant S_ .f32 0x00000000#32) ]
set_option maxHeartbeats 40000000 in
theorem it36_sub : (it36 : List (HloOp τ sig (Elt F))).Forall fun op => op.bufs ⊆ tcRefs τ sig :=
  ⟨StableHlo.unary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub ..⟩
set_option maxHeartbeats 40000000 in
theorem it36_fresh : ∀ op ∈ (it36 : List (HloOp τ sig (Elt F))), op.fresh = ∅ := by
  intro _ h; (repeat (cases h with | head => rfl | tail _ h => ?_)); exact nomatch h

set_option maxHeartbeats 40000000 in
/-- 3 operations (@main fn_where[main_call11]). -/
abbrev it37 : List (HloOp τ sig (Elt F)) :=
  [ StableHlo.TRef.unary (.of main_cst_79 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S4096x4096, .f32⟩) (broadcastInDim S4096x4096 ![] bcast_S_S4096x4096),
    StableHlo.TRef.ternary (.of main_v39 : StableHlo.TRef sig ⟨S4096x4096, .i1⟩) (.of main_call11_v1 : StableHlo.TRef sig ⟨S4096x4096, .f32⟩) (.of main_v360 : StableHlo.TRef sig ⟨S4096x4096, .f32⟩) (.of main_v361 : StableHlo.TRef sig ⟨S4096x4096, .f32⟩) select ]
set_option maxHeartbeats 40000000 in
theorem it37_sub : (it37 : List (HloOp τ sig (Elt F))).Forall fun op => op.bufs ⊆ tcRefs τ sig :=
  ⟨StableHlo.unary_bufs_sub .., StableHlo.unary_bufs_sub .., StableHlo.ternary_bufs_sub ..⟩
set_option maxHeartbeats 40000000 in
theorem it37_fresh : ∀ op ∈ (it37 : List (HloOp τ sig (Elt F))), op.fresh = ∅ := by
  intro _ h; (repeat (cases h with | head => rfl | tail _ h => ?_)); exact nomatch h

set_option maxHeartbeats 40000000 in
/-- 36 operations (@main). -/
abbrev it38 : List (HloOp τ sig (Elt F)) :=
  [ StableHlo.nullary main_cst_80 (constant S_ .f32 0x00000000#32),
    StableHlo.binary main_v361 main_cst_80 main_v362 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    StableHlo.binary main_v362 main_v25 main_v363 (Host.divf : (⟨S4096, .f32⟩ : BufTy).Contents (Elt F) → (⟨S4096, .f32⟩ : BufTy).Contents (Elt F) → (⟨S4096, .f32⟩ : BufTy).Contents (Elt F)),
    StableHlo.nullary main_cst_81 (constant S_ .f32 0x3F800000#32),
    StableHlo.unary main_cst_81 main_v364 (broadcastInDim S4096 ![] bcast_S_S4096 : (⟨S_, .f32⟩ : BufTy).Contents (Elt F) → (⟨S4096, .f32⟩ : BufTy).Contents (Elt F)),
    StableHlo.binary main_v363 main_v364 main_v365 (subf : (⟨S4096, .f32⟩ : BufTy).Contents (Elt F) → (⟨S4096, .f32⟩ : BufTy).Contents (Elt F) → (⟨S4096, .f32⟩ : BufTy).Contents (Elt F)),
    StableHlo.unary main_arg1 main_v366 ((extractStridedSlice S4096x1 ![0, 10] · slices_S4096x22_S4096x1_0_10) : (⟨S4096x22, .f32⟩ : BufTy).Contents (Elt F) → (⟨S4096x1, .f32⟩ : BufTy).Contents (Elt F)),
    StableHlo.reshape main_v366 main_v367 rfl shapeCasts_S4096x1_S4096,
    StableHlo.unary main_arg1 main_v368 ((extractStridedSlice S4096x1 ![0, 11] · slices_S4096x22_S4096x1_0_11) : (⟨S4096x22, .f32⟩ : BufTy).Contents (Elt F) → (⟨S4096x1, .f32⟩ : BufTy).Contents (Elt F)),
    StableHlo.reshape main_v368 main_v369 rfl shapeCasts_S4096x1_S4096,
    StableHlo.binary main_v369 main_v365 main_v370 (mulf : (⟨S4096, .f32⟩ : BufTy).Contents (Elt F) → (⟨S4096, .f32⟩ : BufTy).Contents (Elt F) → (⟨S4096, .f32⟩ : BufTy).Contents (Elt F)),
    StableHlo.binary main_v367 main_v370 main_v371 (addf : (⟨S4096, .f32⟩ : BufTy).Contents (Elt F) → (⟨S4096, .f32⟩ : BufTy).Contents (Elt F) → (⟨S4096, .f32⟩ : BufTy).Contents (Elt F)),
    StableHlo.unary main_arg1 main_v372 ((extractStridedSlice S4096x1 ![0, 12] · slices_S4096x22_S4096x1_0_12) : (⟨S4096x22, .f32⟩ : BufTy).Contents (Elt F) → (⟨S4096x1, .f32⟩ : BufTy).Contents (Elt F)),
    StableHlo.reshape main_v372 main_v373 rfl shapeCasts_S4096x1_S4096,
    StableHlo.binary main_v365 main_v365 main_v374 (mulf : (⟨S4096, .f32⟩ : BufTy).Contents (Elt F) → (⟨S4096, .f32⟩ : BufTy).Contents (Elt F) → (⟨S4096, .f32⟩ : BufTy).Contents (Elt F)),
    StableHlo.binary main_v373 main_v374 main_v375 (mulf : (⟨S4096, .f32⟩ : BufTy).Contents (Elt F) → (⟨S4096, .f32⟩ : BufTy).Contents (Elt F) → (⟨S4096, .f32⟩ : BufTy).Contents (Elt F)),
    StableHlo.binary main_v371 main_v375 main_v376 (addf : (⟨S4096, .f32⟩ : BufTy).Contents (Elt F) → (⟨S4096, .f32⟩ : BufTy).Contents (Elt F) → (⟨S4096, .f32⟩ : BufTy).Contents (Elt F)),
    StableHlo.unary main_arg1 main_v377 ((extractStridedSlice S4096x1 ![0, 13] · slices_S4096x22_S4096x1_0_13) : (⟨S4096x22, .f32⟩ : BufTy).Contents (Elt F) → (⟨S4096x1, .f32⟩ : BufTy).Contents (Elt F)),
    StableHlo.reshape main_v377 main_v378 rfl shapeCasts_S4096x1_S4096,
    StableHlo.binary main_v365 main_v365 main_v379 (mulf : (⟨S4096, .f32⟩ : BufTy).Contents (Elt F) → (⟨S4096, .f32⟩ : BufTy).Contents (Elt F) → (⟨S4096, .f32⟩ : BufTy).Contents (Elt F)),
    StableHlo.binary main_v379 main_v365 main_v380 (mulf : (⟨S4096, .f32⟩ : BufTy).Contents (Elt F) → (⟨S4096, .f32⟩ : BufTy).Contents (Elt F) → (⟨S4096, .f32⟩ : BufTy).Contents (Elt F)),
    StableHlo.binary main_v378 main_v380 main_v381 (mulf : (⟨S4096, .f32⟩ : BufTy).Contents (Elt F) → (⟨S4096, .f32⟩ : BufTy).Contents (Elt F) → (⟨S4096, .f32⟩ : BufTy).Contents (Elt F)),
    StableHlo.binary main_v376 main_v381 main_v382 (addf : (⟨S4096, .f32⟩ : BufTy).Contents (Elt F) → (⟨S4096, .f32⟩ : BufTy).Contents (Elt F) → (⟨S4096, .f32⟩ : BufTy).Contents (Elt F)),
    StableHlo.binary main_v362 main_v5 main_v383 (Host.divf : (⟨S4096, .f32⟩ : BufTy).Contents (Elt F) → (⟨S4096, .f32⟩ : BufTy).Contents (Elt F) → (⟨S4096, .f32⟩ : BufTy).Contents (Elt F)),
    StableHlo.nullary main_cst_82 (constant S_ .f32 0x3F800000#32),
    StableHlo.unary main_cst_82 main_v384 (broadcastInDim S4096 ![] bcast_S_S4096 : (⟨S_, .f32⟩ : BufTy).Contents (Elt F) → (⟨S4096, .f32⟩ : BufTy).Contents (Elt F)),
    StableHlo.binary main_v383 main_v384 main_v385 (subf : (⟨S4096, .f32⟩ : BufTy).Contents (Elt F) → (⟨S4096, .f32⟩ : BufTy).Contents (Elt F) → (⟨S4096, .f32⟩ : BufTy).Contents (Elt F)),
    StableHlo.unary main_arg1 main_v386 ((extractStridedSlice S4096x1 ![0, 14] · slices_S4096x22_S4096x1_0_14) : (⟨S4096x22, .f32⟩ : BufTy).Contents (Elt F) → (⟨S4096x1, .f32⟩ : BufTy).Contents (Elt F)),
    StableHlo.reshape main_v386 main_v387 rfl shapeCasts_S4096x1_S4096,
    StableHlo.unary main_arg1 main_v388 ((extractStridedSlice S4096x1 ![0, 15] · slices_S4096x22_S4096x1_0_15) : (⟨S4096x22, .f32⟩ : BufTy).Contents (Elt F) → (⟨S4096x1, .f32⟩ : BufTy).Contents (Elt F)),
    StableHlo.reshape main_v388 main_v389 rfl shapeCasts_S4096x1_S4096,
    StableHlo.binary main_v389 main_v385 main_v390 (mulf : (⟨S4096, .f32⟩ : BufTy).Contents (Elt F) → (⟨S4096, .f32⟩ : BufTy).Contents (Elt F) → (⟨S4096, .f32⟩ : BufTy).Contents (Elt F)),
    StableHlo.binary main_v387 main_v390 main_v391 (addf : (⟨S4096, .f32⟩ : BufTy).Contents (Elt F) → (⟨S4096, .f32⟩ : BufTy).Contents (Elt F) → (⟨S4096, .f32⟩ : BufTy).Contents (Elt F)),
    StableHlo.unary main_arg1 main_v392 ((extractStridedSlice S4096x1 ![0, 16] · slices_S4096x22_S4096x1_0_16) : (⟨S4096x22, .f32⟩ : BufTy).Contents (Elt F) → (⟨S4096x1, .f32⟩ : BufTy).Contents (Elt F)),
    StableHlo.reshape main_v392 main_v393 rfl shapeCasts_S4096x1_S4096,
    StableHlo.binary main_v385 main_v385 main_v394 (mulf : (⟨S4096, .f32⟩ : BufTy).Contents (Elt F) → (⟨S4096, .f32⟩ : BufTy).Contents (Elt F) → (⟨S4096, .f32⟩ : BufTy).Contents (Elt F)) ]
set_option maxHeartbeats 40000000 in
theorem it38_sub : (it38 : List (HloOp τ sig (Elt F))).Forall fun op => op.bufs ⊆ tcRefs τ sig :=
  ⟨StableHlo.nullary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub .., StableHlo.binary_bufs_sub .., StableHlo.binary_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.binary_bufs_sub ..⟩
set_option maxHeartbeats 40000000 in
theorem it38_fresh : ∀ op ∈ (it38 : List (HloOp τ sig (Elt F))), op.fresh = ∅ := by
  intro _ h; (repeat (cases h with | head => rfl | tail _ h => ?_)); exact nomatch h

set_option maxHeartbeats 40000000 in
/-- 18 operations (@main). -/
abbrev it39 : List (HloOp τ sig (Elt F)) :=
  [ StableHlo.binary main_v393 main_v394 main_v395 (mulf : (⟨S4096, .f32⟩ : BufTy).Contents (Elt F) → (⟨S4096, .f32⟩ : BufTy).Contents (Elt F) → (⟨S4096, .f32⟩ : BufTy).Contents (Elt F)),
    StableHlo.binary main_v391 main_v395 main_v396 (addf : (⟨S4096, .f32⟩ : BufTy).Contents (Elt F) → (⟨S4096, .f32⟩ : BufTy).Contents (Elt F) → (⟨S4096, .f32⟩ : BufTy).Contents (Elt F)),
    StableHlo.unary main_arg1 main_v397 ((extractStridedSlice S4096x1 ![0, 17] · slices_S4096x22_S4096x1_0_17) : (⟨S4096x22, .f32⟩ : BufTy).Contents (Elt F) → (⟨S4096x1, .f32⟩ : BufTy).Contents (Elt F)),
    StableHlo.reshape main_v397 main_v398 rfl shapeCasts_S4096x1_S4096,
    StableHlo.binary main_v385 main_v385 main_v399 (mulf : (⟨S4096, .f32⟩ : BufTy).Contents (Elt F) → (⟨S4096, .f32⟩ : BufTy).Contents (Elt F) → (⟨S4096, .f32⟩ : BufTy).Contents (Elt F)),
    StableHlo.binary main_v399 main_v385 main_v400 (mulf : (⟨S4096, .f32⟩ : BufTy).Contents (Elt F) → (⟨S4096, .f32⟩ : BufTy).Contents (Elt F) → (⟨S4096, .f32⟩ : BufTy).Contents (Elt F)),
    StableHlo.binary main_v398 main_v400 main_v401 (mulf : (⟨S4096, .f32⟩ : BufTy).Contents (Elt F) → (⟨S4096, .f32⟩ : BufTy).Contents (Elt F) → (⟨S4096, .f32⟩ : BufTy).Contents (Elt F)),
    StableHlo.binary main_v396 main_v401 main_v402 (addf : (⟨S4096, .f32⟩ : BufTy).Contents (Elt F) → (⟨S4096, .f32⟩ : BufTy).Contents (Elt F) → (⟨S4096, .f32⟩ : BufTy).Contents (Elt F)),
    StableHlo.binary main_v362 main_v7 main_v403 (Host.divf : (⟨S4096, .f32⟩ : BufTy).Contents (Elt F) → (⟨S4096, .f32⟩ : BufTy).Contents (Elt F) → (⟨S4096, .f32⟩ : BufTy).Contents (Elt F)),
    StableHlo.binary main_v403 main_v21 main_v404 (Host.powf : (⟨S4096, .f32⟩ : BufTy).Contents (Elt F) → (⟨S4096, .f32⟩ : BufTy).Contents (Elt F) → (⟨S4096, .f32⟩ : BufTy).Contents (Elt F)),
    StableHlo.unary main_v404 main_v405 (Host.log : (⟨S4096, .f32⟩ : BufTy).Contents (Elt F) → (⟨S4096, .f32⟩ : BufTy).Contents (Elt F)),
    StableHlo.nullary main_cst_83 (constant S_ .f32 0x3F800000#32),
    StableHlo.unary main_cst_83 main_v406 (broadcastInDim S4096 ![] bcast_S_S4096 : (⟨S_, .f32⟩ : BufTy).Contents (Elt F) → (⟨S4096, .f32⟩ : BufTy).Contents (Elt F)),
    StableHlo.binary main_v406 main_v405 main_v407 (subf : (⟨S4096, .f32⟩ : BufTy).Contents (Elt F) → (⟨S4096, .f32⟩ : BufTy).Contents (Elt F) → (⟨S4096, .f32⟩ : BufTy).Contents (Elt F)),
    StableHlo.binary main_v23 main_v407 main_v408 (mulf : (⟨S4096, .f32⟩ : BufTy).Contents (Elt F) → (⟨S4096, .f32⟩ : BufTy).Contents (Elt F) → (⟨S4096, .f32⟩ : BufTy).Contents (Elt F)),
    StableHlo.binary main_v408 main_v404 main_v409 (mulf : (⟨S4096, .f32⟩ : BufTy).Contents (Elt F) → (⟨S4096, .f32⟩ : BufTy).Contents (Elt F) → (⟨S4096, .f32⟩ : BufTy).Contents (Elt F)),
    StableHlo.binary main_v362 main_v25 main_v410 (cmpf .olt : (⟨S4096, .f32⟩ : BufTy).Contents (Elt F) → (⟨S4096, .f32⟩ : BufTy).Contents (Elt F) → (⟨S4096, .i1⟩ : BufTy).Contents (Elt F)),
    StableHlo.binary main_v362 main_v27 main_v411 (cmpf .olt : (⟨S4096, .f32⟩ : BufTy).Contents (Elt F) → (⟨S4096, .f32⟩ : BufTy).Contents (Elt F) → (⟨S4096, .i1⟩ : BufTy).Contents (Elt F)) ]
set_option maxHeartbeats 40000000 in
theorem it39_sub : (it39 : List (HloOp τ sig (Elt F))).Forall fun op => op.bufs ⊆ tcRefs τ sig :=
  ⟨StableHlo.binary_bufs_sub .., StableHlo.binary_bufs_sub .., StableHlo.unary_bufs_sub .., StableHlo.reshape_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub ..⟩
set_option maxHeartbeats 40000000 in
theorem it39_fresh : ∀ op ∈ (it39 : List (HloOp τ sig (Elt F))), op.fresh = ∅ := by
  intro _ h; (repeat (cases h with | head => rfl | tail _ h => ?_)); exact nomatch h

set_option maxHeartbeats 40000000 in
/-- 1 operation (@main fn_where_6[main_call12]). -/
abbrev it40 : List (HloOp τ sig (Elt F)) :=
  [ StableHlo.TRef.ternary (.of main_v411 : StableHlo.TRef sig ⟨S4096, .i1⟩) (.of main_v402 : StableHlo.TRef sig ⟨S4096, .f32⟩) (.of main_v409 : StableHlo.TRef sig ⟨S4096, .f32⟩) (.of main_v412 : StableHlo.TRef sig ⟨S4096, .f32⟩) select ]
set_option maxHeartbeats 40000000 in
theorem it40_sub : (it40 : List (HloOp τ sig (Elt F))).Forall fun op => op.bufs ⊆ tcRefs τ sig :=
  StableHlo.ternary_bufs_sub ..
set_option maxHeartbeats 40000000 in
theorem it40_fresh : ∀ op ∈ (it40 : List (HloOp τ sig (Elt F))), op.fresh = ∅ := by
  intro _ h; (repeat (cases h with | head => rfl | tail _ h => ?_)); exact nomatch h

set_option maxHeartbeats 40000000 in
/-- 1 operation (@main fn_where_6[main_call13]). -/
abbrev it41 : List (HloOp τ sig (Elt F)) :=
  [ StableHlo.TRef.ternary (.of main_v410 : StableHlo.TRef sig ⟨S4096, .i1⟩) (.of main_v382 : StableHlo.TRef sig ⟨S4096, .f32⟩) (.of main_v412 : StableHlo.TRef sig ⟨S4096, .f32⟩) (.of main_v413 : StableHlo.TRef sig ⟨S4096, .f32⟩) select ]
set_option maxHeartbeats 40000000 in
theorem it41_sub : (it41 : List (HloOp τ sig (Elt F))).Forall fun op => op.bufs ⊆ tcRefs τ sig :=
  StableHlo.ternary_bufs_sub ..
set_option maxHeartbeats 40000000 in
theorem it41_fresh : ∀ op ∈ (it41 : List (HloOp τ sig (Elt F))), op.fresh = ∅ := by
  intro _ h; (repeat (cases h with | head => rfl | tail _ h => ?_)); exact nomatch h

set_option maxHeartbeats 40000000 in
/-- 3 operations (@main). -/
abbrev it42 : List (HloOp τ sig (Elt F)) :=
  [ StableHlo.nullary main_cst_84 (constant S_ .f32 0x00000000#32),
    StableHlo.binary main_v413 main_cst_84 main_v414 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v336 main_v414 main_v415 (addf : (⟨S_, .f32⟩ : BufTy).Contents (Elt F) → (⟨S_, .f32⟩ : BufTy).Contents (Elt F) → (⟨S_, .f32⟩ : BufTy).Contents (Elt F)) ]
set_option maxHeartbeats 40000000 in
theorem it42_sub : (it42 : List (HloOp τ sig (Elt F))).Forall fun op => op.bufs ⊆ tcRefs τ sig :=
  ⟨StableHlo.nullary_bufs_sub .., StableHlo.binary_bufs_sub .., StableHlo.binary_bufs_sub ..⟩
set_option maxHeartbeats 40000000 in
theorem it42_fresh : ∀ op ∈ (it42 : List (HloOp τ sig (Elt F))), op.fresh = ∅ := by
  intro _ h; (repeat (cases h with | head => rfl | tail _ h => ?_)); exact nomatch h

set_option maxHeartbeats 40000000 in
theorem part0_eq (c : Dev nD) : main_part0 (F := F) c = (Pipeline.chainK
  [ StableHlo.seq it0,
    StableHlo.seq it1,
    StableHlo.seq it2,
    StableHlo.seq it3,
    StableHlo.seq it4,
    StableHlo.seq it5,
    StableHlo.seq it6,
    StableHlo.seq it7,
    StableHlo.seq it8 ]
  (StableHlo.seq it9) : Prog (TpuEff nD τ sig (Elt F) (Pipeline.Sig Λ₀ (Fin 0) fun p => (pcfgs (F := F) p).Adm) .tc) PUnit) := by
  chain_rfl

set_option maxHeartbeats 40000000 in
theorem part1_eq (c : Dev nD) : main_part1 (F := F) c = (Pipeline.chainK
  [ StableHlo.seq it10,
    StableHlo.seq it11,
    StableHlo.seq it12,
    StableHlo.seq it13,
    StableHlo.seq it14,
    StableHlo.seq it15,
    StableHlo.seq it16,
    StableHlo.seq it17,
    StableHlo.seq it18,
    StableHlo.seq it19,
    StableHlo.seq it20,
    StableHlo.seq it21,
    StableHlo.seq it22,
    StableHlo.seq it23,
    StableHlo.seq it24,
    StableHlo.seq it25,
    StableHlo.seq it26,
    StableHlo.seq it27 ]
  (StableHlo.seq it28) : Prog (TpuEff nD τ sig (Elt F) (Pipeline.Sig Λ₀ (Fin 0) fun p => (pcfgs (F := F) p).Adm) .tc) PUnit) := by
  chain_rfl

set_option maxHeartbeats 40000000 in
theorem part2_eq (c : Dev nD) : main_part2 (F := F) c = (Pipeline.chainK
  [  ]
  (StableHlo.seq it29) : Prog (TpuEff nD τ sig (Elt F) (Pipeline.Sig Λ₀ (Fin 0) fun p => (pcfgs (F := F) p).Adm) .tc) PUnit) := by
  chain_rfl

set_option maxHeartbeats 40000000 in
theorem part3_eq (c : Dev nD) : main_part3 (F := F) c = (Pipeline.chainK
  [  ]
  (StableHlo.seq it30) : Prog (TpuEff nD τ sig (Elt F) (Pipeline.Sig Λ₀ (Fin 0) fun p => (pcfgs (F := F) p).Adm) .tc) PUnit) := by
  chain_rfl

set_option maxHeartbeats 40000000 in
theorem part4_eq (c : Dev nD) : main_part4 (F := F) c = (Pipeline.chainK
  [  ]
  (StableHlo.seq it31) : Prog (TpuEff nD τ sig (Elt F) (Pipeline.Sig Λ₀ (Fin 0) fun p => (pcfgs (F := F) p).Adm) .tc) PUnit) := by
  chain_rfl

set_option maxHeartbeats 40000000 in
theorem part5_eq (c : Dev nD) : main_part5 (F := F) c = (Pipeline.chainK
  [  ]
  (StableHlo.seq it32) : Prog (TpuEff nD τ sig (Elt F) (Pipeline.Sig Λ₀ (Fin 0) fun p => (pcfgs (F := F) p).Adm) .tc) PUnit) := by
  chain_rfl

set_option maxHeartbeats 40000000 in
theorem part6_eq (c : Dev nD) : main_part6 (F := F) c = (Pipeline.chainK
  [ StableHlo.seq it33,
    StableHlo.seq it34 ]
  (StableHlo.seq it35) : Prog (TpuEff nD τ sig (Elt F) (Pipeline.Sig Λ₀ (Fin 0) fun p => (pcfgs (F := F) p).Adm) .tc) PUnit) := by
  chain_rfl

set_option maxHeartbeats 40000000 in
theorem part7_eq (c : Dev nD) : main_part7 (F := F) c = (Pipeline.chainK
  [ StableHlo.seq it36,
    StableHlo.seq it37 ]
  (StableHlo.seq it38) : Prog (TpuEff nD τ sig (Elt F) (Pipeline.Sig Λ₀ (Fin 0) fun p => (pcfgs (F := F) p).Adm) .tc) PUnit) := by
  chain_rfl

set_option maxHeartbeats 40000000 in
theorem part8_eq (c : Dev nD) : main_part8 (F := F) c = (Pipeline.chain
  [ StableHlo.seq it39,
    StableHlo.seq it40,
    StableHlo.seq it41,
    StableHlo.seq it42 ] : Prog (TpuEff nD τ sig (Elt F) (Pipeline.Sig Λ₀ (Fin 0) fun p => (pcfgs (F := F) p).Adm) .tc) PUnit) := by
  chain_rfl

set_option maxHeartbeats 40000000 in
/-- @main is its windows one after the other: the chain of all the items. -/
theorem main_chain (c : Dev nD) : main (F := F) c = (Pipeline.chain
  [ StableHlo.seq it0,
    StableHlo.seq it1,
    StableHlo.seq it2,
    StableHlo.seq it3,
    StableHlo.seq it4,
    StableHlo.seq it5,
    StableHlo.seq it6,
    StableHlo.seq it7,
    StableHlo.seq it8,
    StableHlo.seq it9,
    StableHlo.seq it10,
    StableHlo.seq it11,
    StableHlo.seq it12,
    StableHlo.seq it13,
    StableHlo.seq it14,
    StableHlo.seq it15,
    StableHlo.seq it16,
    StableHlo.seq it17,
    StableHlo.seq it18,
    StableHlo.seq it19,
    StableHlo.seq it20,
    StableHlo.seq it21,
    StableHlo.seq it22,
    StableHlo.seq it23,
    StableHlo.seq it24,
    StableHlo.seq it25,
    StableHlo.seq it26,
    StableHlo.seq it27,
    StableHlo.seq it28,
    StableHlo.seq it29,
    StableHlo.seq it30,
    StableHlo.seq it31,
    StableHlo.seq it32,
    StableHlo.seq it33,
    StableHlo.seq it34,
    StableHlo.seq it35,
    StableHlo.seq it36,
    StableHlo.seq it37,
    StableHlo.seq it38,
    StableHlo.seq it39,
    StableHlo.seq it40,
    StableHlo.seq it41,
    StableHlo.seq it42 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c) = _
  rewrite [part8_eq, part7_eq, Pipeline.chainK_bind_chain, part6_eq, Pipeline.chainK_bind_chain, part5_eq, Pipeline.chainK_bind_chain, part4_eq, Pipeline.chainK_bind_chain, part3_eq, Pipeline.chainK_bind_chain, part2_eq, Pipeline.chainK_bind_chain, part1_eq, Pipeline.chainK_bind_chain, part0_eq, Pipeline.chainK_bind_chain]
  rfl

/-- Lines of operations run one after the other are their concatenation run as one line. -/
theorem chain_seq {nD : Nat} {τ : Topo} {sig : RefSig} {Val : EltTy → Type} {Λ : Labels} (ls : List (List (HloOp τ sig Val))) :
    (Pipeline.chain (ls.map fun l => (StableHlo.seq l : Prog (TpuEff nD τ sig Val Λ .tc) PUnit)) : Prog (TpuEff nD τ sig Val Λ .tc) PUnit)
      = StableHlo.seq ls.flatten := by
  induction ls with
  | nil => rfl
  | cons l ls ih => rw [List.map_cons, Pipeline.chain_cons, ih, List.flatten_cons, StableHlo.seq_append]

/-- The items, in order. -/
abbrev items : List (List (HloOp τ sig (Elt F))) := [ it0, it1, it2, it3, it4, it5, it6, it7, it8, it9, it10, it11, it12, it13, it14, it15, it16, it17, it18, it19, it20, it21, it22, it23, it24, it25, it26, it27, it28, it29, it30, it31, it32, it33, it34, it35, it36, it37, it38, it39, it40, it41, it42 ]

/-- @main's 597 operations, in order. -/
abbrev ops : List (HloOp τ sig (Elt F)) := (items (F := F)).flatten

theorem main_eq (c : Dev nD) : main (F := F) c = StableHlo.seq ops := by
  rw [main_chain, ← chain_seq]
  rfl

theorem items_sub : ∀ l ∈ (items : List (List (HloOp τ sig (Elt F)))), l.Forall fun op => op.bufs ⊆ tcRefs τ sig := by
  intro l hl
  simp only [items, List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact it0_sub
  · exact it1_sub
  · exact it2_sub
  · exact it3_sub
  · exact it4_sub
  · exact it5_sub
  · exact it6_sub
  · exact it7_sub
  · exact it8_sub
  · exact it9_sub
  · exact it10_sub
  · exact it11_sub
  · exact it12_sub
  · exact it13_sub
  · exact it14_sub
  · exact it15_sub
  · exact it16_sub
  · exact it17_sub
  · exact it18_sub
  · exact it19_sub
  · exact it20_sub
  · exact it21_sub
  · exact it22_sub
  · exact it23_sub
  · exact it24_sub
  · exact it25_sub
  · exact it26_sub
  · exact it27_sub
  · exact it28_sub
  · exact it29_sub
  · exact it30_sub
  · exact it31_sub
  · exact it32_sub
  · exact it33_sub
  · exact it34_sub
  · exact it35_sub
  · exact it36_sub
  · exact it37_sub
  · exact it38_sub
  · exact it39_sub
  · exact it40_sub
  · exact it41_sub
  · exact it42_sub

theorem items_fresh : ∀ l ∈ (items : List (List (HloOp τ sig (Elt F)))), ∀ op ∈ l, op.fresh = ∅ := by
  intro l hl
  simp only [items, List.mem_cons, List.not_mem_nil, or_false] at hl
  rcases hl with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact it0_fresh
  · exact it1_fresh
  · exact it2_fresh
  · exact it3_fresh
  · exact it4_fresh
  · exact it5_fresh
  · exact it6_fresh
  · exact it7_fresh
  · exact it8_fresh
  · exact it9_fresh
  · exact it10_fresh
  · exact it11_fresh
  · exact it12_fresh
  · exact it13_fresh
  · exact it14_fresh
  · exact it15_fresh
  · exact it16_fresh
  · exact it17_fresh
  · exact it18_fresh
  · exact it19_fresh
  · exact it20_fresh
  · exact it21_fresh
  · exact it22_fresh
  · exact it23_fresh
  · exact it24_fresh
  · exact it25_fresh
  · exact it26_fresh
  · exact it27_fresh
  · exact it28_fresh
  · exact it29_fresh
  · exact it30_fresh
  · exact it31_fresh
  · exact it32_fresh
  · exact it33_fresh
  · exact it34_fresh
  · exact it35_fresh
  · exact it36_fresh
  · exact it37_fresh
  · exact it38_fresh
  · exact it39_fresh
  · exact it40_fresh
  · exact it41_fresh
  · exact it42_fresh

theorem ops_sub : (ops : List (HloOp τ sig (Elt F))).Forall fun op => op.bufs ⊆ tcRefs τ sig := by
  rw [List.forall_iff_forall_mem]
  intro op hop
  obtain ⟨l, hl, hop'⟩ := List.mem_flatten.1 hop
  exact (List.forall_iff_forall_mem.1 (items_sub l hl)) op hop'

theorem ops_fresh : ∀ op ∈ (ops : List (HloOp τ sig (Elt F))), op.fresh = ∅ := by
  intro op hop
  obtain ⟨l, hl, hop'⟩ := List.mem_flatten.1 hop
  exact items_fresh l hl op hop'

theorem scopedRefs_eq : (Finset.univ.filter fun b : Ref sig .tc => b.isScoped) = ∅ := by decide
theorem scopedSems_eq : (Finset.univ.filter fun sm : SemLoc sig => sm.isScoped .tc) = ∅ := by decide

/-- On every device, from any memory with zero counters: every weakly fair execution of @main terminates with each
    buffer at the operations' results folded over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (ops (F := F)) (launchContents m d) (Proc.devRef .tc b) :=
  run_seq scopedRefs_eq scopedSems_eq defs main (fun _ => ops) main_eq (fun _ => ops_sub) m ρ (fun _ => ops_fresh)

end Cert.ReferenceIdeal.HandRun

end
-- ==== Proof.RSeg.lean ====
/-
  The reference's operations cut into twenty-one consecutive stretches — the parameter columns; the distance matrix;
  the strict-upper mask and its running count; the histogram and its running sum (the flat positions of the pairs);
  the pairs' rows; the pairs' columns; the pairs' distances and the cutoff mask; then, for the row atoms' and the
  column atoms' density terms and pair terms, the damped exponential's numerator and the base of its twentieth power
  followed by the power and the quotient; the pair energy; the densities; the embedding and the total — each with the
  list of the buffers it writes, so that a buffer a stretch does not write is known to keep its contents across it.
-/
import proofs.«121872_j23974507446662_1_alg».proof.Proof.RRun

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- What is in the buffers after two lines run one after the other. -/
theorem after_append {τ' : Topo} {sig' : RefSig} {Val : EltTy → Type} (l₁ l₂ : List (HloOp τ' sig' Val)) (V : Valuation τ' sig' Val) :
    after (l₁ ++ l₂) V = after l₂ (after l₁ V) := by
  induction l₁ generalizing V with
  | nil => rfl
  | cons op l ih => simp only [List.cons_append, after_cons, ih]

/-- An operation that writes the one buffer `y`, which is on the list `W`. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.2 (List.mem_toFinset.2 (List.mem_map_of_mem h))

set_option maxHeartbeats 40000000 in
/-- Stretch 0: operations 0 … 27. -/
abbrev g0 : List (HloOp τ sig (Elt F)) :=
  [ StableHlo.unary main_arg1 main_v0 ((extractStridedSlice S4096x1 ![0, 0] · slices_S4096x22_S4096x1_0_0) : (⟨S4096x22, .f32⟩ : BufTy).Contents (Elt F) → (⟨S4096x1, .f32⟩ : BufTy).Contents (Elt F)),
    StableHlo.reshape main_v0 main_v1 rfl shapeCasts_S4096x1_S4096,
    StableHlo.unary main_arg1 main_v2 ((extractStridedSlice S4096x1 ![0, 1] · slices_S4096x22_S4096x1_0_1) : (⟨S4096x22, .f32⟩ : BufTy).Contents (Elt F) → (⟨S4096x1, .f32⟩ : BufTy).Contents (Elt F)),
    StableHlo.reshape main_v2 main_v3 rfl shapeCasts_S4096x1_S4096,
    StableHlo.unary main_arg1 main_v4 ((extractStridedSlice S4096x1 ![0, 2] · slices_S4096x22_S4096x1_0_2) : (⟨S4096x22, .f32⟩ : BufTy).Contents (Elt F) → (⟨S4096x1, .f32⟩ : BufTy).Contents (Elt F)),
    StableHlo.reshape main_v4 main_v5 rfl shapeCasts_S4096x1_S4096,
    StableHlo.unary main_arg1 main_v6 ((extractStridedSlice S4096x1 ![0, 3] · slices_S4096x22_S4096x1_0_3) : (⟨S4096x22, .f32⟩ : BufTy).Contents (Elt F) → (⟨S4096x1, .f32⟩ : BufTy).Contents (Elt F)),
    StableHlo.reshape main_v6 main_v7 rfl shapeCasts_S4096x1_S4096,
    StableHlo.unary main_arg1 main_v8 ((extractStridedSlice S4096x1 ![0, 4] · slices_S4096x22_S4096x1_0_4) : (⟨S4096x22, .f32⟩ : BufTy).Contents (Elt F) → (⟨S4096x1, .f32⟩ : BufTy).Contents (Elt F)),
    StableHlo.reshape main_v8 main_v9 rfl shapeCasts_S4096x1_S4096,
    StableHlo.unary main_arg1 main_v10 ((extractStridedSlice S4096x1 ![0, 5] · slices_S4096x22_S4096x1_0_5) : (⟨S4096x22, .f32⟩ : BufTy).Contents (Elt F) → (⟨S4096x1, .f32⟩ : BufTy).Contents (Elt F)),
    StableHlo.reshape main_v10 main_v11 rfl shapeCasts_S4096x1_S4096,
    StableHlo.unary main_arg1 main_v12 ((extractStridedSlice S4096x1 ![0, 6] · slices_S4096x22_S4096x1_0_6) : (⟨S4096x22, .f32⟩ : BufTy).Contents (Elt F) → (⟨S4096x1, .f32⟩ : BufTy).Contents (Elt F)),
    StableHlo.reshape main_v12 main_v13 rfl shapeCasts_S4096x1_S4096,
    StableHlo.unary main_arg1 main_v14 ((extractStridedSlice S4096x1 ![0, 7] · slices_S4096x22_S4096x1_0_7) : (⟨S4096x22, .f32⟩ : BufTy).Contents (Elt F) → (⟨S4096x1, .f32⟩ : BufTy).Contents (Elt F)),
    StableHlo.reshape main_v14 main_v15 rfl shapeCasts_S4096x1_S4096,
    StableHlo.unary main_arg1 main_v16 ((extractStridedSlice S4096x1 ![0, 8] · slices_S4096x22_S4096x1_0_8) : (⟨S4096x22, .f32⟩ : BufTy).Contents (Elt F) → (⟨S4096x1, .f32⟩ : BufTy).Contents (Elt F)),
    StableHlo.reshape main_v16 main_v17 rfl shapeCasts_S4096x1_S4096,
    StableHlo.unary main_arg1 main_v18 ((extractStridedSlice S4096x1 ![0, 9] · slices_S4096x22_S4096x1_0_9) : (⟨S4096x22, .f32⟩ : BufTy).Contents (Elt F) → (⟨S4096x1, .f32⟩ : BufTy).Contents (Elt F)),
    StableHlo.reshape main_v18 main_v19 rfl shapeCasts_S4096x1_S4096,
    StableHlo.unary main_arg1 main_v20 ((extractStridedSlice S4096x1 ![0, 18] · slices_S4096x22_S4096x1_0_18) : (⟨S4096x22, .f32⟩ : BufTy).Contents (Elt F) → (⟨S4096x1, .f32⟩ : BufTy).Contents (Elt F)),
    StableHlo.reshape main_v20 main_v21 rfl shapeCasts_S4096x1_S4096,
    StableHlo.unary main_arg1 main_v22 ((extractStridedSlice S4096x1 ![0, 19] · slices_S4096x22_S4096x1_0_19) : (⟨S4096x22, .f32⟩ : BufTy).Contents (Elt F) → (⟨S4096x1, .f32⟩ : BufTy).Contents (Elt F)),
    StableHlo.reshape main_v22 main_v23 rfl shapeCasts_S4096x1_S4096,
    StableHlo.unary main_arg1 main_v24 ((extractStridedSlice S4096x1 ![0, 20] · slices_S4096x22_S4096x1_0_20) : (⟨S4096x22, .f32⟩ : BufTy).Contents (Elt F) → (⟨S4096x1, .f32⟩ : BufTy).Contents (Elt F)),
    StableHlo.reshape main_v24 main_v25 rfl shapeCasts_S4096x1_S4096,
    StableHlo.unary main_arg1 main_v26 ((extractStridedSlice S4096x1 ![0, 21] · slices_S4096x22_S4096x1_0_21) : (⟨S4096x22, .f32⟩ : BufTy).Contents (Elt F) → (⟨S4096x1, .f32⟩ : BufTy).Contents (Elt F)),
    StableHlo.reshape main_v26 main_v27 rfl shapeCasts_S4096x1_S4096 ]
/-- The buffers stretch 0 writes. -/
abbrev W0 : List (Ref sig .tc) := [ main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27 ]
set_option maxHeartbeats 40000000 in
theorem g0_writes : (g0 : List (HloOp τ sig (Elt F))).Forall fun op => op.writes ⊆ ((W0).map (Proc.devRef (τ := τ) .tc)).toFinset :=
  ⟨wsub (y := main_v0) (by decide), wsub (y := main_v1) (by decide), wsub (y := main_v2) (by decide), wsub (y := main_v3) (by decide), wsub (y := main_v4) (by decide), wsub (y := main_v5) (by decide), wsub (y := main_v6) (by decide), wsub (y := main_v7) (by decide), wsub (y := main_v8) (by decide), wsub (y := main_v9) (by decide), wsub (y := main_v10) (by decide), wsub (y := main_v11) (by decide), wsub (y := main_v12) (by decide), wsub (y := main_v13) (by decide), wsub (y := main_v14) (by decide), wsub (y := main_v15) (by decide), wsub (y := main_v16) (by decide), wsub (y := main_v17) (by decide), wsub (y := main_v18) (by decide), wsub (y := main_v19) (by decide), wsub (y := main_v20) (by decide), wsub (y := main_v21) (by decide), wsub (y := main_v22) (by decide), wsub (y := main_v23) (by decide), wsub (y := main_v24) (by decide), wsub (y := main_v25) (by decide), wsub (y := main_v26) (by decide), wsub (y := main_v27) (by decide)⟩
/-- A buffer stretch 0 does not write keeps its contents across it. -/
theorem g0_keeps (V : Valuation τ sig (Elt F)) {r : Ref sig .tc} (hr : r ∉ W0) :
    after (g0 (F := F)) V (Proc.devRef .tc r) = V (Proc.devRef .tc r) :=
  after_of_writes_sub _ V g0_writes hr

set_option maxHeartbeats 40000000 in
/-- Stretch 1: operations 28 … 46. -/
abbrev g1 : List (HloOp τ sig (Elt F)) :=
  [ StableHlo.unary main_arg0 main_v28 (broadcastInDim S1x4096x3 ![1, 2] bcast_S4096x3_S1x4096x3_1_2 : (⟨S4096x3, .f32⟩ : BufTy).Contents (Elt F) → (⟨S1x4096x3, .f32⟩ : BufTy).Contents (Elt F)),
    StableHlo.unary main_arg0 main_v29 (broadcastInDim S4096x1x3 ![0, 2] bcast_S4096x3_S4096x1x3_0_2 : (⟨S4096x3, .f32⟩ : BufTy).Contents (Elt F) → (⟨S4096x1x3, .f32⟩ : BufTy).Contents (Elt F)),
    StableHlo.unary main_v28 main_v30 (broadcastInDim S4096x4096x3 ![0, 1, 2] bcast_S1x4096x3_S4096x4096x3_0_1_2 : (⟨S1x4096x3, .f32⟩ : BufTy).Contents (Elt F) → (⟨S4096x4096x3, .f32⟩ : BufTy).Contents (Elt F)),
    StableHlo.unary main_v29 main_v31 (broadcastInDim S4096x4096x3 ![0, 1, 2] bcast_S4096x1x3_S4096x4096x3_0_1_2 : (⟨S4096x1x3, .f32⟩ : BufTy).Contents (Elt F) → (⟨S4096x4096x3, .f32⟩ : BufTy).Contents (Elt F)),
    StableHlo.binary main_v30 main_v31 main_v32 (subf : (⟨S4096x4096x3, .f32⟩ : BufTy).Contents (Elt F) → (⟨S4096x4096x3, .f32⟩ : BufTy).Contents (Elt F) → (⟨S4096x4096x3, .f32⟩ : BufTy).Contents (Elt F)),
    StableHlo.binary main_v32 main_v32 main_v33 (mulf : (⟨S4096x4096x3, .f32⟩ : BufTy).Contents (Elt F) → (⟨S4096x4096x3, .f32⟩ : BufTy).Contents (Elt F) → (⟨S4096x4096x3, .f32⟩ : BufTy).Contents (Elt F)),
    StableHlo.nullary main_cst (constant S_ .f32 0x00000000#32),
    StableHlo.binary main_v33 main_cst main_v34 ((fun x v => Host.reduceAdd x v reducesTo_S4096x4096x3_S4096x4096_d2 h_S_) : (⟨S4096x4096x3, .f32⟩ : BufTy).Contents (Elt F) → (⟨S_, .f32⟩ : BufTy).Contents (Elt F) → (⟨S4096x4096, .f32⟩ : BufTy).Contents (Elt F)),
    StableHlo.nullary main_v35 (iotaInDim S4096x4096 32 0),
    StableHlo.nullary main_v36 (iotaInDim S4096x4096 32 1),
    StableHlo.nullary main_c (constantI S_ 32 0#32),
    StableHlo.unary main_c main_v37 (broadcastInDim S4096x4096 ![] bcast_S_S4096x4096 : (⟨S_, .i32⟩ : BufTy).Contents (Elt F) → (⟨S4096x4096, .i32⟩ : BufTy).Contents (Elt F)),
    StableHlo.binary main_v35 main_v37 main_v38 (addi : (⟨S4096x4096, .i32⟩ : BufTy).Contents (Elt F) → (⟨S4096x4096, .i32⟩ : BufTy).Contents (Elt F) → (⟨S4096x4096, .i32⟩ : BufTy).Contents (Elt F)),
    StableHlo.binary main_v38 main_v36 main_v39 (cmpi .eq : (⟨S4096x4096, .i32⟩ : BufTy).Contents (Elt F) → (⟨S4096x4096, .i32⟩ : BufTy).Contents (Elt F) → (⟨S4096x4096, .i1⟩ : BufTy).Contents (Elt F)),
    StableHlo.nullary main_cst_0 (constant S_ .f32 0x3F800000#32),
    StableHlo.TRef.unary (.of main_cst_0 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S4096x4096, .f32⟩) (broadcastInDim S4096x4096 ![] bcast_S_S4096x4096),
    StableHlo.TRef.ternary (.of main_v39 : StableHlo.TRef sig ⟨S4096x4096, .i1⟩) (.of main_call0_v1 : StableHlo.TRef sig ⟨S4096x4096, .f32⟩) (.of main_v34 : StableHlo.TRef sig ⟨S4096x4096, .f32⟩) (.of main_v40 : StableHlo.TRef sig ⟨S4096x4096, .f32⟩) select,
    StableHlo.unary main_v40 main_v41 (Host.sqrt : (⟨S4096x4096, .f32⟩ : BufTy).Contents (Elt F) → (⟨S4096x4096, .f32⟩ : BufTy).Contents (Elt F)) ]
/-- The buffers stretch 1 writes. -/
abbrev W1 : List (Ref sig .tc) := [ main_v28, main_v29, main_v30, main_v31, main_v32, main_v33, main_cst, main_v34, main_v35, main_v36, main_c, main_v37, main_v38, main_v39, main_cst_0, main_call0_v0, main_call0_v1, main_v40, main_v41 ]
set_option maxHeartbeats 40000000 in
theorem g1_writes : (g1 : List (HloOp τ sig (Elt F))).Forall fun op => op.writes ⊆ ((W1).map (Proc.devRef (τ := τ) .tc)).toFinset :=
  ⟨wsub (y := main_v28) (by decide), wsub (y := main_v29) (by decide), wsub (y := main_v30) (by decide), wsub (y := main_v31) (by decide), wsub (y := main_v32) (by decide), wsub (y := main_v33) (by decide), wsub (y := main_cst) (by decide), wsub (y := main_v34) (by decide), wsub (y := main_v35) (by decide), wsub (y := main_v36) (by decide), wsub (y := main_c) (by decide), wsub (y := main_v37) (by decide), wsub (y := main_v38) (by decide), wsub (y := main_v39) (by decide), wsub (y := main_cst_0) (by decide), wsub (y := main_call0_v0) (by decide), wsub (y := main_call0_v1) (by decide), wsub (y := main_v40) (by decide), wsub (y := main_v41) (by decide)⟩
/-- A buffer stretch 1 does not write keeps its contents across it. -/
theorem g1_keeps (V : Valuation τ sig (Elt F)) {r : Ref sig .tc} (hr : r ∉ W1) :
    after (g1 (F := F)) V (Proc.devRef .tc r) = V (Proc.devRef .tc r) :=
  after_of_writes_sub _ V g1_writes hr

set_option maxHeartbeats 40000000 in
/-- Stretch 2: operations 47 … 65. -/
abbrev g2 : List (HloOp τ sig (Elt F)) :=
  [ StableHlo.nullary main_cst_1 (constant S_ .f32 0x3F800000#32),
    StableHlo.unary main_cst_1 main_v42 (broadcastInDim S4096x4096 ![] bcast_S_S4096x4096 : (⟨S_, .f32⟩ : BufTy).Contents (Elt F) → (⟨S4096x4096, .f32⟩ : BufTy).Contents (Elt F)),
    StableHlo.TRef.nullary (.of main_call1_v0 : StableHlo.TRef sig ⟨S4096x4096, .i32⟩) (iotaInDim S4096x4096 32 0),
    StableHlo.TRef.nullary (.of main_call1_c : StableHlo.TRef sig ⟨S_, .i32⟩) (constantI S_ 32 0#32),
    StableHlo.TRef.unary (.of main_call1_c : StableHlo.TRef sig ⟨S_, .i32⟩) (.of main_call1_v1 : StableHlo.TRef sig ⟨S4096x4096, .i32⟩) (broadcastInDim S4096x4096 ![] bcast_S_S4096x4096),
    StableHlo.TRef.binary (.of main_call1_v0 : StableHlo.TRef sig ⟨S4096x4096, .i32⟩) (.of main_call1_v1 : StableHlo.TRef sig ⟨S4096x4096, .i32⟩) (.of main_call1_v2 : StableHlo.TRef sig ⟨S4096x4096, .i32⟩) addi,
    StableHlo.TRef.nullary (.of main_call1_v3 : StableHlo.TRef sig ⟨S4096x4096, .i32⟩) (iotaInDim S4096x4096 32 1),
    StableHlo.TRef.binary (.of main_call1_v2 : StableHlo.TRef sig ⟨S4096x4096, .i32⟩) (.of main_call1_v3 : StableHlo.TRef sig ⟨S4096x4096, .i32⟩) (.of main_call1_v4 : StableHlo.TRef sig ⟨S4096x4096, .i1⟩) (cmpi .sge),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v5 : StableHlo.TRef sig ⟨S4096x4096, .f32⟩) (broadcastInDim S4096x4096 ![] bcast_S_S4096x4096),
    StableHlo.TRef.ternary (.of main_call1_v4 : StableHlo.TRef sig ⟨S4096x4096, .i1⟩) (.of main_call1_v5 : StableHlo.TRef sig ⟨S4096x4096, .f32⟩) (.of main_v42 : StableHlo.TRef sig ⟨S4096x4096, .f32⟩) (.of main_v43 : StableHlo.TRef sig ⟨S4096x4096, .f32⟩) select,
    StableHlo.nullary main_cst_2 (constant S_ .f32 0x00000000#32),
    StableHlo.unary main_cst_2 main_v44 (broadcastInDim S4096x4096 ![] bcast_S_S4096x4096 : (⟨S_, .f32⟩ : BufTy).Contents (Elt F) → (⟨S4096x4096, .f32⟩ : BufTy).Contents (Elt F)),
    StableHlo.binary main_v43 main_v44 main_v45 (cmpf .une : (⟨S4096x4096, .f32⟩ : BufTy).Contents (Elt F) → (⟨S4096x4096, .f32⟩ : BufTy).Contents (Elt F) → (⟨S4096x4096, .i1⟩ : BufTy).Contents (Elt F)),
    StableHlo.TRef.reshape (.of main_v45 : StableHlo.TRef sig ⟨S4096x4096, .i1⟩) (.of main_call2_v0 : StableHlo.TRef sig ⟨S16777216, .i1⟩) rfl shapeCasts_S4096x4096_S16777216,
    StableHlo.TRef.unary (.of main_call2_v0 : StableHlo.TRef sig ⟨S16777216, .i1⟩) (.of main_call2_v1 : StableHlo.TRef sig ⟨S16777216, .i32⟩) (extui 32 · natLt_1_32),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_),
    StableHlo.TRef.binary (.of main_call2_v1 : StableHlo.TRef sig ⟨S16777216, .i32⟩) (.of main_call2_call0_v0 : StableHlo.TRef sig ⟨S_, .i32⟩) (.of main_v46 : StableHlo.TRef sig ⟨S16777216, .i32⟩) (fun x v => Host.reduceWindow IntOp.addi ![16777216] ![1] ![16777215] ![0] x v reduceWindows_S16777216_S16777216_w16777216s1p16777215_0 h_S_) ]
/-- The buffers stretch 2 writes. -/
abbrev W2 : List (Ref sig .tc) := [ main_cst_1, main_v42, main_call1_v0, main_call1_c, main_call1_v1, main_call1_v2, main_call1_v3, main_call1_v4, main_call1_cst, main_call1_v5, main_v43, main_cst_2, main_v44, main_v45, main_call2_v0, main_call2_v1, main_call2_call0_c, main_call2_call0_v0, main_v46 ]
set_option maxHeartbeats 40000000 in
theorem g2_writes : (g2 : List (HloOp τ sig (Elt F))).Forall fun op => op.writes ⊆ ((W2).map (Proc.devRef (τ := τ) .tc)).toFinset :=
  ⟨wsub (y := main_cst_1) (by decide), wsub (y := main_v42) (by decide), wsub (y := main_call1_v0) (by decide), wsub (y := main_call1_c) (by decide), wsub (y := main_call1_v1) (by decide), wsub (y := main_call1_v2) (by decide), wsub (y := main_call1_v3) (by decide), wsub (y := main_call1_v4) (by decide), wsub (y := main_call1_cst) (by decide), wsub (y := main_call1_v5) (by decide), wsub (y := main_v43) (by decide), wsub (y := main_cst_2) (by decide), wsub (y := main_v44) (by decide), wsub (y := main_v45) (by decide), wsub (y := main_call2_v0) (by decide), wsub (y := main_call2_v1) (by decide), wsub (y := main_call2_call0_c) (by decide), wsub (y := main_call2_call0_v0) (by decide), wsub (y := main_v46) (by decide)⟩
/-- A buffer stretch 2 does not write keeps its contents across it. -/
theorem g2_keeps (V : Valuation τ sig (Elt F)) {r : Ref sig .tc} (hr : r ∉ W2) :
    after (g2 (F := F)) V (Proc.devRef .tc r) = V (Proc.devRef .tc r) :=
  after_of_writes_sub _ V g2_writes hr

set_option maxHeartbeats 40000000 in
/-- Stretch 3: operations 66 … 85. -/
abbrev g3 : List (HloOp τ sig (Elt F)) :=
  [ StableHlo.nullary main_c_3 (constantI S_ 32 0#32),
    StableHlo.unary main_c_3 main_v47 (broadcastInDim S8386560 ![] bcast_S_S8386560 : (⟨S_, .i32⟩ : BufTy).Contents (Elt F) → (⟨S8386560, .i32⟩ : BufTy).Contents (Elt F)),
    StableHlo.nullary main_c_4 (constantI S_ 32 0#32),
    StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16777216, .i32⟩) (broadcastInDim S16777216 ![] bcast_S_S16777216),
    StableHlo.TRef.binary (.of main_call3_v1 : StableHlo.TRef sig ⟨S16777216, .i32⟩) (.of main_v46 : StableHlo.TRef sig ⟨S16777216, .i32⟩) (.of main_v48 : StableHlo.TRef sig ⟨S16777216, .i32⟩) maxsi,
    StableHlo.nullary main_c_5 (constantI S_ 32 0#32),
    StableHlo.unary main_c_5 main_v49 (broadcastInDim S16777216 ![] bcast_S_S16777216 : (⟨S_, .i32⟩ : BufTy).Contents (Elt F) → (⟨S16777216, .i32⟩ : BufTy).Contents (Elt F)),
    StableHlo.binary main_v48 main_v49 main_v50 (cmpi .slt : (⟨S16777216, .i32⟩ : BufTy).Contents (Elt F) → (⟨S16777216, .i32⟩ : BufTy).Contents (Elt F) → (⟨S16777216, .i1⟩ : BufTy).Contents (Elt F)),
    StableHlo.nullary main_c_6 (constantI S_ 32 8386560#32),
    StableHlo.unary main_c_6 main_v51 (broadcastInDim S16777216 ![] bcast_S_S16777216 : (⟨S_, .i32⟩ : BufTy).Contents (Elt F) → (⟨S16777216, .i32⟩ : BufTy).Contents (Elt F)),
    StableHlo.binary main_v48 main_v51 main_v52 (addi : (⟨S16777216, .i32⟩ : BufTy).Contents (Elt F) → (⟨S16777216, .i32⟩ : BufTy).Contents (Elt F) → (⟨S16777216, .i32⟩ : BufTy).Contents (Elt F)),
    StableHlo.ternary main_v50 main_v52 main_v48 main_v53 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v53 main_v54 (broadcastInDim S16777216x1 ![0] bcast_S16777216_S16777216x1_0 : (⟨S16777216, .i32⟩ : BufTy).Contents (Elt F) → (⟨S16777216x1, .i32⟩ : BufTy).Contents (Elt F)),
    StableHlo.nullary main_c_7 (constantI S_ 32 1#32),
    StableHlo.unary main_c_7 main_v55 (broadcastInDim S16777216 ![] bcast_S_S16777216 : (⟨S_, .i32⟩ : BufTy).Contents (Elt F) → (⟨S16777216, .i32⟩ : BufTy).Contents (Elt F)),
    StableHlo.ternary main_v47 main_v54 main_v55 main_v56 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)),
    StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_),
    StableHlo.TRef.binary (.of main_v56 : StableHlo.TRef sig ⟨S8386560, .i32⟩) (.of main_call4_call0_v0 : StableHlo.TRef sig ⟨S_, .i32⟩) (.of main_v57 : StableHlo.TRef sig ⟨S8386560, .i32⟩) (fun x v => Host.reduceWindow IntOp.addi ![8386560] ![1] ![8386559] ![0] x v reduceWindows_S8386560_S8386560_w8386560s1p8386559_0 h_S_) ]
/-- The buffers stretch 3 writes. -/
abbrev W3 : List (Ref sig .tc) := [ main_c_3, main_v47, main_c_4, main_call3_v0, main_call3_v1, main_v48, main_c_5, main_v49, main_v50, main_c_6, main_v51, main_v52, main_v53, main_v54, main_c_7, main_v55, main_v56, main_call4_call0_c, main_call4_call0_v0, main_v57 ]
set_option maxHeartbeats 40000000 in
theorem g3_writes : (g3 : List (HloOp τ sig (Elt F))).Forall fun op => op.writes ⊆ ((W3).map (Proc.devRef (τ := τ) .tc)).toFinset :=
  ⟨wsub (y := main_c_3) (by decide), wsub (y := main_v47) (by decide), wsub (y := main_c_4) (by decide), wsub (y := main_call3_v0) (by decide), wsub (y := main_call3_v1) (by decide), wsub (y := main_v48) (by decide), wsub (y := main_c_5) (by decide), wsub (y := main_v49) (by decide), wsub (y := main_v50) (by decide), wsub (y := main_c_6) (by decide), wsub (y := main_v51) (by decide), wsub (y := main_v52) (by decide), wsub (y := main_v53) (by decide), wsub (y := main_v54) (by decide), wsub (y := main_c_7) (by decide), wsub (y := main_v55) (by decide), wsub (y := main_v56) (by decide), wsub (y := main_call4_call0_c) (by decide), wsub (y := main_call4_call0_v0) (by decide), wsub (y := main_v57) (by decide)⟩
/-- A buffer stretch 3 does not write keeps its contents across it. -/
theorem g3_keeps (V : Valuation τ sig (Elt F)) {r : Ref sig .tc} (hr : r ∉ W3) :
    after (g3 (F := F)) V (Proc.devRef .tc r) = V (Proc.devRef .tc r) :=
  after_of_writes_sub _ V g3_writes hr

set_option maxHeartbeats 40000000 in
/-- Stretch 4: operations 86 … 124. -/
abbrev g4 : List (HloOp τ sig (Elt F)) :=
  [ StableHlo.nullary main_c_8 (constantI S_ 32 4096#32),
    StableHlo.TRef.unary (.of main_c_8 : StableHlo.TRef sig ⟨S_, .i32⟩) (.of main_call5_v0 : StableHlo.TRef sig ⟨S8386560, .i32⟩) (broadcastInDim S8386560 ![] bcast_S_S8386560),
    StableHlo.TRef.binary (.of main_v57 : StableHlo.TRef sig ⟨S8386560, .i32⟩) (.of main_call5_v0 : StableHlo.TRef sig ⟨S8386560, .i32⟩) (.of main_call5_v1 : StableHlo.TRef sig ⟨S8386560, .i32⟩) Host.divsi,
    StableHlo.TRef.unary (.of main_v57 : StableHlo.TRef sig ⟨S8386560, .i32⟩) (.of main_call5_v2 : StableHlo.TRef sig ⟨S8386560, .i32⟩) signi,
    StableHlo.TRef.unary (.of main_c_8 : StableHlo.TRef sig ⟨S_, .i32⟩) (.of main_call5_v3 : StableHlo.TRef sig ⟨S_, .i32⟩) signi,
    StableHlo.TRef.unary (.of main_call5_v3 : StableHlo.TRef sig ⟨S_, .i32⟩) (.of main_call5_v4 : StableHlo.TRef sig ⟨S8386560, .i32⟩) (broadcastInDim S8386560 ![] bcast_S_S8386560),
    StableHlo.TRef.binary (.of main_call5_v2 : StableHlo.TRef sig ⟨S8386560, .i32⟩) (.of main_call5_v4 : StableHlo.TRef sig ⟨S8386560, .i32⟩) (.of main_call5_v5 : StableHlo.TRef sig ⟨S8386560, .i1⟩) (cmpi .ne),
    StableHlo.TRef.unary (.of main_c_8 : StableHlo.TRef sig ⟨S_, .i32⟩) (.of main_call5_v6 : StableHlo.TRef sig ⟨S8386560, .i32⟩) (broadcastInDim S8386560 ![] bcast_S_S8386560),
    StableHlo.TRef.binary (.of main_v57 : StableHlo.TRef sig ⟨S8386560, .i32⟩) (.of main_call5_v6 : StableHlo.TRef sig ⟨S8386560, .i32⟩) (.of main_call5_v7 : StableHlo.TRef sig ⟨S8386560, .i32⟩) Host.remsi,
    StableHlo.TRef.nullary (.of main_call5_c : StableHlo.TRef sig ⟨S_, .i32⟩) (constantI S_ 32 0#32),
    StableHlo.TRef.unary (.of main_call5_c : StableHlo.TRef sig ⟨S_, .i32⟩) (.of main_call5_v8 : StableHlo.TRef sig ⟨S8386560, .i32⟩) (broadcastInDim S8386560 ![] bcast_S_S8386560),
    StableHlo.TRef.binary (.of main_call5_v7 : StableHlo.TRef sig ⟨S8386560, .i32⟩) (.of main_call5_v8 : StableHlo.TRef sig ⟨S8386560, .i32⟩) (.of main_call5_v9 : StableHlo.TRef sig ⟨S8386560, .i1⟩) (cmpi .ne),
    StableHlo.TRef.binary (.of main_call5_v5 : StableHlo.TRef sig ⟨S8386560, .i1⟩) (.of main_call5_v9 : StableHlo.TRef sig ⟨S8386560, .i1⟩) (.of main_call5_v10 : StableHlo.TRef sig ⟨S8386560, .i1⟩) andi,
    StableHlo.TRef.nullary (.of main_call5_c_0 : StableHlo.TRef sig ⟨S_, .i32⟩) (constantI S_ 32 1#32),
    StableHlo.TRef.unary (.of main_call5_c_0 : StableHlo.TRef sig ⟨S_, .i32⟩) (.of main_call5_v11 : StableHlo.TRef sig ⟨S8386560, .i32⟩) (broadcastInDim S8386560 ![] bcast_S_S8386560),
    StableHlo.TRef.binary (.of main_call5_v1 : StableHlo.TRef sig ⟨S8386560, .i32⟩) (.of main_call5_v11 : StableHlo.TRef sig ⟨S8386560, .i32⟩) (.of main_call5_v12 : StableHlo.TRef sig ⟨S8386560, .i32⟩) subi,
    StableHlo.TRef.ternary (.of main_call5_v10 : StableHlo.TRef sig ⟨S8386560, .i1⟩) (.of main_call5_v12 : StableHlo.TRef sig ⟨S8386560, .i32⟩) (.of main_call5_v1 : StableHlo.TRef sig ⟨S8386560, .i32⟩) (.of main_v58 : StableHlo.TRef sig ⟨S8386560, .i32⟩) select,
    StableHlo.nullary main_c_9 (constantI S_ 32 4096#32),
    StableHlo.TRef.unary (.of main_c_9 : StableHlo.TRef sig ⟨S_, .i32⟩) (.of main_call6_v0 : StableHlo.TRef sig ⟨S_, .i32⟩) id,
    StableHlo.TRef.nullary (.of main_call6_c : StableHlo.TRef sig ⟨S_, .i32⟩) (constantI S_ 32 0#32),
    StableHlo.TRef.binary (.of main_call6_v0 : StableHlo.TRef sig ⟨S_, .i32⟩) (.of main_call6_c : StableHlo.TRef sig ⟨S_, .i32⟩) (.of main_call6_v1 : StableHlo.TRef sig ⟨S_, .i1⟩) (cmpi .eq),
    StableHlo.TRef.nullary (.of main_call6_c_0 : StableHlo.TRef sig ⟨S_, .i32⟩) (constantI S_ 32 1#32),
    StableHlo.TRef.ternary (.of main_call6_v1 : StableHlo.TRef sig ⟨S_, .i1⟩) (.of main_call6_c_0 : StableHlo.TRef sig ⟨S_, .i32⟩) (.of main_call6_v0 : StableHlo.TRef sig ⟨S_, .i32⟩) (.of main_call6_v2 : StableHlo.TRef sig ⟨S_, .i32⟩) select,
    StableHlo.TRef.unary main_call6_call0.v0 (.of main_call6_v3 : StableHlo.TRef sig ⟨S8386560, .i32⟩) (broadcastInDim S8386560 ![] bcast_S_S8386560),
    StableHlo.TRef.binary (.of main_v58 : StableHlo.TRef sig ⟨S8386560, .i32⟩) (.of main_call6_v3 : StableHlo.TRef sig ⟨S8386560, .i32⟩) (.of main_call6_v4 : StableHlo.TRef sig ⟨S8386560, .i32⟩) Host.remsi,
    StableHlo.TRef.nullary (.of main_call6_c_1 : StableHlo.TRef sig ⟨S_, .i32⟩) (constantI S_ 32 0#32),
    StableHlo.TRef.unary (.of main_call6_c_1 : StableHlo.TRef sig ⟨S_, .i32⟩) (.of main_call6_v5 : StableHlo.TRef sig ⟨S8386560, .i32⟩) (broadcastInDim S8386560 ![] bcast_S_S8386560),
    StableHlo.TRef.binary (.of main_call6_v4 : StableHlo.TRef sig ⟨S8386560, .i32⟩) (.of main_call6_v5 : StableHlo.TRef sig ⟨S8386560, .i32⟩) (.of main_call6_v6 : StableHlo.TRef sig ⟨S8386560, .i1⟩) (cmpi .ne),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v7 : StableHlo.TRef sig ⟨S8386560, .i32⟩) (broadcastInDim S8386560 ![] bcast_S_S8386560),
    StableHlo.TRef.binary (.of main_call6_v4 : StableHlo.TRef sig ⟨S8386560, .i32⟩) (.of main_call6_v7 : StableHlo.TRef sig ⟨S8386560, .i32⟩) (.of main_call6_v8 : StableHlo.TRef sig ⟨S8386560, .i1⟩) (cmpi .slt),
    StableHlo.TRef.nullary (.of main_call6_c_3 : StableHlo.TRef sig ⟨S_, .i32⟩) (constantI S_ 32 0#32),
    StableHlo.TRef.binary main_call6_call0.v0 (.of main_call6_c_3 : StableHlo.TRef sig ⟨S_, .i32⟩) (.of main_call6_v9 : StableHlo.TRef sig ⟨S_, .i1⟩) (cmpi .slt),
    StableHlo.TRef.unary (.of main_call6_v9 : StableHlo.TRef sig ⟨S_, .i1⟩) (.of main_call6_v10 : StableHlo.TRef sig ⟨S8386560, .i1⟩) (broadcastInDim S8386560 ![] bcast_S_S8386560),
    StableHlo.TRef.binary (.of main_call6_v8 : StableHlo.TRef sig ⟨S8386560, .i1⟩) (.of main_call6_v10 : StableHlo.TRef sig ⟨S8386560, .i1⟩) (.of main_call6_v11 : StableHlo.TRef sig ⟨S8386560, .i1⟩) (cmpi .ne),
    StableHlo.TRef.binary (.of main_call6_v11 : StableHlo.TRef sig ⟨S8386560, .i1⟩) (.of main_call6_v6 : StableHlo.TRef sig ⟨S8386560, .i1⟩) (.of main_call6_v12 : StableHlo.TRef sig ⟨S8386560, .i1⟩) andi,
    StableHlo.TRef.unary main_call6_call0.v0 (.of main_call6_v13 : StableHlo.TRef sig ⟨S8386560, .i32⟩) (broadcastInDim S8386560 ![] bcast_S_S8386560),
    StableHlo.TRef.binary (.of main_call6_v4 : StableHlo.TRef sig ⟨S8386560, .i32⟩) (.of main_call6_v13 : StableHlo.TRef sig ⟨S8386560, .i32⟩) (.of main_call6_v14 : StableHlo.TRef sig ⟨S8386560, .i32⟩) addi,
    StableHlo.TRef.ternary (.of main_call6_v12 : StableHlo.TRef sig ⟨S8386560, .i1⟩) (.of main_call6_v14 : StableHlo.TRef sig ⟨S8386560, .i32⟩) (.of main_call6_v4 : StableHlo.TRef sig ⟨S8386560, .i32⟩) (.of main_v59 : StableHlo.TRef sig ⟨S8386560, .i32⟩) select ]
/-- The buffers stretch 4 writes. -/
abbrev W4 : List (Ref sig .tc) := [ main_c_8, main_call5_v0, main_call5_v1, main_call5_v2, main_call5_v3, main_call5_v4, main_call5_v5, main_call5_v6, main_call5_v7, main_call5_c, main_call5_v8, main_call5_v9, main_call5_v10, main_call5_c_0, main_call5_v11, main_call5_v12, main_v58, main_c_9, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v59 ]
set_option maxHeartbeats 40000000 in
theorem g4_writes : (g4 : List (HloOp τ sig (Elt F))).Forall fun op => op.writes ⊆ ((W4).map (Proc.devRef (τ := τ) .tc)).toFinset :=
  ⟨wsub (y := main_c_8) (by decide), wsub (y := main_call5_v0) (by decide), wsub (y := main_call5_v1) (by decide), wsub (y := main_call5_v2) (by decide), wsub (y := main_call5_v3) (by decide), wsub (y := main_call5_v4) (by decide), wsub (y := main_call5_v5) (by decide), wsub (y := main_call5_v6) (by decide), wsub (y := main_call5_v7) (by decide), wsub (y := main_call5_c) (by decide), wsub (y := main_call5_v8) (by decide), wsub (y := main_call5_v9) (by decide), wsub (y := main_call5_v10) (by decide), wsub (y := main_call5_c_0) (by decide), wsub (y := main_call5_v11) (by decide), wsub (y := main_call5_v12) (by decide), wsub (y := main_v58) (by decide), wsub (y := main_c_9) (by decide), wsub (y := main_call6_v0) (by decide), wsub (y := main_call6_c) (by decide), wsub (y := main_call6_v1) (by decide), wsub (y := main_call6_c_0) (by decide), wsub (y := main_call6_v2) (by decide), wsub (y := main_call6_v3) (by decide), wsub (y := main_call6_v4) (by decide), wsub (y := main_call6_c_1) (by decide), wsub (y := main_call6_v5) (by decide), wsub (y := main_call6_v6) (by decide), wsub (y := main_call6_c_2) (by decide), wsub (y := main_call6_v7) (by decide), wsub (y := main_call6_v8) (by decide), wsub (y := main_call6_c_3) (by decide), wsub (y := main_call6_v9) (by decide), wsub (y := main_call6_v10) (by decide), wsub (y := main_call6_v11) (by decide), wsub (y := main_call6_v12) (by decide), wsub (y := main_call6_v13) (by decide), wsub (y := main_call6_v14) (by decide), wsub (y := main_v59) (by decide)⟩
/-- A buffer stretch 4 does not write keeps its contents across it. -/
theorem g4_keeps (V : Valuation τ sig (Elt F)) {r : Ref sig .tc} (hr : r ∉ W4) :
    after (g4 (F := F)) V (Proc.devRef .tc r) = V (Proc.devRef .tc r) :=
  after_of_writes_sub _ V g4_writes hr

set_option maxHeartbeats 40000000 in
/-- Stretch 5: operations 125 … 163. -/
abbrev g5 : List (HloOp τ sig (Elt F)) :=
  [ StableHlo.nullary main_c_10 (constantI S_ 32 1#32),
    StableHlo.TRef.unary (.of main_c_10 : StableHlo.TRef sig ⟨S_, .i32⟩) (.of main_call7_v0 : StableHlo.TRef sig ⟨S8386560, .i32⟩) (broadcastInDim S8386560 ![] bcast_S_S8386560),
    StableHlo.TRef.binary (.of main_v57 : StableHlo.TRef sig ⟨S8386560, .i32⟩) (.of main_call7_v0 : StableHlo.TRef sig ⟨S8386560, .i32⟩) (.of main_call7_v1 : StableHlo.TRef sig ⟨S8386560, .i32⟩) Host.divsi,
    StableHlo.TRef.unary (.of main_v57 : StableHlo.TRef sig ⟨S8386560, .i32⟩) (.of main_call7_v2 : StableHlo.TRef sig ⟨S8386560, .i32⟩) signi,
    StableHlo.TRef.unary (.of main_c_10 : StableHlo.TRef sig ⟨S_, .i32⟩) (.of main_call7_v3 : StableHlo.TRef sig ⟨S_, .i32⟩) signi,
    StableHlo.TRef.unary (.of main_call7_v3 : StableHlo.TRef sig ⟨S_, .i32⟩) (.of main_call7_v4 : StableHlo.TRef sig ⟨S8386560, .i32⟩) (broadcastInDim S8386560 ![] bcast_S_S8386560),
    StableHlo.TRef.binary (.of main_call7_v2 : StableHlo.TRef sig ⟨S8386560, .i32⟩) (.of main_call7_v4 : StableHlo.TRef sig ⟨S8386560, .i32⟩) (.of main_call7_v5 : StableHlo.TRef sig ⟨S8386560, .i1⟩) (cmpi .ne),
    StableHlo.TRef.unary (.of main_c_10 : StableHlo.TRef sig ⟨S_, .i32⟩) (.of main_call7_v6 : StableHlo.TRef sig ⟨S8386560, .i32⟩) (broadcastInDim S8386560 ![] bcast_S_S8386560),
    StableHlo.TRef.binary (.of main_v57 : StableHlo.TRef sig ⟨S8386560, .i32⟩) (.of main_call7_v6 : StableHlo.TRef sig ⟨S8386560, .i32⟩) (.of main_call7_v7 : StableHlo.TRef sig ⟨S8386560, .i32⟩) Host.remsi,
    StableHlo.TRef.nullary (.of main_call7_c : StableHlo.TRef sig ⟨S_, .i32⟩) (constantI S_ 32 0#32),
    StableHlo.TRef.unary (.of main_call7_c : StableHlo.TRef sig ⟨S_, .i32⟩) (.of main_call7_v8 : StableHlo.TRef sig ⟨S8386560, .i32⟩) (broadcastInDim S8386560 ![] bcast_S_S8386560),
    StableHlo.TRef.binary (.of main_call7_v7 : StableHlo.TRef sig ⟨S8386560, .i32⟩) (.of main_call7_v8 : StableHlo.TRef sig ⟨S8386560, .i32⟩) (.of main_call7_v9 : StableHlo.TRef sig ⟨S8386560, .i1⟩) (cmpi .ne),
    StableHlo.TRef.binary (.of main_call7_v5 : StableHlo.TRef sig ⟨S8386560, .i1⟩) (.of main_call7_v9 : StableHlo.TRef sig ⟨S8386560, .i1⟩) (.of main_call7_v10 : StableHlo.TRef sig ⟨S8386560, .i1⟩) andi,
    StableHlo.TRef.nullary (.of main_call7_c_0 : StableHlo.TRef sig ⟨S_, .i32⟩) (constantI S_ 32 1#32),
    StableHlo.TRef.unary (.of main_call7_c_0 : StableHlo.TRef sig ⟨S_, .i32⟩) (.of main_call7_v11 : StableHlo.TRef sig ⟨S8386560, .i32⟩) (broadcastInDim S8386560 ![] bcast_S_S8386560),
    StableHlo.TRef.binary (.of main_call7_v1 : StableHlo.TRef sig ⟨S8386560, .i32⟩) (.of main_call7_v11 : StableHlo.TRef sig ⟨S8386560, .i32⟩) (.of main_call7_v12 : StableHlo.TRef sig ⟨S8386560, .i32⟩) subi,
    StableHlo.TRef.ternary (.of main_call7_v10 : StableHlo.TRef sig ⟨S8386560, .i1⟩) (.of main_call7_v12 : StableHlo.TRef sig ⟨S8386560, .i32⟩) (.of main_call7_v1 : StableHlo.TRef sig ⟨S8386560, .i32⟩) (.of main_v60 : StableHlo.TRef sig ⟨S8386560, .i32⟩) select,
    StableHlo.nullary main_c_11 (constantI S_ 32 4096#32),
    StableHlo.TRef.unary (.of main_c_11 : StableHlo.TRef sig ⟨S_, .i32⟩) (.of main_call8_v0 : StableHlo.TRef sig ⟨S_, .i32⟩) id,
    StableHlo.TRef.nullary (.of main_call8_c : StableHlo.TRef sig ⟨S_, .i32⟩) (constantI S_ 32 0#32),
    StableHlo.TRef.binary (.of main_call8_v0 : StableHlo.TRef sig ⟨S_, .i32⟩) (.of main_call8_c : StableHlo.TRef sig ⟨S_, .i32⟩) (.of main_call8_v1 : StableHlo.TRef sig ⟨S_, .i1⟩) (cmpi .eq),
    StableHlo.TRef.nullary (.of main_call8_c_0 : StableHlo.TRef sig ⟨S_, .i32⟩) (constantI S_ 32 1#32),
    StableHlo.TRef.ternary (.of main_call8_v1 : StableHlo.TRef sig ⟨S_, .i1⟩) (.of main_call8_c_0 : StableHlo.TRef sig ⟨S_, .i32⟩) (.of main_call8_v0 : StableHlo.TRef sig ⟨S_, .i32⟩) (.of main_call8_v2 : StableHlo.TRef sig ⟨S_, .i32⟩) select,
    StableHlo.TRef.unary main_call8_call0.v0 (.of main_call8_v3 : StableHlo.TRef sig ⟨S8386560, .i32⟩) (broadcastInDim S8386560 ![] bcast_S_S8386560),
    StableHlo.TRef.binary (.of main_v60 : StableHlo.TRef sig ⟨S8386560, .i32⟩) (.of main_call8_v3 : StableHlo.TRef sig ⟨S8386560, .i32⟩) (.of main_call8_v4 : StableHlo.TRef sig ⟨S8386560, .i32⟩) Host.remsi,
    StableHlo.TRef.nullary (.of main_call8_c_1 : StableHlo.TRef sig ⟨S_, .i32⟩) (constantI S_ 32 0#32),
    StableHlo.TRef.unary (.of main_call8_c_1 : StableHlo.TRef sig ⟨S_, .i32⟩) (.of main_call8_v5 : StableHlo.TRef sig ⟨S8386560, .i32⟩) (broadcastInDim S8386560 ![] bcast_S_S8386560),
    StableHlo.TRef.binary (.of main_call8_v4 : StableHlo.TRef sig ⟨S8386560, .i32⟩) (.of main_call8_v5 : StableHlo.TRef sig ⟨S8386560, .i32⟩) (.of main_call8_v6 : StableHlo.TRef sig ⟨S8386560, .i1⟩) (cmpi .ne),
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v7 : StableHlo.TRef sig ⟨S8386560, .i32⟩) (broadcastInDim S8386560 ![] bcast_S_S8386560),
    StableHlo.TRef.binary (.of main_call8_v4 : StableHlo.TRef sig ⟨S8386560, .i32⟩) (.of main_call8_v7 : StableHlo.TRef sig ⟨S8386560, .i32⟩) (.of main_call8_v8 : StableHlo.TRef sig ⟨S8386560, .i1⟩) (cmpi .slt),
    StableHlo.TRef.nullary (.of main_call8_c_3 : StableHlo.TRef sig ⟨S_, .i32⟩) (constantI S_ 32 0#32),
    StableHlo.TRef.binary main_call8_call0.v0 (.of main_call8_c_3 : StableHlo.TRef sig ⟨S_, .i32⟩) (.of main_call8_v9 : StableHlo.TRef sig ⟨S_, .i1⟩) (cmpi .slt),
    StableHlo.TRef.unary (.of main_call8_v9 : StableHlo.TRef sig ⟨S_, .i1⟩) (.of main_call8_v10 : StableHlo.TRef sig ⟨S8386560, .i1⟩) (broadcastInDim S8386560 ![] bcast_S_S8386560),
    StableHlo.TRef.binary (.of main_call8_v8 : StableHlo.TRef sig ⟨S8386560, .i1⟩) (.of main_call8_v10 : StableHlo.TRef sig ⟨S8386560, .i1⟩) (.of main_call8_v11 : StableHlo.TRef sig ⟨S8386560, .i1⟩) (cmpi .ne),
    StableHlo.TRef.binary (.of main_call8_v11 : StableHlo.TRef sig ⟨S8386560, .i1⟩) (.of main_call8_v6 : StableHlo.TRef sig ⟨S8386560, .i1⟩) (.of main_call8_v12 : StableHlo.TRef sig ⟨S8386560, .i1⟩) andi,
    StableHlo.TRef.unary main_call8_call0.v0 (.of main_call8_v13 : StableHlo.TRef sig ⟨S8386560, .i32⟩) (broadcastInDim S8386560 ![] bcast_S_S8386560),
    StableHlo.TRef.binary (.of main_call8_v4 : StableHlo.TRef sig ⟨S8386560, .i32⟩) (.of main_call8_v13 : StableHlo.TRef sig ⟨S8386560, .i32⟩) (.of main_call8_v14 : StableHlo.TRef sig ⟨S8386560, .i32⟩) addi,
    StableHlo.TRef.ternary (.of main_call8_v12 : StableHlo.TRef sig ⟨S8386560, .i1⟩) (.of main_call8_v14 : StableHlo.TRef sig ⟨S8386560, .i32⟩) (.of main_call8_v4 : StableHlo.TRef sig ⟨S8386560, .i32⟩) (.of main_v61 : StableHlo.TRef sig ⟨S8386560, .i32⟩) select ]
/-- The buffers stretch 5 writes. -/
abbrev W5 : List (Ref sig .tc) := [ main_c_10, main_call7_v0, main_call7_v1, main_call7_v2, main_call7_v3, main_call7_v4, main_call7_v5, main_call7_v6, main_call7_v7, main_call7_c, main_call7_v8, main_call7_v9, main_call7_v10, main_call7_c_0, main_call7_v11, main_call7_v12, main_v60, main_c_11, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v61 ]
set_option maxHeartbeats 40000000 in
theorem g5_writes : (g5 : List (HloOp τ sig (Elt F))).Forall fun op => op.writes ⊆ ((W5).map (Proc.devRef (τ := τ) .tc)).toFinset :=
  ⟨wsub (y := main_c_10) (by decide), wsub (y := main_call7_v0) (by decide), wsub (y := main_call7_v1) (by decide), wsub (y := main_call7_v2) (by decide), wsub (y := main_call7_v3) (by decide), wsub (y := main_call7_v4) (by decide), wsub (y := main_call7_v5) (by decide), wsub (y := main_call7_v6) (by decide), wsub (y := main_call7_v7) (by decide), wsub (y := main_call7_c) (by decide), wsub (y := main_call7_v8) (by decide), wsub (y := main_call7_v9) (by decide), wsub (y := main_call7_v10) (by decide), wsub (y := main_call7_c_0) (by decide), wsub (y := main_call7_v11) (by decide), wsub (y := main_call7_v12) (by decide), wsub (y := main_v60) (by decide), wsub (y := main_c_11) (by decide), wsub (y := main_call8_v0) (by decide), wsub (y := main_call8_c) (by decide), wsub (y := main_call8_v1) (by decide), wsub (y := main_call8_c_0) (by decide), wsub (y := main_call8_v2) (by decide), wsub (y := main_call8_v3) (by decide), wsub (y := main_call8_v4) (by decide), wsub (y := main_call8_c_1) (by decide), wsub (y := main_call8_v5) (by decide), wsub (y := main_call8_v6) (by decide), wsub (y := main_call8_c_2) (by decide), wsub (y := main_call8_v7) (by decide), wsub (y := main_call8_v8) (by decide), wsub (y := main_call8_c_3) (by decide), wsub (y := main_call8_v9) (by decide), wsub (y := main_call8_v10) (by decide), wsub (y := main_call8_v11) (by decide), wsub (y := main_call8_v12) (by decide), wsub (y := main_call8_v13) (by decide), wsub (y := main_call8_v14) (by decide), wsub (y := main_v61) (by decide)⟩
/-- A buffer stretch 5 does not write keeps its contents across it. -/
theorem g5_keeps (V : Valuation τ sig (Elt F)) {r : Ref sig .tc} (hr : r ∉ W5) :
    after (g5 (F := F)) V (Proc.devRef .tc r) = V (Proc.devRef .tc r) :=
  after_of_writes_sub _ V g5_writes hr

set_option maxHeartbeats 40000000 in
/-- Stretch 6: operations 164 … 188. -/
abbrev g6 : List (HloOp τ sig (Elt F)) :=
  [ StableHlo.nullary main_c_12 (constantI S_ 32 0#32),
    StableHlo.unary main_c_12 main_v62 (broadcastInDim S8386560 ![] bcast_S_S8386560 : (⟨S_, .i32⟩ : BufTy).Contents (Elt F) → (⟨S8386560, .i32⟩ : BufTy).Contents (Elt F)),
    StableHlo.binary main_v59 main_v62 main_v63 (cmpi .slt : (⟨S8386560, .i32⟩ : BufTy).Contents (Elt F) → (⟨S8386560, .i32⟩ : BufTy).Contents (Elt F) → (⟨S8386560, .i1⟩ : BufTy).Contents (Elt F)),
    StableHlo.nullary main_c_13 (constantI S_ 32 4096#32),
    StableHlo.unary main_c_13 main_v64 (broadcastInDim S8386560 ![] bcast_S_S8386560 : (⟨S_, .i32⟩ : BufTy).Contents (Elt F) → (⟨S8386560, .i32⟩ : BufTy).Contents (Elt F)),
    StableHlo.binary main_v59 main_v64 main_v65 (addi : (⟨S8386560, .i32⟩ : BufTy).Contents (Elt F) → (⟨S8386560, .i32⟩ : BufTy).Contents (Elt F) → (⟨S8386560, .i32⟩ : BufTy).Contents (Elt F)),
    StableHlo.ternary main_v63 main_v65 main_v59 main_v66 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.nullary main_c_14 (constantI S_ 32 0#32),
    StableHlo.unary main_c_14 main_v67 (broadcastInDim S8386560 ![] bcast_S_S8386560 : (⟨S_, .i32⟩ : BufTy).Contents (Elt F) → (⟨S8386560, .i32⟩ : BufTy).Contents (Elt F)),
    StableHlo.binary main_v61 main_v67 main_v68 (cmpi .slt : (⟨S8386560, .i32⟩ : BufTy).Contents (Elt F) → (⟨S8386560, .i32⟩ : BufTy).Contents (Elt F) → (⟨S8386560, .i1⟩ : BufTy).Contents (Elt F)),
    StableHlo.nullary main_c_15 (constantI S_ 32 4096#32),
    StableHlo.unary main_c_15 main_v69 (broadcastInDim S8386560 ![] bcast_S_S8386560 : (⟨S_, .i32⟩ : BufTy).Contents (Elt F) → (⟨S8386560, .i32⟩ : BufTy).Contents (Elt F)),
    StableHlo.binary main_v61 main_v69 main_v70 (addi : (⟨S8386560, .i32⟩ : BufTy).Contents (Elt F) → (⟨S8386560, .i32⟩ : BufTy).Contents (Elt F) → (⟨S8386560, .i32⟩ : BufTy).Contents (Elt F)),
    StableHlo.ternary main_v68 main_v70 main_v61 main_v71 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v66 main_v72 (broadcastInDim S8386560x1 ![0] bcast_S8386560_S8386560x1_0 : (⟨S8386560, .i32⟩ : BufTy).Contents (Elt F) → (⟨S8386560x1, .i32⟩ : BufTy).Contents (Elt F)),
    StableHlo.unary main_v71 main_v73 (broadcastInDim S8386560x1 ![0] bcast_S8386560_S8386560x1_0 : (⟨S8386560, .i32⟩ : BufTy).Contents (Elt F) → (⟨S8386560x1, .i32⟩ : BufTy).Contents (Elt F)),
    StableHlo.binary main_v72 main_v73 main_v74 ((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)),
    StableHlo.binary main_v41 main_v74 main_v75 ((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)),
    StableHlo.nullary main_cst_16 (constant S_ .f32 0x40A00000#32),
    StableHlo.unary main_cst_16 main_v76 (broadcastInDim S8386560 ![] bcast_S_S8386560 : (⟨S_, .f32⟩ : BufTy).Contents (Elt F) → (⟨S8386560, .f32⟩ : BufTy).Contents (Elt F)),
    StableHlo.binary main_v75 main_v76 main_v77 (cmpf .ole : (⟨S8386560, .f32⟩ : BufTy).Contents (Elt F) → (⟨S8386560, .f32⟩ : BufTy).Contents (Elt F) → (⟨S8386560, .i1⟩ : BufTy).Contents (Elt F)),
    StableHlo.nullary main_cst_17 (constant S_ .f32 0x3F800000#32),
    StableHlo.TRef.unary (.of main_cst_17 : StableHlo.TRef sig ⟨S_, .f32⟩) (.of main_call9_v0 : StableHlo.TRef sig ⟨S_, .f32⟩) id,
    StableHlo.TRef.unary (.of main_call9_v0 : StableHlo.TRef sig ⟨S_, .f32⟩) (.of main_call9_v1 : StableHlo.TRef sig ⟨S8386560, .f32⟩) (broadcastInDim S8386560 ![] bcast_S_S8386560),
    StableHlo.TRef.ternary (.of main_v77 : StableHlo.TRef sig ⟨S8386560, .i1⟩) (.of main_v75 : StableHlo.TRef sig ⟨S8386560, .f32⟩) (.of main_call9_v1 : StableHlo.TRef sig ⟨S8386560, .f32⟩) (.of main_v78 : StableHlo.TRef sig ⟨S8386560, .f32⟩) select ]
/-- The buffers stretch 6 writes. -/
abbrev W6 : List (Ref sig .tc) := [ main_c_12, main_v62, main_v63, main_c_13, main_v64, main_v65, main_v66, main_c_14, main_v67, main_v68, main_c_15, main_v69, main_v70, main_v71, main_v72, main_v73, main_v74, main_v75, main_cst_16, main_v76, main_v77, main_cst_17, main_call9_v0, main_call9_v1, main_v78 ]
set_option maxHeartbeats 40000000 in
theorem g6_writes : (g6 : List (HloOp τ sig (Elt F))).Forall fun op => op.writes ⊆ ((W6).map (Proc.devRef (τ := τ) .tc)).toFinset :=
  ⟨wsub (y := main_c_12) (by decide), wsub (y := main_v62) (by decide), wsub (y := main_v63) (by decide), wsub (y := main_c_13) (by decide), wsub (y := main_v64) (by decide), wsub (y := main_v65) (by decide), wsub (y := main_v66) (by decide), wsub (y := main_c_14) (by decide), wsub (y := main_v67) (by decide), wsub (y := main_v68) (by decide), wsub (y := main_c_15) (by decide), wsub (y := main_v69) (by decide), wsub (y := main_v70) (by decide), wsub (y := main_v71) (by decide), wsub (y := main_v72) (by decide), wsub (y := main_v73) (by decide), wsub (y := main_v74) (by decide), wsub (y := main_v75) (by decide), wsub (y := main_cst_16) (by decide), wsub (y := main_v76) (by decide), wsub (y := main_v77) (by decide), wsub (y := main_cst_17) (by decide), wsub (y := main_call9_v0) (by decide), wsub (y := main_call9_v1) (by decide), wsub (y := main_v78) (by decide)⟩
/-- A buffer stretch 6 does not write keeps its contents across it. -/
theorem g6_keeps (V : Valuation τ sig (Elt F)) {r : Ref sig .tc} (hr : r ∉ W6) :
    after (g6 (F := F)) V (Proc.devRef .tc r) = V (Proc.devRef .tc r) :=
  after_of_writes_sub _ V g6_writes hr

set_option maxHeartbeats 40000000 in
/-- Stretch 7: operations 189 … 233. -/
abbrev g7 : List (HloOp τ sig (Elt F)) :=
  [ StableHlo.nullary main_c_18 (constantI S_ 32 0#32),
    StableHlo.unary main_c_18 main_v79 (broadcastInDim S8386560 ![] bcast_S_S8386560 : (⟨S_, .i32⟩ : BufTy).Contents (Elt F) → (⟨S8386560, .i32⟩ : BufTy).Contents (Elt F)),
    StableHlo.binary main_v59 main_v79 main_v80 (cmpi .slt : (⟨S8386560, .i32⟩ : BufTy).Contents (Elt F) → (⟨S8386560, .i32⟩ : BufTy).Contents (Elt F) → (⟨S8386560, .i1⟩ : BufTy).Contents (Elt F)),
    StableHlo.nullary main_c_19 (constantI S_ 32 4096#32),
    StableHlo.unary main_c_19 main_v81 (broadcastInDim S8386560 ![] bcast_S_S8386560 : (⟨S_, .i32⟩ : BufTy).Contents (Elt F) → (⟨S8386560, .i32⟩ : BufTy).Contents (Elt F)),
    StableHlo.binary main_v59 main_v81 main_v82 (addi : (⟨S8386560, .i32⟩ : BufTy).Contents (Elt F) → (⟨S8386560, .i32⟩ : BufTy).Contents (Elt F) → (⟨S8386560, .i32⟩ : BufTy).Contents (Elt F)),
    StableHlo.ternary main_v80 main_v82 main_v59 main_v83 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v83 main_v84 (broadcastInDim S8386560x1 ![0] bcast_S8386560_S8386560x1_0 : (⟨S8386560, .i32⟩ : BufTy).Contents (Elt F) → (⟨S8386560x1, .i32⟩ : BufTy).Contents (Elt F)),
    StableHlo.binary main_v3 main_v84 main_v85 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_20 (constantI S_ 32 0#32),
    StableHlo.unary main_c_20 main_v86 (broadcastInDim S8386560 ![] bcast_S_S8386560 : (⟨S_, .i32⟩ : BufTy).Contents (Elt F) → (⟨S8386560, .i32⟩ : BufTy).Contents (Elt F)),
    StableHlo.binary main_v59 main_v86 main_v87 (cmpi .slt : (⟨S8386560, .i32⟩ : BufTy).Contents (Elt F) → (⟨S8386560, .i32⟩ : BufTy).Contents (Elt F) → (⟨S8386560, .i1⟩ : BufTy).Contents (Elt F)),
    StableHlo.nullary main_c_21 (constantI S_ 32 4096#32),
    StableHlo.unary main_c_21 main_v88 (broadcastInDim S8386560 ![] bcast_S_S8386560 : (⟨S_, .i32⟩ : BufTy).Contents (Elt F) → (⟨S8386560, .i32⟩ : BufTy).Contents (Elt F)),
    StableHlo.binary main_v59 main_v88 main_v89 (addi : (⟨S8386560, .i32⟩ : BufTy).Contents (Elt F) → (⟨S8386560, .i32⟩ : BufTy).Contents (Elt F) → (⟨S8386560, .i32⟩ : BufTy).Contents (Elt F)),
    StableHlo.ternary main_v87 main_v89 main_v59 main_v90 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v90 main_v91 (broadcastInDim S8386560x1 ![0] bcast_S8386560_S8386560x1_0 : (⟨S8386560, .i32⟩ : BufTy).Contents (Elt F) → (⟨S8386560x1, .i32⟩ : BufTy).Contents (Elt F)),
    StableHlo.binary main_v11 main_v91 main_v92 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_22 (constantI S_ 32 0#32),
    StableHlo.unary main_c_22 main_v93 (broadcastInDim S8386560 ![] bcast_S_S8386560 : (⟨S_, .i32⟩ : BufTy).Contents (Elt F) → (⟨S8386560, .i32⟩ : BufTy).Contents (Elt F)),
    StableHlo.binary main_v59 main_v93 main_v94 (cmpi .slt : (⟨S8386560, .i32⟩ : BufTy).Contents (Elt F) → (⟨S8386560, .i32⟩ : BufTy).Contents (Elt F) → (⟨S8386560, .i1⟩ : BufTy).Contents (Elt F)),
    StableHlo.nullary main_c_23 (constantI S_ 32 4096#32),
    StableHlo.unary main_c_23 main_v95 (broadcastInDim S8386560 ![] bcast_S_S8386560 : (⟨S_, .i32⟩ : BufTy).Contents (Elt F) → (⟨S8386560, .i32⟩ : BufTy).Contents (Elt F)),
    StableHlo.binary main_v59 main_v95 main_v96 (addi : (⟨S8386560, .i32⟩ : BufTy).Contents (Elt F) → (⟨S8386560, .i32⟩ : BufTy).Contents (Elt F) → (⟨S8386560, .i32⟩ : BufTy).Contents (Elt F)),
    StableHlo.ternary main_v94 main_v96 main_v59 main_v97 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v97 main_v98 (broadcastInDim S8386560x1 ![0] bcast_S8386560_S8386560x1_0 : (⟨S8386560, .i32⟩ : BufTy).Contents (Elt F) → (⟨S8386560x1, .i32⟩ : BufTy).Contents (Elt F)),
    StableHlo.binary main_v1 main_v98 main_v99 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_24 (constantI S_ 32 0#32),
    StableHlo.unary main_c_24 main_v100 (broadcastInDim S8386560 ![] bcast_S_S8386560 : (⟨S_, .i32⟩ : BufTy).Contents (Elt F) → (⟨S8386560, .i32⟩ : BufTy).Contents (Elt F)),
    StableHlo.binary main_v59 main_v100 main_v101 (cmpi .slt : (⟨S8386560, .i32⟩ : BufTy).Contents (Elt F) → (⟨S8386560, .i32⟩ : BufTy).Contents (Elt F) → (⟨S8386560, .i1⟩ : BufTy).Contents (Elt F)),
    StableHlo.nullary main_c_25 (constantI S_ 32 4096#32),
    StableHlo.unary main_c_25 main_v102 (broadcastInDim S8386560 ![] bcast_S_S8386560 : (⟨S_, .i32⟩ : BufTy).Contents (Elt F) → (⟨S8386560, .i32⟩ : BufTy).Contents (Elt F)),
    StableHlo.binary main_v59 main_v102 main_v103 (addi : (⟨S8386560, .i32⟩ : BufTy).Contents (Elt F) → (⟨S8386560, .i32⟩ : BufTy).Contents (Elt F) → (⟨S8386560, .i32⟩ : BufTy).Contents (Elt F)),
    StableHlo.ternary main_v101 main_v103 main_v59 main_v104 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v104 main_v105 (broadcastInDim S8386560x1 ![0] bcast_S8386560_S8386560x1_0 : (⟨S8386560, .i32⟩ : BufTy).Contents (Elt F) → (⟨S8386560x1, .i32⟩ : BufTy).Contents (Elt F)),
    StableHlo.binary main_v19 main_v105 main_v106 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v99 main_v107 (Host.divf : (⟨S8386560, .f32⟩ : BufTy).Contents (Elt F) → (⟨S8386560, .f32⟩ : BufTy).Contents (Elt F) → (⟨S8386560, .f32⟩ : BufTy).Contents (Elt F)),
    StableHlo.unary main_v92 main_v108 (Host.negf : (⟨S8386560, .f32⟩ : BufTy).Contents (Elt F) → (⟨S8386560, .f32⟩ : BufTy).Contents (Elt F)),
    StableHlo.nullary main_cst_26 (constant S_ .f32 0x3F800000#32),
    StableHlo.unary main_cst_26 main_v109 (broadcastInDim S8386560 ![] bcast_S_S8386560 : (⟨S_, .f32⟩ : BufTy).Contents (Elt F) → (⟨S8386560, .f32⟩ : BufTy).Contents (Elt F)),
    StableHlo.binary main_v107 main_v109 main_v110 (subf : (⟨S8386560, .f32⟩ : BufTy).Contents (Elt F) → (⟨S8386560, .f32⟩ : BufTy).Contents (Elt F) → (⟨S8386560, .f32⟩ : BufTy).Contents (Elt F)),
    StableHlo.binary main_v108 main_v110 main_v111 (mulf : (⟨S8386560, .f32⟩ : BufTy).Contents (Elt F) → (⟨S8386560, .f32⟩ : BufTy).Contents (Elt F) → (⟨S8386560, .f32⟩ : BufTy).Contents (Elt F)),
    StableHlo.unary main_v111 main_v112 (Host.exp : (⟨S8386560, .f32⟩ : BufTy).Contents (Elt F) → (⟨S8386560, .f32⟩ : BufTy).Contents (Elt F)),
    StableHlo.binary main_v85 main_v112 main_v113 (mulf : (⟨S8386560, .f32⟩ : BufTy).Contents (Elt F) → (⟨S8386560, .f32⟩ : BufTy).Contents (Elt F) → (⟨S8386560, .f32⟩ : BufTy).Contents (Elt F)),
    StableHlo.binary main_v107 main_v106 main_v114 (subf : (⟨S8386560, .f32⟩ : BufTy).Contents (Elt F) → (⟨S8386560, .f32⟩ : BufTy).Contents (Elt F) → (⟨S8386560, .f32⟩ : BufTy).Contents (Elt F)) ]
/-- The buffers stretch 7 writes. -/
abbrev W7 : List (Ref sig .tc) := [ main_c_18, main_v79, main_v80, main_c_19, main_v81, main_v82, main_v83, main_v84, main_v85, main_c_20, main_v86, main_v87, main_c_21, main_v88, main_v89, main_v90, main_v91, main_v92, main_c_22, main_v93, main_v94, main_c_23, main_v95, main_v96, main_v97, main_v98, main_v99, main_c_24, main_v100, main_v101, main_c_25, main_v102, main_v103, main_v104, main_v105, main_v106, main_v107, main_v108, main_cst_26, main_v109, main_v110, main_v111, main_v112, main_v113, main_v114 ]
set_option maxHeartbeats 40000000 in
theorem g7_writes : (g7 : List (HloOp τ sig (Elt F))).Forall fun op => op.writes ⊆ ((W7).map (Proc.devRef (τ := τ) .tc)).toFinset :=
  ⟨wsub (y := main_c_18) (by decide), wsub (y := main_v79) (by decide), wsub (y := main_v80) (by decide), wsub (y := main_c_19) (by decide), wsub (y := main_v81) (by decide), wsub (y := main_v82) (by decide), wsub (y := main_v83) (by decide), wsub (y := main_v84) (by decide), wsub (y := main_v85) (by decide), wsub (y := main_c_20) (by decide), wsub (y := main_v86) (by decide), wsub (y := main_v87) (by decide), wsub (y := main_c_21) (by decide), wsub (y := main_v88) (by decide), wsub (y := main_v89) (by decide), wsub (y := main_v90) (by decide), wsub (y := main_v91) (by decide), wsub (y := main_v92) (by decide), wsub (y := main_c_22) (by decide), wsub (y := main_v93) (by decide), wsub (y := main_v94) (by decide), wsub (y := main_c_23) (by decide), wsub (y := main_v95) (by decide), wsub (y := main_v96) (by decide), wsub (y := main_v97) (by decide), wsub (y := main_v98) (by decide), wsub (y := main_v99) (by decide), wsub (y := main_c_24) (by decide), wsub (y := main_v100) (by decide), wsub (y := main_v101) (by decide), wsub (y := main_c_25) (by decide), wsub (y := main_v102) (by decide), wsub (y := main_v103) (by decide), wsub (y := main_v104) (by decide), wsub (y := main_v105) (by decide), wsub (y := main_v106) (by decide), wsub (y := main_v107) (by decide), wsub (y := main_v108) (by decide), wsub (y := main_cst_26) (by decide), wsub (y := main_v109) (by decide), wsub (y := main_v110) (by decide), wsub (y := main_v111) (by decide), wsub (y := main_v112) (by decide), wsub (y := main_v113) (by decide), wsub (y := main_v114) (by decide)⟩
/-- A buffer stretch 7 does not write keeps its contents across it. -/
theorem g7_keeps (V : Valuation τ sig (Elt F)) {r : Ref sig .tc} (hr : r ∉ W7) :
    after (g7 (F := F)) V (Proc.devRef .tc r) = V (Proc.devRef .tc r) :=
  after_of_writes_sub _ V g7_writes hr

set_option maxHeartbeats 40000000 in
/-- Stretch 8: operations 234 … 242. -/
abbrev g8 : List (HloOp τ sig (Elt F)) :=
  [ StableHlo.binary main_v114 main_v114 main_v115 (mulf : (⟨S8386560, .f32⟩ : BufTy).Contents (Elt F) → (⟨S8386560, .f32⟩ : BufTy).Contents (Elt F) → (⟨S8386560, .f32⟩ : BufTy).Contents (Elt F)),
    StableHlo.binary main_v115 main_v115 main_v116 (mulf : (⟨S8386560, .f32⟩ : BufTy).Contents (Elt F) → (⟨S8386560, .f32⟩ : BufTy).Contents (Elt F) → (⟨S8386560, .f32⟩ : BufTy).Contents (Elt F)),
    StableHlo.binary main_v116 main_v116 main_v117 (mulf : (⟨S8386560, .f32⟩ : BufTy).Contents (Elt F) → (⟨S8386560, .f32⟩ : BufTy).Contents (Elt F) → (⟨S8386560, .f32⟩ : BufTy).Contents (Elt F)),
    StableHlo.binary main_v117 main_v117 main_v118 (mulf : (⟨S8386560, .f32⟩ : BufTy).Contents (Elt F) → (⟨S8386560, .f32⟩ : BufTy).Contents (Elt F) → (⟨S8386560, .f32⟩ : BufTy).Contents (Elt F)),
    StableHlo.binary main_v116 main_v118 main_v119 (mulf : (⟨S8386560, .f32⟩ : BufTy).Contents (Elt F) → (⟨S8386560, .f32⟩ : BufTy).Contents (Elt F) → (⟨S8386560, .f32⟩ : BufTy).Contents (Elt F)),
    StableHlo.nullary main_cst_27 (constant S_ .f32 0x3F800000#32),
    StableHlo.unary main_cst_27 main_v120 (broadcastInDim S8386560 ![] bcast_S_S8386560 : (⟨S_, .f32⟩ : BufTy).Contents (Elt F) → (⟨S8386560, .f32⟩ : BufTy).Contents (Elt F)),
    StableHlo.binary main_v120 main_v119 main_v121 (addf : (⟨S8386560, .f32⟩ : BufTy).Contents (Elt F) → (⟨S8386560, .f32⟩ : BufTy).Contents (Elt F) → (⟨S8386560, .f32⟩ : BufTy).Contents (Elt F)),
    StableHlo.binary main_v113 main_v121 main_v122 (Host.divf : (⟨S8386560, .f32⟩ : BufTy).Contents (Elt F) → (⟨S8386560, .f32⟩ : BufTy).Contents (Elt F) → (⟨S8386560, .f32⟩ : BufTy).Contents (Elt F)) ]
/-- The buffers stretch 8 writes. -/
abbrev W8 : List (Ref sig .tc) := [ main_v115, main_v116, main_v117, main_v118, main_v119, main_cst_27, main_v120, main_v121, main_v122 ]
set_option maxHeartbeats 40000000 in
theorem g8_writes : (g8 : List (HloOp τ sig (Elt F))).Forall fun op => op.writes ⊆ ((W8).map (Proc.devRef (τ := τ) .tc)).toFinset :=
  ⟨wsub (y := main_v115) (by decide), wsub (y := main_v116) (by decide), wsub (y := main_v117) (by decide), wsub (y := main_v118) (by decide), wsub (y := main_v119) (by decide), wsub (y := main_cst_27) (by decide), wsub (y := main_v120) (by decide), wsub (y := main_v121) (by decide), wsub (y := main_v122) (by decide)⟩
/-- A buffer stretch 8 does not write keeps its contents across it. -/
theorem g8_keeps (V : Valuation τ sig (Elt F)) {r : Ref sig .tc} (hr : r ∉ W8) :
    after (g8 (F := F)) V (Proc.devRef .tc r) = V (Proc.devRef .tc r) :=
  after_of_writes_sub _ V g8_writes hr

set_option maxHeartbeats 40000000 in
/-- Stretch 9: operations 243 … 287. -/
abbrev g9 : List (HloOp τ sig (Elt F)) :=
  [ StableHlo.nullary main_c_28 (constantI S_ 32 0#32),
    StableHlo.unary main_c_28 main_v123 (broadcastInDim S8386560 ![] bcast_S_S8386560 : (⟨S_, .i32⟩ : BufTy).Contents (Elt F) → (⟨S8386560, .i32⟩ : BufTy).Contents (Elt F)),
    StableHlo.binary main_v61 main_v123 main_v124 (cmpi .slt : (⟨S8386560, .i32⟩ : BufTy).Contents (Elt F) → (⟨S8386560, .i32⟩ : BufTy).Contents (Elt F) → (⟨S8386560, .i1⟩ : BufTy).Contents (Elt F)),
    StableHlo.nullary main_c_29 (constantI S_ 32 4096#32),
    StableHlo.unary main_c_29 main_v125 (broadcastInDim S8386560 ![] bcast_S_S8386560 : (⟨S_, .i32⟩ : BufTy).Contents (Elt F) → (⟨S8386560, .i32⟩ : BufTy).Contents (Elt F)),
    StableHlo.binary main_v61 main_v125 main_v126 (addi : (⟨S8386560, .i32⟩ : BufTy).Contents (Elt F) → (⟨S8386560, .i32⟩ : BufTy).Contents (Elt F) → (⟨S8386560, .i32⟩ : BufTy).Contents (Elt F)),
    StableHlo.ternary main_v124 main_v126 main_v61 main_v127 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v127 main_v128 (broadcastInDim S8386560x1 ![0] bcast_S8386560_S8386560x1_0 : (⟨S8386560, .i32⟩ : BufTy).Contents (Elt F) → (⟨S8386560x1, .i32⟩ : BufTy).Contents (Elt F)),
    StableHlo.binary main_v3 main_v128 main_v129 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_30 (constantI S_ 32 0#32),
    StableHlo.unary main_c_30 main_v130 (broadcastInDim S8386560 ![] bcast_S_S8386560 : (⟨S_, .i32⟩ : BufTy).Contents (Elt F) → (⟨S8386560, .i32⟩ : BufTy).Contents (Elt F)),
    StableHlo.binary main_v61 main_v130 main_v131 (cmpi .slt : (⟨S8386560, .i32⟩ : BufTy).Contents (Elt F) → (⟨S8386560, .i32⟩ : BufTy).Contents (Elt F) → (⟨S8386560, .i1⟩ : BufTy).Contents (Elt F)),
    StableHlo.nullary main_c_31 (constantI S_ 32 4096#32),
    StableHlo.unary main_c_31 main_v132 (broadcastInDim S8386560 ![] bcast_S_S8386560 : (⟨S_, .i32⟩ : BufTy).Contents (Elt F) → (⟨S8386560, .i32⟩ : BufTy).Contents (Elt F)),
    StableHlo.binary main_v61 main_v132 main_v133 (addi : (⟨S8386560, .i32⟩ : BufTy).Contents (Elt F) → (⟨S8386560, .i32⟩ : BufTy).Contents (Elt F) → (⟨S8386560, .i32⟩ : BufTy).Contents (Elt F)),
    StableHlo.ternary main_v131 main_v133 main_v61 main_v134 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v134 main_v135 (broadcastInDim S8386560x1 ![0] bcast_S8386560_S8386560x1_0 : (⟨S8386560, .i32⟩ : BufTy).Contents (Elt F) → (⟨S8386560x1, .i32⟩ : BufTy).Contents (Elt F)),
    StableHlo.binary main_v11 main_v135 main_v136 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_32 (constantI S_ 32 0#32),
    StableHlo.unary main_c_32 main_v137 (broadcastInDim S8386560 ![] bcast_S_S8386560 : (⟨S_, .i32⟩ : BufTy).Contents (Elt F) → (⟨S8386560, .i32⟩ : BufTy).Contents (Elt F)),
    StableHlo.binary main_v61 main_v137 main_v138 (cmpi .slt : (⟨S8386560, .i32⟩ : BufTy).Contents (Elt F) → (⟨S8386560, .i32⟩ : BufTy).Contents (Elt F) → (⟨S8386560, .i1⟩ : BufTy).Contents (Elt F)),
    StableHlo.nullary main_c_33 (constantI S_ 32 4096#32),
    StableHlo.unary main_c_33 main_v139 (broadcastInDim S8386560 ![] bcast_S_S8386560 : (⟨S_, .i32⟩ : BufTy).Contents (Elt F) → (⟨S8386560, .i32⟩ : BufTy).Contents (Elt F)),
    StableHlo.binary main_v61 main_v139 main_v140 (addi : (⟨S8386560, .i32⟩ : BufTy).Contents (Elt F) → (⟨S8386560, .i32⟩ : BufTy).Contents (Elt F) → (⟨S8386560, .i32⟩ : BufTy).Contents (Elt F)),
    StableHlo.ternary main_v138 main_v140 main_v61 main_v141 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v141 main_v142 (broadcastInDim S8386560x1 ![0] bcast_S8386560_S8386560x1_0 : (⟨S8386560, .i32⟩ : BufTy).Contents (Elt F) → (⟨S8386560x1, .i32⟩ : BufTy).Contents (Elt F)),
    StableHlo.binary main_v1 main_v142 main_v143 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_34 (constantI S_ 32 0#32),
    StableHlo.unary main_c_34 main_v144 (broadcastInDim S8386560 ![] bcast_S_S8386560 : (⟨S_, .i32⟩ : BufTy).Contents (Elt F) → (⟨S8386560, .i32⟩ : BufTy).Contents (Elt F)),
    StableHlo.binary main_v61 main_v144 main_v145 (cmpi .slt : (⟨S8386560, .i32⟩ : BufTy).Contents (Elt F) → (⟨S8386560, .i32⟩ : BufTy).Contents (Elt F) → (⟨S8386560, .i1⟩ : BufTy).Contents (Elt F)),
    StableHlo.nullary main_c_35 (constantI S_ 32 4096#32),
    StableHlo.unary main_c_35 main_v146 (broadcastInDim S8386560 ![] bcast_S_S8386560 : (⟨S_, .i32⟩ : BufTy).Contents (Elt F) → (⟨S8386560, .i32⟩ : BufTy).Contents (Elt F)),
    StableHlo.binary main_v61 main_v146 main_v147 (addi : (⟨S8386560, .i32⟩ : BufTy).Contents (Elt F) → (⟨S8386560, .i32⟩ : BufTy).Contents (Elt F) → (⟨S8386560, .i32⟩ : BufTy).Contents (Elt F)),
    StableHlo.ternary main_v145 main_v147 main_v61 main_v148 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v148 main_v149 (broadcastInDim S8386560x1 ![0] bcast_S8386560_S8386560x1_0 : (⟨S8386560, .i32⟩ : BufTy).Contents (Elt F) → (⟨S8386560x1, .i32⟩ : BufTy).Contents (Elt F)),
    StableHlo.binary main_v19 main_v149 main_v150 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v143 main_v151 (Host.divf : (⟨S8386560, .f32⟩ : BufTy).Contents (Elt F) → (⟨S8386560, .f32⟩ : BufTy).Contents (Elt F) → (⟨S8386560, .f32⟩ : BufTy).Contents (Elt F)),
    StableHlo.unary main_v136 main_v152 (Host.negf : (⟨S8386560, .f32⟩ : BufTy).Contents (Elt F) → (⟨S8386560, .f32⟩ : BufTy).Contents (Elt F)),
    StableHlo.nullary main_cst_36 (constant S_ .f32 0x3F800000#32),
    StableHlo.unary main_cst_36 main_v153 (broadcastInDim S8386560 ![] bcast_S_S8386560 : (⟨S_, .f32⟩ : BufTy).Contents (Elt F) → (⟨S8386560, .f32⟩ : BufTy).Contents (Elt F)),
    StableHlo.binary main_v151 main_v153 main_v154 (subf : (⟨S8386560, .f32⟩ : BufTy).Contents (Elt F) → (⟨S8386560, .f32⟩ : BufTy).Contents (Elt F) → (⟨S8386560, .f32⟩ : BufTy).Contents (Elt F)),
    StableHlo.binary main_v152 main_v154 main_v155 (mulf : (⟨S8386560, .f32⟩ : BufTy).Contents (Elt F) → (⟨S8386560, .f32⟩ : BufTy).Contents (Elt F) → (⟨S8386560, .f32⟩ : BufTy).Contents (Elt F)),
    StableHlo.unary main_v155 main_v156 (Host.exp : (⟨S8386560, .f32⟩ : BufTy).Contents (Elt F) → (⟨S8386560, .f32⟩ : BufTy).Contents (Elt F)),
    StableHlo.binary main_v129 main_v156 main_v157 (mulf : (⟨S8386560, .f32⟩ : BufTy).Contents (Elt F) → (⟨S8386560, .f32⟩ : BufTy).Contents (Elt F) → (⟨S8386560, .f32⟩ : BufTy).Contents (Elt F)),
    StableHlo.binary main_v151 main_v150 main_v158 (subf : (⟨S8386560, .f32⟩ : BufTy).Contents (Elt F) → (⟨S8386560, .f32⟩ : BufTy).Contents (Elt F) → (⟨S8386560, .f32⟩ : BufTy).Contents (Elt F)) ]
/-- The buffers stretch 9 writes. -/
abbrev W9 : List (Ref sig .tc) := [ main_c_28, main_v123, main_v124, main_c_29, main_v125, main_v126, main_v127, main_v128, main_v129, main_c_30, main_v130, main_v131, main_c_31, main_v132, main_v133, main_v134, main_v135, main_v136, main_c_32, main_v137, main_v138, main_c_33, main_v139, main_v140, main_v141, main_v142, main_v143, main_c_34, main_v144, main_v145, main_c_35, main_v146, main_v147, main_v148, main_v149, main_v150, main_v151, main_v152, main_cst_36, main_v153, main_v154, main_v155, main_v156, main_v157, main_v158 ]
set_option maxHeartbeats 40000000 in
theorem g9_writes : (g9 : List (HloOp τ sig (Elt F))).Forall fun op => op.writes ⊆ ((W9).map (Proc.devRef (τ := τ) .tc)).toFinset :=
  ⟨wsub (y := main_c_28) (by decide), wsub (y := main_v123) (by decide), wsub (y := main_v124) (by decide), wsub (y := main_c_29) (by decide), wsub (y := main_v125) (by decide), wsub (y := main_v126) (by decide), wsub (y := main_v127) (by decide), wsub (y := main_v128) (by decide), wsub (y := main_v129) (by decide), wsub (y := main_c_30) (by decide), wsub (y := main_v130) (by decide), wsub (y := main_v131) (by decide), wsub (y := main_c_31) (by decide), wsub (y := main_v132) (by decide), wsub (y := main_v133) (by decide), wsub (y := main_v134) (by decide), wsub (y := main_v135) (by decide), wsub (y := main_v136) (by decide), wsub (y := main_c_32) (by decide), wsub (y := main_v137) (by decide), wsub (y := main_v138) (by decide), wsub (y := main_c_33) (by decide), wsub (y := main_v139) (by decide), wsub (y := main_v140) (by decide), wsub (y := main_v141) (by decide), wsub (y := main_v142) (by decide), wsub (y := main_v143) (by decide), wsub (y := main_c_34) (by decide), wsub (y := main_v144) (by decide), wsub (y := main_v145) (by decide), wsub (y := main_c_35) (by decide), wsub (y := main_v146) (by decide), wsub (y := main_v147) (by decide), wsub (y := main_v148) (by decide), wsub (y := main_v149) (by decide), wsub (y := main_v150) (by decide), wsub (y := main_v151) (by decide), wsub (y := main_v152) (by decide), wsub (y := main_cst_36) (by decide), wsub (y := main_v153) (by decide), wsub (y := main_v154) (by decide), wsub (y := main_v155) (by decide), wsub (y := main_v156) (by decide), wsub (y := main_v157) (by decide), wsub (y := main_v158) (by decide)⟩
/-- A buffer stretch 9 does not write keeps its contents across it. -/
theorem g9_keeps (V : Valuation τ sig (Elt F)) {r : Ref sig .tc} (hr : r ∉ W9) :
    after (g9 (F := F)) V (Proc.devRef .tc r) = V (Proc.devRef .tc r) :=
  after_of_writes_sub _ V g9_writes hr

set_option maxHeartbeats 40000000 in
/-- Stretch 10: operations 288 … 296. -/
abbrev g10 : List (HloOp τ sig (Elt F)) :=
  [ StableHlo.binary main_v158 main_v158 main_v159 (mulf : (⟨S8386560, .f32⟩ : BufTy).Contents (Elt F) → (⟨S8386560, .f32⟩ : BufTy).Contents (Elt F) → (⟨S8386560, .f32⟩ : BufTy).Contents (Elt F)),
    StableHlo.binary main_v159 main_v159 main_v160 (mulf : (⟨S8386560, .f32⟩ : BufTy).Contents (Elt F) → (⟨S8386560, .f32⟩ : BufTy).Contents (Elt F) → (⟨S8386560, .f32⟩ : BufTy).Contents (Elt F)),
    StableHlo.binary main_v160 main_v160 main_v161 (mulf : (⟨S8386560, .f32⟩ : BufTy).Contents (Elt F) → (⟨S8386560, .f32⟩ : BufTy).Contents (Elt F) → (⟨S8386560, .f32⟩ : BufTy).Contents (Elt F)),
    StableHlo.binary main_v161 main_v161 main_v162 (mulf : (⟨S8386560, .f32⟩ : BufTy).Contents (Elt F) → (⟨S8386560, .f32⟩ : BufTy).Contents (Elt F) → (⟨S8386560, .f32⟩ : BufTy).Contents (Elt F)),
    StableHlo.binary main_v160 main_v162 main_v163 (mulf : (⟨S8386560, .f32⟩ : BufTy).Contents (Elt F) → (⟨S8386560, .f32⟩ : BufTy).Contents (Elt F) → (⟨S8386560, .f32⟩ : BufTy).Contents (Elt F)),
    StableHlo.nullary main_cst_37 (constant S_ .f32 0x3F800000#32),
    StableHlo.unary main_cst_37 main_v164 (broadcastInDim S8386560 ![] bcast_S_S8386560 : (⟨S_, .f32⟩ : BufTy).Contents (Elt F) → (⟨S8386560, .f32⟩ : BufTy).Contents (Elt F)),
    StableHlo.binary main_v164 main_v163 main_v165 (addf : (⟨S8386560, .f32⟩ : BufTy).Contents (Elt F) → (⟨S8386560, .f32⟩ : BufTy).Contents (Elt F) → (⟨S8386560, .f32⟩ : BufTy).Contents (Elt F)),
    StableHlo.binary main_v157 main_v165 main_v166 (Host.divf : (⟨S8386560, .f32⟩ : BufTy).Contents (Elt F) → (⟨S8386560, .f32⟩ : BufTy).Contents (Elt F) → (⟨S8386560, .f32⟩ : BufTy).Contents (Elt F)) ]
/-- The buffers stretch 10 writes. -/
abbrev W10 : List (Ref sig .tc) := [ main_v159, main_v160, main_v161, main_v162, main_v163, main_cst_37, main_v164, main_v165, main_v166 ]
set_option maxHeartbeats 40000000 in
theorem g10_writes : (g10 : List (HloOp τ sig (Elt F))).Forall fun op => op.writes ⊆ ((W10).map (Proc.devRef (τ := τ) .tc)).toFinset :=
  ⟨wsub (y := main_v159) (by decide), wsub (y := main_v160) (by decide), wsub (y := main_v161) (by decide), wsub (y := main_v162) (by decide), wsub (y := main_v163) (by decide), wsub (y := main_cst_37) (by decide), wsub (y := main_v164) (by decide), wsub (y := main_v165) (by decide), wsub (y := main_v166) (by decide)⟩
/-- A buffer stretch 10 does not write keeps its contents across it. -/
theorem g10_keeps (V : Valuation τ sig (Elt F)) {r : Ref sig .tc} (hr : r ∉ W10) :
    after (g10 (F := F)) V (Proc.devRef .tc r) = V (Proc.devRef .tc r) :=
  after_of_writes_sub _ V g10_writes hr

set_option maxHeartbeats 40000000 in
/-- Stretch 11: operations 297 … 368. -/
abbrev g11 : List (HloOp τ sig (Elt F)) :=
  [ StableHlo.nullary main_c_38 (constantI S_ 32 0#32),
    StableHlo.unary main_c_38 main_v167 (broadcastInDim S8386560 ![] bcast_S_S8386560 : (⟨S_, .i32⟩ : BufTy).Contents (Elt F) → (⟨S8386560, .i32⟩ : BufTy).Contents (Elt F)),
    StableHlo.binary main_v59 main_v167 main_v168 (cmpi .slt : (⟨S8386560, .i32⟩ : BufTy).Contents (Elt F) → (⟨S8386560, .i32⟩ : BufTy).Contents (Elt F) → (⟨S8386560, .i1⟩ : BufTy).Contents (Elt F)),
    StableHlo.nullary main_c_39 (constantI S_ 32 4096#32),
    StableHlo.unary main_c_39 main_v169 (broadcastInDim S8386560 ![] bcast_S_S8386560 : (⟨S_, .i32⟩ : BufTy).Contents (Elt F) → (⟨S8386560, .i32⟩ : BufTy).Contents (Elt F)),
    StableHlo.binary main_v59 main_v169 main_v170 (addi : (⟨S8386560, .i32⟩ : BufTy).Contents (Elt F) → (⟨S8386560, .i32⟩ : BufTy).Contents (Elt F) → (⟨S8386560, .i32⟩ : BufTy).Contents (Elt F)),
    StableHlo.ternary main_v168 main_v170 main_v59 main_v171 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v171 main_v172 (broadcastInDim S8386560x1 ![0] bcast_S8386560_S8386560x1_0 : (⟨S8386560, .i32⟩ : BufTy).Contents (Elt F) → (⟨S8386560x1, .i32⟩ : BufTy).Contents (Elt F)),
    StableHlo.binary main_v13 main_v172 main_v173 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_40 (constantI S_ 32 0#32),
    StableHlo.unary main_c_40 main_v174 (broadcastInDim S8386560 ![] bcast_S_S8386560 : (⟨S_, .i32⟩ : BufTy).Contents (Elt F) → (⟨S8386560, .i32⟩ : BufTy).Contents (Elt F)),
    StableHlo.binary main_v59 main_v174 main_v175 (cmpi .slt : (⟨S8386560, .i32⟩ : BufTy).Contents (Elt F) → (⟨S8386560, .i32⟩ : BufTy).Contents (Elt F) → (⟨S8386560, .i1⟩ : BufTy).Contents (Elt F)),
    StableHlo.nullary main_c_41 (constantI S_ 32 4096#32),
    StableHlo.unary main_c_41 main_v176 (broadcastInDim S8386560 ![] bcast_S_S8386560 : (⟨S_, .i32⟩ : BufTy).Contents (Elt F) → (⟨S8386560, .i32⟩ : BufTy).Contents (Elt F)),
    StableHlo.binary main_v59 main_v176 main_v177 (addi : (⟨S8386560, .i32⟩ : BufTy).Contents (Elt F) → (⟨S8386560, .i32⟩ : BufTy).Contents (Elt F) → (⟨S8386560, .i32⟩ : BufTy).Contents (Elt F)),
    StableHlo.ternary main_v175 main_v177 main_v59 main_v178 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v178 main_v179 (broadcastInDim S8386560x1 ![0] bcast_S8386560_S8386560x1_0 : (⟨S8386560, .i32⟩ : BufTy).Contents (Elt F) → (⟨S8386560x1, .i32⟩ : BufTy).Contents (Elt F)),
    StableHlo.binary main_v15 main_v179 main_v180 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_42 (constantI S_ 32 0#32),
    StableHlo.unary main_c_42 main_v181 (broadcastInDim S8386560 ![] bcast_S_S8386560 : (⟨S_, .i32⟩ : BufTy).Contents (Elt F) → (⟨S8386560, .i32⟩ : BufTy).Contents (Elt F)),
    StableHlo.binary main_v59 main_v181 main_v182 (cmpi .slt : (⟨S8386560, .i32⟩ : BufTy).Contents (Elt F) → (⟨S8386560, .i32⟩ : BufTy).Contents (Elt F) → (⟨S8386560, .i1⟩ : BufTy).Contents (Elt F)),
    StableHlo.nullary main_c_43 (constantI S_ 32 4096#32),
    StableHlo.unary main_c_43 main_v183 (broadcastInDim S8386560 ![] bcast_S_S8386560 : (⟨S_, .i32⟩ : BufTy).Contents (Elt F) → (⟨S8386560, .i32⟩ : BufTy).Contents (Elt F)),
    StableHlo.binary main_v59 main_v183 main_v184 (addi : (⟨S8386560, .i32⟩ : BufTy).Contents (Elt F) → (⟨S8386560, .i32⟩ : BufTy).Contents (Elt F) → (⟨S8386560, .i32⟩ : BufTy).Contents (Elt F)),
    StableHlo.ternary main_v182 main_v184 main_v59 main_v185 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v185 main_v186 (broadcastInDim S8386560x1 ![0] bcast_S8386560_S8386560x1_0 : (⟨S8386560, .i32⟩ : BufTy).Contents (Elt F) → (⟨S8386560x1, .i32⟩ : BufTy).Contents (Elt F)),
    StableHlo.binary main_v1 main_v186 main_v187 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_44 (constantI S_ 32 0#32),
    StableHlo.unary main_c_44 main_v188 (broadcastInDim S8386560 ![] bcast_S_S8386560 : (⟨S_, .i32⟩ : BufTy).Contents (Elt F) → (⟨S8386560, .i32⟩ : BufTy).Contents (Elt F)),
    StableHlo.binary main_v59 main_v188 main_v189 (cmpi .slt : (⟨S8386560, .i32⟩ : BufTy).Contents (Elt F) → (⟨S8386560, .i32⟩ : BufTy).Contents (Elt F) → (⟨S8386560, .i1⟩ : BufTy).Contents (Elt F)),
    StableHlo.nullary main_c_45 (constantI S_ 32 4096#32),
    StableHlo.unary main_c_45 main_v190 (broadcastInDim S8386560 ![] bcast_S_S8386560 : (⟨S_, .i32⟩ : BufTy).Contents (Elt F) → (⟨S8386560, .i32⟩ : BufTy).Contents (Elt F)),
    StableHlo.binary main_v59 main_v190 main_v191 (addi : (⟨S8386560, .i32⟩ : BufTy).Contents (Elt F) → (⟨S8386560, .i32⟩ : BufTy).Contents (Elt F) → (⟨S8386560, .i32⟩ : BufTy).Contents (Elt F)),
    StableHlo.ternary main_v189 main_v191 main_v59 main_v192 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v192 main_v193 (broadcastInDim S8386560x1 ![0] bcast_S8386560_S8386560x1_0 : (⟨S8386560, .i32⟩ : BufTy).Contents (Elt F) → (⟨S8386560x1, .i32⟩ : BufTy).Contents (Elt F)),
    StableHlo.binary main_v9 main_v193 main_v194 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_46 (constantI S_ 32 0#32),
    StableHlo.unary main_c_46 main_v195 (broadcastInDim S8386560 ![] bcast_S_S8386560 : (⟨S_, .i32⟩ : BufTy).Contents (Elt F) → (⟨S8386560, .i32⟩ : BufTy).Contents (Elt F)),
    StableHlo.binary main_v59 main_v195 main_v196 (cmpi .slt : (⟨S8386560, .i32⟩ : BufTy).Contents (Elt F) → (⟨S8386560, .i32⟩ : BufTy).Contents (Elt F) → (⟨S8386560, .i1⟩ : BufTy).Contents (Elt F)),
    StableHlo.nullary main_c_47 (constantI S_ 32 4096#32),
    StableHlo.unary main_c_47 main_v197 (broadcastInDim S8386560 ![] bcast_S_S8386560 : (⟨S_, .i32⟩ : BufTy).Contents (Elt F) → (⟨S8386560, .i32⟩ : BufTy).Contents (Elt F)),
    StableHlo.binary main_v59 main_v197 main_v198 (addi : (⟨S8386560, .i32⟩ : BufTy).Contents (Elt F) → (⟨S8386560, .i32⟩ : BufTy).Contents (Elt F) → (⟨S8386560, .i32⟩ : BufTy).Contents (Elt F)),
    StableHlo.ternary main_v196 main_v198 main_v59 main_v199 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v199 main_v200 (broadcastInDim S8386560x1 ![0] bcast_S8386560_S8386560x1_0 : (⟨S8386560, .i32⟩ : BufTy).Contents (Elt F) → (⟨S8386560x1, .i32⟩ : BufTy).Contents (Elt F)),
    StableHlo.binary main_v11 main_v200 main_v201 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_48 (constantI S_ 32 0#32),
    StableHlo.unary main_c_48 main_v202 (broadcastInDim S8386560 ![] bcast_S_S8386560 : (⟨S_, .i32⟩ : BufTy).Contents (Elt F) → (⟨S8386560, .i32⟩ : BufTy).Contents (Elt F)),
    StableHlo.binary main_v59 main_v202 main_v203 (cmpi .slt : (⟨S8386560, .i32⟩ : BufTy).Contents (Elt F) → (⟨S8386560, .i32⟩ : BufTy).Contents (Elt F) → (⟨S8386560, .i1⟩ : BufTy).Contents (Elt F)),
    StableHlo.nullary main_c_49 (constantI S_ 32 4096#32),
    StableHlo.unary main_c_49 main_v204 (broadcastInDim S8386560 ![] bcast_S_S8386560 : (⟨S_, .i32⟩ : BufTy).Contents (Elt F) → (⟨S8386560, .i32⟩ : BufTy).Contents (Elt F)),
    StableHlo.binary main_v59 main_v204 main_v205 (addi : (⟨S8386560, .i32⟩ : BufTy).Contents (Elt F) → (⟨S8386560, .i32⟩ : BufTy).Contents (Elt F) → (⟨S8386560, .i32⟩ : BufTy).Contents (Elt F)),
    StableHlo.ternary main_v203 main_v205 main_v59 main_v206 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v206 main_v207 (broadcastInDim S8386560x1 ![0] bcast_S8386560_S8386560x1_0 : (⟨S8386560, .i32⟩ : BufTy).Contents (Elt F) → (⟨S8386560x1, .i32⟩ : BufTy).Contents (Elt F)),
    StableHlo.binary main_v17 main_v207 main_v208 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_50 (constantI S_ 32 0#32),
    StableHlo.unary main_c_50 main_v209 (broadcastInDim S8386560 ![] bcast_S_S8386560 : (⟨S_, .i32⟩ : BufTy).Contents (Elt F) → (⟨S8386560, .i32⟩ : BufTy).Contents (Elt F)),
    StableHlo.binary main_v59 main_v209 main_v210 (cmpi .slt : (⟨S8386560, .i32⟩ : BufTy).Contents (Elt F) → (⟨S8386560, .i32⟩ : BufTy).Contents (Elt F) → (⟨S8386560, .i1⟩ : BufTy).Contents (Elt F)),
    StableHlo.nullary main_c_51 (constantI S_ 32 4096#32),
    StableHlo.unary main_c_51 main_v211 (broadcastInDim S8386560 ![] bcast_S_S8386560 : (⟨S_, .i32⟩ : BufTy).Contents (Elt F) → (⟨S8386560, .i32⟩ : BufTy).Contents (Elt F)),
    StableHlo.binary main_v59 main_v211 main_v212 (addi : (⟨S8386560, .i32⟩ : BufTy).Contents (Elt F) → (⟨S8386560, .i32⟩ : BufTy).Contents (Elt F) → (⟨S8386560, .i32⟩ : BufTy).Contents (Elt F)),
    StableHlo.ternary main_v210 main_v212 main_v59 main_v213 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v213 main_v214 (broadcastInDim S8386560x1 ![0] bcast_S8386560_S8386560x1_0 : (⟨S8386560, .i32⟩ : BufTy).Contents (Elt F) → (⟨S8386560x1, .i32⟩ : BufTy).Contents (Elt F)),
    StableHlo.binary main_v19 main_v214 main_v215 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v187 main_v216 (Host.divf : (⟨S8386560, .f32⟩ : BufTy).Contents (Elt F) → (⟨S8386560, .f32⟩ : BufTy).Contents (Elt F) → (⟨S8386560, .f32⟩ : BufTy).Contents (Elt F)),
    StableHlo.unary main_v194 main_v217 (Host.negf : (⟨S8386560, .f32⟩ : BufTy).Contents (Elt F) → (⟨S8386560, .f32⟩ : BufTy).Contents (Elt F)),
    StableHlo.nullary main_cst_52 (constant S_ .f32 0x3F800000#32),
    StableHlo.unary main_cst_52 main_v218 (broadcastInDim S8386560 ![] bcast_S_S8386560 : (⟨S_, .f32⟩ : BufTy).Contents (Elt F) → (⟨S8386560, .f32⟩ : BufTy).Contents (Elt F)),
    StableHlo.binary main_v216 main_v218 main_v219 (subf : (⟨S8386560, .f32⟩ : BufTy).Contents (Elt F) → (⟨S8386560, .f32⟩ : BufTy).Contents (Elt F) → (⟨S8386560, .f32⟩ : BufTy).Contents (Elt F)),
    StableHlo.binary main_v217 main_v219 main_v220 (mulf : (⟨S8386560, .f32⟩ : BufTy).Contents (Elt F) → (⟨S8386560, .f32⟩ : BufTy).Contents (Elt F) → (⟨S8386560, .f32⟩ : BufTy).Contents (Elt F)),
    StableHlo.unary main_v220 main_v221 (Host.exp : (⟨S8386560, .f32⟩ : BufTy).Contents (Elt F) → (⟨S8386560, .f32⟩ : BufTy).Contents (Elt F)),
    StableHlo.binary main_v173 main_v221 main_v222 (mulf : (⟨S8386560, .f32⟩ : BufTy).Contents (Elt F) → (⟨S8386560, .f32⟩ : BufTy).Contents (Elt F) → (⟨S8386560, .f32⟩ : BufTy).Contents (Elt F)),
    StableHlo.binary main_v216 main_v208 main_v223 (subf : (⟨S8386560, .f32⟩ : BufTy).Contents (Elt F) → (⟨S8386560, .f32⟩ : BufTy).Contents (Elt F) → (⟨S8386560, .f32⟩ : BufTy).Contents (Elt F)) ]
/-- The buffers stretch 11 writes. -/
abbrev W11 : List (Ref sig .tc) := [ main_c_38, main_v167, main_v168, main_c_39, main_v169, main_v170, main_v171, main_v172, main_v173, main_c_40, main_v174, main_v175, main_c_41, main_v176, main_v177, main_v178, main_v179, main_v180, main_c_42, main_v181, main_v182, main_c_43, main_v183, main_v184, main_v185, main_v186, main_v187, main_c_44, main_v188, main_v189, main_c_45, main_v190, main_v191, main_v192, main_v193, main_v194, main_c_46, main_v195, main_v196, main_c_47, main_v197, main_v198, main_v199, main_v200, main_v201, main_c_48, main_v202, main_v203, main_c_49, main_v204, main_v205, main_v206, main_v207, main_v208, main_c_50, main_v209, main_v210, main_c_51, main_v211, main_v212, main_v213, main_v214, main_v215, main_v216, main_v217, main_cst_52, main_v218, main_v219, main_v220, main_v221, main_v222, main_v223 ]
set_option maxHeartbeats 40000000 in
theorem g11_writes : (g11 : List (HloOp τ sig (Elt F))).Forall fun op => op.writes ⊆ ((W11).map (Proc.devRef (τ := τ) .tc)).toFinset :=
  ⟨wsub (y := main_c_38) (by decide), wsub (y := main_v167) (by decide), wsub (y := main_v168) (by decide), wsub (y := main_c_39) (by decide), wsub (y := main_v169) (by decide), wsub (y := main_v170) (by decide), wsub (y := main_v171) (by decide), wsub (y := main_v172) (by decide), wsub (y := main_v173) (by decide), wsub (y := main_c_40) (by decide), wsub (y := main_v174) (by decide), wsub (y := main_v175) (by decide), wsub (y := main_c_41) (by decide), wsub (y := main_v176) (by decide), wsub (y := main_v177) (by decide), wsub (y := main_v178) (by decide), wsub (y := main_v179) (by decide), wsub (y := main_v180) (by decide), wsub (y := main_c_42) (by decide), wsub (y := main_v181) (by decide), wsub (y := main_v182) (by decide), wsub (y := main_c_43) (by decide), wsub (y := main_v183) (by decide), wsub (y := main_v184) (by decide), wsub (y := main_v185) (by decide), wsub (y := main_v186) (by decide), wsub (y := main_v187) (by decide), wsub (y := main_c_44) (by decide), wsub (y := main_v188) (by decide), wsub (y := main_v189) (by decide), wsub (y := main_c_45) (by decide), wsub (y := main_v190) (by decide), wsub (y := main_v191) (by decide), wsub (y := main_v192) (by decide), wsub (y := main_v193) (by decide), wsub (y := main_v194) (by decide), wsub (y := main_c_46) (by decide), wsub (y := main_v195) (by decide), wsub (y := main_v196) (by decide), wsub (y := main_c_47) (by decide), wsub (y := main_v197) (by decide), wsub (y := main_v198) (by decide), wsub (y := main_v199) (by decide), wsub (y := main_v200) (by decide), wsub (y := main_v201) (by decide), wsub (y := main_c_48) (by decide), wsub (y := main_v202) (by decide), wsub (y := main_v203) (by decide), wsub (y := main_c_49) (by decide), wsub (y := main_v204) (by decide), wsub (y := main_v205) (by decide), wsub (y := main_v206) (by decide), wsub (y := main_v207) (by decide), wsub (y := main_v208) (by decide), wsub (y := main_c_50) (by decide), wsub (y := main_v209) (by decide), wsub (y := main_v210) (by decide), wsub (y := main_c_51) (by decide), wsub (y := main_v211) (by decide), wsub (y := main_v212) (by decide), wsub (y := main_v213) (by decide), wsub (y := main_v214) (by decide), wsub (y := main_v215) (by decide), wsub (y := main_v216) (by decide), wsub (y := main_v217) (by decide), wsub (y := main_cst_52) (by decide), wsub (y := main_v218) (by decide), wsub (y := main_v219) (by decide), wsub (y := main_v220) (by decide), wsub (y := main_v221) (by decide), wsub (y := main_v222) (by decide), wsub (y := main_v223) (by decide)⟩
/-- A buffer stretch 11 does not write keeps its contents across it. -/
theorem g11_keeps (V : Valuation τ sig (Elt F)) {r : Ref sig .tc} (hr : r ∉ W11) :
    after (g11 (F := F)) V (Proc.devRef .tc r) = V (Proc.devRef .tc r) :=
  after_of_writes_sub _ V g11_writes hr

set_option maxHeartbeats 40000000 in
/-- Stretch 12: operations 369 … 385. -/
abbrev g12 : List (HloOp τ sig (Elt F)) :=
  [ StableHlo.binary main_v223 main_v223 main_v224 (mulf : (⟨S8386560, .f32⟩ : BufTy).Contents (Elt F) → (⟨S8386560, .f32⟩ : BufTy).Contents (Elt F) → (⟨S8386560, .f32⟩ : BufTy).Contents (Elt F)),
    StableHlo.binary main_v224 main_v224 main_v225 (mulf : (⟨S8386560, .f32⟩ : BufTy).Contents (Elt F) → (⟨S8386560, .f32⟩ : BufTy).Contents (Elt F) → (⟨S8386560, .f32⟩ : BufTy).Contents (Elt F)),
    StableHlo.binary main_v225 main_v225 main_v226 (mulf : (⟨S8386560, .f32⟩ : BufTy).Contents (Elt F) → (⟨S8386560, .f32⟩ : BufTy).Contents (Elt F) → (⟨S8386560, .f32⟩ : BufTy).Contents (Elt F)),
    StableHlo.binary main_v226 main_v226 main_v227 (mulf : (⟨S8386560, .f32⟩ : BufTy).Contents (Elt F) → (⟨S8386560, .f32⟩ : BufTy).Contents (Elt F) → (⟨S8386560, .f32⟩ : BufTy).Contents (Elt F)),
    StableHlo.binary main_v225 main_v227 main_v228 (mulf : (⟨S8386560, .f32⟩ : BufTy).Contents (Elt F) → (⟨S8386560, .f32⟩ : BufTy).Contents (Elt F) → (⟨S8386560, .f32⟩ : BufTy).Contents (Elt F)),
    StableHlo.nullary main_cst_53 (constant S_ .f32 0x3F800000#32),
    StableHlo.unary main_cst_53 main_v229 (broadcastInDim S8386560 ![] bcast_S_S8386560 : (⟨S_, .f32⟩ : BufTy).Contents (Elt F) → (⟨S8386560, .f32⟩ : BufTy).Contents (Elt F)),
    StableHlo.binary main_v229 main_v228 main_v230 (addf : (⟨S8386560, .f32⟩ : BufTy).Contents (Elt F) → (⟨S8386560, .f32⟩ : BufTy).Contents (Elt F) → (⟨S8386560, .f32⟩ : BufTy).Contents (Elt F)),
    StableHlo.binary main_v222 main_v230 main_v231 (Host.divf : (⟨S8386560, .f32⟩ : BufTy).Contents (Elt F) → (⟨S8386560, .f32⟩ : BufTy).Contents (Elt F) → (⟨S8386560, .f32⟩ : BufTy).Contents (Elt F)),
    StableHlo.unary main_v201 main_v232 (Host.negf : (⟨S8386560, .f32⟩ : BufTy).Contents (Elt F) → (⟨S8386560, .f32⟩ : BufTy).Contents (Elt F)),
    StableHlo.nullary main_cst_54 (constant S_ .f32 0x3F800000#32),
    StableHlo.unary main_cst_54 main_v233 (broadcastInDim S8386560 ![] bcast_S_S8386560 : (⟨S_, .f32⟩ : BufTy).Contents (Elt F) → (⟨S8386560, .f32⟩ : BufTy).Contents (Elt F)),
    StableHlo.binary main_v216 main_v233 main_v234 (subf : (⟨S8386560, .f32⟩ : BufTy).Contents (Elt F) → (⟨S8386560, .f32⟩ : BufTy).Contents (Elt F) → (⟨S8386560, .f32⟩ : BufTy).Contents (Elt F)),
    StableHlo.binary main_v232 main_v234 main_v235 (mulf : (⟨S8386560, .f32⟩ : BufTy).Contents (Elt F) → (⟨S8386560, .f32⟩ : BufTy).Contents (Elt F) → (⟨S8386560, .f32⟩ : BufTy).Contents (Elt F)),
    StableHlo.unary main_v235 main_v236 (Host.exp : (⟨S8386560, .f32⟩ : BufTy).Contents (Elt F) → (⟨S8386560, .f32⟩ : BufTy).Contents (Elt F)),
    StableHlo.binary main_v180 main_v236 main_v237 (mulf : (⟨S8386560, .f32⟩ : BufTy).Contents (Elt F) → (⟨S8386560, .f32⟩ : BufTy).Contents (Elt F) → (⟨S8386560, .f32⟩ : BufTy).Contents (Elt F)),
    StableHlo.binary main_v216 main_v215 main_v238 (subf : (⟨S8386560, .f32⟩ : BufTy).Contents (Elt F) → (⟨S8386560, .f32⟩ : BufTy).Contents (Elt F) → (⟨S8386560, .f32⟩ : BufTy).Contents (Elt F)) ]
/-- The buffers stretch 12 writes. -/
abbrev W12 : List (Ref sig .tc) := [ main_v224, main_v225, main_v226, main_v227, main_v228, main_cst_53, main_v229, main_v230, main_v231, main_v232, main_cst_54, main_v233, main_v234, main_v235, main_v236, main_v237, main_v238 ]
set_option maxHeartbeats 40000000 in
theorem g12_writes : (g12 : List (HloOp τ sig (Elt F))).Forall fun op => op.writes ⊆ ((W12).map (Proc.devRef (τ := τ) .tc)).toFinset :=
  ⟨wsub (y := main_v224) (by decide), wsub (y := main_v225) (by decide), wsub (y := main_v226) (by decide), wsub (y := main_v227) (by decide), wsub (y := main_v228) (by decide), wsub (y := main_cst_53) (by decide), wsub (y := main_v229) (by decide), wsub (y := main_v230) (by decide), wsub (y := main_v231) (by decide), wsub (y := main_v232) (by decide), wsub (y := main_cst_54) (by decide), wsub (y := main_v233) (by decide), wsub (y := main_v234) (by decide), wsub (y := main_v235) (by decide), wsub (y := main_v236) (by decide), wsub (y := main_v237) (by decide), wsub (y := main_v238) (by decide)⟩
/-- A buffer stretch 12 does not write keeps its contents across it. -/
theorem g12_keeps (V : Valuation τ sig (Elt F)) {r : Ref sig .tc} (hr : r ∉ W12) :
    after (g12 (F := F)) V (Proc.devRef .tc r) = V (Proc.devRef .tc r) :=
  after_of_writes_sub _ V g12_writes hr

set_option maxHeartbeats 40000000 in
/-- Stretch 13: operations 386 … 395. -/
abbrev g13 : List (HloOp τ sig (Elt F)) :=
  [ StableHlo.binary main_v238 main_v238 main_v239 (mulf : (⟨S8386560, .f32⟩ : BufTy).Contents (Elt F) → (⟨S8386560, .f32⟩ : BufTy).Contents (Elt F) → (⟨S8386560, .f32⟩ : BufTy).Contents (Elt F)),
    StableHlo.binary main_v239 main_v239 main_v240 (mulf : (⟨S8386560, .f32⟩ : BufTy).Contents (Elt F) → (⟨S8386560, .f32⟩ : BufTy).Contents (Elt F) → (⟨S8386560, .f32⟩ : BufTy).Contents (Elt F)),
    StableHlo.binary main_v240 main_v240 main_v241 (mulf : (⟨S8386560, .f32⟩ : BufTy).Contents (Elt F) → (⟨S8386560, .f32⟩ : BufTy).Contents (Elt F) → (⟨S8386560, .f32⟩ : BufTy).Contents (Elt F)),
    StableHlo.binary main_v241 main_v241 main_v242 (mulf : (⟨S8386560, .f32⟩ : BufTy).Contents (Elt F) → (⟨S8386560, .f32⟩ : BufTy).Contents (Elt F) → (⟨S8386560, .f32⟩ : BufTy).Contents (Elt F)),
    StableHlo.binary main_v240 main_v242 main_v243 (mulf : (⟨S8386560, .f32⟩ : BufTy).Contents (Elt F) → (⟨S8386560, .f32⟩ : BufTy).Contents (Elt F) → (⟨S8386560, .f32⟩ : BufTy).Contents (Elt F)),
    StableHlo.nullary main_cst_55 (constant S_ .f32 0x3F800000#32),
    StableHlo.unary main_cst_55 main_v244 (broadcastInDim S8386560 ![] bcast_S_S8386560 : (⟨S_, .f32⟩ : BufTy).Contents (Elt F) → (⟨S8386560, .f32⟩ : BufTy).Contents (Elt F)),
    StableHlo.binary main_v244 main_v243 main_v245 (addf : (⟨S8386560, .f32⟩ : BufTy).Contents (Elt F) → (⟨S8386560, .f32⟩ : BufTy).Contents (Elt F) → (⟨S8386560, .f32⟩ : BufTy).Contents (Elt F)),
    StableHlo.binary main_v237 main_v245 main_v246 (Host.divf : (⟨S8386560, .f32⟩ : BufTy).Contents (Elt F) → (⟨S8386560, .f32⟩ : BufTy).Contents (Elt F) → (⟨S8386560, .f32⟩ : BufTy).Contents (Elt F)),
    StableHlo.binary main_v231 main_v246 main_v247 (subf : (⟨S8386560, .f32⟩ : BufTy).Contents (Elt F) → (⟨S8386560, .f32⟩ : BufTy).Contents (Elt F) → (⟨S8386560, .f32⟩ : BufTy).Contents (Elt F)) ]
/-- The buffers stretch 13 writes. -/
abbrev W13 : List (Ref sig .tc) := [ main_v239, main_v240, main_v241, main_v242, main_v243, main_cst_55, main_v244, main_v245, main_v246, main_v247 ]
set_option maxHeartbeats 40000000 in
theorem g13_writes : (g13 : List (HloOp τ sig (Elt F))).Forall fun op => op.writes ⊆ ((W13).map (Proc.devRef (τ := τ) .tc)).toFinset :=
  ⟨wsub (y := main_v239) (by decide), wsub (y := main_v240) (by decide), wsub (y := main_v241) (by decide), wsub (y := main_v242) (by decide), wsub (y := main_v243) (by decide), wsub (y := main_cst_55) (by decide), wsub (y := main_v244) (by decide), wsub (y := main_v245) (by decide), wsub (y := main_v246) (by decide), wsub (y := main_v247) (by decide)⟩
/-- A buffer stretch 13 does not write keeps its contents across it. -/
theorem g13_keeps (V : Valuation τ sig (Elt F)) {r : Ref sig .tc} (hr : r ∉ W13) :
    after (g13 (F := F)) V (Proc.devRef .tc r) = V (Proc.devRef .tc r) :=
  after_of_writes_sub _ V g13_writes hr

set_option maxHeartbeats 40000000 in
/-- Stretch 14: operations 396 … 467. -/
abbrev g14 : List (HloOp τ sig (Elt F)) :=
  [ StableHlo.nullary main_c_56 (constantI S_ 32 0#32),
    StableHlo.unary main_c_56 main_v248 (broadcastInDim S8386560 ![] bcast_S_S8386560 : (⟨S_, .i32⟩ : BufTy).Contents (Elt F) → (⟨S8386560, .i32⟩ : BufTy).Contents (Elt F)),
    StableHlo.binary main_v61 main_v248 main_v249 (cmpi .slt : (⟨S8386560, .i32⟩ : BufTy).Contents (Elt F) → (⟨S8386560, .i32⟩ : BufTy).Contents (Elt F) → (⟨S8386560, .i1⟩ : BufTy).Contents (Elt F)),
    StableHlo.nullary main_c_57 (constantI S_ 32 4096#32),
    StableHlo.unary main_c_57 main_v250 (broadcastInDim S8386560 ![] bcast_S_S8386560 : (⟨S_, .i32⟩ : BufTy).Contents (Elt F) → (⟨S8386560, .i32⟩ : BufTy).Contents (Elt F)),
    StableHlo.binary main_v61 main_v250 main_v251 (addi : (⟨S8386560, .i32⟩ : BufTy).Contents (Elt F) → (⟨S8386560, .i32⟩ : BufTy).Contents (Elt F) → (⟨S8386560, .i32⟩ : BufTy).Contents (Elt F)),
    StableHlo.ternary main_v249 main_v251 main_v61 main_v252 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v252 main_v253 (broadcastInDim S8386560x1 ![0] bcast_S8386560_S8386560x1_0 : (⟨S8386560, .i32⟩ : BufTy).Contents (Elt F) → (⟨S8386560x1, .i32⟩ : BufTy).Contents (Elt F)),
    StableHlo.binary main_v13 main_v253 main_v254 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_58 (constantI S_ 32 0#32),
    StableHlo.unary main_c_58 main_v255 (broadcastInDim S8386560 ![] bcast_S_S8386560 : (⟨S_, .i32⟩ : BufTy).Contents (Elt F) → (⟨S8386560, .i32⟩ : BufTy).Contents (Elt F)),
    StableHlo.binary main_v61 main_v255 main_v256 (cmpi .slt : (⟨S8386560, .i32⟩ : BufTy).Contents (Elt F) → (⟨S8386560, .i32⟩ : BufTy).Contents (Elt F) → (⟨S8386560, .i1⟩ : BufTy).Contents (Elt F)),
    StableHlo.nullary main_c_59 (constantI S_ 32 4096#32),
    StableHlo.unary main_c_59 main_v257 (broadcastInDim S8386560 ![] bcast_S_S8386560 : (⟨S_, .i32⟩ : BufTy).Contents (Elt F) → (⟨S8386560, .i32⟩ : BufTy).Contents (Elt F)),
    StableHlo.binary main_v61 main_v257 main_v258 (addi : (⟨S8386560, .i32⟩ : BufTy).Contents (Elt F) → (⟨S8386560, .i32⟩ : BufTy).Contents (Elt F) → (⟨S8386560, .i32⟩ : BufTy).Contents (Elt F)),
    StableHlo.ternary main_v256 main_v258 main_v61 main_v259 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v259 main_v260 (broadcastInDim S8386560x1 ![0] bcast_S8386560_S8386560x1_0 : (⟨S8386560, .i32⟩ : BufTy).Contents (Elt F) → (⟨S8386560x1, .i32⟩ : BufTy).Contents (Elt F)),
    StableHlo.binary main_v15 main_v260 main_v261 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_60 (constantI S_ 32 0#32),
    StableHlo.unary main_c_60 main_v262 (broadcastInDim S8386560 ![] bcast_S_S8386560 : (⟨S_, .i32⟩ : BufTy).Contents (Elt F) → (⟨S8386560, .i32⟩ : BufTy).Contents (Elt F)),
    StableHlo.binary main_v61 main_v262 main_v263 (cmpi .slt : (⟨S8386560, .i32⟩ : BufTy).Contents (Elt F) → (⟨S8386560, .i32⟩ : BufTy).Contents (Elt F) → (⟨S8386560, .i1⟩ : BufTy).Contents (Elt F)),
    StableHlo.nullary main_c_61 (constantI S_ 32 4096#32),
    StableHlo.unary main_c_61 main_v264 (broadcastInDim S8386560 ![] bcast_S_S8386560 : (⟨S_, .i32⟩ : BufTy).Contents (Elt F) → (⟨S8386560, .i32⟩ : BufTy).Contents (Elt F)),
    StableHlo.binary main_v61 main_v264 main_v265 (addi : (⟨S8386560, .i32⟩ : BufTy).Contents (Elt F) → (⟨S8386560, .i32⟩ : BufTy).Contents (Elt F) → (⟨S8386560, .i32⟩ : BufTy).Contents (Elt F)),
    StableHlo.ternary main_v263 main_v265 main_v61 main_v266 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v266 main_v267 (broadcastInDim S8386560x1 ![0] bcast_S8386560_S8386560x1_0 : (⟨S8386560, .i32⟩ : BufTy).Contents (Elt F) → (⟨S8386560x1, .i32⟩ : BufTy).Contents (Elt F)),
    StableHlo.binary main_v1 main_v267 main_v268 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_62 (constantI S_ 32 0#32),
    StableHlo.unary main_c_62 main_v269 (broadcastInDim S8386560 ![] bcast_S_S8386560 : (⟨S_, .i32⟩ : BufTy).Contents (Elt F) → (⟨S8386560, .i32⟩ : BufTy).Contents (Elt F)),
    StableHlo.binary main_v61 main_v269 main_v270 (cmpi .slt : (⟨S8386560, .i32⟩ : BufTy).Contents (Elt F) → (⟨S8386560, .i32⟩ : BufTy).Contents (Elt F) → (⟨S8386560, .i1⟩ : BufTy).Contents (Elt F)),
    StableHlo.nullary main_c_63 (constantI S_ 32 4096#32),
    StableHlo.unary main_c_63 main_v271 (broadcastInDim S8386560 ![] bcast_S_S8386560 : (⟨S_, .i32⟩ : BufTy).Contents (Elt F) → (⟨S8386560, .i32⟩ : BufTy).Contents (Elt F)),
    StableHlo.binary main_v61 main_v271 main_v272 (addi : (⟨S8386560, .i32⟩ : BufTy).Contents (Elt F) → (⟨S8386560, .i32⟩ : BufTy).Contents (Elt F) → (⟨S8386560, .i32⟩ : BufTy).Contents (Elt F)),
    StableHlo.ternary main_v270 main_v272 main_v61 main_v273 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v273 main_v274 (broadcastInDim S8386560x1 ![0] bcast_S8386560_S8386560x1_0 : (⟨S8386560, .i32⟩ : BufTy).Contents (Elt F) → (⟨S8386560x1, .i32⟩ : BufTy).Contents (Elt F)),
    StableHlo.binary main_v9 main_v274 main_v275 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_64 (constantI S_ 32 0#32),
    StableHlo.unary main_c_64 main_v276 (broadcastInDim S8386560 ![] bcast_S_S8386560 : (⟨S_, .i32⟩ : BufTy).Contents (Elt F) → (⟨S8386560, .i32⟩ : BufTy).Contents (Elt F)),
    StableHlo.binary main_v61 main_v276 main_v277 (cmpi .slt : (⟨S8386560, .i32⟩ : BufTy).Contents (Elt F) → (⟨S8386560, .i32⟩ : BufTy).Contents (Elt F) → (⟨S8386560, .i1⟩ : BufTy).Contents (Elt F)),
    StableHlo.nullary main_c_65 (constantI S_ 32 4096#32),
    StableHlo.unary main_c_65 main_v278 (broadcastInDim S8386560 ![] bcast_S_S8386560 : (⟨S_, .i32⟩ : BufTy).Contents (Elt F) → (⟨S8386560, .i32⟩ : BufTy).Contents (Elt F)),
    StableHlo.binary main_v61 main_v278 main_v279 (addi : (⟨S8386560, .i32⟩ : BufTy).Contents (Elt F) → (⟨S8386560, .i32⟩ : BufTy).Contents (Elt F) → (⟨S8386560, .i32⟩ : BufTy).Contents (Elt F)),
    StableHlo.ternary main_v277 main_v279 main_v61 main_v280 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v280 main_v281 (broadcastInDim S8386560x1 ![0] bcast_S8386560_S8386560x1_0 : (⟨S8386560, .i32⟩ : BufTy).Contents (Elt F) → (⟨S8386560x1, .i32⟩ : BufTy).Contents (Elt F)),
    StableHlo.binary main_v11 main_v281 main_v282 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_66 (constantI S_ 32 0#32),
    StableHlo.unary main_c_66 main_v283 (broadcastInDim S8386560 ![] bcast_S_S8386560 : (⟨S_, .i32⟩ : BufTy).Contents (Elt F) → (⟨S8386560, .i32⟩ : BufTy).Contents (Elt F)),
    StableHlo.binary main_v61 main_v283 main_v284 (cmpi .slt : (⟨S8386560, .i32⟩ : BufTy).Contents (Elt F) → (⟨S8386560, .i32⟩ : BufTy).Contents (Elt F) → (⟨S8386560, .i1⟩ : BufTy).Contents (Elt F)),
    StableHlo.nullary main_c_67 (constantI S_ 32 4096#32),
    StableHlo.unary main_c_67 main_v285 (broadcastInDim S8386560 ![] bcast_S_S8386560 : (⟨S_, .i32⟩ : BufTy).Contents (Elt F) → (⟨S8386560, .i32⟩ : BufTy).Contents (Elt F)),
    StableHlo.binary main_v61 main_v285 main_v286 (addi : (⟨S8386560, .i32⟩ : BufTy).Contents (Elt F) → (⟨S8386560, .i32⟩ : BufTy).Contents (Elt F) → (⟨S8386560, .i32⟩ : BufTy).Contents (Elt F)),
    StableHlo.ternary main_v284 main_v286 main_v61 main_v287 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v287 main_v288 (broadcastInDim S8386560x1 ![0] bcast_S8386560_S8386560x1_0 : (⟨S8386560, .i32⟩ : BufTy).Contents (Elt F) → (⟨S8386560x1, .i32⟩ : BufTy).Contents (Elt F)),
    StableHlo.binary main_v17 main_v288 main_v289 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.nullary main_c_68 (constantI S_ 32 0#32),
    StableHlo.unary main_c_68 main_v290 (broadcastInDim S8386560 ![] bcast_S_S8386560 : (⟨S_, .i32⟩ : BufTy).Contents (Elt F) → (⟨S8386560, .i32⟩ : BufTy).Contents (Elt F)),
    StableHlo.binary main_v61 main_v290 main_v291 (cmpi .slt : (⟨S8386560, .i32⟩ : BufTy).Contents (Elt F) → (⟨S8386560, .i32⟩ : BufTy).Contents (Elt F) → (⟨S8386560, .i1⟩ : BufTy).Contents (Elt F)),
    StableHlo.nullary main_c_69 (constantI S_ 32 4096#32),
    StableHlo.unary main_c_69 main_v292 (broadcastInDim S8386560 ![] bcast_S_S8386560 : (⟨S_, .i32⟩ : BufTy).Contents (Elt F) → (⟨S8386560, .i32⟩ : BufTy).Contents (Elt F)),
    StableHlo.binary main_v61 main_v292 main_v293 (addi : (⟨S8386560, .i32⟩ : BufTy).Contents (Elt F) → (⟨S8386560, .i32⟩ : BufTy).Contents (Elt F) → (⟨S8386560, .i32⟩ : BufTy).Contents (Elt F)),
    StableHlo.ternary main_v291 main_v293 main_v61 main_v294 (select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)),
    StableHlo.unary main_v294 main_v295 (broadcastInDim S8386560x1 ![0] bcast_S8386560_S8386560x1_0 : (⟨S8386560, .i32⟩ : BufTy).Contents (Elt F) → (⟨S8386560x1, .i32⟩ : BufTy).Contents (Elt F)),
    StableHlo.binary main_v19 main_v295 main_v296 ((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)),
    StableHlo.binary main_v78 main_v268 main_v297 (Host.divf : (⟨S8386560, .f32⟩ : BufTy).Contents (Elt F) → (⟨S8386560, .f32⟩ : BufTy).Contents (Elt F) → (⟨S8386560, .f32⟩ : BufTy).Contents (Elt F)),
    StableHlo.unary main_v275 main_v298 (Host.negf : (⟨S8386560, .f32⟩ : BufTy).Contents (Elt F) → (⟨S8386560, .f32⟩ : BufTy).Contents (Elt F)),
    StableHlo.nullary main_cst_70 (constant S_ .f32 0x3F800000#32),
    StableHlo.unary main_cst_70 main_v299 (broadcastInDim S8386560 ![] bcast_S_S8386560 : (⟨S_, .f32⟩ : BufTy).Contents (Elt F) → (⟨S8386560, .f32⟩ : BufTy).Contents (Elt F)),
    StableHlo.binary main_v297 main_v299 main_v300 (subf : (⟨S8386560, .f32⟩ : BufTy).Contents (Elt F) → (⟨S8386560, .f32⟩ : BufTy).Contents (Elt F) → (⟨S8386560, .f32⟩ : BufTy).Contents (Elt F)),
    StableHlo.binary main_v298 main_v300 main_v301 (mulf : (⟨S8386560, .f32⟩ : BufTy).Contents (Elt F) → (⟨S8386560, .f32⟩ : BufTy).Contents (Elt F) → (⟨S8386560, .f32⟩ : BufTy).Contents (Elt F)),
    StableHlo.unary main_v301 main_v302 (Host.exp : (⟨S8386560, .f32⟩ : BufTy).Contents (Elt F) → (⟨S8386560, .f32⟩ : BufTy).Contents (Elt F)),
    StableHlo.binary main_v254 main_v302 main_v303 (mulf : (⟨S8386560, .f32⟩ : BufTy).Contents (Elt F) → (⟨S8386560, .f32⟩ : BufTy).Contents (Elt F) → (⟨S8386560, .f32⟩ : BufTy).Contents (Elt F)),
    StableHlo.binary main_v297 main_v289 main_v304 (subf : (⟨S8386560, .f32⟩ : BufTy).Contents (Elt F) → (⟨S8386560, .f32⟩ : BufTy).Contents (Elt F) → (⟨S8386560, .f32⟩ : BufTy).Contents (Elt F)) ]
/-- The buffers stretch 14 writes. -/
abbrev W14 : List (Ref sig .tc) := [ main_c_56, main_v248, main_v249, main_c_57, main_v250, main_v251, main_v252, main_v253, main_v254, main_c_58, main_v255, main_v256, main_c_59, main_v257, main_v258, main_v259, main_v260, main_v261, main_c_60, main_v262, main_v263, main_c_61, main_v264, main_v265, main_v266, main_v267, main_v268, main_c_62, main_v269, main_v270, main_c_63, main_v271, main_v272, main_v273, main_v274, main_v275, main_c_64, main_v276, main_v277, main_c_65, main_v278, main_v279, main_v280, main_v281, main_v282, main_c_66, main_v283, main_v284, main_c_67, main_v285, main_v286, main_v287, main_v288, main_v289, main_c_68, main_v290, main_v291, main_c_69, main_v292, main_v293, main_v294, main_v295, main_v296, main_v297, main_v298, main_cst_70, main_v299, main_v300, main_v301, main_v302, main_v303, main_v304 ]
set_option maxHeartbeats 40000000 in
theorem g14_writes : (g14 : List (HloOp τ sig (Elt F))).Forall fun op => op.writes ⊆ ((W14).map (Proc.devRef (τ := τ) .tc)).toFinset :=
  ⟨wsub (y := main_c_56) (by decide), wsub (y := main_v248) (by decide), wsub (y := main_v249) (by decide), wsub (y := main_c_57) (by decide), wsub (y := main_v250) (by decide), wsub (y := main_v251) (by decide), wsub (y := main_v252) (by decide), wsub (y := main_v253) (by decide), wsub (y := main_v254) (by decide), wsub (y := main_c_58) (by decide), wsub (y := main_v255) (by decide), wsub (y := main_v256) (by decide), wsub (y := main_c_59) (by decide), wsub (y := main_v257) (by decide), wsub (y := main_v258) (by decide), wsub (y := main_v259) (by decide), wsub (y := main_v260) (by decide), wsub (y := main_v261) (by decide), wsub (y := main_c_60) (by decide), wsub (y := main_v262) (by decide), wsub (y := main_v263) (by decide), wsub (y := main_c_61) (by decide), wsub (y := main_v264) (by decide), wsub (y := main_v265) (by decide), wsub (y := main_v266) (by decide), wsub (y := main_v267) (by decide), wsub (y := main_v268) (by decide), wsub (y := main_c_62) (by decide), wsub (y := main_v269) (by decide), wsub (y := main_v270) (by decide), wsub (y := main_c_63) (by decide), wsub (y := main_v271) (by decide), wsub (y := main_v272) (by decide), wsub (y := main_v273) (by decide), wsub (y := main_v274) (by decide), wsub (y := main_v275) (by decide), wsub (y := main_c_64) (by decide), wsub (y := main_v276) (by decide), wsub (y := main_v277) (by decide), wsub (y := main_c_65) (by decide), wsub (y := main_v278) (by decide), wsub (y := main_v279) (by decide), wsub (y := main_v280) (by decide), wsub (y := main_v281) (by decide), wsub (y := main_v282) (by decide), wsub (y := main_c_66) (by decide), wsub (y := main_v283) (by decide), wsub (y := main_v284) (by decide), wsub (y := main_c_67) (by decide), wsub (y := main_v285) (by decide), wsub (y := main_v286) (by decide), wsub (y := main_v287) (by decide), wsub (y := main_v288) (by decide), wsub (y := main_v289) (by decide), wsub (y := main_c_68) (by decide), wsub (y := main_v290) (by decide), wsub (y := main_v291) (by decide), wsub (y := main_c_69) (by decide), wsub (y := main_v292) (by decide), wsub (y := main_v293) (by decide), wsub (y := main_v294) (by decide), wsub (y := main_v295) (by decide), wsub (y := main_v296) (by decide), wsub (y := main_v297) (by decide), wsub (y := main_v298) (by decide), wsub (y := main_cst_70) (by decide), wsub (y := main_v299) (by decide), wsub (y := main_v300) (by decide), wsub (y := main_v301) (by decide), wsub (y := main_v302) (by decide), wsub (y := main_v303) (by decide), wsub (y := main_v304) (by decide)⟩
/-- A buffer stretch 14 does not write keeps its contents across it. -/
theorem g14_keeps (V : Valuation τ sig (Elt F)) {r : Ref sig .tc} (hr : r ∉ W14) :
    after (g14 (F := F)) V (Proc.devRef .tc r) = V (Proc.devRef .tc r) :=
  after_of_writes_sub _ V g14_writes hr

set_option maxHeartbeats 40000000 in
/-- Stretch 15: operations 468 … 484. -/
abbrev g15 : List (HloOp τ sig (Elt F)) :=
  [ StableHlo.binary main_v304 main_v304 main_v305 (mulf : (⟨S8386560, .f32⟩ : BufTy).Contents (Elt F) → (⟨S8386560, .f32⟩ : BufTy).Contents (Elt F) → (⟨S8386560, .f32⟩ : BufTy).Contents (Elt F)),
    StableHlo.binary main_v305 main_v305 main_v306 (mulf : (⟨S8386560, .f32⟩ : BufTy).Contents (Elt F) → (⟨S8386560, .f32⟩ : BufTy).Contents (Elt F) → (⟨S8386560, .f32⟩ : BufTy).Contents (Elt F)),
    StableHlo.binary main_v306 main_v306 main_v307 (mulf : (⟨S8386560, .f32⟩ : BufTy).Contents (Elt F) → (⟨S8386560, .f32⟩ : BufTy).Contents (Elt F) → (⟨S8386560, .f32⟩ : BufTy).Contents (Elt F)),
    StableHlo.binary main_v307 main_v307 main_v308 (mulf : (⟨S8386560, .f32⟩ : BufTy).Contents (Elt F) → (⟨S8386560, .f32⟩ : BufTy).Contents (Elt F) → (⟨S8386560, .f32⟩ : BufTy).Contents (Elt F)),
    StableHlo.binary main_v306 main_v308 main_v309 (mulf : (⟨S8386560, .f32⟩ : BufTy).Contents (Elt F) → (⟨S8386560, .f32⟩ : BufTy).Contents (Elt F) → (⟨S8386560, .f32⟩ : BufTy).Contents (Elt F)),
    StableHlo.nullary main_cst_71 (constant S_ .f32 0x3F800000#32),
    StableHlo.unary main_cst_71 main_v310 (broadcastInDim S8386560 ![] bcast_S_S8386560 : (⟨S_, .f32⟩ : BufTy).Contents (Elt F) → (⟨S8386560, .f32⟩ : BufTy).Contents (Elt F)),
    StableHlo.binary main_v310 main_v309 main_v311 (addf : (⟨S8386560, .f32⟩ : BufTy).Contents (Elt F) → (⟨S8386560, .f32⟩ : BufTy).Contents (Elt F) → (⟨S8386560, .f32⟩ : BufTy).Contents (Elt F)),
    StableHlo.binary main_v303 main_v311 main_v312 (Host.divf : (⟨S8386560, .f32⟩ : BufTy).Contents (Elt F) → (⟨S8386560, .f32⟩ : BufTy).Contents (Elt F) → (⟨S8386560, .f32⟩ : BufTy).Contents (Elt F)),
    StableHlo.unary main_v282 main_v313 (Host.negf : (⟨S8386560, .f32⟩ : BufTy).Contents (Elt F) → (⟨S8386560, .f32⟩ : BufTy).Contents (Elt F)),
    StableHlo.nullary main_cst_72 (constant S_ .f32 0x3F800000#32),
    StableHlo.unary main_cst_72 main_v314 (broadcastInDim S8386560 ![] bcast_S_S8386560 : (⟨S_, .f32⟩ : BufTy).Contents (Elt F) → (⟨S8386560, .f32⟩ : BufTy).Contents (Elt F)),
    StableHlo.binary main_v297 main_v314 main_v315 (subf : (⟨S8386560, .f32⟩ : BufTy).Contents (Elt F) → (⟨S8386560, .f32⟩ : BufTy).Contents (Elt F) → (⟨S8386560, .f32⟩ : BufTy).Contents (Elt F)),
    StableHlo.binary main_v313 main_v315 main_v316 (mulf : (⟨S8386560, .f32⟩ : BufTy).Contents (Elt F) → (⟨S8386560, .f32⟩ : BufTy).Contents (Elt F) → (⟨S8386560, .f32⟩ : BufTy).Contents (Elt F)),
    StableHlo.unary main_v316 main_v317 (Host.exp : (⟨S8386560, .f32⟩ : BufTy).Contents (Elt F) → (⟨S8386560, .f32⟩ : BufTy).Contents (Elt F)),
    StableHlo.binary main_v261 main_v317 main_v318 (mulf : (⟨S8386560, .f32⟩ : BufTy).Contents (Elt F) → (⟨S8386560, .f32⟩ : BufTy).Contents (Elt F) → (⟨S8386560, .f32⟩ : BufTy).Contents (Elt F)),
    StableHlo.binary main_v297 main_v296 main_v319 (subf : (⟨S8386560, .f32⟩ : BufTy).Contents (Elt F) → (⟨S8386560, .f32⟩ : BufTy).Contents (Elt F) → (⟨S8386560, .f32⟩ : BufTy).Contents (Elt F)) ]
/-- The buffers stretch 15 writes. -/
abbrev W15 : List (Ref sig .tc) := [ main_v305, main_v306, main_v307, main_v308, main_v309, main_cst_71, main_v310, main_v311, main_v312, main_v313, main_cst_72, main_v314, main_v315, main_v316, main_v317, main_v318, main_v319 ]
set_option maxHeartbeats 40000000 in
theorem g15_writes : (g15 : List (HloOp τ sig (Elt F))).Forall fun op => op.writes ⊆ ((W15).map (Proc.devRef (τ := τ) .tc)).toFinset :=
  ⟨wsub (y := main_v305) (by decide), wsub (y := main_v306) (by decide), wsub (y := main_v307) (by decide), wsub (y := main_v308) (by decide), wsub (y := main_v309) (by decide), wsub (y := main_cst_71) (by decide), wsub (y := main_v310) (by decide), wsub (y := main_v311) (by decide), wsub (y := main_v312) (by decide), wsub (y := main_v313) (by decide), wsub (y := main_cst_72) (by decide), wsub (y := main_v314) (by decide), wsub (y := main_v315) (by decide), wsub (y := main_v316) (by decide), wsub (y := main_v317) (by decide), wsub (y := main_v318) (by decide), wsub (y := main_v319) (by decide)⟩
/-- A buffer stretch 15 does not write keeps its contents across it. -/
theorem g15_keeps (V : Valuation τ sig (Elt F)) {r : Ref sig .tc} (hr : r ∉ W15) :
    after (g15 (F := F)) V (Proc.devRef .tc r) = V (Proc.devRef .tc r) :=
  after_of_writes_sub _ V g15_writes hr

set_option maxHeartbeats 40000000 in
/-- Stretch 16: operations 485 … 494. -/
abbrev g16 : List (HloOp τ sig (Elt F)) :=
  [ StableHlo.binary main_v319 main_v319 main_v320 (mulf : (⟨S8386560, .f32⟩ : BufTy).Contents (Elt F) → (⟨S8386560, .f32⟩ : BufTy).Contents (Elt F) → (⟨S8386560, .f32⟩ : BufTy).Contents (Elt F)),
    StableHlo.binary main_v320 main_v320 main_v321 (mulf : (⟨S8386560, .f32⟩ : BufTy).Contents (Elt F) → (⟨S8386560, .f32⟩ : BufTy).Contents (Elt F) → (⟨S8386560, .f32⟩ : BufTy).Contents (Elt F)),
    StableHlo.binary main_v321 main_v321 main_v322 (mulf : (⟨S8386560, .f32⟩ : BufTy).Contents (Elt F) → (⟨S8386560, .f32⟩ : BufTy).Contents (Elt F) → (⟨S8386560, .f32⟩ : BufTy).Contents (Elt F)),
    StableHlo.binary main_v322 main_v322 main_v323 (mulf : (⟨S8386560, .f32⟩ : BufTy).Contents (Elt F) → (⟨S8386560, .f32⟩ : BufTy).Contents (Elt F) → (⟨S8386560, .f32⟩ : BufTy).Contents (Elt F)),
    StableHlo.binary main_v321 main_v323 main_v324 (mulf : (⟨S8386560, .f32⟩ : BufTy).Contents (Elt F) → (⟨S8386560, .f32⟩ : BufTy).Contents (Elt F) → (⟨S8386560, .f32⟩ : BufTy).Contents (Elt F)),
    StableHlo.nullary main_cst_73 (constant S_ .f32 0x3F800000#32),
    StableHlo.unary main_cst_73 main_v325 (broadcastInDim S8386560 ![] bcast_S_S8386560 : (⟨S_, .f32⟩ : BufTy).Contents (Elt F) → (⟨S8386560, .f32⟩ : BufTy).Contents (Elt F)),
    StableHlo.binary main_v325 main_v324 main_v326 (addf : (⟨S8386560, .f32⟩ : BufTy).Contents (Elt F) → (⟨S8386560, .f32⟩ : BufTy).Contents (Elt F) → (⟨S8386560, .f32⟩ : BufTy).Contents (Elt F)),
    StableHlo.binary main_v318 main_v326 main_v327 (Host.divf : (⟨S8386560, .f32⟩ : BufTy).Contents (Elt F) → (⟨S8386560, .f32⟩ : BufTy).Contents (Elt F) → (⟨S8386560, .f32⟩ : BufTy).Contents (Elt F)),
    StableHlo.binary main_v312 main_v327 main_v328 (subf : (⟨S8386560, .f32⟩ : BufTy).Contents (Elt F) → (⟨S8386560, .f32⟩ : BufTy).Contents (Elt F) → (⟨S8386560, .f32⟩ : BufTy).Contents (Elt F)) ]
/-- The buffers stretch 16 writes. -/
abbrev W16 : List (Ref sig .tc) := [ main_v320, main_v321, main_v322, main_v323, main_v324, main_cst_73, main_v325, main_v326, main_v327, main_v328 ]
set_option maxHeartbeats 40000000 in
theorem g16_writes : (g16 : List (HloOp τ sig (Elt F))).Forall fun op => op.writes ⊆ ((W16).map (Proc.devRef (τ := τ) .tc)).toFinset :=
  ⟨wsub (y := main_v320) (by decide), wsub (y := main_v321) (by decide), wsub (y := main_v322) (by decide), wsub (y := main_v323) (by decide), wsub (y := main_v324) (by decide), wsub (y := main_cst_73) (by decide), wsub (y := main_v325) (by decide), wsub (y := main_v326) (by decide), wsub (y := main_v327) (by decide), wsub (y := main_v328) (by decide)⟩
/-- A buffer stretch 16 does not write keeps its contents across it. -/
theorem g16_keeps (V : Valuation τ sig (Elt F)) {r : Ref sig .tc} (hr : r ∉ W16) :
    after (g16 (F := F)) V (Proc.devRef .tc r) = V (Proc.devRef .tc r) :=
  after_of_writes_sub _ V g16_writes hr

set_option maxHeartbeats 40000000 in
/-- Stretch 17: operations 495 … 507. -/
abbrev g17 : List (HloOp τ sig (Elt F)) :=
  [ StableHlo.binary main_v166 main_v122 main_v329 (Host.divf : (⟨S8386560, .f32⟩ : BufTy).Contents (Elt F) → (⟨S8386560, .f32⟩ : BufTy).Contents (Elt F) → (⟨S8386560, .f32⟩ : BufTy).Contents (Elt F)),
    StableHlo.binary main_v329 main_v247 main_v330 (mulf : (⟨S8386560, .f32⟩ : BufTy).Contents (Elt F) → (⟨S8386560, .f32⟩ : BufTy).Contents (Elt F) → (⟨S8386560, .f32⟩ : BufTy).Contents (Elt F)),
    StableHlo.binary main_v122 main_v166 main_v331 (Host.divf : (⟨S8386560, .f32⟩ : BufTy).Contents (Elt F) → (⟨S8386560, .f32⟩ : BufTy).Contents (Elt F) → (⟨S8386560, .f32⟩ : BufTy).Contents (Elt F)),
    StableHlo.binary main_v331 main_v328 main_v332 (mulf : (⟨S8386560, .f32⟩ : BufTy).Contents (Elt F) → (⟨S8386560, .f32⟩ : BufTy).Contents (Elt F) → (⟨S8386560, .f32⟩ : BufTy).Contents (Elt F)),
    StableHlo.binary main_v330 main_v332 main_v333 (addf : (⟨S8386560, .f32⟩ : BufTy).Contents (Elt F) → (⟨S8386560, .f32⟩ : BufTy).Contents (Elt F) → (⟨S8386560, .f32⟩ : BufTy).Contents (Elt F)),
    StableHlo.nullary main_cst_74 (constant S_ .f32 0x00000000#32),
    StableHlo.TRef.unary (.of main_cst_74 : StableHlo.TRef sig ⟨S_, .f32⟩) (.of main_call10_v0 : StableHlo.TRef sig ⟨S_, .f32⟩) id,
    StableHlo.TRef.unary (.of main_call10_v0 : StableHlo.TRef sig ⟨S_, .f32⟩) (.of main_call10_v1 : StableHlo.TRef sig ⟨S8386560, .f32⟩) (broadcastInDim S8386560 ![] bcast_S_S8386560),
    StableHlo.TRef.ternary (.of main_v77 : StableHlo.TRef sig ⟨S8386560, .i1⟩) (.of main_v333 : StableHlo.TRef sig ⟨S8386560, .f32⟩) (.of main_call10_v1 : StableHlo.TRef sig ⟨S8386560, .f32⟩) (.of main_v334 : StableHlo.TRef sig ⟨S8386560, .f32⟩) select,
    StableHlo.nullary main_cst_75 (constant S_ .f32 0x00000000#32),
    StableHlo.binary main_v334 main_cst_75 main_v335 ((fun x v => Host.reduceAdd x v reducesTo_S8386560_S_d0 h_S_) : (⟨S8386560, .f32⟩ : BufTy).Contents (Elt F) → (⟨S_, .f32⟩ : BufTy).Contents (Elt F) → (⟨S_, .f32⟩ : BufTy).Contents (Elt F)),
    StableHlo.nullary main_cst_76 (constant S_ .f32 0x3F000000#32),
    StableHlo.binary main_cst_76 main_v335 main_v336 (mulf : (⟨S_, .f32⟩ : BufTy).Contents (Elt F) → (⟨S_, .f32⟩ : BufTy).Contents (Elt F) → (⟨S_, .f32⟩ : BufTy).Contents (Elt F)) ]
/-- The buffers stretch 17 writes. -/
abbrev W17 : List (Ref sig .tc) := [ main_v329, main_v330, main_v331, main_v332, main_v333, main_cst_74, main_call10_v0, main_call10_v1, main_v334, main_cst_75, main_v335, main_cst_76, main_v336 ]
set_option maxHeartbeats 40000000 in
theorem g17_writes : (g17 : List (HloOp τ sig (Elt F))).Forall fun op => op.writes ⊆ ((W17).map (Proc.devRef (τ := τ) .tc)).toFinset :=
  ⟨wsub (y := main_v329) (by decide), wsub (y := main_v330) (by decide), wsub (y := main_v331) (by decide), wsub (y := main_v332) (by decide), wsub (y := main_v333) (by decide), wsub (y := main_cst_74) (by decide), wsub (y := main_call10_v0) (by decide), wsub (y := main_call10_v1) (by decide), wsub (y := main_v334) (by decide), wsub (y := main_cst_75) (by decide), wsub (y := main_v335) (by decide), wsub (y := main_cst_76) (by decide), wsub (y := main_v336) (by decide)⟩
/-- A buffer stretch 17 does not write keeps its contents across it. -/
theorem g17_keeps (V : Valuation τ sig (Elt F)) {r : Ref sig .tc} (hr : r ∉ W17) :
    after (g17 (F := F)) V (Proc.devRef .tc r) = V (Proc.devRef .tc r) :=
  after_of_writes_sub _ V g17_writes hr

set_option maxHeartbeats 40000000 in
/-- Stretch 18: operations 508 … 524. -/
abbrev g18 : List (HloOp τ sig (Elt F)) :=
  [ StableHlo.unary main_v3 main_v337 (broadcastInDim S1x4096 ![1] bcast_S4096_S1x4096_1 : (⟨S4096, .f32⟩ : BufTy).Contents (Elt F) → (⟨S1x4096, .f32⟩ : BufTy).Contents (Elt F)),
    StableHlo.unary main_v11 main_v338 (broadcastInDim S1x4096 ![1] bcast_S4096_S1x4096_1 : (⟨S4096, .f32⟩ : BufTy).Contents (Elt F) → (⟨S1x4096, .f32⟩ : BufTy).Contents (Elt F)),
    StableHlo.unary main_v1 main_v339 (broadcastInDim S1x4096 ![1] bcast_S4096_S1x4096_1 : (⟨S4096, .f32⟩ : BufTy).Contents (Elt F) → (⟨S1x4096, .f32⟩ : BufTy).Contents (Elt F)),
    StableHlo.unary main_v19 main_v340 (broadcastInDim S1x4096 ![1] bcast_S4096_S1x4096_1 : (⟨S4096, .f32⟩ : BufTy).Contents (Elt F) → (⟨S1x4096, .f32⟩ : BufTy).Contents (Elt F)),
    StableHlo.unary main_v339 main_v341 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v41 main_v341 main_v342 (Host.divf : (⟨S4096x4096, .f32⟩ : BufTy).Contents (Elt F) → (⟨S4096x4096, .f32⟩ : BufTy).Contents (Elt F) → (⟨S4096x4096, .f32⟩ : BufTy).Contents (Elt F)),
    StableHlo.unary main_v338 main_v343 (Host.negf : (⟨S1x4096, .f32⟩ : BufTy).Contents (Elt F) → (⟨S1x4096, .f32⟩ : BufTy).Contents (Elt F)),
    StableHlo.nullary main_cst_77 (constant S_ .f32 0x3F800000#32),
    StableHlo.unary main_cst_77 main_v344 (broadcastInDim S4096x4096 ![] bcast_S_S4096x4096 : (⟨S_, .f32⟩ : BufTy).Contents (Elt F) → (⟨S4096x4096, .f32⟩ : BufTy).Contents (Elt F)),
    StableHlo.binary main_v342 main_v344 main_v345 (subf : (⟨S4096x4096, .f32⟩ : BufTy).Contents (Elt F) → (⟨S4096x4096, .f32⟩ : BufTy).Contents (Elt F) → (⟨S4096x4096, .f32⟩ : BufTy).Contents (Elt F)),
    StableHlo.unary main_v343 main_v346 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v346 main_v345 main_v347 (mulf : (⟨S4096x4096, .f32⟩ : BufTy).Contents (Elt F) → (⟨S4096x4096, .f32⟩ : BufTy).Contents (Elt F) → (⟨S4096x4096, .f32⟩ : BufTy).Contents (Elt F)),
    StableHlo.unary main_v347 main_v348 (Host.exp : (⟨S4096x4096, .f32⟩ : BufTy).Contents (Elt F) → (⟨S4096x4096, .f32⟩ : BufTy).Contents (Elt F)),
    StableHlo.unary main_v337 main_v349 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v349 main_v348 main_v350 (mulf : (⟨S4096x4096, .f32⟩ : BufTy).Contents (Elt F) → (⟨S4096x4096, .f32⟩ : BufTy).Contents (Elt F) → (⟨S4096x4096, .f32⟩ : BufTy).Contents (Elt F)),
    StableHlo.unary main_v340 main_v351 (broadcastInDim S4096x4096 ![0, 1] bcast_S1x4096_S4096x4096_0_1 : (⟨S1x4096, .f32⟩ : BufTy).Contents (Elt F) → (⟨S4096x4096, .f32⟩ : BufTy).Contents (Elt F)),
    StableHlo.binary main_v342 main_v351 main_v352 (subf : (⟨S4096x4096, .f32⟩ : BufTy).Contents (Elt F) → (⟨S4096x4096, .f32⟩ : BufTy).Contents (Elt F) → (⟨S4096x4096, .f32⟩ : BufTy).Contents (Elt F)) ]
/-- The buffers stretch 18 writes. -/
abbrev W18 : List (Ref sig .tc) := [ main_v337, main_v338, main_v339, main_v340, main_v341, main_v342, main_v343, main_cst_77, main_v344, main_v345, main_v346, main_v347, main_v348, main_v349, main_v350, main_v351, main_v352 ]
set_option maxHeartbeats 40000000 in
theorem g18_writes : (g18 : List (HloOp τ sig (Elt F))).Forall fun op => op.writes ⊆ ((W18).map (Proc.devRef (τ := τ) .tc)).toFinset :=
  ⟨wsub (y := main_v337) (by decide), wsub (y := main_v338) (by decide), wsub (y := main_v339) (by decide), wsub (y := main_v340) (by decide), wsub (y := main_v341) (by decide), wsub (y := main_v342) (by decide), wsub (y := main_v343) (by decide), wsub (y := main_cst_77) (by decide), wsub (y := main_v344) (by decide), wsub (y := main_v345) (by decide), wsub (y := main_v346) (by decide), wsub (y := main_v347) (by decide), wsub (y := main_v348) (by decide), wsub (y := main_v349) (by decide), wsub (y := main_v350) (by decide), wsub (y := main_v351) (by decide), wsub (y := main_v352) (by decide)⟩
/-- A buffer stretch 18 does not write keeps its contents across it. -/
theorem g18_keeps (V : Valuation τ sig (Elt F)) {r : Ref sig .tc} (hr : r ∉ W18) :
    after (g18 (F := F)) V (Proc.devRef .tc r) = V (Proc.devRef .tc r) :=
  after_of_writes_sub _ V g18_writes hr

set_option maxHeartbeats 40000000 in
/-- Stretch 19: operations 525 … 539. -/
abbrev g19 : List (HloOp τ sig (Elt F)) :=
  [ StableHlo.binary main_v352 main_v352 main_v353 (mulf : (⟨S4096x4096, .f32⟩ : BufTy).Contents (Elt F) → (⟨S4096x4096, .f32⟩ : BufTy).Contents (Elt F) → (⟨S4096x4096, .f32⟩ : BufTy).Contents (Elt F)),
    StableHlo.binary main_v353 main_v353 main_v354 (mulf : (⟨S4096x4096, .f32⟩ : BufTy).Contents (Elt F) → (⟨S4096x4096, .f32⟩ : BufTy).Contents (Elt F) → (⟨S4096x4096, .f32⟩ : BufTy).Contents (Elt F)),
    StableHlo.binary main_v354 main_v354 main_v355 (mulf : (⟨S4096x4096, .f32⟩ : BufTy).Contents (Elt F) → (⟨S4096x4096, .f32⟩ : BufTy).Contents (Elt F) → (⟨S4096x4096, .f32⟩ : BufTy).Contents (Elt F)),
    StableHlo.binary main_v355 main_v355 main_v356 (mulf : (⟨S4096x4096, .f32⟩ : BufTy).Contents (Elt F) → (⟨S4096x4096, .f32⟩ : BufTy).Contents (Elt F) → (⟨S4096x4096, .f32⟩ : BufTy).Contents (Elt F)),
    StableHlo.binary main_v354 main_v356 main_v357 (mulf : (⟨S4096x4096, .f32⟩ : BufTy).Contents (Elt F) → (⟨S4096x4096, .f32⟩ : BufTy).Contents (Elt F) → (⟨S4096x4096, .f32⟩ : BufTy).Contents (Elt F)),
    StableHlo.nullary main_cst_78 (constant S_ .f32 0x3F800000#32),
    StableHlo.unary main_cst_78 main_v358 (broadcastInDim S4096x4096 ![] bcast_S_S4096x4096 : (⟨S_, .f32⟩ : BufTy).Contents (Elt F) → (⟨S4096x4096, .f32⟩ : BufTy).Contents (Elt F)),
    StableHlo.binary main_v358 main_v357 main_v359 (addf : (⟨S4096x4096, .f32⟩ : BufTy).Contents (Elt F) → (⟨S4096x4096, .f32⟩ : BufTy).Contents (Elt F) → (⟨S4096x4096, .f32⟩ : BufTy).Contents (Elt F)),
    StableHlo.binary main_v350 main_v359 main_v360 (Host.divf : (⟨S4096x4096, .f32⟩ : BufTy).Contents (Elt F) → (⟨S4096x4096, .f32⟩ : BufTy).Contents (Elt F) → (⟨S4096x4096, .f32⟩ : BufTy).Contents (Elt F)),
    StableHlo.nullary main_cst_79 (constant S_ .f32 0x00000000#32),
    StableHlo.TRef.unary (.of main_cst_79 : StableHlo.TRef sig ⟨S_, .f32⟩) (.of main_call11_v0 : StableHlo.TRef sig ⟨S_, .f32⟩) id,
    StableHlo.TRef.unary (.of main_call11_v0 : StableHlo.TRef sig ⟨S_, .f32⟩) (.of main_call11_v1 : StableHlo.TRef sig ⟨S4096x4096, .f32⟩) (broadcastInDim S4096x4096 ![] bcast_S_S4096x4096),
    StableHlo.TRef.ternary (.of main_v39 : StableHlo.TRef sig ⟨S4096x4096, .i1⟩) (.of main_call11_v1 : StableHlo.TRef sig ⟨S4096x4096, .f32⟩) (.of main_v360 : StableHlo.TRef sig ⟨S4096x4096, .f32⟩) (.of main_v361 : StableHlo.TRef sig ⟨S4096x4096, .f32⟩) select,
    StableHlo.nullary main_cst_80 (constant S_ .f32 0x00000000#32),
    StableHlo.binary main_v361 main_cst_80 main_v362 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) ]
/-- The buffers stretch 19 writes. -/
abbrev W19 : List (Ref sig .tc) := [ main_v353, main_v354, main_v355, main_v356, main_v357, main_cst_78, main_v358, main_v359, main_v360, main_cst_79, main_call11_v0, main_call11_v1, main_v361, main_cst_80, main_v362 ]
set_option maxHeartbeats 40000000 in
theorem g19_writes : (g19 : List (HloOp τ sig (Elt F))).Forall fun op => op.writes ⊆ ((W19).map (Proc.devRef (τ := τ) .tc)).toFinset :=
  ⟨wsub (y := main_v353) (by decide), wsub (y := main_v354) (by decide), wsub (y := main_v355) (by decide), wsub (y := main_v356) (by decide), wsub (y := main_v357) (by decide), wsub (y := main_cst_78) (by decide), wsub (y := main_v358) (by decide), wsub (y := main_v359) (by decide), wsub (y := main_v360) (by decide), wsub (y := main_cst_79) (by decide), wsub (y := main_call11_v0) (by decide), wsub (y := main_call11_v1) (by decide), wsub (y := main_v361) (by decide), wsub (y := main_cst_80) (by decide), wsub (y := main_v362) (by decide)⟩
/-- A buffer stretch 19 does not write keeps its contents across it. -/
theorem g19_keeps (V : Valuation τ sig (Elt F)) {r : Ref sig .tc} (hr : r ∉ W19) :
    after (g19 (F := F)) V (Proc.devRef .tc r) = V (Proc.devRef .tc r) :=
  after_of_writes_sub _ V g19_writes hr

set_option maxHeartbeats 40000000 in
/-- Stretch 20: operations 540 … 596. -/
abbrev g20 : List (HloOp τ sig (Elt F)) :=
  [ StableHlo.binary main_v362 main_v25 main_v363 (Host.divf : (⟨S4096, .f32⟩ : BufTy).Contents (Elt F) → (⟨S4096, .f32⟩ : BufTy).Contents (Elt F) → (⟨S4096, .f32⟩ : BufTy).Contents (Elt F)),
    StableHlo.nullary main_cst_81 (constant S_ .f32 0x3F800000#32),
    StableHlo.unary main_cst_81 main_v364 (broadcastInDim S4096 ![] bcast_S_S4096 : (⟨S_, .f32⟩ : BufTy).Contents (Elt F) → (⟨S4096, .f32⟩ : BufTy).Contents (Elt F)),
    StableHlo.binary main_v363 main_v364 main_v365 (subf : (⟨S4096, .f32⟩ : BufTy).Contents (Elt F) → (⟨S4096, .f32⟩ : BufTy).Contents (Elt F) → (⟨S4096, .f32⟩ : BufTy).Contents (Elt F)),
    StableHlo.unary main_arg1 main_v366 ((extractStridedSlice S4096x1 ![0, 10] · slices_S4096x22_S4096x1_0_10) : (⟨S4096x22, .f32⟩ : BufTy).Contents (Elt F) → (⟨S4096x1, .f32⟩ : BufTy).Contents (Elt F)),
    StableHlo.reshape main_v366 main_v367 rfl shapeCasts_S4096x1_S4096,
    StableHlo.unary main_arg1 main_v368 ((extractStridedSlice S4096x1 ![0, 11] · slices_S4096x22_S4096x1_0_11) : (⟨S4096x22, .f32⟩ : BufTy).Contents (Elt F) → (⟨S4096x1, .f32⟩ : BufTy).Contents (Elt F)),
    StableHlo.reshape main_v368 main_v369 rfl shapeCasts_S4096x1_S4096,
    StableHlo.binary main_v369 main_v365 main_v370 (mulf : (⟨S4096, .f32⟩ : BufTy).Contents (Elt F) → (⟨S4096, .f32⟩ : BufTy).Contents (Elt F) → (⟨S4096, .f32⟩ : BufTy).Contents (Elt F)),
    StableHlo.binary main_v367 main_v370 main_v371 (addf : (⟨S4096, .f32⟩ : BufTy).Contents (Elt F) → (⟨S4096, .f32⟩ : BufTy).Contents (Elt F) → (⟨S4096, .f32⟩ : BufTy).Contents (Elt F)),
    StableHlo.unary main_arg1 main_v372 ((extractStridedSlice S4096x1 ![0, 12] · slices_S4096x22_S4096x1_0_12) : (⟨S4096x22, .f32⟩ : BufTy).Contents (Elt F) → (⟨S4096x1, .f32⟩ : BufTy).Contents (Elt F)),
    StableHlo.reshape main_v372 main_v373 rfl shapeCasts_S4096x1_S4096,
    StableHlo.binary main_v365 main_v365 main_v374 (mulf : (⟨S4096, .f32⟩ : BufTy).Contents (Elt F) → (⟨S4096, .f32⟩ : BufTy).Contents (Elt F) → (⟨S4096, .f32⟩ : BufTy).Contents (Elt F)),
    StableHlo.binary main_v373 main_v374 main_v375 (mulf : (⟨S4096, .f32⟩ : BufTy).Contents (Elt F) → (⟨S4096, .f32⟩ : BufTy).Contents (Elt F) → (⟨S4096, .f32⟩ : BufTy).Contents (Elt F)),
    StableHlo.binary main_v371 main_v375 main_v376 (addf : (⟨S4096, .f32⟩ : BufTy).Contents (Elt F) → (⟨S4096, .f32⟩ : BufTy).Contents (Elt F) → (⟨S4096, .f32⟩ : BufTy).Contents (Elt F)),
    StableHlo.unary main_arg1 main_v377 ((extractStridedSlice S4096x1 ![0, 13] · slices_S4096x22_S4096x1_0_13) : (⟨S4096x22, .f32⟩ : BufTy).Contents (Elt F) → (⟨S4096x1, .f32⟩ : BufTy).Contents (Elt F)),
    StableHlo.reshape main_v377 main_v378 rfl shapeCasts_S4096x1_S4096,
    StableHlo.binary main_v365 main_v365 main_v379 (mulf : (⟨S4096, .f32⟩ : BufTy).Contents (Elt F) → (⟨S4096, .f32⟩ : BufTy).Contents (Elt F) → (⟨S4096, .f32⟩ : BufTy).Contents (Elt F)),
    StableHlo.binary main_v379 main_v365 main_v380 (mulf : (⟨S4096, .f32⟩ : BufTy).Contents (Elt F) → (⟨S4096, .f32⟩ : BufTy).Contents (Elt F) → (⟨S4096, .f32⟩ : BufTy).Contents (Elt F)),
    StableHlo.binary main_v378 main_v380 main_v381 (mulf : (⟨S4096, .f32⟩ : BufTy).Contents (Elt F) → (⟨S4096, .f32⟩ : BufTy).Contents (Elt F) → (⟨S4096, .f32⟩ : BufTy).Contents (Elt F)),
    StableHlo.binary main_v376 main_v381 main_v382 (addf : (⟨S4096, .f32⟩ : BufTy).Contents (Elt F) → (⟨S4096, .f32⟩ : BufTy).Contents (Elt F) → (⟨S4096, .f32⟩ : BufTy).Contents (Elt F)),
    StableHlo.binary main_v362 main_v5 main_v383 (Host.divf : (⟨S4096, .f32⟩ : BufTy).Contents (Elt F) → (⟨S4096, .f32⟩ : BufTy).Contents (Elt F) → (⟨S4096, .f32⟩ : BufTy).Contents (Elt F)),
    StableHlo.nullary main_cst_82 (constant S_ .f32 0x3F800000#32),
    StableHlo.unary main_cst_82 main_v384 (broadcastInDim S4096 ![] bcast_S_S4096 : (⟨S_, .f32⟩ : BufTy).Contents (Elt F) → (⟨S4096, .f32⟩ : BufTy).Contents (Elt F)),
    StableHlo.binary main_v383 main_v384 main_v385 (subf : (⟨S4096, .f32⟩ : BufTy).Contents (Elt F) → (⟨S4096, .f32⟩ : BufTy).Contents (Elt F) → (⟨S4096, .f32⟩ : BufTy).Contents (Elt F)),
    StableHlo.unary main_arg1 main_v386 ((extractStridedSlice S4096x1 ![0, 14] · slices_S4096x22_S4096x1_0_14) : (⟨S4096x22, .f32⟩ : BufTy).Contents (Elt F) → (⟨S4096x1, .f32⟩ : BufTy).Contents (Elt F)),
    StableHlo.reshape main_v386 main_v387 rfl shapeCasts_S4096x1_S4096,
    StableHlo.unary main_arg1 main_v388 ((extractStridedSlice S4096x1 ![0, 15] · slices_S4096x22_S4096x1_0_15) : (⟨S4096x22, .f32⟩ : BufTy).Contents (Elt F) → (⟨S4096x1, .f32⟩ : BufTy).Contents (Elt F)),
    StableHlo.reshape main_v388 main_v389 rfl shapeCasts_S4096x1_S4096,
    StableHlo.binary main_v389 main_v385 main_v390 (mulf : (⟨S4096, .f32⟩ : BufTy).Contents (Elt F) → (⟨S4096, .f32⟩ : BufTy).Contents (Elt F) → (⟨S4096, .f32⟩ : BufTy).Contents (Elt F)),
    StableHlo.binary main_v387 main_v390 main_v391 (addf : (⟨S4096, .f32⟩ : BufTy).Contents (Elt F) → (⟨S4096, .f32⟩ : BufTy).Contents (Elt F) → (⟨S4096, .f32⟩ : BufTy).Contents (Elt F)),
    StableHlo.unary main_arg1 main_v392 ((extractStridedSlice S4096x1 ![0, 16] · slices_S4096x22_S4096x1_0_16) : (⟨S4096x22, .f32⟩ : BufTy).Contents (Elt F) → (⟨S4096x1, .f32⟩ : BufTy).Contents (Elt F)),
    StableHlo.reshape main_v392 main_v393 rfl shapeCasts_S4096x1_S4096,
    StableHlo.binary main_v385 main_v385 main_v394 (mulf : (⟨S4096, .f32⟩ : BufTy).Contents (Elt F) → (⟨S4096, .f32⟩ : BufTy).Contents (Elt F) → (⟨S4096, .f32⟩ : BufTy).Contents (Elt F)),
    StableHlo.binary main_v393 main_v394 main_v395 (mulf : (⟨S4096, .f32⟩ : BufTy).Contents (Elt F) → (⟨S4096, .f32⟩ : BufTy).Contents (Elt F) → (⟨S4096, .f32⟩ : BufTy).Contents (Elt F)),
    StableHlo.binary main_v391 main_v395 main_v396 (addf : (⟨S4096, .f32⟩ : BufTy).Contents (Elt F) → (⟨S4096, .f32⟩ : BufTy).Contents (Elt F) → (⟨S4096, .f32⟩ : BufTy).Contents (Elt F)),
    StableHlo.unary main_arg1 main_v397 ((extractStridedSlice S4096x1 ![0, 17] · slices_S4096x22_S4096x1_0_17) : (⟨S4096x22, .f32⟩ : BufTy).Contents (Elt F) → (⟨S4096x1, .f32⟩ : BufTy).Contents (Elt F)),
    StableHlo.reshape main_v397 main_v398 rfl shapeCasts_S4096x1_S4096,
    StableHlo.binary main_v385 main_v385 main_v399 (mulf : (⟨S4096, .f32⟩ : BufTy).Contents (Elt F) → (⟨S4096, .f32⟩ : BufTy).Contents (Elt F) → (⟨S4096, .f32⟩ : BufTy).Contents (Elt F)),
    StableHlo.binary main_v399 main_v385 main_v400 (mulf : (⟨S4096, .f32⟩ : BufTy).Contents (Elt F) → (⟨S4096, .f32⟩ : BufTy).Contents (Elt F) → (⟨S4096, .f32⟩ : BufTy).Contents (Elt F)),
    StableHlo.binary main_v398 main_v400 main_v401 (mulf : (⟨S4096, .f32⟩ : BufTy).Contents (Elt F) → (⟨S4096, .f32⟩ : BufTy).Contents (Elt F) → (⟨S4096, .f32⟩ : BufTy).Contents (Elt F)),
    StableHlo.binary main_v396 main_v401 main_v402 (addf : (⟨S4096, .f32⟩ : BufTy).Contents (Elt F) → (⟨S4096, .f32⟩ : BufTy).Contents (Elt F) → (⟨S4096, .f32⟩ : BufTy).Contents (Elt F)),
    StableHlo.binary main_v362 main_v7 main_v403 (Host.divf : (⟨S4096, .f32⟩ : BufTy).Contents (Elt F) → (⟨S4096, .f32⟩ : BufTy).Contents (Elt F) → (⟨S4096, .f32⟩ : BufTy).Contents (Elt F)),
    StableHlo.binary main_v403 main_v21 main_v404 (Host.powf : (⟨S4096, .f32⟩ : BufTy).Contents (Elt F) → (⟨S4096, .f32⟩ : BufTy).Contents (Elt F) → (⟨S4096, .f32⟩ : BufTy).Contents (Elt F)),
    StableHlo.unary main_v404 main_v405 (Host.log : (⟨S4096, .f32⟩ : BufTy).Contents (Elt F) → (⟨S4096, .f32⟩ : BufTy).Contents (Elt F)),
    StableHlo.nullary main_cst_83 (constant S_ .f32 0x3F800000#32),
    StableHlo.unary main_cst_83 main_v406 (broadcastInDim S4096 ![] bcast_S_S4096 : (⟨S_, .f32⟩ : BufTy).Contents (Elt F) → (⟨S4096, .f32⟩ : BufTy).Contents (Elt F)),
    StableHlo.binary main_v406 main_v405 main_v407 (subf : (⟨S4096, .f32⟩ : BufTy).Contents (Elt F) → (⟨S4096, .f32⟩ : BufTy).Contents (Elt F) → (⟨S4096, .f32⟩ : BufTy).Contents (Elt F)),
    StableHlo.binary main_v23 main_v407 main_v408 (mulf : (⟨S4096, .f32⟩ : BufTy).Contents (Elt F) → (⟨S4096, .f32⟩ : BufTy).Contents (Elt F) → (⟨S4096, .f32⟩ : BufTy).Contents (Elt F)),
    StableHlo.binary main_v408 main_v404 main_v409 (mulf : (⟨S4096, .f32⟩ : BufTy).Contents (Elt F) → (⟨S4096, .f32⟩ : BufTy).Contents (Elt F) → (⟨S4096, .f32⟩ : BufTy).Contents (Elt F)),
    StableHlo.binary main_v362 main_v25 main_v410 (cmpf .olt : (⟨S4096, .f32⟩ : BufTy).Contents (Elt F) → (⟨S4096, .f32⟩ : BufTy).Contents (Elt F) → (⟨S4096, .i1⟩ : BufTy).Contents (Elt F)),
    StableHlo.binary main_v362 main_v27 main_v411 (cmpf .olt : (⟨S4096, .f32⟩ : BufTy).Contents (Elt F) → (⟨S4096, .f32⟩ : BufTy).Contents (Elt F) → (⟨S4096, .i1⟩ : BufTy).Contents (Elt F)),
    StableHlo.TRef.ternary (.of main_v411 : StableHlo.TRef sig ⟨S4096, .i1⟩) (.of main_v402 : StableHlo.TRef sig ⟨S4096, .f32⟩) (.of main_v409 : StableHlo.TRef sig ⟨S4096, .f32⟩) (.of main_v412 : StableHlo.TRef sig ⟨S4096, .f32⟩) select,
    StableHlo.TRef.ternary (.of main_v410 : StableHlo.TRef sig ⟨S4096, .i1⟩) (.of main_v382 : StableHlo.TRef sig ⟨S4096, .f32⟩) (.of main_v412 : StableHlo.TRef sig ⟨S4096, .f32⟩) (.of main_v413 : StableHlo.TRef sig ⟨S4096, .f32⟩) select,
    StableHlo.nullary main_cst_84 (constant S_ .f32 0x00000000#32),
    StableHlo.binary main_v413 main_cst_84 main_v414 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.binary main_v336 main_v414 main_v415 (addf : (⟨S_, .f32⟩ : BufTy).Contents (Elt F) → (⟨S_, .f32⟩ : BufTy).Contents (Elt F) → (⟨S_, .f32⟩ : BufTy).Contents (Elt F)) ]
/-- The buffers stretch 20 writes. -/
abbrev W20 : List (Ref sig .tc) := [ main_v363, main_cst_81, main_v364, main_v365, main_v366, main_v367, main_v368, main_v369, main_v370, main_v371, main_v372, main_v373, main_v374, main_v375, main_v376, main_v377, main_v378, main_v379, main_v380, main_v381, main_v382, main_v383, main_cst_82, main_v384, main_v385, main_v386, main_v387, main_v388, main_v389, main_v390, main_v391, main_v392, main_v393, main_v394, main_v395, main_v396, main_v397, main_v398, main_v399, main_v400, main_v401, main_v402, main_v403, main_v404, main_v405, main_cst_83, main_v406, main_v407, main_v408, main_v409, main_v410, main_v411, main_v412, main_v413, main_cst_84, main_v414, main_v415 ]
set_option maxHeartbeats 40000000 in
theorem g20_writes : (g20 : List (HloOp τ sig (Elt F))).Forall fun op => op.writes ⊆ ((W20).map (Proc.devRef (τ := τ) .tc)).toFinset :=
  ⟨wsub (y := main_v363) (by decide), wsub (y := main_cst_81) (by decide), wsub (y := main_v364) (by decide), wsub (y := main_v365) (by decide), wsub (y := main_v366) (by decide), wsub (y := main_v367) (by decide), wsub (y := main_v368) (by decide), wsub (y := main_v369) (by decide), wsub (y := main_v370) (by decide), wsub (y := main_v371) (by decide), wsub (y := main_v372) (by decide), wsub (y := main_v373) (by decide), wsub (y := main_v374) (by decide), wsub (y := main_v375) (by decide), wsub (y := main_v376) (by decide), wsub (y := main_v377) (by decide), wsub (y := main_v378) (by decide), wsub (y := main_v379) (by decide), wsub (y := main_v380) (by decide), wsub (y := main_v381) (by decide), wsub (y := main_v382) (by decide), wsub (y := main_v383) (by decide), wsub (y := main_cst_82) (by decide), wsub (y := main_v384) (by decide), wsub (y := main_v385) (by decide), wsub (y := main_v386) (by decide), wsub (y := main_v387) (by decide), wsub (y := main_v388) (by decide), wsub (y := main_v389) (by decide), wsub (y := main_v390) (by decide), wsub (y := main_v391) (by decide), wsub (y := main_v392) (by decide), wsub (y := main_v393) (by decide), wsub (y := main_v394) (by decide), wsub (y := main_v395) (by decide), wsub (y := main_v396) (by decide), wsub (y := main_v397) (by decide), wsub (y := main_v398) (by decide), wsub (y := main_v399) (by decide), wsub (y := main_v400) (by decide), wsub (y := main_v401) (by decide), wsub (y := main_v402) (by decide), wsub (y := main_v403) (by decide), wsub (y := main_v404) (by decide), wsub (y := main_v405) (by decide), wsub (y := main_cst_83) (by decide), wsub (y := main_v406) (by decide), wsub (y := main_v407) (by decide), wsub (y := main_v408) (by decide), wsub (y := main_v409) (by decide), wsub (y := main_v410) (by decide), wsub (y := main_v411) (by decide), wsub (y := main_v412) (by decide), wsub (y := main_v413) (by decide), wsub (y := main_cst_84) (by decide), wsub (y := main_v414) (by decide), wsub (y := main_v415) (by decide)⟩
/-- A buffer stretch 20 does not write keeps its contents across it. -/
theorem g20_keeps (V : Valuation τ sig (Elt F)) {r : Ref sig .tc} (hr : r ∉ W20) :
    after (g20 (F := F)) V (Proc.devRef .tc r) = V (Proc.devRef .tc r) :=
  after_of_writes_sub _ V g20_writes hr

set_option maxHeartbeats 40000000 in
/-- The operations are the stretches in order. -/
theorem ops_eq : (ops : List (HloOp τ sig (Elt F))) = g0 ++ (g1 ++ (g2 ++ (g3 ++ (g4 ++ (g5 ++ (g6 ++ (g7 ++ (g8 ++ (g9 ++ (g10 ++ (g11 ++ (g12 ++ (g13 ++ (g14 ++ (g15 ++ (g16 ++ (g17 ++ (g18 ++ (g19 ++ (g20)))))))))))))))))))) := by
  chain_rfl

end Cert.ReferenceIdeal.HandRun

end
-- ==== Proof.RStageA.lean ====
/-
  What each of the first seven stretches of the reference's operations leaves in the buffers later stretches read, for
  any contents before it: the stretch's own operations composed over the buffers it reads.
-/
import proofs.«121872_j23974507446662_1_alg».proof.Proof.RSeg

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- What stretch 0 leaves in main_v3. -/
theorem st_main_v3 (V : Valuation τ sig (Elt F)) :
    after (g0 (F := F)) V (Proc.devRef .tc main_v3) = (fun i => shapeCast main_v3.ty.shape (((extractStridedSlice S4096x1 ![0, 1] · slices_S4096x22_S4096x1_0_1) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v11. -/
theorem st_main_v11 (V : Valuation τ sig (Elt F)) :
    after (g0 (F := F)) V (Proc.devRef .tc main_v11) = (fun i => shapeCast main_v11.ty.shape (((extractStridedSlice S4096x1 ![0, 5] · slices_S4096x22_S4096x1_0_5) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v1. -/
theorem st_main_v1 (V : Valuation τ sig (Elt F)) :
    after (g0 (F := F)) V (Proc.devRef .tc main_v1) = (fun i => shapeCast main_v1.ty.shape (((extractStridedSlice S4096x1 ![0, 0] · slices_S4096x22_S4096x1_0_0) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v19. -/
theorem st_main_v19 (V : Valuation τ sig (Elt F)) :
    after (g0 (F := F)) V (Proc.devRef .tc main_v19) = (fun i => shapeCast main_v19.ty.shape (((extractStridedSlice S4096x1 ![0, 9] · slices_S4096x22_S4096x1_0_9) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v13. -/
theorem st_main_v13 (V : Valuation τ sig (Elt F)) :
    after (g0 (F := F)) V (Proc.devRef .tc main_v13) = (fun i => shapeCast main_v13.ty.shape (((extractStridedSlice S4096x1 ![0, 6] · slices_S4096x22_S4096x1_0_6) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v15. -/
theorem st_main_v15 (V : Valuation τ sig (Elt F)) :
    after (g0 (F := F)) V (Proc.devRef .tc main_v15) = (fun i => shapeCast main_v15.ty.shape (((extractStridedSlice S4096x1 ![0, 7] · slices_S4096x22_S4096x1_0_7) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v9. -/
theorem st_main_v9 (V : Valuation τ sig (Elt F)) :
    after (g0 (F := F)) V (Proc.devRef .tc main_v9) = (fun i => shapeCast main_v9.ty.shape (((extractStridedSlice S4096x1 ![0, 4] · slices_S4096x22_S4096x1_0_4) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v17. -/
theorem st_main_v17 (V : Valuation τ sig (Elt F)) :
    after (g0 (F := F)) V (Proc.devRef .tc main_v17) = (fun i => shapeCast main_v17.ty.shape (((extractStridedSlice S4096x1 ![0, 8] · slices_S4096x22_S4096x1_0_8) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v25. -/
theorem st_main_v25 (V : Valuation τ sig (Elt F)) :
    after (g0 (F := F)) V (Proc.devRef .tc main_v25) = (fun i => shapeCast main_v25.ty.shape (((extractStridedSlice S4096x1 ![0, 20] · slices_S4096x22_S4096x1_0_20) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v5. -/
theorem st_main_v5 (V : Valuation τ sig (Elt F)) :
    after (g0 (F := F)) V (Proc.devRef .tc main_v5) = (fun i => shapeCast main_v5.ty.shape (((extractStridedSlice S4096x1 ![0, 2] · slices_S4096x22_S4096x1_0_2) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v7. -/
theorem st_main_v7 (V : Valuation τ sig (Elt F)) :
    after (g0 (F := F)) V (Proc.devRef .tc main_v7) = (fun i => shapeCast main_v7.ty.shape (((extractStridedSlice S4096x1 ![0, 3] · slices_S4096x22_S4096x1_0_3) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v21. -/
theorem st_main_v21 (V : Valuation τ sig (Elt F)) :
    after (g0 (F := F)) V (Proc.devRef .tc main_v21) = (fun i => shapeCast main_v21.ty.shape (((extractStridedSlice S4096x1 ![0, 18] · slices_S4096x22_S4096x1_0_18) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v23. -/
theorem st_main_v23 (V : Valuation τ sig (Elt F)) :
    after (g0 (F := F)) V (Proc.devRef .tc main_v23) = (fun i => shapeCast main_v23.ty.shape (((extractStridedSlice S4096x1 ![0, 19] · slices_S4096x22_S4096x1_0_19) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 0 leaves in main_v27. -/
theorem st_main_v27 (V : Valuation τ sig (Elt F)) :
    after (g0 (F := F)) V (Proc.devRef .tc main_v27) = (fun i => shapeCast main_v27.ty.shape (((extractStridedSlice S4096x1 ![0, 21] · slices_S4096x22_S4096x1_0_21) : (⟨S4096x22, .f32⟩ : BufTy).Contents (Elt F) → (⟨S4096x1, .f32⟩ : BufTy).Contents (Elt F)) (V (Proc.devRef .tc main_arg1))) shapeCasts_S4096x1_S4096 i) := by
  dsimp only [g0]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 1 leaves in main_v41. -/
theorem st_main_v41 (V : Valuation τ sig (Elt F)) :
    after (g1 (F := F)) V (Proc.devRef .tc main_v41) = ((Host.sqrt : (⟨S4096x4096, .f32⟩ : BufTy).Contents (Elt F) → (⟨S4096x4096, .f32⟩ : BufTy).Contents (Elt F)) ((select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ((cmpi .eq : (⟨S4096x4096, .i32⟩ : BufTy).Contents (Elt F) → (⟨S4096x4096, .i32⟩ : BufTy).Contents (Elt F) → (⟨S4096x4096, .i1⟩ : BufTy).Contents (Elt F)) ((addi : (⟨S4096x4096, .i32⟩ : BufTy).Contents (Elt F) → (⟨S4096x4096, .i32⟩ : BufTy).Contents (Elt F) → (⟨S4096x4096, .i32⟩ : BufTy).Contents (Elt F)) ((iotaInDim S4096x4096 32 0)) ((broadcastInDim S4096x4096 ![] bcast_S_S4096x4096 : (⟨S_, .i32⟩ : BufTy).Contents (Elt F) → (⟨S4096x4096, .i32⟩ : BufTy).Contents (Elt F)) ((constantI S_ 32 0#32)))) ((iotaInDim S4096x4096 32 1))) (((broadcastInDim S4096x4096 ![] bcast_S_S4096x4096) : (⟨S_, .f32⟩ : BufTy).Contents (Elt F) → (⟨S4096x4096, .f32⟩ : BufTy).Contents (Elt F)) ((id : (⟨S_, .f32⟩ : BufTy).Contents (Elt F) → (⟨S_, .f32⟩ : BufTy).Contents (Elt F)) ((constant S_ .f32 0x3F800000#32)))) (((fun x v => Host.reduceAdd x v reducesTo_S4096x4096x3_S4096x4096_d2 h_S_) : (⟨S4096x4096x3, .f32⟩ : BufTy).Contents (Elt F) → (⟨S_, .f32⟩ : BufTy).Contents (Elt F) → (⟨S4096x4096, .f32⟩ : BufTy).Contents (Elt F)) ((mulf : (⟨S4096x4096x3, .f32⟩ : BufTy).Contents (Elt F) → (⟨S4096x4096x3, .f32⟩ : BufTy).Contents (Elt F) → (⟨S4096x4096x3, .f32⟩ : BufTy).Contents (Elt F)) ((subf : (⟨S4096x4096x3, .f32⟩ : BufTy).Contents (Elt F) → (⟨S4096x4096x3, .f32⟩ : BufTy).Contents (Elt F) → (⟨S4096x4096x3, .f32⟩ : BufTy).Contents (Elt F)) ((broadcastInDim S4096x4096x3 ![0, 1, 2] bcast_S1x4096x3_S4096x4096x3_0_1_2 : (⟨S1x4096x3, .f32⟩ : BufTy).Contents (Elt F) → (⟨S4096x4096x3, .f32⟩ : BufTy).Contents (Elt F)) ((broadcastInDim S1x4096x3 ![1, 2] bcast_S4096x3_S1x4096x3_1_2 : (⟨S4096x3, .f32⟩ : BufTy).Contents (Elt F) → (⟨S1x4096x3, .f32⟩ : BufTy).Contents (Elt F)) (V (Proc.devRef .tc main_arg0)))) ((broadcastInDim S4096x4096x3 ![0, 1, 2] bcast_S4096x1x3_S4096x4096x3_0_1_2 : (⟨S4096x1x3, .f32⟩ : BufTy).Contents (Elt F) → (⟨S4096x4096x3, .f32⟩ : BufTy).Contents (Elt F)) ((broadcastInDim S4096x1x3 ![0, 2] bcast_S4096x3_S4096x1x3_0_2 : (⟨S4096x3, .f32⟩ : BufTy).Contents (Elt F) → (⟨S4096x1x3, .f32⟩ : BufTy).Contents (Elt F)) (V (Proc.devRef .tc main_arg0))))) ((subf : (⟨S4096x4096x3, .f32⟩ : BufTy).Contents (Elt F) → (⟨S4096x4096x3, .f32⟩ : BufTy).Contents (Elt F) → (⟨S4096x4096x3, .f32⟩ : BufTy).Contents (Elt F)) ((broadcastInDim S4096x4096x3 ![0, 1, 2] bcast_S1x4096x3_S4096x4096x3_0_1_2 : (⟨S1x4096x3, .f32⟩ : BufTy).Contents (Elt F) → (⟨S4096x4096x3, .f32⟩ : BufTy).Contents (Elt F)) ((broadcastInDim S1x4096x3 ![1, 2] bcast_S4096x3_S1x4096x3_1_2 : (⟨S4096x3, .f32⟩ : BufTy).Contents (Elt F) → (⟨S1x4096x3, .f32⟩ : BufTy).Contents (Elt F)) (V (Proc.devRef .tc main_arg0)))) ((broadcastInDim S4096x4096x3 ![0, 1, 2] bcast_S4096x1x3_S4096x4096x3_0_1_2 : (⟨S4096x1x3, .f32⟩ : BufTy).Contents (Elt F) → (⟨S4096x4096x3, .f32⟩ : BufTy).Contents (Elt F)) ((broadcastInDim S4096x1x3 ![0, 2] bcast_S4096x3_S4096x1x3_0_2 : (⟨S4096x3, .f32⟩ : BufTy).Contents (Elt F) → (⟨S4096x1x3, .f32⟩ : BufTy).Contents (Elt F)) (V (Proc.devRef .tc main_arg0)))))) ((constant S_ .f32 0x00000000#32))))) := by
  dsimp only [g1]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 1 leaves in main_v39. -/
theorem st_main_v39 (V : Valuation τ sig (Elt F)) :
    after (g1 (F := F)) V (Proc.devRef .tc main_v39) = ((cmpi .eq : (⟨S4096x4096, .i32⟩ : BufTy).Contents (Elt F) → (⟨S4096x4096, .i32⟩ : BufTy).Contents (Elt F) → (⟨S4096x4096, .i1⟩ : BufTy).Contents (Elt F)) ((addi : (⟨S4096x4096, .i32⟩ : BufTy).Contents (Elt F) → (⟨S4096x4096, .i32⟩ : BufTy).Contents (Elt F) → (⟨S4096x4096, .i32⟩ : BufTy).Contents (Elt F)) ((iotaInDim S4096x4096 32 0)) ((broadcastInDim S4096x4096 ![] bcast_S_S4096x4096 : (⟨S_, .i32⟩ : BufTy).Contents (Elt F) → (⟨S4096x4096, .i32⟩ : BufTy).Contents (Elt F)) ((constantI S_ 32 0#32)))) ((iotaInDim S4096x4096 32 1))) := by
  dsimp only [g1]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 4 leaves in main_v59. -/
theorem st_main_v59 (V : Valuation τ sig (Elt F)) :
    after (g4 (F := F)) V (Proc.devRef .tc main_v59) = ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i1⟩ : BufTy).Contents (Elt F) → (⟨S8386560, .i1⟩ : BufTy).Contents (Elt F) → (⟨S8386560, .i1⟩ : BufTy).Contents (Elt F)) (((cmpi .slt) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 4096#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) (((broadcastInDim S8386560 ![] bcast_S_S8386560) : (⟨S_, .i32⟩ : BufTy).Contents (Elt F) → (⟨S8386560, .i32⟩ : BufTy).Contents (Elt F)) ((constantI S_ 32 0#32)))) (((broadcastInDim S8386560 ![] bcast_S_S8386560) : (⟨S_, .i1⟩ : BufTy).Contents (Elt F) → (⟨S8386560, .i1⟩ : BufTy).Contents (Elt F)) (((cmpi .slt) : (⟨S_, .i32⟩ : BufTy).Contents (Elt F) → (⟨S_, .i32⟩ : BufTy).Contents (Elt F) → (⟨S_, .i1⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))) ((constantI S_ 32 0#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 4096#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) (((broadcastInDim S8386560 ![] bcast_S_S8386560) : (⟨S_, .i32⟩ : BufTy).Contents (Elt F) → (⟨S8386560, .i32⟩ : BufTy).Contents (Elt F)) ((constantI S_ 32 0#32))))) ((addi : (⟨S8386560, .i32⟩ : BufTy).Contents (Elt F) → (⟨S8386560, .i32⟩ : BufTy).Contents (Elt F) → (⟨S8386560, .i32⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 4096#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 4096#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 4096#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32))))))) := by
  dsimp only [g4]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 5 leaves in main_v61. -/
theorem st_main_v61 (V : Valuation τ sig (Elt F)) :
    after (g5 (F := F)) V (Proc.devRef .tc main_v61) = ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i1⟩ : BufTy).Contents (Elt F) → (⟨S8386560, .i1⟩ : BufTy).Contents (Elt F) → (⟨S8386560, .i1⟩ : BufTy).Contents (Elt F)) (((cmpi .slt) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 1#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) (((broadcastInDim S8386560 ![] bcast_S_S8386560) : (⟨S_, .i32⟩ : BufTy).Contents (Elt F) → (⟨S8386560, .i32⟩ : BufTy).Contents (Elt F)) ((constantI S_ 32 0#32)))) (((broadcastInDim S8386560 ![] bcast_S_S8386560) : (⟨S_, .i1⟩ : BufTy).Contents (Elt F) → (⟨S8386560, .i1⟩ : BufTy).Contents (Elt F)) (((cmpi .slt) : (⟨S_, .i32⟩ : BufTy).Contents (Elt F) → (⟨S_, .i32⟩ : BufTy).Contents (Elt F) → (⟨S_, .i1⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))) ((constantI S_ 32 0#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 1#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) (((broadcastInDim S8386560 ![] bcast_S_S8386560) : (⟨S_, .i32⟩ : BufTy).Contents (Elt F) → (⟨S8386560, .i32⟩ : BufTy).Contents (Elt F)) ((constantI S_ 32 0#32))))) ((addi : (⟨S8386560, .i32⟩ : BufTy).Contents (Elt F) → (⟨S8386560, .i32⟩ : BufTy).Contents (Elt F) → (⟨S8386560, .i32⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 1#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32)))))) ((Host.remsi : (⟨S8386560, .i32⟩ : BufTy).Contents (Elt F) → (⟨S8386560, .i32⟩ : BufTy).Contents (Elt F) → (⟨S8386560, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((andi : (⟨S8386560, .i1⟩ : BufTy).Contents (Elt F) → (⟨S8386560, .i1⟩ : BufTy).Contents (Elt F) → (⟨S8386560, .i1⟩ : BufTy).Contents (Elt F)) (((cmpi .ne) : (⟨S8386560, .i32⟩ : BufTy).Contents (Elt F) → (⟨S8386560, .i32⟩ : BufTy).Contents (Elt F) → (⟨S8386560, .i1⟩ : BufTy).Contents (Elt F)) ((signi : (⟨S8386560, .i32⟩ : BufTy).Contents (Elt F) → (⟨S8386560, .i32⟩ : BufTy).Contents (Elt F)) (V (Proc.devRef .tc main_v57))) (((broadcastInDim S8386560 ![] bcast_S_S8386560) : (⟨S_, .i32⟩ : BufTy).Contents (Elt F) → (⟨S8386560, .i32⟩ : BufTy).Contents (Elt F)) ((signi : (⟨S_, .i32⟩ : BufTy).Contents (Elt F) → (⟨S_, .i32⟩ : BufTy).Contents (Elt F)) ((constantI S_ 32 1#32))))) (((cmpi .ne) : (⟨S8386560, .i32⟩ : BufTy).Contents (Elt F) → (⟨S8386560, .i32⟩ : BufTy).Contents (Elt F) → (⟨S8386560, .i1⟩ : BufTy).Contents (Elt F)) ((Host.remsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 0#32))))) ((subi : (⟨S8386560, .i32⟩ : BufTy).Contents (Elt F) → (⟨S8386560, .i32⟩ : BufTy).Contents (Elt F) → (⟨S8386560, .i32⟩ : BufTy).Contents (Elt F)) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32)))) (((broadcastInDim S8386560 ![] bcast_S_S8386560) : (⟨S_, .i32⟩ : BufTy).Contents (Elt F) → (⟨S8386560, .i32⟩ : BufTy).Contents (Elt F)) ((constantI S_ 32 1#32)))) ((Host.divsi : (⟨S8386560, .i32⟩ : BufTy).Contents (Elt F) → (⟨S8386560, .i32⟩ : BufTy).Contents (Elt F) → (⟨S8386560, .i32⟩ : BufTy).Contents (Elt F)) (V (Proc.devRef .tc main_v57)) (((broadcastInDim S8386560 ![] bcast_S_S8386560) : (⟨S_, .i32⟩ : BufTy).Contents (Elt F) → (⟨S8386560, .i32⟩ : BufTy).Contents (Elt F)) ((constantI S_ 32 1#32))))) (((broadcastInDim S8386560 ![] bcast_S_S8386560) : (⟨S_, .i32⟩ : BufTy).Contents (Elt F) → (⟨S8386560, .i32⟩ : BufTy).Contents (Elt F)) ((select : (⟨S_, .i1⟩ : BufTy).Contents (Elt F) → (⟨S_, .i32⟩ : BufTy).Contents (Elt F) → (⟨S_, .i32⟩ : BufTy).Contents (Elt F) → (⟨S_, .i32⟩ : BufTy).Contents (Elt F)) (((cmpi .eq) : (⟨S_, .i32⟩ : BufTy).Contents (Elt F) → (⟨S_, .i32⟩ : BufTy).Contents (Elt F) → (⟨S_, .i1⟩ : BufTy).Contents (Elt F)) ((id : (⟨S_, .i32⟩ : BufTy).Contents (Elt F) → (⟨S_, .i32⟩ : BufTy).Contents (Elt F)) ((constantI S_ 32 4096#32))) ((constantI S_ 32 0#32))) ((constantI S_ 32 1#32)) ((id : (⟨S_, .i32⟩ : BufTy).Contents (Elt F) → (⟨S_, .i32⟩ : BufTy).Contents (Elt F)) ((constantI S_ 32 4096#32))))))) := by
  dsimp only [g5]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 6 leaves in main_v78. -/
theorem st_main_v78 (V : Valuation τ sig (Elt F)) :
    after (g6 (F := F)) V (Proc.devRef .tc main_v78) = ((select : (⟨S8386560, .i1⟩ : BufTy).Contents (Elt F) → (⟨S8386560, .f32⟩ : BufTy).Contents (Elt F) → (⟨S8386560, .f32⟩ : BufTy).Contents (Elt F) → (⟨S8386560, .f32⟩ : BufTy).Contents (Elt F)) ((cmpf .ole : (⟨S8386560, .f32⟩ : BufTy).Contents (Elt F) → (⟨S8386560, .f32⟩ : BufTy).Contents (Elt F) → (⟨S8386560, .i1⟩ : BufTy).Contents (Elt F)) (((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)) (V (Proc.devRef .tc main_v41)) (((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) ((broadcastInDim S8386560 ![] bcast_S_S8386560 : (⟨S_, .f32⟩ : BufTy).Contents (Elt F) → (⟨S8386560, .f32⟩ : BufTy).Contents (Elt F)) ((constant S_ .f32 0x40A00000#32)))) (((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)) (V (Proc.devRef .tc main_v41)) (((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) (((broadcastInDim S8386560 ![] bcast_S_S8386560) : (⟨S_, .f32⟩ : BufTy).Contents (Elt F) → (⟨S8386560, .f32⟩ : BufTy).Contents (Elt F)) ((id : (⟨S_, .f32⟩ : BufTy).Contents (Elt F) → (⟨S_, .f32⟩ : BufTy).Contents (Elt F)) ((constant S_ .f32 0x3F800000#32))))) := by
  dsimp only [g6]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 6 leaves in main_v77. -/
theorem st_main_v77 (V : Valuation τ sig (Elt F)) :
    after (g6 (F := F)) V (Proc.devRef .tc main_v77) = ((cmpf .ole : (⟨S8386560, .f32⟩ : BufTy).Contents (Elt F) → (⟨S8386560, .f32⟩ : BufTy).Contents (Elt F) → (⟨S8386560, .i1⟩ : BufTy).Contents (Elt F)) (((fun x i => Host.gather gather_S4096x4096_S8386560x2_S8386560_n_01_n_n_01_1_11 x i) : (⟨S4096x4096, .f32⟩ : BufTy).Contents (Elt F) → (⟨S8386560x2, .i32⟩ : BufTy).Contents (Elt F) → (⟨S8386560, .f32⟩ : BufTy).Contents (Elt F)) (V (Proc.devRef .tc main_v41)) (((fun a b => concatenate S8386560x2 1 [⟨S8386560x1, a⟩, ⟨S8386560x1, b⟩] concatenates_S8386560x1_S8386560x1_S8386560x2_d1) : (⟨S8386560x1, .i32⟩ : BufTy).Contents (Elt F) → (⟨S8386560x1, .i32⟩ : BufTy).Contents (Elt F) → (⟨S8386560x2, .i32⟩ : BufTy).Contents (Elt F)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) ((broadcastInDim S8386560 ![] bcast_S_S8386560 : (⟨S_, .f32⟩ : BufTy).Contents (Elt F) → (⟨S8386560, .f32⟩ : BufTy).Contents (Elt F)) ((constant S_ .f32 0x40A00000#32)))) := by
  dsimp only [g6]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

end Cert.ReferenceIdeal.HandRun

end
-- ==== Proof.LibPairSum.lean ====
/-
  Three facts a pairwise-interaction sum needs when one program adds a symmetric term over all ordered pairs `i ≠ j` and
  halves the weight, while the other adds it once per unordered pair `i < j`:
  in any commutative additive monoid the off-diagonal double sum of a symmetric function is the sum over the pairs
  `i < j` taken twice; the row-major positions of the strict upper triangle of an `N × N` array are those pairs; and on
  the extended reals a quarter of `S + S` is a half of `S`, infinite `S` included.
-/
import Mathlib.Algebra.BigOperators.Fin
import Mathlib.Algebra.BigOperators.Group.Finset.Basic
import Mathlib.Data.EReal.Operations

open scoped BigOperators

namespace LibPairSum

/-- The strictly upper pairs of `Fin N × Fin N`. -/
def upper (N : Nat) : Finset (Fin N × Fin N) := Finset.univ.filter fun p => p.1 < p.2

/-- The off-diagonal double sum of a symmetric function is its sum over the pairs `i < j`, twice. -/
theorem sum_offDiag_eq_twice {N : Nat} {M : Type} [AddCommMonoid M] (h : Fin N → Fin N → M)
    (hsymm : ∀ i j, h i j = h j i) :
    ∑ i, ∑ j, (if i ≠ j then h i j else 0)
      = (∑ p ∈ upper N, h p.1 p.2) + (∑ p ∈ upper N, h p.1 p.2) := by
  have e1 : ∑ i, ∑ j, (if i ≠ j then h i j else 0)
      = ∑ p ∈ (Finset.univ : Finset (Fin N × Fin N)), (if p.1 ≠ p.2 then h p.1 p.2 else 0) := by
    rw [← Finset.univ_product_univ, Finset.sum_product]
  rw [e1, ← Finset.sum_filter]
  have hsplit : (Finset.univ : Finset (Fin N × Fin N)).filter (fun p => p.1 ≠ p.2)
      = upper N ∪ (Finset.univ.filter fun p : Fin N × Fin N => p.2 < p.1) := by
    ext p
    simp only [upper, Finset.mem_filter, Finset.mem_univ, true_and, Finset.mem_union]
    exact ⟨fun hne => lt_or_gt_of_ne hne, fun hh => hh.elim (fun a => ne_of_lt a) (fun a => (ne_of_lt a).symm)⟩
  have hdisj : Disjoint (upper N) (Finset.univ.filter fun p : Fin N × Fin N => p.2 < p.1) := by
    rw [Finset.disjoint_left]
    intro p hp hq
    simp only [upper, Finset.mem_filter, Finset.mem_univ, true_and] at hp hq
    exact absurd hp (not_lt_of_gt hq)
  rw [hsplit, Finset.sum_union hdisj]
  congr 1
  refine Finset.sum_nbij' Prod.swap Prod.swap ?_ ?_ ?_ ?_ ?_
  · intro p hp
    simp only [upper, Finset.mem_filter, Finset.mem_univ, true_and, Prod.fst_swap, Prod.snd_swap] at hp ⊢
    exact hp
  · intro p hp
    simp only [upper, Finset.mem_filter, Finset.mem_univ, true_and, Prod.fst_swap, Prod.snd_swap] at hp ⊢
    exact hp
  · intro p _; exact Prod.swap_swap p
  · intro p _; exact Prod.swap_swap p
  · intro p _; exact hsymm _ _

/-- The row-major positions of the strict upper triangle of an `N × N` array — the `q < N * N` whose row `q / N` is
    less than their column `q % N` — are the strictly upper pairs: a sum over those positions of a function of the row
    and the column is the sum over the pairs `i < j`. -/
theorem sum_triu_positions {N : Nat} {M : Type} [AddCommMonoid M] (h : Fin N → Fin N → M) (g : Nat → M)
    (hg : ∀ (i j : Fin N), g (i.val * N + j.val) = h i j) :
    ∑ q ∈ (Finset.range (N * N)).filter (fun q => q / N < q % N), g q = ∑ p ∈ upper N, h p.1 p.2 := by
  rcases Nat.eq_zero_or_pos N with hN | hN
  · subst hN
    simp [upper]
  symm
  refine Finset.sum_nbij' (fun p => p.1.val * N + p.2.val)
    (fun q => (⟨q / N % N, Nat.mod_lt _ hN⟩, ⟨q % N, Nat.mod_lt _ hN⟩)) ?_ ?_ ?_ ?_ ?_
  · intro p hp
    simp only [upper, Finset.mem_filter, Finset.mem_univ, true_and] at hp
    have h1 := p.1.isLt
    have h2 := p.2.isLt
    have hdiv : (p.1.val * N + p.2.val) / N = p.1.val := by
      rw [Nat.mul_comm, Nat.mul_add_div hN, Nat.div_eq_of_lt h2, Nat.add_zero]
    have hmod : (p.1.val * N + p.2.val) % N = p.2.val := by
      rw [Nat.mul_comm, Nat.mul_add_mod, Nat.mod_eq_of_lt h2]
    refine Finset.mem_filter.2 ⟨Finset.mem_range.2 ?_, ?_⟩
    · calc p.1.val * N + p.2.val < p.1.val * N + N := by omega
        _ = (p.1.val + 1) * N := by ring
        _ ≤ N * N := Nat.mul_le_mul_right N h1
    · rw [hdiv, hmod]
      exact hp
  · intro q hq
    obtain ⟨hq1, hq2⟩ := Finset.mem_filter.1 hq
    have hq1' := Finset.mem_range.1 hq1
    have hdl : q / N < N := Nat.div_lt_of_lt_mul hq1'
    simp only [upper, Finset.mem_filter, Finset.mem_univ, true_and]
    show (⟨q / N % N, _⟩ : Fin N) < ⟨q % N, _⟩
    rw [Fin.lt_def]
    show q / N % N < q % N
    rw [Nat.mod_eq_of_lt hdl]
    exact hq2
  · intro p _
    have h2 := p.2.isLt
    have h1 := p.1.isLt
    have hdiv : (p.1.val * N + p.2.val) / N = p.1.val := by
      rw [Nat.mul_comm, Nat.mul_add_div hN, Nat.div_eq_of_lt h2, Nat.add_zero]
    have hmod : (p.1.val * N + p.2.val) % N = p.2.val := by
      rw [Nat.mul_comm, Nat.mul_add_mod, Nat.mod_eq_of_lt h2]
    refine Prod.ext (Fin.ext ?_) (Fin.ext ?_)
    · show (p.1.val * N + p.2.val) / N % N = p.1.val
      rw [hdiv, Nat.mod_eq_of_lt h1]
    · show (p.1.val * N + p.2.val) % N = p.2.val
      exact hmod
  · intro q hq
    obtain ⟨hq1, _⟩ := Finset.mem_filter.1 hq
    have hdl : q / N < N := Nat.div_lt_of_lt_mul (Finset.mem_range.1 hq1)
    show q / N % N * N + q % N = q
    rw [Nat.mod_eq_of_lt hdl, Nat.mul_comm]
    exact Nat.div_add_mod q N
  · intro p _
    exact (hg p.1 p.2).symm

/-- Two functions that agree on the pairs `i < j` have one sum over them (the pairs written as a filter of all pairs). -/
theorem sum_upper_congr {N : Nat} {M : Type} [AddCommMonoid M] (H G : Fin N → Fin N → M)
    (hHG : ∀ i j, i < j → H i j = G i j) :
    ∑ p ∈ upper N, H p.1 p.2
      = ∑ p ∈ (Finset.univ : Finset (Fin N × Fin N)).filter (fun p => p.1 < p.2), G p.1 p.2 := by
  unfold upper
  exact Finset.sum_congr rfl fun p hp => hHG _ _ (Finset.mem_filter.1 hp).2

/-- A quarter of `S + S` is a half of `S` on the extended reals, whatever `S` is. -/
theorem quarter_add_self (S : EReal) :
    ((1 / 4 : ℝ) : EReal) * (S + S) = ((1 / 2 : ℝ) : EReal) * S := by
  induction S using EReal.rec with
  | bot =>
    rw [EReal.bot_add, EReal.coe_mul_bot_of_pos (by norm_num), EReal.coe_mul_bot_of_pos (by norm_num)]
  | coe r =>
    rw [← EReal.coe_add, ← EReal.coe_mul, ← EReal.coe_mul]
    congr 1
    ring
  | top =>
    rw [EReal.top_add_top, EReal.coe_mul_top_of_pos (by norm_num), EReal.coe_mul_top_of_pos (by norm_num)]

end LibPairSum
-- ==== Proof.RIntW.lean ====
/-
  Word arithmetic behind the pair enumeration, one element at a time: jnp's `floor_divide` and `remainder` on 32-bit
  words as the host program spells them (a truncating signed division corrected by one when the signs differ and the
  remainder is not zero; a signed remainder moved by the divisor when its sign differs from the divisor's) are the
  natural-number quotient and remainder on a non-negative dividend and a positive divisor; a sum of 0/1 words is the
  word of the count; and an `N × N` array has `N (N − 1) / 2` positions strictly above the diagonal.
-/
import Idealize.ShloMosaic.PureOps.Vector
import Mathlib.Data.BitVec
import Mathlib.Data.Nat.Count
import Mathlib.Algebra.BigOperators.Intervals
import proofs.«121872_j23974507446662_1_alg».proof.Proof.LibPairSum

open scoped BigOperators

namespace Cert.WordArith

open Idealize.ShloMosaic

theorem sdiv_ofNat (n d : Nat) (hn : n < 2^24) (hd : d < 2^24) :
    (BitVec.ofNat 32 n).sdiv (BitVec.ofNat 32 d) = BitVec.ofNat 32 (n / d) := by
  have hn' : n % 2^32 = n := Nat.mod_eq_of_lt (by omega)
  have hd' : d % 2^32 = d := Nat.mod_eq_of_lt (by omega)
  have hq : n / d < 2^24 := lt_of_le_of_lt (Nat.div_le_self _ _) hn
  have hq' : (n / d) % 2^32 = n / d := Nat.mod_eq_of_lt (by omega)
  have hx : (BitVec.ofNat 32 n).msb = false := by
    rw [BitVec.msb_eq_false_iff_two_mul_lt]; simp only [BitVec.toNat_ofNat, hn']; omega
  have hy : (BitVec.ofNat 32 d).msb = false := by
    rw [BitVec.msb_eq_false_iff_two_mul_lt]; simp only [BitVec.toNat_ofNat, hd']; omega
  rw [BitVec.sdiv_eq, hx, hy]
  apply BitVec.eq_of_toNat_eq
  simp only [BitVec.udiv_eq, BitVec.toNat_udiv, BitVec.toNat_ofNat, hn', hd', hq']

theorem srem_ofNat (n d : Nat) (hn : n < 2^24) (hd : d < 2^24) :
    (BitVec.ofNat 32 n).srem (BitVec.ofNat 32 d) = BitVec.ofNat 32 (n % d) := by
  have hn' : n % 2^32 = n := Nat.mod_eq_of_lt (by omega)
  have hd' : d % 2^32 = d := Nat.mod_eq_of_lt (by omega)
  have hr : n % d ≤ n := Nat.mod_le _ _
  have hr' : (n % d) % 2^32 = n % d := Nat.mod_eq_of_lt (by omega)
  have hx : (BitVec.ofNat 32 n).msb = false := by
    rw [BitVec.msb_eq_false_iff_two_mul_lt]; simp only [BitVec.toNat_ofNat, hn']; omega
  have hy : (BitVec.ofNat 32 d).msb = false := by
    rw [BitVec.msb_eq_false_iff_two_mul_lt]; simp only [BitVec.toNat_ofNat, hd']; omega
  rw [BitVec.srem_eq, hx, hy]
  apply BitVec.eq_of_toNat_eq
  simp only [BitVec.umod_eq, BitVec.toNat_umod, BitVec.toNat_ofNat, hn', hd', hr']

/-- A word below 2²⁴ is zero only for the number zero. -/
theorem ofNat_eq_zero_iff (n : Nat) (hn : n < 2^24) : BitVec.ofNat 32 n = (0 : BitVec 32) ↔ n = 0 := by
  constructor
  · intro h
    have h2 : (BitVec.ofNat 32 n).toNat = (0#32 : BitVec 32).toNat := congrArg BitVec.toNat h
    rw [BitVec.toNat_ofNat, show (0#32 : BitVec 32).toNat = 0 from rfl] at h2
    omega
  · rintro rfl; rfl

theorem msb_ofNat (n : Nat) (hn : n < 2^24) : (BitVec.ofNat 32 n).msb = false := by
  rw [BitVec.msb_eq_false_iff_two_mul_lt]
  simp only [BitVec.toNat_ofNat]
  omega

/-- A word below 2²⁴ read signed is the number. -/
theorem toInt_ofNat_small (n : Nat) (hn : n < 2^24) : (BitVec.ofNat 32 n).toInt = (n : Int) := by
  rw [BitVec.toInt_eq_toNat_of_msb (msb_ofNat n hn), BitVec.toNat_ofNat, Nat.mod_eq_of_lt (by omega)]

theorem not_corner (n d : Nat) (hd0 : 0 < d) (hd : d < 2^24) :
    ¬ IntOp.SDivCorner (BitVec.ofNat 32 n) (BitVec.ofNat 32 d) := by
  unfold IntOp.SDivCorner
  rintro (h | ⟨_, h⟩)
  · exact absurd ((ofNat_eq_zero_iff d hd).1 h) (by omega)
  · have h2 := congrArg BitVec.toNat h
    rw [BitVec.toNat_ofNat, show ((-1 : BitVec 32)).toNat = 4294967295 from by decide] at h2
    omega

/-- The sign word of one element, as the host spells `sign` on integers. -/
def sgn (x : BitVec 32) : BitVec 32 := if x = 0 then 0 else if x.msb then -1 else 1

/-- jnp's `floor_divide` on one element. -/
def floorDivW (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- jnp's `remainder` on one element (the divisor first replaced by one if it is zero). -/
def remW (y d : BitVec 32) : BitVec 32 :=
  Scalar.select
    (IntOp.andi
      (IntOp.cmpi .ne (IntOp.cmpi .slt (IntOp.remsi .host y (Scalar.select (IntOp.cmpi .eq d 0#32) 1#32 d)) 0#32)
        (IntOp.cmpi .slt (Scalar.select (IntOp.cmpi .eq d 0#32) 1#32 d) 0#32))
      (IntOp.cmpi .ne (IntOp.remsi .host y (Scalar.select (IntOp.cmpi .eq d 0#32) 1#32 d)) 0#32))
    (IntOp.addi (IntOp.remsi .host y (Scalar.select (IntOp.cmpi .eq d 0#32) 1#32 d)) (Scalar.select (IntOp.cmpi .eq d 0#32) 1#32 d))
    (IntOp.remsi .host y (Scalar.select (IntOp.cmpi .eq d 0#32) 1#32 d))

theorem floorDivW_ofNat (n d : Nat) (hn : n < 2^24) (hd0 : 0 < d) (hd : d < 2^24) :
    floorDivW (BitVec.ofNat 32 n) (BitVec.ofNat 32 d) = BitVec.ofNat 32 (n / d) := by
  unfold floorDivW IntOp.divsi IntOp.remsi
  simp only [if_neg (not_corner n d hd0 hd), sdiv_ofNat n d hn hd, srem_ofNat n d hn hd]
  have hsd : sgn (BitVec.ofNat 32 d) = 1 := by
    unfold sgn
    rw [if_neg (show ¬ BitVec.ofNat 32 d = 0 from fun h => by have := (ofNat_eq_zero_iff d hd).1 h; omega), msb_ofNat d hd]
    rfl
  rw [hsd]
  by_cases h0 : n = 0
  · subst h0
    rw [Nat.zero_mod, Nat.zero_div]
    have : IntOp.cmpi .ne (BitVec.ofNat 32 0) (0#32 : BitVec 32) = 0#1 := by decide
    rw [this]
    have : ∀ b : BitVec 1, IntOp.andi b 0#1 = 0#1 := by decide
    rw [this]
    rfl
  · have hsn : sgn (BitVec.ofNat 32 n) = 1 := by
      unfold sgn
      rw [if_neg (show ¬ BitVec.ofNat 32 n = 0 from fun h => h0 ((ofNat_eq_zero_iff n hn).1 h)), msb_ofNat n hn]
      rfl
    rw [hsn]
    have : IntOp.cmpi .ne (1 : BitVec 32) 1 = 0#1 := by decide
    rw [this]
    have : ∀ b : BitVec 1, IntOp.andi 0#1 b = 0#1 := by decide
    rw [this]
    rfl

theorem remW_ofNat (t : Nat) (ht : t < 2^24) :
    remW (BitVec.ofNat 32 t) 4096#32 = BitVec.ofNat 32 (t % 4096) := by
  unfold remW
  have hd' : Scalar.select (IntOp.cmpi .eq (4096#32 : BitVec 32) 0#32) 1#32 4096#32 = BitVec.ofNat 32 4096 := by decide
  rw [hd']
  unfold IntOp.remsi
  simp only [if_neg (not_corner t 4096 (by norm_num) (by norm_num)), srem_ofNat t 4096 ht (by norm_num)]
  have hr : t % 4096 < 2^24 := lt_of_lt_of_le (Nat.mod_lt _ (by norm_num)) (by norm_num)
  have h1 : IntOp.cmpi .slt (BitVec.ofNat 32 (t % 4096)) 0#32 = 0#1 := by
    unfold IntOp.cmpi
    show BitVec.ofBool ((BitVec.ofNat 32 (t % 4096)).slt 0#32) = 0#1
    have : (BitVec.ofNat 32 (t % 4096)).slt 0#32 = false := by
      rw [BitVec.slt_eq_decide]
      have hm : (BitVec.ofNat 32 (t % 4096)).toInt = ((t % 4096 : Nat) : Int) := by
        rw [BitVec.toInt_eq_toNat_of_msb (msb_ofNat _ hr)]
        simp only [BitVec.toNat_ofNat]
        congr 1
        exact Nat.mod_eq_of_lt (by omega)
      simp only [hm, BitVec.toInt_zero]
      exact decide_eq_false (by omega)
    rw [this]; rfl
  have h2 : IntOp.cmpi .slt (BitVec.ofNat 32 4096) 0#32 = 0#1 := by decide
  rw [h1, h2]
  have : IntOp.cmpi .ne (0#1) (0#1) = 0#1 := by decide
  rw [this]
  have : ∀ b : BitVec 1, IntOp.andi 0#1 b = 0#1 := by decide
  rw [this]
  rfl

/-- A sum of 0/1 words is the word of the count. -/
theorem sum_bits (m : Nat → Prop) [DecidablePred m] (n : Nat) :
    ∑ q ∈ Finset.range n, (if m q then (1#32 : BitVec 32) else 0#32) = BitVec.ofNat 32 (Nat.count m n) := by
  induction n with
  | zero => rfl
  | succ n ih =>
    rw [Finset.sum_range_succ, ih, Nat.count_succ]
    by_cases hm : m n
    · rw [if_pos hm, if_pos hm]
      apply BitVec.eq_of_toNat_eq
      simp only [BitVec.toNat_add, BitVec.toNat_ofNat]
      omega
    · rw [if_neg hm, if_neg hm, Nat.add_zero]
      exact BitVec.add_zero _

/-- The strict upper triangle of an `N × N` array has `N (N − 1) / 2` entries: twice their number is `N (N − 1)`. -/
theorem card_upper_mul_two (N : Nat) : (LibPairSum.upper N).card * 2 = N * (N - 1) := by
  have h1 : (LibPairSum.upper N).card = ∑ j : Fin N, j.val := by
    rw [Finset.card_eq_sum_card_fiberwise (s := LibPairSum.upper N) (t := Finset.univ) (f := fun p => p.2)
      (fun _ _ => Finset.mem_univ _)]
    refine Finset.sum_congr rfl fun j _ => ?_
    have : ((LibPairSum.upper N).filter fun p => p.2 = j) = (Finset.univ.filter fun i : Fin N => i < j).map
        ⟨fun i => (i, j), fun a b h => (Prod.mk.inj h).1⟩ := by
      ext p
      simp only [LibPairSum.upper, Finset.mem_filter, Finset.mem_univ, true_and, Finset.mem_map,
        Function.Embedding.coeFn_mk]
      constructor
      · rintro ⟨hlt, rfl⟩; exact ⟨p.1, hlt, rfl⟩
      · rintro ⟨i, hi, rfl⟩; exact ⟨hi, rfl⟩
    rw [this, Finset.card_map]
    have hI : (Finset.univ.filter fun i : Fin N => i < j) = Finset.Iio j := by
      ext i; simp
    rw [hI, Fin.card_Iio]
  rw [h1, Fin.sum_univ_eq_sum_range (fun j => j) N, Finset.sum_range_id_mul_two]

end Cert.WordArith
-- ==== Proof.RInt4.lean ====
/-
  The pairs' rows and columns. From the flat position `n` of a pair (a word below 2²⁴) the reference takes the row as
  floor_divide by 4096 then remainder by 4096, and the column as floor_divide by 1 then remainder by 4096: the words of
  `n / 4096` and `n % 4096`.
-/
import proofs.«121872_j23974507446662_1_alg».proof.Proof.RStageA
import proofs.«121872_j23974507446662_1_alg».proof.Proof.RIntW
import Idealize.ShloMosaic.Lib.ValueIdx

noncomputable section

namespace Cert.ReferenceIdeal.HandInt

open Cert.ReferenceIdeal Cert.ReferenceIdeal.Gen Cert.ReferenceIdeal.HandRun Idealize.ShloMosaic Idealize.ShloMosaic.TcCoe
  Idealize.ShloMosaic.StableHlo Idealize.ShloMosaic.ValueIdx

variable {F : FTy → Type} [FloatOps F]

/-- The row of pair `k`. -/
theorem v59_read (V : Valuation τ sig (Elt F)) (k : Fin 8386560) (n : Nat) (hn : n < 2^24)
    (h57 : V (Proc.devRef .tc main_v57) (ix1 k) = BitVec.ofNat 32 n) :
    after (g4 (F := F)) V (Proc.devRef .tc main_v59) (ix1 k) = BitVec.ofNat 32 (n / 4096 % 4096) := by
  rw [st_main_v59]
  show WordArith.remW (WordArith.floorDivW (V (Proc.devRef .tc main_v57) (ix1 k)) 4096#32) 4096#32 = _
  rw [h57, show (4096#32 : BitVec 32) = BitVec.ofNat 32 4096 from rfl,
    WordArith.floorDivW_ofNat n 4096 hn (by norm_num) (by norm_num)]
  exact WordArith.remW_ofNat (n / 4096) (lt_of_le_of_lt (Nat.div_le_self _ _) hn)

/-- The column of pair `k`. -/
theorem v61_read (V : Valuation τ sig (Elt F)) (k : Fin 8386560) (n : Nat) (hn : n < 2^24)
    (h57 : V (Proc.devRef .tc main_v57) (ix1 k) = BitVec.ofNat 32 n) :
    after (g5 (F := F)) V (Proc.devRef .tc main_v61) (ix1 k) = BitVec.ofNat 32 (n % 4096) := by
  rw [st_main_v61]
  show WordArith.remW (WordArith.floorDivW (V (Proc.devRef .tc main_v57) (ix1 k)) 1#32) 4096#32 = _
  rw [h57, show (1#32 : BitVec 32) = BitVec.ofNat 32 1 from rfl,
    WordArith.floorDivW_ofNat n 1 hn (by norm_num) (by norm_num), Nat.div_one]
  exact WordArith.remW_ofNat n hn

end Cert.ReferenceIdeal.HandInt
-- ==== Proof.LibNthCount.lean ====
/-
  The arithmetic behind `jnp.nonzero` (and `triu_indices`, `argwhere`, … which call it) as jax writes it with a static
  size: the positions of the set entries of a 0/1 mask of length `N` are computed as
  `cumsum (bincount (cumsum mask))`. With `c q` the number of set entries at positions `≤ q` (the inner `cumsum`) the
  histogram's bin `v` counts the positions `q` with `c q = v`, and the outer `cumsum` at `k` is therefore the number of
  positions `q < N` with `c q ≤ k`. That number is the position of the `k`-th set entry (counting from zero), `Nat.nth`:
  exactly the positions before the `k`-th set entry have seen at most `k` set entries. Summing any function along these
  positions, `k` below the number of set entries, is summing it over the set positions.
-/
import Mathlib.Data.Nat.Nth
import Mathlib.Algebra.BigOperators.Group.Finset.Basic

open scoped BigOperators
open Finset

namespace LibNthCount

variable (p : ℕ → Prop) [DecidablePred p]

/-- Below the number of set entries before `N`, `Nat.nth`'s finiteness side condition holds. -/
theorem lt_card_of_lt_count {N k : ℕ} (hk : k < Nat.count p N) :
    ∀ hf : (Set.ofPred p).Finite, k < #hf.toFinset :=
  fun hf => lt_of_lt_of_le hk (Nat.count_le_card hf N)

/-- The positions that have seen at most `k` set entries (themselves included) are those before the `k`-th set entry. -/
theorem filter_count_le_eq {N k : ℕ} (hk : k < Nat.count p N) :
    (range N).filter (fun q => Nat.count p (q + 1) ≤ k) = range (Nat.nth p k) := by
  have hlt : Nat.nth p k < N := Nat.nth_lt_of_lt_count hk
  have hmem : p (Nat.nth p k) := Nat.nth_mem k (lt_card_of_lt_count p hk)
  have hcnt : Nat.count p (Nat.nth p k) = k := Nat.count_nth (lt_card_of_lt_count p hk)
  ext q
  simp only [mem_filter, mem_range]
  constructor
  · rintro ⟨_, hq⟩
    by_contra hge
    have hle : Nat.nth p k + 1 ≤ q + 1 := by omega
    have h1 : Nat.count p (Nat.nth p k + 1) ≤ Nat.count p (q + 1) := Nat.count_monotone p hle
    rw [Nat.count_succ, if_pos hmem, hcnt] at h1
    omega
  · intro hq
    exact ⟨by omega, Nat.le_nth_of_count_le (by omega : q + 1 ≤ Nat.nth p k)⟩

/-- The outer `cumsum` of the histogram at `k`: the number of positions below `N` that have seen at most `k` set
    entries is the position of the `k`-th set entry. -/
theorem card_filter_count_le {N k : ℕ} (hk : k < Nat.count p N) :
    #((range N).filter fun q => Nat.count p (q + 1) ≤ k) = Nat.nth p k := by
  rw [filter_count_le_eq p hk, card_range]

/-- A histogram summed over its bins `0 … k` counts the positions whose value is at most `k`. -/
theorem sum_card_fiber (f : ℕ → ℕ) (N k : ℕ) :
    ∑ v ∈ range (k + 1), #((range N).filter fun q => f q = v) = #((range N).filter fun q => f q ≤ k) := by
  rw [card_eq_sum_card_fiberwise (s := (range N).filter fun q => f q ≤ k) (t := range (k + 1)) (f := f)
    (fun q hq => mem_range.2 (Nat.lt_succ_of_le (mem_filter.1 hq).2))]
  refine sum_congr rfl fun v hv => ?_
  congr 1
  ext q
  simp only [mem_filter, mem_range]
  have := mem_range.1 hv
  constructor
  · rintro ⟨hq, rfl⟩; exact ⟨⟨hq, by omega⟩, rfl⟩
  · rintro ⟨⟨hq, _⟩, hv'⟩; exact ⟨hq, hv'⟩

/-- `cumsum (bincount (cumsum mask))` at `k`, in the naturals: the position of the `k`-th set entry. -/
theorem nonzero_position {N k : ℕ} (hk : k < Nat.count p N) :
    ∑ v ∈ range (k + 1), #((range N).filter fun q => Nat.count p (q + 1) = v) = Nat.nth p k := by
  rw [sum_card_fiber, card_filter_count_le p hk]

/-- A sum along the positions of the set entries, in their order, is the sum over the set positions. -/
theorem sum_nth {M : Type} [AddCommMonoid M] (h : ℕ → M) (N : ℕ) :
    ∑ k ∈ range (Nat.count p N), h (Nat.nth p k) = ∑ q ∈ (range N).filter p, h q := by
  refine sum_nbij' (Nat.nth p) (Nat.count p) ?_ ?_ ?_ ?_ ?_
  · intro k hk
    have hk' := mem_range.1 hk
    exact mem_filter.2 ⟨mem_range.2 (Nat.nth_lt_of_lt_count hk'), Nat.nth_mem k (lt_card_of_lt_count p hk')⟩
  · intro q hq
    obtain ⟨hq1, hq2⟩ := mem_filter.1 hq
    exact mem_range.2 (Nat.count_strict_mono hq2 (mem_range.1 hq1))
  · intro k hk
    exact Nat.count_nth (lt_card_of_lt_count p (mem_range.1 hk))
  · intro q hq
    exact Nat.nth_count (mem_filter.1 hq).2
  · intro k _
    rfl

end LibNthCount
-- ==== Proof.LibCumsum.lean ====
/-
  jax's `cumsum` of an integer vector as a host program spells it: a `reduce_window` by integer addition whose window is
  the whole vector, at stride one, the vector padded on the low side by its length less one. Read at an index it is the
  prefix sum: entry `j` of the result is the sum of the entries `0 … j` of the operand (in the word arithmetic of the
  element type, where addition is associative and commutative, so the order inside the window is immaterial).
-/
import Idealize.ShloMosaic.PureOps.Contract
import Idealize.ShloMosaic.PureOps.Reduce
import Idealize.ShloMosaic.Lib.ValueIdx
import Mathlib.Algebra.BigOperators.Intervals
import Mathlib.Data.BitVec

open scoped BigOperators

namespace Idealize.ShloMosaic.LibCumsum

open Idealize.ShloMosaic Idealize.ShloMosaic.ValueIdx

/-- A left fold that adds one term per list element is the starting value plus the sum of the terms. -/
theorem foldl_add_eq {β M : Type} [AddCommMonoid M] (g : β → M) (l : List β) (v : M) :
    l.foldl (fun r k => r + g k) v = v + (l.map g).sum := by
  induction l generalizing v with
  | nil => simp
  | cons a l ih => rw [List.foldl_cons, ih, List.map_cons, List.sum_cons, add_assoc]

/-- A rank-1 index is its one coordinate. -/
def idxEquiv1 (n : Nat) : Fin n ≃ (⟨1, ![n]⟩ : Shape).Idx where
  toFun := ix1
  invFun i := i 0
  left_inv _ := rfl
  right_inv i := (eq_ix1 i).symm

/-- The operand read at a natural-number position, zero past its end. -/
def at0 {w n : Nat} (x : (⟨1, ![n]⟩ : Shape).Idx → BitVec w) (q : Nat) : BitVec w :=
  if hq : q < n then x (ix1 ⟨q, hq⟩) else 0

/-- Window position `m` of the window that ends at `j` holds entry `j + m - lo` of the operand when `lo ≤ j + m`, and
    padding (zero) before that; summed over the window's `lo + 1` positions this is the sum of the entries `0 … j`. -/
theorem window_sum {M : Type} [AddCommMonoid M] (X : Nat → M) (n lo j : Nat) (hlo : lo + 1 = n) (hj : j < n) :
    ∑ m ∈ Finset.range n, (if lo ≤ j + m then X (j + m - lo) else 0) = ∑ q ∈ Finset.range (j + 1), X q := by
  rw [← Finset.sum_filter]
  have hset : (Finset.range n).filter (fun m => lo ≤ j + m) = Finset.Ico (lo - j) n := by
    ext m
    simp only [Finset.mem_filter, Finset.mem_range, Finset.mem_Ico]
    omega
  rw [hset, Finset.sum_Ico_eq_sum_range]
  have hlen : n - (lo - j) = j + 1 := by omega
  rw [hlen]
  refine Finset.sum_congr rfl fun q hq => ?_
  have : j + (lo - j + q) - lo = q := by
    have := Finset.mem_range.1 hq
    omega
  rw [this]

/-- jax's `cumsum` read at an index: a `reduce_window` by integer addition over a vector of length `n = lo + 1`, window `n`,
    stride one, low padding `lo`, from the initial value zero, holds at `j` the sum of the operand's entries `0 … j`. -/
theorem cumsum_apply {w n lo : Nat} (hlo : lo + 1 = n)
    (x : (⟨1, ![n]⟩ : Shape).Idx → BitVec w) (init : (⟨0, ![]⟩ : Shape).Idx → BitVec w)
    (h : (⟨1, ![n]⟩ : Shape).ReduceWindows ![n] ![1] ![lo] ![0] ⟨1, ![n]⟩)
    (hu : 0 < (⟨0, ![]⟩ : Shape).numel)
    (hinit : init (Shape.Idx.first hu) = 0) (j : Fin n) :
    Host.reduceWindow (s := ⟨1, ![n]⟩) IntOp.addi ![n] ![1] ![lo] ![0] x init h hu (ix1 j)
      = ∑ q ∈ Finset.range (j.val + 1), at0 x q := by
  unfold Host.reduceWindow
  dsimp only
  rw [hinit, IntOp.addi_eq_add]
  dsimp only
  rw [foldl_add_eq, zero_add, ← Fin.sum_univ_def]
  rw [← Equiv.sum_comp ((idxEquiv1 n).trans (⟨1, ![n]⟩ : Shape).rowMajor)]
  rw [← window_sum (at0 x) n lo j.val hlo j.isLt,
    ← Fin.sum_univ_eq_sum_range (fun m => if lo ≤ j.val + m then at0 x (j.val + m - lo) else 0) n]
  refine Finset.sum_congr rfl fun i _ => ?_
  simp only [Equiv.trans_apply, Equiv.symm_apply_apply]
  have hj := j.isLt
  have hi := i.isLt
  split_ifs with hin hc hc
  · unfold at0
    rw [dif_pos (by omega : j.val + i.val - lo < n)]
    congr 1
    funext a
    match a with
    | ⟨0, _⟩ =>
      apply Fin.ext
      show j.val * 1 + i.val - lo = j.val + i.val - lo
      omega
  · exfalso
    have h0 := (hin 0).1
    change lo ≤ j.val * 1 + i.val at h0
    omega
  · exfalso
    refine hin fun a => ?_
    match a with
    | ⟨0, _⟩ =>
      show lo ≤ j.val * 1 + i.val ∧ j.val * 1 + i.val - lo < n
      constructor <;> omega
  · rfl

end Idealize.ShloMosaic.LibCumsum
-- ==== Proof.RInt2.lean ====
/-
  The strict-upper mask and its running count. The reference marks the positions above the diagonal of a 4096 × 4096
  array (row index compared with column index, then a float select between 0 and 1 compared with 0), flattens the mask
  row-major and takes its cumulative sum: at flat position `q` the result is the number of positions `q' ≤ q` whose
  row `q' / 4096` is less than their column `q' % 4096`.
-/
import proofs.«121872_j23974507446662_1_alg».proof.Proof.Gen.ReferenceIdeal
import proofs.«121872_j23974507446662_1_alg».proof.Proof.LibCumsum
import proofs.«121872_j23974507446662_1_alg».proof.Proof.RIntW
import Idealize.ShloMosaic.Lib.Pipeline.Value
import Idealize.ShloMosaic.PureOps.Ideal.Laws

noncomputable section

open scoped BigOperators

namespace Cert.ReferenceIdeal.HandInt

open Cert.ReferenceIdeal Cert.ReferenceIdeal.Gen Idealize.ShloMosaic Idealize.ShloMosaic.ValueIdx

/-- Flat position `q` of the 4096 × 4096 array lies strictly above the diagonal. -/
def upperPos (q : Nat) : Prop := q / 4096 < q % 4096
instance : DecidablePred upperPos := fun q => inferInstanceAs (Decidable (q / 4096 < q % 4096))

/-- There are 8386560 = 4096 · 4095 / 2 positions above the diagonal. -/
theorem count_upperPos : Nat.count upperPos 16777216 = 8386560 := by
  show Nat.count upperPos (4096 * 4096) = 8386560
  have h1 : Nat.count upperPos (4096 * 4096) = ((Finset.range (4096 * 4096)).filter upperPos).card :=
    Nat.count_eq_card_filter_range _ _
  have h2 : ((Finset.range (4096 * 4096)).filter upperPos).card = (LibPairSum.upper 4096).card := by
    rw [Finset.card_eq_sum_ones, Finset.card_eq_sum_ones]
    exact LibPairSum.sum_triu_positions (N := 4096) (fun _ _ => 1) (fun _ => 1) (fun _ _ => rfl)
  have h3 := WordArith.card_upper_mul_two 4096
  omega

/-- The one and the zero word are different extended reals. -/
theorem one_ne_zero' : (Ideal.ofBits .f32 0x3F800000#32 : EReal) ≠ Ideal.ofBits .f32 0x00000000#32 := by
  have h1 : (Ideal.ofBits .f32 0x3F800000#32 : EReal) = 1 := by
    simp [Ideal.ofBits, Ideal.ieee, -EReal.coe_mul]; norm_num
  rw [h1, Ideal.ofBits_zero_f32]
  exact one_ne_zero

/-- The mask as the program builds it. -/
def maskArr : IVec S4096x4096 1 :=
  cmpf (F := Ideal) .une
    (select (cmpi .sge (addi (iotaInDim S4096x4096 32 0) (broadcastInDim S4096x4096 ![] bcast_S_S4096x4096 (constantI S_ 32 0#32))) (iotaInDim S4096x4096 32 1))
      (broadcastInDim S4096x4096 ![] bcast_S_S4096x4096 (constant (F := Ideal) S_ .f32 0x00000000#32))
      (broadcastInDim S4096x4096 ![] bcast_S_S4096x4096 (constant (F := Ideal) S_ .f32 0x3F800000#32)))
    (broadcastInDim S4096x4096 ![] bcast_S_S4096x4096 (constant (F := Ideal) S_ .f32 0x00000000#32))

theorem maskArr_apply (a b : Fin 4096) : maskArr (ix2 a b) = if a < b then 1#1 else 0#1 := by
  show Ideal.cmp .une (Scalar.select (IntOp.cmpi .sge (IntOp.addi (BitVec.ofNat 32 a.val) 0#32) (BitVec.ofNat 32 b.val))
      (Ideal.ofBits .f32 0x00000000#32) (Ideal.ofBits .f32 0x3F800000#32)) (Ideal.ofBits .f32 0x00000000#32) = _
  have ha := a.isLt
  have hb := b.isLt
  have hadd : IntOp.addi (BitVec.ofNat 32 a.val) 0#32 = BitVec.ofNat 32 a.val := BitVec.add_zero _
  rw [hadd]
  have hsge : IntOp.cmpi .sge (BitVec.ofNat 32 a.val) (BitVec.ofNat 32 b.val) = if a < b then 0#1 else 1#1 := by
    show BitVec.ofBool ((BitVec.ofNat 32 b.val).sle (BitVec.ofNat 32 a.val)) = _
    rw [BitVec.sle_eq_decide, WordArith.toInt_ofNat_small _ (by omega), WordArith.toInt_ofNat_small _ (by omega)]
    by_cases hab : a < b
    · rw [if_pos hab, decide_eq_false (by rw [Fin.lt_def] at hab; omega)]; rfl
    · rw [if_neg hab, decide_eq_true (by rw [Fin.lt_def] at hab; omega)]; rfl
  rw [hsge]
  by_cases hab : a < b
  · rw [if_pos hab, if_pos hab, ValueIdx.select_zero]
    unfold Ideal.cmp
    simp only [ne_eq, one_ne_zero', not_false_eq_true, decide_true]
    rfl
  · rw [if_neg hab, if_neg hab, ValueIdx.select_one]
    unfold Ideal.cmp
    simp only [ne_eq, not_true_eq_false, decide_false]
    rfl

/-- The running count of the flattened mask, as the program computes it: at flat position `q` the number of
    positions up to `q` above the diagonal. -/
theorem cumsum_mask (init : S_.Idx → BitVec 32) (hinit : init (Shape.Idx.first h_S_) = 0) (q : Fin 16777216) :
    Host.reduceWindow IntOp.addi ![16777216] ![1] ![16777215] ![0]
        (extui 32 (shapeCast S16777216 maskArr shapeCasts_S4096x4096_S16777216) natLt_1_32) init
        reduceWindows_S16777216_S16777216_w16777216s1p16777215_0 h_S_ (ix1 q)
      = BitVec.ofNat 32 (Nat.count upperPos (q.val + 1)) := by
  rw [LibCumsum.cumsum_apply (by norm_num) _ _ _ _ hinit q, ← WordArith.sum_bits]
  refine Finset.sum_congr rfl fun q' hq' => ?_
  have hq1 := Finset.mem_range.1 hq'
  have hq2 := q.isLt
  have hq'' : q' < 16777216 := by omega
  unfold LibCumsum.at0
  rw [dif_pos hq'']
  have hdiv : q' / 4096 < 4096 := Nat.div_lt_of_lt_mul (by omega)
  have hmod : q' % 4096 < 4096 := Nat.mod_lt _ (by norm_num)
  show (shapeCast S16777216 maskArr shapeCasts_S4096x4096_S16777216 (ix1 ⟨q', hq''⟩)).setWidth 32 = _
  rw [shapeCast_apply maskArr shapeCasts_S4096x4096_S16777216 (ix1 ⟨q', hq''⟩) (ix2 ⟨q' / 4096, hdiv⟩ ⟨q' % 4096, hmod⟩)
    (by rw [Shape.rowMajor_val_two, Shape.rowMajor_val_one]
        show q' / 4096 * 4096 + q' % 4096 = q'
        exact Nat.div_add_mod' q' 4096)]
  rw [maskArr_apply]
  by_cases hu : upperPos q'
  · rw [if_pos hu, if_pos (show (⟨q' / 4096, hdiv⟩ : Fin 4096) < ⟨q' % 4096, hmod⟩ from hu)]; rfl
  · rw [if_neg hu, if_neg (show ¬ (⟨q' / 4096, hdiv⟩ : Fin 4096) < ⟨q' % 4096, hmod⟩ from hu)]; rfl

end Cert.ReferenceIdeal.HandInt
-- ==== Proof.LibScatterSum.lean ====
/-
  An accumulating scatter read at an index. A host `scatter` whose body adds the update to the operand's element — what
  `x.at[idx].add(v)`, `bincount` and `segment_sum` lower to — takes the update indices one after the other and adds each
  update at the operand index it lands on, dropping those that land outside. Addition being associative and commutative,
  the element at an operand index `i` ends as the operand's element plus the sum of all updates that land on `i`,
  whatever the dimension numbers and shapes are. For unit updates this is a count: `bincount`.
-/
import Idealize.ShloMosaic.PureOps.ShapeOps
import Idealize.ShloMosaic.PureOps.Reduce
import Mathlib.Algebra.BigOperators.Fin
import Mathlib.Data.BitVec

open scoped BigOperators

namespace Idealize.ShloMosaic.LibScatterSum

open Idealize.ShloMosaic

variable {s si u : Shape} {w : Nat} {M : Type} [AddCommMonoid M]

/-- The fold of the scatter's step over any list of update positions, read at an operand index: what was there plus
    the updates of the listed positions that land on it. -/
theorem foldl_step_apply (d : ScatterDims s si u) (idx : IVec si w) (upd : u.Idx → M)
    (l : List (Fin u.numel)) (r : s.Idx → M) (i : s.Idx) :
    (l.foldl (fun r n =>
        match d.resultIdx? (u.rowMajor.symm n) idx with
        | some i0 => fun i' => if i' = i0 then r i0 + upd (u.rowMajor.symm n) else r i'
        | none => r) r) i
      = r i + (l.map fun n =>
          if d.resultIdx? (u.rowMajor.symm n) idx = some i then upd (u.rowMajor.symm n) else 0).sum := by
  induction l generalizing r with
  | nil => simp
  | cons n l ih =>
    rw [List.foldl_cons, ih, List.map_cons, List.sum_cons, ← add_assoc]
    congr 1
    cases hloc : d.resultIdx? (u.rowMajor.symm n) idx with
    | none => simp
    | some i0 =>
      dsimp only
      by_cases hi : i = i0
      · subst hi
        simp
      · have hne : ¬ (some i0 = some i) := fun h => hi (Option.some.inj h).symm
        rw [if_neg hi, if_neg hne, add_zero]

/-- An accumulating scatter read at an operand index: the operand's element plus the sum of the updates landing there. -/
theorem scatter_add_apply (d : ScatterDims s si u) (x : s.Idx → M) (idx : IVec si w) (upd : u.Idx → M) (i : s.Idx) :
    Host.scatter d (fun a b => a + b) x idx upd i
      = x i + ∑ j : u.Idx, (if d.resultIdx? j idx = some i then upd j else 0) := by
  unfold Host.scatter
  refine (foldl_step_apply d idx upd _ x i).trans ?_
  congr 1
  rw [← Fin.sum_univ_def]
  exact Equiv.sum_comp u.rowMajor.symm (fun j => if d.resultIdx? j idx = some i then upd j else 0)

/-- The same for the integer addition a printed host program names. -/
theorem scatter_addi_apply {v : Nat} (d : ScatterDims s si u) (x : s.Idx → BitVec v) (idx : IVec si w)
    (upd : u.Idx → BitVec v) (i : s.Idx) :
    Host.scatter d IntOp.addi x idx upd i
      = x i + ∑ j : u.Idx, (if d.resultIdx? j idx = some i then upd j else 0) := by
  rw [IntOp.addi_eq_add]
  exact scatter_add_apply d x idx upd i

end Idealize.ShloMosaic.LibScatterSum
-- ==== Proof.RInt3.lean ====
/-
  The histogram and its running sum. The running count `c q` of the mask (never negative, at most 8386560) is clamped
  at zero and wrapped if negative — both leave it as it is —, then every flat position adds one to bin `c q` of a
  histogram with 8386560 bins (a count equal to 8386560 falls outside and is dropped), and the histogram's cumulative
  sum at `k` is therefore the number of positions whose count is at most `k`: the flat position of the `k`-th position
  above the diagonal.
-/
import proofs.«121872_j23974507446662_1_alg».proof.Proof.RInt2
import proofs.«121872_j23974507446662_1_alg».proof.Proof.LibScatterSum
import proofs.«121872_j23974507446662_1_alg».proof.Proof.LibNthCount

noncomputable section

open scoped BigOperators

namespace Cert.ReferenceIdeal.HandInt

open Cert.ReferenceIdeal Cert.ReferenceIdeal.Gen Idealize.ShloMosaic Idealize.ShloMosaic.ValueIdx

/-- The running count is at most the number of positions above the diagonal. -/
theorem count_le (q : Fin 16777216) : Nat.count upperPos (q.val + 1) ≤ 8386560 := by
  rw [← count_upperPos]
  exact Nat.count_monotone _ (by have := q.isLt; omega)

/-- Clamping a non-negative count word at zero and wrapping it if negative leave it as it is. -/
theorem normalize_count (n : Nat) (hn : n < 2^24) :
    Scalar.select (IntOp.cmpi .slt (IntOp.maxsi 0#32 (BitVec.ofNat 32 n)) 0#32)
        (IntOp.addi (IntOp.maxsi 0#32 (BitVec.ofNat 32 n)) 8386560#32) (IntOp.maxsi 0#32 (BitVec.ofNat 32 n))
      = BitVec.ofNat 32 n := by
  have hslt : (BitVec.ofNat 32 n).slt 0#32 = false := by
    rw [BitVec.slt_eq_decide, WordArith.toInt_ofNat_small n hn]
    exact decide_eq_false (by simp)
  have hmax : IntOp.maxsi 0#32 (BitVec.ofNat 32 n) = BitVec.ofNat 32 n := by
    unfold IntOp.maxsi
    rw [hslt]
    rfl
  rw [hmax]
  have : IntOp.cmpi .slt (BitVec.ofNat 32 n) 0#32 = 0#1 := by
    show BitVec.ofBool ((BitVec.ofNat 32 n).slt 0#32) = 0#1
    rw [hslt]; rfl
  rw [this, ValueIdx.select_zero]

/-- Where update `q` of the histogram's scatter lands: bin `t` when its index word, read signed, is `t` with
    `0 ≤ t < 8386560`, nowhere otherwise. -/
theorem bincount_lands (idx : IVec S16777216x1 32) (q : Fin 16777216) (v : Fin 8386560) :
    scatter_S8386560_S16777216x1_S16777216_n_0_0_1.resultIdx? (ix1 q) idx = some (ix1 v)
      ↔ (idx (ix2 q 0)).toInt = (v.val : Int) := by
  have hstart : scatter_S8386560_S16777216x1_S16777216_n_0_0_1.start (ix1 q) idx (0 : Fin 1) = (idx (ix2 q 0)).toInt := by
    unfold ScatterDims.start
    rw [dif_pos (by decide)]
    congr 2
    funext b
    match b with
    | ⟨0, _⟩ => exact Fin.ext rfl
    | ⟨1, _⟩ => exact Fin.ext rfl
  have hwin : scatter_S8386560_S16777216x1_S16777216_n_0_0_1.window (ix1 q) (0 : Fin 1) = 0 := by
    unfold ScatterDims.window
    rw [dif_neg (by decide)]
  have hv := v.isLt
  unfold ScatterDims.resultIdx?
  constructor
  · intro h
    split at h
    · rename_i hc
      have h0 := hc 0
      rw [hstart, hwin] at h0
      have hf := congrFun (Option.some.inj h) (0 : Fin 1)
      have hval := congrArg Fin.val hf
      simp only [hstart, hwin] at hval
      change ((idx (ix2 q 0)).toInt + ((0 : Nat) : Int)).toNat = v.val at hval
      omega
    · exact absurd h (by simp)
  · intro ht
    have hc : ∀ a : Fin 1, 0 ≤ scatter_S8386560_S16777216x1_S16777216_n_0_0_1.start (ix1 q) idx a + (scatter_S8386560_S16777216x1_S16777216_n_0_0_1.window (ix1 q) a : Int)
        ∧ scatter_S8386560_S16777216x1_S16777216_n_0_0_1.start (ix1 q) idx a + (scatter_S8386560_S16777216x1_S16777216_n_0_0_1.window (ix1 q) a : Int) < (S8386560.size a : Int) := by
      intro a
      match a with
      | ⟨0, _⟩ =>
        show 0 ≤ scatter_S8386560_S16777216x1_S16777216_n_0_0_1.start (ix1 q) idx 0 + (scatter_S8386560_S16777216x1_S16777216_n_0_0_1.window (ix1 q) 0 : Int)
          ∧ scatter_S8386560_S16777216x1_S16777216_n_0_0_1.start (ix1 q) idx 0 + (scatter_S8386560_S16777216x1_S16777216_n_0_0_1.window (ix1 q) 0 : Int) < ((8386560 : Nat) : Int)
        rw [hstart, hwin, ht]
        constructor <;> omega
    rw [dif_pos hc]
    congr 1
    funext a
    match a with
    | ⟨0, _⟩ =>
      apply Fin.ext
      show (scatter_S8386560_S16777216x1_S16777216_n_0_0_1.start (ix1 q) idx 0 + (scatter_S8386560_S16777216x1_S16777216_n_0_0_1.window (ix1 q) 0 : Int)).toNat = v.val
      rw [hstart, hwin, ht]
      omega

/-- A sum of number words is the word of the sum. -/
theorem sum_ofNat (f : Nat → Nat) (n : Nat) :
    ∑ v ∈ Finset.range n, BitVec.ofNat 32 (f v) = BitVec.ofNat 32 (∑ v ∈ Finset.range n, f v) := by
  induction n with
  | zero => rfl
  | succ n ih =>
    rw [Finset.sum_range_succ, Finset.sum_range_succ, ih]
    apply BitVec.eq_of_toNat_eq
    simp only [BitVec.toNat_add, BitVec.toNat_ofNat]
    omega

/-- The histogram of the normalized running counts, then its cumulative sum, as the program computes them from a
    count array `cnt` holding at every flat position the number of positions above the diagonal up to it: at `k` the
    flat position of the `k`-th position above the diagonal. -/
theorem nonzero_flat (cnt : IVec S16777216 32) (hcnt : ∀ q : Fin 16777216, cnt (ix1 q) = BitVec.ofNat 32 (Nat.count upperPos (q.val + 1)))
    (init : S_.Idx → BitVec 32) (hinit : init (Shape.Idx.first h_S_) = 0) (k : Fin 8386560) :
    Host.reduceWindow IntOp.addi ![8386560] ![1] ![8386559] ![0]
        (Host.scatter scatter_S8386560_S16777216x1_S16777216_n_0_0_1 IntOp.addi
          (broadcastInDim S8386560 ![] bcast_S_S8386560 (constantI S_ 32 0#32))
          (broadcastInDim S16777216x1 ![0] bcast_S16777216_S16777216x1_0
            (select (cmpi .slt (maxsi (broadcastInDim S16777216 ![] bcast_S_S16777216 (constantI S_ 32 0#32)) cnt)
                (broadcastInDim S16777216 ![] bcast_S_S16777216 (constantI S_ 32 0#32)))
              (addi (maxsi (broadcastInDim S16777216 ![] bcast_S_S16777216 (constantI S_ 32 0#32)) cnt)
                (broadcastInDim S16777216 ![] bcast_S_S16777216 (constantI S_ 32 8386560#32)))
              (maxsi (broadcastInDim S16777216 ![] bcast_S_S16777216 (constantI S_ 32 0#32)) cnt)))
          (broadcastInDim S16777216 ![] bcast_S_S16777216 (constantI S_ 32 1#32)))
        init reduceWindows_S8386560_S8386560_w8386560s1p8386559_0 h_S_ (ix1 k)
      = BitVec.ofNat 32 (Nat.nth upperPos k.val) := by
  rw [LibCumsum.cumsum_apply (by norm_num) _ _ _ _ hinit k]
  have hk := k.isLt
  have hbin : ∀ v : Nat, v < 8386560 → LibCumsum.at0 (Host.scatter scatter_S8386560_S16777216x1_S16777216_n_0_0_1 IntOp.addi
          (broadcastInDim S8386560 ![] bcast_S_S8386560 (constantI S_ 32 0#32))
          (broadcastInDim S16777216x1 ![0] bcast_S16777216_S16777216x1_0
            (select (cmpi .slt (maxsi (broadcastInDim S16777216 ![] bcast_S_S16777216 (constantI S_ 32 0#32)) cnt)
                (broadcastInDim S16777216 ![] bcast_S_S16777216 (constantI S_ 32 0#32)))
              (addi (maxsi (broadcastInDim S16777216 ![] bcast_S_S16777216 (constantI S_ 32 0#32)) cnt)
                (broadcastInDim S16777216 ![] bcast_S_S16777216 (constantI S_ 32 8386560#32)))
              (maxsi (broadcastInDim S16777216 ![] bcast_S_S16777216 (constantI S_ 32 0#32)) cnt)))
          (broadcastInDim S16777216 ![] bcast_S_S16777216 (constantI S_ 32 1#32))) v
        = BitVec.ofNat 32 ((Finset.range 16777216).filter fun q => Nat.count upperPos (q + 1) = v).card := by
    intro v hv
    unfold LibCumsum.at0
    rw [dif_pos hv, LibScatterSum.scatter_addi_apply]
    rw [show (broadcastInDim S8386560 ![] bcast_S_S8386560 (constantI S_ 32 0#32)) (ix1 ⟨v, hv⟩) = (0 : BitVec 32) from rfl, zero_add]
    rw [← Equiv.sum_comp (LibCumsum.idxEquiv1 16777216)]
    rw [← Nat.count_eq_card_filter_range, ← WordArith.sum_bits,
      ← Fin.sum_univ_eq_sum_range (fun q => if Nat.count upperPos (q + 1) = v then (1#32 : BitVec 32) else 0#32) 16777216]
    refine Finset.sum_congr rfl fun q _ => ?_
    show (if scatter_S8386560_S16777216x1_S16777216_n_0_0_1.resultIdx? (ix1 q) _ = some (ix1 ⟨v, hv⟩) then (1#32 : BitVec 32) else 0) = _
    have hc24 : Nat.count upperPos (q.val + 1) < 2^24 := lt_of_le_of_lt (count_le q) (by norm_num)
    have hidx : (broadcastInDim S16777216x1 ![0] bcast_S16777216_S16777216x1_0
            (select (cmpi .slt (maxsi (broadcastInDim S16777216 ![] bcast_S_S16777216 (constantI S_ 32 0#32)) cnt)
                (broadcastInDim S16777216 ![] bcast_S_S16777216 (constantI S_ 32 0#32)))
              (addi (maxsi (broadcastInDim S16777216 ![] bcast_S_S16777216 (constantI S_ 32 0#32)) cnt)
                (broadcastInDim S16777216 ![] bcast_S_S16777216 (constantI S_ 32 8386560#32)))
              (maxsi (broadcastInDim S16777216 ![] bcast_S_S16777216 (constantI S_ 32 0#32)) cnt))) (ix2 q 0)
        = BitVec.ofNat 32 (Nat.count upperPos (q.val + 1)) := by
      rw [broadcastInDim_apply _ _ _ _ (ix1 q) (fun a => by match a with | ⟨0, _⟩ => rfl)]
      show Scalar.select (IntOp.cmpi .slt (IntOp.maxsi 0#32 (cnt (ix1 q))) 0#32)
        (IntOp.addi (IntOp.maxsi 0#32 (cnt (ix1 q))) 8386560#32) (IntOp.maxsi 0#32 (cnt (ix1 q))) = _
      rw [hcnt q]
      exact normalize_count _ hc24
    by_cases hcv : Nat.count upperPos (q.val + 1) = v
    · rw [if_pos hcv, if_pos ((bincount_lands _ q ⟨v, hv⟩).2 (by rw [hidx, WordArith.toInt_ofNat_small _ hc24, hcv]))]
    · rw [if_neg hcv, if_neg (fun h => hcv (by
        have := (bincount_lands _ q ⟨v, hv⟩).1 h
        rw [hidx, WordArith.toInt_ofNat_small _ hc24] at this
        exact_mod_cast this))]
      rfl
  rw [Finset.sum_congr rfl (fun v hv => hbin v (by have := Finset.mem_range.1 hv; omega)), sum_ofNat,
    LibNthCount.nonzero_position upperPos (N := 16777216) (k := k.val) (by rw [count_upperPos]; exact hk)]

end Cert.ReferenceIdeal.HandInt
-- ==== Proof.RInt5a.lean ====
/-
  The running count of the mask, as the reference's mask stretch leaves it.  The stretch builds the mask with
  eighteen elementwise operations and ends with one cumulative sum; read after the eighteen, the cumulative sum's
  operand is the flattened mask as words and its initial value is zero, so its result at flat position `q` is the
  number of positions above the diagonal up to `q`.
-/
import proofs.«121872_j23974507446662_1_alg».proof.Proof.RSeg
import proofs.«121872_j23974507446662_1_alg».proof.Proof.RInt2

noncomputable section

namespace Cert.ReferenceIdeal.HandInt

open Cert.ReferenceIdeal Cert.ReferenceIdeal.Gen Cert.ReferenceIdeal.HandRun Idealize.ShloMosaic Idealize.ShloMosaic.TcCoe
  Idealize.ShloMosaic.StableHlo Idealize.ShloMosaic.ValueIdx

/-- The cumulative sum along the 16777216 flat positions, as the program spells it. -/
def cumsum24 (x : IVec S16777216 32) (init : S_.Idx → BitVec 32) : IVec S16777216 32 :=
  Host.reduceWindow IntOp.addi ![16777216] ![1] ![16777215] ![0] x init
    reduceWindows_S16777216_S16777216_w16777216s1p16777215_0 h_S_

section Split
variable {F : FTy → Type} [FloatOps F]

set_option maxHeartbeats 40000000 in
/-- The mask stretch without its last operation. -/
abbrev g2a : List (HloOp τ sig (Elt F)) :=
  [ StableHlo.nullary main_cst_1 (constant S_ .f32 0x3F800000#32),
    StableHlo.unary main_cst_1 main_v42 (broadcastInDim S4096x4096 ![] bcast_S_S4096x4096 : (⟨S_, .f32⟩ : BufTy).Contents (Elt F) → (⟨S4096x4096, .f32⟩ : BufTy).Contents (Elt F)),
    StableHlo.TRef.nullary (.of main_call1_v0 : StableHlo.TRef sig ⟨S4096x4096, .i32⟩) (iotaInDim S4096x4096 32 0),
    StableHlo.TRef.nullary (.of main_call1_c : StableHlo.TRef sig ⟨S_, .i32⟩) (constantI S_ 32 0#32),
    StableHlo.TRef.unary (.of main_call1_c : StableHlo.TRef sig ⟨S_, .i32⟩) (.of main_call1_v1 : StableHlo.TRef sig ⟨S4096x4096, .i32⟩) (broadcastInDim S4096x4096 ![] bcast_S_S4096x4096),
    StableHlo.TRef.binary (.of main_call1_v0 : StableHlo.TRef sig ⟨S4096x4096, .i32⟩) (.of main_call1_v1 : StableHlo.TRef sig ⟨S4096x4096, .i32⟩) (.of main_call1_v2 : StableHlo.TRef sig ⟨S4096x4096, .i32⟩) addi,
    StableHlo.TRef.nullary (.of main_call1_v3 : StableHlo.TRef sig ⟨S4096x4096, .i32⟩) (iotaInDim S4096x4096 32 1),
    StableHlo.TRef.binary (.of main_call1_v2 : StableHlo.TRef sig ⟨S4096x4096, .i32⟩) (.of main_call1_v3 : StableHlo.TRef sig ⟨S4096x4096, .i32⟩) (.of main_call1_v4 : StableHlo.TRef sig ⟨S4096x4096, .i1⟩) (cmpi .sge),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v5 : StableHlo.TRef sig ⟨S4096x4096, .f32⟩) (broadcastInDim S4096x4096 ![] bcast_S_S4096x4096),
    StableHlo.TRef.ternary (.of main_call1_v4 : StableHlo.TRef sig ⟨S4096x4096, .i1⟩) (.of main_call1_v5 : StableHlo.TRef sig ⟨S4096x4096, .f32⟩) (.of main_v42 : StableHlo.TRef sig ⟨S4096x4096, .f32⟩) (.of main_v43 : StableHlo.TRef sig ⟨S4096x4096, .f32⟩) select,
    StableHlo.nullary main_cst_2 (constant S_ .f32 0x00000000#32),
    StableHlo.unary main_cst_2 main_v44 (broadcastInDim S4096x4096 ![] bcast_S_S4096x4096 : (⟨S_, .f32⟩ : BufTy).Contents (Elt F) → (⟨S4096x4096, .f32⟩ : BufTy).Contents (Elt F)),
    StableHlo.binary main_v43 main_v44 main_v45 (cmpf .une : (⟨S4096x4096, .f32⟩ : BufTy).Contents (Elt F) → (⟨S4096x4096, .f32⟩ : BufTy).Contents (Elt F) → (⟨S4096x4096, .i1⟩ : BufTy).Contents (Elt F)),
    StableHlo.TRef.reshape (.of main_v45 : StableHlo.TRef sig ⟨S4096x4096, .i1⟩) (.of main_call2_v0 : StableHlo.TRef sig ⟨S16777216, .i1⟩) rfl shapeCasts_S4096x4096_S16777216,
    StableHlo.TRef.unary (.of main_call2_v0 : StableHlo.TRef sig ⟨S16777216, .i1⟩) (.of main_call2_v1 : StableHlo.TRef sig ⟨S16777216, .i32⟩) (extui 32 · natLt_1_32),
    StableHlo.TRef.nullary (.of main_call2_call0_c : StableHlo.TRef sig ⟨S_, .i32⟩) (constantI S_ 32 0#32),
    StableHlo.TRef.unary (.of main_call2_call0_c : StableHlo.TRef sig ⟨S_, .i32⟩) (.of main_call2_call0_v0 : StableHlo.TRef sig ⟨S_, .i32⟩) (broadcastInDim S_ ![] bcast_S_S_) ]

/-- The last operation of the mask stretch: the cumulative sum. -/
abbrev g2w : List (HloOp τ sig (Elt F)) :=
  [ StableHlo.TRef.binary (.of main_call2_v1 : StableHlo.TRef sig ⟨S16777216, .i32⟩) (.of main_call2_call0_v0 : StableHlo.TRef sig ⟨S_, .i32⟩) (.of main_v46 : StableHlo.TRef sig ⟨S16777216, .i32⟩) cumsum24 ]

set_option maxHeartbeats 40000000 in
theorem g2_split : (g2 (F := F)) = g2a ++ g2w := rfl

end Split

set_option maxHeartbeats 40000000 in
/-- After the eighteen operations the cumulative sum's operand is the flattened mask, as words. -/
theorem g2a_mask (V : Valuation τ sig (Elt Ideal)) :
    after (g2a (F := Ideal)) V (Proc.devRef .tc main_call2_v1)
      = extui 32 (shapeCast S16777216 maskArr shapeCasts_S4096x4096_S16777216) natLt_1_32 := by
  dsimp only [g2a]
  after_results_simp
  simp only [TRef.toBuf, TRef.ofBuf, cast_eq]
  rfl

set_option maxHeartbeats 40000000 in
/-- … and its initial value is the zero word. -/
theorem g2a_init (V : Valuation τ sig (Elt Ideal)) :
    after (g2a (F := Ideal)) V (Proc.devRef .tc main_call2_call0_v0)
      = broadcastInDim S_ ![] bcast_S_S_ (constantI S_ 32 0#32) := by
  dsimp only [g2a]
  after_results_simp
  simp only [TRef.toBuf, TRef.ofBuf, cast_eq]

/-- The cumulative sum of any operand equal to the flattened mask from any initial value equal to zero. -/
theorem cumsum24_of_eq (x : IVec S16777216 32) (init : S_.Idx → BitVec 32)
    (hx : x = extui 32 (shapeCast S16777216 maskArr shapeCasts_S4096x4096_S16777216) natLt_1_32)
    (hi : init = broadcastInDim S_ ![] bcast_S_S_ (constantI S_ 32 0#32)) (q : Fin 16777216) :
    cumsum24 x init (ix1 q) = BitVec.ofNat 32 (Nat.count upperPos (q.val + 1)) := by
  subst hx hi
  unfold cumsum24
  exact cumsum_mask _ rfl q

attribute [irreducible] cumsum24

/-- The cumulative sum's result, from the buffers before it. -/
theorem g2w_read (W : Valuation τ sig (Elt Ideal)) :
    after (g2w (F := Ideal)) W (Proc.devRef .tc main_v46)
      = cumsum24 (W (Proc.devRef .tc main_call2_v1)) (W (Proc.devRef .tc main_call2_call0_v0)) := by
  dsimp only [g2w]
  after_results
  simp only [TRef.toBuf, TRef.ofBuf, cast_eq]

/-- After the mask stretch the count buffer holds, at flat position `q`, the number of positions above the diagonal
    up to `q`. -/
theorem v46_read (V : Valuation τ sig (Elt Ideal)) (q : Fin 16777216) :
    after (g2 (F := Ideal)) V (Proc.devRef .tc main_v46) (ix1 q) = BitVec.ofNat 32 (Nat.count upperPos (q.val + 1)) := by
  have e1 := g2a_mask V
  have e0 := g2a_init V
  rw [g2_split, HandRun.after_append]
  generalize after (g2a (F := Ideal)) V = W at e1 e0 ⊢
  rw [g2w_read W]
  exact cumsum24_of_eq _ _ e1 e0 q

end Cert.ReferenceIdeal.HandInt

end
-- ==== Proof.RInt5.lean ====
/-
  The flat positions of the pairs, as the reference's histogram stretch leaves them.  The stretch normalizes the running
  counts with sixteen elementwise operations, scatters a one into the bin of every count, prepares the zero initial
  value and ends with a cumulative sum of the histogram.  Read operation by operation — the scatter and the cumulative
  sum each from the buffers before it — the result at `k` is the flat position of the `k`-th position above the diagonal.
-/
import proofs.«121872_j23974507446662_1_alg».proof.Proof.RSeg
import proofs.«121872_j23974507446662_1_alg».proof.Proof.RInt3
import proofs.«121872_j23974507446662_1_alg».proof.Proof.RInt5a

noncomputable section

namespace Cert.ReferenceIdeal.HandInt

open Cert.ReferenceIdeal Cert.ReferenceIdeal.Gen Cert.ReferenceIdeal.HandRun Idealize.ShloMosaic Idealize.ShloMosaic.TcCoe
  Idealize.ShloMosaic.StableHlo Idealize.ShloMosaic.ValueIdx

/-- The cumulative sum along the 8386560 bins, as the program spells it. -/
def cumsum23 (x : IVec S8386560 32) (init : S_.Idx → BitVec 32) : IVec S8386560 32 :=
  Host.reduceWindow IntOp.addi ![8386560] ![1] ![8386559] ![0] x init
    reduceWindows_S8386560_S8386560_w8386560s1p8386559_0 h_S_

section Split
variable {F : FTy → Type} [FloatOps F]

set_option maxHeartbeats 40000000 in
/-- The histogram stretch up to the scatter's operands. -/
abbrev g3a : List (HloOp τ sig (Elt F)) :=
  [ StableHlo.nullary main_c_3 (constantI S_ 32 0#32),
    StableHlo.unary main_c_3 main_v47 (broadcastInDim S8386560 ![] bcast_S_S8386560 : (⟨S_, .i32⟩ : BufTy).Contents (Elt F) → (⟨S8386560, .i32⟩ : BufTy).Contents (Elt F)),
    StableHlo.nullary main_c_4 (constantI S_ 32 0#32),
    StableHlo.TRef.unary (.of main_c_4 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S16777216, .i32⟩) (broadcastInDim S16777216 ![] bcast_S_S16777216),
    StableHlo.TRef.binary (.of main_call3_v1 : StableHlo.TRef sig ⟨S16777216, .i32⟩) (.of main_v46 : StableHlo.TRef sig ⟨S16777216, .i32⟩) (.of main_v48 : StableHlo.TRef sig ⟨S16777216, .i32⟩) maxsi,
    StableHlo.nullary main_c_5 (constantI S_ 32 0#32),
    StableHlo.unary main_c_5 main_v49 (broadcastInDim S16777216 ![] bcast_S_S16777216 : (⟨S_, .i32⟩ : BufTy).Contents (Elt F) → (⟨S16777216, .i32⟩ : BufTy).Contents (Elt F)),
    StableHlo.binary main_v48 main_v49 main_v50 (cmpi .slt : (⟨S16777216, .i32⟩ : BufTy).Contents (Elt F) → (⟨S16777216, .i32⟩ : BufTy).Contents (Elt F) → (⟨S16777216, .i1⟩ : BufTy).Contents (Elt F)),
    StableHlo.nullary main_c_6 (constantI S_ 32 8386560#32),
    StableHlo.unary main_c_6 main_v51 (broadcastInDim S16777216 ![] bcast_S_S16777216 : (⟨S_, .i32⟩ : BufTy).Contents (Elt F) → (⟨S16777216, .i32⟩ : BufTy).Contents (Elt F)),
    StableHlo.binary main_v48 main_v51 main_v52 (addi : (⟨S16777216, .i32⟩ : BufTy).Contents (Elt F) → (⟨S16777216, .i32⟩ : BufTy).Contents (Elt F) → (⟨S16777216, .i32⟩ : BufTy).Contents (Elt F)),
    StableHlo.ternary main_v50 main_v52 main_v48 main_v53 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v53 main_v54 (broadcastInDim S16777216x1 ![0] bcast_S16777216_S16777216x1_0 : (⟨S16777216, .i32⟩ : BufTy).Contents (Elt F) → (⟨S16777216x1, .i32⟩ : BufTy).Contents (Elt F)),
    StableHlo.nullary main_c_7 (constantI S_ 32 1#32),
    StableHlo.unary main_c_7 main_v55 (broadcastInDim S16777216 ![] bcast_S_S16777216 : (⟨S_, .i32⟩ : BufTy).Contents (Elt F) → (⟨S16777216, .i32⟩ : BufTy).Contents (Elt F)) ]

/-- The scatter. -/
abbrev g3s : List (HloOp τ sig (Elt F)) :=
  [ StableHlo.ternary main_v47 main_v54 main_v55 main_v56 ((fun x i u => Host.scatter scatter_S8386560_S16777216x1_S16777216_n_0_0_1 IntOp.addi x i u) : (⟨S8386560, .i32⟩ : BufTy).Contents (Elt F) → (⟨S16777216x1, .i32⟩ : BufTy).Contents (Elt F) → (⟨S16777216, .i32⟩ : BufTy).Contents (Elt F) → (⟨S8386560, .i32⟩ : BufTy).Contents (Elt F)) ]

/-- The cumulative sum's initial value. -/
abbrev g3b : List (HloOp τ sig (Elt F)) :=
  [ StableHlo.TRef.nullary (.of main_call4_call0_c : StableHlo.TRef sig ⟨S_, .i32⟩) (constantI S_ 32 0#32),
    StableHlo.TRef.unary (.of main_call4_call0_c : StableHlo.TRef sig ⟨S_, .i32⟩) (.of main_call4_call0_v0 : StableHlo.TRef sig ⟨S_, .i32⟩) (broadcastInDim S_ ![] bcast_S_S_) ]

/-- The cumulative sum. -/
abbrev g3w : List (HloOp τ sig (Elt F)) :=
  [ StableHlo.TRef.binary (.of main_v56 : StableHlo.TRef sig ⟨S8386560, .i32⟩) (.of main_call4_call0_v0 : StableHlo.TRef sig ⟨S_, .i32⟩) (.of main_v57 : StableHlo.TRef sig ⟨S8386560, .i32⟩) cumsum23 ]

set_option maxHeartbeats 40000000 in
theorem g3_split : (g3 (F := F)) = g3a ++ (g3s ++ (g3b ++ g3w)) := rfl

end Split

set_option maxHeartbeats 40000000 in
/-- The scatter's operand: the empty histogram. -/
theorem g3a_zero (V : Valuation τ sig (Elt Ideal)) :
    after (g3a (F := Ideal)) V (Proc.devRef .tc main_v47) = broadcastInDim S8386560 ![] bcast_S_S8386560 (constantI S_ 32 0#32) := by
  dsimp only [g3a]
  after_results_simp

set_option maxHeartbeats 40000000 in
/-- The scatter's indices: the normalized running counts, as a column. -/
theorem g3a_idx (V : Valuation τ sig (Elt Ideal)) :
    after (g3a (F := Ideal)) V (Proc.devRef .tc main_v54) = (broadcastInDim S16777216x1 ![0] bcast_S16777216_S16777216x1_0
            (select (cmpi .slt (maxsi (broadcastInDim S16777216 ![] bcast_S_S16777216 (constantI S_ 32 0#32)) (V (Proc.devRef .tc main_v46)))
                (broadcastInDim S16777216 ![] bcast_S_S16777216 (constantI S_ 32 0#32)))
              (addi (maxsi (broadcastInDim S16777216 ![] bcast_S_S16777216 (constantI S_ 32 0#32)) (V (Proc.devRef .tc main_v46)))
                (broadcastInDim S16777216 ![] bcast_S_S16777216 (constantI S_ 32 8386560#32)))
              (maxsi (broadcastInDim S16777216 ![] bcast_S_S16777216 (constantI S_ 32 0#32)) (V (Proc.devRef .tc main_v46))))) := by
  dsimp only [g3a]
  after_results_simp
  simp only [TRef.toBuf, TRef.ofBuf, cast_eq]
  try rfl

set_option maxHeartbeats 40000000 in
/-- The scatter's updates: ones. -/
theorem g3a_ones (V : Valuation τ sig (Elt Ideal)) :
    after (g3a (F := Ideal)) V (Proc.devRef .tc main_v55) = broadcastInDim S16777216 ![] bcast_S_S16777216 (constantI S_ 32 1#32) := by
  dsimp only [g3a]
  after_results_simp

/-- The scatter's result, from the buffers before it. -/
theorem g3s_read (W : Valuation τ sig (Elt Ideal)) :
    after (g3s (F := Ideal)) W (Proc.devRef .tc main_v56)
      = Host.scatter scatter_S8386560_S16777216x1_S16777216_n_0_0_1 IntOp.addi (W (Proc.devRef .tc main_v47))
          (W (Proc.devRef .tc main_v54)) (W (Proc.devRef .tc main_v55)) := by
  dsimp only [g3s]
  after_results

/-- The two operations after the scatter leave the histogram as it is … -/
theorem g3b_keep (W : Valuation τ sig (Elt Ideal)) :
    after (g3b (F := Ideal)) W (Proc.devRef .tc main_v56) = W (Proc.devRef .tc main_v56) := by
  dsimp only [g3b]
  after_results

/-- … and make the zero initial value. -/
theorem g3b_init (W : Valuation τ sig (Elt Ideal)) :
    after (g3b (F := Ideal)) W (Proc.devRef .tc main_call4_call0_v0) = broadcastInDim S_ ![] bcast_S_S_ (constantI S_ 32 0#32) := by
  dsimp only [g3b]
  after_results_simp
  simp only [TRef.toBuf, TRef.ofBuf, cast_eq]
  try rfl

/-- The cumulative sum of any histogram equal to the scatter of ones at the normalized counts, from any initial value
    equal to zero. -/
theorem nonzero_of_eq (cnt : IVec S16777216 32)
    (hcnt : ∀ q : Fin 16777216, cnt (ix1 q) = BitVec.ofNat 32 (Nat.count upperPos (q.val + 1)))
    (y x : IVec S8386560 32) (idx : IVec S16777216x1 32) (upd : IVec S16777216 32) (init : S_.Idx → BitVec 32)
    (hy : y = Host.scatter scatter_S8386560_S16777216x1_S16777216_n_0_0_1 IntOp.addi x idx upd)
    (hx : x = broadcastInDim S8386560 ![] bcast_S_S8386560 (constantI S_ 32 0#32))
    (hidx : idx = (broadcastInDim S16777216x1 ![0] bcast_S16777216_S16777216x1_0
            (select (cmpi .slt (maxsi (broadcastInDim S16777216 ![] bcast_S_S16777216 (constantI S_ 32 0#32)) cnt)
                (broadcastInDim S16777216 ![] bcast_S_S16777216 (constantI S_ 32 0#32)))
              (addi (maxsi (broadcastInDim S16777216 ![] bcast_S_S16777216 (constantI S_ 32 0#32)) cnt)
                (broadcastInDim S16777216 ![] bcast_S_S16777216 (constantI S_ 32 8386560#32)))
              (maxsi (broadcastInDim S16777216 ![] bcast_S_S16777216 (constantI S_ 32 0#32)) cnt))))
    (hupd : upd = broadcastInDim S16777216 ![] bcast_S_S16777216 (constantI S_ 32 1#32))
    (hi : init = broadcastInDim S_ ![] bcast_S_S_ (constantI S_ 32 0#32)) (k : Fin 8386560) :
    cumsum23 y init (ix1 k) = BitVec.ofNat 32 (Nat.nth upperPos k.val) := by
  have h := nonzero_flat cnt hcnt (broadcastInDim S_ ![] bcast_S_S_ (constantI S_ 32 0#32)) rfl k
  rw [hy, hx, hidx, hupd, hi]
  unfold cumsum23
  exact h

attribute [irreducible] cumsum23

/-- The cumulative sum's result, from the buffers before it. -/
theorem g3w_read (W : Valuation τ sig (Elt Ideal)) :
    after (g3w (F := Ideal)) W (Proc.devRef .tc main_v57)
      = cumsum23 (W (Proc.devRef .tc main_v56)) (W (Proc.devRef .tc main_call4_call0_v0)) := by
  dsimp only [g3w]
  after_results
  simp only [TRef.toBuf, TRef.ofBuf, cast_eq]

/-- After the histogram stretch the flat-position buffer holds, at `k`, the flat position of the `k`-th position above
    the diagonal. -/
theorem v57_read (V : Valuation τ sig (Elt Ideal))
    (h46 : ∀ q : Fin 16777216, V (Proc.devRef .tc main_v46) (ix1 q) = BitVec.ofNat 32 (Nat.count upperPos (q.val + 1)))
    (k : Fin 8386560) :
    after (g3 (F := Ideal)) V (Proc.devRef .tc main_v57) (ix1 k) = BitVec.ofNat 32 (Nat.nth upperPos k.val) := by
  have eA := g3a_zero V
  have eB := g3a_idx V
  have eC := g3a_ones V
  rw [g3_split, HandRun.after_append, HandRun.after_append, HandRun.after_append]
  generalize after (g3a (F := Ideal)) V = W1 at eA eB eC ⊢
  have eS := g3s_read W1
  generalize after (g3s (F := Ideal)) W1 = W2 at eS ⊢
  have eK := g3b_keep W2
  have eI := g3b_init W2
  generalize after (g3b (F := Ideal)) W2 = W3 at eK eI ⊢
  rw [g3w_read W3]
  exact nonzero_of_eq (V (Proc.devRef .tc main_v46)) h46 _ _ _ _ _ (eK.trans eS) eA eB eC eI k

/-- The flat position of a pair is below 2²⁴. -/
theorem nth_lt (k : Fin 8386560) : Nat.nth upperPos k.val < 16777216 :=
  Nat.nth_lt_of_lt_count (by rw [count_upperPos]; exact k.isLt)

/-- The flat position of a pair lies above the diagonal. -/
theorem nth_upper (k : Fin 8386560) : upperPos (Nat.nth upperPos k.val) :=
  Nat.nth_mem k.val (LibNthCount.lt_card_of_lt_count upperPos (N := 16777216) (by rw [count_upperPos]; exact k.isLt))

end Cert.ReferenceIdeal.HandInt

end
-- ==== Proof.RDistLayout.lean ====
/-
  Layout operations of the reference program read at an index given by coordinates: a column of a matrix taken as a
  vector; the coordinate array broadcast along a new leading axis and along a new middle axis; a vector broadcast as the
  rows of a square matrix; the host's float sum over the last axis of a rank-3 array, over the columns of a matrix and
  over a vector, each as the initial value plus a finite sum over that axis's coordinate; and the identity mask's word:
  the 32-bit words of two coordinates below 4096 are equal exactly when the coordinates are.
-/
import Idealize.ShloMosaic.Lib.Pipeline.Value
import Idealize.ShloMosaic.Lib.ValueLayout
import Idealize.ShloMosaic.Lib.IdealHost

noncomputable section

open scoped BigOperators

namespace Cert.ReferenceIdeal.HandEmb

open Idealize.ShloMosaic Idealize.ShloMosaic.ValueIdx

variable {α : Type}

/-- Column `o` of an `a × b` array, cut out as an `a × 1` column and cast to a vector of `a` entries, holds at `i` the
    array's entry `(i, o)`: the cast keeps the row-major position `i`, and the cut shifts the column by `o`. -/
theorem column_apply {a b : ℕ} (o : ℕ) (x : (⟨2, ![a, b]⟩ : Shape).Idx → α)
    (hs : (⟨2, ![a, b]⟩ : Shape).Slices ![0, o] ⟨2, ![a, 1]⟩) (hc : (⟨2, ![a, 1]⟩ : Shape).ShapeCasts ⟨1, ![a]⟩)
    (i : Fin a) (k : Fin b) (hk : k.val = o) :
    shapeCast ⟨1, ![a]⟩ (extractStridedSlice ⟨2, ![a, 1]⟩ ![0, o] x hs) hc (ix1 i) = x (ix2 i k) := by
  refine (shapeCast_apply _ hc (ix1 i) (ix2 i (0 : Fin 1)) ?_).trans ?_
  · rw [Shape.rowMajor_val_two, Shape.rowMajor_val_one]
    show i.val * 1 + 0 = i.val
    omega
  · exact slice2_axis1_apply o x hs i (0 : Fin 1) k (by rw [hk]; rfl)

/-- The coordinates with a new leading axis, repeated over it: entry `(i, j, k)` is atom `j`'s coordinate `k`. -/
theorem bcast_lead_apply (x : (⟨2, ![4096, 3]⟩ : Shape).Idx → α)
    (h1 : (⟨2, ![4096, 3]⟩ : Shape).BroadcastsInDim ⟨3, ![1, 4096, 3]⟩ ![1, 2])
    (h2 : (⟨3, ![1, 4096, 3]⟩ : Shape).BroadcastsInDim ⟨3, ![4096, 4096, 3]⟩ ![0, 1, 2]) (i j : Fin 4096) (k : Fin 3) :
    broadcastInDim ⟨3, ![4096, 4096, 3]⟩ ![0, 1, 2] h2 (broadcastInDim ⟨3, ![1, 4096, 3]⟩ ![1, 2] h1 x) (ix3 i j k)
      = x (ix2 j k) := by
  refine (broadcastInDim_apply _ h2 _ (ix3 i j k) (ix3 (0 : Fin 1) j k) fun a => ?_).trans
    (broadcastInDim_apply _ h1 x (ix3 (0 : Fin 1) j k) (ix2 j k) fun a => ?_)
  · match a with
    | ⟨0, _⟩ => rfl
    | ⟨1, _⟩ => rfl
    | ⟨2, _⟩ => rfl
  · match a with
    | ⟨0, _⟩ => rfl
    | ⟨1, _⟩ => rfl

/-- The coordinates with a new middle axis, repeated over it: entry `(i, j, k)` is atom `i`'s coordinate `k`. -/
theorem bcast_mid_apply (x : (⟨2, ![4096, 3]⟩ : Shape).Idx → α)
    (h1 : (⟨2, ![4096, 3]⟩ : Shape).BroadcastsInDim ⟨3, ![4096, 1, 3]⟩ ![0, 2])
    (h2 : (⟨3, ![4096, 1, 3]⟩ : Shape).BroadcastsInDim ⟨3, ![4096, 4096, 3]⟩ ![0, 1, 2]) (i j : Fin 4096) (k : Fin 3) :
    broadcastInDim ⟨3, ![4096, 4096, 3]⟩ ![0, 1, 2] h2 (broadcastInDim ⟨3, ![4096, 1, 3]⟩ ![0, 2] h1 x) (ix3 i j k)
      = x (ix2 i k) := by
  refine (broadcastInDim_apply _ h2 _ (ix3 i j k) (ix3 i (0 : Fin 1) k) fun a => ?_).trans
    (broadcastInDim_apply _ h1 x (ix3 i (0 : Fin 1) k) (ix2 i k) fun a => ?_)
  · match a with
    | ⟨0, _⟩ => rfl
    | ⟨1, _⟩ => rfl
    | ⟨2, _⟩ => rfl
  · match a with
    | ⟨0, _⟩ => rfl
    | ⟨1, _⟩ => rfl

/-- A vector laid out as one row: entry `(0, j)` is the vector's entry `j`. -/
theorem bcast_row1_apply (x : (⟨1, ![4096]⟩ : Shape).Idx → α)
    (h1 : (⟨1, ![4096]⟩ : Shape).BroadcastsInDim ⟨2, ![1, 4096]⟩ ![1]) (j : Fin 4096) :
    broadcastInDim ⟨2, ![1, 4096]⟩ ![1] h1 x (ix2 (0 : Fin 1) j) = x (ix1 j) :=
  broadcastInDim_apply _ h1 x (ix2 (0 : Fin 1) j) (ix1 j) fun a => by
    match a with
    | ⟨0, _⟩ => rfl

/-- One row repeated down a square matrix: entry `(i, j)` is the row's entry `j`. -/
theorem bcast_rows_apply (y : (⟨2, ![1, 4096]⟩ : Shape).Idx → α)
    (h2 : (⟨2, ![1, 4096]⟩ : Shape).BroadcastsInDim ⟨2, ![4096, 4096]⟩ ![0, 1]) (i j : Fin 4096) :
    broadcastInDim ⟨2, ![4096, 4096]⟩ ![0, 1] h2 y (ix2 i j) = y (ix2 (0 : Fin 1) j) :=
  broadcastInDim_apply _ h2 y (ix2 i j) (ix2 (0 : Fin 1) j) fun a => by
    match a with
    | ⟨0, _⟩ => rfl
    | ⟨1, _⟩ => rfl

/-- The host's float sum over the last axis of a `4096 × 4096 × 3` array, at `(i, j)`. -/
theorem hostSum_axis2_apply (x : (⟨3, ![4096, 4096, 3]⟩ : Shape).Idx → EReal) (init : EReal)
    (h' : (⟨3, ![4096, 4096, 3]⟩ : Shape).ReducesTo [2] ⟨2, ![4096, 4096]⟩) (i j : Fin 4096) :
    Ideal.hostReduceAdd h' x init (ix2 i j) = init + ∑ k : Fin 3, x (ix3 i j k) := by
  have h : (⟨3, ![4096, 4096, 3]⟩ : Shape).Reduces [2] ⟨2, ![4096, 4096]⟩ := by decide
  refine (Ideal.hostReduceAdd_single h' h x init (ix2 i j)).trans ?_
  show init + ∑ k : Fin 3, x (h.lift (ix2 i j) k) = _
  refine congrArg _ (Finset.sum_congr rfl fun k _ => congrArg x ?_)
  funext a
  match a with
  | ⟨0, _⟩ => rfl
  | ⟨1, _⟩ => rfl
  | ⟨2, _⟩ => rfl

/-- The host's float sum over the columns of a `4096 × 4096` matrix, at row `i`. -/
theorem hostSum_axis1_apply (x : (⟨2, ![4096, 4096]⟩ : Shape).Idx → EReal) (init : EReal)
    (h' : (⟨2, ![4096, 4096]⟩ : Shape).ReducesTo [1] ⟨1, ![4096]⟩) (i : Fin 4096) :
    Ideal.hostReduceAdd h' x init (ix1 i) = init + ∑ j : Fin 4096, x (ix2 i j) := by
  have h : (⟨2, ![4096, 4096]⟩ : Shape).Reduces [1] ⟨1, ![4096]⟩ := by decide
  refine (Ideal.hostReduceAdd_single h' h x init (ix1 i)).trans ?_
  show init + ∑ j : Fin 4096, x (h.lift (ix1 i) j) = _
  refine congrArg _ (Finset.sum_congr rfl fun j _ => congrArg x ?_)
  funext a
  match a with
  | ⟨0, _⟩ => rfl
  | ⟨1, _⟩ => rfl

/-- A vector's index set is its one coordinate's range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The host's float sum of a vector of 4096 entries, at the scalar's one index. -/
theorem hostSum_axis0_apply (x : (⟨1, ![4096]⟩ : Shape).Idx → EReal) (init : EReal)
    (h' : (⟨1, ![4096]⟩ : Shape).ReducesTo [0] ⟨0, ![]⟩) (j : (⟨0, ![]⟩ : Shape).Idx) :
    Ideal.hostReduceAdd h' x init j = init + ∑ i : Fin 4096, x (ix1 i) := by
  rw [Ideal.hostReduceAdd_total h' (fun b => b.elim0) x init j, sum_idx1]

/-- The identity mask's word at `(i, j)`: row number plus zero compared with column number, as 32-bit words, is the
    bit of `i = j`, because both numbers are below `2 ^ 32`. -/
theorem eye_word (i j : Fin 4096) :
    IntOp.cmpi .eq (IntOp.addi (BitVec.ofNat 32 i.val) 0#32) (BitVec.ofNat 32 j.val) = if i = j then 1#1 else 0#1 := by
  have hne : i ≠ j → BitVec.ofNat 32 i.val ≠ BitVec.ofNat 32 j.val := fun h e => h (Fin.ext (by
    have e' := congrArg BitVec.toNat e
    simp only [BitVec.toNat_ofNat] at e'
    have hi := i.isLt
    have hj := j.isLt
    omega))
  unfold IntOp.cmpi IntOp.addi
  rw [BitVec.add_zero]
  by_cases h : i = j
  · subst h; simp
  · rw [if_neg h, beq_eq_false_iff_ne.2 (hne h)]
    rfl

end Cert.ReferenceIdeal.HandEmb
-- ==== Proof.RDistCols.lean ====
/-
  The parameter columns. The first stretch of the reference's operations cuts fourteen columns out of the parameter
  array, each as a `4096 × 1` column cast to a vector: the vector's entry `i` is atom `i`'s parameter of that column.
  The atoms' coordinates and parameters are named here, as functions of the atom and the column, for every later
  statement about the reference's buffers.
-/
import proofs.«121872_j23974507446662_1_alg».proof.Proof.RStageA
import proofs.«121872_j23974507446662_1_alg».proof.Proof.RDistLayout

noncomputable section

namespace Cert.ReferenceIdeal.HandEmb

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx

/-- Atom `i`'s coordinate `k`: the first argument's entry `(i, k)`. -/
def cOf (V : Valuation τ sig (Elt Ideal)) (i : Fin 4096) (k : Fin 3) : EReal := V (Proc.devRef .tc main_arg0) (ix2 i k)

/-- Atom `i`'s parameter `k`: the second argument's entry `(i, k)`. -/
def pOf (V : Valuation τ sig (Elt Ideal)) (i : Fin 4096) (k : Fin 22) : EReal := V (Proc.devRef .tc main_arg1) (ix2 i k)

variable (V : Valuation τ sig (Elt Ideal)) (i : Fin 4096)

/-- After the first stretch, buffer %1 holds column 0 of the parameters. -/
theorem g0_main_v1 : after (g0 (F := Ideal)) V (Proc.devRef .tc main_v1) (ix1 i) = pOf V i 0 := by
  rw [st_main_v1]
  exact column_apply 0 _ _ _ i (0 : Fin 22) rfl

/-- After the first stretch, buffer %3 holds column 1 of the parameters. -/
theorem g0_main_v3 : after (g0 (F := Ideal)) V (Proc.devRef .tc main_v3) (ix1 i) = pOf V i 1 := by
  rw [st_main_v3]
  exact column_apply 1 _ _ _ i (1 : Fin 22) rfl

/-- After the first stretch, buffer %5 holds column 2 of the parameters. -/
theorem g0_main_v5 : after (g0 (F := Ideal)) V (Proc.devRef .tc main_v5) (ix1 i) = pOf V i 2 := by
  rw [st_main_v5]
  exact column_apply 2 _ _ _ i (2 : Fin 22) rfl

/-- After the first stretch, buffer %7 holds column 3 of the parameters. -/
theorem g0_main_v7 : after (g0 (F := Ideal)) V (Proc.devRef .tc main_v7) (ix1 i) = pOf V i 3 := by
  rw [st_main_v7]
  exact column_apply 3 _ _ _ i (3 : Fin 22) rfl

/-- After the first stretch, buffer %9 holds column 4 of the parameters. -/
theorem g0_main_v9 : after (g0 (F := Ideal)) V (Proc.devRef .tc main_v9) (ix1 i) = pOf V i 4 := by
  rw [st_main_v9]
  exact column_apply 4 _ _ _ i (4 : Fin 22) rfl

/-- After the first stretch, buffer %11 holds column 5 of the parameters. -/
theorem g0_main_v11 : after (g0 (F := Ideal)) V (Proc.devRef .tc main_v11) (ix1 i) = pOf V i 5 := by
  rw [st_main_v11]
  exact column_apply 5 _ _ _ i (5 : Fin 22) rfl

/-- After the first stretch, buffer %13 holds column 6 of the parameters. -/
theorem g0_main_v13 : after (g0 (F := Ideal)) V (Proc.devRef .tc main_v13) (ix1 i) = pOf V i 6 := by
  rw [st_main_v13]
  exact column_apply 6 _ _ _ i (6 : Fin 22) rfl

/-- After the first stretch, buffer %15 holds column 7 of the parameters. -/
theorem g0_main_v15 : after (g0 (F := Ideal)) V (Proc.devRef .tc main_v15) (ix1 i) = pOf V i 7 := by
  rw [st_main_v15]
  exact column_apply 7 _ _ _ i (7 : Fin 22) rfl

/-- After the first stretch, buffer %17 holds column 8 of the parameters. -/
theorem g0_main_v17 : after (g0 (F := Ideal)) V (Proc.devRef .tc main_v17) (ix1 i) = pOf V i 8 := by
  rw [st_main_v17]
  exact column_apply 8 _ _ _ i (8 : Fin 22) rfl

/-- After the first stretch, buffer %19 holds column 9 of the parameters. -/
theorem g0_main_v19 : after (g0 (F := Ideal)) V (Proc.devRef .tc main_v19) (ix1 i) = pOf V i 9 := by
  rw [st_main_v19]
  exact column_apply 9 _ _ _ i (9 : Fin 22) rfl

/-- After the first stretch, buffer %21 holds column 18 of the parameters. -/
theorem g0_main_v21 : after (g0 (F := Ideal)) V (Proc.devRef .tc main_v21) (ix1 i) = pOf V i 18 := by
  rw [st_main_v21]
  exact column_apply 18 _ _ _ i (18 : Fin 22) rfl

/-- After the first stretch, buffer %23 holds column 19 of the parameters. -/
theorem g0_main_v23 : after (g0 (F := Ideal)) V (Proc.devRef .tc main_v23) (ix1 i) = pOf V i 19 := by
  rw [st_main_v23]
  exact column_apply 19 _ _ _ i (19 : Fin 22) rfl

/-- After the first stretch, buffer %25 holds column 20 of the parameters. -/
theorem g0_main_v25 : after (g0 (F := Ideal)) V (Proc.devRef .tc main_v25) (ix1 i) = pOf V i 20 := by
  rw [st_main_v25]
  exact column_apply 20 _ _ _ i (20 : Fin 22) rfl

/-- After the first stretch, buffer %27 holds column 21 of the parameters. -/
theorem g0_main_v27 : after (g0 (F := Ideal)) V (Proc.devRef .tc main_v27) (ix1 i) = pOf V i 21 := by
  rw [st_main_v27]
  exact column_apply 21 _ _ _ i (21 : Fin 22) rfl

end Cert.ReferenceIdeal.HandEmb
-- ==== Proof.RDistRead.lean ====
/-
  The distance matrix and the identity mask as functions of the coordinate array: the second stretch's operations
  composed, read at an entry `(i, j)`. The coordinates are laid out along a new leading axis and along a new middle axis,
  the second subtracted from the first (column atom minus row atom), squared, summed over the coordinate axis from the
  zero constant; the diagonal is replaced by the constant one under the mask "row number equals column number"; the root
  is taken.
-/
import proofs.«121872_j23974507446662_1_alg».proof.Proof.Gen.ReferenceIdeal
import proofs.«121872_j23974507446662_1_alg».proof.Proof.RDistLayout
import proofs.«121872_j23974507446662_1_alg».proof.Proof.Spec

noncomputable section

open scoped BigOperators

namespace Cert.ReferenceIdeal.HandEmb

open Cert.ReferenceIdeal Cert.ReferenceIdeal.Gen Idealize.ShloMosaic Idealize.ShloMosaic.StableHlo Idealize.ShloMosaic.ValueIdx

section Terms
variable {F : FTy → Type} [FloatOps F]

set_option maxHeartbeats 4000000 in
/-- The identity mask: row number plus a zero splat, compared for equality with column number. -/
def eyeTerm : (⟨S4096x4096, .i1⟩ : BufTy).Contents (Elt F) :=
  ((cmpi .eq : (⟨S4096x4096, .i32⟩ : BufTy).Contents (Elt F) → (⟨S4096x4096, .i32⟩ : BufTy).Contents (Elt F) → (⟨S4096x4096, .i1⟩ : BufTy).Contents (Elt F)) ((addi : (⟨S4096x4096, .i32⟩ : BufTy).Contents (Elt F) → (⟨S4096x4096, .i32⟩ : BufTy).Contents (Elt F) → (⟨S4096x4096, .i32⟩ : BufTy).Contents (Elt F)) ((iotaInDim S4096x4096 32 0)) ((broadcastInDim S4096x4096 ![] bcast_S_S4096x4096 : (⟨S_, .i32⟩ : BufTy).Contents (Elt F) → (⟨S4096x4096, .i32⟩ : BufTy).Contents (Elt F)) ((constantI S_ 32 0#32)))) ((iotaInDim S4096x4096 32 1)))

set_option maxHeartbeats 4000000 in
/-- The distance matrix of the coordinate array `x_arg0`. -/
def rmatTerm (x_arg0 : (⟨S4096x3, .f32⟩ : BufTy).Contents (Elt F)) : (⟨S4096x4096, .f32⟩ : BufTy).Contents (Elt F) :=
  ((Host.sqrt : (⟨S4096x4096, .f32⟩ : BufTy).Contents (Elt F) → (⟨S4096x4096, .f32⟩ : BufTy).Contents (Elt F)) ((select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) ((cmpi .eq : (⟨S4096x4096, .i32⟩ : BufTy).Contents (Elt F) → (⟨S4096x4096, .i32⟩ : BufTy).Contents (Elt F) → (⟨S4096x4096, .i1⟩ : BufTy).Contents (Elt F)) ((addi : (⟨S4096x4096, .i32⟩ : BufTy).Contents (Elt F) → (⟨S4096x4096, .i32⟩ : BufTy).Contents (Elt F) → (⟨S4096x4096, .i32⟩ : BufTy).Contents (Elt F)) ((iotaInDim S4096x4096 32 0)) ((broadcastInDim S4096x4096 ![] bcast_S_S4096x4096 : (⟨S_, .i32⟩ : BufTy).Contents (Elt F) → (⟨S4096x4096, .i32⟩ : BufTy).Contents (Elt F)) ((constantI S_ 32 0#32)))) ((iotaInDim S4096x4096 32 1))) (((broadcastInDim S4096x4096 ![] bcast_S_S4096x4096) : (⟨S_, .f32⟩ : BufTy).Contents (Elt F) → (⟨S4096x4096, .f32⟩ : BufTy).Contents (Elt F)) ((id : (⟨S_, .f32⟩ : BufTy).Contents (Elt F) → (⟨S_, .f32⟩ : BufTy).Contents (Elt F)) ((constant S_ .f32 0x3F800000#32)))) (((fun x v => Host.reduceAdd x v reducesTo_S4096x4096x3_S4096x4096_d2 h_S_) : (⟨S4096x4096x3, .f32⟩ : BufTy).Contents (Elt F) → (⟨S_, .f32⟩ : BufTy).Contents (Elt F) → (⟨S4096x4096, .f32⟩ : BufTy).Contents (Elt F)) ((mulf : (⟨S4096x4096x3, .f32⟩ : BufTy).Contents (Elt F) → (⟨S4096x4096x3, .f32⟩ : BufTy).Contents (Elt F) → (⟨S4096x4096x3, .f32⟩ : BufTy).Contents (Elt F)) ((subf : (⟨S4096x4096x3, .f32⟩ : BufTy).Contents (Elt F) → (⟨S4096x4096x3, .f32⟩ : BufTy).Contents (Elt F) → (⟨S4096x4096x3, .f32⟩ : BufTy).Contents (Elt F)) ((broadcastInDim S4096x4096x3 ![0, 1, 2] bcast_S1x4096x3_S4096x4096x3_0_1_2 : (⟨S1x4096x3, .f32⟩ : BufTy).Contents (Elt F) → (⟨S4096x4096x3, .f32⟩ : BufTy).Contents (Elt F)) ((broadcastInDim S1x4096x3 ![1, 2] bcast_S4096x3_S1x4096x3_1_2 : (⟨S4096x3, .f32⟩ : BufTy).Contents (Elt F) → (⟨S1x4096x3, .f32⟩ : BufTy).Contents (Elt F)) x_arg0)) ((broadcastInDim S4096x4096x3 ![0, 1, 2] bcast_S4096x1x3_S4096x4096x3_0_1_2 : (⟨S4096x1x3, .f32⟩ : BufTy).Contents (Elt F) → (⟨S4096x4096x3, .f32⟩ : BufTy).Contents (Elt F)) ((broadcastInDim S4096x1x3 ![0, 2] bcast_S4096x3_S4096x1x3_0_2 : (⟨S4096x3, .f32⟩ : BufTy).Contents (Elt F) → (⟨S4096x1x3, .f32⟩ : BufTy).Contents (Elt F)) x_arg0))) ((subf : (⟨S4096x4096x3, .f32⟩ : BufTy).Contents (Elt F) → (⟨S4096x4096x3, .f32⟩ : BufTy).Contents (Elt F) → (⟨S4096x4096x3, .f32⟩ : BufTy).Contents (Elt F)) ((broadcastInDim S4096x4096x3 ![0, 1, 2] bcast_S1x4096x3_S4096x4096x3_0_1_2 : (⟨S1x4096x3, .f32⟩ : BufTy).Contents (Elt F) → (⟨S4096x4096x3, .f32⟩ : BufTy).Contents (Elt F)) ((broadcastInDim S1x4096x3 ![1, 2] bcast_S4096x3_S1x4096x3_1_2 : (⟨S4096x3, .f32⟩ : BufTy).Contents (Elt F) → (⟨S1x4096x3, .f32⟩ : BufTy).Contents (Elt F)) x_arg0)) ((broadcastInDim S4096x4096x3 ![0, 1, 2] bcast_S4096x1x3_S4096x4096x3_0_1_2 : (⟨S4096x1x3, .f32⟩ : BufTy).Contents (Elt F) → (⟨S4096x4096x3, .f32⟩ : BufTy).Contents (Elt F)) ((broadcastInDim S4096x1x3 ![0, 2] bcast_S4096x3_S4096x1x3_0_2 : (⟨S4096x3, .f32⟩ : BufTy).Contents (Elt F) → (⟨S4096x1x3, .f32⟩ : BufTy).Contents (Elt F)) x_arg0)))) ((constant S_ .f32 0x00000000#32)))))

end Terms

variable (i j : Fin 4096)

/-- The mask's entry `(i, j)` is the bit of `i = j`. -/
theorem eye_read : eyeTerm (F := Ideal) (ix2 i j) = if i = j then 1#1 else 0#1 :=
  eye_word i j

/-- The distance matrix's entry `(i, j)` is the root of the squared distance between atoms `i` and `j`, of one on the
    diagonal. -/
theorem rmat_read (X : (⟨S4096x3, .f32⟩ : BufTy).Contents (Elt Ideal)) :
    rmatTerm (F := Ideal) X (ix2 i j) = Cert.Spec.rmatR (fun a k => X (ix2 a k)) i j := by
  show Ideal.sqrt (Scalar.select (IntOp.cmpi .eq (IntOp.addi (BitVec.ofNat 32 i.val) 0#32) (BitVec.ofNat 32 j.val))
    (Ideal.ofBits .f32 0x3F800000#32)
    (Ideal.hostReduceAdd reducesTo_S4096x4096x3_S4096x4096_d2 _ (Ideal.ofBits .f32 0x00000000#32) (ix2 i j))) = _
  rw [eye_word, hostSum_axis2_apply, Ideal.ofBits_zero_f32, zero_add]
  unfold Cert.Spec.rmatR Cert.Spec.r2R
  congr 1
  by_cases h : i = j
  · rw [if_pos h, if_pos h]
    rfl
  · rw [if_neg h, if_neg h, select_zero]
    refine Finset.sum_congr rfl fun k _ => ?_
    simp only [mulf_apply, subf_apply]
    rw [bcast_lead_apply, bcast_mid_apply]

end Cert.ReferenceIdeal.HandEmb
-- ==== Proof.RDistMat.lean ====
/-
  The distance matrix. After the second stretch of the reference's operations, the distance buffer's entry `(i, j)` is
  the reference's distance between atoms `i` and `j`, and the mask buffer's entry `(i, j)` is the bit of `i = j`.
-/
import proofs.«121872_j23974507446662_1_alg».proof.Proof.RDistCols
import proofs.«121872_j23974507446662_1_alg».proof.Proof.RDistRead

noncomputable section

namespace Cert.ReferenceIdeal.HandEmb

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx

variable (V : Valuation τ sig (Elt Ideal)) (i j : Fin 4096)

/-- After the second stretch, the mask buffer holds the bit of `i = j` at `(i, j)`. -/
theorem g1_main_v39 :
    after (g1 (F := Ideal)) V (Proc.devRef .tc main_v39) (ix2 i j) = if i = j then 1#1 else 0#1 := by
  rw [st_main_v39]
  exact eye_read i j

/-- After the second stretch, the distance buffer holds the reference's distance between atoms `i` and `j`. -/
theorem g1_main_v41 :
    after (g1 (F := Ideal)) V (Proc.devRef .tc main_v41) (ix2 i j) = Cert.Spec.rmatR (cOf V) i j := by
  rw [st_main_v41]
  exact rmat_read i j (V (Proc.devRef .tc main_arg0))

end Cert.ReferenceIdeal.HandEmb
-- ==== Proof.RStageD.lean ====
/-
  What some of the later stretches of the reference's operations leave in the buffers later stretches read, for any
  contents before them: each stretch's own operations composed over the buffers it reads.
-/
import proofs.«121872_j23974507446662_1_alg».proof.Proof.RSeg

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- What stretch 17 leaves in main_v336. -/
theorem st_main_v336 (V : Valuation τ sig (Elt F)) :
    after (g17 (F := F)) V (Proc.devRef .tc main_v336) = ((mulf : (⟨S_, .f32⟩ : BufTy).Contents (Elt F) → (⟨S_, .f32⟩ : BufTy).Contents (Elt F) → (⟨S_, .f32⟩ : BufTy).Contents (Elt F)) ((constant S_ .f32 0x3F000000#32)) (((fun x v => Host.reduceAdd x v reducesTo_S8386560_S_d0 h_S_) : (⟨S8386560, .f32⟩ : BufTy).Contents (Elt F) → (⟨S_, .f32⟩ : BufTy).Contents (Elt F) → (⟨S_, .f32⟩ : BufTy).Contents (Elt F)) ((select : (⟨S8386560, .i1⟩ : BufTy).Contents (Elt F) → (⟨S8386560, .f32⟩ : BufTy).Contents (Elt F) → (⟨S8386560, .f32⟩ : BufTy).Contents (Elt F) → (⟨S8386560, .f32⟩ : BufTy).Contents (Elt F)) (V (Proc.devRef .tc main_v77)) ((addf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v166)) (V (Proc.devRef .tc main_v122))) (V (Proc.devRef .tc main_v247))) ((mulf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v122)) (V (Proc.devRef .tc main_v166))) (V (Proc.devRef .tc main_v328)))) (((broadcastInDim S8386560 ![] bcast_S_S8386560) : (⟨S_, .f32⟩ : BufTy).Contents (Elt F) → (⟨S8386560, .f32⟩ : BufTy).Contents (Elt F)) ((id : (⟨S_, .f32⟩ : BufTy).Contents (Elt F) → (⟨S_, .f32⟩ : BufTy).Contents (Elt F)) ((constant S_ .f32 0x00000000#32))))) ((constant S_ .f32 0x00000000#32)))) := by
  dsimp only [g17]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 18 leaves in main_v352. -/
theorem st_main_v352 (V : Valuation τ sig (Elt F)) :
    after (g18 (F := F)) V (Proc.devRef .tc main_v352) = ((subf : (⟨S4096x4096, .f32⟩ : BufTy).Contents (Elt F) → (⟨S4096x4096, .f32⟩ : BufTy).Contents (Elt F) → (⟨S4096x4096, .f32⟩ : BufTy).Contents (Elt F)) ((Host.divf : (⟨S4096x4096, .f32⟩ : BufTy).Contents (Elt F) → (⟨S4096x4096, .f32⟩ : BufTy).Contents (Elt F) → (⟨S4096x4096, .f32⟩ : BufTy).Contents (Elt F)) (V (Proc.devRef .tc main_v41)) ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) (V (Proc.devRef .tc main_v1))))) ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) (V (Proc.devRef .tc main_v19))))) := by
  dsimp only [g18]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 18 leaves in main_v350. -/
theorem st_main_v350 (V : Valuation τ sig (Elt F)) :
    after (g18 (F := F)) V (Proc.devRef .tc main_v350) = ((mulf : (⟨S4096x4096, .f32⟩ : BufTy).Contents (Elt F) → (⟨S4096x4096, .f32⟩ : BufTy).Contents (Elt F) → (⟨S4096x4096, .f32⟩ : BufTy).Contents (Elt F)) ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) (V (Proc.devRef .tc main_v3)))) ((Host.exp : (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((broadcastInDim S4096x4096 ![0, 1] bcast_S1x4096_S4096x4096_0_1 : (⟨S1x4096, .f32⟩ : BufTy).Contents (Elt F) → (⟨S4096x4096, .f32⟩ : BufTy).Contents (Elt F)) ((Host.negf : (⟨S1x4096, .f32⟩ : BufTy).Contents (Elt F) → (⟨S1x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) (V (Proc.devRef .tc main_v11))))) ((subf : (⟨S4096x4096, .f32⟩ : BufTy).Contents (Elt F) → (⟨S4096x4096, .f32⟩ : BufTy).Contents (Elt F) → (⟨S4096x4096, .f32⟩ : BufTy).Contents (Elt F)) ((Host.divf : (⟨S4096x4096, .f32⟩ : BufTy).Contents (Elt F) → (⟨S4096x4096, .f32⟩ : BufTy).Contents (Elt F) → (⟨S4096x4096, .f32⟩ : BufTy).Contents (Elt F)) (V (Proc.devRef .tc main_v41)) ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) (V (Proc.devRef .tc main_v1))))) ((broadcastInDim S4096x4096 ![] bcast_S_S4096x4096 : (⟨S_, .f32⟩ : BufTy).Contents (Elt F) → (⟨S4096x4096, .f32⟩ : BufTy).Contents (Elt F)) ((constant S_ .f32 0x3F800000#32))))))) := by
  dsimp only [g18]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 19 leaves in main_v362. -/
theorem st_main_v362 (V : Valuation τ sig (Elt F)) :
    after (g19 (F := F)) V (Proc.devRef .tc main_v362) = (((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) ((select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) (V (Proc.devRef .tc main_v39)) (((broadcastInDim S4096x4096 ![] bcast_S_S4096x4096) : (⟨S_, .f32⟩ : BufTy).Contents (Elt F) → (⟨S4096x4096, .f32⟩ : BufTy).Contents (Elt F)) ((id : (⟨S_, .f32⟩ : BufTy).Contents (Elt F) → (⟨S_, .f32⟩ : BufTy).Contents (Elt F)) ((constant S_ .f32 0x00000000#32)))) ((Host.divf : (⟨S4096x4096, .f32⟩ : BufTy).Contents (Elt F) → (⟨S4096x4096, .f32⟩ : BufTy).Contents (Elt F) → (⟨S4096x4096, .f32⟩ : BufTy).Contents (Elt F)) (V (Proc.devRef .tc main_v350)) ((addf : (⟨S4096x4096, .f32⟩ : BufTy).Contents (Elt F) → (⟨S4096x4096, .f32⟩ : BufTy).Contents (Elt F) → (⟨S4096x4096, .f32⟩ : BufTy).Contents (Elt F)) ((broadcastInDim S4096x4096 ![] bcast_S_S4096x4096 : (⟨S_, .f32⟩ : BufTy).Contents (Elt F) → (⟨S4096x4096, .f32⟩ : BufTy).Contents (Elt F)) ((constant S_ .f32 0x3F800000#32))) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352))) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352)))) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352))) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352)))) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352))) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352))))) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352))) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352)))) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352))) ((mulf : (⟨S4096x4096, .f32⟩ : BufTy).Contents (Elt F) → (⟨S4096x4096, .f32⟩ : BufTy).Contents (Elt F) → (⟨S4096x4096, .f32⟩ : BufTy).Contents (Elt F)) (V (Proc.devRef .tc main_v352)) (V (Proc.devRef .tc main_v352)))))))))) ((constant S_ .f32 0x00000000#32))) := by
  dsimp only [g19]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 20 leaves in main_v415. -/
theorem st_main_v415 (V : Valuation τ sig (Elt F)) :
    after (g20 (F := F)) V (Proc.devRef .tc main_v415) = ((addf : (⟨S_, .f32⟩ : BufTy).Contents (Elt F) → (⟨S_, .f32⟩ : BufTy).Contents (Elt F) → (⟨S_, .f32⟩ : BufTy).Contents (Elt F)) (V (Proc.devRef .tc main_v336)) (((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ((select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ((cmpf .olt : (⟨S4096, .f32⟩ : BufTy).Contents (Elt F) → (⟨S4096, .f32⟩ : BufTy).Contents (Elt F) → (⟨S4096, .i1⟩ : BufTy).Contents (Elt F)) (V (Proc.devRef .tc main_v362)) (V (Proc.devRef .tc main_v25))) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) (fun i => shapeCast main_v367.ty.shape (((extractStridedSlice S4096x1 ![0, 10] · slices_S4096x22_S4096x1_0_10) : (⟨S4096x22, .f32⟩ : BufTy).Contents (Elt F) → (⟨S4096x1, .f32⟩ : BufTy).Contents (Elt F)) (V (Proc.devRef .tc main_arg1))) shapeCasts_S4096x1_S4096 i) ((mulf : (⟨S4096, .f32⟩ : BufTy).Contents (Elt F) → (⟨S4096, .f32⟩ : BufTy).Contents (Elt F) → (⟨S4096, .f32⟩ : BufTy).Contents (Elt F)) (fun i => shapeCast main_v369.ty.shape (((extractStridedSlice S4096x1 ![0, 11] · slices_S4096x22_S4096x1_0_11) : (⟨S4096x22, .f32⟩ : BufTy).Contents (Elt F) → (⟨S4096x1, .f32⟩ : BufTy).Contents (Elt F)) (V (Proc.devRef .tc main_arg1))) shapeCasts_S4096x1_S4096 i) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v25))) ((broadcastInDim S4096 ![] bcast_S_S4096 : (⟨S_, .f32⟩ : BufTy).Contents (Elt F) → (⟨S4096, .f32⟩ : BufTy).Contents (Elt F)) ((constant S_ .f32 0x3F800000#32)))))) ((mulf : (⟨S4096, .f32⟩ : BufTy).Contents (Elt F) → (⟨S4096, .f32⟩ : BufTy).Contents (Elt F) → (⟨S4096, .f32⟩ : BufTy).Contents (Elt F)) (fun i => shapeCast main_v373.ty.shape (((extractStridedSlice S4096x1 ![0, 12] · slices_S4096x22_S4096x1_0_12) : (⟨S4096x22, .f32⟩ : BufTy).Contents (Elt F) → (⟨S4096x1, .f32⟩ : BufTy).Contents (Elt F)) (V (Proc.devRef .tc main_arg1))) shapeCasts_S4096x1_S4096 i) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v25))) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v25))) ((broadcastInDim S4096 ![] bcast_S_S4096 : (⟨S_, .f32⟩ : BufTy).Contents (Elt F) → (⟨S4096, .f32⟩ : BufTy).Contents (Elt F)) ((constant S_ .f32 0x3F800000#32))))))) ((mulf : (⟨S4096, .f32⟩ : BufTy).Contents (Elt F) → (⟨S4096, .f32⟩ : BufTy).Contents (Elt F) → (⟨S4096, .f32⟩ : BufTy).Contents (Elt F)) (fun i => shapeCast main_v378.ty.shape (((extractStridedSlice S4096x1 ![0, 13] · slices_S4096x22_S4096x1_0_13) : (⟨S4096x22, .f32⟩ : BufTy).Contents (Elt F) → (⟨S4096x1, .f32⟩ : BufTy).Contents (Elt F)) (V (Proc.devRef .tc main_arg1))) shapeCasts_S4096x1_S4096 i) ((mulf : (⟨S4096, .f32⟩ : BufTy).Contents (Elt F) → (⟨S4096, .f32⟩ : BufTy).Contents (Elt F) → (⟨S4096, .f32⟩ : BufTy).Contents (Elt F)) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v25))) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v25))) ((broadcastInDim S4096 ![] bcast_S_S4096 : (⟨S_, .f32⟩ : BufTy).Contents (Elt F) → (⟨S4096, .f32⟩ : BufTy).Contents (Elt F)) ((constant S_ .f32 0x3F800000#32))))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v25))) ((broadcastInDim S4096 ![] bcast_S_S4096 : (⟨S_, .f32⟩ : BufTy).Contents (Elt F) → (⟨S4096, .f32⟩ : BufTy).Contents (Elt F)) ((constant S_ .f32 0x3F800000#32))))))) ((select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ((cmpf .olt : (⟨S4096, .f32⟩ : BufTy).Contents (Elt F) → (⟨S4096, .f32⟩ : BufTy).Contents (Elt F) → (⟨S4096, .i1⟩ : BufTy).Contents (Elt F)) (V (Proc.devRef .tc main_v362)) (V (Proc.devRef .tc main_v27))) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) (fun i => shapeCast main_v387.ty.shape (((extractStridedSlice S4096x1 ![0, 14] · slices_S4096x22_S4096x1_0_14) : (⟨S4096x22, .f32⟩ : BufTy).Contents (Elt F) → (⟨S4096x1, .f32⟩ : BufTy).Contents (Elt F)) (V (Proc.devRef .tc main_arg1))) shapeCasts_S4096x1_S4096 i) ((mulf : (⟨S4096, .f32⟩ : BufTy).Contents (Elt F) → (⟨S4096, .f32⟩ : BufTy).Contents (Elt F) → (⟨S4096, .f32⟩ : BufTy).Contents (Elt F)) (fun i => shapeCast main_v389.ty.shape (((extractStridedSlice S4096x1 ![0, 15] · slices_S4096x22_S4096x1_0_15) : (⟨S4096x22, .f32⟩ : BufTy).Contents (Elt F) → (⟨S4096x1, .f32⟩ : BufTy).Contents (Elt F)) (V (Proc.devRef .tc main_arg1))) shapeCasts_S4096x1_S4096 i) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v5))) ((broadcastInDim S4096 ![] bcast_S_S4096 : (⟨S_, .f32⟩ : BufTy).Contents (Elt F) → (⟨S4096, .f32⟩ : BufTy).Contents (Elt F)) ((constant S_ .f32 0x3F800000#32)))))) ((mulf : (⟨S4096, .f32⟩ : BufTy).Contents (Elt F) → (⟨S4096, .f32⟩ : BufTy).Contents (Elt F) → (⟨S4096, .f32⟩ : BufTy).Contents (Elt F)) (fun i => shapeCast main_v393.ty.shape (((extractStridedSlice S4096x1 ![0, 16] · slices_S4096x22_S4096x1_0_16) : (⟨S4096x22, .f32⟩ : BufTy).Contents (Elt F) → (⟨S4096x1, .f32⟩ : BufTy).Contents (Elt F)) (V (Proc.devRef .tc main_arg1))) shapeCasts_S4096x1_S4096 i) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v5))) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v5))) ((broadcastInDim S4096 ![] bcast_S_S4096 : (⟨S_, .f32⟩ : BufTy).Contents (Elt F) → (⟨S4096, .f32⟩ : BufTy).Contents (Elt F)) ((constant S_ .f32 0x3F800000#32))))))) ((mulf : (⟨S4096, .f32⟩ : BufTy).Contents (Elt F) → (⟨S4096, .f32⟩ : BufTy).Contents (Elt F) → (⟨S4096, .f32⟩ : BufTy).Contents (Elt F)) (fun i => shapeCast main_v398.ty.shape (((extractStridedSlice S4096x1 ![0, 17] · slices_S4096x22_S4096x1_0_17) : (⟨S4096x22, .f32⟩ : BufTy).Contents (Elt F) → (⟨S4096x1, .f32⟩ : BufTy).Contents (Elt F)) (V (Proc.devRef .tc main_arg1))) shapeCasts_S4096x1_S4096 i) ((mulf : (⟨S4096, .f32⟩ : BufTy).Contents (Elt F) → (⟨S4096, .f32⟩ : BufTy).Contents (Elt F) → (⟨S4096, .f32⟩ : BufTy).Contents (Elt F)) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v5))) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v5))) ((broadcastInDim S4096 ![] bcast_S_S4096 : (⟨S_, .f32⟩ : BufTy).Contents (Elt F) → (⟨S4096, .f32⟩ : BufTy).Contents (Elt F)) ((constant S_ .f32 0x3F800000#32))))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v5))) ((broadcastInDim S4096 ![] bcast_S_S4096 : (⟨S_, .f32⟩ : BufTy).Contents (Elt F) → (⟨S4096, .f32⟩ : BufTy).Contents (Elt F)) ((constant S_ .f32 0x3F800000#32))))))) ((mulf : (⟨S4096, .f32⟩ : BufTy).Contents (Elt F) → (⟨S4096, .f32⟩ : BufTy).Contents (Elt F) → (⟨S4096, .f32⟩ : BufTy).Contents (Elt F)) ((mulf : (⟨S4096, .f32⟩ : BufTy).Contents (Elt F) → (⟨S4096, .f32⟩ : BufTy).Contents (Elt F) → (⟨S4096, .f32⟩ : BufTy).Contents (Elt F)) (V (Proc.devRef .tc main_v23)) ((subf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0x3F800000#32))) ((Host.log : (⟨S4096, .f32⟩ : BufTy).Contents (Elt F) → (⟨S4096, .f32⟩ : BufTy).Contents (Elt F)) ((Host.powf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v7))) (V (Proc.devRef .tc main_v21)))))) ((Host.powf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) (V (Proc.devRef .tc main_v362)) (V (Proc.devRef .tc main_v7))) (V (Proc.devRef .tc main_v21)))))) ((constant S_ .f32 0x00000000#32)))) := by
  dsimp only [g20]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

end Cert.ReferenceIdeal.HandRun

end
-- ==== Proof.REmbRead.lean ====
/-
  The densities and the embedding energy as functions of the arrays they read: the last three stretches' operations
  composed, read at an entry.

  For a row atom `i` and a column atom `j` the scaled distance is the distance over the column atom's `re`; the density
  term's numerator is the column atom's `fe` times the exponential of minus its `β` times the scaled distance less one;
  the base of the twentieth power is the scaled distance less the column atom's `λ`. The density of atom `i` is the sum
  over the columns `j` of numerator over one plus the twentieth power (multiplied as fourth power times sixteenth), the
  diagonal replaced by the zero constant under the identity mask. The total is the pair energy plus the sum over the
  atoms of the embedding energy, a choice between two cubics and a power-law tail by two comparisons of the density.
-/
import proofs.«121872_j23974507446662_1_alg».proof.Proof.Gen.ReferenceIdeal
import proofs.«121872_j23974507446662_1_alg».proof.Proof.RDistLayout
import proofs.«121872_j23974507446662_1_alg».proof.Proof.Spec

noncomputable section

open scoped BigOperators

namespace Cert.ReferenceIdeal.HandEmb

open Cert.ReferenceIdeal Cert.ReferenceIdeal.Gen Idealize.ShloMosaic Idealize.ShloMosaic.StableHlo Idealize.ShloMosaic.ValueIdx

section Terms
variable {F : FTy → Type} [FloatOps F]

set_option maxHeartbeats 4000000 in
/-- The base of the twentieth power: scaled distance less the column atom's shift. -/
def baseTerm (x_v41 : (⟨S4096x4096, .f32⟩ : BufTy).Contents (Elt F)) (x_v1 : (⟨S4096, .f32⟩ : BufTy).Contents (Elt F)) (x_v19 : (⟨S4096, .f32⟩ : BufTy).Contents (Elt F)) : (⟨S4096x4096, .f32⟩ : BufTy).Contents (Elt F) :=
  ((subf : (⟨S4096x4096, .f32⟩ : BufTy).Contents (Elt F) → (⟨S4096x4096, .f32⟩ : BufTy).Contents (Elt F) → (⟨S4096x4096, .f32⟩ : BufTy).Contents (Elt F)) ((Host.divf : (⟨S4096x4096, .f32⟩ : BufTy).Contents (Elt F) → (⟨S4096x4096, .f32⟩ : BufTy).Contents (Elt F) → (⟨S4096x4096, .f32⟩ : BufTy).Contents (Elt F)) x_v41 ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) x_v1))) ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) x_v19)))

set_option maxHeartbeats 4000000 in
/-- The density term's numerator. -/
def numTerm (x_v3 : (⟨S4096, .f32⟩ : BufTy).Contents (Elt F)) (x_v11 : (⟨S4096, .f32⟩ : BufTy).Contents (Elt F)) (x_v41 : (⟨S4096x4096, .f32⟩ : BufTy).Contents (Elt F)) (x_v1 : (⟨S4096, .f32⟩ : BufTy).Contents (Elt F)) : (⟨S4096x4096, .f32⟩ : BufTy).Contents (Elt F) :=
  ((mulf : (⟨S4096x4096, .f32⟩ : BufTy).Contents (Elt F) → (⟨S4096x4096, .f32⟩ : BufTy).Contents (Elt F) → (⟨S4096x4096, .f32⟩ : BufTy).Contents (Elt F)) ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) x_v3)) ((Host.exp : (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((broadcastInDim S4096x4096 ![0, 1] bcast_S1x4096_S4096x4096_0_1 : (⟨S1x4096, .f32⟩ : BufTy).Contents (Elt F) → (⟨S4096x4096, .f32⟩ : BufTy).Contents (Elt F)) ((Host.negf : (⟨S1x4096, .f32⟩ : BufTy).Contents (Elt F) → (⟨S1x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) x_v11))) ((subf : (⟨S4096x4096, .f32⟩ : BufTy).Contents (Elt F) → (⟨S4096x4096, .f32⟩ : BufTy).Contents (Elt F) → (⟨S4096x4096, .f32⟩ : BufTy).Contents (Elt F)) ((Host.divf : (⟨S4096x4096, .f32⟩ : BufTy).Contents (Elt F) → (⟨S4096x4096, .f32⟩ : BufTy).Contents (Elt F) → (⟨S4096x4096, .f32⟩ : BufTy).Contents (Elt F)) x_v41 ((broadcastInDim S4096x4096 ![0, 1] bcast_S1x4096_S4096x4096_0_1 : (⟨S1x4096, .f32⟩ : BufTy).Contents (Elt F) → (⟨S4096x4096, .f32⟩ : BufTy).Contents (Elt F)) ((broadcastInDim S1x4096 ![1] bcast_S4096_S1x4096_1 : (⟨S4096, .f32⟩ : BufTy).Contents (Elt F) → (⟨S1x4096, .f32⟩ : BufTy).Contents (Elt F)) x_v1))) ((broadcastInDim S4096x4096 ![] bcast_S_S4096x4096 : (⟨S_, .f32⟩ : BufTy).Contents (Elt F) → (⟨S4096x4096, .f32⟩ : BufTy).Contents (Elt F)) ((constant S_ .f32 0x3F800000#32)))))))

set_option maxHeartbeats 4000000 in
/-- The densities: the masked quotients summed over the columns. -/
def rhoTerm (x_v39 : (⟨S4096x4096, .i1⟩ : BufTy).Contents (Elt F)) (x_v350 : (⟨S4096x4096, .f32⟩ : BufTy).Contents (Elt F)) (x_v352 : (⟨S4096x4096, .f32⟩ : BufTy).Contents (Elt F)) : (⟨S4096, .f32⟩ : BufTy).Contents (Elt F) :=
  (((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)) ((select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) x_v39 (((broadcastInDim S4096x4096 ![] bcast_S_S4096x4096) : (⟨S_, .f32⟩ : BufTy).Contents (Elt F) → (⟨S4096x4096, .f32⟩ : BufTy).Contents (Elt F)) ((id : (⟨S_, .f32⟩ : BufTy).Contents (Elt F) → (⟨S_, .f32⟩ : BufTy).Contents (Elt F)) ((constant S_ .f32 0x00000000#32)))) ((Host.divf : (⟨S4096x4096, .f32⟩ : BufTy).Contents (Elt F) → (⟨S4096x4096, .f32⟩ : BufTy).Contents (Elt F) → (⟨S4096x4096, .f32⟩ : BufTy).Contents (Elt F)) x_v350 ((addf : (⟨S4096x4096, .f32⟩ : BufTy).Contents (Elt F) → (⟨S4096x4096, .f32⟩ : BufTy).Contents (Elt F) → (⟨S4096x4096, .f32⟩ : BufTy).Contents (Elt F)) ((broadcastInDim S4096x4096 ![] bcast_S_S4096x4096 : (⟨S_, .f32⟩ : BufTy).Contents (Elt F) → (⟨S4096x4096, .f32⟩ : BufTy).Contents (Elt F)) ((constant S_ .f32 0x3F800000#32))) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) x_v352 x_v352) ((mulf : (⟨S4096x4096, .f32⟩ : BufTy).Contents (Elt F) → (⟨S4096x4096, .f32⟩ : BufTy).Contents (Elt F) → (⟨S4096x4096, .f32⟩ : BufTy).Contents (Elt F)) x_v352 x_v352)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) x_v352 x_v352) ((mulf : (⟨S4096x4096, .f32⟩ : BufTy).Contents (Elt F) → (⟨S4096x4096, .f32⟩ : BufTy).Contents (Elt F) → (⟨S4096x4096, .f32⟩ : BufTy).Contents (Elt F)) x_v352 x_v352)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) x_v352 x_v352) ((mulf : (⟨S4096x4096, .f32⟩ : BufTy).Contents (Elt F) → (⟨S4096x4096, .f32⟩ : BufTy).Contents (Elt F) → (⟨S4096x4096, .f32⟩ : BufTy).Contents (Elt F)) x_v352 x_v352))) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) x_v352 x_v352) ((mulf : (⟨S4096x4096, .f32⟩ : BufTy).Contents (Elt F) → (⟨S4096x4096, .f32⟩ : BufTy).Contents (Elt F) → (⟨S4096x4096, .f32⟩ : BufTy).Contents (Elt F)) x_v352 x_v352)) ((mulf : (⟨S4096x4096, .f32⟩ : BufTy).Contents (Elt F) → (⟨S4096x4096, .f32⟩ : BufTy).Contents (Elt F) → (⟨S4096x4096, .f32⟩ : BufTy).Contents (Elt F)) ((mulf : (⟨S4096x4096, .f32⟩ : BufTy).Contents (Elt F) → (⟨S4096x4096, .f32⟩ : BufTy).Contents (Elt F) → (⟨S4096x4096, .f32⟩ : BufTy).Contents (Elt F)) x_v352 x_v352) ((mulf : (⟨S4096x4096, .f32⟩ : BufTy).Contents (Elt F) → (⟨S4096x4096, .f32⟩ : BufTy).Contents (Elt F) → (⟨S4096x4096, .f32⟩ : BufTy).Contents (Elt F)) x_v352 x_v352)))))))) ((constant S_ .f32 0x00000000#32)))

set_option maxHeartbeats 4000000 in
/-- The total: the pair energy plus the embedding energies summed over the atoms. -/
def totalTerm (x_v336 : (⟨S_, .f32⟩ : BufTy).Contents (Elt F)) (x_v362 : (⟨S4096, .f32⟩ : BufTy).Contents (Elt F)) (x_v25 : (⟨S4096, .f32⟩ : BufTy).Contents (Elt F)) (x_arg1 : (⟨S4096x22, .f32⟩ : BufTy).Contents (Elt F)) (x_v27 : (⟨S4096, .f32⟩ : BufTy).Contents (Elt F)) (x_v5 : (⟨S4096, .f32⟩ : BufTy).Contents (Elt F)) (x_v23 : (⟨S4096, .f32⟩ : BufTy).Contents (Elt F)) (x_v7 : (⟨S4096, .f32⟩ : BufTy).Contents (Elt F)) (x_v21 : (⟨S4096, .f32⟩ : BufTy).Contents (Elt F)) : (⟨S_, .f32⟩ : BufTy).Contents (Elt F) :=
  ((addf : (⟨S_, .f32⟩ : BufTy).Contents (Elt F) → (⟨S_, .f32⟩ : BufTy).Contents (Elt F) → (⟨S_, .f32⟩ : BufTy).Contents (Elt F)) x_v336 (((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ((select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ((cmpf .olt : (⟨S4096, .f32⟩ : BufTy).Contents (Elt F) → (⟨S4096, .f32⟩ : BufTy).Contents (Elt F) → (⟨S4096, .i1⟩ : BufTy).Contents (Elt F)) x_v362 x_v25) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) (fun i => shapeCast main_v367.ty.shape (((extractStridedSlice S4096x1 ![0, 10] · slices_S4096x22_S4096x1_0_10) : (⟨S4096x22, .f32⟩ : BufTy).Contents (Elt F) → (⟨S4096x1, .f32⟩ : BufTy).Contents (Elt F)) x_arg1) shapeCasts_S4096x1_S4096 i) ((mulf : (⟨S4096, .f32⟩ : BufTy).Contents (Elt F) → (⟨S4096, .f32⟩ : BufTy).Contents (Elt F) → (⟨S4096, .f32⟩ : BufTy).Contents (Elt F)) (fun i => shapeCast main_v369.ty.shape (((extractStridedSlice S4096x1 ![0, 11] · slices_S4096x22_S4096x1_0_11) : (⟨S4096x22, .f32⟩ : BufTy).Contents (Elt F) → (⟨S4096x1, .f32⟩ : BufTy).Contents (Elt F)) x_arg1) shapeCasts_S4096x1_S4096 i) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v25) ((broadcastInDim S4096 ![] bcast_S_S4096 : (⟨S_, .f32⟩ : BufTy).Contents (Elt F) → (⟨S4096, .f32⟩ : BufTy).Contents (Elt F)) ((constant S_ .f32 0x3F800000#32)))))) ((mulf : (⟨S4096, .f32⟩ : BufTy).Contents (Elt F) → (⟨S4096, .f32⟩ : BufTy).Contents (Elt F) → (⟨S4096, .f32⟩ : BufTy).Contents (Elt F)) (fun i => shapeCast main_v373.ty.shape (((extractStridedSlice S4096x1 ![0, 12] · slices_S4096x22_S4096x1_0_12) : (⟨S4096x22, .f32⟩ : BufTy).Contents (Elt F) → (⟨S4096x1, .f32⟩ : BufTy).Contents (Elt F)) x_arg1) shapeCasts_S4096x1_S4096 i) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v25) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v25) ((broadcastInDim S4096 ![] bcast_S_S4096 : (⟨S_, .f32⟩ : BufTy).Contents (Elt F) → (⟨S4096, .f32⟩ : BufTy).Contents (Elt F)) ((constant S_ .f32 0x3F800000#32))))))) ((mulf : (⟨S4096, .f32⟩ : BufTy).Contents (Elt F) → (⟨S4096, .f32⟩ : BufTy).Contents (Elt F) → (⟨S4096, .f32⟩ : BufTy).Contents (Elt F)) (fun i => shapeCast main_v378.ty.shape (((extractStridedSlice S4096x1 ![0, 13] · slices_S4096x22_S4096x1_0_13) : (⟨S4096x22, .f32⟩ : BufTy).Contents (Elt F) → (⟨S4096x1, .f32⟩ : BufTy).Contents (Elt F)) x_arg1) shapeCasts_S4096x1_S4096 i) ((mulf : (⟨S4096, .f32⟩ : BufTy).Contents (Elt F) → (⟨S4096, .f32⟩ : BufTy).Contents (Elt F) → (⟨S4096, .f32⟩ : BufTy).Contents (Elt F)) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v25) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v25) ((broadcastInDim S4096 ![] bcast_S_S4096 : (⟨S_, .f32⟩ : BufTy).Contents (Elt F) → (⟨S4096, .f32⟩ : BufTy).Contents (Elt F)) ((constant S_ .f32 0x3F800000#32))))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v25) ((broadcastInDim S4096 ![] bcast_S_S4096 : (⟨S_, .f32⟩ : BufTy).Contents (Elt F) → (⟨S4096, .f32⟩ : BufTy).Contents (Elt F)) ((constant S_ .f32 0x3F800000#32))))))) ((select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)) ((cmpf .olt : (⟨S4096, .f32⟩ : BufTy).Contents (Elt F) → (⟨S4096, .f32⟩ : BufTy).Contents (Elt F) → (⟨S4096, .i1⟩ : BufTy).Contents (Elt F)) x_v362 x_v27) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) ((addf : (⟨S4096, .f32⟩ : BufTy).Contents (Elt F) → (⟨S4096, .f32⟩ : BufTy).Contents (Elt F) → (⟨S4096, .f32⟩ : BufTy).Contents (Elt F)) (fun i => shapeCast main_v387.ty.shape (((extractStridedSlice S4096x1 ![0, 14] · slices_S4096x22_S4096x1_0_14) : (⟨S4096x22, .f32⟩ : BufTy).Contents (Elt F) → (⟨S4096x1, .f32⟩ : BufTy).Contents (Elt F)) x_arg1) shapeCasts_S4096x1_S4096 i) ((mulf : (⟨S4096, .f32⟩ : BufTy).Contents (Elt F) → (⟨S4096, .f32⟩ : BufTy).Contents (Elt F) → (⟨S4096, .f32⟩ : BufTy).Contents (Elt F)) (fun i => shapeCast main_v389.ty.shape (((extractStridedSlice S4096x1 ![0, 15] · slices_S4096x22_S4096x1_0_15) : (⟨S4096x22, .f32⟩ : BufTy).Contents (Elt F) → (⟨S4096x1, .f32⟩ : BufTy).Contents (Elt F)) x_arg1) shapeCasts_S4096x1_S4096 i) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v5) ((broadcastInDim S4096 ![] bcast_S_S4096 : (⟨S_, .f32⟩ : BufTy).Contents (Elt F) → (⟨S4096, .f32⟩ : BufTy).Contents (Elt F)) ((constant S_ .f32 0x3F800000#32)))))) ((mulf : (⟨S4096, .f32⟩ : BufTy).Contents (Elt F) → (⟨S4096, .f32⟩ : BufTy).Contents (Elt F) → (⟨S4096, .f32⟩ : BufTy).Contents (Elt F)) (fun i => shapeCast main_v393.ty.shape (((extractStridedSlice S4096x1 ![0, 16] · slices_S4096x22_S4096x1_0_16) : (⟨S4096x22, .f32⟩ : BufTy).Contents (Elt F) → (⟨S4096x1, .f32⟩ : BufTy).Contents (Elt F)) x_arg1) shapeCasts_S4096x1_S4096 i) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v5) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v5) ((broadcastInDim S4096 ![] bcast_S_S4096 : (⟨S_, .f32⟩ : BufTy).Contents (Elt F) → (⟨S4096, .f32⟩ : BufTy).Contents (Elt F)) ((constant S_ .f32 0x3F800000#32))))))) ((mulf : (⟨S4096, .f32⟩ : BufTy).Contents (Elt F) → (⟨S4096, .f32⟩ : BufTy).Contents (Elt F) → (⟨S4096, .f32⟩ : BufTy).Contents (Elt F)) (fun i => shapeCast main_v398.ty.shape (((extractStridedSlice S4096x1 ![0, 17] · slices_S4096x22_S4096x1_0_17) : (⟨S4096x22, .f32⟩ : BufTy).Contents (Elt F) → (⟨S4096x1, .f32⟩ : BufTy).Contents (Elt F)) x_arg1) shapeCasts_S4096x1_S4096 i) ((mulf : (⟨S4096, .f32⟩ : BufTy).Contents (Elt F) → (⟨S4096, .f32⟩ : BufTy).Contents (Elt F) → (⟨S4096, .f32⟩ : BufTy).Contents (Elt F)) ((mulf : (⟨S4096, .f32⟩ : BufTy).Contents (Elt F) → (⟨S4096, .f32⟩ : BufTy).Contents (Elt F) → (⟨S4096, .f32⟩ : BufTy).Contents (Elt F)) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v5) ((broadcastInDim S4096 ![] bcast_S_S4096 : (⟨S_, .f32⟩ : BufTy).Contents (Elt F) → (⟨S4096, .f32⟩ : BufTy).Contents (Elt F)) ((constant S_ .f32 0x3F800000#32)))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v5) ((broadcastInDim S4096 ![] bcast_S_S4096 : (⟨S_, .f32⟩ : BufTy).Contents (Elt F) → (⟨S4096, .f32⟩ : BufTy).Contents (Elt F)) ((constant S_ .f32 0x3F800000#32))))) ((subf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v5) ((broadcastInDim S4096 ![] bcast_S_S4096 : (⟨S_, .f32⟩ : BufTy).Contents (Elt F) → (⟨S4096, .f32⟩ : BufTy).Contents (Elt F)) ((constant S_ .f32 0x3F800000#32))))))) ((mulf : (⟨S4096, .f32⟩ : BufTy).Contents (Elt F) → (⟨S4096, .f32⟩ : BufTy).Contents (Elt F) → (⟨S4096, .f32⟩ : BufTy).Contents (Elt F)) ((mulf : (⟨S4096, .f32⟩ : BufTy).Contents (Elt F) → (⟨S4096, .f32⟩ : BufTy).Contents (Elt F) → (⟨S4096, .f32⟩ : BufTy).Contents (Elt F)) x_v23 ((subf : (⟨S4096, .f32⟩ : BufTy).Contents (Elt F) → (⟨S4096, .f32⟩ : BufTy).Contents (Elt F) → (⟨S4096, .f32⟩ : BufTy).Contents (Elt F)) ((broadcastInDim S4096 ![] bcast_S_S4096 : (⟨S_, .f32⟩ : BufTy).Contents (Elt F) → (⟨S4096, .f32⟩ : BufTy).Contents (Elt F)) ((constant S_ .f32 0x3F800000#32))) ((Host.log : (⟨S4096, .f32⟩ : BufTy).Contents (Elt F) → (⟨S4096, .f32⟩ : BufTy).Contents (Elt F)) ((Host.powf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v7) x_v21)))) ((Host.powf : (⟨S4096, .f32⟩ : BufTy).Contents (Elt F) → (⟨S4096, .f32⟩ : BufTy).Contents (Elt F) → (⟨S4096, .f32⟩ : BufTy).Contents (Elt F)) ((Host.divf : (⟨S4096, .f32⟩ : BufTy).Contents (Elt F) → (⟨S4096, .f32⟩ : BufTy).Contents (Elt F) → (⟨S4096, .f32⟩ : BufTy).Contents (Elt F)) x_v362 x_v7) x_v21)))) ((constant S_ .f32 0x00000000#32))))

end Terms

/-- A vector laid out as one row and repeated down a square matrix: entry `(i, j)` is the vector's entry `j`. -/
theorem bcast_rowvec_apply (x : (⟨1, ![4096]⟩ : Shape).Idx → EReal)
    (h1 : (⟨1, ![4096]⟩ : Shape).BroadcastsInDim ⟨2, ![1, 4096]⟩ ![1])
    (h2 : (⟨2, ![1, 4096]⟩ : Shape).BroadcastsInDim ⟨2, ![4096, 4096]⟩ ![0, 1]) (i j : Fin 4096) :
    broadcastInDim ⟨2, ![4096, 4096]⟩ ![0, 1] h2 (broadcastInDim ⟨2, ![1, 4096]⟩ ![1] h1 x) (ix2 i j) = x (ix1 j) :=
  (bcast_rows_apply _ h2 i j).trans (bcast_row1_apply x h1 j)

/-- The same with the row negated before it is repeated. -/
theorem bcast_rowvec_neg_apply (x : FVec Ideal ⟨1, ![4096]⟩ .f32)
    (h1 : (⟨1, ![4096]⟩ : Shape).BroadcastsInDim ⟨2, ![1, 4096]⟩ ![1])
    (h2 : (⟨2, ![1, 4096]⟩ : Shape).BroadcastsInDim ⟨2, ![4096, 4096]⟩ ![0, 1]) (i j : Fin 4096) :
    broadcastInDim ⟨2, ![4096, 4096]⟩ ![0, 1] h2 (Host.negf (broadcastInDim ⟨2, ![1, 4096]⟩ ![1] h1 x)) (ix2 i j) = -x (ix1 j) :=
  (bcast_rows_apply _ h2 i j).trans (congrArg (fun t : EReal => -t) (bcast_row1_apply x h1 j))

variable (i j : Fin 4096)

/-- The base of the twentieth power at `(i, j)`. -/
theorem base_read (R : FVec Ideal S4096x4096 .f32) (Cre Clam : FVec Ideal S4096 .f32) :
    baseTerm (F := Ideal) R Cre Clam (ix2 i j) = Ideal.div (R (ix2 i j)) (Cre (ix1 j)) - Clam (ix1 j) := by
  show Ideal.div (R (ix2 i j))
      (broadcastInDim S4096x4096 ![0, 1] bcast_S1x4096_S4096x4096_0_1 (broadcastInDim S1x4096 ![1] bcast_S4096_S1x4096_1 Cre) (ix2 i j))
    - broadcastInDim S4096x4096 ![0, 1] bcast_S1x4096_S4096x4096_0_1 (broadcastInDim S1x4096 ![1] bcast_S4096_S1x4096_1 Clam) (ix2 i j) = _
  rw [bcast_rowvec_apply, bcast_rowvec_apply]

/-- The density term's numerator at `(i, j)`. -/
theorem num_read (Cfe Cbeta : FVec Ideal S4096 .f32) (R : FVec Ideal S4096x4096 .f32) (Cre : FVec Ideal S4096 .f32) :
    numTerm (F := Ideal) Cfe Cbeta R Cre (ix2 i j)
      = Cfe (ix1 j) * Ideal.exp ((-(Cbeta (ix1 j))) * (Ideal.div (R (ix2 i j)) (Cre (ix1 j)) - Cert.Spec.one)) := by
  show broadcastInDim S4096x4096 ![0, 1] bcast_S1x4096_S4096x4096_0_1 (broadcastInDim S1x4096 ![1] bcast_S4096_S1x4096_1 Cfe) (ix2 i j)
      * Ideal.exp (broadcastInDim S4096x4096 ![0, 1] bcast_S1x4096_S4096x4096_0_1 (Host.negf (broadcastInDim S1x4096 ![1] bcast_S4096_S1x4096_1 Cbeta)) (ix2 i j)
        * (Ideal.div (R (ix2 i j))
            (broadcastInDim S4096x4096 ![0, 1] bcast_S1x4096_S4096x4096_0_1 (broadcastInDim S1x4096 ![1] bcast_S4096_S1x4096_1 Cre) (ix2 i j))
          - Cert.Spec.one)) = _
  rw [bcast_rowvec_apply, bcast_rowvec_neg_apply, bcast_rowvec_apply]

/-- The density of atom `i`: over the columns, zero where the mask is set, elsewhere numerator over one plus the
    twentieth power of the base. -/
theorem rho_read (E : IVec S4096x4096 1) (A D : FVec Ideal S4096x4096 .f32) :
    rhoTerm (F := Ideal) E A D (ix1 i)
      = ∑ j : Fin 4096, Scalar.select (E (ix2 i j)) 0
          (Ideal.div (A (ix2 i j)) (Cert.Spec.one + Cert.Spec.pow20R (D (ix2 i j)))) := by
  show Ideal.hostReduceAdd reducesTo_S4096x4096_S4096_d1 _ (Ideal.ofBits .f32 0x00000000#32) (ix1 i) = _
  rw [hostSum_axis1_apply, Ideal.ofBits_zero_f32, zero_add]
  refine Finset.sum_congr rfl fun j _ => ?_
  show Scalar.select (E (ix2 i j)) (Ideal.ofBits .f32 0x00000000#32)
      (Ideal.div (A (ix2 i j)) (Cert.Spec.one + Cert.Spec.pow20R (D (ix2 i j)))) = _
  rw [Ideal.ofBits_zero_f32]

/-- The embedding energy with every parameter it reads named: `Cert.Spec.emb rho q` is this at `q`'s columns
    20, 2, 3, 18, 19, 21 and 10 … 17. -/
def embOf (rho rn re rs eta fe2 r0 n0 n1 n2 n3 f0 f1 f2 f3 : EReal) : EReal :=
  Scalar.select (Ideal.cmp .olt rho rn)
    (((n0 + n1 * (Ideal.div rho rn - Cert.Spec.one))
        + n2 * ((Ideal.div rho rn - Cert.Spec.one) * (Ideal.div rho rn - Cert.Spec.one)))
      + n3 * (((Ideal.div rho rn - Cert.Spec.one) * (Ideal.div rho rn - Cert.Spec.one)) * (Ideal.div rho rn - Cert.Spec.one)))
    (Scalar.select (Ideal.cmp .olt rho r0)
      (((f0 + f1 * (Ideal.div rho re - Cert.Spec.one))
          + f2 * ((Ideal.div rho re - Cert.Spec.one) * (Ideal.div rho re - Cert.Spec.one)))
        + f3 * (((Ideal.div rho re - Cert.Spec.one) * (Ideal.div rho re - Cert.Spec.one)) * (Ideal.div rho re - Cert.Spec.one)))
      ((fe2 * (Cert.Spec.one - Ideal.log (Ideal.pow (Ideal.div rho rs) eta))) * Ideal.pow (Ideal.div rho rs) eta))

theorem emb_eq_embOf (rho : EReal) (q : Fin 22 → EReal) :
    Cert.Spec.emb rho q = embOf rho (q 20) (q 2) (q 3) (q 18) (q 19) (q 21) (q 10) (q 11) (q 12) (q 13) (q 14) (q 15) (q 16) (q 17) :=
  rfl

/-- The total: the pair energy plus, over the atoms, the embedding energy of the atom's density at its parameters. The
    six parameter columns read from vectors are columns 20, 21, 2, 19, 3 and 18 of the parameter array; the eight
    coefficients are cut out of the array itself. -/
theorem total_read (PE : FVec Ideal S_ .f32) (RHO C25 : FVec Ideal S4096 .f32) (P : FVec Ideal S4096x22 .f32)
    (C27 C5 C23 C7 C21 : FVec Ideal S4096 .f32)
    (h25 : ∀ i : Fin 4096, C25 (ix1 i) = P (ix2 i 20)) (h27 : ∀ i : Fin 4096, C27 (ix1 i) = P (ix2 i 21))
    (h5 : ∀ i : Fin 4096, C5 (ix1 i) = P (ix2 i 2)) (h23 : ∀ i : Fin 4096, C23 (ix1 i) = P (ix2 i 19))
    (h7 : ∀ i : Fin 4096, C7 (ix1 i) = P (ix2 i 3)) (h21 : ∀ i : Fin 4096, C21 (ix1 i) = P (ix2 i 18))
    (y : S_.Idx) :
    totalTerm (F := Ideal) PE RHO C25 P C27 C5 C23 C7 C21 y
      = PE y + ∑ i : Fin 4096, Cert.Spec.emb (RHO (ix1 i)) (fun k => P (ix2 i k)) := by
  show PE y + Ideal.hostReduceAdd reducesTo_S4096_S_d0 _ (Ideal.ofBits .f32 0x00000000#32) y = _
  rw [hostSum_axis0_apply, Ideal.ofBits_zero_f32, zero_add]
  congr 1
  refine Finset.sum_congr rfl fun i _ => ?_
  show embOf (RHO (ix1 i)) (C25 (ix1 i)) (C5 (ix1 i)) (C7 (ix1 i)) (C21 (ix1 i)) (C23 (ix1 i)) (C27 (ix1 i))
      (shapeCast S4096 (extractStridedSlice S4096x1 ![0, 10] P slices_S4096x22_S4096x1_0_10) shapeCasts_S4096x1_S4096 (ix1 i))
      (shapeCast S4096 (extractStridedSlice S4096x1 ![0, 11] P slices_S4096x22_S4096x1_0_11) shapeCasts_S4096x1_S4096 (ix1 i))
      (shapeCast S4096 (extractStridedSlice S4096x1 ![0, 12] P slices_S4096x22_S4096x1_0_12) shapeCasts_S4096x1_S4096 (ix1 i))
      (shapeCast S4096 (extractStridedSlice S4096x1 ![0, 13] P slices_S4096x22_S4096x1_0_13) shapeCasts_S4096x1_S4096 (ix1 i))
      (shapeCast S4096 (extractStridedSlice S4096x1 ![0, 14] P slices_S4096x22_S4096x1_0_14) shapeCasts_S4096x1_S4096 (ix1 i))
      (shapeCast S4096 (extractStridedSlice S4096x1 ![0, 15] P slices_S4096x22_S4096x1_0_15) shapeCasts_S4096x1_S4096 (ix1 i))
      (shapeCast S4096 (extractStridedSlice S4096x1 ![0, 16] P slices_S4096x22_S4096x1_0_16) shapeCasts_S4096x1_S4096 (ix1 i))
      (shapeCast S4096 (extractStridedSlice S4096x1 ![0, 17] P slices_S4096x22_S4096x1_0_17) shapeCasts_S4096x1_S4096 (ix1 i)) = _
  rw [column_apply 10 P slices_S4096x22_S4096x1_0_10 shapeCasts_S4096x1_S4096 i 10 rfl,
    column_apply 11 P slices_S4096x22_S4096x1_0_11 shapeCasts_S4096x1_S4096 i 11 rfl,
    column_apply 12 P slices_S4096x22_S4096x1_0_12 shapeCasts_S4096x1_S4096 i 12 rfl,
    column_apply 13 P slices_S4096x22_S4096x1_0_13 shapeCasts_S4096x1_S4096 i 13 rfl,
    column_apply 14 P slices_S4096x22_S4096x1_0_14 shapeCasts_S4096x1_S4096 i 14 rfl,
    column_apply 15 P slices_S4096x22_S4096x1_0_15 shapeCasts_S4096x1_S4096 i 15 rfl,
    column_apply 16 P slices_S4096x22_S4096x1_0_16 shapeCasts_S4096x1_S4096 i 16 rfl,
    column_apply 17 P slices_S4096x22_S4096x1_0_17 shapeCasts_S4096x1_S4096 i 17 rfl,
    h25, h27, h5, h23, h7, h21, emb_eq_embOf]

end Cert.ReferenceIdeal.HandEmb
-- ==== Proof.REmbRho.lean ====
/-
  The densities. After the nineteenth stretch of the reference's operations the base of the twentieth power and the
  density term's numerator are, at `(i, j)`, the column atom `j`'s; after the twentieth the density buffer's entry `i`
  is the sum over the columns `j ≠ i` of the column atoms' density terms at the reference's distance.
-/
import proofs.«121872_j23974507446662_1_alg».proof.Proof.RStageD
import proofs.«121872_j23974507446662_1_alg».proof.Proof.REmbRead

noncomputable section

open scoped BigOperators

namespace Cert.ReferenceIdeal.HandEmb

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx

variable (V : Valuation τ sig (Elt Ideal)) (c : Fin 4096 → Fin 3 → EReal) (p : Fin 4096 → Fin 22 → EReal)

/-- After the nineteenth stretch: the scaled distance less the column atom's `λ`. -/
theorem g18_main_v352
    (hr : ∀ i j : Fin 4096, V (Proc.devRef .tc main_v41) (ix2 i j) = Cert.Spec.rmatR c i j)
    (h1 : ∀ i : Fin 4096, V (Proc.devRef .tc main_v1) (ix1 i) = p i 0)
    (h19 : ∀ i : Fin 4096, V (Proc.devRef .tc main_v19) (ix1 i) = p i 9) (i j : Fin 4096) :
    after (g18 (F := Ideal)) V (Proc.devRef .tc main_v352) (ix2 i j)
      = Ideal.div (Cert.Spec.rmatR c i j) (p j 0) - p j 9 := by
  rw [st_main_v352]
  refine (base_read i j _ _ _).trans ?_
  rw [hr, h1, h19]

/-- After the nineteenth stretch: the column atom's `fe` times the exponential of minus its `β` times the scaled
    distance less one. -/
theorem g18_main_v350
    (hr : ∀ i j : Fin 4096, V (Proc.devRef .tc main_v41) (ix2 i j) = Cert.Spec.rmatR c i j)
    (h1 : ∀ i : Fin 4096, V (Proc.devRef .tc main_v1) (ix1 i) = p i 0)
    (h3 : ∀ i : Fin 4096, V (Proc.devRef .tc main_v3) (ix1 i) = p i 1)
    (h11 : ∀ i : Fin 4096, V (Proc.devRef .tc main_v11) (ix1 i) = p i 5) (i j : Fin 4096) :
    after (g18 (F := Ideal)) V (Proc.devRef .tc main_v350) (ix2 i j)
      = p j 1 * Ideal.exp ((-(p j 5)) * (Ideal.div (Cert.Spec.rmatR c i j) (p j 0) - Cert.Spec.one)) := by
  rw [st_main_v350]
  refine (num_read i j _ _ _ _).trans ?_
  rw [hr, h1, h3, h11]

/-- After the twentieth stretch, for any numerators `a` and bases `d` in its two input buffers: the density buffer's
    entry `i` is the sum over the columns `j ≠ i` of numerator over one plus the twentieth power of the base. -/
theorem g19_main_v362 (a d : Fin 4096 → Fin 4096 → EReal)
    (he : ∀ i j : Fin 4096, V (Proc.devRef .tc main_v39) (ix2 i j) = if i = j then 1#1 else 0#1)
    (ha : ∀ i j : Fin 4096, V (Proc.devRef .tc main_v350) (ix2 i j) = a i j)
    (hd : ∀ i j : Fin 4096, V (Proc.devRef .tc main_v352) (ix2 i j) = d i j) (i : Fin 4096) :
    after (g19 (F := Ideal)) V (Proc.devRef .tc main_v362) (ix1 i)
      = ∑ j : Fin 4096, if i = j then 0 else Ideal.div (a i j) (Cert.Spec.one + Cert.Spec.pow20R (d i j)) := by
  rw [st_main_v362]
  refine (rho_read i _ _ _).trans (Finset.sum_congr rfl fun j _ => ?_)
  rw [he, ha, hd]
  by_cases h : i = j
  · rw [if_pos h, if_pos h, select_one]
  · rw [if_neg h, if_neg h, select_zero]

/-- The two stretches together: the density buffer's entry `i` is the reference's density of atom `i`. -/
theorem g18_g19_main_v362
    (hr : ∀ i j : Fin 4096, V (Proc.devRef .tc main_v41) (ix2 i j) = Cert.Spec.rmatR c i j)
    (he : ∀ i j : Fin 4096, V (Proc.devRef .tc main_v39) (ix2 i j) = if i = j then 1#1 else 0#1)
    (h1 : ∀ i : Fin 4096, V (Proc.devRef .tc main_v1) (ix1 i) = p i 0)
    (h3 : ∀ i : Fin 4096, V (Proc.devRef .tc main_v3) (ix1 i) = p i 1)
    (h11 : ∀ i : Fin 4096, V (Proc.devRef .tc main_v11) (ix1 i) = p i 5)
    (h19 : ∀ i : Fin 4096, V (Proc.devRef .tc main_v19) (ix1 i) = p i 9) (i : Fin 4096) :
    after (g19 (F := Ideal)) (after (g18 (F := Ideal)) V) (Proc.devRef .tc main_v362) (ix1 i) = Cert.Spec.rhoR c p i := by
  rw [g19_main_v362 (after (g18 (F := Ideal)) V) _ _
    (fun i j => by rw [g18_keeps V (r := main_v39) (by decide)]; exact he i j)
    (g18_main_v350 V c p hr h1 h3 h11) (g18_main_v352 V c p hr h1 h19) i]
  rfl

end Cert.ReferenceIdeal.HandEmb
-- ==== Proof.REmbTotal.lean ====
/-
  The embedding and the total. After the last stretch of the reference's operations the result buffer holds the pair
  energy plus the sum over the atoms of the embedding energy of the atom's density at the atom's parameters.
-/
import proofs.«121872_j23974507446662_1_alg».proof.Proof.RStageD
import proofs.«121872_j23974507446662_1_alg».proof.Proof.REmbRead

noncomputable section

open scoped BigOperators

namespace Cert.ReferenceIdeal.HandEmb

open Cert.ReferenceIdeal Cert.ReferenceIdeal.Gen Cert.ReferenceIdeal.HandRun Idealize.ShloMosaic Idealize.ShloMosaic.TcCoe
  Idealize.SL.Sem Idealize.ShloMosaic.StableHlo Idealize.ShloMosaic.ValueIdx

variable (V : Valuation τ sig (Elt Ideal)) (p : Fin 4096 → Fin 22 → EReal) (rho : Fin 4096 → EReal)

/-- After the last stretch: the pair energy plus the embedding energies summed over the atoms. -/
theorem g20_main_v415
    (hp : ∀ (i : Fin 4096) (k : Fin 22), V (Proc.devRef .tc main_arg1) (ix2 i k) = p i k)
    (hrho : ∀ i : Fin 4096, V (Proc.devRef .tc main_v362) (ix1 i) = rho i)
    (h5 : ∀ i : Fin 4096, V (Proc.devRef .tc main_v5) (ix1 i) = p i 2)
    (h7 : ∀ i : Fin 4096, V (Proc.devRef .tc main_v7) (ix1 i) = p i 3)
    (h21 : ∀ i : Fin 4096, V (Proc.devRef .tc main_v21) (ix1 i) = p i 18)
    (h23 : ∀ i : Fin 4096, V (Proc.devRef .tc main_v23) (ix1 i) = p i 19)
    (h25 : ∀ i : Fin 4096, V (Proc.devRef .tc main_v25) (ix1 i) = p i 20)
    (h27 : ∀ i : Fin 4096, V (Proc.devRef .tc main_v27) (ix1 i) = p i 21)
    (pe : EReal) (hpe : V (Proc.devRef .tc main_v336) ix0 = pe) :
    after (g20 (F := Ideal)) V (Proc.devRef .tc main_v415) ix0 = pe + ∑ i : Fin 4096, Cert.Spec.emb (rho i) (p i) := by
  rw [st_main_v415]
  refine (total_read _ _ _ _ _ _ _ _ _
    (fun i => (h25 i).trans (hp i 20).symm) (fun i => (h27 i).trans (hp i 21).symm)
    (fun i => (h5 i).trans (hp i 2).symm) (fun i => (h23 i).trans (hp i 19).symm)
    (fun i => (h7 i).trans (hp i 3).symm) (fun i => (h21 i).trans (hp i 18).symm) ix0).trans ?_
  rw [hpe]
  congr 1
  refine Finset.sum_congr rfl fun i _ => ?_
  rw [hrho, show (fun k => V (Proc.devRef .tc main_arg1) (ix2 i k)) = p i from funext fun k => hp i k]

end Cert.ReferenceIdeal.HandEmb
-- ==== Proof.RPairGather.lean ====
/-
  Reading the reference's two gathers at one pair. The pairs i < j are numbered k < 8386560 and the program holds their
  rows and columns as 32-bit index words. An atom's parameter x[idx] is a gather of a flat column at a start index that
  is first wrapped (a negative index counts from the end) and then clamped into the column; the pair's distance
  r_mat[iu, ju] is a point gather at the two wrapped index words side by side. For an index word n < 4096 wrapping and
  clamping both leave n, so the first reads the column at n and the second the matrix at the two words' atoms. Also
  here: a sum over a rank-one index set as the sum over its coordinate, and the two halves the damped-exponential term
  is computed in (the numerator and the base of the twentieth power).
-/
import proofs.«121872_j23974507446662_1_alg».proof.Proof.Gen.ReferenceIdeal
import proofs.«121872_j23974507446662_1_alg».proof.Proof.Spec
import Idealize.ShloMosaic.Lib.ValueIdx
import Idealize.ShloMosaic.Lib.Pipeline.Value

noncomputable section

open scoped BigOperators

namespace Cert.ReferenceIdeal.HandPair

open Cert.ReferenceIdeal Cert.ReferenceIdeal.Gen Idealize.ShloMosaic Idealize.ShloMosaic.ValueIdx Idealize.SL.Sem
  Idealize.ShloMosaic.StableHlo

variable {α : Type}

/-! ## The inputs by coordinates, and the term's two halves -/

/-- Atom i's k-th coordinate in a valuation. -/
def cOf (V : Valuation τ sig (Elt Ideal)) (i : Fin 4096) (k : Fin 3) : EReal := V (Proc.devRef .tc main_arg0) (ix2 i k)
/-- Atom i's k-th parameter in a valuation. -/
def pOf (V : Valuation τ sig (Elt Ideal)) (i : Fin 4096) (k : Fin 22) : EReal := V (Proc.devRef .tc main_arg1) (ix2 i k)

/-- amp · exp(−rate (r/re − 1)): the numerator of the damped-exponential term. -/
def numR (r re amp rate : EReal) : EReal := amp * Ideal.exp ((-rate) * (Ideal.div r re - Cert.Spec.one))
/-- r/re − shift: the base of the term's twentieth power. -/
def baseR (r re shift : EReal) : EReal := Ideal.div r re - shift
/-- The term is its numerator over one plus the twentieth power of its base. -/
theorem termR_eq (r re amp rate shift : EReal) :
    Cert.Spec.termR r re amp rate shift
      = Ideal.div (numR r re amp rate) (Cert.Spec.one + Cert.Spec.pow20R (baseR r re shift)) := rfl

/-- A buffer of per-pair values read at pair k, as an extended real. -/
def rdK (x : S8386560.Idx → EReal) (k : Fin 8386560) : EReal := x (ix1 k)

/-! ## A sum over a rank-one index set -/

/-- A rank-one index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## Index words below 4096 -/

/-- Read signed, the word of n < 4096 is n. -/
theorem toInt_small (n : Nat) (hn : n < 4096) : (BitVec.ofNat 32 n).toInt.toNat = n := by
  rw [BitVec.toInt_eq_toNat_cond]
  simp only [BitVec.toNat_ofNat]
  have : n % 2 ^ 32 = n := Nat.mod_eq_of_lt (by omega)
  rw [this]
  split <;> omega

/-- Wrapping a negative index by the extent leaves the word of n < 4096 alone: it is not negative. -/
theorem norm_word (n : Nat) (hn : n < 4096) :
    Scalar.select (IntOp.cmpi .slt (BitVec.ofNat 32 n) 0#32) (IntOp.addi (BitVec.ofNat 32 n) 4096#32) (BitVec.ofNat 32 n)
      = BitVec.ofNat 32 n := by
  have h : IntOp.cmpi .slt (BitVec.ofNat 32 n) 0#32 = 0#1 := by
    unfold IntOp.cmpi
    simp only [BitVec.slt, BitVec.toInt_zero]
    have : ¬ (BitVec.ofNat 32 n).toInt < 0 := by
      rw [BitVec.toInt_eq_toNat_cond]
      simp only [BitVec.toNat_ofNat]
      have : n % 2 ^ 32 = n := Nat.mod_eq_of_lt (by omega)
      rw [this]
      split <;> omega
    simp [this]
  rw [h, select_zero]

/-! ## Layout of the index words -/
/-- The index column [K] laid out as [K,1], read at (k, 0), is the column at k. -/
theorem bcol_apply {β : Type} (f : S8386560.Idx → β) (k : Fin 8386560) :
    broadcastInDim S8386560x1 ![0] bcast_S8386560_S8386560x1_0 f (ix2 k (0 : Fin 1)) = f (ix1 k) := by
  refine broadcastInDim_apply _ _ f _ (ix1 k) ?_
  intro a
  match a with
  | ⟨0, _⟩ => rfl

/-- A splat of a scalar over the pairs reads the scalar everywhere. -/
theorem splat_apply {β : Type} (f : S_.Idx → β) (j : S8386560.Idx) :
    broadcastInDim S8386560 ![] bcast_S_S8386560 f j = f ix0 := by
  refine broadcastInDim_apply _ _ f _ ix0 ?_
  intro a
  exact a.elim0

/-- The two index columns side by side, read at (k, 0): the first column at (k, 0). -/
theorem pair_left {β : Type} (A B : S8386560x1.Idx → β) (k : Fin 8386560) :
    concatenate S8386560x2 1 [⟨S8386560x1, A⟩, ⟨S8386560x1, B⟩] concatenates_S8386560x1_S8386560x1_S8386560x2_d1 (ix2 k (0 : Fin 2)) = A (ix2 k (0 : Fin 1)) := by
  refine concatenate_pair_apply_left 1 A B concatenates_S8386560x1_S8386560x1_S8386560x2_d1 (ix2 k (0 : Fin 2)) rfl (ix2 k (0 : Fin 1)) ?_
  intro b
  match b with
  | ⟨0, _⟩ => rfl
  | ⟨1, _⟩ => rfl

/-- The two index columns side by side, read at (k, 1): the second column at (k, 0). -/
theorem pair_right {β : Type} (A B : S8386560x1.Idx → β) (k : Fin 8386560) :
    concatenate S8386560x2 1 [⟨S8386560x1, A⟩, ⟨S8386560x1, B⟩] concatenates_S8386560x1_S8386560x1_S8386560x2_d1 (ix2 k (1 : Fin 2)) = B (ix2 k (0 : Fin 1)) := by
  refine concatenate_pair_apply_right 1 A B concatenates_S8386560x1_S8386560x1_S8386560x2_d1 (ix2 k (1 : Fin 2)) rfl rfl (ix2 k (0 : Fin 1)) ?_ rfl
  intro b hb
  match b with
  | ⟨0, _⟩ => rfl
  | ⟨1, _⟩ => exact absurd rfl hb

/-! ## The gathers at a pair -/

/-- An index word, wrapped when negative, read at pair k: for a word n < 4096 it is the word. -/
theorem norm_apply (idx : IVec S8386560 32) (k : Fin 8386560) (n : Fin 4096) (h : idx (ix1 k) = BitVec.ofNat 32 n.val) :
    select (cmpi .slt idx (broadcastInDim S8386560 ![] bcast_S_S8386560 (constantI S_ 32 0#32)))
      (addi idx (broadcastInDim S8386560 ![] bcast_S_S8386560 (constantI S_ 32 4096#32))) idx (ix1 k) = BitVec.ofNat 32 n.val := by
  show Scalar.select (IntOp.cmpi .slt (idx (ix1 k)) 0#32) (IntOp.addi (idx (ix1 k)) 4096#32) (idx (ix1 k)) = _
  rw [h]; exact norm_word n.val n.isLt

/-- The flat gather at pair k reads the column at the start index stored at (k, 0), read signed and clamped. -/
theorem take_raw {w : Nat} (x : S4096.Idx → α) (idx : IVec S8386560x1 w) (k : Fin 8386560) :
    Host.gather gather_S4096_S8386560x1_S8386560_n_0_n_n_0_1_1 x idx (ix1 k)
      = x (ix1 ⟨min (idx (ix2 k (0 : Fin 1))).toInt.toNat 4095, by omega⟩) := by
  unfold Host.gather
  congr 1
  funext a
  obtain rfl : a = 0 := Subsingleton.elim _ _
  refine Fin.ext ?_
  show gather_S4096_S8386560x1_S8386560_n_0_n_n_0_1_1.start (ix1 k) idx 0 + gather_S4096_S8386560x1_S8386560_n_0_n_n_0_1_1.batchCoord (ix1 k) 0 + gather_S4096_S8386560x1_S8386560_n_0_n_n_0_1_1.offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S4096_S8386560x1_S8386560_n_0_n_n_0_1_1.startIndexMap from List.mem_singleton.mpr rfl)]
  have hsi : gather_S4096_S8386560x1_S8386560_n_0_n_n_0_1_1.siIdx (ix1 k)
      ⟨List.idxOf (0 : Fin 1) gather_S4096_S8386560x1_S8386560_n_0_n_n_0_1_1.startIndexMap, List.idxOf_lt_length_iff.2 (List.mem_singleton.mpr rfl)⟩
        = ix2 k (0 : Fin 1) := by
    funext b; refine Fin.ext ?_
    match b with
    | ⟨0, _⟩ => rfl
    | ⟨1, _⟩ => rfl
  rw [hsi]
  rfl

/-- x[idx] at pair k when the start index stored at (k, 0) reads n < 4096: x at n. -/
theorem take_of_word {w : Nat} (x : S4096.Idx → α) (idx : IVec S8386560x1 w) (k : Fin 8386560) (n : Fin 4096)
    (h : (idx (ix2 k (0 : Fin 1))).toInt.toNat = n.val) :
    Host.gather gather_S4096_S8386560x1_S8386560_n_0_n_n_0_1_1 x idx (ix1 k) = x (ix1 n) := by
  rw [take_raw]
  congr 1
  funext a
  obtain rfl : a = 0 := Subsingleton.elim _ _
  refine Fin.ext ?_
  show min _ 4095 = n.val
  rw [h]
  have := n.isLt
  omega

/-- x[idx] at pair k, the index word wrapped first: for an index word n < 4096 it is x at n. -/
theorem take_norm (x : S4096.Idx → α) (idx : IVec S8386560 32) (k : Fin 8386560) (n : Fin 4096)
    (h : idx (ix1 k) = BitVec.ofNat 32 n.val) :
    Host.gather gather_S4096_S8386560x1_S8386560_n_0_n_n_0_1_1 x
      (broadcastInDim S8386560x1 ![0] bcast_S8386560_S8386560x1_0
        (select (cmpi .slt idx (broadcastInDim S8386560 ![] bcast_S_S8386560 (constantI S_ 32 0#32)))
          (addi idx (broadcastInDim S8386560 ![] bcast_S_S8386560 (constantI S_ 32 4096#32))) idx)) (ix1 k)
      = x (ix1 n) := by
  refine take_of_word x _ k n ?_
  rw [bcol_apply, norm_apply idx k n h]
  exact toInt_small n.val n.isLt

/-- The point gather m[iu, ju] at pair k reads the matrix at the two start indices stored at (k, 0) and (k, 1),
    each read signed and clamped. -/
theorem point_raw {w : Nat} (x : S4096x4096.Idx → α) (idx : IVec S8386560x2 w) (k : Fin 8386560) :
    Host.gather gather_S4096x4096_S8386560x2_S8386560_n_01_n_n_01_1_11 x idx (ix1 k)
      = x (ix2 ⟨min (idx (ix2 k (0 : Fin 2))).toInt.toNat 4095, by omega⟩
               ⟨min (idx (ix2 k (1 : Fin 2))).toInt.toNat 4095, by omega⟩) := by
  have h0 : (gather_S4096x4096_S8386560x2_S8386560_n_01_n_n_01_1_11.operandIdx (ix1 k) idx 0).val = min (idx (ix2 k (0 : Fin 2))).toInt.toNat 4095 := by
    show gather_S4096x4096_S8386560x2_S8386560_n_01_n_n_01_1_11.start (ix1 k) idx 0 + gather_S4096x4096_S8386560x2_S8386560_n_01_n_n_01_1_11.batchCoord (ix1 k) 0 + gather_S4096x4096_S8386560x2_S8386560_n_01_n_n_01_1_11.offCoord (ix1 k) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ gather_S4096x4096_S8386560x2_S8386560_n_01_n_n_01_1_11.startIndexMap from by decide)]
    have hsi : gather_S4096x4096_S8386560x2_S8386560_n_01_n_n_01_1_11.siIdx (ix1 k)
        ⟨List.idxOf (0 : Fin 2) gather_S4096x4096_S8386560x2_S8386560_n_01_n_n_01_1_11.startIndexMap, List.idxOf_lt_length_iff.2 (by decide)⟩ = ix2 k (0 : Fin 2) := by
      funext b; refine Fin.ext ?_
      match b with
      | ⟨0, _⟩ => rfl
      | ⟨1, _⟩ => rfl
    rw [hsi]
    rfl
  have h1 : (gather_S4096x4096_S8386560x2_S8386560_n_01_n_n_01_1_11.operandIdx (ix1 k) idx 1).val = min (idx (ix2 k (1 : Fin 2))).toInt.toNat 4095 := by
    show gather_S4096x4096_S8386560x2_S8386560_n_01_n_n_01_1_11.start (ix1 k) idx 1 + gather_S4096x4096_S8386560x2_S8386560_n_01_n_n_01_1_11.batchCoord (ix1 k) 1 + gather_S4096x4096_S8386560x2_S8386560_n_01_n_n_01_1_11.offCoord (ix1 k) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ gather_S4096x4096_S8386560x2_S8386560_n_01_n_n_01_1_11.startIndexMap from by decide)]
    have hsi : gather_S4096x4096_S8386560x2_S8386560_n_01_n_n_01_1_11.siIdx (ix1 k)
        ⟨List.idxOf (1 : Fin 2) gather_S4096x4096_S8386560x2_S8386560_n_01_n_n_01_1_11.startIndexMap, List.idxOf_lt_length_iff.2 (by decide)⟩ = ix2 k (1 : Fin 2) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0
  | ⟨1, _⟩ => exact h1

/-- r_mat[iu, ju] at pair k, the two index words wrapped first: for words a, b < 4096 it is the matrix at (a, b). -/
theorem point_norm (x : S4096x4096.Idx → α) (iu ju : IVec S8386560 32) (k : Fin 8386560) (a b : Fin 4096)
    (ha : iu (ix1 k) = BitVec.ofNat 32 a.val) (hb : ju (ix1 k) = BitVec.ofNat 32 b.val) :
    Host.gather gather_S4096x4096_S8386560x2_S8386560_n_01_n_n_01_1_11 x
      (concatenate S8386560x2 1
        [⟨S8386560x1, broadcastInDim S8386560x1 ![0] bcast_S8386560_S8386560x1_0
            (select (cmpi .slt iu (broadcastInDim S8386560 ![] bcast_S_S8386560 (constantI S_ 32 0#32)))
              (addi iu (broadcastInDim S8386560 ![] bcast_S_S8386560 (constantI S_ 32 4096#32))) iu)⟩,
         ⟨S8386560x1, broadcastInDim S8386560x1 ![0] bcast_S8386560_S8386560x1_0
            (select (cmpi .slt ju (broadcastInDim S8386560 ![] bcast_S_S8386560 (constantI S_ 32 0#32)))
              (addi ju (broadcastInDim S8386560 ![] bcast_S_S8386560 (constantI S_ 32 4096#32))) ju)⟩]
        concatenates_S8386560x1_S8386560x1_S8386560x2_d1) (ix1 k)
      = x (ix2 a b) := by
  rw [point_raw]
  congr 1
  funext d
  refine Fin.ext ?_
  match d with
  | ⟨0, _⟩ =>
    show min _ 4095 = a.val
    rw [pair_left, bcol_apply, norm_apply iu k a ha, toInt_small a.val a.isLt]
    have := a.isLt
    omega
  | ⟨1, _⟩ =>
    show min _ 4095 = b.val
    rw [pair_right, bcol_apply, norm_apply ju k b hb, toInt_small b.val b.isLt]
    have := b.isLt
    omega

end Cert.ReferenceIdeal.HandPair

end
-- ==== Proof.RPairMask.lean ====
/-
  The pairs' distances and the cutoff. At pair k, whose row and column atoms are a and b, the reference gathers the
  distance matrix's entry (a, b), compares it with the cutoff 5 and keeps it where it is within the cutoff, putting 1 in
  its place where it is not (so that the terms evaluated beyond the cutoff, which the mask then drops, stay finite).
-/
import proofs.«121872_j23974507446662_1_alg».proof.Proof.RStageA
import proofs.«121872_j23974507446662_1_alg».proof.Proof.RPairGather

noncomputable section

open scoped BigOperators

namespace Cert.ReferenceIdeal.HandPair

open Cert.ReferenceIdeal Cert.ReferenceIdeal.Gen Cert.ReferenceIdeal.HandRun Idealize.ShloMosaic Idealize.ShloMosaic.ValueIdx
  Idealize.SL.Sem Idealize.ShloMosaic.StableHlo Idealize.ShloMosaic.TcCoe

/-- The cutoff mask at pair k: the pair's distance against the cutoff. -/
theorem g6_v77 (V : Valuation τ sig (Elt Ideal)) (k : Fin 8386560) (a b : Fin 4096) (rm : EReal)
    (hI : V (Proc.devRef .tc main_v59) (ix1 k) = BitVec.ofNat 32 a.val) (hJ : V (Proc.devRef .tc main_v61) (ix1 k) = BitVec.ofNat 32 b.val)
    (hr : V (Proc.devRef .tc main_v41) (ix2 a b) = rm) :
    after (g6 (F := Ideal)) V (Proc.devRef .tc main_v77) (ix1 k) = Ideal.cmp .ole rm Cert.Spec.five := by
  rw [st_main_v77]
  show Ideal.cmp .ole (Host.gather gather_S4096x4096_S8386560x2_S8386560_n_01_n_n_01_1_11 (V (Proc.devRef .tc main_v41)) _ (ix1 k)) Cert.Spec.five = _
  rw [point_norm _ _ _ k a b hI hJ, hr]

/-- The safe distance at pair k: the pair's distance within the cutoff, one beyond it. -/
theorem g6_v78 (V : Valuation τ sig (Elt Ideal)) (k : Fin 8386560) (a b : Fin 4096) (rm : EReal)
    (hI : V (Proc.devRef .tc main_v59) (ix1 k) = BitVec.ofNat 32 a.val) (hJ : V (Proc.devRef .tc main_v61) (ix1 k) = BitVec.ofNat 32 b.val)
    (hr : V (Proc.devRef .tc main_v41) (ix2 a b) = rm) :
    after (g6 (F := Ideal)) V (Proc.devRef .tc main_v78) (ix1 k) = Scalar.select (Ideal.cmp .ole rm Cert.Spec.five) rm Cert.Spec.one := by
  rw [st_main_v78]
  show Scalar.select (Ideal.cmp .ole (Host.gather gather_S4096x4096_S8386560x2_S8386560_n_01_n_n_01_1_11 (V (Proc.devRef .tc main_v41)) _ (ix1 k)) Cert.Spec.five)
      (Host.gather gather_S4096x4096_S8386560x2_S8386560_n_01_n_n_01_1_11 (V (Proc.devRef .tc main_v41)) _ (ix1 k)) Cert.Spec.one = _
  rw [point_norm _ _ _ k a b hI hJ, hr]

end Cert.ReferenceIdeal.HandPair

end
-- ==== Proof.RStageB.lean ====
/-
  What some of the later stretches of the reference's operations leave in the buffers later stretches read, for any
  contents before them: each stretch's own operations composed over the buffers it reads.
-/
import proofs.«121872_j23974507446662_1_alg».proof.Proof.RSeg

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- What stretch 7 leaves in main_v114. -/
theorem st_main_v114 (V : Valuation τ sig (Elt F)) :
    after (g7 (F := F)) V (Proc.devRef .tc main_v114) = ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v19)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) := by
  dsimp only [g7]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 7 leaves in main_v113. -/
theorem st_main_v113 (V : Valuation τ sig (Elt F)) :
    after (g7 (F := F)) V (Proc.devRef .tc main_v113) = ((mulf : (⟨S8386560, .f32⟩ : BufTy).Contents (Elt F) → (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v3)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59))))) ((Host.exp : (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((Host.negf : (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v11)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) ((broadcastInDim S8386560 ![] bcast_S_S8386560 : (⟨S_, .f32⟩ : BufTy).Contents (Elt F) → (⟨S8386560, .f32⟩ : BufTy).Contents (Elt F)) ((constant S_ .f32 0x3F800000#32))))))) := by
  dsimp only [g7]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 8 leaves in main_v122. -/
theorem st_main_v122 (V : Valuation τ sig (Elt F)) :
    after (g8 (F := F)) V (Proc.devRef .tc main_v122) = ((Host.divf : (⟨S8386560, .f32⟩ : BufTy).Contents (Elt F) → (⟨S8386560, .f32⟩ : BufTy).Contents (Elt F) → (⟨S8386560, .f32⟩ : BufTy).Contents (Elt F)) (V (Proc.devRef .tc main_v113)) ((addf : (⟨S8386560, .f32⟩ : BufTy).Contents (Elt F) → (⟨S8386560, .f32⟩ : BufTy).Contents (Elt F) → (⟨S8386560, .f32⟩ : BufTy).Contents (Elt F)) ((broadcastInDim S8386560 ![] bcast_S_S8386560 : (⟨S_, .f32⟩ : BufTy).Contents (Elt F) → (⟨S8386560, .f32⟩ : BufTy).Contents (Elt F)) ((constant S_ .f32 0x3F800000#32))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114))) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114))) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114))) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114))))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114))) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114))) ((mulf : (⟨S8386560, .f32⟩ : BufTy).Contents (Elt F) → (⟨S8386560, .f32⟩ : BufTy).Contents (Elt F) → (⟨S8386560, .f32⟩ : BufTy).Contents (Elt F)) (V (Proc.devRef .tc main_v114)) (V (Proc.devRef .tc main_v114))))))))) := by
  dsimp only [g8]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 9 leaves in main_v158. -/
theorem st_main_v158 (V : Valuation τ sig (Elt F)) :
    after (g9 (F := F)) V (Proc.devRef .tc main_v158) = ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v19)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) := by
  dsimp only [g9]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 9 leaves in main_v157. -/
theorem st_main_v157 (V : Valuation τ sig (Elt F)) :
    after (g9 (F := F)) V (Proc.devRef .tc main_v157) = ((mulf : (⟨S8386560, .f32⟩ : BufTy).Contents (Elt F) → (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v3)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61))))) ((Host.exp : (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((Host.negf : (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v11)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) ((broadcastInDim S8386560 ![] bcast_S_S8386560 : (⟨S_, .f32⟩ : BufTy).Contents (Elt F) → (⟨S8386560, .f32⟩ : BufTy).Contents (Elt F)) ((constant S_ .f32 0x3F800000#32))))))) := by
  dsimp only [g9]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 10 leaves in main_v166. -/
theorem st_main_v166 (V : Valuation τ sig (Elt F)) :
    after (g10 (F := F)) V (Proc.devRef .tc main_v166) = ((Host.divf : (⟨S8386560, .f32⟩ : BufTy).Contents (Elt F) → (⟨S8386560, .f32⟩ : BufTy).Contents (Elt F) → (⟨S8386560, .f32⟩ : BufTy).Contents (Elt F)) (V (Proc.devRef .tc main_v157)) ((addf : (⟨S8386560, .f32⟩ : BufTy).Contents (Elt F) → (⟨S8386560, .f32⟩ : BufTy).Contents (Elt F) → (⟨S8386560, .f32⟩ : BufTy).Contents (Elt F)) ((broadcastInDim S8386560 ![] bcast_S_S8386560 : (⟨S_, .f32⟩ : BufTy).Contents (Elt F) → (⟨S8386560, .f32⟩ : BufTy).Contents (Elt F)) ((constant S_ .f32 0x3F800000#32))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158))) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158))) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158))) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158))))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158))) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158))) ((mulf : (⟨S8386560, .f32⟩ : BufTy).Contents (Elt F) → (⟨S8386560, .f32⟩ : BufTy).Contents (Elt F) → (⟨S8386560, .f32⟩ : BufTy).Contents (Elt F)) (V (Proc.devRef .tc main_v158)) (V (Proc.devRef .tc main_v158))))))))) := by
  dsimp only [g10]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

end Cert.ReferenceIdeal.HandRun

end
-- ==== Proof.RPairDensity.lean ====
/-
  The two atoms' density terms at a pair. With r the pair's safe distance and q the parameters of the atom the index
  word names (re = q 0, fe = q 1, β = q 5, λ = q 9), the reference first forms the numerator fe · exp(−β (r/re − 1)) and
  the base r/re − λ, then divides the numerator by one plus the base's twentieth power: f_q(r). Once for the pair's row
  atom and once for its column atom.
-/
import proofs.«121872_j23974507446662_1_alg».proof.Proof.RStageB
import proofs.«121872_j23974507446662_1_alg».proof.Proof.RPairGather

noncomputable section

open scoped BigOperators

namespace Cert.ReferenceIdeal.HandPair

open Cert.ReferenceIdeal Cert.ReferenceIdeal.Gen Cert.ReferenceIdeal.HandRun Idealize.ShloMosaic Idealize.ShloMosaic.ValueIdx
  Idealize.SL.Sem Idealize.ShloMosaic.StableHlo Idealize.ShloMosaic.TcCoe

/-- The numerator of the row atom's density term at pair k. -/
theorem g7_v113 (V : Valuation τ sig (Elt Ideal)) (k : Fin 8386560) (n : Fin 4096) (q : Fin 22 → EReal) (r : EReal) (hI : V (Proc.devRef .tc main_v59) (ix1 k) = BitVec.ofNat 32 n.val)
    (hre : V (Proc.devRef .tc main_v1) (ix1 n) = q 0) (hfe : V (Proc.devRef .tc main_v3) (ix1 n) = q 1) (hbeta : V (Proc.devRef .tc main_v11) (ix1 n) = q 5)
    (hrs : V (Proc.devRef .tc main_v78) (ix1 k) = r) :
    after (g7 (F := Ideal)) V (Proc.devRef .tc main_v113) (ix1 k) = numR r (q 0) (q 1) (q 5) := by
  rw [st_main_v113]
  show (Host.gather gather_S4096_S8386560x1_S8386560_n_0_n_n_0_1_1 (V (Proc.devRef .tc main_v3)) _ (ix1 k) : EReal) * Ideal.exp ((-(Host.gather gather_S4096_S8386560x1_S8386560_n_0_n_n_0_1_1 (V (Proc.devRef .tc main_v11)) _ (ix1 k) : EReal)) * (Ideal.div (V (Proc.devRef .tc main_v78) (ix1 k) : EReal) (Host.gather gather_S4096_S8386560x1_S8386560_n_0_n_n_0_1_1 (V (Proc.devRef .tc main_v1)) _ (ix1 k) : EReal) - Cert.Spec.one)) = _
  rw [take_norm _ _ k n hI, take_norm _ _ k n hI, take_norm _ _ k n hI, hfe, hbeta, hre, hrs]
  rfl

/-- The base of the twentieth power in the row atom's density term at pair k. -/
theorem g7_v114 (V : Valuation τ sig (Elt Ideal)) (k : Fin 8386560) (n : Fin 4096) (q : Fin 22 → EReal) (r : EReal) (hI : V (Proc.devRef .tc main_v59) (ix1 k) = BitVec.ofNat 32 n.val)
    (hre : V (Proc.devRef .tc main_v1) (ix1 n) = q 0) (hlam : V (Proc.devRef .tc main_v19) (ix1 n) = q 9)
    (hrs : V (Proc.devRef .tc main_v78) (ix1 k) = r) :
    after (g7 (F := Ideal)) V (Proc.devRef .tc main_v114) (ix1 k) = baseR r (q 0) (q 9) := by
  rw [st_main_v114]
  show Ideal.div (V (Proc.devRef .tc main_v78) (ix1 k) : EReal) (Host.gather gather_S4096_S8386560x1_S8386560_n_0_n_n_0_1_1 (V (Proc.devRef .tc main_v1)) _ (ix1 k) : EReal) - (Host.gather gather_S4096_S8386560x1_S8386560_n_0_n_n_0_1_1 (V (Proc.devRef .tc main_v19)) _ (ix1 k) : EReal) = _
  rw [take_norm _ _ k n hI, take_norm _ _ k n hI, hre, hlam, hrs]
  rfl

/-- The numerator of the column atom's density term at pair k. -/
theorem g9_v157 (V : Valuation τ sig (Elt Ideal)) (k : Fin 8386560) (n : Fin 4096) (q : Fin 22 → EReal) (r : EReal) (hI : V (Proc.devRef .tc main_v61) (ix1 k) = BitVec.ofNat 32 n.val)
    (hre : V (Proc.devRef .tc main_v1) (ix1 n) = q 0) (hfe : V (Proc.devRef .tc main_v3) (ix1 n) = q 1) (hbeta : V (Proc.devRef .tc main_v11) (ix1 n) = q 5)
    (hrs : V (Proc.devRef .tc main_v78) (ix1 k) = r) :
    after (g9 (F := Ideal)) V (Proc.devRef .tc main_v157) (ix1 k) = numR r (q 0) (q 1) (q 5) := by
  rw [st_main_v157]
  show (Host.gather gather_S4096_S8386560x1_S8386560_n_0_n_n_0_1_1 (V (Proc.devRef .tc main_v3)) _ (ix1 k) : EReal) * Ideal.exp ((-(Host.gather gather_S4096_S8386560x1_S8386560_n_0_n_n_0_1_1 (V (Proc.devRef .tc main_v11)) _ (ix1 k) : EReal)) * (Ideal.div (V (Proc.devRef .tc main_v78) (ix1 k) : EReal) (Host.gather gather_S4096_S8386560x1_S8386560_n_0_n_n_0_1_1 (V (Proc.devRef .tc main_v1)) _ (ix1 k) : EReal) - Cert.Spec.one)) = _
  rw [take_norm _ _ k n hI, take_norm _ _ k n hI, take_norm _ _ k n hI, hfe, hbeta, hre, hrs]
  rfl

/-- The base of the twentieth power in the column atom's density term at pair k. -/
theorem g9_v158 (V : Valuation τ sig (Elt Ideal)) (k : Fin 8386560) (n : Fin 4096) (q : Fin 22 → EReal) (r : EReal) (hI : V (Proc.devRef .tc main_v61) (ix1 k) = BitVec.ofNat 32 n.val)
    (hre : V (Proc.devRef .tc main_v1) (ix1 n) = q 0) (hlam : V (Proc.devRef .tc main_v19) (ix1 n) = q 9)
    (hrs : V (Proc.devRef .tc main_v78) (ix1 k) = r) :
    after (g9 (F := Ideal)) V (Proc.devRef .tc main_v158) (ix1 k) = baseR r (q 0) (q 9) := by
  rw [st_main_v158]
  show Ideal.div (V (Proc.devRef .tc main_v78) (ix1 k) : EReal) (Host.gather gather_S4096_S8386560x1_S8386560_n_0_n_n_0_1_1 (V (Proc.devRef .tc main_v1)) _ (ix1 k) : EReal) - (Host.gather gather_S4096_S8386560x1_S8386560_n_0_n_n_0_1_1 (V (Proc.devRef .tc main_v19)) _ (ix1 k) : EReal) = _
  rw [take_norm _ _ k n hI, take_norm _ _ k n hI, hre, hlam, hrs]
  rfl

/-- The row atom's density term at pair k: its numerator over one plus the twentieth power of its base. -/
theorem g8_v122 (V : Valuation τ sig (Elt Ideal)) (k : Fin 8386560) (q : Fin 22 → EReal) (r : EReal)
    (hnum : V (Proc.devRef .tc main_v113) (ix1 k) = numR r (q 0) (q 1) (q 5)) (hbase : V (Proc.devRef .tc main_v114) (ix1 k) = baseR r (q 0) (q 9)) :
    after (g8 (F := Ideal)) V (Proc.devRef .tc main_v122) (ix1 k) = Cert.Spec.fR q r := by
  rw [st_main_v122]
  show Ideal.div (V (Proc.devRef .tc main_v113) (ix1 k) : EReal) (Cert.Spec.one + Cert.Spec.pow20R (V (Proc.devRef .tc main_v114) (ix1 k) : EReal)) = _
  rw [hnum, hbase]
  rfl

/-- The column atom's density term at pair k: its numerator over one plus the twentieth power of its base. -/
theorem g10_v166 (V : Valuation τ sig (Elt Ideal)) (k : Fin 8386560) (q : Fin 22 → EReal) (r : EReal)
    (hnum : V (Proc.devRef .tc main_v157) (ix1 k) = numR r (q 0) (q 1) (q 5)) (hbase : V (Proc.devRef .tc main_v158) (ix1 k) = baseR r (q 0) (q 9)) :
    after (g10 (F := Ideal)) V (Proc.devRef .tc main_v166) (ix1 k) = Cert.Spec.fR q r := by
  rw [st_main_v166]
  show Ideal.div (V (Proc.devRef .tc main_v157) (ix1 k) : EReal) (Cert.Spec.one + Cert.Spec.pow20R (V (Proc.devRef .tc main_v158) (ix1 k) : EReal)) = _
  rw [hnum, hbase]
  rfl

end Cert.ReferenceIdeal.HandPair

end
-- ==== Proof.RStageC.lean ====
/-
  What some of the later stretches of the reference's operations leave in the buffers later stretches read, for any
  contents before them: each stretch's own operations composed over the buffers it reads.
-/
import proofs.«121872_j23974507446662_1_alg».proof.Proof.RSeg

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- What stretch 11 leaves in main_v223. -/
theorem st_main_v223 (V : Valuation τ sig (Elt F)) :
    after (g11 (F := F)) V (Proc.devRef .tc main_v223) = ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v17)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) := by
  dsimp only [g11]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 11 leaves in main_v222. -/
theorem st_main_v222 (V : Valuation τ sig (Elt F)) :
    after (g11 (F := F)) V (Proc.devRef .tc main_v222) = ((mulf : (⟨S8386560, .f32⟩ : BufTy).Contents (Elt F) → (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v13)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59))))) ((Host.exp : (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((Host.negf : (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v9)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) ((broadcastInDim S8386560 ![] bcast_S_S8386560 : (⟨S_, .f32⟩ : BufTy).Contents (Elt F) → (⟨S8386560, .f32⟩ : BufTy).Contents (Elt F)) ((constant S_ .f32 0x3F800000#32))))))) := by
  dsimp only [g11]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 11 leaves in main_v201. -/
theorem st_main_v201 (V : Valuation τ sig (Elt F)) :
    after (g11 (F := F)) V (Proc.devRef .tc main_v201) = (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v11)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59))))) := by
  dsimp only [g11]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 11 leaves in main_v216. -/
theorem st_main_v216 (V : Valuation τ sig (Elt F)) :
    after (g11 (F := F)) V (Proc.devRef .tc main_v216) = ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59)))))) := by
  dsimp only [g11]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 11 leaves in main_v180. -/
theorem st_main_v180 (V : Valuation τ sig (Elt F)) :
    after (g11 (F := F)) V (Proc.devRef .tc main_v180) = (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v15)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59))))) := by
  dsimp only [g11]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 11 leaves in main_v215. -/
theorem st_main_v215 (V : Valuation τ sig (Elt F)) :
    after (g11 (F := F)) V (Proc.devRef .tc main_v215) = (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v19)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v59)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v59))))) := by
  dsimp only [g11]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 12 leaves in main_v238. -/
theorem st_main_v238 (V : Valuation τ sig (Elt F)) :
    after (g12 (F := F)) V (Proc.devRef .tc main_v238) = ((subf : (⟨S8386560, .f32⟩ : BufTy).Contents (Elt F) → (⟨S8386560, .f32⟩ : BufTy).Contents (Elt F) → (⟨S8386560, .f32⟩ : BufTy).Contents (Elt F)) (V (Proc.devRef .tc main_v216)) (V (Proc.devRef .tc main_v215))) := by
  dsimp only [g12]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 12 leaves in main_v237. -/
theorem st_main_v237 (V : Valuation τ sig (Elt F)) :
    after (g12 (F := F)) V (Proc.devRef .tc main_v237) = ((mulf : (⟨S8386560, .f32⟩ : BufTy).Contents (Elt F) → (⟨S8386560, .f32⟩ : BufTy).Contents (Elt F) → (⟨S8386560, .f32⟩ : BufTy).Contents (Elt F)) (V (Proc.devRef .tc main_v180)) ((Host.exp : (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((Host.negf : (⟨S8386560, .f32⟩ : BufTy).Contents (Elt F) → (⟨S8386560, .f32⟩ : BufTy).Contents (Elt F)) (V (Proc.devRef .tc main_v201))) ((subf : (⟨S8386560, .f32⟩ : BufTy).Contents (Elt F) → (⟨S8386560, .f32⟩ : BufTy).Contents (Elt F) → (⟨S8386560, .f32⟩ : BufTy).Contents (Elt F)) (V (Proc.devRef .tc main_v216)) ((broadcastInDim S8386560 ![] bcast_S_S8386560 : (⟨S_, .f32⟩ : BufTy).Contents (Elt F) → (⟨S8386560, .f32⟩ : BufTy).Contents (Elt F)) ((constant S_ .f32 0x3F800000#32))))))) := by
  dsimp only [g12]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 12 leaves in main_v231. -/
theorem st_main_v231 (V : Valuation τ sig (Elt F)) :
    after (g12 (F := F)) V (Proc.devRef .tc main_v231) = ((Host.divf : (⟨S8386560, .f32⟩ : BufTy).Contents (Elt F) → (⟨S8386560, .f32⟩ : BufTy).Contents (Elt F) → (⟨S8386560, .f32⟩ : BufTy).Contents (Elt F)) (V (Proc.devRef .tc main_v222)) ((addf : (⟨S8386560, .f32⟩ : BufTy).Contents (Elt F) → (⟨S8386560, .f32⟩ : BufTy).Contents (Elt F) → (⟨S8386560, .f32⟩ : BufTy).Contents (Elt F)) ((broadcastInDim S8386560 ![] bcast_S_S8386560 : (⟨S_, .f32⟩ : BufTy).Contents (Elt F) → (⟨S8386560, .f32⟩ : BufTy).Contents (Elt F)) ((constant S_ .f32 0x3F800000#32))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223))) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223))) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223))) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223))))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223))) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223))) ((mulf : (⟨S8386560, .f32⟩ : BufTy).Contents (Elt F) → (⟨S8386560, .f32⟩ : BufTy).Contents (Elt F) → (⟨S8386560, .f32⟩ : BufTy).Contents (Elt F)) (V (Proc.devRef .tc main_v223)) (V (Proc.devRef .tc main_v223))))))))) := by
  dsimp only [g12]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 13 leaves in main_v247. -/
theorem st_main_v247 (V : Valuation τ sig (Elt F)) :
    after (g13 (F := F)) V (Proc.devRef .tc main_v247) = ((subf : (⟨S8386560, .f32⟩ : BufTy).Contents (Elt F) → (⟨S8386560, .f32⟩ : BufTy).Contents (Elt F) → (⟨S8386560, .f32⟩ : BufTy).Contents (Elt F)) (V (Proc.devRef .tc main_v231)) ((Host.divf : (⟨S8386560, .f32⟩ : BufTy).Contents (Elt F) → (⟨S8386560, .f32⟩ : BufTy).Contents (Elt F) → (⟨S8386560, .f32⟩ : BufTy).Contents (Elt F)) (V (Proc.devRef .tc main_v237)) ((addf : (⟨S8386560, .f32⟩ : BufTy).Contents (Elt F) → (⟨S8386560, .f32⟩ : BufTy).Contents (Elt F) → (⟨S8386560, .f32⟩ : BufTy).Contents (Elt F)) ((broadcastInDim S8386560 ![] bcast_S_S8386560 : (⟨S_, .f32⟩ : BufTy).Contents (Elt F) → (⟨S8386560, .f32⟩ : BufTy).Contents (Elt F)) ((constant S_ .f32 0x3F800000#32))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238))) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238))) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238))) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238))))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238))) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238))) ((mulf : (⟨S8386560, .f32⟩ : BufTy).Contents (Elt F) → (⟨S8386560, .f32⟩ : BufTy).Contents (Elt F) → (⟨S8386560, .f32⟩ : BufTy).Contents (Elt F)) (V (Proc.devRef .tc main_v238)) (V (Proc.devRef .tc main_v238)))))))))) := by
  dsimp only [g13]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 14 leaves in main_v304. -/
theorem st_main_v304 (V : Valuation τ sig (Elt F)) :
    after (g14 (F := F)) V (Proc.devRef .tc main_v304) = ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v17)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) := by
  dsimp only [g14]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 14 leaves in main_v303. -/
theorem st_main_v303 (V : Valuation τ sig (Elt F)) :
    after (g14 (F := F)) V (Proc.devRef .tc main_v303) = ((mulf : (⟨S8386560, .f32⟩ : BufTy).Contents (Elt F) → (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v13)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61))))) ((Host.exp : (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((Host.negf : (⟨S8386560, .f32⟩ : BufTy).Contents (Elt F) → (⟨S8386560, .f32⟩ : BufTy).Contents (Elt F)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v9)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) ((subf : (⟨S8386560, .f32⟩ : BufTy).Contents (Elt F) → (⟨S8386560, .f32⟩ : BufTy).Contents (Elt F) → (⟨S8386560, .f32⟩ : BufTy).Contents (Elt F)) ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) ((broadcastInDim S8386560 ![] bcast_S_S8386560 : (⟨S_, .f32⟩ : BufTy).Contents (Elt F) → (⟨S8386560, .f32⟩ : BufTy).Contents (Elt F)) ((constant S_ .f32 0x3F800000#32))))))) := by
  dsimp only [g14]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 14 leaves in main_v282. -/
theorem st_main_v282 (V : Valuation τ sig (Elt F)) :
    after (g14 (F := F)) V (Proc.devRef .tc main_v282) = (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v11)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61))))) := by
  dsimp only [g14]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 14 leaves in main_v297. -/
theorem st_main_v297 (V : Valuation τ sig (Elt F)) :
    after (g14 (F := F)) V (Proc.devRef .tc main_v297) = ((Host.divf : (⟨S8386560, .f32⟩ : BufTy).Contents (Elt F) → (⟨S8386560, .f32⟩ : BufTy).Contents (Elt F) → (⟨S8386560, .f32⟩ : BufTy).Contents (Elt F)) (V (Proc.devRef .tc main_v78)) (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v1)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61)))))) := by
  dsimp only [g14]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 14 leaves in main_v261. -/
theorem st_main_v261 (V : Valuation τ sig (Elt F)) :
    after (g14 (F := F)) V (Proc.devRef .tc main_v261) = (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v15)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61))))) := by
  dsimp only [g14]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 14 leaves in main_v296. -/
theorem st_main_v296 (V : Valuation τ sig (Elt F)) :
    after (g14 (F := F)) V (Proc.devRef .tc main_v296) = (((fun x i => Host.gather gather_S4096_S8386560x1_S8386560_n_0_n_n_0_1_1 x i) : (⟨S4096, .f32⟩ : BufTy).Contents (Elt F) → (⟨S8386560x1, .i32⟩ : BufTy).Contents (Elt F) → (⟨S8386560, .f32⟩ : BufTy).Contents (Elt F)) (V (Proc.devRef .tc main_v19)) ((broadcastInDim S8386560x1 ![0] bcast_S8386560_S8386560x1_0 : (⟨S8386560, .i32⟩ : BufTy).Contents (Elt F) → (⟨S8386560x1, .i32⟩ : BufTy).Contents (Elt F)) ((select : (⟨S8386560, .i1⟩ : BufTy).Contents (Elt F) → (⟨S8386560, .i32⟩ : BufTy).Contents (Elt F) → (⟨S8386560, .i32⟩ : BufTy).Contents (Elt F) → (⟨S8386560, .i32⟩ : BufTy).Contents (Elt F)) ((cmpi .slt : (⟨S8386560, .i32⟩ : BufTy).Contents (Elt F) → (⟨S8386560, .i32⟩ : BufTy).Contents (Elt F) → (⟨S8386560, .i1⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 0#32)))) ((addi : (⟨S8386560, .i32⟩ : BufTy).Contents (Elt F) → (⟨S8386560, .i32⟩ : BufTy).Contents (Elt F) → (⟨S8386560, .i32⟩ : BufTy).Contents (Elt F)) (V (Proc.devRef .tc main_v61)) ((broadcastInDim S8386560 ![] bcast_S_S8386560 : (⟨S_, .i32⟩ : BufTy).Contents (Elt F) → (⟨S8386560, .i32⟩ : BufTy).Contents (Elt F)) ((constantI S_ 32 4096#32)))) (V (Proc.devRef .tc main_v61))))) := by
  dsimp only [g14]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 15 leaves in main_v319. -/
theorem st_main_v319 (V : Valuation τ sig (Elt F)) :
    after (g15 (F := F)) V (Proc.devRef .tc main_v319) = ((subf : (⟨S8386560, .f32⟩ : BufTy).Contents (Elt F) → (⟨S8386560, .f32⟩ : BufTy).Contents (Elt F) → (⟨S8386560, .f32⟩ : BufTy).Contents (Elt F)) (V (Proc.devRef .tc main_v297)) (V (Proc.devRef .tc main_v296))) := by
  dsimp only [g15]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 15 leaves in main_v318. -/
theorem st_main_v318 (V : Valuation τ sig (Elt F)) :
    after (g15 (F := F)) V (Proc.devRef .tc main_v318) = ((mulf : (⟨S8386560, .f32⟩ : BufTy).Contents (Elt F) → (⟨S8386560, .f32⟩ : BufTy).Contents (Elt F) → (⟨S8386560, .f32⟩ : BufTy).Contents (Elt F)) (V (Proc.devRef .tc main_v261)) ((Host.exp : (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((Host.negf : (⟨S8386560, .f32⟩ : BufTy).Contents (Elt F) → (⟨S8386560, .f32⟩ : BufTy).Contents (Elt F)) (V (Proc.devRef .tc main_v282))) ((subf : (⟨S8386560, .f32⟩ : BufTy).Contents (Elt F) → (⟨S8386560, .f32⟩ : BufTy).Contents (Elt F) → (⟨S8386560, .f32⟩ : BufTy).Contents (Elt F)) (V (Proc.devRef .tc main_v297)) ((broadcastInDim S8386560 ![] bcast_S_S8386560 : (⟨S_, .f32⟩ : BufTy).Contents (Elt F) → (⟨S8386560, .f32⟩ : BufTy).Contents (Elt F)) ((constant S_ .f32 0x3F800000#32))))))) := by
  dsimp only [g15]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 15 leaves in main_v312. -/
theorem st_main_v312 (V : Valuation τ sig (Elt F)) :
    after (g15 (F := F)) V (Proc.devRef .tc main_v312) = ((Host.divf : (⟨S8386560, .f32⟩ : BufTy).Contents (Elt F) → (⟨S8386560, .f32⟩ : BufTy).Contents (Elt F) → (⟨S8386560, .f32⟩ : BufTy).Contents (Elt F)) (V (Proc.devRef .tc main_v303)) ((addf : (⟨S8386560, .f32⟩ : BufTy).Contents (Elt F) → (⟨S8386560, .f32⟩ : BufTy).Contents (Elt F) → (⟨S8386560, .f32⟩ : BufTy).Contents (Elt F)) ((broadcastInDim S8386560 ![] bcast_S_S8386560 : (⟨S_, .f32⟩ : BufTy).Contents (Elt F) → (⟨S8386560, .f32⟩ : BufTy).Contents (Elt F)) ((constant S_ .f32 0x3F800000#32))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304))) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304))) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304))) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304))))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304))) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304))) ((mulf : (⟨S8386560, .f32⟩ : BufTy).Contents (Elt F) → (⟨S8386560, .f32⟩ : BufTy).Contents (Elt F) → (⟨S8386560, .f32⟩ : BufTy).Contents (Elt F)) (V (Proc.devRef .tc main_v304)) (V (Proc.devRef .tc main_v304))))))))) := by
  dsimp only [g15]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

set_option maxHeartbeats 40000000 in
/-- What stretch 16 leaves in main_v328. -/
theorem st_main_v328 (V : Valuation τ sig (Elt F)) :
    after (g16 (F := F)) V (Proc.devRef .tc main_v328) = ((subf : (⟨S8386560, .f32⟩ : BufTy).Contents (Elt F) → (⟨S8386560, .f32⟩ : BufTy).Contents (Elt F) → (⟨S8386560, .f32⟩ : BufTy).Contents (Elt F)) (V (Proc.devRef .tc main_v312)) ((Host.divf : (⟨S8386560, .f32⟩ : BufTy).Contents (Elt F) → (⟨S8386560, .f32⟩ : BufTy).Contents (Elt F) → (⟨S8386560, .f32⟩ : BufTy).Contents (Elt F)) (V (Proc.devRef .tc main_v318)) ((addf : (⟨S8386560, .f32⟩ : BufTy).Contents (Elt F) → (⟨S8386560, .f32⟩ : BufTy).Contents (Elt F) → (⟨S8386560, .f32⟩ : BufTy).Contents (Elt F)) ((broadcastInDim S8386560 ![] bcast_S_S8386560 : (⟨S_, .f32⟩ : BufTy).Contents (Elt F) → (⟨S8386560, .f32⟩ : BufTy).Contents (Elt F)) ((constant S_ .f32 0x3F800000#32))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319))) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319))) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319))) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319))))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319))) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319)))) ((mulf : (⟨S8386560, .f32⟩ : BufTy).Contents (Elt F) → (⟨S8386560, .f32⟩ : BufTy).Contents (Elt F) → (⟨S8386560, .f32⟩ : BufTy).Contents (Elt F)) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319))) ((mulf : (⟨S8386560, .f32⟩ : BufTy).Contents (Elt F) → (⟨S8386560, .f32⟩ : BufTy).Contents (Elt F) → (⟨S8386560, .f32⟩ : BufTy).Contents (Elt F)) (V (Proc.devRef .tc main_v319)) (V (Proc.devRef .tc main_v319)))))))))) := by
  dsimp only [g16]
  after_results_simp
  all_goals (first | (simp only [TRef.toBuf, TRef.ofBuf, cast_eq]; done) | (simp only [TRef.toBuf, TRef.ofBuf, cast_eq]; with_reducible rfl) | with_reducible rfl | (simp only [TRef.toBuf, TRef.ofBuf, cast_eq]; exact rfl) | exact rfl)

end Cert.ReferenceIdeal.HandRun

end
-- ==== Proof.RPairTermRow.lean ====
/-
  The row atom's pair term at a pair. With r the pair's safe distance and q the atom's parameters (re = q 0, α = q 4,
  β = q 5, A = q 6, B = q 7, κ = q 8, λ = q 9) the reference gathers the seven parameters, forms r/re once, the repulsive
  half A · exp(−α (r/re − 1)) / (1 + (r/re − κ)^20) and the attractive half B · exp(−β (r/re − 1)) / (1 + (r/re − λ)^20),
  each as a numerator over one plus the twentieth power of a base, and subtracts: φ_q(r).
-/
import proofs.«121872_j23974507446662_1_alg».proof.Proof.RStageC
import proofs.«121872_j23974507446662_1_alg».proof.Proof.RPairGather

noncomputable section

open scoped BigOperators

namespace Cert.ReferenceIdeal.HandPair

open Cert.ReferenceIdeal Cert.ReferenceIdeal.Gen Cert.ReferenceIdeal.HandRun Idealize.ShloMosaic Idealize.ShloMosaic.ValueIdx
  Idealize.SL.Sem Idealize.ShloMosaic.StableHlo Idealize.ShloMosaic.TcCoe

/-- The safe distance over the row atom's equilibrium spacing at pair k. -/
theorem g11_v216 (V : Valuation τ sig (Elt Ideal)) (k : Fin 8386560) (n : Fin 4096) (q : Fin 22 → EReal) (r : EReal) (hI : V (Proc.devRef .tc main_v59) (ix1 k) = BitVec.ofNat 32 n.val)
    (hre : V (Proc.devRef .tc main_v1) (ix1 n) = q 0) (hrs : V (Proc.devRef .tc main_v78) (ix1 k) = r) :
    after (g11 (F := Ideal)) V (Proc.devRef .tc main_v216) (ix1 k) = Ideal.div r (q 0) := by
  rw [st_main_v216]
  show Ideal.div (V (Proc.devRef .tc main_v78) (ix1 k) : EReal) (Host.gather gather_S4096_S8386560x1_S8386560_n_0_n_n_0_1_1 (V (Proc.devRef .tc main_v1)) _ (ix1 k) : EReal) = _
  rw [take_norm _ _ k n hI, hre, hrs]

/-- The numerator of the repulsive half of the row atom's pair term at pair k. -/
theorem g11_v222 (V : Valuation τ sig (Elt Ideal)) (k : Fin 8386560) (n : Fin 4096) (q : Fin 22 → EReal) (r : EReal) (hI : V (Proc.devRef .tc main_v59) (ix1 k) = BitVec.ofNat 32 n.val)
    (hre : V (Proc.devRef .tc main_v1) (ix1 n) = q 0) (hA : V (Proc.devRef .tc main_v13) (ix1 n) = q 6) (halpha : V (Proc.devRef .tc main_v9) (ix1 n) = q 4)
    (hrs : V (Proc.devRef .tc main_v78) (ix1 k) = r) :
    after (g11 (F := Ideal)) V (Proc.devRef .tc main_v222) (ix1 k) = numR r (q 0) (q 6) (q 4) := by
  rw [st_main_v222]
  show (Host.gather gather_S4096_S8386560x1_S8386560_n_0_n_n_0_1_1 (V (Proc.devRef .tc main_v13)) _ (ix1 k) : EReal) * Ideal.exp ((-(Host.gather gather_S4096_S8386560x1_S8386560_n_0_n_n_0_1_1 (V (Proc.devRef .tc main_v9)) _ (ix1 k) : EReal)) * (Ideal.div (V (Proc.devRef .tc main_v78) (ix1 k) : EReal) (Host.gather gather_S4096_S8386560x1_S8386560_n_0_n_n_0_1_1 (V (Proc.devRef .tc main_v1)) _ (ix1 k) : EReal) - Cert.Spec.one)) = _
  rw [take_norm _ _ k n hI, take_norm _ _ k n hI, take_norm _ _ k n hI, hA, halpha, hre, hrs]
  rfl

/-- The base of the twentieth power in the repulsive half of the row atom's pair term at pair k. -/
theorem g11_v223 (V : Valuation τ sig (Elt Ideal)) (k : Fin 8386560) (n : Fin 4096) (q : Fin 22 → EReal) (r : EReal) (hI : V (Proc.devRef .tc main_v59) (ix1 k) = BitVec.ofNat 32 n.val)
    (hre : V (Proc.devRef .tc main_v1) (ix1 n) = q 0) (hkappa : V (Proc.devRef .tc main_v17) (ix1 n) = q 8)
    (hrs : V (Proc.devRef .tc main_v78) (ix1 k) = r) :
    after (g11 (F := Ideal)) V (Proc.devRef .tc main_v223) (ix1 k) = baseR r (q 0) (q 8) := by
  rw [st_main_v223]
  show Ideal.div (V (Proc.devRef .tc main_v78) (ix1 k) : EReal) (Host.gather gather_S4096_S8386560x1_S8386560_n_0_n_n_0_1_1 (V (Proc.devRef .tc main_v1)) _ (ix1 k) : EReal) - (Host.gather gather_S4096_S8386560x1_S8386560_n_0_n_n_0_1_1 (V (Proc.devRef .tc main_v17)) _ (ix1 k) : EReal) = _
  rw [take_norm _ _ k n hI, take_norm _ _ k n hI, hre, hkappa, hrs]
  rfl

/-- The row atom's β at pair k. -/
theorem g11_v201 (V : Valuation τ sig (Elt Ideal)) (k : Fin 8386560) (n : Fin 4096) (q : Fin 22 → EReal) (hI : V (Proc.devRef .tc main_v59) (ix1 k) = BitVec.ofNat 32 n.val)
    (hbeta : V (Proc.devRef .tc main_v11) (ix1 n) = q 5) :
    after (g11 (F := Ideal)) V (Proc.devRef .tc main_v201) (ix1 k) = q 5 := by
  rw [st_main_v201]
  show (Host.gather gather_S4096_S8386560x1_S8386560_n_0_n_n_0_1_1 (V (Proc.devRef .tc main_v11)) _ (ix1 k) : EReal) = _
  rw [take_norm _ _ k n hI, hbeta]

/-- The row atom's B at pair k. -/
theorem g11_v180 (V : Valuation τ sig (Elt Ideal)) (k : Fin 8386560) (n : Fin 4096) (q : Fin 22 → EReal) (hI : V (Proc.devRef .tc main_v59) (ix1 k) = BitVec.ofNat 32 n.val)
    (hB : V (Proc.devRef .tc main_v15) (ix1 n) = q 7) :
    after (g11 (F := Ideal)) V (Proc.devRef .tc main_v180) (ix1 k) = q 7 := by
  rw [st_main_v180]
  show (Host.gather gather_S4096_S8386560x1_S8386560_n_0_n_n_0_1_1 (V (Proc.devRef .tc main_v15)) _ (ix1 k) : EReal) = _
  rw [take_norm _ _ k n hI, hB]

/-- The row atom's λ at pair k. -/
theorem g11_v215 (V : Valuation τ sig (Elt Ideal)) (k : Fin 8386560) (n : Fin 4096) (q : Fin 22 → EReal) (hI : V (Proc.devRef .tc main_v59) (ix1 k) = BitVec.ofNat 32 n.val)
    (hlam : V (Proc.devRef .tc main_v19) (ix1 n) = q 9) :
    after (g11 (F := Ideal)) V (Proc.devRef .tc main_v215) (ix1 k) = q 9 := by
  rw [st_main_v215]
  show (Host.gather gather_S4096_S8386560x1_S8386560_n_0_n_n_0_1_1 (V (Proc.devRef .tc main_v19)) _ (ix1 k) : EReal) = _
  rw [take_norm _ _ k n hI, hlam]

/-- The repulsive half of the row atom's pair term at pair k. -/
theorem g12_v231 (V : Valuation τ sig (Elt Ideal)) (k : Fin 8386560) (q : Fin 22 → EReal) (r : EReal)
    (hnum : V (Proc.devRef .tc main_v222) (ix1 k) = numR r (q 0) (q 6) (q 4)) (hbase : V (Proc.devRef .tc main_v223) (ix1 k) = baseR r (q 0) (q 8)) :
    after (g12 (F := Ideal)) V (Proc.devRef .tc main_v231) (ix1 k) = Cert.Spec.termR r (q 0) (q 6) (q 4) (q 8) := by
  rw [st_main_v231]
  show Ideal.div (V (Proc.devRef .tc main_v222) (ix1 k) : EReal) (Cert.Spec.one + Cert.Spec.pow20R (V (Proc.devRef .tc main_v223) (ix1 k) : EReal)) = _
  rw [hnum, hbase]
  rfl

/-- The numerator of the attractive half of the row atom's pair term at pair k. -/
theorem g12_v237 (V : Valuation τ sig (Elt Ideal)) (k : Fin 8386560) (q : Fin 22 → EReal) (r : EReal)
    (hdiv : V (Proc.devRef .tc main_v216) (ix1 k) = Ideal.div r (q 0)) (hbeta : V (Proc.devRef .tc main_v201) (ix1 k) = q 5) (hB : V (Proc.devRef .tc main_v180) (ix1 k) = q 7) :
    after (g12 (F := Ideal)) V (Proc.devRef .tc main_v237) (ix1 k) = numR r (q 0) (q 7) (q 5) := by
  rw [st_main_v237]
  show rdK (V (Proc.devRef .tc main_v180)) k * Ideal.exp ((-rdK (V (Proc.devRef .tc main_v201)) k) * (rdK (V (Proc.devRef .tc main_v216)) k - Cert.Spec.one)) = _
  simp only [rdK]
  rw [hdiv, hbeta, hB]
  rfl

/-- The base of the twentieth power in the attractive half of the row atom's pair term at pair k. -/
theorem g12_v238 (V : Valuation τ sig (Elt Ideal)) (k : Fin 8386560) (q : Fin 22 → EReal) (r : EReal)
    (hdiv : V (Proc.devRef .tc main_v216) (ix1 k) = Ideal.div r (q 0)) (hlam : V (Proc.devRef .tc main_v215) (ix1 k) = q 9) :
    after (g12 (F := Ideal)) V (Proc.devRef .tc main_v238) (ix1 k) = baseR r (q 0) (q 9) := by
  rw [st_main_v238]
  show rdK (V (Proc.devRef .tc main_v216)) k - rdK (V (Proc.devRef .tc main_v215)) k = _
  simp only [rdK]
  rw [hdiv, hlam]
  rfl

/-- The row atom's pair term at pair k: the repulsive half less the attractive half. -/
theorem g13_v247 (V : Valuation τ sig (Elt Ideal)) (k : Fin 8386560) (q : Fin 22 → EReal) (r : EReal)
    (hrep : V (Proc.devRef .tc main_v231) (ix1 k) = Cert.Spec.termR r (q 0) (q 6) (q 4) (q 8))
    (hnum : V (Proc.devRef .tc main_v237) (ix1 k) = numR r (q 0) (q 7) (q 5)) (hbase : V (Proc.devRef .tc main_v238) (ix1 k) = baseR r (q 0) (q 9)) :
    after (g13 (F := Ideal)) V (Proc.devRef .tc main_v247) (ix1 k) = Cert.Spec.phiR q r := by
  rw [st_main_v247]
  show rdK (V (Proc.devRef .tc main_v231)) k - Ideal.div (V (Proc.devRef .tc main_v237) (ix1 k) : EReal) (Cert.Spec.one + Cert.Spec.pow20R (V (Proc.devRef .tc main_v238) (ix1 k) : EReal)) = _
  simp only [rdK]
  rw [hrep, hnum, hbase]
  rfl

end Cert.ReferenceIdeal.HandPair

end
-- ==== Proof.RPairTermCol.lean ====
/-
  The column atom's pair term at a pair. With r the pair's safe distance and q the atom's parameters (re = q 0, α = q 4,
  β = q 5, A = q 6, B = q 7, κ = q 8, λ = q 9) the reference gathers the seven parameters, forms r/re once, the repulsive
  half A · exp(−α (r/re − 1)) / (1 + (r/re − κ)^20) and the attractive half B · exp(−β (r/re − 1)) / (1 + (r/re − λ)^20),
  each as a numerator over one plus the twentieth power of a base, and subtracts: φ_q(r).
-/
import proofs.«121872_j23974507446662_1_alg».proof.Proof.RStageC
import proofs.«121872_j23974507446662_1_alg».proof.Proof.RPairGather

noncomputable section

open scoped BigOperators

namespace Cert.ReferenceIdeal.HandPair

open Cert.ReferenceIdeal Cert.ReferenceIdeal.Gen Cert.ReferenceIdeal.HandRun Idealize.ShloMosaic Idealize.ShloMosaic.ValueIdx
  Idealize.SL.Sem Idealize.ShloMosaic.StableHlo Idealize.ShloMosaic.TcCoe

/-- The safe distance over the column atom's equilibrium spacing at pair k. -/
theorem g14_v297 (V : Valuation τ sig (Elt Ideal)) (k : Fin 8386560) (n : Fin 4096) (q : Fin 22 → EReal) (r : EReal) (hI : V (Proc.devRef .tc main_v61) (ix1 k) = BitVec.ofNat 32 n.val)
    (hre : V (Proc.devRef .tc main_v1) (ix1 n) = q 0) (hrs : V (Proc.devRef .tc main_v78) (ix1 k) = r) :
    after (g14 (F := Ideal)) V (Proc.devRef .tc main_v297) (ix1 k) = Ideal.div r (q 0) := by
  rw [st_main_v297]
  show Ideal.div (V (Proc.devRef .tc main_v78) (ix1 k) : EReal) (Host.gather gather_S4096_S8386560x1_S8386560_n_0_n_n_0_1_1 (V (Proc.devRef .tc main_v1)) _ (ix1 k) : EReal) = _
  rw [take_norm _ _ k n hI, hre, hrs]

/-- The numerator of the repulsive half of the column atom's pair term at pair k. -/
theorem g14_v303 (V : Valuation τ sig (Elt Ideal)) (k : Fin 8386560) (n : Fin 4096) (q : Fin 22 → EReal) (r : EReal) (hI : V (Proc.devRef .tc main_v61) (ix1 k) = BitVec.ofNat 32 n.val)
    (hre : V (Proc.devRef .tc main_v1) (ix1 n) = q 0) (hA : V (Proc.devRef .tc main_v13) (ix1 n) = q 6) (halpha : V (Proc.devRef .tc main_v9) (ix1 n) = q 4)
    (hrs : V (Proc.devRef .tc main_v78) (ix1 k) = r) :
    after (g14 (F := Ideal)) V (Proc.devRef .tc main_v303) (ix1 k) = numR r (q 0) (q 6) (q 4) := by
  rw [st_main_v303]
  show (Host.gather gather_S4096_S8386560x1_S8386560_n_0_n_n_0_1_1 (V (Proc.devRef .tc main_v13)) _ (ix1 k) : EReal) * Ideal.exp ((-(Host.gather gather_S4096_S8386560x1_S8386560_n_0_n_n_0_1_1 (V (Proc.devRef .tc main_v9)) _ (ix1 k) : EReal)) * (Ideal.div (V (Proc.devRef .tc main_v78) (ix1 k) : EReal) (Host.gather gather_S4096_S8386560x1_S8386560_n_0_n_n_0_1_1 (V (Proc.devRef .tc main_v1)) _ (ix1 k) : EReal) - Cert.Spec.one)) = _
  rw [take_norm _ _ k n hI, take_norm _ _ k n hI, take_norm _ _ k n hI, hA, halpha, hre, hrs]
  rfl

/-- The base of the twentieth power in the repulsive half of the column atom's pair term at pair k. -/
theorem g14_v304 (V : Valuation τ sig (Elt Ideal)) (k : Fin 8386560) (n : Fin 4096) (q : Fin 22 → EReal) (r : EReal) (hI : V (Proc.devRef .tc main_v61) (ix1 k) = BitVec.ofNat 32 n.val)
    (hre : V (Proc.devRef .tc main_v1) (ix1 n) = q 0) (hkappa : V (Proc.devRef .tc main_v17) (ix1 n) = q 8)
    (hrs : V (Proc.devRef .tc main_v78) (ix1 k) = r) :
    after (g14 (F := Ideal)) V (Proc.devRef .tc main_v304) (ix1 k) = baseR r (q 0) (q 8) := by
  rw [st_main_v304]
  show Ideal.div (V (Proc.devRef .tc main_v78) (ix1 k) : EReal) (Host.gather gather_S4096_S8386560x1_S8386560_n_0_n_n_0_1_1 (V (Proc.devRef .tc main_v1)) _ (ix1 k) : EReal) - (Host.gather gather_S4096_S8386560x1_S8386560_n_0_n_n_0_1_1 (V (Proc.devRef .tc main_v17)) _ (ix1 k) : EReal) = _
  rw [take_norm _ _ k n hI, take_norm _ _ k n hI, hre, hkappa, hrs]
  rfl

/-- The column atom's β at pair k. -/
theorem g14_v282 (V : Valuation τ sig (Elt Ideal)) (k : Fin 8386560) (n : Fin 4096) (q : Fin 22 → EReal) (hI : V (Proc.devRef .tc main_v61) (ix1 k) = BitVec.ofNat 32 n.val)
    (hbeta : V (Proc.devRef .tc main_v11) (ix1 n) = q 5) :
    after (g14 (F := Ideal)) V (Proc.devRef .tc main_v282) (ix1 k) = q 5 := by
  rw [st_main_v282]
  show (Host.gather gather_S4096_S8386560x1_S8386560_n_0_n_n_0_1_1 (V (Proc.devRef .tc main_v11)) _ (ix1 k) : EReal) = _
  rw [take_norm _ _ k n hI, hbeta]

/-- The column atom's B at pair k. -/
theorem g14_v261 (V : Valuation τ sig (Elt Ideal)) (k : Fin 8386560) (n : Fin 4096) (q : Fin 22 → EReal) (hI : V (Proc.devRef .tc main_v61) (ix1 k) = BitVec.ofNat 32 n.val)
    (hB : V (Proc.devRef .tc main_v15) (ix1 n) = q 7) :
    after (g14 (F := Ideal)) V (Proc.devRef .tc main_v261) (ix1 k) = q 7 := by
  rw [st_main_v261]
  show (Host.gather gather_S4096_S8386560x1_S8386560_n_0_n_n_0_1_1 (V (Proc.devRef .tc main_v15)) _ (ix1 k) : EReal) = _
  rw [take_norm _ _ k n hI, hB]

/-- The column atom's λ at pair k. -/
theorem g14_v296 (V : Valuation τ sig (Elt Ideal)) (k : Fin 8386560) (n : Fin 4096) (q : Fin 22 → EReal) (hI : V (Proc.devRef .tc main_v61) (ix1 k) = BitVec.ofNat 32 n.val)
    (hlam : V (Proc.devRef .tc main_v19) (ix1 n) = q 9) :
    after (g14 (F := Ideal)) V (Proc.devRef .tc main_v296) (ix1 k) = q 9 := by
  rw [st_main_v296]
  show (Host.gather gather_S4096_S8386560x1_S8386560_n_0_n_n_0_1_1 (V (Proc.devRef .tc main_v19)) _ (ix1 k) : EReal) = _
  rw [take_norm _ _ k n hI, hlam]

/-- The repulsive half of the column atom's pair term at pair k. -/
theorem g15_v312 (V : Valuation τ sig (Elt Ideal)) (k : Fin 8386560) (q : Fin 22 → EReal) (r : EReal)
    (hnum : V (Proc.devRef .tc main_v303) (ix1 k) = numR r (q 0) (q 6) (q 4)) (hbase : V (Proc.devRef .tc main_v304) (ix1 k) = baseR r (q 0) (q 8)) :
    after (g15 (F := Ideal)) V (Proc.devRef .tc main_v312) (ix1 k) = Cert.Spec.termR r (q 0) (q 6) (q 4) (q 8) := by
  rw [st_main_v312]
  show Ideal.div (V (Proc.devRef .tc main_v303) (ix1 k) : EReal) (Cert.Spec.one + Cert.Spec.pow20R (V (Proc.devRef .tc main_v304) (ix1 k) : EReal)) = _
  rw [hnum, hbase]
  rfl

/-- The numerator of the attractive half of the column atom's pair term at pair k. -/
theorem g15_v318 (V : Valuation τ sig (Elt Ideal)) (k : Fin 8386560) (q : Fin 22 → EReal) (r : EReal)
    (hdiv : V (Proc.devRef .tc main_v297) (ix1 k) = Ideal.div r (q 0)) (hbeta : V (Proc.devRef .tc main_v282) (ix1 k) = q 5) (hB : V (Proc.devRef .tc main_v261) (ix1 k) = q 7) :
    after (g15 (F := Ideal)) V (Proc.devRef .tc main_v318) (ix1 k) = numR r (q 0) (q 7) (q 5) := by
  rw [st_main_v318]
  show rdK (V (Proc.devRef .tc main_v261)) k * Ideal.exp ((-rdK (V (Proc.devRef .tc main_v282)) k) * (rdK (V (Proc.devRef .tc main_v297)) k - Cert.Spec.one)) = _
  simp only [rdK]
  rw [hdiv, hbeta, hB]
  rfl

/-- The base of the twentieth power in the attractive half of the column atom's pair term at pair k. -/
theorem g15_v319 (V : Valuation τ sig (Elt Ideal)) (k : Fin 8386560) (q : Fin 22 → EReal) (r : EReal)
    (hdiv : V (Proc.devRef .tc main_v297) (ix1 k) = Ideal.div r (q 0)) (hlam : V (Proc.devRef .tc main_v296) (ix1 k) = q 9) :
    after (g15 (F := Ideal)) V (Proc.devRef .tc main_v319) (ix1 k) = baseR r (q 0) (q 9) := by
  rw [st_main_v319]
  show rdK (V (Proc.devRef .tc main_v297)) k - rdK (V (Proc.devRef .tc main_v296)) k = _
  simp only [rdK]
  rw [hdiv, hlam]
  rfl

/-- The column atom's pair term at pair k: the repulsive half less the attractive half. -/
theorem g16_v328 (V : Valuation τ sig (Elt Ideal)) (k : Fin 8386560) (q : Fin 22 → EReal) (r : EReal)
    (hrep : V (Proc.devRef .tc main_v312) (ix1 k) = Cert.Spec.termR r (q 0) (q 6) (q 4) (q 8))
    (hnum : V (Proc.devRef .tc main_v318) (ix1 k) = numR r (q 0) (q 7) (q 5)) (hbase : V (Proc.devRef .tc main_v319) (ix1 k) = baseR r (q 0) (q 9)) :
    after (g16 (F := Ideal)) V (Proc.devRef .tc main_v328) (ix1 k) = Cert.Spec.phiR q r := by
  rw [st_main_v328]
  show rdK (V (Proc.devRef .tc main_v312)) k - Ideal.div (V (Proc.devRef .tc main_v318) (ix1 k) : EReal) (Cert.Spec.one + Cert.Spec.pow20R (V (Proc.devRef .tc main_v319) (ix1 k) : EReal)) = _
  simp only [rdK]
  rw [hrep, hnum, hbase]
  rfl

end Cert.ReferenceIdeal.HandPair

end
-- ==== Proof.RPairSum.lean ====
/-
  The pair energy. At every pair the reference combines the two atoms' density terms f and pair terms φ as
  (f_col / f_row) φ_row + (f_row / f_col) φ_col, keeps it where the pair is within the cutoff and puts 0 elsewhere, adds
  over all pairs starting from 0, and halves.
-/
import proofs.«121872_j23974507446662_1_alg».proof.Proof.RStageD
import proofs.«121872_j23974507446662_1_alg».proof.Proof.RPairGather
import Idealize.ShloMosaic.PureOps.Ideal.Laws
import Idealize.ShloMosaic.Lib.IdealHost

noncomputable section

open scoped BigOperators

namespace Cert.ReferenceIdeal.HandPair

open Cert.ReferenceIdeal Cert.ReferenceIdeal.Gen Cert.ReferenceIdeal.HandRun Idealize.ShloMosaic Idealize.ShloMosaic.ValueIdx
  Idealize.SL.Sem Idealize.ShloMosaic.StableHlo Idealize.ShloMosaic.TcCoe

/-- The pair energy: half the sum over the pairs of the masked combination of the two atoms' terms, each pair's mask bit,
    density terms and pair terms named. -/
theorem g17_v336 (V : Valuation τ sig (Elt Ideal)) (m : Fin 8386560 → BitVec 1) (fa fb pa pb : Fin 8386560 → EReal)
    (h77 : ∀ k, V (Proc.devRef .tc main_v77) (ix1 k) = m k)
    (h122 : ∀ k, V (Proc.devRef .tc main_v122) (ix1 k) = fa k) (h166 : ∀ k, V (Proc.devRef .tc main_v166) (ix1 k) = fb k)
    (h247 : ∀ k, V (Proc.devRef .tc main_v247) (ix1 k) = pa k) (h328 : ∀ k, V (Proc.devRef .tc main_v328) (ix1 k) = pb k) :
    after (g17 (F := Ideal)) V (Proc.devRef .tc main_v336) ix0
      = Cert.Spec.half * ∑ k : Fin 8386560,
        Scalar.select (m k) (Ideal.div (fb k) (fa k) * pa k + Ideal.div (fa k) (fb k) * pb k) 0 := by
  rw [st_main_v336]
  beta_reduce
  rw [mulf_apply, hostReduceAdd_apply, Ideal.hostReduceAdd_total _ (fun b => b.elim0), constant_apply, constant_apply,
    Ideal.ofBits_zero_f32, zero_add, sum_idx1]
  refine congrArg (fun t : EReal => Cert.Spec.half * t) (Finset.sum_congr rfl fun k _ => ?_)
  show Scalar.select (V (Proc.devRef .tc main_v77) (ix1 k))
      (Ideal.div (rdK (V (Proc.devRef .tc main_v166)) k) (rdK (V (Proc.devRef .tc main_v122)) k) * rdK (V (Proc.devRef .tc main_v247)) k
        + Ideal.div (rdK (V (Proc.devRef .tc main_v122)) k) (rdK (V (Proc.devRef .tc main_v166)) k) * rdK (V (Proc.devRef .tc main_v328)) k)
      (Ideal.ofBits .f32 0x00000000#32) = _
  simp only [rdK]
  rw [h77, h122, h166, h247, h328, Ideal.ofBits_zero_f32]

/-- The pair energy when every pair's terms are the closed forms of two parameter rows at a distance: half the sum of
    the masked pair energies. -/
theorem g17_v336_pair (V : Valuation τ sig (Elt Ideal)) (m : Fin 8386560 → BitVec 1) (qa qb : Fin 8386560 → Fin 22 → EReal)
    (r : Fin 8386560 → EReal)
    (h77 : ∀ k, V (Proc.devRef .tc main_v77) (ix1 k) = m k)
    (h122 : ∀ k, V (Proc.devRef .tc main_v122) (ix1 k) = Cert.Spec.fR (qa k) (r k))
    (h166 : ∀ k, V (Proc.devRef .tc main_v166) (ix1 k) = Cert.Spec.fR (qb k) (r k))
    (h247 : ∀ k, V (Proc.devRef .tc main_v247) (ix1 k) = Cert.Spec.phiR (qa k) (r k))
    (h328 : ∀ k, V (Proc.devRef .tc main_v328) (ix1 k) = Cert.Spec.phiR (qb k) (r k)) :
    after (g17 (F := Ideal)) V (Proc.devRef .tc main_v336) ix0
      = Cert.Spec.half * ∑ k : Fin 8386560, Scalar.select (m k) (Cert.Spec.pairR (qa k) (qb k) (r k)) 0 :=
  g17_v336 V m _ _ _ _ h77 h122 h166 h247 h328

end Cert.ReferenceIdeal.HandPair

end
-- ==== Proof.RVal.lean ====
/-
  The reference's result. The operations run stretch by stretch; what each stretch leaves in the buffers later stretches
  read is carried forward (no later stretch writes them) and read at an index: the parameter columns, the distance
  matrix and the identity mask, the flat positions of the pairs `i < j` in row-major order and from them each pair's
  row and column, the pair's distance, cutoff bit and the two atoms' density and pair terms, the halved sum of the
  masked pair energies, the densities, and the embedding energies. Summing over the pair numbers is summing over the
  positions above the diagonal, which is summing over the pairs `i < j`. The result is the closed form `totalR`.
-/
import proofs.«121872_j23974507446662_1_alg».proof.Proof.RInt4
import proofs.«121872_j23974507446662_1_alg».proof.Proof.LibNthCount
import proofs.«121872_j23974507446662_1_alg».proof.Proof.LibPairSum
import proofs.«121872_j23974507446662_1_alg».proof.Proof.RInt5
import proofs.«121872_j23974507446662_1_alg».proof.Proof.RDistCols
import proofs.«121872_j23974507446662_1_alg».proof.Proof.RDistMat
import proofs.«121872_j23974507446662_1_alg».proof.Proof.REmbRho
import proofs.«121872_j23974507446662_1_alg».proof.Proof.REmbTotal
import proofs.«121872_j23974507446662_1_alg».proof.Proof.RPairMask
import proofs.«121872_j23974507446662_1_alg».proof.Proof.RPairDensity
import proofs.«121872_j23974507446662_1_alg».proof.Proof.RPairTermRow
import proofs.«121872_j23974507446662_1_alg».proof.Proof.RPairTermCol
import proofs.«121872_j23974507446662_1_alg».proof.Proof.RPairSum

noncomputable section

open scoped BigOperators

namespace Cert.ReferenceIdeal.HandValue

open Cert.ReferenceIdeal.HandPair hiding cOf pOf

open Cert.ReferenceIdeal Cert.ReferenceIdeal.Gen Cert.ReferenceIdeal.HandRun Cert.ReferenceIdeal.HandInt Cert.ReferenceIdeal.HandEmb
  Idealize.ShloMosaic Idealize.ShloMosaic.TcCoe Idealize.ShloMosaic.StableHlo Idealize.ShloMosaic.ValueIdx

/-- The contents after the first `k` stretches. -/
abbrev V0' (V0 : Valuation τ sig (Elt Ideal)) : Valuation τ sig (Elt Ideal) := V0
abbrev V1 (V0 : Valuation τ sig (Elt Ideal)) : Valuation τ sig (Elt Ideal) := after (g0 (F := Ideal)) (V0)
abbrev V2 (V0 : Valuation τ sig (Elt Ideal)) : Valuation τ sig (Elt Ideal) := after (g1 (F := Ideal)) (V1 V0)
abbrev V3 (V0 : Valuation τ sig (Elt Ideal)) : Valuation τ sig (Elt Ideal) := after (g2 (F := Ideal)) (V2 V0)
abbrev V4 (V0 : Valuation τ sig (Elt Ideal)) : Valuation τ sig (Elt Ideal) := after (g3 (F := Ideal)) (V3 V0)
abbrev V5 (V0 : Valuation τ sig (Elt Ideal)) : Valuation τ sig (Elt Ideal) := after (g4 (F := Ideal)) (V4 V0)
abbrev V6 (V0 : Valuation τ sig (Elt Ideal)) : Valuation τ sig (Elt Ideal) := after (g5 (F := Ideal)) (V5 V0)
abbrev V7 (V0 : Valuation τ sig (Elt Ideal)) : Valuation τ sig (Elt Ideal) := after (g6 (F := Ideal)) (V6 V0)
abbrev V8 (V0 : Valuation τ sig (Elt Ideal)) : Valuation τ sig (Elt Ideal) := after (g7 (F := Ideal)) (V7 V0)
abbrev V9 (V0 : Valuation τ sig (Elt Ideal)) : Valuation τ sig (Elt Ideal) := after (g8 (F := Ideal)) (V8 V0)
abbrev V10 (V0 : Valuation τ sig (Elt Ideal)) : Valuation τ sig (Elt Ideal) := after (g9 (F := Ideal)) (V9 V0)
abbrev V11 (V0 : Valuation τ sig (Elt Ideal)) : Valuation τ sig (Elt Ideal) := after (g10 (F := Ideal)) (V10 V0)
abbrev V12 (V0 : Valuation τ sig (Elt Ideal)) : Valuation τ sig (Elt Ideal) := after (g11 (F := Ideal)) (V11 V0)
abbrev V13 (V0 : Valuation τ sig (Elt Ideal)) : Valuation τ sig (Elt Ideal) := after (g12 (F := Ideal)) (V12 V0)
abbrev V14 (V0 : Valuation τ sig (Elt Ideal)) : Valuation τ sig (Elt Ideal) := after (g13 (F := Ideal)) (V13 V0)
abbrev V15 (V0 : Valuation τ sig (Elt Ideal)) : Valuation τ sig (Elt Ideal) := after (g14 (F := Ideal)) (V14 V0)
abbrev V16 (V0 : Valuation τ sig (Elt Ideal)) : Valuation τ sig (Elt Ideal) := after (g15 (F := Ideal)) (V15 V0)
abbrev V17 (V0 : Valuation τ sig (Elt Ideal)) : Valuation τ sig (Elt Ideal) := after (g16 (F := Ideal)) (V16 V0)
abbrev V18 (V0 : Valuation τ sig (Elt Ideal)) : Valuation τ sig (Elt Ideal) := after (g17 (F := Ideal)) (V17 V0)
abbrev V19 (V0 : Valuation τ sig (Elt Ideal)) : Valuation τ sig (Elt Ideal) := after (g18 (F := Ideal)) (V18 V0)
abbrev V20 (V0 : Valuation τ sig (Elt Ideal)) : Valuation τ sig (Elt Ideal) := after (g19 (F := Ideal)) (V19 V0)
abbrev V21 (V0 : Valuation τ sig (Elt Ideal)) : Valuation τ sig (Elt Ideal) := after (g20 (F := Ideal)) (V20 V0)

/-- All the operations run is the stretches run one after the other. -/
theorem after_ops (V0 : Valuation τ sig (Elt Ideal)) : after (ops (F := Ideal)) V0 = V21 V0 := by
  rw [ops_eq]
  simp only [HandRun.after_append]

theorem c_main_arg0_1 (V0 : Valuation τ sig (Elt Ideal)) : V1 V0 (Proc.devRef .tc main_arg0) = V0 (Proc.devRef .tc main_arg0) :=
  (g0_keeps V0 (r := main_arg0) (by decide))

theorem c_main_v57_5 (V0 : Valuation τ sig (Elt Ideal)) : V5 V0 (Proc.devRef .tc main_v57) = V4 V0 (Proc.devRef .tc main_v57) :=
  (g4_keeps (V4 V0) (r := main_v57) (by decide))

theorem c_main_v59_6 (V0 : Valuation τ sig (Elt Ideal)) : V6 V0 (Proc.devRef .tc main_v59) = V5 V0 (Proc.devRef .tc main_v59) :=
  (g5_keeps (V5 V0) (r := main_v59) (by decide))

theorem c_main_v41_6 (V0 : Valuation τ sig (Elt Ideal)) : V6 V0 (Proc.devRef .tc main_v41) = V2 V0 (Proc.devRef .tc main_v41) :=
  ((((g5_keeps (V5 V0) (r := main_v41) (by decide)).trans (g4_keeps (V4 V0) (r := main_v41) (by decide))).trans (g3_keeps (V3 V0) (r := main_v41) (by decide))).trans (g2_keeps (V2 V0) (r := main_v41) (by decide)))

theorem c_main_v59_7 (V0 : Valuation τ sig (Elt Ideal)) : V7 V0 (Proc.devRef .tc main_v59) = V5 V0 (Proc.devRef .tc main_v59) :=
  ((g6_keeps (V6 V0) (r := main_v59) (by decide)).trans (g5_keeps (V5 V0) (r := main_v59) (by decide)))

theorem c_main_v1_7 (V0 : Valuation τ sig (Elt Ideal)) : V7 V0 (Proc.devRef .tc main_v1) = V1 V0 (Proc.devRef .tc main_v1) :=
  ((((((g6_keeps (V6 V0) (r := main_v1) (by decide)).trans (g5_keeps (V5 V0) (r := main_v1) (by decide))).trans (g4_keeps (V4 V0) (r := main_v1) (by decide))).trans (g3_keeps (V3 V0) (r := main_v1) (by decide))).trans (g2_keeps (V2 V0) (r := main_v1) (by decide))).trans (g1_keeps (V1 V0) (r := main_v1) (by decide)))

theorem c_main_v3_7 (V0 : Valuation τ sig (Elt Ideal)) : V7 V0 (Proc.devRef .tc main_v3) = V1 V0 (Proc.devRef .tc main_v3) :=
  ((((((g6_keeps (V6 V0) (r := main_v3) (by decide)).trans (g5_keeps (V5 V0) (r := main_v3) (by decide))).trans (g4_keeps (V4 V0) (r := main_v3) (by decide))).trans (g3_keeps (V3 V0) (r := main_v3) (by decide))).trans (g2_keeps (V2 V0) (r := main_v3) (by decide))).trans (g1_keeps (V1 V0) (r := main_v3) (by decide)))

theorem c_main_v11_7 (V0 : Valuation τ sig (Elt Ideal)) : V7 V0 (Proc.devRef .tc main_v11) = V1 V0 (Proc.devRef .tc main_v11) :=
  ((((((g6_keeps (V6 V0) (r := main_v11) (by decide)).trans (g5_keeps (V5 V0) (r := main_v11) (by decide))).trans (g4_keeps (V4 V0) (r := main_v11) (by decide))).trans (g3_keeps (V3 V0) (r := main_v11) (by decide))).trans (g2_keeps (V2 V0) (r := main_v11) (by decide))).trans (g1_keeps (V1 V0) (r := main_v11) (by decide)))

theorem c_main_v19_7 (V0 : Valuation τ sig (Elt Ideal)) : V7 V0 (Proc.devRef .tc main_v19) = V1 V0 (Proc.devRef .tc main_v19) :=
  ((((((g6_keeps (V6 V0) (r := main_v19) (by decide)).trans (g5_keeps (V5 V0) (r := main_v19) (by decide))).trans (g4_keeps (V4 V0) (r := main_v19) (by decide))).trans (g3_keeps (V3 V0) (r := main_v19) (by decide))).trans (g2_keeps (V2 V0) (r := main_v19) (by decide))).trans (g1_keeps (V1 V0) (r := main_v19) (by decide)))

theorem c_main_v61_9 (V0 : Valuation τ sig (Elt Ideal)) : V9 V0 (Proc.devRef .tc main_v61) = V6 V0 (Proc.devRef .tc main_v61) :=
  (((g8_keeps (V8 V0) (r := main_v61) (by decide)).trans (g7_keeps (V7 V0) (r := main_v61) (by decide))).trans (g6_keeps (V6 V0) (r := main_v61) (by decide)))

theorem c_main_v1_9 (V0 : Valuation τ sig (Elt Ideal)) : V9 V0 (Proc.devRef .tc main_v1) = V1 V0 (Proc.devRef .tc main_v1) :=
  ((((((((g8_keeps (V8 V0) (r := main_v1) (by decide)).trans (g7_keeps (V7 V0) (r := main_v1) (by decide))).trans (g6_keeps (V6 V0) (r := main_v1) (by decide))).trans (g5_keeps (V5 V0) (r := main_v1) (by decide))).trans (g4_keeps (V4 V0) (r := main_v1) (by decide))).trans (g3_keeps (V3 V0) (r := main_v1) (by decide))).trans (g2_keeps (V2 V0) (r := main_v1) (by decide))).trans (g1_keeps (V1 V0) (r := main_v1) (by decide)))

theorem c_main_v3_9 (V0 : Valuation τ sig (Elt Ideal)) : V9 V0 (Proc.devRef .tc main_v3) = V1 V0 (Proc.devRef .tc main_v3) :=
  ((((((((g8_keeps (V8 V0) (r := main_v3) (by decide)).trans (g7_keeps (V7 V0) (r := main_v3) (by decide))).trans (g6_keeps (V6 V0) (r := main_v3) (by decide))).trans (g5_keeps (V5 V0) (r := main_v3) (by decide))).trans (g4_keeps (V4 V0) (r := main_v3) (by decide))).trans (g3_keeps (V3 V0) (r := main_v3) (by decide))).trans (g2_keeps (V2 V0) (r := main_v3) (by decide))).trans (g1_keeps (V1 V0) (r := main_v3) (by decide)))

theorem c_main_v11_9 (V0 : Valuation τ sig (Elt Ideal)) : V9 V0 (Proc.devRef .tc main_v11) = V1 V0 (Proc.devRef .tc main_v11) :=
  ((((((((g8_keeps (V8 V0) (r := main_v11) (by decide)).trans (g7_keeps (V7 V0) (r := main_v11) (by decide))).trans (g6_keeps (V6 V0) (r := main_v11) (by decide))).trans (g5_keeps (V5 V0) (r := main_v11) (by decide))).trans (g4_keeps (V4 V0) (r := main_v11) (by decide))).trans (g3_keeps (V3 V0) (r := main_v11) (by decide))).trans (g2_keeps (V2 V0) (r := main_v11) (by decide))).trans (g1_keeps (V1 V0) (r := main_v11) (by decide)))

theorem c_main_v78_9 (V0 : Valuation τ sig (Elt Ideal)) : V9 V0 (Proc.devRef .tc main_v78) = V7 V0 (Proc.devRef .tc main_v78) :=
  ((g8_keeps (V8 V0) (r := main_v78) (by decide)).trans (g7_keeps (V7 V0) (r := main_v78) (by decide)))

theorem c_main_v19_9 (V0 : Valuation τ sig (Elt Ideal)) : V9 V0 (Proc.devRef .tc main_v19) = V1 V0 (Proc.devRef .tc main_v19) :=
  ((((((((g8_keeps (V8 V0) (r := main_v19) (by decide)).trans (g7_keeps (V7 V0) (r := main_v19) (by decide))).trans (g6_keeps (V6 V0) (r := main_v19) (by decide))).trans (g5_keeps (V5 V0) (r := main_v19) (by decide))).trans (g4_keeps (V4 V0) (r := main_v19) (by decide))).trans (g3_keeps (V3 V0) (r := main_v19) (by decide))).trans (g2_keeps (V2 V0) (r := main_v19) (by decide))).trans (g1_keeps (V1 V0) (r := main_v19) (by decide)))

theorem c_main_v59_11 (V0 : Valuation τ sig (Elt Ideal)) : V11 V0 (Proc.devRef .tc main_v59) = V5 V0 (Proc.devRef .tc main_v59) :=
  ((((((g10_keeps (V10 V0) (r := main_v59) (by decide)).trans (g9_keeps (V9 V0) (r := main_v59) (by decide))).trans (g8_keeps (V8 V0) (r := main_v59) (by decide))).trans (g7_keeps (V7 V0) (r := main_v59) (by decide))).trans (g6_keeps (V6 V0) (r := main_v59) (by decide))).trans (g5_keeps (V5 V0) (r := main_v59) (by decide)))

theorem c_main_v1_11 (V0 : Valuation τ sig (Elt Ideal)) : V11 V0 (Proc.devRef .tc main_v1) = V1 V0 (Proc.devRef .tc main_v1) :=
  ((((((((((g10_keeps (V10 V0) (r := main_v1) (by decide)).trans (g9_keeps (V9 V0) (r := main_v1) (by decide))).trans (g8_keeps (V8 V0) (r := main_v1) (by decide))).trans (g7_keeps (V7 V0) (r := main_v1) (by decide))).trans (g6_keeps (V6 V0) (r := main_v1) (by decide))).trans (g5_keeps (V5 V0) (r := main_v1) (by decide))).trans (g4_keeps (V4 V0) (r := main_v1) (by decide))).trans (g3_keeps (V3 V0) (r := main_v1) (by decide))).trans (g2_keeps (V2 V0) (r := main_v1) (by decide))).trans (g1_keeps (V1 V0) (r := main_v1) (by decide)))

theorem c_main_v78_11 (V0 : Valuation τ sig (Elt Ideal)) : V11 V0 (Proc.devRef .tc main_v78) = V7 V0 (Proc.devRef .tc main_v78) :=
  ((((g10_keeps (V10 V0) (r := main_v78) (by decide)).trans (g9_keeps (V9 V0) (r := main_v78) (by decide))).trans (g8_keeps (V8 V0) (r := main_v78) (by decide))).trans (g7_keeps (V7 V0) (r := main_v78) (by decide)))

theorem c_main_v13_11 (V0 : Valuation τ sig (Elt Ideal)) : V11 V0 (Proc.devRef .tc main_v13) = V1 V0 (Proc.devRef .tc main_v13) :=
  ((((((((((g10_keeps (V10 V0) (r := main_v13) (by decide)).trans (g9_keeps (V9 V0) (r := main_v13) (by decide))).trans (g8_keeps (V8 V0) (r := main_v13) (by decide))).trans (g7_keeps (V7 V0) (r := main_v13) (by decide))).trans (g6_keeps (V6 V0) (r := main_v13) (by decide))).trans (g5_keeps (V5 V0) (r := main_v13) (by decide))).trans (g4_keeps (V4 V0) (r := main_v13) (by decide))).trans (g3_keeps (V3 V0) (r := main_v13) (by decide))).trans (g2_keeps (V2 V0) (r := main_v13) (by decide))).trans (g1_keeps (V1 V0) (r := main_v13) (by decide)))

theorem c_main_v9_11 (V0 : Valuation τ sig (Elt Ideal)) : V11 V0 (Proc.devRef .tc main_v9) = V1 V0 (Proc.devRef .tc main_v9) :=
  ((((((((((g10_keeps (V10 V0) (r := main_v9) (by decide)).trans (g9_keeps (V9 V0) (r := main_v9) (by decide))).trans (g8_keeps (V8 V0) (r := main_v9) (by decide))).trans (g7_keeps (V7 V0) (r := main_v9) (by decide))).trans (g6_keeps (V6 V0) (r := main_v9) (by decide))).trans (g5_keeps (V5 V0) (r := main_v9) (by decide))).trans (g4_keeps (V4 V0) (r := main_v9) (by decide))).trans (g3_keeps (V3 V0) (r := main_v9) (by decide))).trans (g2_keeps (V2 V0) (r := main_v9) (by decide))).trans (g1_keeps (V1 V0) (r := main_v9) (by decide)))

theorem c_main_v17_11 (V0 : Valuation τ sig (Elt Ideal)) : V11 V0 (Proc.devRef .tc main_v17) = V1 V0 (Proc.devRef .tc main_v17) :=
  ((((((((((g10_keeps (V10 V0) (r := main_v17) (by decide)).trans (g9_keeps (V9 V0) (r := main_v17) (by decide))).trans (g8_keeps (V8 V0) (r := main_v17) (by decide))).trans (g7_keeps (V7 V0) (r := main_v17) (by decide))).trans (g6_keeps (V6 V0) (r := main_v17) (by decide))).trans (g5_keeps (V5 V0) (r := main_v17) (by decide))).trans (g4_keeps (V4 V0) (r := main_v17) (by decide))).trans (g3_keeps (V3 V0) (r := main_v17) (by decide))).trans (g2_keeps (V2 V0) (r := main_v17) (by decide))).trans (g1_keeps (V1 V0) (r := main_v17) (by decide)))

theorem c_main_v11_11 (V0 : Valuation τ sig (Elt Ideal)) : V11 V0 (Proc.devRef .tc main_v11) = V1 V0 (Proc.devRef .tc main_v11) :=
  ((((((((((g10_keeps (V10 V0) (r := main_v11) (by decide)).trans (g9_keeps (V9 V0) (r := main_v11) (by decide))).trans (g8_keeps (V8 V0) (r := main_v11) (by decide))).trans (g7_keeps (V7 V0) (r := main_v11) (by decide))).trans (g6_keeps (V6 V0) (r := main_v11) (by decide))).trans (g5_keeps (V5 V0) (r := main_v11) (by decide))).trans (g4_keeps (V4 V0) (r := main_v11) (by decide))).trans (g3_keeps (V3 V0) (r := main_v11) (by decide))).trans (g2_keeps (V2 V0) (r := main_v11) (by decide))).trans (g1_keeps (V1 V0) (r := main_v11) (by decide)))

theorem c_main_v15_11 (V0 : Valuation τ sig (Elt Ideal)) : V11 V0 (Proc.devRef .tc main_v15) = V1 V0 (Proc.devRef .tc main_v15) :=
  ((((((((((g10_keeps (V10 V0) (r := main_v15) (by decide)).trans (g9_keeps (V9 V0) (r := main_v15) (by decide))).trans (g8_keeps (V8 V0) (r := main_v15) (by decide))).trans (g7_keeps (V7 V0) (r := main_v15) (by decide))).trans (g6_keeps (V6 V0) (r := main_v15) (by decide))).trans (g5_keeps (V5 V0) (r := main_v15) (by decide))).trans (g4_keeps (V4 V0) (r := main_v15) (by decide))).trans (g3_keeps (V3 V0) (r := main_v15) (by decide))).trans (g2_keeps (V2 V0) (r := main_v15) (by decide))).trans (g1_keeps (V1 V0) (r := main_v15) (by decide)))

theorem c_main_v19_11 (V0 : Valuation τ sig (Elt Ideal)) : V11 V0 (Proc.devRef .tc main_v19) = V1 V0 (Proc.devRef .tc main_v19) :=
  ((((((((((g10_keeps (V10 V0) (r := main_v19) (by decide)).trans (g9_keeps (V9 V0) (r := main_v19) (by decide))).trans (g8_keeps (V8 V0) (r := main_v19) (by decide))).trans (g7_keeps (V7 V0) (r := main_v19) (by decide))).trans (g6_keeps (V6 V0) (r := main_v19) (by decide))).trans (g5_keeps (V5 V0) (r := main_v19) (by decide))).trans (g4_keeps (V4 V0) (r := main_v19) (by decide))).trans (g3_keeps (V3 V0) (r := main_v19) (by decide))).trans (g2_keeps (V2 V0) (r := main_v19) (by decide))).trans (g1_keeps (V1 V0) (r := main_v19) (by decide)))

theorem c_main_v61_14 (V0 : Valuation τ sig (Elt Ideal)) : V14 V0 (Proc.devRef .tc main_v61) = V6 V0 (Proc.devRef .tc main_v61) :=
  ((((((((g13_keeps (V13 V0) (r := main_v61) (by decide)).trans (g12_keeps (V12 V0) (r := main_v61) (by decide))).trans (g11_keeps (V11 V0) (r := main_v61) (by decide))).trans (g10_keeps (V10 V0) (r := main_v61) (by decide))).trans (g9_keeps (V9 V0) (r := main_v61) (by decide))).trans (g8_keeps (V8 V0) (r := main_v61) (by decide))).trans (g7_keeps (V7 V0) (r := main_v61) (by decide))).trans (g6_keeps (V6 V0) (r := main_v61) (by decide)))

theorem c_main_v1_14 (V0 : Valuation τ sig (Elt Ideal)) : V14 V0 (Proc.devRef .tc main_v1) = V1 V0 (Proc.devRef .tc main_v1) :=
  (((((((((((((g13_keeps (V13 V0) (r := main_v1) (by decide)).trans (g12_keeps (V12 V0) (r := main_v1) (by decide))).trans (g11_keeps (V11 V0) (r := main_v1) (by decide))).trans (g10_keeps (V10 V0) (r := main_v1) (by decide))).trans (g9_keeps (V9 V0) (r := main_v1) (by decide))).trans (g8_keeps (V8 V0) (r := main_v1) (by decide))).trans (g7_keeps (V7 V0) (r := main_v1) (by decide))).trans (g6_keeps (V6 V0) (r := main_v1) (by decide))).trans (g5_keeps (V5 V0) (r := main_v1) (by decide))).trans (g4_keeps (V4 V0) (r := main_v1) (by decide))).trans (g3_keeps (V3 V0) (r := main_v1) (by decide))).trans (g2_keeps (V2 V0) (r := main_v1) (by decide))).trans (g1_keeps (V1 V0) (r := main_v1) (by decide)))

theorem c_main_v78_14 (V0 : Valuation τ sig (Elt Ideal)) : V14 V0 (Proc.devRef .tc main_v78) = V7 V0 (Proc.devRef .tc main_v78) :=
  (((((((g13_keeps (V13 V0) (r := main_v78) (by decide)).trans (g12_keeps (V12 V0) (r := main_v78) (by decide))).trans (g11_keeps (V11 V0) (r := main_v78) (by decide))).trans (g10_keeps (V10 V0) (r := main_v78) (by decide))).trans (g9_keeps (V9 V0) (r := main_v78) (by decide))).trans (g8_keeps (V8 V0) (r := main_v78) (by decide))).trans (g7_keeps (V7 V0) (r := main_v78) (by decide)))

theorem c_main_v13_14 (V0 : Valuation τ sig (Elt Ideal)) : V14 V0 (Proc.devRef .tc main_v13) = V1 V0 (Proc.devRef .tc main_v13) :=
  (((((((((((((g13_keeps (V13 V0) (r := main_v13) (by decide)).trans (g12_keeps (V12 V0) (r := main_v13) (by decide))).trans (g11_keeps (V11 V0) (r := main_v13) (by decide))).trans (g10_keeps (V10 V0) (r := main_v13) (by decide))).trans (g9_keeps (V9 V0) (r := main_v13) (by decide))).trans (g8_keeps (V8 V0) (r := main_v13) (by decide))).trans (g7_keeps (V7 V0) (r := main_v13) (by decide))).trans (g6_keeps (V6 V0) (r := main_v13) (by decide))).trans (g5_keeps (V5 V0) (r := main_v13) (by decide))).trans (g4_keeps (V4 V0) (r := main_v13) (by decide))).trans (g3_keeps (V3 V0) (r := main_v13) (by decide))).trans (g2_keeps (V2 V0) (r := main_v13) (by decide))).trans (g1_keeps (V1 V0) (r := main_v13) (by decide)))

theorem c_main_v9_14 (V0 : Valuation τ sig (Elt Ideal)) : V14 V0 (Proc.devRef .tc main_v9) = V1 V0 (Proc.devRef .tc main_v9) :=
  (((((((((((((g13_keeps (V13 V0) (r := main_v9) (by decide)).trans (g12_keeps (V12 V0) (r := main_v9) (by decide))).trans (g11_keeps (V11 V0) (r := main_v9) (by decide))).trans (g10_keeps (V10 V0) (r := main_v9) (by decide))).trans (g9_keeps (V9 V0) (r := main_v9) (by decide))).trans (g8_keeps (V8 V0) (r := main_v9) (by decide))).trans (g7_keeps (V7 V0) (r := main_v9) (by decide))).trans (g6_keeps (V6 V0) (r := main_v9) (by decide))).trans (g5_keeps (V5 V0) (r := main_v9) (by decide))).trans (g4_keeps (V4 V0) (r := main_v9) (by decide))).trans (g3_keeps (V3 V0) (r := main_v9) (by decide))).trans (g2_keeps (V2 V0) (r := main_v9) (by decide))).trans (g1_keeps (V1 V0) (r := main_v9) (by decide)))

theorem c_main_v17_14 (V0 : Valuation τ sig (Elt Ideal)) : V14 V0 (Proc.devRef .tc main_v17) = V1 V0 (Proc.devRef .tc main_v17) :=
  (((((((((((((g13_keeps (V13 V0) (r := main_v17) (by decide)).trans (g12_keeps (V12 V0) (r := main_v17) (by decide))).trans (g11_keeps (V11 V0) (r := main_v17) (by decide))).trans (g10_keeps (V10 V0) (r := main_v17) (by decide))).trans (g9_keeps (V9 V0) (r := main_v17) (by decide))).trans (g8_keeps (V8 V0) (r := main_v17) (by decide))).trans (g7_keeps (V7 V0) (r := main_v17) (by decide))).trans (g6_keeps (V6 V0) (r := main_v17) (by decide))).trans (g5_keeps (V5 V0) (r := main_v17) (by decide))).trans (g4_keeps (V4 V0) (r := main_v17) (by decide))).trans (g3_keeps (V3 V0) (r := main_v17) (by decide))).trans (g2_keeps (V2 V0) (r := main_v17) (by decide))).trans (g1_keeps (V1 V0) (r := main_v17) (by decide)))

theorem c_main_v11_14 (V0 : Valuation τ sig (Elt Ideal)) : V14 V0 (Proc.devRef .tc main_v11) = V1 V0 (Proc.devRef .tc main_v11) :=
  (((((((((((((g13_keeps (V13 V0) (r := main_v11) (by decide)).trans (g12_keeps (V12 V0) (r := main_v11) (by decide))).trans (g11_keeps (V11 V0) (r := main_v11) (by decide))).trans (g10_keeps (V10 V0) (r := main_v11) (by decide))).trans (g9_keeps (V9 V0) (r := main_v11) (by decide))).trans (g8_keeps (V8 V0) (r := main_v11) (by decide))).trans (g7_keeps (V7 V0) (r := main_v11) (by decide))).trans (g6_keeps (V6 V0) (r := main_v11) (by decide))).trans (g5_keeps (V5 V0) (r := main_v11) (by decide))).trans (g4_keeps (V4 V0) (r := main_v11) (by decide))).trans (g3_keeps (V3 V0) (r := main_v11) (by decide))).trans (g2_keeps (V2 V0) (r := main_v11) (by decide))).trans (g1_keeps (V1 V0) (r := main_v11) (by decide)))

theorem c_main_v15_14 (V0 : Valuation τ sig (Elt Ideal)) : V14 V0 (Proc.devRef .tc main_v15) = V1 V0 (Proc.devRef .tc main_v15) :=
  (((((((((((((g13_keeps (V13 V0) (r := main_v15) (by decide)).trans (g12_keeps (V12 V0) (r := main_v15) (by decide))).trans (g11_keeps (V11 V0) (r := main_v15) (by decide))).trans (g10_keeps (V10 V0) (r := main_v15) (by decide))).trans (g9_keeps (V9 V0) (r := main_v15) (by decide))).trans (g8_keeps (V8 V0) (r := main_v15) (by decide))).trans (g7_keeps (V7 V0) (r := main_v15) (by decide))).trans (g6_keeps (V6 V0) (r := main_v15) (by decide))).trans (g5_keeps (V5 V0) (r := main_v15) (by decide))).trans (g4_keeps (V4 V0) (r := main_v15) (by decide))).trans (g3_keeps (V3 V0) (r := main_v15) (by decide))).trans (g2_keeps (V2 V0) (r := main_v15) (by decide))).trans (g1_keeps (V1 V0) (r := main_v15) (by decide)))

theorem c_main_v19_14 (V0 : Valuation τ sig (Elt Ideal)) : V14 V0 (Proc.devRef .tc main_v19) = V1 V0 (Proc.devRef .tc main_v19) :=
  (((((((((((((g13_keeps (V13 V0) (r := main_v19) (by decide)).trans (g12_keeps (V12 V0) (r := main_v19) (by decide))).trans (g11_keeps (V11 V0) (r := main_v19) (by decide))).trans (g10_keeps (V10 V0) (r := main_v19) (by decide))).trans (g9_keeps (V9 V0) (r := main_v19) (by decide))).trans (g8_keeps (V8 V0) (r := main_v19) (by decide))).trans (g7_keeps (V7 V0) (r := main_v19) (by decide))).trans (g6_keeps (V6 V0) (r := main_v19) (by decide))).trans (g5_keeps (V5 V0) (r := main_v19) (by decide))).trans (g4_keeps (V4 V0) (r := main_v19) (by decide))).trans (g3_keeps (V3 V0) (r := main_v19) (by decide))).trans (g2_keeps (V2 V0) (r := main_v19) (by decide))).trans (g1_keeps (V1 V0) (r := main_v19) (by decide)))

theorem c_main_v77_17 (V0 : Valuation τ sig (Elt Ideal)) : V17 V0 (Proc.devRef .tc main_v77) = V7 V0 (Proc.devRef .tc main_v77) :=
  ((((((((((g16_keeps (V16 V0) (r := main_v77) (by decide)).trans (g15_keeps (V15 V0) (r := main_v77) (by decide))).trans (g14_keeps (V14 V0) (r := main_v77) (by decide))).trans (g13_keeps (V13 V0) (r := main_v77) (by decide))).trans (g12_keeps (V12 V0) (r := main_v77) (by decide))).trans (g11_keeps (V11 V0) (r := main_v77) (by decide))).trans (g10_keeps (V10 V0) (r := main_v77) (by decide))).trans (g9_keeps (V9 V0) (r := main_v77) (by decide))).trans (g8_keeps (V8 V0) (r := main_v77) (by decide))).trans (g7_keeps (V7 V0) (r := main_v77) (by decide)))

theorem c_main_v122_17 (V0 : Valuation τ sig (Elt Ideal)) : V17 V0 (Proc.devRef .tc main_v122) = V9 V0 (Proc.devRef .tc main_v122) :=
  ((((((((g16_keeps (V16 V0) (r := main_v122) (by decide)).trans (g15_keeps (V15 V0) (r := main_v122) (by decide))).trans (g14_keeps (V14 V0) (r := main_v122) (by decide))).trans (g13_keeps (V13 V0) (r := main_v122) (by decide))).trans (g12_keeps (V12 V0) (r := main_v122) (by decide))).trans (g11_keeps (V11 V0) (r := main_v122) (by decide))).trans (g10_keeps (V10 V0) (r := main_v122) (by decide))).trans (g9_keeps (V9 V0) (r := main_v122) (by decide)))

theorem c_main_v166_17 (V0 : Valuation τ sig (Elt Ideal)) : V17 V0 (Proc.devRef .tc main_v166) = V11 V0 (Proc.devRef .tc main_v166) :=
  ((((((g16_keeps (V16 V0) (r := main_v166) (by decide)).trans (g15_keeps (V15 V0) (r := main_v166) (by decide))).trans (g14_keeps (V14 V0) (r := main_v166) (by decide))).trans (g13_keeps (V13 V0) (r := main_v166) (by decide))).trans (g12_keeps (V12 V0) (r := main_v166) (by decide))).trans (g11_keeps (V11 V0) (r := main_v166) (by decide)))

theorem c_main_v247_17 (V0 : Valuation τ sig (Elt Ideal)) : V17 V0 (Proc.devRef .tc main_v247) = V14 V0 (Proc.devRef .tc main_v247) :=
  (((g16_keeps (V16 V0) (r := main_v247) (by decide)).trans (g15_keeps (V15 V0) (r := main_v247) (by decide))).trans (g14_keeps (V14 V0) (r := main_v247) (by decide)))

theorem c_main_v41_18 (V0 : Valuation τ sig (Elt Ideal)) : V18 V0 (Proc.devRef .tc main_v41) = V2 V0 (Proc.devRef .tc main_v41) :=
  ((((((((((((((((g17_keeps (V17 V0) (r := main_v41) (by decide)).trans (g16_keeps (V16 V0) (r := main_v41) (by decide))).trans (g15_keeps (V15 V0) (r := main_v41) (by decide))).trans (g14_keeps (V14 V0) (r := main_v41) (by decide))).trans (g13_keeps (V13 V0) (r := main_v41) (by decide))).trans (g12_keeps (V12 V0) (r := main_v41) (by decide))).trans (g11_keeps (V11 V0) (r := main_v41) (by decide))).trans (g10_keeps (V10 V0) (r := main_v41) (by decide))).trans (g9_keeps (V9 V0) (r := main_v41) (by decide))).trans (g8_keeps (V8 V0) (r := main_v41) (by decide))).trans (g7_keeps (V7 V0) (r := main_v41) (by decide))).trans (g6_keeps (V6 V0) (r := main_v41) (by decide))).trans (g5_keeps (V5 V0) (r := main_v41) (by decide))).trans (g4_keeps (V4 V0) (r := main_v41) (by decide))).trans (g3_keeps (V3 V0) (r := main_v41) (by decide))).trans (g2_keeps (V2 V0) (r := main_v41) (by decide)))

theorem c_main_v39_18 (V0 : Valuation τ sig (Elt Ideal)) : V18 V0 (Proc.devRef .tc main_v39) = V2 V0 (Proc.devRef .tc main_v39) :=
  ((((((((((((((((g17_keeps (V17 V0) (r := main_v39) (by decide)).trans (g16_keeps (V16 V0) (r := main_v39) (by decide))).trans (g15_keeps (V15 V0) (r := main_v39) (by decide))).trans (g14_keeps (V14 V0) (r := main_v39) (by decide))).trans (g13_keeps (V13 V0) (r := main_v39) (by decide))).trans (g12_keeps (V12 V0) (r := main_v39) (by decide))).trans (g11_keeps (V11 V0) (r := main_v39) (by decide))).trans (g10_keeps (V10 V0) (r := main_v39) (by decide))).trans (g9_keeps (V9 V0) (r := main_v39) (by decide))).trans (g8_keeps (V8 V0) (r := main_v39) (by decide))).trans (g7_keeps (V7 V0) (r := main_v39) (by decide))).trans (g6_keeps (V6 V0) (r := main_v39) (by decide))).trans (g5_keeps (V5 V0) (r := main_v39) (by decide))).trans (g4_keeps (V4 V0) (r := main_v39) (by decide))).trans (g3_keeps (V3 V0) (r := main_v39) (by decide))).trans (g2_keeps (V2 V0) (r := main_v39) (by decide)))

theorem c_main_v1_18 (V0 : Valuation τ sig (Elt Ideal)) : V18 V0 (Proc.devRef .tc main_v1) = V1 V0 (Proc.devRef .tc main_v1) :=
  (((((((((((((((((g17_keeps (V17 V0) (r := main_v1) (by decide)).trans (g16_keeps (V16 V0) (r := main_v1) (by decide))).trans (g15_keeps (V15 V0) (r := main_v1) (by decide))).trans (g14_keeps (V14 V0) (r := main_v1) (by decide))).trans (g13_keeps (V13 V0) (r := main_v1) (by decide))).trans (g12_keeps (V12 V0) (r := main_v1) (by decide))).trans (g11_keeps (V11 V0) (r := main_v1) (by decide))).trans (g10_keeps (V10 V0) (r := main_v1) (by decide))).trans (g9_keeps (V9 V0) (r := main_v1) (by decide))).trans (g8_keeps (V8 V0) (r := main_v1) (by decide))).trans (g7_keeps (V7 V0) (r := main_v1) (by decide))).trans (g6_keeps (V6 V0) (r := main_v1) (by decide))).trans (g5_keeps (V5 V0) (r := main_v1) (by decide))).trans (g4_keeps (V4 V0) (r := main_v1) (by decide))).trans (g3_keeps (V3 V0) (r := main_v1) (by decide))).trans (g2_keeps (V2 V0) (r := main_v1) (by decide))).trans (g1_keeps (V1 V0) (r := main_v1) (by decide)))

theorem c_main_v3_18 (V0 : Valuation τ sig (Elt Ideal)) : V18 V0 (Proc.devRef .tc main_v3) = V1 V0 (Proc.devRef .tc main_v3) :=
  (((((((((((((((((g17_keeps (V17 V0) (r := main_v3) (by decide)).trans (g16_keeps (V16 V0) (r := main_v3) (by decide))).trans (g15_keeps (V15 V0) (r := main_v3) (by decide))).trans (g14_keeps (V14 V0) (r := main_v3) (by decide))).trans (g13_keeps (V13 V0) (r := main_v3) (by decide))).trans (g12_keeps (V12 V0) (r := main_v3) (by decide))).trans (g11_keeps (V11 V0) (r := main_v3) (by decide))).trans (g10_keeps (V10 V0) (r := main_v3) (by decide))).trans (g9_keeps (V9 V0) (r := main_v3) (by decide))).trans (g8_keeps (V8 V0) (r := main_v3) (by decide))).trans (g7_keeps (V7 V0) (r := main_v3) (by decide))).trans (g6_keeps (V6 V0) (r := main_v3) (by decide))).trans (g5_keeps (V5 V0) (r := main_v3) (by decide))).trans (g4_keeps (V4 V0) (r := main_v3) (by decide))).trans (g3_keeps (V3 V0) (r := main_v3) (by decide))).trans (g2_keeps (V2 V0) (r := main_v3) (by decide))).trans (g1_keeps (V1 V0) (r := main_v3) (by decide)))

theorem c_main_v11_18 (V0 : Valuation τ sig (Elt Ideal)) : V18 V0 (Proc.devRef .tc main_v11) = V1 V0 (Proc.devRef .tc main_v11) :=
  (((((((((((((((((g17_keeps (V17 V0) (r := main_v11) (by decide)).trans (g16_keeps (V16 V0) (r := main_v11) (by decide))).trans (g15_keeps (V15 V0) (r := main_v11) (by decide))).trans (g14_keeps (V14 V0) (r := main_v11) (by decide))).trans (g13_keeps (V13 V0) (r := main_v11) (by decide))).trans (g12_keeps (V12 V0) (r := main_v11) (by decide))).trans (g11_keeps (V11 V0) (r := main_v11) (by decide))).trans (g10_keeps (V10 V0) (r := main_v11) (by decide))).trans (g9_keeps (V9 V0) (r := main_v11) (by decide))).trans (g8_keeps (V8 V0) (r := main_v11) (by decide))).trans (g7_keeps (V7 V0) (r := main_v11) (by decide))).trans (g6_keeps (V6 V0) (r := main_v11) (by decide))).trans (g5_keeps (V5 V0) (r := main_v11) (by decide))).trans (g4_keeps (V4 V0) (r := main_v11) (by decide))).trans (g3_keeps (V3 V0) (r := main_v11) (by decide))).trans (g2_keeps (V2 V0) (r := main_v11) (by decide))).trans (g1_keeps (V1 V0) (r := main_v11) (by decide)))

theorem c_main_v19_18 (V0 : Valuation τ sig (Elt Ideal)) : V18 V0 (Proc.devRef .tc main_v19) = V1 V0 (Proc.devRef .tc main_v19) :=
  (((((((((((((((((g17_keeps (V17 V0) (r := main_v19) (by decide)).trans (g16_keeps (V16 V0) (r := main_v19) (by decide))).trans (g15_keeps (V15 V0) (r := main_v19) (by decide))).trans (g14_keeps (V14 V0) (r := main_v19) (by decide))).trans (g13_keeps (V13 V0) (r := main_v19) (by decide))).trans (g12_keeps (V12 V0) (r := main_v19) (by decide))).trans (g11_keeps (V11 V0) (r := main_v19) (by decide))).trans (g10_keeps (V10 V0) (r := main_v19) (by decide))).trans (g9_keeps (V9 V0) (r := main_v19) (by decide))).trans (g8_keeps (V8 V0) (r := main_v19) (by decide))).trans (g7_keeps (V7 V0) (r := main_v19) (by decide))).trans (g6_keeps (V6 V0) (r := main_v19) (by decide))).trans (g5_keeps (V5 V0) (r := main_v19) (by decide))).trans (g4_keeps (V4 V0) (r := main_v19) (by decide))).trans (g3_keeps (V3 V0) (r := main_v19) (by decide))).trans (g2_keeps (V2 V0) (r := main_v19) (by decide))).trans (g1_keeps (V1 V0) (r := main_v19) (by decide)))

theorem c_main_arg1_20 (V0 : Valuation τ sig (Elt Ideal)) : V20 V0 (Proc.devRef .tc main_arg1) = V0 (Proc.devRef .tc main_arg1) :=
  ((((((((((((((((((((g19_keeps (V19 V0) (r := main_arg1) (by decide)).trans (g18_keeps (V18 V0) (r := main_arg1) (by decide))).trans (g17_keeps (V17 V0) (r := main_arg1) (by decide))).trans (g16_keeps (V16 V0) (r := main_arg1) (by decide))).trans (g15_keeps (V15 V0) (r := main_arg1) (by decide))).trans (g14_keeps (V14 V0) (r := main_arg1) (by decide))).trans (g13_keeps (V13 V0) (r := main_arg1) (by decide))).trans (g12_keeps (V12 V0) (r := main_arg1) (by decide))).trans (g11_keeps (V11 V0) (r := main_arg1) (by decide))).trans (g10_keeps (V10 V0) (r := main_arg1) (by decide))).trans (g9_keeps (V9 V0) (r := main_arg1) (by decide))).trans (g8_keeps (V8 V0) (r := main_arg1) (by decide))).trans (g7_keeps (V7 V0) (r := main_arg1) (by decide))).trans (g6_keeps (V6 V0) (r := main_arg1) (by decide))).trans (g5_keeps (V5 V0) (r := main_arg1) (by decide))).trans (g4_keeps (V4 V0) (r := main_arg1) (by decide))).trans (g3_keeps (V3 V0) (r := main_arg1) (by decide))).trans (g2_keeps (V2 V0) (r := main_arg1) (by decide))).trans (g1_keeps (V1 V0) (r := main_arg1) (by decide))).trans (g0_keeps V0 (r := main_arg1) (by decide)))

theorem c_main_v5_20 (V0 : Valuation τ sig (Elt Ideal)) : V20 V0 (Proc.devRef .tc main_v5) = V1 V0 (Proc.devRef .tc main_v5) :=
  (((((((((((((((((((g19_keeps (V19 V0) (r := main_v5) (by decide)).trans (g18_keeps (V18 V0) (r := main_v5) (by decide))).trans (g17_keeps (V17 V0) (r := main_v5) (by decide))).trans (g16_keeps (V16 V0) (r := main_v5) (by decide))).trans (g15_keeps (V15 V0) (r := main_v5) (by decide))).trans (g14_keeps (V14 V0) (r := main_v5) (by decide))).trans (g13_keeps (V13 V0) (r := main_v5) (by decide))).trans (g12_keeps (V12 V0) (r := main_v5) (by decide))).trans (g11_keeps (V11 V0) (r := main_v5) (by decide))).trans (g10_keeps (V10 V0) (r := main_v5) (by decide))).trans (g9_keeps (V9 V0) (r := main_v5) (by decide))).trans (g8_keeps (V8 V0) (r := main_v5) (by decide))).trans (g7_keeps (V7 V0) (r := main_v5) (by decide))).trans (g6_keeps (V6 V0) (r := main_v5) (by decide))).trans (g5_keeps (V5 V0) (r := main_v5) (by decide))).trans (g4_keeps (V4 V0) (r := main_v5) (by decide))).trans (g3_keeps (V3 V0) (r := main_v5) (by decide))).trans (g2_keeps (V2 V0) (r := main_v5) (by decide))).trans (g1_keeps (V1 V0) (r := main_v5) (by decide)))

theorem c_main_v7_20 (V0 : Valuation τ sig (Elt Ideal)) : V20 V0 (Proc.devRef .tc main_v7) = V1 V0 (Proc.devRef .tc main_v7) :=
  (((((((((((((((((((g19_keeps (V19 V0) (r := main_v7) (by decide)).trans (g18_keeps (V18 V0) (r := main_v7) (by decide))).trans (g17_keeps (V17 V0) (r := main_v7) (by decide))).trans (g16_keeps (V16 V0) (r := main_v7) (by decide))).trans (g15_keeps (V15 V0) (r := main_v7) (by decide))).trans (g14_keeps (V14 V0) (r := main_v7) (by decide))).trans (g13_keeps (V13 V0) (r := main_v7) (by decide))).trans (g12_keeps (V12 V0) (r := main_v7) (by decide))).trans (g11_keeps (V11 V0) (r := main_v7) (by decide))).trans (g10_keeps (V10 V0) (r := main_v7) (by decide))).trans (g9_keeps (V9 V0) (r := main_v7) (by decide))).trans (g8_keeps (V8 V0) (r := main_v7) (by decide))).trans (g7_keeps (V7 V0) (r := main_v7) (by decide))).trans (g6_keeps (V6 V0) (r := main_v7) (by decide))).trans (g5_keeps (V5 V0) (r := main_v7) (by decide))).trans (g4_keeps (V4 V0) (r := main_v7) (by decide))).trans (g3_keeps (V3 V0) (r := main_v7) (by decide))).trans (g2_keeps (V2 V0) (r := main_v7) (by decide))).trans (g1_keeps (V1 V0) (r := main_v7) (by decide)))

theorem c_main_v21_20 (V0 : Valuation τ sig (Elt Ideal)) : V20 V0 (Proc.devRef .tc main_v21) = V1 V0 (Proc.devRef .tc main_v21) :=
  (((((((((((((((((((g19_keeps (V19 V0) (r := main_v21) (by decide)).trans (g18_keeps (V18 V0) (r := main_v21) (by decide))).trans (g17_keeps (V17 V0) (r := main_v21) (by decide))).trans (g16_keeps (V16 V0) (r := main_v21) (by decide))).trans (g15_keeps (V15 V0) (r := main_v21) (by decide))).trans (g14_keeps (V14 V0) (r := main_v21) (by decide))).trans (g13_keeps (V13 V0) (r := main_v21) (by decide))).trans (g12_keeps (V12 V0) (r := main_v21) (by decide))).trans (g11_keeps (V11 V0) (r := main_v21) (by decide))).trans (g10_keeps (V10 V0) (r := main_v21) (by decide))).trans (g9_keeps (V9 V0) (r := main_v21) (by decide))).trans (g8_keeps (V8 V0) (r := main_v21) (by decide))).trans (g7_keeps (V7 V0) (r := main_v21) (by decide))).trans (g6_keeps (V6 V0) (r := main_v21) (by decide))).trans (g5_keeps (V5 V0) (r := main_v21) (by decide))).trans (g4_keeps (V4 V0) (r := main_v21) (by decide))).trans (g3_keeps (V3 V0) (r := main_v21) (by decide))).trans (g2_keeps (V2 V0) (r := main_v21) (by decide))).trans (g1_keeps (V1 V0) (r := main_v21) (by decide)))

theorem c_main_v23_20 (V0 : Valuation τ sig (Elt Ideal)) : V20 V0 (Proc.devRef .tc main_v23) = V1 V0 (Proc.devRef .tc main_v23) :=
  (((((((((((((((((((g19_keeps (V19 V0) (r := main_v23) (by decide)).trans (g18_keeps (V18 V0) (r := main_v23) (by decide))).trans (g17_keeps (V17 V0) (r := main_v23) (by decide))).trans (g16_keeps (V16 V0) (r := main_v23) (by decide))).trans (g15_keeps (V15 V0) (r := main_v23) (by decide))).trans (g14_keeps (V14 V0) (r := main_v23) (by decide))).trans (g13_keeps (V13 V0) (r := main_v23) (by decide))).trans (g12_keeps (V12 V0) (r := main_v23) (by decide))).trans (g11_keeps (V11 V0) (r := main_v23) (by decide))).trans (g10_keeps (V10 V0) (r := main_v23) (by decide))).trans (g9_keeps (V9 V0) (r := main_v23) (by decide))).trans (g8_keeps (V8 V0) (r := main_v23) (by decide))).trans (g7_keeps (V7 V0) (r := main_v23) (by decide))).trans (g6_keeps (V6 V0) (r := main_v23) (by decide))).trans (g5_keeps (V5 V0) (r := main_v23) (by decide))).trans (g4_keeps (V4 V0) (r := main_v23) (by decide))).trans (g3_keeps (V3 V0) (r := main_v23) (by decide))).trans (g2_keeps (V2 V0) (r := main_v23) (by decide))).trans (g1_keeps (V1 V0) (r := main_v23) (by decide)))

theorem c_main_v25_20 (V0 : Valuation τ sig (Elt Ideal)) : V20 V0 (Proc.devRef .tc main_v25) = V1 V0 (Proc.devRef .tc main_v25) :=
  (((((((((((((((((((g19_keeps (V19 V0) (r := main_v25) (by decide)).trans (g18_keeps (V18 V0) (r := main_v25) (by decide))).trans (g17_keeps (V17 V0) (r := main_v25) (by decide))).trans (g16_keeps (V16 V0) (r := main_v25) (by decide))).trans (g15_keeps (V15 V0) (r := main_v25) (by decide))).trans (g14_keeps (V14 V0) (r := main_v25) (by decide))).trans (g13_keeps (V13 V0) (r := main_v25) (by decide))).trans (g12_keeps (V12 V0) (r := main_v25) (by decide))).trans (g11_keeps (V11 V0) (r := main_v25) (by decide))).trans (g10_keeps (V10 V0) (r := main_v25) (by decide))).trans (g9_keeps (V9 V0) (r := main_v25) (by decide))).trans (g8_keeps (V8 V0) (r := main_v25) (by decide))).trans (g7_keeps (V7 V0) (r := main_v25) (by decide))).trans (g6_keeps (V6 V0) (r := main_v25) (by decide))).trans (g5_keeps (V5 V0) (r := main_v25) (by decide))).trans (g4_keeps (V4 V0) (r := main_v25) (by decide))).trans (g3_keeps (V3 V0) (r := main_v25) (by decide))).trans (g2_keeps (V2 V0) (r := main_v25) (by decide))).trans (g1_keeps (V1 V0) (r := main_v25) (by decide)))

theorem c_main_v27_20 (V0 : Valuation τ sig (Elt Ideal)) : V20 V0 (Proc.devRef .tc main_v27) = V1 V0 (Proc.devRef .tc main_v27) :=
  (((((((((((((((((((g19_keeps (V19 V0) (r := main_v27) (by decide)).trans (g18_keeps (V18 V0) (r := main_v27) (by decide))).trans (g17_keeps (V17 V0) (r := main_v27) (by decide))).trans (g16_keeps (V16 V0) (r := main_v27) (by decide))).trans (g15_keeps (V15 V0) (r := main_v27) (by decide))).trans (g14_keeps (V14 V0) (r := main_v27) (by decide))).trans (g13_keeps (V13 V0) (r := main_v27) (by decide))).trans (g12_keeps (V12 V0) (r := main_v27) (by decide))).trans (g11_keeps (V11 V0) (r := main_v27) (by decide))).trans (g10_keeps (V10 V0) (r := main_v27) (by decide))).trans (g9_keeps (V9 V0) (r := main_v27) (by decide))).trans (g8_keeps (V8 V0) (r := main_v27) (by decide))).trans (g7_keeps (V7 V0) (r := main_v27) (by decide))).trans (g6_keeps (V6 V0) (r := main_v27) (by decide))).trans (g5_keeps (V5 V0) (r := main_v27) (by decide))).trans (g4_keeps (V4 V0) (r := main_v27) (by decide))).trans (g3_keeps (V3 V0) (r := main_v27) (by decide))).trans (g2_keeps (V2 V0) (r := main_v27) (by decide))).trans (g1_keeps (V1 V0) (r := main_v27) (by decide)))

theorem c_main_arg0_21 (V0 : Valuation τ sig (Elt Ideal)) : V21 V0 (Proc.devRef .tc main_arg0) = V0 (Proc.devRef .tc main_arg0) :=
  (((((((((((((((((((((g20_keeps (V20 V0) (r := main_arg0) (by decide)).trans (g19_keeps (V19 V0) (r := main_arg0) (by decide))).trans (g18_keeps (V18 V0) (r := main_arg0) (by decide))).trans (g17_keeps (V17 V0) (r := main_arg0) (by decide))).trans (g16_keeps (V16 V0) (r := main_arg0) (by decide))).trans (g15_keeps (V15 V0) (r := main_arg0) (by decide))).trans (g14_keeps (V14 V0) (r := main_arg0) (by decide))).trans (g13_keeps (V13 V0) (r := main_arg0) (by decide))).trans (g12_keeps (V12 V0) (r := main_arg0) (by decide))).trans (g11_keeps (V11 V0) (r := main_arg0) (by decide))).trans (g10_keeps (V10 V0) (r := main_arg0) (by decide))).trans (g9_keeps (V9 V0) (r := main_arg0) (by decide))).trans (g8_keeps (V8 V0) (r := main_arg0) (by decide))).trans (g7_keeps (V7 V0) (r := main_arg0) (by decide))).trans (g6_keeps (V6 V0) (r := main_arg0) (by decide))).trans (g5_keeps (V5 V0) (r := main_arg0) (by decide))).trans (g4_keeps (V4 V0) (r := main_arg0) (by decide))).trans (g3_keeps (V3 V0) (r := main_arg0) (by decide))).trans (g2_keeps (V2 V0) (r := main_arg0) (by decide))).trans (g1_keeps (V1 V0) (r := main_arg0) (by decide))).trans (g0_keeps V0 (r := main_arg0) (by decide)))

theorem c_main_arg1_21 (V0 : Valuation τ sig (Elt Ideal)) : V21 V0 (Proc.devRef .tc main_arg1) = V0 (Proc.devRef .tc main_arg1) :=
  (((((((((((((((((((((g20_keeps (V20 V0) (r := main_arg1) (by decide)).trans (g19_keeps (V19 V0) (r := main_arg1) (by decide))).trans (g18_keeps (V18 V0) (r := main_arg1) (by decide))).trans (g17_keeps (V17 V0) (r := main_arg1) (by decide))).trans (g16_keeps (V16 V0) (r := main_arg1) (by decide))).trans (g15_keeps (V15 V0) (r := main_arg1) (by decide))).trans (g14_keeps (V14 V0) (r := main_arg1) (by decide))).trans (g13_keeps (V13 V0) (r := main_arg1) (by decide))).trans (g12_keeps (V12 V0) (r := main_arg1) (by decide))).trans (g11_keeps (V11 V0) (r := main_arg1) (by decide))).trans (g10_keeps (V10 V0) (r := main_arg1) (by decide))).trans (g9_keeps (V9 V0) (r := main_arg1) (by decide))).trans (g8_keeps (V8 V0) (r := main_arg1) (by decide))).trans (g7_keeps (V7 V0) (r := main_arg1) (by decide))).trans (g6_keeps (V6 V0) (r := main_arg1) (by decide))).trans (g5_keeps (V5 V0) (r := main_arg1) (by decide))).trans (g4_keeps (V4 V0) (r := main_arg1) (by decide))).trans (g3_keeps (V3 V0) (r := main_arg1) (by decide))).trans (g2_keeps (V2 V0) (r := main_arg1) (by decide))).trans (g1_keeps (V1 V0) (r := main_arg1) (by decide))).trans (g0_keeps V0 (r := main_arg1) (by decide)))

theorem c_main_v336_20 (V0 : Valuation τ sig (Elt Ideal)) : V20 V0 (Proc.devRef .tc main_v336) = V18 V0 (Proc.devRef .tc main_v336) :=
  ((g19_keeps (V19 V0) (r := main_v336) (by decide)).trans (g18_keeps (V18 V0) (r := main_v336) (by decide)))

theorem col_1 (V0 : Valuation τ sig (Elt Ideal)) (i : Fin 4096) : V1 V0 (Proc.devRef .tc main_v1) (ix1 i) = pOf V0 i 0 := g0_main_v1 V0 i

theorem col_3 (V0 : Valuation τ sig (Elt Ideal)) (i : Fin 4096) : V1 V0 (Proc.devRef .tc main_v3) (ix1 i) = pOf V0 i 1 := g0_main_v3 V0 i

theorem col_5 (V0 : Valuation τ sig (Elt Ideal)) (i : Fin 4096) : V1 V0 (Proc.devRef .tc main_v5) (ix1 i) = pOf V0 i 2 := g0_main_v5 V0 i

theorem col_7 (V0 : Valuation τ sig (Elt Ideal)) (i : Fin 4096) : V1 V0 (Proc.devRef .tc main_v7) (ix1 i) = pOf V0 i 3 := g0_main_v7 V0 i

theorem col_9 (V0 : Valuation τ sig (Elt Ideal)) (i : Fin 4096) : V1 V0 (Proc.devRef .tc main_v9) (ix1 i) = pOf V0 i 4 := g0_main_v9 V0 i

theorem col_11 (V0 : Valuation τ sig (Elt Ideal)) (i : Fin 4096) : V1 V0 (Proc.devRef .tc main_v11) (ix1 i) = pOf V0 i 5 := g0_main_v11 V0 i

theorem col_13 (V0 : Valuation τ sig (Elt Ideal)) (i : Fin 4096) : V1 V0 (Proc.devRef .tc main_v13) (ix1 i) = pOf V0 i 6 := g0_main_v13 V0 i

theorem col_15 (V0 : Valuation τ sig (Elt Ideal)) (i : Fin 4096) : V1 V0 (Proc.devRef .tc main_v15) (ix1 i) = pOf V0 i 7 := g0_main_v15 V0 i

theorem col_17 (V0 : Valuation τ sig (Elt Ideal)) (i : Fin 4096) : V1 V0 (Proc.devRef .tc main_v17) (ix1 i) = pOf V0 i 8 := g0_main_v17 V0 i

theorem col_19 (V0 : Valuation τ sig (Elt Ideal)) (i : Fin 4096) : V1 V0 (Proc.devRef .tc main_v19) (ix1 i) = pOf V0 i 9 := g0_main_v19 V0 i

theorem col_21 (V0 : Valuation τ sig (Elt Ideal)) (i : Fin 4096) : V1 V0 (Proc.devRef .tc main_v21) (ix1 i) = pOf V0 i 18 := g0_main_v21 V0 i

theorem col_23 (V0 : Valuation τ sig (Elt Ideal)) (i : Fin 4096) : V1 V0 (Proc.devRef .tc main_v23) (ix1 i) = pOf V0 i 19 := g0_main_v23 V0 i

theorem col_25 (V0 : Valuation τ sig (Elt Ideal)) (i : Fin 4096) : V1 V0 (Proc.devRef .tc main_v25) (ix1 i) = pOf V0 i 20 := g0_main_v25 V0 i

theorem col_27 (V0 : Valuation τ sig (Elt Ideal)) (i : Fin 4096) : V1 V0 (Proc.devRef .tc main_v27) (ix1 i) = pOf V0 i 21 := g0_main_v27 V0 i

theorem cOf_V1 (V0 : Valuation τ sig (Elt Ideal)) : cOf (V1 V0) = cOf V0 := by
  funext i k
  show V1 V0 (Proc.devRef .tc main_arg0) (ix2 i k) = V0 (Proc.devRef .tc main_arg0) (ix2 i k)
  rw [c_main_arg0_1 V0]

theorem rmat_2 (V0 : Valuation τ sig (Elt Ideal)) (i j : Fin 4096) : V2 V0 (Proc.devRef .tc main_v41) (ix2 i j) = Cert.Spec.rmatR (cOf V0) i j := by
  rw [← cOf_V1 V0]; exact g1_main_v41 (V1 V0) i j

theorem eye_2 (V0 : Valuation τ sig (Elt Ideal)) (i j : Fin 4096) : V2 V0 (Proc.devRef .tc main_v39) (ix2 i j) = if i = j then 1#1 else 0#1 := g1_main_v39 (V1 V0) i j

theorem cnt_3 (V0 : Valuation τ sig (Elt Ideal)) (q : Fin 16777216) : V3 V0 (Proc.devRef .tc main_v46) (ix1 q) = BitVec.ofNat 32 (Nat.count upperPos (q.val + 1)) := v46_read (V2 V0) q

theorem flat_4 (V0 : Valuation τ sig (Elt Ideal)) (k : Fin 8386560) : V4 V0 (Proc.devRef .tc main_v57) (ix1 k) = BitVec.ofNat 32 (Nat.nth upperPos k.val) := v57_read (V3 V0) (cnt_3 V0) k

/-- The row and the column of pair `k`. -/
def I (k : Fin 8386560) : Fin 4096 := ⟨Nat.nth upperPos k.val / 4096, Nat.div_lt_of_lt_mul (by have := nth_lt k; omega)⟩
def J (k : Fin 8386560) : Fin 4096 := ⟨Nat.nth upperPos k.val % 4096, Nat.mod_lt _ (by norm_num)⟩
theorem I_lt_J (k : Fin 8386560) : I k < J k := nth_upper k

theorem row_5 (V0 : Valuation τ sig (Elt Ideal)) (k : Fin 8386560) : V5 V0 (Proc.devRef .tc main_v59) (ix1 k) = BitVec.ofNat 32 (I k).val := by
  have h := v59_read (V4 V0) k (Nat.nth upperPos k.val) (lt_of_lt_of_le (nth_lt k) (by norm_num)) (flat_4 V0 k)
  have e : Nat.nth upperPos k.val / 4096 % 4096 = (I k).val := Nat.mod_eq_of_lt (I k).isLt
  rw [e] at h
  exact h

theorem col_6 (V0 : Valuation τ sig (Elt Ideal)) (k : Fin 8386560) : V6 V0 (Proc.devRef .tc main_v61) (ix1 k) = BitVec.ofNat 32 (J k).val :=
  v61_read (V5 V0) k (Nat.nth upperPos k.val) (lt_of_lt_of_le (nth_lt k) (by norm_num)) (by rw [c_main_v57_5 V0]; exact flat_4 V0 k)

/-- The cutoff bit and the distance used for pair `k`. -/
def mk (V0 : Valuation τ sig (Elt Ideal)) (k : Fin 8386560) : BitVec 1 := Ideal.cmp .ole (Cert.Spec.rmatR (cOf V0) (I k) (J k)) Cert.Spec.five
def rs (V0 : Valuation τ sig (Elt Ideal)) (k : Fin 8386560) : EReal := Scalar.select (mk V0 k) (Cert.Spec.rmatR (cOf V0) (I k) (J k)) Cert.Spec.one

theorem mask_7 (V0 : Valuation τ sig (Elt Ideal)) (k : Fin 8386560) : V7 V0 (Proc.devRef .tc main_v77) (ix1 k) = mk V0 k :=
  g6_v77 (V6 V0) k (I k) (J k) _ (by rw [c_main_v59_6 V0]; exact row_5 V0 k) (col_6 V0 k) (by rw [c_main_v41_6 V0]; exact rmat_2 V0 (I k) (J k))

theorem rs_7 (V0 : Valuation τ sig (Elt Ideal)) (k : Fin 8386560) : V7 V0 (Proc.devRef .tc main_v78) (ix1 k) = rs V0 k :=
  g6_v78 (V6 V0) k (I k) (J k) _ (by rw [c_main_v59_6 V0]; exact row_5 V0 k) (col_6 V0 k) (by rw [c_main_v41_6 V0]; exact rmat_2 V0 (I k) (J k))

theorem v113_8 (V0 : Valuation τ sig (Elt Ideal)) (k : Fin 8386560) : V8 V0 (Proc.devRef .tc main_v113) (ix1 k) = numR (rs V0 k) ((pOf V0 (I k)) 0) ((pOf V0 (I k)) 1) ((pOf V0 (I k)) 5) :=
  g7_v113 (V7 V0) k (I k) (pOf V0 (I k)) (rs V0 k) (by rw [c_main_v59_7 V0]; exact row_5 V0 k) (by rw [c_main_v1_7 V0]; exact col_1 V0 (I k)) (by rw [c_main_v3_7 V0]; exact col_3 V0 (I k)) (by rw [c_main_v11_7 V0]; exact col_11 V0 (I k)) (rs_7 V0 k)

theorem v114_8 (V0 : Valuation τ sig (Elt Ideal)) (k : Fin 8386560) : V8 V0 (Proc.devRef .tc main_v114) (ix1 k) = baseR (rs V0 k) ((pOf V0 (I k)) 0) ((pOf V0 (I k)) 9) :=
  g7_v114 (V7 V0) k (I k) (pOf V0 (I k)) (rs V0 k) (by rw [c_main_v59_7 V0]; exact row_5 V0 k) (by rw [c_main_v1_7 V0]; exact col_1 V0 (I k)) (by rw [c_main_v19_7 V0]; exact col_19 V0 (I k)) (rs_7 V0 k)

theorem v122_9 (V0 : Valuation τ sig (Elt Ideal)) (k : Fin 8386560) : V9 V0 (Proc.devRef .tc main_v122) (ix1 k) = Cert.Spec.fR (pOf V0 (I k)) (rs V0 k) :=
  g8_v122 (V8 V0) k (pOf V0 (I k)) (rs V0 k) (v113_8 V0 k) (v114_8 V0 k)

theorem v157_10 (V0 : Valuation τ sig (Elt Ideal)) (k : Fin 8386560) : V10 V0 (Proc.devRef .tc main_v157) (ix1 k) = numR (rs V0 k) ((pOf V0 (J k)) 0) ((pOf V0 (J k)) 1) ((pOf V0 (J k)) 5) :=
  g9_v157 (V9 V0) k (J k) (pOf V0 (J k)) (rs V0 k) (by rw [c_main_v61_9 V0]; exact col_6 V0 k) (by rw [c_main_v1_9 V0]; exact col_1 V0 (J k)) (by rw [c_main_v3_9 V0]; exact col_3 V0 (J k)) (by rw [c_main_v11_9 V0]; exact col_11 V0 (J k)) (by rw [c_main_v78_9 V0]; exact rs_7 V0 k)

theorem v158_10 (V0 : Valuation τ sig (Elt Ideal)) (k : Fin 8386560) : V10 V0 (Proc.devRef .tc main_v158) (ix1 k) = baseR (rs V0 k) ((pOf V0 (J k)) 0) ((pOf V0 (J k)) 9) :=
  g9_v158 (V9 V0) k (J k) (pOf V0 (J k)) (rs V0 k) (by rw [c_main_v61_9 V0]; exact col_6 V0 k) (by rw [c_main_v1_9 V0]; exact col_1 V0 (J k)) (by rw [c_main_v19_9 V0]; exact col_19 V0 (J k)) (by rw [c_main_v78_9 V0]; exact rs_7 V0 k)

theorem v166_11 (V0 : Valuation τ sig (Elt Ideal)) (k : Fin 8386560) : V11 V0 (Proc.devRef .tc main_v166) (ix1 k) = Cert.Spec.fR (pOf V0 (J k)) (rs V0 k) :=
  g10_v166 (V10 V0) k (pOf V0 (J k)) (rs V0 k) (v157_10 V0 k) (v158_10 V0 k)

theorem v216_12 (V0 : Valuation τ sig (Elt Ideal)) (k : Fin 8386560) : V12 V0 (Proc.devRef .tc main_v216) (ix1 k) = Ideal.div (rs V0 k) ((pOf V0 (I k)) 0) :=
  g11_v216 (V11 V0) k (I k) (pOf V0 (I k)) (rs V0 k) (by rw [c_main_v59_11 V0]; exact row_5 V0 k) (by rw [c_main_v1_11 V0]; exact col_1 V0 (I k)) (by rw [c_main_v78_11 V0]; exact rs_7 V0 k)

theorem v222_12 (V0 : Valuation τ sig (Elt Ideal)) (k : Fin 8386560) : V12 V0 (Proc.devRef .tc main_v222) (ix1 k) = numR (rs V0 k) ((pOf V0 (I k)) 0) ((pOf V0 (I k)) 6) ((pOf V0 (I k)) 4) :=
  g11_v222 (V11 V0) k (I k) (pOf V0 (I k)) (rs V0 k) (by rw [c_main_v59_11 V0]; exact row_5 V0 k) (by rw [c_main_v1_11 V0]; exact col_1 V0 (I k)) (by rw [c_main_v13_11 V0]; exact col_13 V0 (I k)) (by rw [c_main_v9_11 V0]; exact col_9 V0 (I k)) (by rw [c_main_v78_11 V0]; exact rs_7 V0 k)

theorem v223_12 (V0 : Valuation τ sig (Elt Ideal)) (k : Fin 8386560) : V12 V0 (Proc.devRef .tc main_v223) (ix1 k) = baseR (rs V0 k) ((pOf V0 (I k)) 0) ((pOf V0 (I k)) 8) :=
  g11_v223 (V11 V0) k (I k) (pOf V0 (I k)) (rs V0 k) (by rw [c_main_v59_11 V0]; exact row_5 V0 k) (by rw [c_main_v1_11 V0]; exact col_1 V0 (I k)) (by rw [c_main_v17_11 V0]; exact col_17 V0 (I k)) (by rw [c_main_v78_11 V0]; exact rs_7 V0 k)

theorem v201_12 (V0 : Valuation τ sig (Elt Ideal)) (k : Fin 8386560) : V12 V0 (Proc.devRef .tc main_v201) (ix1 k) = (pOf V0 (I k)) 5 :=
  g11_v201 (V11 V0) k (I k) (pOf V0 (I k)) (by rw [c_main_v59_11 V0]; exact row_5 V0 k) (by rw [c_main_v11_11 V0]; exact col_11 V0 (I k))

theorem v180_12 (V0 : Valuation τ sig (Elt Ideal)) (k : Fin 8386560) : V12 V0 (Proc.devRef .tc main_v180) (ix1 k) = (pOf V0 (I k)) 7 :=
  g11_v180 (V11 V0) k (I k) (pOf V0 (I k)) (by rw [c_main_v59_11 V0]; exact row_5 V0 k) (by rw [c_main_v15_11 V0]; exact col_15 V0 (I k))

theorem v215_12 (V0 : Valuation τ sig (Elt Ideal)) (k : Fin 8386560) : V12 V0 (Proc.devRef .tc main_v215) (ix1 k) = (pOf V0 (I k)) 9 :=
  g11_v215 (V11 V0) k (I k) (pOf V0 (I k)) (by rw [c_main_v59_11 V0]; exact row_5 V0 k) (by rw [c_main_v19_11 V0]; exact col_19 V0 (I k))

theorem v231_13 (V0 : Valuation τ sig (Elt Ideal)) (k : Fin 8386560) : V13 V0 (Proc.devRef .tc main_v231) (ix1 k) = Cert.Spec.termR (rs V0 k) ((pOf V0 (I k)) 0) ((pOf V0 (I k)) 6) ((pOf V0 (I k)) 4) ((pOf V0 (I k)) 8) :=
  g12_v231 (V12 V0) k (pOf V0 (I k)) (rs V0 k) (v222_12 V0 k) (v223_12 V0 k)

theorem v237_13 (V0 : Valuation τ sig (Elt Ideal)) (k : Fin 8386560) : V13 V0 (Proc.devRef .tc main_v237) (ix1 k) = numR (rs V0 k) ((pOf V0 (I k)) 0) ((pOf V0 (I k)) 7) ((pOf V0 (I k)) 5) :=
  g12_v237 (V12 V0) k (pOf V0 (I k)) (rs V0 k) (v216_12 V0 k) (v201_12 V0 k) (v180_12 V0 k)

theorem v238_13 (V0 : Valuation τ sig (Elt Ideal)) (k : Fin 8386560) : V13 V0 (Proc.devRef .tc main_v238) (ix1 k) = baseR (rs V0 k) ((pOf V0 (I k)) 0) ((pOf V0 (I k)) 9) :=
  g12_v238 (V12 V0) k (pOf V0 (I k)) (rs V0 k) (v216_12 V0 k) (v215_12 V0 k)

theorem v247_14 (V0 : Valuation τ sig (Elt Ideal)) (k : Fin 8386560) : V14 V0 (Proc.devRef .tc main_v247) (ix1 k) = Cert.Spec.phiR (pOf V0 (I k)) (rs V0 k) :=
  g13_v247 (V13 V0) k (pOf V0 (I k)) (rs V0 k) (v231_13 V0 k) (v237_13 V0 k) (v238_13 V0 k)

theorem v297_15 (V0 : Valuation τ sig (Elt Ideal)) (k : Fin 8386560) : V15 V0 (Proc.devRef .tc main_v297) (ix1 k) = Ideal.div (rs V0 k) ((pOf V0 (J k)) 0) :=
  g14_v297 (V14 V0) k (J k) (pOf V0 (J k)) (rs V0 k) (by rw [c_main_v61_14 V0]; exact col_6 V0 k) (by rw [c_main_v1_14 V0]; exact col_1 V0 (J k)) (by rw [c_main_v78_14 V0]; exact rs_7 V0 k)

theorem v303_15 (V0 : Valuation τ sig (Elt Ideal)) (k : Fin 8386560) : V15 V0 (Proc.devRef .tc main_v303) (ix1 k) = numR (rs V0 k) ((pOf V0 (J k)) 0) ((pOf V0 (J k)) 6) ((pOf V0 (J k)) 4) :=
  g14_v303 (V14 V0) k (J k) (pOf V0 (J k)) (rs V0 k) (by rw [c_main_v61_14 V0]; exact col_6 V0 k) (by rw [c_main_v1_14 V0]; exact col_1 V0 (J k)) (by rw [c_main_v13_14 V0]; exact col_13 V0 (J k)) (by rw [c_main_v9_14 V0]; exact col_9 V0 (J k)) (by rw [c_main_v78_14 V0]; exact rs_7 V0 k)

theorem v304_15 (V0 : Valuation τ sig (Elt Ideal)) (k : Fin 8386560) : V15 V0 (Proc.devRef .tc main_v304) (ix1 k) = baseR (rs V0 k) ((pOf V0 (J k)) 0) ((pOf V0 (J k)) 8) :=
  g14_v304 (V14 V0) k (J k) (pOf V0 (J k)) (rs V0 k) (by rw [c_main_v61_14 V0]; exact col_6 V0 k) (by rw [c_main_v1_14 V0]; exact col_1 V0 (J k)) (by rw [c_main_v17_14 V0]; exact col_17 V0 (J k)) (by rw [c_main_v78_14 V0]; exact rs_7 V0 k)

theorem v282_15 (V0 : Valuation τ sig (Elt Ideal)) (k : Fin 8386560) : V15 V0 (Proc.devRef .tc main_v282) (ix1 k) = (pOf V0 (J k)) 5 :=
  g14_v282 (V14 V0) k (J k) (pOf V0 (J k)) (by rw [c_main_v61_14 V0]; exact col_6 V0 k) (by rw [c_main_v11_14 V0]; exact col_11 V0 (J k))

theorem v261_15 (V0 : Valuation τ sig (Elt Ideal)) (k : Fin 8386560) : V15 V0 (Proc.devRef .tc main_v261) (ix1 k) = (pOf V0 (J k)) 7 :=
  g14_v261 (V14 V0) k (J k) (pOf V0 (J k)) (by rw [c_main_v61_14 V0]; exact col_6 V0 k) (by rw [c_main_v15_14 V0]; exact col_15 V0 (J k))

theorem v296_15 (V0 : Valuation τ sig (Elt Ideal)) (k : Fin 8386560) : V15 V0 (Proc.devRef .tc main_v296) (ix1 k) = (pOf V0 (J k)) 9 :=
  g14_v296 (V14 V0) k (J k) (pOf V0 (J k)) (by rw [c_main_v61_14 V0]; exact col_6 V0 k) (by rw [c_main_v19_14 V0]; exact col_19 V0 (J k))

theorem v312_16 (V0 : Valuation τ sig (Elt Ideal)) (k : Fin 8386560) : V16 V0 (Proc.devRef .tc main_v312) (ix1 k) = Cert.Spec.termR (rs V0 k) ((pOf V0 (J k)) 0) ((pOf V0 (J k)) 6) ((pOf V0 (J k)) 4) ((pOf V0 (J k)) 8) :=
  g15_v312 (V15 V0) k (pOf V0 (J k)) (rs V0 k) (v303_15 V0 k) (v304_15 V0 k)

theorem v318_16 (V0 : Valuation τ sig (Elt Ideal)) (k : Fin 8386560) : V16 V0 (Proc.devRef .tc main_v318) (ix1 k) = numR (rs V0 k) ((pOf V0 (J k)) 0) ((pOf V0 (J k)) 7) ((pOf V0 (J k)) 5) :=
  g15_v318 (V15 V0) k (pOf V0 (J k)) (rs V0 k) (v297_15 V0 k) (v282_15 V0 k) (v261_15 V0 k)

theorem v319_16 (V0 : Valuation τ sig (Elt Ideal)) (k : Fin 8386560) : V16 V0 (Proc.devRef .tc main_v319) (ix1 k) = baseR (rs V0 k) ((pOf V0 (J k)) 0) ((pOf V0 (J k)) 9) :=
  g15_v319 (V15 V0) k (pOf V0 (J k)) (rs V0 k) (v297_15 V0 k) (v296_15 V0 k)

theorem v328_17 (V0 : Valuation τ sig (Elt Ideal)) (k : Fin 8386560) : V17 V0 (Proc.devRef .tc main_v328) (ix1 k) = Cert.Spec.phiR (pOf V0 (J k)) (rs V0 k) :=
  g16_v328 (V16 V0) k (pOf V0 (J k)) (rs V0 k) (v312_16 V0 k) (v318_16 V0 k) (v319_16 V0 k)

theorem pe_18 (V0 : Valuation τ sig (Elt Ideal)) : V18 V0 (Proc.devRef .tc main_v336) ix0
    = Cert.Spec.half * ∑ k : Fin 8386560, Scalar.select (mk V0 k) (Cert.Spec.pairR (pOf V0 (I k)) (pOf V0 (J k)) (rs V0 k)) 0 :=
  g17_v336_pair (V17 V0) (mk V0) (fun k => (pOf V0 (I k))) (fun k => (pOf V0 (J k))) (rs V0)
    (fun k => (by rw [c_main_v77_17 V0]; exact mask_7 V0 k)) (fun k => (by rw [c_main_v122_17 V0]; exact v122_9 V0 k))
    (fun k => (by rw [c_main_v166_17 V0]; exact v166_11 V0 k)) (fun k => (by rw [c_main_v247_17 V0]; exact v247_14 V0 k)) (fun k => v328_17 V0 k)

theorem rho_20 (V0 : Valuation τ sig (Elt Ideal)) (i : Fin 4096) : V20 V0 (Proc.devRef .tc main_v362) (ix1 i) = Cert.Spec.rhoR (cOf V0) (pOf V0) i :=
  g18_g19_main_v362 (V18 V0) (cOf V0) (pOf V0) (fun i j => (by rw [c_main_v41_18 V0]; exact rmat_2 V0 i j)) (fun i j => (by rw [c_main_v39_18 V0]; exact eye_2 V0 i j))
    (fun i => (by rw [c_main_v1_18 V0]; exact col_1 V0 i)) (fun i => (by rw [c_main_v3_18 V0]; exact col_3 V0 i)) (fun i => (by rw [c_main_v11_18 V0]; exact col_11 V0 i)) (fun i => (by rw [c_main_v19_18 V0]; exact col_19 V0 i)) i

theorem total_21 (V0 : Valuation τ sig (Elt Ideal)) : V21 V0 (Proc.devRef .tc main_v415) ix0
    = Cert.Spec.half * (∑ k : Fin 8386560, Scalar.select (mk V0 k) (Cert.Spec.pairR (pOf V0 (I k)) (pOf V0 (J k)) (rs V0 k)) 0)
      + ∑ i : Fin 4096, Cert.Spec.emb (Cert.Spec.rhoR (cOf V0) (pOf V0) i) (pOf V0 i) :=
  g20_main_v415 (V20 V0) (pOf V0) (Cert.Spec.rhoR (cOf V0) (pOf V0))
    (fun i k => by show V20 V0 (Proc.devRef .tc main_arg1) (ix2 i k) = V0 (Proc.devRef .tc main_arg1) (ix2 i k); rw [c_main_arg1_20 V0])
    (rho_20 V0) (fun i => (by rw [c_main_v5_20 V0]; exact col_5 V0 i)) (fun i => (by rw [c_main_v7_20 V0]; exact col_7 V0 i)) (fun i => (by rw [c_main_v21_20 V0]; exact col_21 V0 i)) (fun i => (by rw [c_main_v23_20 V0]; exact col_23 V0 i)) (fun i => (by rw [c_main_v25_20 V0]; exact col_25 V0 i)) (fun i => (by rw [c_main_v27_20 V0]; exact col_27 V0 i))
    _ (by rw [c_main_v336_20 V0]; exact pe_18 V0)

/-- Summing over the pair numbers is summing over the pairs `i < j`. -/
theorem pair_sum (V0 : Valuation τ sig (Elt Ideal)) :
    ∑ k : Fin 8386560, Scalar.select (mk V0 k) (Cert.Spec.pairR (pOf V0 (I k)) (pOf V0 (J k)) (rs V0 k)) 0
      = ∑ ij ∈ (Finset.univ : Finset (Fin 4096 × Fin 4096)).filter (fun ij => ij.1 < ij.2),
          Cert.Spec.pairTermR (cOf V0) (pOf V0) ij.1 ij.2 := by
  let T : Fin 4096 → Fin 4096 → EReal := Cert.Spec.pairTermR (cOf V0) (pOf V0)
  let g : Nat → EReal := fun q =>
    if h : q < 16777216 then T ⟨q / 4096, Nat.div_lt_of_lt_mul (by omega)⟩ ⟨q % 4096, Nat.mod_lt _ (by norm_num)⟩ else 0
  have h1 : ∀ k : Fin 8386560, Scalar.select (mk V0 k) (Cert.Spec.pairR (pOf V0 (I k)) (pOf V0 (J k)) (rs V0 k)) 0
      = g (Nat.nth upperPos k.val) := by
    intro k
    show _ = dite _ _ _
    rw [dif_pos (nth_lt k)]
    rfl
  have hg : ∀ i j : Fin 4096, g (i.val * 4096 + j.val) = T i j := by
    intro i j
    have hi := i.isLt
    have hj := j.isLt
    show dite _ _ _ = _
    rw [dif_pos (by omega)]
    have hd : (i.val * 4096 + j.val) / 4096 = i.val := by omega
    have hm : (i.val * 4096 + j.val) % 4096 = j.val := by omega
    congr 1
    · exact Fin.ext hd
    · exact Fin.ext hm
  rw [Fintype.sum_congr _ _ h1, Fin.sum_univ_eq_sum_range (fun k => g (Nat.nth upperPos k)) 8386560, ← count_upperPos,
    LibNthCount.sum_nth upperPos g 16777216]
  have e : (16777216 : Nat) = 4096 * 4096 := by norm_num
  rw [e]
  rw [show (Finset.range (4096 * 4096)).filter upperPos = (Finset.range (4096 * 4096)).filter (fun q => q / 4096 < q % 4096) from rfl,
    LibPairSum.sum_triu_positions (N := 4096) T g hg]
  exact LibPairSum.sum_upper_congr T T (fun _ _ _ => rfl)

/-- The reference's result buffer after all its operations. -/
theorem value (V0 : Valuation τ sig (Elt Ideal)) :
    after (ops (F := Ideal)) V0 (Proc.devRef .tc main_v415) ix0 = Cert.Spec.totalR (cOf V0) (pOf V0) := by
  rw [after_ops, total_21, pair_sum]
  rfl

/-- The argument buffers after all the operations are what they were. -/
theorem kept_arg0 (V0 : Valuation τ sig (Elt Ideal)) :
    after (ops (F := Ideal)) V0 (Proc.devRef .tc main_arg0) = V0 (Proc.devRef .tc main_arg0) := by
  rw [after_ops]; exact c_main_arg0_21 V0
theorem kept_arg1 (V0 : Valuation τ sig (Elt Ideal)) :
    after (ops (F := Ideal)) V0 (Proc.devRef .tc main_arg1) = V0 (Proc.devRef .tc main_arg1) := by
  rw [after_ops]; exact c_main_arg1_21 V0

end Cert.ReferenceIdeal.HandValue
-- ==== Proof.RFinal.lean ====
/-
  The reference program's run read at its result: from any launch memory every weakly fair execution ends, nothing
  faulting, with the result buffer at the closed form `Spec.totalR` of the coordinates and parameters it was launched
  with, and with both argument arrays as launched (no operation of the program writes them).
-/
import proofs.«121872_j23974507446662_1_alg».proof.Proof.RRun
import proofs.«121872_j23974507446662_1_alg».proof.Proof.RVal

noncomputable section

namespace Cert.ReferenceIdeal.HandValue

open Cert.ReferenceIdeal Cert.ReferenceIdeal.Gen Cert.ReferenceIdeal.HandRun
  Idealize.ShloMosaic Idealize.ShloMosaic.TcCoe Idealize.ShloMosaic.StableHlo Idealize.ShloMosaic.ValueIdx Idealize.SL.Sem

/-- THE RUN of the reference program: its result is `Spec.totalR` of its arguments, which end unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v415)
          = (fun _ => Cert.Spec.totalR (fun i k => m ((c.tc : Thread nD τ).loc main_arg0) (ix2 i k))
              (fun i k => m ((c.tc : Thread nD τ).loc main_arg1) (ix2 i k)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c main_v415).trans (funext fun i => by rw [eq_ix0 i]; exact value (launchContents m c)),
     (h c main_arg0).trans (kept_arg0 (launchContents m c)),
     (h c main_arg1).trans (kept_arg1 (launchContents m c))⟩) (HandRun.run (F := Ideal) m ρ)

end Cert.ReferenceIdeal.HandValue

end
-- ==== Proof.Bridge.lean ====
/-
  The two programs' closed forms are one number when the coordinates are finite. The density and pair terms of the two
  spellings agree term by term (a product of two factors in either order; zero minus β for minus β); the squared
  distances agree because a real difference and its negative have one square; so the two distance matrices agree off
  the diagonal, where alone they are read, and they are symmetric. The pair energy of (i, j) is symmetric, hence its sum
  over all ordered pairs i ≠ j is twice its sum over the pairs i < j, and a quarter of the former is a half of the latter.
-/
import proofs.«121872_j23974507446662_1_alg».proof.Proof.Spec
import proofs.«121872_j23974507446662_1_alg».proof.Proof.LibPairSum
import Idealize.ShloMosaic.PureOps.Ideal.Laws

noncomputable section

open scoped BigOperators

namespace Cert.Bridge

open Idealize.ShloMosaic Cert.Spec

/-- The quarter and the half words denote 1/4 and 1/2. -/
theorem quarter_eq : quarter = ((1 / 4 : ℝ) : EReal) := by
  simp [quarter, Ideal.ofBits, Ideal.ieee, -EReal.coe_mul]; norm_num
theorem half_eq : half = ((1 / 2 : ℝ) : EReal) := by
  simp [half, Ideal.ofBits, Ideal.ieee, -EReal.coe_mul]; norm_num

theorem pow20_eq (d : EReal) : pow20K d = pow20R d := by
  unfold pow20K pow20R
  exact mul_comm _ _

theorem term_eq (r re amp rate shift : EReal) : termK r re amp rate shift = termR r re amp rate shift := by
  unfold termK termR
  rw [pow20_eq, show zero = (0 : EReal) from Ideal.ofBits_zero_f32, zero_sub]

theorem f_eq (q : Fin 22 → EReal) (r : EReal) : fK q r = fR q r := term_eq _ _ _ _ _
theorem phi_eq (q : Fin 22 → EReal) (r : EReal) : phiK q r = phiR q r := by
  unfold phiK phiR; rw [term_eq, term_eq]
theorem pair_eq (qa qb : Fin 22 → EReal) (r : EReal) : pairK qa qb r = pairR qa qb r := by
  unfold pairK pairR; rw [f_eq, f_eq, phi_eq, phi_eq]
/-- The pair energy does not depend on which atom is called the row atom. -/
theorem pairR_symm (qa qb : Fin 22 → EReal) (r : EReal) : pairR qa qb r = pairR qb qa r := by
  unfold pairR; exact add_comm _ _

variable (c : Fin 4096 → Fin 3 → EReal) (p : Fin 4096 → Fin 22 → EReal)

/-- A finite difference and its negative have one square. -/
theorem sq_sub_comm {x y : EReal} (hx : ∃ a : ℝ, x = a) (hy : ∃ b : ℝ, y = b) :
    (x - y) * (x - y) = (y - x) * (y - x) := by
  obtain ⟨a, rfl⟩ := hx
  obtain ⟨b, rfl⟩ := hy
  rw [← EReal.coe_sub, ← EReal.coe_sub, ← EReal.coe_mul, ← EReal.coe_mul]
  congr 1
  ring

variable (hc : ∀ i k, ∃ a : ℝ, c i k = a)
include hc

theorem r2_eq (i j : Fin 4096) : r2K c i j = r2R c i j := by
  unfold r2K r2R
  rw [Fin.sum_univ_three, sq_sub_comm (hc i 0) (hc j 0), sq_sub_comm (hc i 1) (hc j 1), sq_sub_comm (hc i 2) (hc j 2)]

theorem r2R_symm (i j : Fin 4096) : r2R c i j = r2R c j i := by
  unfold r2R
  exact Finset.sum_congr rfl fun k _ => sq_sub_comm (hc j k) (hc i k)

theorem r_eq {i j : Fin 4096} (hij : i ≠ j) : rK c i j = rmatR c i j := by
  unfold rK rmatR
  rw [if_neg hij, r2_eq c hc]

theorem rmat_symm {i j : Fin 4096} (hij : i ≠ j) : rmatR c i j = rmatR c j i := by
  unfold rmatR
  rw [if_neg hij, if_neg (Ne.symm hij), r2R_symm c hc]

theorem rho_eq (i : Fin 4096) : rhoK c p i = rhoR c p i := by
  unfold rhoK rhoR
  refine Finset.sum_congr rfl fun j _ => ?_
  by_cases hij : i = j
  · rw [if_pos hij, if_pos hij]
  · rw [if_neg hij, if_neg hij, f_eq, r_eq c hc hij]

/-- The masked pair energy of a pair at its distance: what both programs add for the pair. -/
def h (i j : Fin 4096) : EReal :=
  Scalar.select (Ideal.cmp .ole (rmatR c i j) five) (pairR (p i) (p j) (rmatR c i j)) 0

theorem pairTermR_eq (i j : Fin 4096) : pairTermR c p i j = h c p i j := by
  unfold pairTermR h
  by_cases hb : Ideal.cmp .ole (rmatR c i j) five = 1#1
  · rw [hb]; rfl
  · have hb0 : Ideal.cmp .ole (rmatR c i j) five = 0#1 := ValueIdx.eq_zero_of_ne_one hb
    rw [hb0]; rfl

theorem h_symm {i j : Fin 4096} (hij : i ≠ j) : h c p i j = h c p j i := by
  unfold h
  rw [rmat_symm c hc hij, pairR_symm]

theorem erow_eq (i : Fin 4096) : erowK c p i = ∑ j : Fin 4096, if i ≠ j then h c p i j else 0 := by
  unfold erowK
  refine Finset.sum_congr rfl fun j _ => ?_
  by_cases hij : i = j
  · rw [if_pos hij, if_neg (not_not.2 hij)]
  · rw [if_neg hij, if_pos hij, pair_eq, r_eq c hc hij]
    rfl

/-- A quarter of the sum over all ordered pairs is a half of the sum over the pairs i < j. -/
theorem pair_energy_eq :
    quarter * (∑ i : Fin 4096, erowK c p i)
      = half * (∑ ij ∈ (Finset.univ : Finset (Fin 4096 × Fin 4096)).filter (fun ij => ij.1 < ij.2), pairTermR c p ij.1 ij.2) := by
  have hsum : ∑ i : Fin 4096, erowK c p i
      = ∑ i : Fin 4096, ∑ j : Fin 4096, if i ≠ j then (fun a b => if a = b then 0 else h c p a b) i j else 0 := by
    refine Finset.sum_congr rfl fun i _ => ?_
    rw [erow_eq c p hc]
    refine Finset.sum_congr rfl fun j _ => ?_
    by_cases hij : i = j
    · rw [if_neg (not_not.2 hij), if_neg (not_not.2 hij)]
    · rw [if_pos hij, if_pos hij]
      show h c p i j = if i = j then 0 else h c p i j
      rw [if_neg hij]
  have hsymm : ∀ a b : Fin 4096, (fun a b => if a = b then (0 : EReal) else h c p a b) a b
      = (fun a b => if a = b then (0 : EReal) else h c p a b) b a := by
    intro a b
    by_cases hab : a = b
    · subst hab; rfl
    · show (if a = b then 0 else h c p a b) = (if b = a then 0 else h c p b a)
      rw [if_neg hab, if_neg (Ne.symm hab), h_symm c p hc hab]
  have hup := LibPairSum.sum_upper_congr (fun a b => if a = b then (0 : EReal) else h c p a b) (pairTermR c p)
    (fun i j hij => by
      show (if i = j then 0 else h c p i j) = pairTermR c p i j
      rw [if_neg (ne_of_lt hij), pairTermR_eq c p hc])
  rw [hsum, LibPairSum.sum_offDiag_eq_twice _ hsymm, hup, quarter_eq, half_eq, LibPairSum.quarter_add_self]

theorem emb_sum_eq : ∑ i : Fin 4096, emb (rhoK c p i) (p i) = ∑ i : Fin 4096, emb (rhoR c p i) (p i) :=
  Finset.sum_congr rfl fun i _ => by rw [rho_eq c p hc]

/-- The two programs compute one number. -/
theorem total_eq : totalK c p = totalR c p := by
  unfold totalK totalR
  rw [pair_energy_eq c p hc, emb_sum_eq c p hc]

end Cert.Bridge
-- ==== Proof.Finite.lean ====
/-
  The precondition read back: `finite_inputs` says that every entry of both argument arrays has absolute value below +∞,
  as two `jnp.all` reductions joined by `and`. On the extended reals an absolute value below +∞ leaves out exactly the two
  infinities, so every entry is a real number.
-/
import proofs.«121872_j23974507446662_1_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic

instance : Subsingleton Cert.Pre_finite_inputs.S_.Idx := ⟨fun _ _ => funext fun d => d.elim0⟩

/-- An extended real whose absolute value is below the +∞ word is a real. -/
theorem real_of_abs_lt (x : EReal)
    (h : Ideal.cmp .olt (max x (-x)) (Ideal.ofBits .f32 0x7F800000#32) = 1#1) : ∃ a : ℝ, x = a := by
  have hinf : Ideal.ofBits .f32 0x7F800000#32 = ⊤ := by simp [Ideal.ofBits, Ideal.ieee]
  rw [hinf] at h
  have h' : max x (-x) < ⊤ := by
    by_contra hn
    unfold Ideal.cmp at h
    simp only [hn, decide_false] at h
    exact absurd h (by decide)
  induction x using EReal.rec with
  | bot => simp at h'
  | coe a => exact ⟨a, rfl⟩
  | top => simp at h'

variable [Cert.Pre_finite_inputs.Facts]

/-- Under the precondition every entry of the first argument array (the coordinates) is a real. -/
theorem arg0_real (a0 : FVec Ideal Cert.Pre_finite_inputs.S4096x3 .f32) (a1 : FVec Ideal Cert.Pre_finite_inputs.S4096x22 .f32)
    (h : Cert.Pre_finite_inputs.fn (F := Ideal) a0 a1 = fun _ => 1#1) (i : Cert.Pre_finite_inputs.S4096x3.Idx) :
    ∃ a : ℝ, a0 i = a := by
  have h0 := congrFun h ValueIdx.ix0
  dsimp only [Cert.Pre_finite_inputs.fn] at h0
  have h1 := (IntOp.andi_eq_one.1 h0).1
  have hi := Host.reduce_andi_all _ _ _ _ _ h1 i
  exact real_of_abs_lt (a0 i) hi

end Cert.Finite
-- ==== Proof.lean ====
/-
  The certificate's claim, assembled.

  The three programs run to the end without a fault and leave their two argument arrays as launched: the kernel
  program (at the word level and at the extended reals) by the run of its two transposes, its 256-point pipeline and
  its later lines, which write other buffers only; the reference program by the run of its host operations, none of
  which writes an argument.  The idealized kernel is the kernel's own text read at the extended reals: nothing was
  rewritten.

  The two idealized programs end with one number.  The kernel program's result is a quarter of the pair energies summed
  over all ordered pairs of distinct atoms within the cutoff, plus the embedding energies of the densities; the
  reference's is a half of the pair energies over the pairs i < j, plus the same embedding energies.  The pair energy is
  symmetric in its two atoms, and the two programs' squared distances — differences taken in opposite orders — agree
  when the coordinates are real numbers, which the precondition says: so the two closed forms are equal.
-/
import proofs.«121872_j23974507446662_1_alg».proof.Defs
import proofs.«121872_j23974507446662_1_alg».proof.Proof.Gen.Kernel
import proofs.«121872_j23974507446662_1_alg».proof.Proof.Gen.Kernel.Skeleton
import proofs.«121872_j23974507446662_1_alg».proof.Proof.Gen.Kernel.Launch
import proofs.«121872_j23974507446662_1_alg».proof.Proof.Gen.Kernel.Points
import proofs.«121872_j23974507446662_1_alg».proof.Proof.Gen.KernelIdeal
import proofs.«121872_j23974507446662_1_alg».proof.Proof.Gen.KernelIdeal.Skeleton
import proofs.«121872_j23974507446662_1_alg».proof.Proof.Gen.KernelIdeal.Launch
import proofs.«121872_j23974507446662_1_alg».proof.Proof.Gen.KernelIdeal.Points
import proofs.«121872_j23974507446662_1_alg».proof.Proof.Gen.ReferenceIdeal
import proofs.«121872_j23974507446662_1_alg».proof.Proof.Gen.Pre_finite_inputs
import proofs.«121872_j23974507446662_1_alg».proof.Proof.KFrameBits
import proofs.«121872_j23974507446662_1_alg».proof.Proof.KValueRun
import proofs.«121872_j23974507446662_1_alg».proof.Proof.RFinal
import proofs.«121872_j23974507446662_1_alg».proof.Proof.Bridge
import proofs.«121872_j23974507446662_1_alg».proof.Proof.Finite
import Idealize.ShloMosaic.Adequacy
import Idealize.ShloMosaic.Init

noncomputable section

namespace Cert.Proof

open Idealize.ShloMosaic Idealize.ShloMosaic.ValueIdx Idealize.SL.Sem

/-- The word-level kernel program runs and keeps its arguments. -/
theorem frame_Kernel : Cert.frame_Kernel (hKernel := Cert.Kernel.Gen.facts) (hPre_finite_inputs := Cert.Pre_finite_inputs.Gen.facts) :=
  fun m g _ => Cert.Kernel.Hand.frame (F := Bits) m g

/-- So does the kernel program read at the extended reals. -/
theorem frame_KernelIdeal : Cert.frame_KernelIdeal (hKernelIdeal := Cert.KernelIdeal.Gen.facts) (hPre_finite_inputs := Cert.Pre_finite_inputs.Gen.facts) :=
  fun m g _ => Cert.KernelIdeal.Hand.frame (F := Ideal) m g

/-- And the reference program: its run, the result dropped. -/
theorem frame_ReferenceIdeal : Cert.frame_ReferenceIdeal (hReferenceIdeal := Cert.ReferenceIdeal.Gen.facts) (hPre_finite_inputs := Cert.Pre_finite_inputs.Gen.facts) :=
  fun m g _ => (θ_run Cert.ReferenceIdeal.defs _ _).mono (fun _ h c => (h c).2) (Cert.ReferenceIdeal.HandValue.run_value m g)

/-- From memories agreeing on the arguments the two idealized programs end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' hpre hagree
  refine ⟨fun c => fun _ => Cert.Spec.totalK (Cert.KernelIdeal.HandValue.cOf m c) (Cert.KernelIdeal.HandValue.pOf m c), Cert.KernelIdeal.HandValue.run m g, ?_⟩
  refine (θ_run Cert.ReferenceIdeal.defs _ _).mono (fun _ h c => ⟨?_, (h c).2⟩) (Cert.ReferenceIdeal.HandValue.run_value m' g')
  rw [(h c).1, (hagree c).1, (hagree c).2]
  funext _
  exact (Cert.Bridge.total_eq _ _ (fun i k => Cert.Finite.arg0_real _ _ (hpre c) (ix2 i k))).symm

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
